-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v197)) (v1 : (c : Dev Cert.KernelIdeal.nD) → Buf (Elt Ideal) ((c.tc : Thread Cert.KernelIdeal.nD Cert.KernelIdeal.τ).loc Cert.KernelIdeal.main_v199)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v197) = v0 c
          ∧ r.2.mem ((c.tc : Thread Cert.KernelIdeal.nD Cert.KernelIdeal.τ).loc Cert.KernelIdeal.main_v199) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v254) = v0 c
          ∧ r.2.mem ((c.tc : Thread Cert.ReferenceIdeal.nD Cert.ReferenceIdeal.τ).loc Cert.ReferenceIdeal.main_v258) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S3x600000 : Shape := ⟨2, ![3, 600000]⟩
abbrev S3x256x128 : Shape := ⟨3, ![3, 256, 128]⟩
abbrev S3x128 : Shape := ⟨2, ![3, 128]⟩
abbrev S3x128x128 : Shape := ⟨3, ![3, 128, 128]⟩
abbrev S128x16 : Shape := ⟨2, ![128, 16]⟩
abbrev S16 : Shape := ⟨1, ![16]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S3x256x128 : S_.BroadcastsInDim S3x256x128 (![] : Fin 0 → Fin S3x256x128.rank)
  reducesTo_S3x256x128_S_d0_1_2 : S3x256x128.ReducesTo [0, 1, 2] S_
  bcast_S_S3x128 : S_.BroadcastsInDim S3x128 (![] : Fin 0 → Fin S3x128.rank)
  reducesTo_S3x128_S_d0_1 : S3x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg6 : FVec F S3x128 .f32) (main_arg7 : FVec F S128x16 .f32) (main_arg8 : FVec F S16 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg6
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S128x16 .f32 := Host.absf main_arg7
  let main_cst_8 : FVec F S_ .f32 := constant S_ .f32 0x7F800000#32
  let main_v25 : FVec F S128x16 .f32 := broadcastInDim S128x16 ![] bcast_S_S128x16 main_cst_8
  let main_v26 : IVec S128x16 1 := cmpf .olt main_v24 main_v25
  let main_c_9 : IVec S_ 1 := constantI S_ 1 1#1
  let main_v27 : IVec S_ 1 := (fun x v => Host.reduce IntOp.andi x v reducesTo_S128x16_S_d0_1 h_S_) main_v26 main_c_9
  let main_v28 : IVec S_ 1 := andi main_v23 main_v27
  let main_v29 : FVec F S16 .f32 := Host.absf main_arg8
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S100000x256 .f32) (main_arg1 : IVec S3x600000 32) (main_arg2 : IVec S3x600000 32) (main_arg3 : FVec F S3x256x128 .f32) (main_arg4 : FVec F S3x128 .f32) (main_arg5 : FVec F S3x128x128 .f32) (main_arg6 : FVec F S3x128 .f32) (main_arg7 : FVec F S128x16 .f32) (main_arg8 : FVec F S16 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S3x256x128 .f32 := Host.absf main_arg3
  let main_cst_0 : FVec F S_ .f32 := constant S_ .f32 0x7F800000#32
  let main_v5 : FVec F S3x256x128 .f32 := broadcastInDim S3x256x128 ![] bcast_S_S3x256x128 main_cst_0
  let main_v6 : IVec S3x256x128 1 := cmpf .olt main_v4 main_v5
  let main_c_1 : IVec S_ 1 := constantI S_ 1 1#1
  let main_v7 : IVec S_ 1 := (fun x v => Host.reduce IntOp.andi x v reducesTo_S3x256x128_S_d0_1_2 h_S_) main_v6 main_c_1
  let main_v8 : IVec S_ 1 := andi main_v3 main_v7
  let main_v9 : FVec F S3x128 .f32 := Host.absf main_arg4
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg5
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg6 main_arg7 main_arg8 main_v13 main_v16
-- ==== Kernel.lean ====
abbrev S100000x256 : Shape := ⟨2, ![100000, 256]⟩
abbrev S3x600000 : Shape := ⟨2, ![3, 600000]⟩
abbrev S3x256x128 : Shape := ⟨3, ![3, 256, 128]⟩
abbrev S3x128 : Shape := ⟨2, ![3, 128]⟩
abbrev S3x128x128 : Shape := ⟨3, ![3, 128, 128]⟩
abbrev S128x16 : Shape := ⟨2, ![128, 16]⟩
abbrev S16 : Shape := ⟨1, ![16]⟩
abbrev S1x600000 : Shape := ⟨2, ![1, 600000]⟩
abbrev S600000 : Shape := ⟨1, ![600000]⟩
abbrev S_ : Shape := ⟨0, ![]⟩
abbrev S100000 : Shape := ⟨1, ![100000]⟩
abbrev S600000x1 : Shape := ⟨2, ![600000, 1]⟩
abbrev S1x256x128 : Shape := ⟨3, ![1, 256, 128]⟩
abbrev S256x128 : Shape := ⟨2, ![256, 128]⟩
abbrev S100000x1 : Shape := ⟨2, ![100000, 1]⟩
abbrev S100000x128 : Shape := ⟨2, ![100000, 128]⟩
abbrev S2000x256 : Shape := ⟨2, ![2000, 256]⟩
abbrev S2000x1 : Shape := ⟨2, ![2000, 1]⟩
abbrev S2000x128 : Shape := ⟨2, ![2000, 128]⟩
abbrev S600000x128 : Shape := ⟨2, ![600000, 128]⟩
abbrev S128 : Shape := ⟨1, ![128]⟩
abbrev S1x128 : Shape := ⟨2, ![1, 128]⟩
abbrev S1x128x128 : Shape := ⟨3, ![1, 128, 128]⟩
abbrev S128x128 : Shape := ⟨2, ![128, 128]⟩
abbrev S1x16 : Shape := ⟨2, ![1, 16]⟩
abbrev S100000x16 : Shape := ⟨2, ![100000, 16]⟩
abbrev S2000x16 : Shape := ⟨2, ![2000, 16]⟩

abbrev nBuf : Space → Nat
  | .hbm => 295
  | .vmem => 78
  | .smem => 0
  | _ => 0

abbrev hbmTy0_0 (i : Nat) : BufTy := match i % 128 with
  | 0 => ⟨S100000x256, .f32⟩
  | 1 => ⟨S3x600000, .i32⟩
  | 2 => ⟨S3x600000, .i32⟩
  | 3 => ⟨S3x256x128, .f32⟩
  | 4 => ⟨S3x128, .f32⟩
  | 5 => ⟨S3x128x128, .f32⟩
  | 6 => ⟨S3x128, .f32⟩
  | 7 => ⟨S128x16, .f32⟩
  | 8 => ⟨S16, .f32⟩
  | 9 => ⟨S1x600000, .i32⟩
  | 10 => ⟨S600000, .i32⟩
  | 11 => ⟨S1x600000, .i32⟩
  | 12 => ⟨S600000, .i32⟩
  | 13 => ⟨S_, .f32⟩
  | 14 => ⟨S600000, .f32⟩
  | 15 => ⟨S_, .f32⟩
  | 16 => ⟨S100000, .f32⟩
  | 17 => ⟨S600000x1, .i32⟩
  | 18 => ⟨S100000, .f32⟩
  | 19 => ⟨S_, .f32⟩
  | 20 => ⟨S_, .f32⟩
  | 21 => ⟨S100000, .f32⟩
  | 22 => ⟨S100000, .f32⟩
  | 23 => ⟨S_, .f32⟩
  | 24 => ⟨S100000, .f32⟩
  | 25 => ⟨S600000x1, .i32⟩
  | 26 => ⟨S100000, .f32⟩
  | 27 => ⟨S_, .f32⟩
  | 28 => ⟨S_, .f32⟩
  | 29 => ⟨S100000, .f32⟩
  | 30 => ⟨S100000, .f32⟩
  | 31 => ⟨S_, .f32⟩
  | 32 => ⟨S100000, .f32⟩
  | 33 => ⟨S100000, .f32⟩
  | 34 => ⟨S_, .f32⟩
  | 35 => ⟨S100000, .f32⟩
  | 36 => ⟨S100000, .f32⟩
  | 37 => ⟨S1x256x128, .f32⟩
  | 38 => ⟨S256x128, .f32⟩
  | 39 => ⟨S100000x1, .f32⟩
  | 40 => ⟨S100000x128, .f32⟩
  | 41 => ⟨S_, .i32⟩
  | 42 => ⟨S600000, .i32⟩
  | 43 => ⟨S600000, .i1⟩
  | 44 => ⟨S_, .i32⟩
  | 45 => ⟨S600000, .i32⟩
  | 46 => ⟨S600000, .i32⟩
  | 47 => ⟨S600000, .i32⟩
  | 48 => ⟨S600000x1, .i32⟩
  | 49 => ⟨S600000x128, .f32⟩
  | 50 => ⟨S_, .f32⟩
  | 51 => ⟨S100000x128, .f32⟩
  | 52 => ⟨S600000x1, .i32⟩
  | 53 => ⟨S100000x128, .f32⟩
  | 54 => ⟨S1x600000, .i32⟩
  | 55 => ⟨S600000, .i32⟩
  | 56 => ⟨S1x600000, .i32⟩
  | 57 => ⟨S600000, .i32⟩
  | 58 => ⟨S_, .f32⟩
  | 59 => ⟨S600000, .f32⟩
  | 60 => ⟨S_, .f32⟩
  | 61 => ⟨S100000, .f32⟩
  | 62 => ⟨S600000x1, .i32⟩
  | 63 => ⟨S100000, .f32⟩
  | 64 => ⟨S_, .f32⟩
  | 65 => ⟨S_, .f32⟩
  | 66 => ⟨S100000, .f32⟩
  | 67 => ⟨S100000, .f32⟩
  | 68 => ⟨S_, .f32⟩
  | 69 => ⟨S100000, .f32⟩
  | 70 => ⟨S600000x1, .i32⟩
  | 71 => ⟨S100000, .f32⟩
  | 72 => ⟨S_, .f32⟩
  | 73 => ⟨S_, .f32⟩
  | 74 => ⟨S100000, .f32⟩
  | 75 => ⟨S100000, .f32⟩
  | 76 => ⟨S_, .f32⟩
  | 77 => ⟨S100000, .f32⟩
  | 78 => ⟨S100000, .f32⟩
  | 79 => ⟨S_, .f32⟩
  | 80 => ⟨S100000, .f32⟩
  | 81 => ⟨S100000, .f32⟩
  | 82 => ⟨S1x256x128, .f32⟩
  | 83 => ⟨S256x128, .f32⟩
  | 84 => ⟨S100000x1, .f32⟩
  | 85 => ⟨S100000x128, .f32⟩
  | 86 => ⟨S_, .i32⟩
  | 87 => ⟨S600000, .i32⟩
  | 88 => ⟨S600000, .i1⟩
  | 89 => ⟨S_, .i32⟩
  | 90 => ⟨S600000, .i32⟩
  | 91 => ⟨S600000, .i32⟩
  | 92 => ⟨S600000, .i32⟩
  | 93 => ⟨S600000x1, .i32⟩
  | 94 => ⟨S600000x128, .f32⟩
  | 95 => ⟨S_, .f32⟩
  | 96 => ⟨S100000x128, .f32⟩
  | 97 => ⟨S600000x1, .i32⟩
  | 98 => ⟨S100000x128, .f32⟩
  | 99 => ⟨S1x600000, .i32⟩
  | 100 => ⟨S600000, .i32⟩
  | 101 => ⟨S1x600000, .i32⟩
  | 102 => ⟨S600000, .i32⟩
  | 103 => ⟨S_, .f32⟩
  | 104 => ⟨S600000, .f32⟩
  | 105 => ⟨S_, .f32⟩
  | 106 => ⟨S100000, .f32⟩
  | 107 => ⟨S600000x1, .i32⟩
  | 108 => ⟨S100000, .f32⟩
  | 109 => ⟨S_, .f32⟩
  | 110 => ⟨S_, .f32⟩
  | 111 => ⟨S100000, .f32⟩
  | 112 => ⟨S100000, .f32⟩
  | 113 => ⟨S_, .f32⟩
  | 114 => ⟨S100000, .f32⟩
  | 115 => ⟨S600000x1, .i32⟩
  | 116 => ⟨S100000, .f32⟩
  | 117 => ⟨S_, .f32⟩
  | 118 => ⟨S_, .f32⟩
  | 119 => ⟨S100000, .f32⟩
  | 120 => ⟨S100000, .f32⟩
  | 121 => ⟨S_, .f32⟩
  | 122 => ⟨S100000, .f32⟩
  | 123 => ⟨S100000, .f32⟩
  | 124 => ⟨S_, .f32⟩
  | 125 => ⟨S100000, .f32⟩
  | 126 => ⟨S100000, .f32⟩
  | 127 => ⟨S1x256x128, .f32⟩
  | _ => ⟨S100000x256, .f32⟩

abbrev hbmTy0_1 (i : Nat) : BufTy := match i % 128 with
  | 0 => ⟨S256x128, .f32⟩
  | 1 => ⟨S100000x1, .f32⟩
  | 2 => ⟨S100000x128, .f32⟩
  | 3 => ⟨S_, .i32⟩
  | 4 => ⟨S600000, .i32⟩
  | 5 => ⟨S600000, .i1⟩
  | 6 => ⟨S_, .i32⟩
  | 7 => ⟨S600000, .i32⟩
  | 8 => ⟨S600000, .i32⟩
  | 9 => ⟨S600000, .i32⟩
  | 10 => ⟨S600000x1, .i32⟩
  | 11 => ⟨S600000x128, .f32⟩
  | 12 => ⟨S_, .f32⟩
  | 13 => ⟨S100000x128, .f32⟩
  | 14 => ⟨S600000x1, .i32⟩
  | 15 => ⟨S100000x128, .f32⟩
  | 16 => ⟨S_, .f32⟩
  | 17 => ⟨S128, .f32⟩
  | 18 => ⟨S1x128, .f32⟩
  | 19 => ⟨S100000x1, .f32⟩
  | 20 => ⟨S100000x1, .f32⟩
  | 21 => ⟨S100000x1, .f32⟩
  | 22 => ⟨S100000x128, .f32⟩
  | 23 => ⟨S1x600000, .i32⟩
  | 24 => ⟨S600000, .i32⟩
  | 25 => ⟨S1x600000, .i32⟩
  | 26 => ⟨S600000, .i32⟩
  | 27 => ⟨S_, .f32⟩
  | 28 => ⟨S600000, .f32⟩
  | 29 => ⟨S_, .f32⟩
  | 30 => ⟨S100000, .f32⟩
  | 31 => ⟨S600000x1, .i32⟩
  | 32 => ⟨S100000, .f32⟩
  | 33 => ⟨S_, .f32⟩
  | 34 => ⟨S_, .f32⟩
  | 35 => ⟨S100000, .f32⟩
  | 36 => ⟨S100000, .f32⟩
  | 37 => ⟨S_, .f32⟩
  | 38 => ⟨S100000, .f32⟩
  | 39 => ⟨S600000x1, .i32⟩
  | 40 => ⟨S100000, .f32⟩
  | 41 => ⟨S_, .f32⟩
  | 42 => ⟨S_, .f32⟩
  | 43 => ⟨S100000, .f32⟩
  | 44 => ⟨S100000, .f32⟩
  | 45 => ⟨S_, .f32⟩
  | 46 => ⟨S100000, .f32⟩
  | 47 => ⟨S100000, .f32⟩
  | 48 => ⟨S_, .f32⟩
  | 49 => ⟨S100000, .f32⟩
  | 50 => ⟨S100000, .f32⟩
  | 51 => ⟨S1x128x128, .f32⟩
  | 52 => ⟨S128x128, .f32⟩
  | 53 => ⟨S100000x1, .f32⟩
  | 54 => ⟨S100000x128, .f32⟩
  | 55 => ⟨S_, .i32⟩
  | 56 => ⟨S600000, .i32⟩
  | 57 => ⟨S600000, .i1⟩
  | 58 => ⟨S_, .i32⟩
  | 59 => ⟨S600000, .i32⟩
  | 60 => ⟨S600000, .i32⟩
  | 61 => ⟨S600000, .i32⟩
  | 62 => ⟨S600000x1, .i32⟩
  | 63 => ⟨S600000x128, .f32⟩
  | 64 => ⟨S_, .f32⟩
  | 65 => ⟨S100000x128, .f32⟩
  | 66 => ⟨S600000x1, .i32⟩
  | 67 => ⟨S100000x128, .f32⟩
  | 68 => ⟨S1x600000, .i32⟩
  | 69 => ⟨S600000, .i32⟩
  | 70 => ⟨S1x600000, .i32⟩
  | 71 => ⟨S600000, .i32⟩
  | 72 => ⟨S_, .f32⟩
  | 73 => ⟨S600000, .f32⟩
  | 74 => ⟨S_, .f32⟩
  | 75 => ⟨S100000, .f32⟩
  | 76 => ⟨S600000x1, .i32⟩
  | 77 => ⟨S100000, .f32⟩
  | 78 => ⟨S_, .f32⟩
  | 79 => ⟨S_, .f32⟩
  | 80 => ⟨S100000, .f32⟩
  | 81 => ⟨S100000, .f32⟩
  | 82 => ⟨S_, .f32⟩
  | 83 => ⟨S100000, .f32⟩
  | 84 => ⟨S600000x1, .i32⟩
  | 85 => ⟨S100000, .f32⟩
  | 86 => ⟨S_, .f32⟩
  | 87 => ⟨S_, .f32⟩
  | 88 => ⟨S100000, .f32⟩
  | 89 => ⟨S100000, .f32⟩
  | 90 => ⟨S_, .f32⟩
  | 91 => ⟨S100000, .f32⟩
  | 92 => ⟨S100000, .f32⟩
  | 93 => ⟨S_, .f32⟩
  | 94 => ⟨S100000, .f32⟩
  | 95 => ⟨S100000, .f32⟩
  | 96 => ⟨S1x128x128, .f32⟩
  | 97 => ⟨S128x128, .f32⟩
  | 98 => ⟨S100000x1, .f32⟩
  | 99 => ⟨S100000x128, .f32⟩
  | 100 => ⟨S_, .i32⟩
  | 101 => ⟨S600000, .i32⟩
  | 102 => ⟨S600000, .i1⟩
  | 103 => ⟨S_, .i32⟩
  | 104 => ⟨S600000, .i32⟩
  | 105 => ⟨S600000, .i32⟩
  | 106 => ⟨S600000, .i32⟩
  | 107 => ⟨S600000x1, .i32⟩
  | 108 => ⟨S600000x128, .f32⟩
  | 109 => ⟨S_, .f32⟩
  | 110 => ⟨S100000x128, .f32⟩
  | 111 => ⟨S600000x1, .i32⟩
  | 112 => ⟨S100000x128, .f32⟩
  | 113 => ⟨S1x600000, .i32⟩
  | 114 => ⟨S600000, .i32⟩
  | 115 => ⟨S1x600000, .i32⟩
  | 116 => ⟨S600000, .i32⟩
  | 117 => ⟨S_, .f32⟩
  | 118 => ⟨S600000, .f32⟩
  | 119 => ⟨S_, .f32⟩
  | 120 => ⟨S100000, .f32⟩
  | 121 => ⟨S600000x1, .i32⟩
  | 122 => ⟨S100000, .f32⟩
  | 123 => ⟨S_, .f32⟩
  | 124 => ⟨S_, .f32⟩
  | 125 => ⟨S100000, .f32⟩
  | 126 => ⟨S100000, .f32⟩
  | 127 => ⟨S_, .f32⟩
  | _ => ⟨S100000x256, .f32⟩

abbrev hbmTy0_2 (i : Nat) : BufTy := match i % 128 with
  | 0 => ⟨S100000, .f32⟩
  | 1 => ⟨S600000x1, .i32⟩
  | 2 => ⟨S100000, .f32⟩
  | 3 => ⟨S_, .f32⟩
  | 4 => ⟨S_, .f32⟩
  | 5 => ⟨S100000, .f32⟩
  | 6 => ⟨S100000, .f32⟩
  | 7 => ⟨S_, .f32⟩
  | 8 => ⟨S100000, .f32⟩
  | 9 => ⟨S100000, .f32⟩
  | 10 => ⟨S_, .f32⟩
  | 11 => ⟨S100000, .f32⟩
  | 12 => ⟨S100000, .f32⟩
  | 13 => ⟨S1x128x128, .f32⟩
  | 14 => ⟨S128x128, .f32⟩
  | 15 => ⟨S100000x1, .f32⟩
  | 16 => ⟨S100000x128, .f32⟩
  | 17 => ⟨S_, .i32⟩
  | 18 => ⟨S600000, .i32⟩
  | 19 => ⟨S600000, .i1⟩
  | 20 => ⟨S_, .i32⟩
  | 21 => ⟨S600000, .i32⟩
  | 22 => ⟨S600000, .i32⟩
  | 23 => ⟨S600000, .i32⟩
  | 24 => ⟨S600000x1, .i32⟩
  | 25 => ⟨S600000x128, .f32⟩
  | 26 => ⟨S_, .f32⟩
  | 27 => ⟨S100000x128, .f32⟩
  | 28 => ⟨S600000x1, .i32⟩
  | 29 => ⟨S100000x128, .f32⟩
  | 30 => ⟨S_, .f32⟩
  | 31 => ⟨S128, .f32⟩
  | 32 => ⟨S1x128, .f32⟩
  | 33 => ⟨S100000x1, .f32⟩
  | 34 => ⟨S100000x1, .f32⟩
  | 35 => ⟨S100000x1, .f32⟩
  | 36 => ⟨S100000x128, .f32⟩
  | 37 => ⟨S1x16, .f32⟩
  | 38 => ⟨S100000x16, .f32⟩
  | _ => ⟨S100000x256, .f32⟩

abbrev hbmTy (i : Nat) : BufTy := match i / 128 with
  | 0 => hbmTy0_0 i
  | 1 => hbmTy0_1 i
  | 2 => hbmTy0_2 i
  | _ => ⟨S100000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S2000x1, .f32⟩
  | .local _ .vmem, ⟨3, _⟩ => ⟨S2000x1, .f32⟩
  | .local _ .vmem, ⟨4, _⟩ => ⟨S256x128, .f32⟩
  | .local _ .vmem, ⟨5, _⟩ => ⟨S2000x128, .f32⟩
  | .local _ .vmem, ⟨6, _⟩ => ⟨S2000x128, .f32⟩
  | .local _ .vmem, ⟨7, _⟩ => ⟨S2000x256, .f32⟩
  | .local _ .vmem, ⟨8, _⟩ => ⟨S2000x256, .f32⟩
  | .local _ .vmem, ⟨9, _⟩ => ⟨S2000x1, .f32⟩
  | .local _ .vmem, ⟨10, _⟩ => ⟨S2000x1, .f32⟩
  | .local _ .vmem, ⟨11, _⟩ => ⟨S256x128, .f32⟩
  | .local _ .vmem, ⟨12, _⟩ => ⟨S2000x128, .f32⟩
  | .local _ .vmem, ⟨13, _⟩ => ⟨S2000x128, .f32⟩
  | .local _ .vmem, ⟨14, _⟩ => ⟨S2000x256, .f32⟩
  | .local _ .vmem, ⟨15, _⟩ => ⟨S2000x256, .f32⟩
  | .local _ .vmem, ⟨16, _⟩ => ⟨S2000x1, .f32⟩
  | .local _ .vmem, ⟨17, _⟩ => ⟨S2000x1, .f32⟩
  | .local _ .vmem, ⟨18, _⟩ => ⟨S256x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x1, .f32⟩
  | .local _ .vmem, ⟨28, _⟩ => ⟨S2000x1, .f32⟩
  | .local _ .vmem, ⟨29, _⟩ => ⟨S2000x1, .f32⟩
  | .local _ .vmem, ⟨30, _⟩ => ⟨S2000x1, .f32⟩
  | .local _ .vmem, ⟨31, _⟩ => ⟨S2000x1, .f32⟩
  | .local _ .vmem, ⟨32, _⟩ => ⟨S2000x1, .f32⟩
  | .local _ .vmem, ⟨33, _⟩ => ⟨S1x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S2000x1, .f32⟩
  | .local _ .vmem, ⟨39, _⟩ => ⟨S2000x1, .f32⟩
  | .local _ .vmem, ⟨40, _⟩ => ⟨S128x128, .f32⟩
  | .local _ .vmem, ⟨41, _⟩ => ⟨S2000x128, .f32⟩
  | .local _ .vmem, ⟨42, _⟩ => ⟨S2000x128, .f32⟩
  | .local _ .vmem, ⟨43, _⟩ => ⟨S2000x128, .f32⟩
  | .local _ .vmem, ⟨44, _⟩ => ⟨S2000x128, .f32⟩
  | .local _ .vmem, ⟨45, _⟩ => ⟨S2000x1, .f32⟩
  | .local _ .vmem, ⟨46, _⟩ => ⟨S2000x1, .f32⟩
  | .local _ .vmem, ⟨47, _⟩ => ⟨S128x128, .f32⟩
  | .local _ .vmem, ⟨48, _⟩ => ⟨S2000x128, .f32⟩
  | .local _ .vmem, ⟨49, _⟩ => ⟨S2000x128, .f32⟩
  | .local _ .vmem, ⟨50, _⟩ => ⟨S2000x128, .f32⟩
  | .local _ .vmem, ⟨51, _⟩ => ⟨S2000x128, .f32⟩
  | .local _ .vmem, ⟨52, _⟩ => ⟨S2000x1, .f32⟩
  | .local _ .vmem, ⟨53, _⟩ => ⟨S2000x1, .f32⟩
  | .local _ .vmem, ⟨54, _⟩ => ⟨S128x128, .f32⟩
  | .local _ .vmem, ⟨55, _⟩ => ⟨S2000x128, .f32⟩
  | .local _ .vmem, ⟨56, _⟩ => ⟨S2000x128, .f32⟩
  | .local _ .vmem, ⟨57, _⟩ => ⟨S2000x128, .f32⟩
  | .local _ .vmem, ⟨58, _⟩ => ⟨S2000x128, .f32⟩
  | .local _ .vmem, ⟨59, _⟩ => ⟨S2000x128, .f32⟩
  | .local _ .vmem, ⟨60, _⟩ => ⟨S2000x128, .f32⟩
  | .local _ .vmem, ⟨61, _⟩ => ⟨S2000x128, .f32⟩
  | .local _ .vmem, ⟨62, _⟩ => ⟨S2000x128, .f32⟩
  | .local _ .vmem, ⟨63, _⟩ => ⟨S2000x1, .f32⟩
  | .local _ .vmem, ⟨64, _⟩ => ⟨S2000x1, .f32⟩
  | .local _ .vmem, ⟨65, _⟩ => ⟨S2000x1, .f32⟩
  | .local _ .vmem, ⟨66, _⟩ => ⟨S2000x1, .f32⟩
  | .local _ .vmem, ⟨67, _⟩ => ⟨S2000x1, .f32⟩
  | .local _ .vmem, ⟨68, _⟩ => ⟨S2000x1, .f32⟩
  | .local _ .vmem, ⟨69, _⟩ => ⟨S1x128, .f32⟩
  | .local _ .vmem, ⟨70, _⟩ => ⟨S2000x128, .f32⟩
  | .local _ .vmem, ⟨71, _⟩ => ⟨S2000x128, .f32⟩
  | .local _ .vmem, ⟨72, _⟩ => ⟨S2000x128, .f32⟩
  | .local _ .vmem, ⟨73, _⟩ => ⟨S2000x128, .f32⟩
  | .local _ .vmem, ⟨74, _⟩ => ⟨S128x16, .f32⟩
  | .local _ .vmem, ⟨75, _⟩ => ⟨S1x16, .f32⟩
  | .local _ .vmem, ⟨76, _⟩ => ⟨S2000x16, .f32⟩
  | .local _ .vmem, ⟨77, _⟩ => ⟨S2000x16, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | _, _ => false

abbrev semScoped : Fin 0 → Bool
  | ⟨_, h⟩ => absurd h (Nat.not_lt_zero _)

abbrev dmaSemScoped : Fin 78 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | _ => false

abbrev sig : RefSig :=
  ofTc nBuf bufTy 0 78 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_3 : Ref sig .tc := ⟨.hbm, 27, rfl⟩
abbrev main_call1_v0 : Ref sig .tc := ⟨.hbm, 28, rfl⟩
abbrev main_call1_v1 : Ref sig .tc := ⟨.hbm, 29, rfl⟩
abbrev main_v12 : Ref sig .tc := ⟨.hbm, 30, rfl⟩
abbrev main_cst_4 : Ref sig .tc := ⟨.hbm, 31, rfl⟩
abbrev main_v13 : Ref sig .tc := ⟨.hbm, 32, rfl⟩
abbrev main_v14 : Ref sig .tc := ⟨.hbm, 33, rfl⟩
abbrev main_cst_5 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c : Ref sig .tc := ⟨.hbm, 41, rfl⟩
abbrev main_v21 : Ref sig .tc := ⟨.hbm, 42, rfl⟩
abbrev main_v22 : Ref sig .tc := ⟨.hbm, 43, rfl⟩
abbrev main_c_6 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_7 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_8 : Ref sig .tc := ⟨.hbm, 58, rfl⟩
abbrev main_v35 : Ref sig .tc := ⟨.hbm, 59, rfl⟩
abbrev main_cst_9 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_10 : Ref sig .tc := ⟨.hbm, 64, rfl⟩
abbrev main_call2_v0 : Ref sig .tc := ⟨.hbm, 65, rfl⟩
abbrev main_call2_v1 : Ref sig .tc := ⟨.hbm, 66, rfl⟩
abbrev main_v39 : Ref sig .tc := ⟨.hbm, 67, rfl⟩
abbrev main_cst_11 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_12 : Ref sig .tc := ⟨.hbm, 72, rfl⟩
abbrev main_call3_v0 : Ref sig .tc := ⟨.hbm, 73, rfl⟩
abbrev main_call3_v1 : Ref sig .tc := ⟨.hbm, 74, rfl⟩
abbrev main_v43 : Ref sig .tc := ⟨.hbm, 75, rfl⟩
abbrev main_cst_13 : Ref sig .tc := ⟨.hbm, 76, rfl⟩
abbrev main_v44 : Ref sig .tc := ⟨.hbm, 77, rfl⟩
abbrev main_v45 : Ref sig .tc := ⟨.hbm, 78, rfl⟩
abbrev main_cst_14 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_c_15 : Ref sig .tc := ⟨.hbm, 86, rfl⟩
abbrev main_v52 : Ref sig .tc := ⟨.hbm, 87, rfl⟩
abbrev main_v53 : Ref sig .tc := ⟨.hbm, 88, rfl⟩
abbrev main_c_16 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_17 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_cst_18 : Ref sig .tc := ⟨.hbm, 103, rfl⟩
abbrev main_v66 : Ref sig .tc := ⟨.hbm, 104, rfl⟩
abbrev main_cst_19 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_cst_20 : Ref sig .tc := ⟨.hbm, 109, rfl⟩
abbrev main_call4_v0 : Ref sig .tc := ⟨.hbm, 110, rfl⟩
abbrev main_call4_v1 : Ref sig .tc := ⟨.hbm, 111, rfl⟩
abbrev main_v70 : Ref sig .tc := ⟨.hbm, 112, rfl⟩
abbrev main_cst_21 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_cst_22 : Ref sig .tc := ⟨.hbm, 117, rfl⟩
abbrev main_call5_v0 : Ref sig .tc := ⟨.hbm, 118, rfl⟩
abbrev main_call5_v1 : Ref sig .tc := ⟨.hbm, 119, rfl⟩
abbrev main_v74 : Ref sig .tc := ⟨.hbm, 120, rfl⟩
abbrev main_cst_23 : Ref sig .tc := ⟨.hbm, 121, rfl⟩
abbrev main_v75 : Ref sig .tc := ⟨.hbm, 122, rfl⟩
abbrev main_v76 : Ref sig .tc := ⟨.hbm, 123, rfl⟩
abbrev main_cst_24 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_c_25 : Ref sig .tc := ⟨.hbm, 131, rfl⟩
abbrev main_v83 : Ref sig .tc := ⟨.hbm, 132, rfl⟩
abbrev main_v84 : Ref sig .tc := ⟨.hbm, 133, rfl⟩
abbrev main_c_26 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_cst_27 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_cst_28 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_cst_29 : Ref sig .tc := ⟨.hbm, 155, rfl⟩
abbrev main_v103 : Ref sig .tc := ⟨.hbm, 156, rfl⟩
abbrev main_cst_30 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_cst_31 : Ref sig .tc := ⟨.hbm, 161, rfl⟩
abbrev main_call6_v0 : Ref sig .tc := ⟨.hbm, 162, rfl⟩
abbrev main_call6_v1 : Ref sig .tc := ⟨.hbm, 163, rfl⟩
abbrev main_v107 : Ref sig .tc := ⟨.hbm, 164, rfl⟩
abbrev main_cst_32 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_cst_33 : Ref sig .tc := ⟨.hbm, 169, rfl⟩
abbrev main_call7_v0 : Ref sig .tc := ⟨.hbm, 170, rfl⟩
abbrev main_call7_v1 : Ref sig .tc := ⟨.hbm, 171, rfl⟩
abbrev main_v111 : Ref sig .tc := ⟨.hbm, 172, rfl⟩
abbrev main_cst_34 : Ref sig .tc := ⟨.hbm, 173, rfl⟩
abbrev main_v112 : Ref sig .tc := ⟨.hbm, 174, rfl⟩
abbrev main_v113 : Ref sig .tc := ⟨.hbm, 175, rfl⟩
abbrev main_cst_35 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_c_36 : Ref sig .tc := ⟨.hbm, 183, rfl⟩
abbrev main_v120 : Ref sig .tc := ⟨.hbm, 184, rfl⟩
abbrev main_v121 : Ref sig .tc := ⟨.hbm, 185, rfl⟩
abbrev main_c_37 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_cst_38 : Ref sig .tc := ⟨.hbm, 192, rfl⟩
abbrev main_v127 : Ref sig .tc := ⟨.hbm, 193, rfl⟩
abbrev main_v128 : Ref sig .tc := ⟨.hbm, 194, rfl⟩
abbrev main_v129 : Ref sig .tc := ⟨.hbm, 195, rfl⟩
abbrev main_v130 : Ref sig .tc := ⟨.hbm, 196, rfl⟩
abbrev main_v131 : Ref sig .tc := ⟨.hbm, 197, rfl⟩
abbrev main_v132 : Ref sig .tc := ⟨.hbm, 198, rfl⟩
abbrev main_v133 : Ref sig .tc := ⟨.hbm, 199, rfl⟩
abbrev main_cst_39 : Ref sig .tc := ⟨.hbm, 200, rfl⟩
abbrev main_v134 : Ref sig .tc := ⟨.hbm, 201, rfl⟩
abbrev main_cst_40 : Ref sig .tc := ⟨.hbm, 202, rfl⟩
abbrev main_v135 : Ref sig .tc := ⟨.hbm, 203, rfl⟩
abbrev main_v136 : Ref sig .tc := ⟨.hbm, 204, rfl⟩
abbrev main_v137 : Ref sig .tc := ⟨.hbm, 205, rfl⟩
abbrev main_cst_41 : Ref sig .tc := ⟨.hbm, 206, rfl⟩
abbrev main_call8_v0 : Ref sig .tc := ⟨.hbm, 207, rfl⟩
abbrev main_call8_v1 : Ref sig .tc := ⟨.hbm, 208, rfl⟩
abbrev main_v138 : Ref sig .tc := ⟨.hbm, 209, rfl⟩
abbrev main_cst_42 : Ref sig .tc := ⟨.hbm, 210, rfl⟩
abbrev main_v139 : Ref sig .tc := ⟨.hbm, 211, rfl⟩
abbrev main_v140 : Ref sig .tc := ⟨.hbm, 212, rfl⟩
abbrev main_v141 : Ref sig .tc := ⟨.hbm, 213, rfl⟩
abbrev main_cst_43 : Ref sig .tc := ⟨.hbm, 214, rfl⟩
abbrev main_call9_v0 : Ref sig .tc := ⟨.hbm, 215, rfl⟩
abbrev main_call9_v1 : Ref sig .tc := ⟨.hbm, 216, rfl⟩
abbrev main_v142 : Ref sig .tc := ⟨.hbm, 217, rfl⟩
abbrev main_cst_44 : Ref sig .tc := ⟨.hbm, 218, rfl⟩
abbrev main_v143 : Ref sig .tc := ⟨.hbm, 219, rfl⟩
abbrev main_v144 : Ref sig .tc := ⟨.hbm, 220, rfl⟩
abbrev main_cst_45 : Ref sig .tc := ⟨.hbm, 221, rfl⟩
abbrev main_v145 : Ref sig .tc := ⟨.hbm, 222, rfl⟩
abbrev main_v146 : Ref sig .tc := ⟨.hbm, 223, rfl⟩
abbrev main_v147 : Ref sig .tc := ⟨.hbm, 224, rfl⟩
abbrev main_v148 : Ref sig .tc := ⟨.hbm, 225, rfl⟩
abbrev main_v149 : Ref sig .tc := ⟨.hbm, 226, rfl⟩
abbrev main_v150 : Ref sig .tc := ⟨.hbm, 227, rfl⟩
abbrev main_c_46 : Ref sig .tc := ⟨.hbm, 228, rfl⟩
abbrev main_v151 : Ref sig .tc := ⟨.hbm, 229, rfl⟩
abbrev main_v152 : Ref sig .tc := ⟨.hbm, 230, rfl⟩
abbrev main_c_47 : Ref sig .tc := ⟨.hbm, 231, rfl⟩
abbrev main_v153 : Ref sig .tc := ⟨.hbm, 232, rfl⟩
abbrev main_v154 : Ref sig .tc := ⟨.hbm, 233, rfl⟩
abbrev main_v155 : Ref sig .tc := ⟨.hbm, 234, rfl⟩
abbrev main_v156 : Ref sig .tc := ⟨.hbm, 235, rfl⟩
abbrev main_v157 : Ref sig .tc := ⟨.hbm, 236, rfl⟩
abbrev main_cst_48 : Ref sig .tc := ⟨.hbm, 237, rfl⟩
abbrev main_v158 : Ref sig .tc := ⟨.hbm, 238, rfl⟩
abbrev main_v159 : Ref sig .tc := ⟨.hbm, 239, rfl⟩
abbrev main_v160 : Ref sig .tc := ⟨.hbm, 240, rfl⟩
abbrev main_v161 : Ref sig .tc := ⟨.hbm, 241, rfl⟩
abbrev main_v162 : Ref sig .tc := ⟨.hbm, 242, rfl⟩
abbrev main_v163 : Ref sig .tc := ⟨.hbm, 243, rfl⟩
abbrev main_v164 : Ref sig .tc := ⟨.hbm, 244, rfl⟩
abbrev main_cst_49 : Ref sig .tc := ⟨.hbm, 245, rfl⟩
abbrev main_v165 : Ref sig .tc := ⟨.hbm, 246, rfl⟩
abbrev main_cst_50 : Ref sig .tc := ⟨.hbm, 247, rfl⟩
abbrev main_v166 : Ref sig .tc := ⟨.hbm, 248, rfl⟩
abbrev main_v167 : Ref sig .tc := ⟨.hbm, 249, rfl⟩
abbrev main_v168 : Ref sig .tc := ⟨.hbm, 250, rfl⟩
abbrev main_cst_51 : Ref sig .tc := ⟨.hbm, 251, rfl⟩
abbrev main_call10_v0 : Ref sig .tc := ⟨.hbm, 252, rfl⟩
abbrev main_call10_v1 : Ref sig .tc := ⟨.hbm, 253, rfl⟩
abbrev main_v169 : Ref sig .tc := ⟨.hbm, 254, rfl⟩
abbrev main_cst_52 : Ref sig .tc := ⟨.hbm, 255, rfl⟩
abbrev main_v170 : Ref sig .tc := ⟨.hbm, 256, rfl⟩
abbrev main_v171 : Ref sig .tc := ⟨.hbm, 257, rfl⟩
abbrev main_v172 : Ref sig .tc := ⟨.hbm, 258, rfl⟩
abbrev main_cst_53 : Ref sig .tc := ⟨.hbm, 259, rfl⟩
abbrev main_call11_v0 : Ref sig .tc := ⟨.hbm, 260, rfl⟩
abbrev main_call11_v1 : Ref sig .tc := ⟨.hbm, 261, rfl⟩
abbrev main_v173 : Ref sig .tc := ⟨.hbm, 262, rfl⟩
abbrev main_cst_54 : Ref sig .tc := ⟨.hbm, 263, rfl⟩
abbrev main_v174 : Ref sig .tc := ⟨.hbm, 264, rfl⟩
abbrev main_v175 : Ref sig .tc := ⟨.hbm, 265, rfl⟩
abbrev main_cst_55 : Ref sig .tc := ⟨.hbm, 266, rfl⟩
abbrev main_v176 : Ref sig .tc := ⟨.hbm, 267, rfl⟩
abbrev main_v177 : Ref sig .tc := ⟨.hbm, 268, rfl⟩
abbrev main_v178 : Ref sig .tc := ⟨.hbm, 269, rfl⟩
abbrev main_v179 : Ref sig .tc := ⟨.hbm, 270, rfl⟩
abbrev main_v180 : Ref sig .tc := ⟨.hbm, 271, rfl⟩
abbrev main_v181 : Ref sig .tc := ⟨.hbm, 272, rfl⟩
abbrev main_c_56 : Ref sig .tc := ⟨.hbm, 273, rfl⟩
abbrev main_v182 : Ref sig .tc := ⟨.hbm, 274, rfl⟩
abbrev main_v183 : Ref sig .tc := ⟨.hbm, 275, rfl⟩
abbrev main_c_57 : Ref sig .tc := ⟨.hbm, 276, rfl⟩
abbrev main_v184 : Ref sig .tc := ⟨.hbm, 277, rfl⟩
abbrev main_v185 : Ref sig .tc := ⟨.hbm, 278, rfl⟩
abbrev main_v186 : Ref sig .tc := ⟨.hbm, 279, rfl⟩
abbrev main_v187 : Ref sig .tc := ⟨.hbm, 280, rfl⟩
abbrev main_v188 : Ref sig .tc := ⟨.hbm, 281, rfl⟩
abbrev main_cst_58 : Ref sig .tc := ⟨.hbm, 282, rfl⟩
abbrev main_v189 : Ref sig .tc := ⟨.hbm, 283, rfl⟩
abbrev main_v190 : Ref sig .tc := ⟨.hbm, 284, rfl⟩
abbrev main_v191 : Ref sig .tc := ⟨.hbm, 285, rfl⟩
abbrev main_cst_59 : Ref sig .tc := ⟨.hbm, 286, rfl⟩
abbrev main_v192 : Ref sig .tc := ⟨.hbm, 287, rfl⟩
abbrev main_v193 : Ref sig .tc := ⟨.hbm, 288, rfl⟩
abbrev main_v194 : Ref sig .tc := ⟨.hbm, 289, rfl⟩
abbrev main_v195 : Ref sig .tc := ⟨.hbm, 290, rfl⟩
abbrev main_v196 : Ref sig .tc := ⟨.hbm, 291, rfl⟩
abbrev main_v197 : Ref sig .tc := ⟨.hbm, 292, rfl⟩
abbrev main_v198 : Ref sig .tc := ⟨.hbm, 293, rfl⟩
abbrev main_v199 : Ref sig .tc := ⟨.hbm, 294, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg3_1 : Ref sig .tc := ⟨.vmem, 28, rfl⟩
abbrev cc3_stg4_0 : Ref sig .tc := ⟨.vmem, 29, rfl⟩
abbrev cc3_stg4_1 : Ref sig .tc := ⟨.vmem, 30, rfl⟩
abbrev cc3_stg5_0 : Ref sig .tc := ⟨.vmem, 31, rfl⟩
abbrev cc3_stg5_1 : Ref sig .tc := ⟨.vmem, 32, rfl⟩
abbrev cc3_stg6_0 : Ref sig .tc := ⟨.vmem, 33, rfl⟩
abbrev cc3_stg7_0 : Ref sig .tc := ⟨.vmem, 34, rfl⟩
abbrev cc3_stg7_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg3_1 : Ref sig .tc := ⟨.vmem, 42, rfl⟩
abbrev cc5_stg0_0 : Ref sig .tc := ⟨.vmem, 43, rfl⟩
abbrev cc5_stg0_1 : Ref sig .tc := ⟨.vmem, 44, rfl⟩
abbrev cc5_stg1_0 : Ref sig .tc := ⟨.vmem, 45, rfl⟩
abbrev cc5_stg1_1 : Ref sig .tc := ⟨.vmem, 46, rfl⟩
abbrev cc5_stg2_0 : Ref sig .tc := ⟨.vmem, 47, rfl⟩
abbrev cc5_stg3_0 : Ref sig .tc := ⟨.vmem, 48, rfl⟩
abbrev cc5_stg3_1 : Ref sig .tc := ⟨.vmem, 49, rfl⟩
abbrev cc6_stg0_0 : Ref sig .tc := ⟨.vmem, 50, rfl⟩
abbrev cc6_stg0_1 : Ref sig .tc := ⟨.vmem, 51, rfl⟩
abbrev cc6_stg1_0 : Ref sig .tc := ⟨.vmem, 52, rfl⟩
abbrev cc6_stg1_1 : Ref sig .tc := ⟨.vmem, 53, rfl⟩
abbrev cc6_stg2_0 : Ref sig .tc := ⟨.vmem, 54, rfl⟩
abbrev cc6_stg3_0 : Ref sig .tc := ⟨.vmem, 55, rfl⟩
abbrev cc6_stg3_1 : Ref sig .tc := ⟨.vmem, 56, rfl⟩
abbrev cc7_stg0_0 : Ref sig .tc := ⟨.vmem, 57, rfl⟩
abbrev cc7_stg0_1 : Ref sig .tc := ⟨.vmem, 58, rfl⟩
abbrev cc7_stg1_0 : Ref sig .tc := ⟨.vmem, 59, rfl⟩
abbrev cc7_stg1_1 : Ref sig .tc := ⟨.vmem, 60, rfl⟩
abbrev cc7_stg2_0 : Ref sig .tc := ⟨.vmem, 61, rfl⟩
abbrev cc7_stg2_1 : Ref sig .tc := ⟨.vmem, 62, rfl⟩
abbrev cc7_stg3_0 : Ref sig .tc := ⟨.vmem, 63, rfl⟩
abbrev cc7_stg3_1 : Ref sig .tc := ⟨.vmem, 64, rfl⟩
abbrev cc7_stg4_0 : Ref sig .tc := ⟨.vmem, 65, rfl⟩
abbrev cc7_stg4_1 : Ref sig .tc := ⟨.vmem, 66, rfl⟩
abbrev cc7_stg5_0 : Ref sig .tc := ⟨.vmem, 67, rfl⟩
abbrev cc7_stg5_1 : Ref sig .tc := ⟨.vmem, 68, rfl⟩
abbrev cc7_stg6_0 : Ref sig .tc := ⟨.vmem, 69, rfl⟩
abbrev cc7_stg7_0 : Ref sig .tc := ⟨.vmem, 70, rfl⟩
abbrev cc7_stg7_1 : Ref sig .tc := ⟨.vmem, 71, rfl⟩
abbrev cc8_stg0_0 : Ref sig .tc := ⟨.vmem, 72, rfl⟩
abbrev cc8_stg0_1 : Ref sig .tc := ⟨.vmem, 73, rfl⟩
abbrev cc8_stg1_0 : Ref sig .tc := ⟨.vmem, 74, rfl⟩
abbrev cc8_stg2_0 : Ref sig .tc := ⟨.vmem, 75, rfl⟩
abbrev cc8_stg3_0 : Ref sig .tc := ⟨.vmem, 76, rfl⟩
abbrev cc8_stg3_1 : Ref sig .tc := ⟨.vmem, 77, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27
abbrev cc3_sem3_1 : DmaSem sig := 28
abbrev cc3_sem4_0 : DmaSem sig := 29
abbrev cc3_sem4_1 : DmaSem sig := 30
abbrev cc3_sem5_0 : DmaSem sig := 31
abbrev cc3_sem5_1 : DmaSem sig := 32
abbrev cc3_sem6_0 : DmaSem sig := 33
abbrev cc3_sem7_0 : DmaSem sig := 34
abbrev cc3_sem7_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem3_1 : DmaSem sig := 42
abbrev cc5_sem0_0 : DmaSem sig := 43
abbrev cc5_sem0_1 : DmaSem sig := 44
abbrev cc5_sem1_0 : DmaSem sig := 45
abbrev cc5_sem1_1 : DmaSem sig := 46
abbrev cc5_sem2_0 : DmaSem sig := 47
abbrev cc5_sem3_0 : DmaSem sig := 48
abbrev cc5_sem3_1 : DmaSem sig := 49
abbrev cc6_sem0_0 : DmaSem sig := 50
abbrev cc6_sem0_1 : DmaSem sig := 51
abbrev cc6_sem1_0 : DmaSem sig := 52
abbrev cc6_sem1_1 : DmaSem sig := 53
abbrev cc6_sem2_0 : DmaSem sig := 54
abbrev cc6_sem3_0 : DmaSem sig := 55
abbrev cc6_sem3_1 : DmaSem sig := 56
abbrev cc7_sem0_0 : DmaSem sig := 57
abbrev cc7_sem0_1 : DmaSem sig := 58
abbrev cc7_sem1_0 : DmaSem sig := 59
abbrev cc7_sem1_1 : DmaSem sig := 60
abbrev cc7_sem2_0 : DmaSem sig := 61
abbrev cc7_sem2_1 : DmaSem sig := 62
abbrev cc7_sem3_0 : DmaSem sig := 63
abbrev cc7_sem3_1 : DmaSem sig := 64
abbrev cc7_sem4_0 : DmaSem sig := 65
abbrev cc7_sem4_1 : DmaSem sig := 66
abbrev cc7_sem5_0 : DmaSem sig := 67
abbrev cc7_sem5_1 : DmaSem sig := 68
abbrev cc7_sem6_0 : DmaSem sig := 69
abbrev cc7_sem7_0 : DmaSem sig := 70
abbrev cc7_sem7_1 : DmaSem sig := 71
abbrev cc8_sem0_0 : DmaSem sig := 72
abbrev cc8_sem0_1 : DmaSem sig := 73
abbrev cc8_sem1_0 : DmaSem sig := 74
abbrev cc8_sem2_0 : DmaSem sig := 75
abbrev cc8_sem3_0 : DmaSem sig := 76
abbrev cc8_sem3_1 : DmaSem sig := 77

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S2000x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S2000x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S2000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S2000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S2000x1 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S2000x1 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 2 → Memref sig .tc .vmem S2000x1 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 1 → Memref sig .tc .vmem S1x128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 2 → Memref sig .tc .vmem S2000x128 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

abbrev grid8 : Pipeline.Grid := ⟨1, ![50], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x16 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x16 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S2000x16 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

class Facts₀ : Prop where
  slices_S3x600000_S1x600000_0_0 : S3x600000.Slices ![0, 0] S1x600000
  shapeCasts_S1x600000_S600000 : S1x600000.ShapeCasts S600000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  slices_S3x256x128_S1x256x128_0_0_0 : S3x256x128.Slices ![0, 0, 0] S1x256x128
  shapeCasts_S1x256x128_S256x128 : S1x256x128.ShapeCasts S256x128
  shapeCasts_S100000_S100000x1 : S100000.ShapeCasts S100000x1
  inb_S2000x256_S2000x256_0_0 : ∀ a, (![0, 0] : Fin 2 → Nat) a + S2000x256.size a ≤ S2000x256.size a
  h_S2000x256 : 0 < S2000x256.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  broadcasts_S2000x1_S2000x256 : S2000x1.Broadcasts S2000x256
  bitsLt_bf16_f32 : FTy.bits .bf16 < FTy.bits .f32
  inb_S2000x128_S2000x128_0_0 : ∀ a, (![0, 0] : Fin 2 → Nat) a + S2000x128.size a ≤ S2000x128.size a
  h_S2000x128 : 0 < S2000x128.numel
  bcast_S_S100000x128 : S_.BroadcastsInDim S100000x128 (![] : Fin 0 → Fin S100000x128.rank)
  slices_S3x600000_S1x600000_1_0 : S3x600000.Slices ![1, 0] S1x600000
  slices_S3x256x128_S1x256x128_1_0_0 : S3x256x128.Slices ![1, 0, 0] S1x256x128
  slices_S3x600000_S1x600000_2_0 : S3x600000.Slices ![2, 0] S1x600000
  slices_S3x256x128_S1x256x128_2_0_0 : S3x256x128.Slices ![2, 0, 0] S1x256x128
  reducesTo_S3x128_S128_d0 : S3x128.ReducesTo [0] S128
  h_S_ : 0 < S_.numel
  shapeCasts_S128_S1x128 : S128.ShapeCasts S1x128
  shapeCasts_S2000x128_S2000x128 : S2000x128.ShapeCasts S2000x128
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S3x128x128_S1x128x128_0_0_0 : S3x128x128.Slices ![0, 0, 0] S1x128x128
  shapeCasts_S1x128x128_S128x128 : S1x128x128.ShapeCasts S128x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S3x128x128_S1x128x128_1_0_0 : S3x128x128.Slices ![1, 0, 0] S1x128x128
  slices_S3x128x128_S1x128x128_2_0_0 : S3x128x128.Slices ![2, 0, 0] S1x128x128
  shapeCasts_S16_S1x16 : S16.ShapeCasts S1x16
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  inb_S2000x16_S2000x16_0_0 : ∀ a, (![0, 0] : Fin 2 → Nat) a + S2000x16.size a ≤ S2000x16.size a
  h_S2000x16 : 0 < S2000x16.numel
  scatter_S100000_S600000x1_S600000_n_0_0_1_wf : ScatterDims.WF S100000 S600000x1 S600000 [] [0] [0] 1
  dot_S2000x256_S256x128_S2000x128_1_0_0_1_n_n_wf : DotDims.WF S2000x256 S256x128 S2000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S2000x128_S128x128_S2000x128_1_0_0_1_n_n_wf : DotDims.WF S2000x128 S128x128 S2000x128 [1] [0] [0] [1] [] []
  dot_S2000x128_S128x16_S2000x16_1_0_0_1_n_n_wf : DotDims.WF S2000x128 S128x16 S2000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S100000x256.size a
  hwx1_0 : ∀ i : grid1.Coords, EltTy.bits .f32 = 32 ∨ (Rect.block (s := S100000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S100000x128.size a
  hwx1_3 : ∀ i : grid1.Coords, EltTy.bits .f32 = 32 ∨ (Rect.block (s := S100000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S100000x256.size a
  hwx2_0 : ∀ i : grid2.Coords, EltTy.bits .f32 = 32 ∨ (Rect.block (s := S100000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .f32 = 32 ∨ (Rect.block (s := S100000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x128.size a ≤ S256x128.size a
  hwx2_2 : ∀ i : grid2.Coords, EltTy.bits .f32 = 32 ∨ (Rect.block (s := S256x128) S256x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S100000x128.size a
  hwx2_3 : ∀ i : grid2.Coords, EltTy.bits .f32 = 32 ∨ (Rect.block (s := S100000x128) S2000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S100000x128.size a
  hwx3_1 : ∀ i : grid3.Coords, EltTy.bits .f32 = 32 ∨ (Rect.block (s := S100000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S100000x128.size a
  hwx3_2 : ∀ i : grid3.Coords, EltTy.bits .f32 = 32 ∨ (Rect.block (s := S100000x128) S2000x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x1.size a ≤ S100000x1.size a
  hwx3_3 : ∀ i : grid3.Coords, EltTy.bits .f32 = 32 ∨ (Rect.block (s := S100000x1) S2000x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x1.size a ≤ S100000x1.size a
  hwx3_4 : ∀ i : grid3.Coords, EltTy.bits .f32 = 32 ∨ (Rect.block (s := S100000x1) S2000x1.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x1.size a ≤ S100000x1.size a
  hwx3_5 : ∀ i : grid3.Coords, EltTy.bits .f32 = 32 ∨ (Rect.block (s := S100000x1) S2000x1.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S2000x128.size a ≤ S100000x128.size a
  hwx3_7 : ∀ i : grid3.Coords, EltTy.bits .f32 = 32 ∨ (Rect.block (s := S100000x128) S2000x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x1.size a ≤ S100000x1.size a
  hwx4_1 : ∀ i : grid4.Coords, EltTy.bits .f32 = 32 ∨ (Rect.block (s := S100000x1) S2000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S100000x128.size a
  hwx4_3 : ∀ i : grid4.Coords, EltTy.bits .f32 = 32 ∨ (Rect.block (s := S100000x128) S2000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x1.size a ≤ S100000x1.size a
  hwx5_1 : ∀ i : grid5.Coords, EltTy.bits .f32 = 32 ∨ (Rect.block (s := S100000x1) S2000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x128.size a ≤ S100000x128.size a
  hwx5_3 : ∀ i : grid5.Coords, EltTy.bits .f32 = 32 ∨ (Rect.block (s := S100000x128) S2000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S100000x128.size a
  hwx6_0 : ∀ i : grid6.Coords, EltTy.bits .f32 = 32 ∨ (Rect.block (s := S100000x128) S2000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x1.size a ≤ S100000x1.size a
  hwx6_1 : ∀ i : grid6.Coords, EltTy.bits .f32 = 32 ∨ (Rect.block (s := S100000x1) S2000x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x128.size a ≤ S100000x128.size a
  hwx6_3 : ∀ i : grid6.Coords, EltTy.bits .f32 = 32 ∨ (Rect.block (s := S100000x128) S2000x128.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S100000x128.size a
  hwx7_0 : ∀ i : grid7.Coords, EltTy.bits .f32 = 32 ∨ (Rect.block (s := S100000x128) S2000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x128.size a ≤ S100000x128.size a
  hwx7_1 : ∀ i : grid7.Coords, EltTy.bits .f32 = 32 ∨ (Rect.block (s := S100000x128) S2000x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x128.size a ≤ S100000x128.size a
  hwx7_2 : ∀ i : grid7.Coords, EltTy.bits .f32 = 32 ∨ (Rect.block (s := S100000x128) S2000x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2000x1.size a ≤ S100000x1.size a
  hwx7_3 : ∀ i : grid7.Coords, EltTy.bits .f32 = 32 ∨ (Rect.block (s := S100000x1) S2000x1.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S2000x1.size a ≤ S100000x1.size a
  hwx7_4 : ∀ i : grid7.Coords, EltTy.bits .f32 = 32 ∨ (Rect.block (s := S100000x1) S2000x1.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S2000x1.size a ≤ S100000x1.size a
  hwx7_5 : ∀ i : grid7.Coords, EltTy.bits .f32 = 32 ∨ (Rect.block (s := S100000x1) S2000x1.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x128.size a ≤ S1x128.size a
  hwx7_6 : ∀ i : grid7.Coords, EltTy.bits .f32 = 32 ∨ (Rect.block (s := S1x128) S1x128.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S2000x128.size a ≤ S100000x128.size a
  hwx7_7 : ∀ i : grid7.Coords, EltTy.bits .f32 = 32 ∨ (Rect.block (s := S100000x128) S2000x128.size (cc7_transform_7 i) (hinb7_7 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x128.size a ≤ S100000x128.size a
  hwx8_0 : ∀ i : grid8.Coords, EltTy.bits .f32 = 32 ∨ (Rect.block (s := S100000x128) S2000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x16.size a ≤ S128x16.size a
  hwx8_1 : ∀ i : grid8.Coords, EltTy.bits .f32 = 32 ∨ (Rect.block (s := S128x16) S128x16.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x16.size a ≤ S1x16.size a
  hwx8_2 : ∀ i : grid8.Coords, EltTy.bits .f32 = 32 ∨ (Rect.block (s := S1x16) S1x16.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S2000x16.size a ≤ S100000x16.size a
  hwx8_3 : ∀ i : grid8.Coords, EltTy.bits .f32 = 32 ∨ (Rect.block (s := S100000x16) S2000x16.size (cc8_transform_3 i) (hinb8_3 i)).WholeWords (EltTy.packing .f32)

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x16_S2000x16_1_0_0_1_n_n : DotDims S2000x128 S128x16 S2000x16 where
  lhsContracting := [1]
  rhsContracting := [0]
  lhsNonContracting := [0]
  rhsNonContracting := [1]
  lhsBatch := []
  rhsBatch := []
  wf := dot_S2000x128_S128x16_S2000x16_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v49) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v81) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v80) S256x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v82) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v30) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v92) S2000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v95) S2000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v96) S2000x1.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v97) S2000x1.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v94) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v98) S2000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v98) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v118) S2000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v117) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v119) S2000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v98) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v149) S2000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v148) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v150) S2000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v98) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v180) S2000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v179) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v181) S2000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v129) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v160) S2000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v191) S2000x128.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v194) S2000x1.size cc7_transform_3 reads7_3 false false 2 stage7_3 sem7_3
    hrank7 hreads7_3 hinb7_3 nbuf7_3 (Memref.isWhole_whole _) hwx7_3 hstage7_3

abbrev win7_4 : Pipeline.Window sig grid7 :=
  Pipeline.Window.ofSpec (Memref.whole main_v195) S2000x1.size cc7_transform_4 reads7_4 false false 2 stage7_4 sem7_4
    hrank7 hreads7_4 hinb7_4 nbuf7_4 (Memref.isWhole_whole _) hwx7_4 hstage7_4

abbrev win7_5 : Pipeline.Window sig grid7 :=
  Pipeline.Window.ofSpec (Memref.whole main_v196) S2000x1.size cc7_transform_5 reads7_5 false false 2 stage7_5 sem7_5
    hrank7 hreads7_5 hinb7_5 nbuf7_5 (Memref.isWhole_whole _) hwx7_5 hstage7_5

abbrev win7_6 : Pipeline.Window sig grid7 :=
  Pipeline.Window.ofSpec (Memref.whole main_v193) S1x128.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v197) S2000x128.size cc7_transform_7 reads7_7 true false 2 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

abbrev win8_0 : Pipeline.Window sig grid8 :=
  Pipeline.Window.ofSpec (Memref.whole main_v197) S2000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg7) S128x16.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v198) S1x16.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v199) S2000x16.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

class Facts : Prop extends Facts₀ where

variable [Facts]
-- ==== ReferenceIdeal.lean ====
abbrev S100000x256 : Shape := ⟨2, ![100000, 256]⟩
abbrev S3x600000 : Shape := ⟨2, ![3, 600000]⟩
abbrev S3x256x128 : Shape := ⟨3, ![3, 256, 128]⟩
abbrev S3x128 : Shape := ⟨2, ![3, 128]⟩
abbrev S3x128x128 : Shape := ⟨3, ![3, 128, 128]⟩
abbrev S128x16 : Shape := ⟨2, ![128, 16]⟩
abbrev S16 : Shape := ⟨1, ![16]⟩
abbrev S_ : Shape := ⟨0, ![]⟩
abbrev S100000x128 : Shape := ⟨2, ![100000, 128]⟩
abbrev S1x600000 : Shape := ⟨2, ![1, 600000]⟩
abbrev S600000 : Shape := ⟨1, ![600000]⟩
abbrev S100000 : Shape := ⟨1, ![100000]⟩
abbrev S600000x1 : Shape := ⟨2, ![600000, 1]⟩
abbrev S100000x1 : Shape := ⟨2, ![100000, 1]⟩
abbrev S1x256x128 : Shape := ⟨3, ![1, 256, 128]⟩
abbrev S256x128 : Shape := ⟨2, ![256, 128]⟩
abbrev S600000x128 : Shape := ⟨2, ![600000, 128]⟩
abbrev S1x128 : Shape := ⟨2, ![1, 128]⟩
abbrev S128 : Shape := ⟨1, ![128]⟩
abbrev S1x128x128 : Shape := ⟨3, ![1, 128, 128]⟩
abbrev S128x128 : Shape := ⟨2, ![128, 128]⟩
abbrev S100000x16 : Shape := ⟨2, ![100000, 16]⟩
abbrev S1x16 : Shape := ⟨2, ![1, 16]⟩

abbrev nBuf : Space → Nat
  | .hbm => 361
  | .vmem => 0
  | .smem => 0
  | _ => 0

abbrev hbmTy0_0 (i : Nat) : BufTy := match i % 128 with
  | 0 => ⟨S100000x256, .f32⟩
  | 1 => ⟨S3x600000, .i32⟩
  | 2 => ⟨S3x600000, .i32⟩
  | 3 => ⟨S3x256x128, .f32⟩
  | 4 => ⟨S3x128, .f32⟩
  | 5 => ⟨S3x128x128, .f32⟩
  | 6 => ⟨S3x128, .f32⟩
  | 7 => ⟨S128x16, .f32⟩
  | 8 => ⟨S16, .f32⟩
  | 9 => ⟨S_, .f32⟩
  | 10 => ⟨S100000x128, .f32⟩
  | 11 => ⟨S1x600000, .i32⟩
  | 12 => ⟨S600000, .i32⟩
  | 13 => ⟨S1x600000, .i32⟩
  | 14 => ⟨S600000, .i32⟩
  | 15 => ⟨S_, .f32⟩
  | 16 => ⟨S600000, .f32⟩
  | 17 => ⟨S_, .f32⟩
  | 18 => ⟨S100000, .f32⟩
  | 19 => ⟨S600000x1, .i32⟩
  | 20 => ⟨S100000, .f32⟩
  | 21 => ⟨S_, .f32⟩
  | 22 => ⟨S_, .f32⟩
  | 23 => ⟨S100000, .f32⟩
  | 24 => ⟨S100000, .f32⟩
  | 25 => ⟨S_, .f32⟩
  | 26 => ⟨S100000, .f32⟩
  | 27 => ⟨S600000x1, .i32⟩
  | 28 => ⟨S100000, .f32⟩
  | 29 => ⟨S_, .f32⟩
  | 30 => ⟨S_, .f32⟩
  | 31 => ⟨S100000, .f32⟩
  | 32 => ⟨S100000, .f32⟩
  | 33 => ⟨S_, .f32⟩
  | 34 => ⟨S100000, .f32⟩
  | 35 => ⟨S100000, .f32⟩
  | 36 => ⟨S100000x1, .f32⟩
  | 37 => ⟨S100000x256, .f32⟩
  | 38 => ⟨S100000x256, .f32⟩
  | 39 => ⟨S1x256x128, .f32⟩
  | 40 => ⟨S256x128, .f32⟩
  | 41 => ⟨S100000x128, .f32⟩
  | 42 => ⟨S_, .i32⟩
  | 43 => ⟨S600000, .i32⟩
  | 44 => ⟨S600000, .i1⟩
  | 45 => ⟨S_, .i32⟩
  | 46 => ⟨S600000, .i32⟩
  | 47 => ⟨S600000, .i32⟩
  | 48 => ⟨S600000, .i32⟩
  | 49 => ⟨S600000x1, .i32⟩
  | 50 => ⟨S600000x128, .f32⟩
  | 51 => ⟨S_, .f32⟩
  | 52 => ⟨S100000x128, .f32⟩
  | 53 => ⟨S600000x1, .i32⟩
  | 54 => ⟨S100000x128, .f32⟩
  | 55 => ⟨S_, .f32⟩
  | 56 => ⟨S100000, .f32⟩
  | 57 => ⟨S100000, .f32⟩
  | 58 => ⟨S100000x1, .f32⟩
  | 59 => ⟨S100000x128, .f32⟩
  | 60 => ⟨S100000x128, .f32⟩
  | 61 => ⟨S100000x128, .f32⟩
  | 62 => ⟨S1x128, .f32⟩
  | 63 => ⟨S128, .f32⟩
  | 64 => ⟨S1x128, .f32⟩
  | 65 => ⟨S100000x128, .f32⟩
  | 66 => ⟨S100000x128, .f32⟩
  | 67 => ⟨S1x600000, .i32⟩
  | 68 => ⟨S600000, .i32⟩
  | 69 => ⟨S1x600000, .i32⟩
  | 70 => ⟨S600000, .i32⟩
  | 71 => ⟨S_, .f32⟩
  | 72 => ⟨S600000, .f32⟩
  | 73 => ⟨S_, .f32⟩
  | 74 => ⟨S100000, .f32⟩
  | 75 => ⟨S600000x1, .i32⟩
  | 76 => ⟨S100000, .f32⟩
  | 77 => ⟨S_, .f32⟩
  | 78 => ⟨S_, .f32⟩
  | 79 => ⟨S100000, .f32⟩
  | 80 => ⟨S100000, .f32⟩
  | 81 => ⟨S_, .f32⟩
  | 82 => ⟨S100000, .f32⟩
  | 83 => ⟨S600000x1, .i32⟩
  | 84 => ⟨S100000, .f32⟩
  | 85 => ⟨S_, .f32⟩
  | 86 => ⟨S_, .f32⟩
  | 87 => ⟨S100000, .f32⟩
  | 88 => ⟨S100000, .f32⟩
  | 89 => ⟨S_, .f32⟩
  | 90 => ⟨S100000, .f32⟩
  | 91 => ⟨S100000, .f32⟩
  | 92 => ⟨S100000x1, .f32⟩
  | 93 => ⟨S100000x256, .f32⟩
  | 94 => ⟨S100000x256, .f32⟩
  | 95 => ⟨S1x256x128, .f32⟩
  | 96 => ⟨S256x128, .f32⟩
  | 97 => ⟨S100000x128, .f32⟩
  | 98 => ⟨S_, .i32⟩
  | 99 => ⟨S600000, .i32⟩
  | 100 => ⟨S600000, .i1⟩
  | 101 => ⟨S_, .i32⟩
  | 102 => ⟨S600000, .i32⟩
  | 103 => ⟨S600000, .i32⟩
  | 104 => ⟨S600000, .i32⟩
  | 105 => ⟨S600000x1, .i32⟩
  | 106 => ⟨S600000x128, .f32⟩
  | 107 => ⟨S_, .f32⟩
  | 108 => ⟨S100000x128, .f32⟩
  | 109 => ⟨S600000x1, .i32⟩
  | 110 => ⟨S100000x128, .f32⟩
  | 111 => ⟨S_, .f32⟩
  | 112 => ⟨S100000, .f32⟩
  | 113 => ⟨S100000, .f32⟩
  | 114 => ⟨S100000x1, .f32⟩
  | 115 => ⟨S100000x128, .f32⟩
  | 116 => ⟨S100000x128, .f32⟩
  | 117 => ⟨S100000x128, .f32⟩
  | 118 => ⟨S1x128, .f32⟩
  | 119 => ⟨S128, .f32⟩
  | 120 => ⟨S1x128, .f32⟩
  | 121 => ⟨S100000x128, .f32⟩
  | 122 => ⟨S100000x128, .f32⟩
  | 123 => ⟨S1x600000, .i32⟩
  | 124 => ⟨S600000, .i32⟩
  | 125 => ⟨S1x600000, .i32⟩
  | 126 => ⟨S600000, .i32⟩
  | 127 => ⟨S_, .f32⟩
  | _ => ⟨S100000x256, .f32⟩

abbrev hbmTy0_1 (i : Nat) : BufTy := match i % 128 with
  | 0 => ⟨S600000, .f32⟩
  | 1 => ⟨S_, .f32⟩
  | 2 => ⟨S100000, .f32⟩
  | 3 => ⟨S600000x1, .i32⟩
  | 4 => ⟨S100000, .f32⟩
  | 5 => ⟨S_, .f32⟩
  | 6 => ⟨S_, .f32⟩
  | 7 => ⟨S100000, .f32⟩
  | 8 => ⟨S100000, .f32⟩
  | 9 => ⟨S_, .f32⟩
  | 10 => ⟨S100000, .f32⟩
  | 11 => ⟨S600000x1, .i32⟩
  | 12 => ⟨S100000, .f32⟩
  | 13 => ⟨S_, .f32⟩
  | 14 => ⟨S_, .f32⟩
  | 15 => ⟨S100000, .f32⟩
  | 16 => ⟨S100000, .f32⟩
  | 17 => ⟨S_, .f32⟩
  | 18 => ⟨S100000, .f32⟩
  | 19 => ⟨S100000, .f32⟩
  | 20 => ⟨S100000x1, .f32⟩
  | 21 => ⟨S100000x256, .f32⟩
  | 22 => ⟨S100000x256, .f32⟩
  | 23 => ⟨S1x256x128, .f32⟩
  | 24 => ⟨S256x128, .f32⟩
  | 25 => ⟨S100000x128, .f32⟩
  | 26 => ⟨S_, .i32⟩
  | 27 => ⟨S600000, .i32⟩
  | 28 => ⟨S600000, .i1⟩
  | 29 => ⟨S_, .i32⟩
  | 30 => ⟨S600000, .i32⟩
  | 31 => ⟨S600000, .i32⟩
  | 32 => ⟨S600000, .i32⟩
  | 33 => ⟨S600000x1, .i32⟩
  | 34 => ⟨S600000x128, .f32⟩
  | 35 => ⟨S_, .f32⟩
  | 36 => ⟨S100000x128, .f32⟩
  | 37 => ⟨S600000x1, .i32⟩
  | 38 => ⟨S100000x128, .f32⟩
  | 39 => ⟨S_, .f32⟩
  | 40 => ⟨S100000, .f32⟩
  | 41 => ⟨S100000, .f32⟩
  | 42 => ⟨S100000x1, .f32⟩
  | 43 => ⟨S100000x128, .f32⟩
  | 44 => ⟨S100000x128, .f32⟩
  | 45 => ⟨S100000x128, .f32⟩
  | 46 => ⟨S1x128, .f32⟩
  | 47 => ⟨S128, .f32⟩
  | 48 => ⟨S1x128, .f32⟩
  | 49 => ⟨S100000x128, .f32⟩
  | 50 => ⟨S100000x128, .f32⟩
  | 51 => ⟨S_, .f32⟩
  | 52 => ⟨S_, .f32⟩
  | 53 => ⟨S100000x128, .f32⟩
  | 54 => ⟨S100000x128, .i1⟩
  | 55 => ⟨S_, .f32⟩
  | 56 => ⟨S100000x128, .f32⟩
  | 57 => ⟨S100000x128, .f32⟩
  | 58 => ⟨S100000x128, .f32⟩
  | 59 => ⟨S_, .f32⟩
  | 60 => ⟨S100000x128, .f32⟩
  | 61 => ⟨S1x600000, .i32⟩
  | 62 => ⟨S600000, .i32⟩
  | 63 => ⟨S1x600000, .i32⟩
  | 64 => ⟨S600000, .i32⟩
  | 65 => ⟨S_, .f32⟩
  | 66 => ⟨S600000, .f32⟩
  | 67 => ⟨S_, .f32⟩
  | 68 => ⟨S100000, .f32⟩
  | 69 => ⟨S600000x1, .i32⟩
  | 70 => ⟨S100000, .f32⟩
  | 71 => ⟨S_, .f32⟩
  | 72 => ⟨S_, .f32⟩
  | 73 => ⟨S100000, .f32⟩
  | 74 => ⟨S100000, .f32⟩
  | 75 => ⟨S_, .f32⟩
  | 76 => ⟨S100000, .f32⟩
  | 77 => ⟨S600000x1, .i32⟩
  | 78 => ⟨S100000, .f32⟩
  | 79 => ⟨S_, .f32⟩
  | 80 => ⟨S_, .f32⟩
  | 81 => ⟨S100000, .f32⟩
  | 82 => ⟨S100000, .f32⟩
  | 83 => ⟨S_, .f32⟩
  | 84 => ⟨S100000, .f32⟩
  | 85 => ⟨S100000, .f32⟩
  | 86 => ⟨S100000x1, .f32⟩
  | 87 => ⟨S100000x128, .f32⟩
  | 88 => ⟨S100000x128, .f32⟩
  | 89 => ⟨S1x128x128, .f32⟩
  | 90 => ⟨S128x128, .f32⟩
  | 91 => ⟨S100000x128, .f32⟩
  | 92 => ⟨S_, .i32⟩
  | 93 => ⟨S600000, .i32⟩
  | 94 => ⟨S600000, .i1⟩
  | 95 => ⟨S_, .i32⟩
  | 96 => ⟨S600000, .i32⟩
  | 97 => ⟨S600000, .i32⟩
  | 98 => ⟨S600000, .i32⟩
  | 99 => ⟨S600000x1, .i32⟩
  | 100 => ⟨S600000x128, .f32⟩
  | 101 => ⟨S_, .f32⟩
  | 102 => ⟨S100000x128, .f32⟩
  | 103 => ⟨S600000x1, .i32⟩
  | 104 => ⟨S100000x128, .f32⟩
  | 105 => ⟨S_, .f32⟩
  | 106 => ⟨S100000, .f32⟩
  | 107 => ⟨S100000, .f32⟩
  | 108 => ⟨S100000x1, .f32⟩
  | 109 => ⟨S100000x128, .f32⟩
  | 110 => ⟨S100000x128, .f32⟩
  | 111 => ⟨S100000x128, .f32⟩
  | 112 => ⟨S1x128, .f32⟩
  | 113 => ⟨S128, .f32⟩
  | 114 => ⟨S1x128, .f32⟩
  | 115 => ⟨S100000x128, .f32⟩
  | 116 => ⟨S100000x128, .f32⟩
  | 117 => ⟨S1x600000, .i32⟩
  | 118 => ⟨S600000, .i32⟩
  | 119 => ⟨S1x600000, .i32⟩
  | 120 => ⟨S600000, .i32⟩
  | 121 => ⟨S_, .f32⟩
  | 122 => ⟨S600000, .f32⟩
  | 123 => ⟨S_, .f32⟩
  | 124 => ⟨S100000, .f32⟩
  | 125 => ⟨S600000x1, .i32⟩
  | 126 => ⟨S100000, .f32⟩
  | 127 => ⟨S_, .f32⟩
  | _ => ⟨S100000x256, .f32⟩

abbrev hbmTy0_2 (i : Nat) : BufTy := match i % 128 with
  | 0 => ⟨S_, .f32⟩
  | 1 => ⟨S100000, .f32⟩
  | 2 => ⟨S100000, .f32⟩
  | 3 => ⟨S_, .f32⟩
  | 4 => ⟨S100000, .f32⟩
  | 5 => ⟨S600000x1, .i32⟩
  | 6 => ⟨S100000, .f32⟩
  | 7 => ⟨S_, .f32⟩
  | 8 => ⟨S_, .f32⟩
  | 9 => ⟨S100000, .f32⟩
  | 10 => ⟨S100000, .f32⟩
  | 11 => ⟨S_, .f32⟩
  | 12 => ⟨S100000, .f32⟩
  | 13 => ⟨S100000, .f32⟩
  | 14 => ⟨S100000x1, .f32⟩
  | 15 => ⟨S100000x128, .f32⟩
  | 16 => ⟨S100000x128, .f32⟩
  | 17 => ⟨S1x128x128, .f32⟩
  | 18 => ⟨S128x128, .f32⟩
  | 19 => ⟨S100000x128, .f32⟩
  | 20 => ⟨S_, .i32⟩
  | 21 => ⟨S600000, .i32⟩
  | 22 => ⟨S600000, .i1⟩
  | 23 => ⟨S_, .i32⟩
  | 24 => ⟨S600000, .i32⟩
  | 25 => ⟨S600000, .i32⟩
  | 26 => ⟨S600000, .i32⟩
  | 27 => ⟨S600000x1, .i32⟩
  | 28 => ⟨S600000x128, .f32⟩
  | 29 => ⟨S_, .f32⟩
  | 30 => ⟨S100000x128, .f32⟩
  | 31 => ⟨S600000x1, .i32⟩
  | 32 => ⟨S100000x128, .f32⟩
  | 33 => ⟨S_, .f32⟩
  | 34 => ⟨S100000, .f32⟩
  | 35 => ⟨S100000, .f32⟩
  | 36 => ⟨S100000x1, .f32⟩
  | 37 => ⟨S100000x128, .f32⟩
  | 38 => ⟨S100000x128, .f32⟩
  | 39 => ⟨S100000x128, .f32⟩
  | 40 => ⟨S1x128, .f32⟩
  | 41 => ⟨S128, .f32⟩
  | 42 => ⟨S1x128, .f32⟩
  | 43 => ⟨S100000x128, .f32⟩
  | 44 => ⟨S100000x128, .f32⟩
  | 45 => ⟨S1x600000, .i32⟩
  | 46 => ⟨S600000, .i32⟩
  | 47 => ⟨S1x600000, .i32⟩
  | 48 => ⟨S600000, .i32⟩
  | 49 => ⟨S_, .f32⟩
  | 50 => ⟨S600000, .f32⟩
  | 51 => ⟨S_, .f32⟩
  | 52 => ⟨S100000, .f32⟩
  | 53 => ⟨S600000x1, .i32⟩
  | 54 => ⟨S100000, .f32⟩
  | 55 => ⟨S_, .f32⟩
  | 56 => ⟨S_, .f32⟩
  | 57 => ⟨S100000, .f32⟩
  | 58 => ⟨S100000, .f32⟩
  | 59 => ⟨S_, .f32⟩
  | 60 => ⟨S100000, .f32⟩
  | 61 => ⟨S600000x1, .i32⟩
  | 62 => ⟨S100000, .f32⟩
  | 63 => ⟨S_, .f32⟩
  | 64 => ⟨S_, .f32⟩
  | 65 => ⟨S100000, .f32⟩
  | 66 => ⟨S100000, .f32⟩
  | 67 => ⟨S_, .f32⟩
  | 68 => ⟨S100000, .f32⟩
  | 69 => ⟨S100000, .f32⟩
  | 70 => ⟨S100000x1, .f32⟩
  | 71 => ⟨S100000x128, .f32⟩
  | 72 => ⟨S100000x128, .f32⟩
  | 73 => ⟨S1x128x128, .f32⟩
  | 74 => ⟨S128x128, .f32⟩
  | 75 => ⟨S100000x128, .f32⟩
  | 76 => ⟨S_, .i32⟩
  | 77 => ⟨S600000, .i32⟩
  | 78 => ⟨S600000, .i1⟩
  | 79 => ⟨S_, .i32⟩
  | 80 => ⟨S600000, .i32⟩
  | 81 => ⟨S600000, .i32⟩
  | 82 => ⟨S600000, .i32⟩
  | 83 => ⟨S600000x1, .i32⟩
  | 84 => ⟨S600000x128, .f32⟩
  | 85 => ⟨S_, .f32⟩
  | 86 => ⟨S100000x128, .f32⟩
  | 87 => ⟨S600000x1, .i32⟩
  | 88 => ⟨S100000x128, .f32⟩
  | 89 => ⟨S_, .f32⟩
  | 90 => ⟨S100000, .f32⟩
  | 91 => ⟨S100000, .f32⟩
  | 92 => ⟨S100000x1, .f32⟩
  | 93 => ⟨S100000x128, .f32⟩
  | 94 => ⟨S100000x128, .f32⟩
  | 95 => ⟨S100000x128, .f32⟩
  | 96 => ⟨S1x128, .f32⟩
  | 97 => ⟨S128, .f32⟩
  | 98 => ⟨S1x128, .f32⟩
  | 99 => ⟨S100000x128, .f32⟩
  | 100 => ⟨S100000x128, .f32⟩
  | 101 => ⟨S100000x16, .f32⟩
  | 102 => ⟨S1x16, .f32⟩
  | 103 => ⟨S100000x16, .f32⟩
  | 104 => ⟨S100000x16, .f32⟩
  | _ => ⟨S100000x256, .f32⟩

abbrev hbmTy (i : Nat) : BufTy := match i / 128 with
  | 0 => hbmTy0_0 i
  | 1 => hbmTy0_1 i
  | 2 => hbmTy0_2 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v9 : Ref sig .tc := ⟨.hbm, 24, rfl⟩
abbrev main_cst_3 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_4 : Ref sig .tc := ⟨.hbm, 29, rfl⟩
abbrev main_call1_v0 : Ref sig .tc := ⟨.hbm, 30, rfl⟩
abbrev main_call1_v1 : Ref sig .tc := ⟨.hbm, 31, rfl⟩
abbrev main_v13 : Ref sig .tc := ⟨.hbm, 32, rfl⟩
abbrev main_cst_5 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c : Ref sig .tc := ⟨.hbm, 42, rfl⟩
abbrev main_v22 : Ref sig .tc := ⟨.hbm, 43, rfl⟩
abbrev main_v23 : Ref sig .tc := ⟨.hbm, 44, rfl⟩
abbrev main_c_6 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_7 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_8 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_9 : Ref sig .tc := ⟨.hbm, 71, rfl⟩
abbrev main_v47 : Ref sig .tc := ⟨.hbm, 72, rfl⟩
abbrev main_cst_10 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_11 : Ref sig .tc := ⟨.hbm, 77, rfl⟩
abbrev main_call2_v0 : Ref sig .tc := ⟨.hbm, 78, rfl⟩
abbrev main_call2_v1 : Ref sig .tc := ⟨.hbm, 79, rfl⟩
abbrev main_v51 : Ref sig .tc := ⟨.hbm, 80, rfl⟩
abbrev main_cst_12 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_13 : Ref sig .tc := ⟨.hbm, 85, rfl⟩
abbrev main_call3_v0 : Ref sig .tc := ⟨.hbm, 86, rfl⟩
abbrev main_call3_v1 : Ref sig .tc := ⟨.hbm, 87, rfl⟩
abbrev main_v55 : Ref sig .tc := ⟨.hbm, 88, rfl⟩
abbrev main_cst_14 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_c_15 : Ref sig .tc := ⟨.hbm, 98, rfl⟩
abbrev main_v64 : Ref sig .tc := ⟨.hbm, 99, rfl⟩
abbrev main_v65 : Ref sig .tc := ⟨.hbm, 100, rfl⟩
abbrev main_c_16 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_17 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_cst_18 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_cst_19 : Ref sig .tc := ⟨.hbm, 127, rfl⟩
abbrev main_v89 : Ref sig .tc := ⟨.hbm, 128, rfl⟩
abbrev main_cst_20 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_cst_21 : Ref sig .tc := ⟨.hbm, 133, rfl⟩
abbrev main_call4_v0 : Ref sig .tc := ⟨.hbm, 134, rfl⟩
abbrev main_call4_v1 : Ref sig .tc := ⟨.hbm, 135, rfl⟩
abbrev main_v93 : Ref sig .tc := ⟨.hbm, 136, rfl⟩
abbrev main_cst_22 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_cst_23 : Ref sig .tc := ⟨.hbm, 141, rfl⟩
abbrev main_call5_v0 : Ref sig .tc := ⟨.hbm, 142, rfl⟩
abbrev main_call5_v1 : Ref sig .tc := ⟨.hbm, 143, rfl⟩
abbrev main_v97 : Ref sig .tc := ⟨.hbm, 144, rfl⟩
abbrev main_cst_24 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_c_25 : Ref sig .tc := ⟨.hbm, 154, rfl⟩
abbrev main_v106 : Ref sig .tc := ⟨.hbm, 155, rfl⟩
abbrev main_v107 : Ref sig .tc := ⟨.hbm, 156, rfl⟩
abbrev main_c_26 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_cst_27 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_cst_28 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_cst_29 : Ref sig .tc := ⟨.hbm, 179, rfl⟩
abbrev main_call6_cst : Ref sig .tc := ⟨.hbm, 180, rfl⟩
abbrev main_call6_v0 : Ref sig .tc := ⟨.hbm, 181, rfl⟩
abbrev main_call6_v1 : Ref sig .tc := ⟨.hbm, 182, rfl⟩
abbrev main_call6_v2 : Ref sig .tc := ⟨.hbm, 183, rfl⟩
abbrev main_call6_v3 : Ref sig .tc := ⟨.hbm, 184, rfl⟩
abbrev main_call6_v4 : Ref sig .tc := ⟨.hbm, 185, rfl⟩
abbrev main_v127 : Ref sig .tc := ⟨.hbm, 186, rfl⟩
abbrev main_cst_30 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_cst_31 : Ref sig .tc := ⟨.hbm, 193, rfl⟩
abbrev main_v133 : Ref sig .tc := ⟨.hbm, 194, rfl⟩
abbrev main_cst_32 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_cst_33 : Ref sig .tc := ⟨.hbm, 199, rfl⟩
abbrev main_call7_v0 : Ref sig .tc := ⟨.hbm, 200, rfl⟩
abbrev main_call7_v1 : Ref sig .tc := ⟨.hbm, 201, rfl⟩
abbrev main_v137 : Ref sig .tc := ⟨.hbm, 202, rfl⟩
abbrev main_cst_34 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_cst_35 : Ref sig .tc := ⟨.hbm, 207, rfl⟩
abbrev main_call8_v0 : Ref sig .tc := ⟨.hbm, 208, rfl⟩
abbrev main_call8_v1 : Ref sig .tc := ⟨.hbm, 209, rfl⟩
abbrev main_v141 : Ref sig .tc := ⟨.hbm, 210, rfl⟩
abbrev main_cst_36 : Ref sig .tc := ⟨.hbm, 211, rfl⟩
abbrev main_v142 : Ref sig .tc := ⟨.hbm, 212, rfl⟩
abbrev main_v143 : Ref sig .tc := ⟨.hbm, 213, rfl⟩
abbrev main_v144 : Ref sig .tc := ⟨.hbm, 214, rfl⟩
abbrev main_v145 : Ref sig .tc := ⟨.hbm, 215, rfl⟩
abbrev main_v146 : Ref sig .tc := ⟨.hbm, 216, rfl⟩
abbrev main_v147 : Ref sig .tc := ⟨.hbm, 217, rfl⟩
abbrev main_v148 : Ref sig .tc := ⟨.hbm, 218, rfl⟩
abbrev main_v149 : Ref sig .tc := ⟨.hbm, 219, rfl⟩
abbrev main_c_37 : Ref sig .tc := ⟨.hbm, 220, rfl⟩
abbrev main_v150 : Ref sig .tc := ⟨.hbm, 221, rfl⟩
abbrev main_v151 : Ref sig .tc := ⟨.hbm, 222, rfl⟩
abbrev main_c_38 : Ref sig .tc := ⟨.hbm, 223, rfl⟩
abbrev main_v152 : Ref sig .tc := ⟨.hbm, 224, rfl⟩
abbrev main_v153 : Ref sig .tc := ⟨.hbm, 225, rfl⟩
abbrev main_v154 : Ref sig .tc := ⟨.hbm, 226, rfl⟩
abbrev main_v155 : Ref sig .tc := ⟨.hbm, 227, rfl⟩
abbrev main_v156 : Ref sig .tc := ⟨.hbm, 228, rfl⟩
abbrev main_cst_39 : Ref sig .tc := ⟨.hbm, 229, rfl⟩
abbrev main_v157 : Ref sig .tc := ⟨.hbm, 230, rfl⟩
abbrev main_v158 : Ref sig .tc := ⟨.hbm, 231, rfl⟩
abbrev main_v159 : Ref sig .tc := ⟨.hbm, 232, rfl⟩
abbrev main_cst_40 : Ref sig .tc := ⟨.hbm, 233, rfl⟩
abbrev main_v160 : Ref sig .tc := ⟨.hbm, 234, rfl⟩
abbrev main_v161 : Ref sig .tc := ⟨.hbm, 235, rfl⟩
abbrev main_v162 : Ref sig .tc := ⟨.hbm, 236, rfl⟩
abbrev main_v163 : Ref sig .tc := ⟨.hbm, 237, rfl⟩
abbrev main_v164 : Ref sig .tc := ⟨.hbm, 238, rfl⟩
abbrev main_v165 : Ref sig .tc := ⟨.hbm, 239, rfl⟩
abbrev main_v166 : Ref sig .tc := ⟨.hbm, 240, rfl⟩
abbrev main_v167 : Ref sig .tc := ⟨.hbm, 241, rfl⟩
abbrev main_v168 : Ref sig .tc := ⟨.hbm, 242, rfl⟩
abbrev main_v169 : Ref sig .tc := ⟨.hbm, 243, rfl⟩
abbrev main_v170 : Ref sig .tc := ⟨.hbm, 244, rfl⟩
abbrev main_v171 : Ref sig .tc := ⟨.hbm, 245, rfl⟩
abbrev main_v172 : Ref sig .tc := ⟨.hbm, 246, rfl⟩
abbrev main_v173 : Ref sig .tc := ⟨.hbm, 247, rfl⟩
abbrev main_v174 : Ref sig .tc := ⟨.hbm, 248, rfl⟩
abbrev main_cst_41 : Ref sig .tc := ⟨.hbm, 249, rfl⟩
abbrev main_v175 : Ref sig .tc := ⟨.hbm, 250, rfl⟩
abbrev main_cst_42 : Ref sig .tc := ⟨.hbm, 251, rfl⟩
abbrev main_v176 : Ref sig .tc := ⟨.hbm, 252, rfl⟩
abbrev main_v177 : Ref sig .tc := ⟨.hbm, 253, rfl⟩
abbrev main_v178 : Ref sig .tc := ⟨.hbm, 254, rfl⟩
abbrev main_cst_43 : Ref sig .tc := ⟨.hbm, 255, rfl⟩
abbrev main_call9_v0 : Ref sig .tc := ⟨.hbm, 256, rfl⟩
abbrev main_call9_v1 : Ref sig .tc := ⟨.hbm, 257, rfl⟩
abbrev main_v179 : Ref sig .tc := ⟨.hbm, 258, rfl⟩
abbrev main_cst_44 : Ref sig .tc := ⟨.hbm, 259, rfl⟩
abbrev main_v180 : Ref sig .tc := ⟨.hbm, 260, rfl⟩
abbrev main_v181 : Ref sig .tc := ⟨.hbm, 261, rfl⟩
abbrev main_v182 : Ref sig .tc := ⟨.hbm, 262, rfl⟩
abbrev main_cst_45 : Ref sig .tc := ⟨.hbm, 263, rfl⟩
abbrev main_call10_v0 : Ref sig .tc := ⟨.hbm, 264, rfl⟩
abbrev main_call10_v1 : Ref sig .tc := ⟨.hbm, 265, rfl⟩
abbrev main_v183 : Ref sig .tc := ⟨.hbm, 266, rfl⟩
abbrev main_cst_46 : Ref sig .tc := ⟨.hbm, 267, rfl⟩
abbrev main_v184 : Ref sig .tc := ⟨.hbm, 268, rfl⟩
abbrev main_v185 : Ref sig .tc := ⟨.hbm, 269, rfl⟩
abbrev main_v186 : Ref sig .tc := ⟨.hbm, 270, rfl⟩
abbrev main_v187 : Ref sig .tc := ⟨.hbm, 271, rfl⟩
abbrev main_v188 : Ref sig .tc := ⟨.hbm, 272, rfl⟩
abbrev main_v189 : Ref sig .tc := ⟨.hbm, 273, rfl⟩
abbrev main_v190 : Ref sig .tc := ⟨.hbm, 274, rfl⟩
abbrev main_v191 : Ref sig .tc := ⟨.hbm, 275, rfl⟩
abbrev main_c_47 : Ref sig .tc := ⟨.hbm, 276, rfl⟩
abbrev main_v192 : Ref sig .tc := ⟨.hbm, 277, rfl⟩
abbrev main_v193 : Ref sig .tc := ⟨.hbm, 278, rfl⟩
abbrev main_c_48 : Ref sig .tc := ⟨.hbm, 279, rfl⟩
abbrev main_v194 : Ref sig .tc := ⟨.hbm, 280, rfl⟩
abbrev main_v195 : Ref sig .tc := ⟨.hbm, 281, rfl⟩
abbrev main_v196 : Ref sig .tc := ⟨.hbm, 282, rfl⟩
abbrev main_v197 : Ref sig .tc := ⟨.hbm, 283, rfl⟩
abbrev main_v198 : Ref sig .tc := ⟨.hbm, 284, rfl⟩
abbrev main_cst_49 : Ref sig .tc := ⟨.hbm, 285, rfl⟩
abbrev main_v199 : Ref sig .tc := ⟨.hbm, 286, rfl⟩
abbrev main_v200 : Ref sig .tc := ⟨.hbm, 287, rfl⟩
abbrev main_v201 : Ref sig .tc := ⟨.hbm, 288, rfl⟩
abbrev main_cst_50 : Ref sig .tc := ⟨.hbm, 289, rfl⟩
abbrev main_v202 : Ref sig .tc := ⟨.hbm, 290, rfl⟩
abbrev main_v203 : Ref sig .tc := ⟨.hbm, 291, rfl⟩
abbrev main_v204 : Ref sig .tc := ⟨.hbm, 292, rfl⟩
abbrev main_v205 : Ref sig .tc := ⟨.hbm, 293, rfl⟩
abbrev main_v206 : Ref sig .tc := ⟨.hbm, 294, rfl⟩
abbrev main_v207 : Ref sig .tc := ⟨.hbm, 295, rfl⟩
abbrev main_v208 : Ref sig .tc := ⟨.hbm, 296, rfl⟩
abbrev main_v209 : Ref sig .tc := ⟨.hbm, 297, rfl⟩
abbrev main_v210 : Ref sig .tc := ⟨.hbm, 298, rfl⟩
abbrev main_v211 : Ref sig .tc := ⟨.hbm, 299, rfl⟩
abbrev main_v212 : Ref sig .tc := ⟨.hbm, 300, rfl⟩
abbrev main_v213 : Ref sig .tc := ⟨.hbm, 301, rfl⟩
abbrev main_v214 : Ref sig .tc := ⟨.hbm, 302, rfl⟩
abbrev main_v215 : Ref sig .tc := ⟨.hbm, 303, rfl⟩
abbrev main_v216 : Ref sig .tc := ⟨.hbm, 304, rfl⟩
abbrev main_cst_51 : Ref sig .tc := ⟨.hbm, 305, rfl⟩
abbrev main_v217 : Ref sig .tc := ⟨.hbm, 306, rfl⟩
abbrev main_cst_52 : Ref sig .tc := ⟨.hbm, 307, rfl⟩
abbrev main_v218 : Ref sig .tc := ⟨.hbm, 308, rfl⟩
abbrev main_v219 : Ref sig .tc := ⟨.hbm, 309, rfl⟩
abbrev main_v220 : Ref sig .tc := ⟨.hbm, 310, rfl⟩
abbrev main_cst_53 : Ref sig .tc := ⟨.hbm, 311, rfl⟩
abbrev main_call11_v0 : Ref sig .tc := ⟨.hbm, 312, rfl⟩
abbrev main_call11_v1 : Ref sig .tc := ⟨.hbm, 313, rfl⟩
abbrev main_v221 : Ref sig .tc := ⟨.hbm, 314, rfl⟩
abbrev main_cst_54 : Ref sig .tc := ⟨.hbm, 315, rfl⟩
abbrev main_v222 : Ref sig .tc := ⟨.hbm, 316, rfl⟩
abbrev main_v223 : Ref sig .tc := ⟨.hbm, 317, rfl⟩
abbrev main_v224 : Ref sig .tc := ⟨.hbm, 318, rfl⟩
abbrev main_cst_55 : Ref sig .tc := ⟨.hbm, 319, rfl⟩
abbrev main_call12_v0 : Ref sig .tc := ⟨.hbm, 320, rfl⟩
abbrev main_call12_v1 : Ref sig .tc := ⟨.hbm, 321, rfl⟩
abbrev main_v225 : Ref sig .tc := ⟨.hbm, 322, rfl⟩
abbrev main_cst_56 : Ref sig .tc := ⟨.hbm, 323, rfl⟩
abbrev main_v226 : Ref sig .tc := ⟨.hbm, 324, rfl⟩
abbrev main_v227 : Ref sig .tc := ⟨.hbm, 325, rfl⟩
abbrev main_v228 : Ref sig .tc := ⟨.hbm, 326, rfl⟩
abbrev main_v229 : Ref sig .tc := ⟨.hbm, 327, rfl⟩
abbrev main_v230 : Ref sig .tc := ⟨.hbm, 328, rfl⟩
abbrev main_v231 : Ref sig .tc := ⟨.hbm, 329, rfl⟩
abbrev main_v232 : Ref sig .tc := ⟨.hbm, 330, rfl⟩
abbrev main_v233 : Ref sig .tc := ⟨.hbm, 331, rfl⟩
abbrev main_c_57 : Ref sig .tc := ⟨.hbm, 332, rfl⟩
abbrev main_v234 : Ref sig .tc := ⟨.hbm, 333, rfl⟩
abbrev main_v235 : Ref sig .tc := ⟨.hbm, 334, rfl⟩
abbrev main_c_58 : Ref sig .tc := ⟨.hbm, 335, rfl⟩
abbrev main_v236 : Ref sig .tc := ⟨.hbm, 336, rfl⟩
abbrev main_v237 : Ref sig .tc := ⟨.hbm, 337, rfl⟩
abbrev main_v238 : Ref sig .tc := ⟨.hbm, 338, rfl⟩
abbrev main_v239 : Ref sig .tc := ⟨.hbm, 339, rfl⟩
abbrev main_v240 : Ref sig .tc := ⟨.hbm, 340, rfl⟩
abbrev main_cst_59 : Ref sig .tc := ⟨.hbm, 341, rfl⟩
abbrev main_v241 : Ref sig .tc := ⟨.hbm, 342, rfl⟩
abbrev main_v242 : Ref sig .tc := ⟨.hbm, 343, rfl⟩
abbrev main_v243 : Ref sig .tc := ⟨.hbm, 344, rfl⟩
abbrev main_cst_60 : Ref sig .tc := ⟨.hbm, 345, rfl⟩
abbrev main_v244 : Ref sig .tc := ⟨.hbm, 346, rfl⟩
abbrev main_v245 : Ref sig .tc := ⟨.hbm, 347, rfl⟩
abbrev main_v246 : Ref sig .tc := ⟨.hbm, 348, rfl⟩
abbrev main_v247 : Ref sig .tc := ⟨.hbm, 349, rfl⟩
abbrev main_v248 : Ref sig .tc := ⟨.hbm, 350, rfl⟩
abbrev main_v249 : Ref sig .tc := ⟨.hbm, 351, rfl⟩
abbrev main_v250 : Ref sig .tc := ⟨.hbm, 352, rfl⟩
abbrev main_v251 : Ref sig .tc := ⟨.hbm, 353, rfl⟩
abbrev main_v252 : Ref sig .tc := ⟨.hbm, 354, rfl⟩
abbrev main_v253 : Ref sig .tc := ⟨.hbm, 355, rfl⟩
abbrev main_v254 : Ref sig .tc := ⟨.hbm, 356, rfl⟩
abbrev main_v255 : Ref sig .tc := ⟨.hbm, 357, rfl⟩
abbrev main_v256 : Ref sig .tc := ⟨.hbm, 358, rfl⟩
abbrev main_v257 : Ref sig .tc := ⟨.hbm, 359, rfl⟩
abbrev main_v258 : Ref sig .tc := ⟨.hbm, 360, rfl⟩

abbrev nD : Nat := 1
abbrev τ : Topo := Topo.v7x

variable {F : FTy → Type} [FloatOps F]

class Facts₀ : Prop where
  bcast_S_S100000x128 : S_.BroadcastsInDim S100000x128 (![] : Fin 0 → Fin S100000x128.rank)
  slices_S3x600000_S1x600000_0_0 : S3x600000.Slices ![0, 0] S1x600000
  shapeCasts_S1x600000_S600000 : S1x600000.ShapeCasts S600000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  slices_S3x256x128_S1x256x128_0_0_0 : S3x256x128.Slices ![0, 0, 0] S1x256x128
  shapeCasts_S1x256x128_S256x128 : S1x256x128.ShapeCasts S256x128
  bcast_S100000x1_S100000x128_0_1 : S100000x1.BroadcastsInDim S100000x128 (![0, 1] : Fin 2 → Fin S100000x128.rank)
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x600000_S1x600000_1_0 : S3x600000.Slices ![1, 0] S1x600000
  slices_S3x256x128_S1x256x128_1_0_0 : S3x256x128.Slices ![1, 0, 0] S1x256x128
  slices_S3x128_S1x128_1_0 : S3x128.Slices ![1, 0] S1x128
  slices_S3x600000_S1x600000_2_0 : S3x600000.Slices ![2, 0] S1x600000
  slices_S3x256x128_S1x256x128_2_0_0 : S3x256x128.Slices ![2, 0, 0] S1x256x128
  slices_S3x128_S1x128_2_0 : S3x128.Slices ![2, 0] S1x128
  slices_S3x128x128_S1x128x128_0_0_0 : S3x128x128.Slices ![0, 0, 0] S1x128x128
  shapeCasts_S1x128x128_S128x128 : S1x128x128.ShapeCasts S128x128
  slices_S3x128x128_S1x128x128_1_0_0 : S3x128x128.Slices ![1, 0, 0] S1x128x128
  slices_S3x128x128_S1x128x128_2_0_0 : S3x128x128.Slices ![2, 0, 0] S1x128x128
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S600000x1_S600000_n_0_0_1_wf : ScatterDims.WF S100000 S600000x1 S600000 [] [0] [0] 1
  dot_S100000x256_S256x128_S100000x128_1_0_0_1_n_n_wf : DotDims.WF S100000x256 S256x128 S100000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x128_S100000x128_1_0_0_1_n_n_wf : DotDims.WF S100000x128 S128x128 S100000x128 [1] [0] [0] [1] [] []
  dot_S100000x128_S128x16_S100000x16_1_0_0_1_n_n_wf : DotDims.WF S100000x128 S128x16 S100000x16 [1] [0] [0] [1] [] []

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf

class Facts : Prop extends Facts₀ where

variable [Facts]
-- ==== Proof.KernelRun.lean ====
/-
  The idealized kernel program's run with every buffer NAMED: from any launch memory with zero counters every weakly fair
  execution of @main terminates without a fault, and every unscoped buffer ends at the last boundary's contents — the
  fold of the host stretches and the regions' write-backs over the launch memory.  The segments, the thread states and
  the chain between them are those of the frame certificate; only the final reading differs (every buffer, not only
  the arguments).
-/
import proofs.«124848_j55800215109809_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every unscoped buffer of every core ends at the last boundary's contents. -/
theorem run_all : θ_run defs (onTc (τ := τ) (main (F := F))) ⟨m, fun _ => 0, ρ⟩ (fun r => ∀ c : Dev nD, ∀ b : Ref sig .tc,
      ¬ (Proc.devRef .tc b : DevRef τ sig).isScoped →
      r.2.mem ((c.tc : Thread nD τ).loc b) = W42 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W42 m ρ c b)
    (hfin := fun c s' => by
      iintro ⟨⟨Hh, -⟩, HSI⟩
      unfold StableHlo.held
      imodintro
      iapply (pointsTo_read_all (Pipeline.ucRefs τ sig) (fun b => (((c : Thread nD τ)).1, b)) (W42 m ρ c) s')
      isplitl [Hh] <;> iassumption)
    (hQ := fun s h c b hb => h c _ (mem_uc b hb))

end Cert.KernelIdeal.Run

end
-- ==== Proof.RefOpsTable.lean ====
/-
  The reference program's host operations as lists, window by window in the printed order, the operations of a called
  function standing in its call's place over that call's buffers; beside each window the buffer every operation
  writes, and the fact that each operation touches TensorCore buffers only.
-/
import proofs.«124848_j55800215109809_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The operations of window 0 of @main (64 of them), in order. -/
abbrev ops0 : List (HloOp τ sig (Elt F)) :=
  [ StableHlo.nullary main_cst (constant S_ .f32 0x00000000#32),
    StableHlo.unary main_cst main_v0 (broadcastInDim S100000x128 ![] bcast_S_S100000x128 : (⟨S_, .f32⟩ : BufTy).Contents (Elt F) → (⟨S100000x128, .f32⟩ : BufTy).Contents (Elt F)),
    StableHlo.unary main_arg1 main_v1 ((extractStridedSlice S1x600000 ![0, 0] · slices_S3x600000_S1x600000_0_0) : (⟨S3x600000, .i32⟩ : BufTy).Contents (Elt F) → (⟨S1x600000, .i32⟩ : BufTy).Contents (Elt F)),
    StableHlo.reshape main_v1 main_v2 rfl shapeCasts_S1x600000_S600000,
    StableHlo.unary main_arg2 main_v3 ((extractStridedSlice S1x600000 ![0, 0] · slices_S3x600000_S1x600000_0_0) : (⟨S3x600000, .i32⟩ : BufTy).Contents (Elt F) → (⟨S1x600000, .i32⟩ : BufTy).Contents (Elt F)),
    StableHlo.reshape main_v3 main_v4 rfl shapeCasts_S1x600000_S600000,
    StableHlo.nullary main_cst_0 (constant S_ .f32 0x3F800000#32),
    StableHlo.unary main_cst_0 main_v5 (broadcastInDim S600000 ![] bcast_S_S600000 : (⟨S_, .f32⟩ : BufTy).Contents (Elt F) → (⟨S600000, .f32⟩ : BufTy).Contents (Elt F)),
    StableHlo.nullary main_cst_1 (constant S_ .f32 0x00000000#32),
    StableHlo.unary main_cst_1 main_v6 (broadcastInDim S100000 ![] bcast_S_S100000 : (⟨S_, .f32⟩ : BufTy).Contents (Elt F) → (⟨S100000, .f32⟩ : BufTy).Contents (Elt F)),
    StableHlo.unary main_v2 main_v7 (broadcastInDim S600000x1 ![0] bcast_S600000_S600000x1_0 : (⟨S600000, .i32⟩ : BufTy).Contents (Elt F) → (⟨S600000x1, .i32⟩ : BufTy).Contents (Elt F)),
    StableHlo.ternary main_v6 main_v7 main_v5 main_v8 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)),
    StableHlo.nullary main_cst_2 (constant S_ .f32 0x3F800000#32),
    StableHlo.TRef.unary (.of main_cst_2 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S100000, .f32⟩) (broadcastInDim S100000 ![] bcast_S_S100000),
    StableHlo.TRef.binary (.of main_call0_v1 : StableHlo.TRef sig ⟨S100000, .f32⟩) (.of main_v8 : StableHlo.TRef sig ⟨S100000, .f32⟩) (.of main_v9 : StableHlo.TRef sig ⟨S100000, .f32⟩) maximumf,
    StableHlo.nullary main_cst_3 (constant S_ .f32 0x00000000#32),
    StableHlo.unary main_cst_3 main_v10 (broadcastInDim S100000 ![] bcast_S_S100000 : (⟨S_, .f32⟩ : BufTy).Contents (Elt F) → (⟨S100000, .f32⟩ : BufTy).Contents (Elt F)),
    StableHlo.unary main_v4 main_v11 (broadcastInDim S600000x1 ![0] bcast_S600000_S600000x1_0 : (⟨S600000, .i32⟩ : BufTy).Contents (Elt F) → (⟨S600000x1, .i32⟩ : BufTy).Contents (Elt F)),
    StableHlo.ternary main_v10 main_v11 main_v5 main_v12 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)),
    StableHlo.nullary main_cst_4 (constant S_ .f32 0x3F800000#32),
    StableHlo.TRef.unary (.of main_cst_4 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S100000, .f32⟩) (broadcastInDim S100000 ![] bcast_S_S100000),
    StableHlo.TRef.binary (.of main_call1_v1 : StableHlo.TRef sig ⟨S100000, .f32⟩) (.of main_v12 : StableHlo.TRef sig ⟨S100000, .f32⟩) (.of main_v13 : StableHlo.TRef sig ⟨S100000, .f32⟩) maximumf,
    StableHlo.nullary main_cst_5 (constant S_ .f32 0xBF000000#32),
    StableHlo.unary main_cst_5 main_v14 (broadcastInDim S100000 ![] bcast_S_S100000 : (⟨S_, .f32⟩ : BufTy).Contents (Elt F) → (⟨S100000, .f32⟩ : BufTy).Contents (Elt F)),
    StableHlo.binary main_v9 main_v14 main_v15 (Host.powf : (⟨S100000, .f32⟩ : BufTy).Contents (Elt F) → (⟨S100000, .f32⟩ : BufTy).Contents (Elt F) → (⟨S100000, .f32⟩ : BufTy).Contents (Elt F)),
    StableHlo.unary main_v15 main_v16 (broadcastInDim S100000x1 ![0] bcast_S100000_S100000x1_0 : (⟨S100000, .f32⟩ : BufTy).Contents (Elt F) → (⟨S100000x1, .f32⟩ : BufTy).Contents (Elt F)),
    StableHlo.unary main_v16 main_v17 (broadcastInDim S100000x256 ![0, 1] bcast_S100000x1_S100000x256_0_1 : (⟨S100000x1, .f32⟩ : BufTy).Contents (Elt F) → (⟨S100000x256, .f32⟩ : BufTy).Contents (Elt F)),
    StableHlo.binary main_arg0 main_v17 main_v18 (mulf : (⟨S100000x256, .f32⟩ : BufTy).Contents (Elt F) → (⟨S100000x256, .f32⟩ : BufTy).Contents (Elt F) → (⟨S100000x256, .f32⟩ : BufTy).Contents (Elt F)),
    StableHlo.unary main_arg3 main_v19 ((extractStridedSlice S1x256x128 ![0, 0, 0] · slices_S3x256x128_S1x256x128_0_0_0) : (⟨S3x256x128, .f32⟩ : BufTy).Contents (Elt F) → (⟨S1x256x128, .f32⟩ : BufTy).Contents (Elt F)),
    StableHlo.reshape main_v19 main_v20 rfl shapeCasts_S1x256x128_S256x128,
    StableHlo.binary main_v18 main_v20 main_v21 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    StableHlo.nullary main_c (constantI S_ 32 0#32),
    StableHlo.unary main_c main_v22 (broadcastInDim S600000 ![] bcast_S_S600000 : (⟨S_, .i32⟩ : BufTy).Contents (Elt F) → (⟨S600000, .i32⟩ : BufTy).Contents (Elt F)),
    StableHlo.binary main_v2 main_v22 main_v23 (cmpi .slt : (⟨S600000, .i32⟩ : BufTy).Contents (Elt F) → (⟨S600000, .i32⟩ : BufTy).Contents (Elt F) → (⟨S600000, .i1⟩ : BufTy).Contents (Elt F)),
    StableHlo.nullary main_c_6 (constantI S_ 32 100000#32),
    StableHlo.unary main_c_6 main_v24 (broadcastInDim S600000 ![] bcast_S_S600000 : (⟨S_, .i32⟩ : BufTy).Contents (Elt F) → (⟨S600000, .i32⟩ : BufTy).Contents (Elt F)),
    StableHlo.binary main_v2 main_v24 main_v25 (addi : (⟨S600000, .i32⟩ : BufTy).Contents (Elt F) → (⟨S600000, .i32⟩ : BufTy).Contents (Elt F) → (⟨S600000, .i32⟩ : BufTy).Contents (Elt F)),
    StableHlo.ternary main_v23 main_v25 main_v2 main_v26 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v26 main_v27 (broadcastInDim S600000x1 ![0] bcast_S600000_S600000x1_0 : (⟨S600000, .i32⟩ : BufTy).Contents (Elt F) → (⟨S600000x1, .i32⟩ : BufTy).Contents (Elt F)),
    StableHlo.binary main_v21 main_v27 main_v28 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.nullary main_cst_7 (constant S_ .f32 0x00000000#32),
    StableHlo.unary main_cst_7 main_v29 (broadcastInDim S100000x128 ![] bcast_S_S100000x128 : (⟨S_, .f32⟩ : BufTy).Contents (Elt F) → (⟨S100000x128, .f32⟩ : BufTy).Contents (Elt F)),
    StableHlo.unary main_v4 main_v30 (broadcastInDim S600000x1 ![0] bcast_S600000_S600000x1_0 : (⟨S600000, .i32⟩ : BufTy).Contents (Elt F) → (⟨S600000x1, .i32⟩ : BufTy).Contents (Elt F)),
    StableHlo.ternary main_v29 main_v30 main_v28 main_v31 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    StableHlo.nullary main_cst_8 (constant S_ .f32 0xBF000000#32),
    StableHlo.unary main_cst_8 main_v32 (broadcastInDim S100000 ![] bcast_S_S100000 : (⟨S_, .f32⟩ : BufTy).Contents (Elt F) → (⟨S100000, .f32⟩ : BufTy).Contents (Elt F)),
    StableHlo.binary main_v13 main_v32 main_v33 (Host.powf : (⟨S100000, .f32⟩ : BufTy).Contents (Elt F) → (⟨S100000, .f32⟩ : BufTy).Contents (Elt F) → (⟨S100000, .f32⟩ : BufTy).Contents (Elt F)),
    StableHlo.unary main_v33 main_v34 (broadcastInDim S100000x1 ![0] bcast_S100000_S100000x1_0 : (⟨S100000, .f32⟩ : BufTy).Contents (Elt F) → (⟨S100000x1, .f32⟩ : BufTy).Contents (Elt F)),
    StableHlo.unary main_v34 main_v35 (broadcastInDim S100000x128 ![0, 1] bcast_S100000x1_S100000x128_0_1 : (⟨S100000x1, .f32⟩ : BufTy).Contents (Elt F) → (⟨S100000x128, .f32⟩ : BufTy).Contents (Elt F)),
    StableHlo.binary main_v31 main_v35 main_v36 (mulf : (⟨S100000x128, .f32⟩ : BufTy).Contents (Elt F) → (⟨S100000x128, .f32⟩ : BufTy).Contents (Elt F) → (⟨S100000x128, .f32⟩ : BufTy).Contents (Elt F)),
    StableHlo.binary main_v0 main_v36 main_v37 (addf : (⟨S100000x128, .f32⟩ : BufTy).Contents (Elt F) → (⟨S100000x128, .f32⟩ : BufTy).Contents (Elt F) → (⟨S100000x128, .f32⟩ : BufTy).Contents (Elt F)),
    StableHlo.unary main_arg4 main_v38 ((extractStridedSlice S1x128 ![0, 0] · slices_S3x128_S1x128_0_0) : (⟨S3x128, .f32⟩ : BufTy).Contents (Elt F) → (⟨S1x128, .f32⟩ : BufTy).Contents (Elt F)),
    StableHlo.reshape main_v38 main_v39 rfl shapeCasts_S1x128_S128,
    StableHlo.unary main_v39 main_v40 (broadcastInDim S1x128 ![1] bcast_S128_S1x128_1 : (⟨S128, .f32⟩ : BufTy).Contents (Elt F) → (⟨S1x128, .f32⟩ : BufTy).Contents (Elt F)),
    StableHlo.unary main_v40 main_v41 (broadcastInDim S100000x128 ![0, 1] bcast_S1x128_S100000x128_0_1 : (⟨S1x128, .f32⟩ : BufTy).Contents (Elt F) → (⟨S100000x128, .f32⟩ : BufTy).Contents (Elt F)),
    StableHlo.binary main_v37 main_v41 main_v42 (addf : (⟨S100000x128, .f32⟩ : BufTy).Contents (Elt F) → (⟨S100000x128, .f32⟩ : BufTy).Contents (Elt F) → (⟨S100000x128, .f32⟩ : BufTy).Contents (Elt F)),
    StableHlo.unary main_arg1 main_v43 ((extractStridedSlice S1x600000 ![1, 0] · slices_S3x600000_S1x600000_1_0) : (⟨S3x600000, .i32⟩ : BufTy).Contents (Elt F) → (⟨S1x600000, .i32⟩ : BufTy).Contents (Elt F)),
    StableHlo.reshape main_v43 main_v44 rfl shapeCasts_S1x600000_S600000,
    StableHlo.unary main_arg2 main_v45 ((extractStridedSlice S1x600000 ![1, 0] · slices_S3x600000_S1x600000_1_0) : (⟨S3x600000, .i32⟩ : BufTy).Contents (Elt F) → (⟨S1x600000, .i32⟩ : BufTy).Contents (Elt F)),
    StableHlo.reshape main_v45 main_v46 rfl shapeCasts_S1x600000_S600000,
    StableHlo.nullary main_cst_9 (constant S_ .f32 0x3F800000#32),
    StableHlo.unary main_cst_9 main_v47 (broadcastInDim S600000 ![] bcast_S_S600000 : (⟨S_, .f32⟩ : BufTy).Contents (Elt F) → (⟨S600000, .f32⟩ : BufTy).Contents (Elt F)) ]

/-- The buffer each of them writes. -/
abbrev Ws0 : List (Ref sig .tc) :=
  [ main_cst, main_v0, main_v1, main_v2, main_v3, main_v4, main_cst_0, main_v5, main_cst_1, main_v6, main_v7, main_v8, main_cst_2, main_call0_v0, main_call0_v1, main_v9, main_cst_3, main_v10, main_v11, main_v12, main_cst_4, main_call1_v0, main_call1_v1, main_v13, main_cst_5, main_v14, main_v15, main_v16, main_v17, main_v18, main_v19, main_v20, main_v21, main_c, main_v22, main_v23, main_c_6, main_v24, main_v25, main_v26, main_v27, main_v28, main_cst_7, main_v29, main_v30, main_v31, main_cst_8, main_v32, main_v33, main_v34, main_v35, main_v36, main_v37, main_v38, main_v39, main_v40, main_v41, main_v42, main_v43, main_v44, main_v45, main_v46, main_cst_9, main_v47 ]

set_option maxRecDepth 8192 in
theorem ops0_sub : (ops0 : List (HloOp τ sig (Elt F))).Forall fun op => op.bufs ⊆ tcRefs τ sig :=
  ⟨nullary_bufs_sub .., unary_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., unary_bufs_sub .., binary_bufs_sub .., nullary_bufs_sub .., unary_bufs_sub .., unary_bufs_sub .., ternary_bufs_sub .., nullary_bufs_sub .., unary_bufs_sub .., unary_bufs_sub .., binary_bufs_sub .., nullary_bufs_sub .., unary_bufs_sub .., binary_bufs_sub .., unary_bufs_sub .., unary_bufs_sub .., binary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., unary_bufs_sub ..⟩

/-- The operations of window 1 of @main (66 of them), in order. -/
abbrev ops1 : List (HloOp τ sig (Elt F)) :=
  [ StableHlo.nullary main_cst_10 (constant S_ .f32 0x00000000#32),
    StableHlo.unary main_cst_10 main_v48 (broadcastInDim S100000 ![] bcast_S_S100000 : (⟨S_, .f32⟩ : BufTy).Contents (Elt F) → (⟨S100000, .f32⟩ : BufTy).Contents (Elt F)),
    StableHlo.unary main_v44 main_v49 (broadcastInDim S600000x1 ![0] bcast_S600000_S600000x1_0 : (⟨S600000, .i32⟩ : BufTy).Contents (Elt F) → (⟨S600000x1, .i32⟩ : BufTy).Contents (Elt F)),
    StableHlo.ternary main_v48 main_v49 main_v47 main_v50 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)),
    StableHlo.nullary main_cst_11 (constant S_ .f32 0x3F800000#32),
    StableHlo.TRef.unary (.of main_cst_11 : StableHlo.TRef sig ⟨S_, .f32⟩) (.of main_call2_v0 : StableHlo.TRef sig ⟨S_, .f32⟩) id,
    StableHlo.TRef.unary (.of main_call2_v0 : StableHlo.TRef sig ⟨S_, .f32⟩) (.of main_call2_v1 : StableHlo.TRef sig ⟨S100000, .f32⟩) (broadcastInDim S100000 ![] bcast_S_S100000),
    StableHlo.TRef.binary (.of main_call2_v1 : StableHlo.TRef sig ⟨S100000, .f32⟩) (.of main_v50 : StableHlo.TRef sig ⟨S100000, .f32⟩) (.of main_v51 : StableHlo.TRef sig ⟨S100000, .f32⟩) maximumf,
    StableHlo.nullary main_cst_12 (constant S_ .f32 0x00000000#32),
    StableHlo.unary main_cst_12 main_v52 (broadcastInDim S100000 ![] bcast_S_S100000 : (⟨S_, .f32⟩ : BufTy).Contents (Elt F) → (⟨S100000, .f32⟩ : BufTy).Contents (Elt F)),
    StableHlo.unary main_v46 main_v53 (broadcastInDim S600000x1 ![0] bcast_S600000_S600000x1_0 : (⟨S600000, .i32⟩ : BufTy).Contents (Elt F) → (⟨S600000x1, .i32⟩ : BufTy).Contents (Elt F)),
    StableHlo.ternary main_v52 main_v53 main_v47 main_v54 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)),
    StableHlo.nullary main_cst_13 (constant S_ .f32 0x3F800000#32),
    StableHlo.TRef.unary (.of main_cst_13 : StableHlo.TRef sig ⟨S_, .f32⟩) (.of main_call3_v0 : StableHlo.TRef sig ⟨S_, .f32⟩) id,
    StableHlo.TRef.unary (.of main_call3_v0 : StableHlo.TRef sig ⟨S_, .f32⟩) (.of main_call3_v1 : StableHlo.TRef sig ⟨S100000, .f32⟩) (broadcastInDim S100000 ![] bcast_S_S100000),
    StableHlo.TRef.binary (.of main_call3_v1 : StableHlo.TRef sig ⟨S100000, .f32⟩) (.of main_v54 : StableHlo.TRef sig ⟨S100000, .f32⟩) (.of main_v55 : StableHlo.TRef sig ⟨S100000, .f32⟩) maximumf,
    StableHlo.nullary main_cst_14 (constant S_ .f32 0xBF000000#32),
    StableHlo.unary main_cst_14 main_v56 (broadcastInDim S100000 ![] bcast_S_S100000 : (⟨S_, .f32⟩ : BufTy).Contents (Elt F) → (⟨S100000, .f32⟩ : BufTy).Contents (Elt F)),
    StableHlo.binary main_v51 main_v56 main_v57 (Host.powf : (⟨S100000, .f32⟩ : BufTy).Contents (Elt F) → (⟨S100000, .f32⟩ : BufTy).Contents (Elt F) → (⟨S100000, .f32⟩ : BufTy).Contents (Elt F)),
    StableHlo.unary main_v57 main_v58 (broadcastInDim S100000x1 ![0] bcast_S100000_S100000x1_0 : (⟨S100000, .f32⟩ : BufTy).Contents (Elt F) → (⟨S100000x1, .f32⟩ : BufTy).Contents (Elt F)),
    StableHlo.unary main_v58 main_v59 (broadcastInDim S100000x256 ![0, 1] bcast_S100000x1_S100000x256_0_1 : (⟨S100000x1, .f32⟩ : BufTy).Contents (Elt F) → (⟨S100000x256, .f32⟩ : BufTy).Contents (Elt F)),
    StableHlo.binary main_arg0 main_v59 main_v60 (mulf : (⟨S100000x256, .f32⟩ : BufTy).Contents (Elt F) → (⟨S100000x256, .f32⟩ : BufTy).Contents (Elt F) → (⟨S100000x256, .f32⟩ : BufTy).Contents (Elt F)),
    StableHlo.unary main_arg3 main_v61 ((extractStridedSlice S1x256x128 ![1, 0, 0] · slices_S3x256x128_S1x256x128_1_0_0) : (⟨S3x256x128, .f32⟩ : BufTy).Contents (Elt F) → (⟨S1x256x128, .f32⟩ : BufTy).Contents (Elt F)),
    StableHlo.reshape main_v61 main_v62 rfl shapeCasts_S1x256x128_S256x128,
    StableHlo.binary main_v60 main_v62 main_v63 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    StableHlo.nullary main_c_15 (constantI S_ 32 0#32),
    StableHlo.unary main_c_15 main_v64 (broadcastInDim S600000 ![] bcast_S_S600000 : (⟨S_, .i32⟩ : BufTy).Contents (Elt F) → (⟨S600000, .i32⟩ : BufTy).Contents (Elt F)),
    StableHlo.binary main_v44 main_v64 main_v65 (cmpi .slt : (⟨S600000, .i32⟩ : BufTy).Contents (Elt F) → (⟨S600000, .i32⟩ : BufTy).Contents (Elt F) → (⟨S600000, .i1⟩ : BufTy).Contents (Elt F)),
    StableHlo.nullary main_c_16 (constantI S_ 32 100000#32),
    StableHlo.unary main_c_16 main_v66 (broadcastInDim S600000 ![] bcast_S_S600000 : (⟨S_, .i32⟩ : BufTy).Contents (Elt F) → (⟨S600000, .i32⟩ : BufTy).Contents (Elt F)),
    StableHlo.binary main_v44 main_v66 main_v67 (addi : (⟨S600000, .i32⟩ : BufTy).Contents (Elt F) → (⟨S600000, .i32⟩ : BufTy).Contents (Elt F) → (⟨S600000, .i32⟩ : BufTy).Contents (Elt F)),
    StableHlo.ternary main_v65 main_v67 main_v44 main_v68 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v68 main_v69 (broadcastInDim S600000x1 ![0] bcast_S600000_S600000x1_0 : (⟨S600000, .i32⟩ : BufTy).Contents (Elt F) → (⟨S600000x1, .i32⟩ : BufTy).Contents (Elt F)),
    StableHlo.binary main_v63 main_v69 main_v70 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.nullary main_cst_17 (constant S_ .f32 0x00000000#32),
    StableHlo.unary main_cst_17 main_v71 (broadcastInDim S100000x128 ![] bcast_S_S100000x128 : (⟨S_, .f32⟩ : BufTy).Contents (Elt F) → (⟨S100000x128, .f32⟩ : BufTy).Contents (Elt F)),
    StableHlo.unary main_v46 main_v72 (broadcastInDim S600000x1 ![0] bcast_S600000_S600000x1_0 : (⟨S600000, .i32⟩ : BufTy).Contents (Elt F) → (⟨S600000x1, .i32⟩ : BufTy).Contents (Elt F)),
    StableHlo.ternary main_v71 main_v72 main_v70 main_v73 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    StableHlo.nullary main_cst_18 (constant S_ .f32 0xBF000000#32),
    StableHlo.unary main_cst_18 main_v74 (broadcastInDim S100000 ![] bcast_S_S100000 : (⟨S_, .f32⟩ : BufTy).Contents (Elt F) → (⟨S100000, .f32⟩ : BufTy).Contents (Elt F)),
    StableHlo.binary main_v55 main_v74 main_v75 (Host.powf : (⟨S100000, .f32⟩ : BufTy).Contents (Elt F) → (⟨S100000, .f32⟩ : BufTy).Contents (Elt F) → (⟨S100000, .f32⟩ : BufTy).Contents (Elt F)),
    StableHlo.unary main_v75 main_v76 (broadcastInDim S100000x1 ![0] bcast_S100000_S100000x1_0 : (⟨S100000, .f32⟩ : BufTy).Contents (Elt F) → (⟨S100000x1, .f32⟩ : BufTy).Contents (Elt F)),
    StableHlo.unary main_v76 main_v77 (broadcastInDim S100000x128 ![0, 1] bcast_S100000x1_S100000x128_0_1 : (⟨S100000x1, .f32⟩ : BufTy).Contents (Elt F) → (⟨S100000x128, .f32⟩ : BufTy).Contents (Elt F)),
    StableHlo.binary main_v73 main_v77 main_v78 (mulf : (⟨S100000x128, .f32⟩ : BufTy).Contents (Elt F) → (⟨S100000x128, .f32⟩ : BufTy).Contents (Elt F) → (⟨S100000x128, .f32⟩ : BufTy).Contents (Elt F)),
    StableHlo.binary main_v42 main_v78 main_v79 (addf : (⟨S100000x128, .f32⟩ : BufTy).Contents (Elt F) → (⟨S100000x128, .f32⟩ : BufTy).Contents (Elt F) → (⟨S100000x128, .f32⟩ : BufTy).Contents (Elt F)),
    StableHlo.unary main_arg4 main_v80 ((extractStridedSlice S1x128 ![1, 0] · slices_S3x128_S1x128_1_0) : (⟨S3x128, .f32⟩ : BufTy).Contents (Elt F) → (⟨S1x128, .f32⟩ : BufTy).Contents (Elt F)),
    StableHlo.reshape main_v80 main_v81 rfl shapeCasts_S1x128_S128,
    StableHlo.unary main_v81 main_v82 (broadcastInDim S1x128 ![1] bcast_S128_S1x128_1 : (⟨S128, .f32⟩ : BufTy).Contents (Elt F) → (⟨S1x128, .f32⟩ : BufTy).Contents (Elt F)),
    StableHlo.unary main_v82 main_v83 (broadcastInDim S100000x128 ![0, 1] bcast_S1x128_S100000x128_0_1 : (⟨S1x128, .f32⟩ : BufTy).Contents (Elt F) → (⟨S100000x128, .f32⟩ : BufTy).Contents (Elt F)),
    StableHlo.binary main_v79 main_v83 main_v84 (addf : (⟨S100000x128, .f32⟩ : BufTy).Contents (Elt F) → (⟨S100000x128, .f32⟩ : BufTy).Contents (Elt F) → (⟨S100000x128, .f32⟩ : BufTy).Contents (Elt F)),
    StableHlo.unary main_arg1 main_v85 ((extractStridedSlice S1x600000 ![2, 0] · slices_S3x600000_S1x600000_2_0) : (⟨S3x600000, .i32⟩ : BufTy).Contents (Elt F) → (⟨S1x600000, .i32⟩ : BufTy).Contents (Elt F)),
    StableHlo.reshape main_v85 main_v86 rfl shapeCasts_S1x600000_S600000,
    StableHlo.unary main_arg2 main_v87 ((extractStridedSlice S1x600000 ![2, 0] · slices_S3x600000_S1x600000_2_0) : (⟨S3x600000, .i32⟩ : BufTy).Contents (Elt F) → (⟨S1x600000, .i32⟩ : BufTy).Contents (Elt F)),
    StableHlo.reshape main_v87 main_v88 rfl shapeCasts_S1x600000_S600000,
    StableHlo.nullary main_cst_19 (constant S_ .f32 0x3F800000#32),
    StableHlo.unary main_cst_19 main_v89 (broadcastInDim S600000 ![] bcast_S_S600000 : (⟨S_, .f32⟩ : BufTy).Contents (Elt F) → (⟨S600000, .f32⟩ : BufTy).Contents (Elt F)),
    StableHlo.nullary main_cst_20 (constant S_ .f32 0x00000000#32),
    StableHlo.unary main_cst_20 main_v90 (broadcastInDim S100000 ![] bcast_S_S100000 : (⟨S_, .f32⟩ : BufTy).Contents (Elt F) → (⟨S100000, .f32⟩ : BufTy).Contents (Elt F)),
    StableHlo.unary main_v86 main_v91 (broadcastInDim S600000x1 ![0] bcast_S600000_S600000x1_0 : (⟨S600000, .i32⟩ : BufTy).Contents (Elt F) → (⟨S600000x1, .i32⟩ : BufTy).Contents (Elt F)),
    StableHlo.ternary main_v90 main_v91 main_v89 main_v92 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)),
    StableHlo.nullary main_cst_21 (constant S_ .f32 0x3F800000#32),
    StableHlo.TRef.unary (.of main_cst_21 : StableHlo.TRef sig ⟨S_, .f32⟩) (.of main_call4_v0 : StableHlo.TRef sig ⟨S_, .f32⟩) id,
    StableHlo.TRef.unary (.of main_call4_v0 : StableHlo.TRef sig ⟨S_, .f32⟩) (.of main_call4_v1 : StableHlo.TRef sig ⟨S100000, .f32⟩) (broadcastInDim S100000 ![] bcast_S_S100000),
    StableHlo.TRef.binary (.of main_call4_v1 : StableHlo.TRef sig ⟨S100000, .f32⟩) (.of main_v92 : StableHlo.TRef sig ⟨S100000, .f32⟩) (.of main_v93 : StableHlo.TRef sig ⟨S100000, .f32⟩) maximumf,
    StableHlo.nullary main_cst_22 (constant S_ .f32 0x00000000#32),
    StableHlo.unary main_cst_22 main_v94 (broadcastInDim S100000 ![] bcast_S_S100000 : (⟨S_, .f32⟩ : BufTy).Contents (Elt F) → (⟨S100000, .f32⟩ : BufTy).Contents (Elt F)) ]

/-- The buffer each of them writes. -/
abbrev Ws1 : List (Ref sig .tc) :=
  [ main_cst_10, main_v48, main_v49, main_v50, main_cst_11, main_call2_v0, main_call2_v1, main_v51, main_cst_12, main_v52, main_v53, main_v54, main_cst_13, main_call3_v0, main_call3_v1, main_v55, main_cst_14, main_v56, main_v57, main_v58, main_v59, main_v60, main_v61, main_v62, main_v63, main_c_15, main_v64, main_v65, main_c_16, main_v66, main_v67, main_v68, main_v69, main_v70, main_cst_17, main_v71, main_v72, main_v73, main_cst_18, main_v74, main_v75, main_v76, main_v77, main_v78, main_v79, main_v80, main_v81, main_v82, main_v83, main_v84, main_v85, main_v86, main_v87, main_v88, main_cst_19, main_v89, main_cst_20, main_v90, main_v91, main_v92, main_cst_21, main_call4_v0, main_call4_v1, main_v93, main_cst_22, main_v94 ]

set_option maxRecDepth 8192 in
theorem ops1_sub : (ops1 : List (HloOp τ sig (Elt F))).Forall fun op => op.bufs ⊆ tcRefs τ sig :=
  ⟨nullary_bufs_sub .., unary_bufs_sub .., unary_bufs_sub .., ternary_bufs_sub .., nullary_bufs_sub .., unary_bufs_sub .., unary_bufs_sub .., binary_bufs_sub .., nullary_bufs_sub .., unary_bufs_sub .., unary_bufs_sub .., ternary_bufs_sub .., nullary_bufs_sub .., unary_bufs_sub .., unary_bufs_sub .., binary_bufs_sub .., nullary_bufs_sub .., unary_bufs_sub .., binary_bufs_sub .., unary_bufs_sub .., unary_bufs_sub .., binary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., unary_bufs_sub .., binary_bufs_sub .., nullary_bufs_sub .., unary_bufs_sub ..⟩

/-- The operations of window 2 of @main (72 of them), in order. -/
abbrev ops2 : List (HloOp τ sig (Elt F)) :=
  [ StableHlo.unary main_v88 main_v95 (broadcastInDim S600000x1 ![0] bcast_S600000_S600000x1_0 : (⟨S600000, .i32⟩ : BufTy).Contents (Elt F) → (⟨S600000x1, .i32⟩ : BufTy).Contents (Elt F)),
    StableHlo.ternary main_v94 main_v95 main_v89 main_v96 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)),
    StableHlo.nullary main_cst_23 (constant S_ .f32 0x3F800000#32),
    StableHlo.TRef.unary (.of main_cst_23 : StableHlo.TRef sig ⟨S_, .f32⟩) (.of main_call5_v0 : StableHlo.TRef sig ⟨S_, .f32⟩) id,
    StableHlo.TRef.unary (.of main_call5_v0 : StableHlo.TRef sig ⟨S_, .f32⟩) (.of main_call5_v1 : StableHlo.TRef sig ⟨S100000, .f32⟩) (broadcastInDim S100000 ![] bcast_S_S100000),
    StableHlo.TRef.binary (.of main_call5_v1 : StableHlo.TRef sig ⟨S100000, .f32⟩) (.of main_v96 : StableHlo.TRef sig ⟨S100000, .f32⟩) (.of main_v97 : StableHlo.TRef sig ⟨S100000, .f32⟩) maximumf,
    StableHlo.nullary main_cst_24 (constant S_ .f32 0xBF000000#32),
    StableHlo.unary main_cst_24 main_v98 (broadcastInDim S100000 ![] bcast_S_S100000 : (⟨S_, .f32⟩ : BufTy).Contents (Elt F) → (⟨S100000, .f32⟩ : BufTy).Contents (Elt F)),
    StableHlo.binary main_v93 main_v98 main_v99 (Host.powf : (⟨S100000, .f32⟩ : BufTy).Contents (Elt F) → (⟨S100000, .f32⟩ : BufTy).Contents (Elt F) → (⟨S100000, .f32⟩ : BufTy).Contents (Elt F)),
    StableHlo.unary main_v99 main_v100 (broadcastInDim S100000x1 ![0] bcast_S100000_S100000x1_0 : (⟨S100000, .f32⟩ : BufTy).Contents (Elt F) → (⟨S100000x1, .f32⟩ : BufTy).Contents (Elt F)),
    StableHlo.unary main_v100 main_v101 (broadcastInDim S100000x256 ![0, 1] bcast_S100000x1_S100000x256_0_1 : (⟨S100000x1, .f32⟩ : BufTy).Contents (Elt F) → (⟨S100000x256, .f32⟩ : BufTy).Contents (Elt F)),
    StableHlo.binary main_arg0 main_v101 main_v102 (mulf : (⟨S100000x256, .f32⟩ : BufTy).Contents (Elt F) → (⟨S100000x256, .f32⟩ : BufTy).Contents (Elt F) → (⟨S100000x256, .f32⟩ : BufTy).Contents (Elt F)),
    StableHlo.unary main_arg3 main_v103 ((extractStridedSlice S1x256x128 ![2, 0, 0] · slices_S3x256x128_S1x256x128_2_0_0) : (⟨S3x256x128, .f32⟩ : BufTy).Contents (Elt F) → (⟨S1x256x128, .f32⟩ : BufTy).Contents (Elt F)),
    StableHlo.reshape main_v103 main_v104 rfl shapeCasts_S1x256x128_S256x128,
    StableHlo.binary main_v102 main_v104 main_v105 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    StableHlo.nullary main_c_25 (constantI S_ 32 0#32),
    StableHlo.unary main_c_25 main_v106 (broadcastInDim S600000 ![] bcast_S_S600000 : (⟨S_, .i32⟩ : BufTy).Contents (Elt F) → (⟨S600000, .i32⟩ : BufTy).Contents (Elt F)),
    StableHlo.binary main_v86 main_v106 main_v107 (cmpi .slt : (⟨S600000, .i32⟩ : BufTy).Contents (Elt F) → (⟨S600000, .i32⟩ : BufTy).Contents (Elt F) → (⟨S600000, .i1⟩ : BufTy).Contents (Elt F)),
    StableHlo.nullary main_c_26 (constantI S_ 32 100000#32),
    StableHlo.unary main_c_26 main_v108 (broadcastInDim S600000 ![] bcast_S_S600000 : (⟨S_, .i32⟩ : BufTy).Contents (Elt F) → (⟨S600000, .i32⟩ : BufTy).Contents (Elt F)),
    StableHlo.binary main_v86 main_v108 main_v109 (addi : (⟨S600000, .i32⟩ : BufTy).Contents (Elt F) → (⟨S600000, .i32⟩ : BufTy).Contents (Elt F) → (⟨S600000, .i32⟩ : BufTy).Contents (Elt F)),
    StableHlo.ternary main_v107 main_v109 main_v86 main_v110 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v110 main_v111 (broadcastInDim S600000x1 ![0] bcast_S600000_S600000x1_0 : (⟨S600000, .i32⟩ : BufTy).Contents (Elt F) → (⟨S600000x1, .i32⟩ : BufTy).Contents (Elt F)),
    StableHlo.binary main_v105 main_v111 main_v112 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.nullary main_cst_27 (constant S_ .f32 0x00000000#32),
    StableHlo.unary main_cst_27 main_v113 (broadcastInDim S100000x128 ![] bcast_S_S100000x128 : (⟨S_, .f32⟩ : BufTy).Contents (Elt F) → (⟨S100000x128, .f32⟩ : BufTy).Contents (Elt F)),
    StableHlo.unary main_v88 main_v114 (broadcastInDim S600000x1 ![0] bcast_S600000_S600000x1_0 : (⟨S600000, .i32⟩ : BufTy).Contents (Elt F) → (⟨S600000x1, .i32⟩ : BufTy).Contents (Elt F)),
    StableHlo.ternary main_v113 main_v114 main_v112 main_v115 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    StableHlo.nullary main_cst_28 (constant S_ .f32 0xBF000000#32),
    StableHlo.unary main_cst_28 main_v116 (broadcastInDim S100000 ![] bcast_S_S100000 : (⟨S_, .f32⟩ : BufTy).Contents (Elt F) → (⟨S100000, .f32⟩ : BufTy).Contents (Elt F)),
    StableHlo.binary main_v97 main_v116 main_v117 (Host.powf : (⟨S100000, .f32⟩ : BufTy).Contents (Elt F) → (⟨S100000, .f32⟩ : BufTy).Contents (Elt F) → (⟨S100000, .f32⟩ : BufTy).Contents (Elt F)),
    StableHlo.unary main_v117 main_v118 (broadcastInDim S100000x1 ![0] bcast_S100000_S100000x1_0 : (⟨S100000, .f32⟩ : BufTy).Contents (Elt F) → (⟨S100000x1, .f32⟩ : BufTy).Contents (Elt F)),
    StableHlo.unary main_v118 main_v119 (broadcastInDim S100000x128 ![0, 1] bcast_S100000x1_S100000x128_0_1 : (⟨S100000x1, .f32⟩ : BufTy).Contents (Elt F) → (⟨S100000x128, .f32⟩ : BufTy).Contents (Elt F)),
    StableHlo.binary main_v115 main_v119 main_v120 (mulf : (⟨S100000x128, .f32⟩ : BufTy).Contents (Elt F) → (⟨S100000x128, .f32⟩ : BufTy).Contents (Elt F) → (⟨S100000x128, .f32⟩ : BufTy).Contents (Elt F)),
    StableHlo.binary main_v84 main_v120 main_v121 (addf : (⟨S100000x128, .f32⟩ : BufTy).Contents (Elt F) → (⟨S100000x128, .f32⟩ : BufTy).Contents (Elt F) → (⟨S100000x128, .f32⟩ : BufTy).Contents (Elt F)),
    StableHlo.unary main_arg4 main_v122 ((extractStridedSlice S1x128 ![2, 0] · slices_S3x128_S1x128_2_0) : (⟨S3x128, .f32⟩ : BufTy).Contents (Elt F) → (⟨S1x128, .f32⟩ : BufTy).Contents (Elt F)),
    StableHlo.reshape main_v122 main_v123 rfl shapeCasts_S1x128_S128,
    StableHlo.unary main_v123 main_v124 (broadcastInDim S1x128 ![1] bcast_S128_S1x128_1 : (⟨S128, .f32⟩ : BufTy).Contents (Elt F) → (⟨S1x128, .f32⟩ : BufTy).Contents (Elt F)),
    StableHlo.unary main_v124 main_v125 (broadcastInDim S100000x128 ![0, 1] bcast_S1x128_S100000x128_0_1 : (⟨S1x128, .f32⟩ : BufTy).Contents (Elt F) → (⟨S100000x128, .f32⟩ : BufTy).Contents (Elt F)),
    StableHlo.binary main_v121 main_v125 main_v126 (addf : (⟨S100000x128, .f32⟩ : BufTy).Contents (Elt F) → (⟨S100000x128, .f32⟩ : BufTy).Contents (Elt F) → (⟨S100000x128, .f32⟩ : BufTy).Contents (Elt F)),
    StableHlo.nullary main_cst_29 (constant S_ .f32 0x3C23D70A#32),
    StableHlo.TRef.nullary (.of main_call6_cst : StableHlo.TRef sig ⟨S_, .f32⟩) (constant S_ .f32 0x00000000#32),
    StableHlo.TRef.unary (.of main_call6_cst : StableHlo.TRef sig ⟨S_, .f32⟩) (.of main_call6_v0 : StableHlo.TRef sig ⟨S100000x128, .f32⟩) (broadcastInDim S100000x128 ![] bcast_S_S100000x128),
    StableHlo.TRef.binary (.of main_v126 : StableHlo.TRef sig ⟨S100000x128, .f32⟩) (.of main_call6_v0 : StableHlo.TRef sig ⟨S100000x128, .f32⟩) (.of main_call6_v1 : StableHlo.TRef sig ⟨S100000x128, .i1⟩) (cmpf .oge),
    StableHlo.TRef.unary (.of main_cst_29 : StableHlo.TRef sig ⟨S_, .f32⟩) (.of main_call6_v2 : StableHlo.TRef sig ⟨S_, .f32⟩) id,
    StableHlo.TRef.unary (.of main_call6_v2 : StableHlo.TRef sig ⟨S_, .f32⟩) (.of main_call6_v3 : StableHlo.TRef sig ⟨S100000x128, .f32⟩) (broadcastInDim S100000x128 ![] bcast_S_S100000x128),
    StableHlo.TRef.binary (.of main_call6_v3 : StableHlo.TRef sig ⟨S100000x128, .f32⟩) (.of main_v126 : StableHlo.TRef sig ⟨S100000x128, .f32⟩) (.of main_call6_v4 : StableHlo.TRef sig ⟨S100000x128, .f32⟩) mulf,
    StableHlo.TRef.ternary (.of main_call6_v1 : StableHlo.TRef sig ⟨S100000x128, .i1⟩) (.of main_v126 : StableHlo.TRef sig ⟨S100000x128, .f32⟩) (.of main_call6_v4 : StableHlo.TRef sig ⟨S100000x128, .f32⟩) (.of main_v127 : StableHlo.TRef sig ⟨S100000x128, .f32⟩) select,
    StableHlo.nullary main_cst_30 (constant S_ .f32 0x00000000#32),
    StableHlo.unary main_cst_30 main_v128 (broadcastInDim S100000x128 ![] bcast_S_S100000x128 : (⟨S_, .f32⟩ : BufTy).Contents (Elt F) → (⟨S100000x128, .f32⟩ : BufTy).Contents (Elt F)),
    StableHlo.unary main_arg1 main_v129 ((extractStridedSlice S1x600000 ![0, 0] · slices_S3x600000_S1x600000_0_0) : (⟨S3x600000, .i32⟩ : BufTy).Contents (Elt F) → (⟨S1x600000, .i32⟩ : BufTy).Contents (Elt F)),
    StableHlo.reshape main_v129 main_v130 rfl shapeCasts_S1x600000_S600000,
    StableHlo.unary main_arg2 main_v131 ((extractStridedSlice S1x600000 ![0, 0] · slices_S3x600000_S1x600000_0_0) : (⟨S3x600000, .i32⟩ : BufTy).Contents (Elt F) → (⟨S1x600000, .i32⟩ : BufTy).Contents (Elt F)),
    StableHlo.reshape main_v131 main_v132 rfl shapeCasts_S1x600000_S600000,
    StableHlo.nullary main_cst_31 (constant S_ .f32 0x3F800000#32),
    StableHlo.unary main_cst_31 main_v133 (broadcastInDim S600000 ![] bcast_S_S600000 : (⟨S_, .f32⟩ : BufTy).Contents (Elt F) → (⟨S600000, .f32⟩ : BufTy).Contents (Elt F)),
    StableHlo.nullary main_cst_32 (constant S_ .f32 0x00000000#32),
    StableHlo.unary main_cst_32 main_v134 (broadcastInDim S100000 ![] bcast_S_S100000 : (⟨S_, .f32⟩ : BufTy).Contents (Elt F) → (⟨S100000, .f32⟩ : BufTy).Contents (Elt F)),
    StableHlo.unary main_v130 main_v135 (broadcastInDim S600000x1 ![0] bcast_S600000_S600000x1_0 : (⟨S600000, .i32⟩ : BufTy).Contents (Elt F) → (⟨S600000x1, .i32⟩ : BufTy).Contents (Elt F)),
    StableHlo.ternary main_v134 main_v135 main_v133 main_v136 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)),
    StableHlo.nullary main_cst_33 (constant S_ .f32 0x3F800000#32),
    StableHlo.TRef.unary (.of main_cst_33 : StableHlo.TRef sig ⟨S_, .f32⟩) (.of main_call7_v0 : StableHlo.TRef sig ⟨S_, .f32⟩) id,
    StableHlo.TRef.unary (.of main_call7_v0 : StableHlo.TRef sig ⟨S_, .f32⟩) (.of main_call7_v1 : StableHlo.TRef sig ⟨S100000, .f32⟩) (broadcastInDim S100000 ![] bcast_S_S100000),
    StableHlo.TRef.binary (.of main_call7_v1 : StableHlo.TRef sig ⟨S100000, .f32⟩) (.of main_v136 : StableHlo.TRef sig ⟨S100000, .f32⟩) (.of main_v137 : StableHlo.TRef sig ⟨S100000, .f32⟩) maximumf,
    StableHlo.nullary main_cst_34 (constant S_ .f32 0x00000000#32),
    StableHlo.unary main_cst_34 main_v138 (broadcastInDim S100000 ![] bcast_S_S100000 : (⟨S_, .f32⟩ : BufTy).Contents (Elt F) → (⟨S100000, .f32⟩ : BufTy).Contents (Elt F)),
    StableHlo.unary main_v132 main_v139 (broadcastInDim S600000x1 ![0] bcast_S600000_S600000x1_0 : (⟨S600000, .i32⟩ : BufTy).Contents (Elt F) → (⟨S600000x1, .i32⟩ : BufTy).Contents (Elt F)),
    StableHlo.ternary main_v138 main_v139 main_v133 main_v140 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)),
    StableHlo.nullary main_cst_35 (constant S_ .f32 0x3F800000#32),
    StableHlo.TRef.unary (.of main_cst_35 : StableHlo.TRef sig ⟨S_, .f32⟩) (.of main_call8_v0 : StableHlo.TRef sig ⟨S_, .f32⟩) id,
    StableHlo.TRef.unary (.of main_call8_v0 : StableHlo.TRef sig ⟨S_, .f32⟩) (.of main_call8_v1 : StableHlo.TRef sig ⟨S100000, .f32⟩) (broadcastInDim S100000 ![] bcast_S_S100000),
    StableHlo.TRef.binary (.of main_call8_v1 : StableHlo.TRef sig ⟨S100000, .f32⟩) (.of main_v140 : StableHlo.TRef sig ⟨S100000, .f32⟩) (.of main_v141 : StableHlo.TRef sig ⟨S100000, .f32⟩) maximumf ]

/-- The buffer each of them writes. -/
abbrev Ws2 : List (Ref sig .tc) :=
  [ main_v95, main_v96, main_cst_23, main_call5_v0, main_call5_v1, main_v97, main_cst_24, main_v98, main_v99, main_v100, main_v101, main_v102, main_v103, main_v104, main_v105, main_c_25, main_v106, main_v107, main_c_26, main_v108, main_v109, main_v110, main_v111, main_v112, main_cst_27, main_v113, main_v114, main_v115, main_cst_28, main_v116, main_v117, main_v118, main_v119, main_v120, main_v121, main_v122, main_v123, main_v124, main_v125, main_v126, main_cst_29, main_call6_cst, main_call6_v0, main_call6_v1, main_call6_v2, main_call6_v3, main_call6_v4, main_v127, main_cst_30, main_v128, main_v129, main_v130, main_v131, main_v132, main_cst_31, main_v133, main_cst_32, main_v134, main_v135, main_v136, main_cst_33, main_call7_v0, main_call7_v1, main_v137, main_cst_34, main_v138, main_v139, main_v140, main_cst_35, main_call8_v0, main_call8_v1, main_v141 ]

set_option maxRecDepth 8192 in
theorem ops2_sub : (ops2 : List (HloOp τ sig (Elt F))).Forall fun op => op.bufs ⊆ tcRefs τ sig :=
  ⟨unary_bufs_sub .., ternary_bufs_sub .., nullary_bufs_sub .., unary_bufs_sub .., unary_bufs_sub .., binary_bufs_sub .., nullary_bufs_sub .., unary_bufs_sub .., binary_bufs_sub .., unary_bufs_sub .., unary_bufs_sub .., binary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., nullary_bufs_sub .., unary_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., unary_bufs_sub .., binary_bufs_sub .., nullary_bufs_sub .., unary_bufs_sub .., unary_bufs_sub .., ternary_bufs_sub .., nullary_bufs_sub .., unary_bufs_sub .., unary_bufs_sub .., binary_bufs_sub ..⟩

/-- The operations of window 3 of @main (64 of them), in order. -/
abbrev ops3 : List (HloOp τ sig (Elt F)) :=
  [ StableHlo.nullary main_cst_36 (constant S_ .f32 0xBF000000#32),
    StableHlo.unary main_cst_36 main_v142 (broadcastInDim S100000 ![] bcast_S_S100000 : (⟨S_, .f32⟩ : BufTy).Contents (Elt F) → (⟨S100000, .f32⟩ : BufTy).Contents (Elt F)),
    StableHlo.binary main_v137 main_v142 main_v143 (Host.powf : (⟨S100000, .f32⟩ : BufTy).Contents (Elt F) → (⟨S100000, .f32⟩ : BufTy).Contents (Elt F) → (⟨S100000, .f32⟩ : BufTy).Contents (Elt F)),
    StableHlo.unary main_v143 main_v144 (broadcastInDim S100000x1 ![0] bcast_S100000_S100000x1_0 : (⟨S100000, .f32⟩ : BufTy).Contents (Elt F) → (⟨S100000x1, .f32⟩ : BufTy).Contents (Elt F)),
    StableHlo.unary main_v144 main_v145 (broadcastInDim S100000x128 ![0, 1] bcast_S100000x1_S100000x128_0_1 : (⟨S100000x1, .f32⟩ : BufTy).Contents (Elt F) → (⟨S100000x128, .f32⟩ : BufTy).Contents (Elt F)),
    StableHlo.binary main_v127 main_v145 main_v146 (mulf : (⟨S100000x128, .f32⟩ : BufTy).Contents (Elt F) → (⟨S100000x128, .f32⟩ : BufTy).Contents (Elt F) → (⟨S100000x128, .f32⟩ : BufTy).Contents (Elt F)),
    StableHlo.unary main_arg5 main_v147 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v147 main_v148 rfl shapeCasts_S1x128x128_S128x128,
    StableHlo.binary main_v146 main_v148 main_v149 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c_37 (constantI S_ 32 0#32),
    StableHlo.unary main_c_37 main_v150 (broadcastInDim S600000 ![] bcast_S_S600000 : (⟨S_, .i32⟩ : BufTy).Contents (Elt F) → (⟨S600000, .i32⟩ : BufTy).Contents (Elt F)),
    StableHlo.binary main_v130 main_v150 main_v151 (cmpi .slt : (⟨S600000, .i32⟩ : BufTy).Contents (Elt F) → (⟨S600000, .i32⟩ : BufTy).Contents (Elt F) → (⟨S600000, .i1⟩ : BufTy).Contents (Elt F)),
    StableHlo.nullary main_c_38 (constantI S_ 32 100000#32),
    StableHlo.unary main_c_38 main_v152 (broadcastInDim S600000 ![] bcast_S_S600000 : (⟨S_, .i32⟩ : BufTy).Contents (Elt F) → (⟨S600000, .i32⟩ : BufTy).Contents (Elt F)),
    StableHlo.binary main_v130 main_v152 main_v153 (addi : (⟨S600000, .i32⟩ : BufTy).Contents (Elt F) → (⟨S600000, .i32⟩ : BufTy).Contents (Elt F) → (⟨S600000, .i32⟩ : BufTy).Contents (Elt F)),
    StableHlo.ternary main_v151 main_v153 main_v130 main_v154 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v154 main_v155 (broadcastInDim S600000x1 ![0] bcast_S600000_S600000x1_0 : (⟨S600000, .i32⟩ : BufTy).Contents (Elt F) → (⟨S600000x1, .i32⟩ : BufTy).Contents (Elt F)),
    StableHlo.binary main_v149 main_v155 main_v156 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.nullary main_cst_39 (constant S_ .f32 0x00000000#32),
    StableHlo.unary main_cst_39 main_v157 (broadcastInDim S100000x128 ![] bcast_S_S100000x128 : (⟨S_, .f32⟩ : BufTy).Contents (Elt F) → (⟨S100000x128, .f32⟩ : BufTy).Contents (Elt F)),
    StableHlo.unary main_v132 main_v158 (broadcastInDim S600000x1 ![0] bcast_S600000_S600000x1_0 : (⟨S600000, .i32⟩ : BufTy).Contents (Elt F) → (⟨S600000x1, .i32⟩ : BufTy).Contents (Elt F)),
    StableHlo.ternary main_v157 main_v158 main_v156 main_v159 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    StableHlo.nullary main_cst_40 (constant S_ .f32 0xBF000000#32),
    StableHlo.unary main_cst_40 main_v160 (broadcastInDim S100000 ![] bcast_S_S100000 : (⟨S_, .f32⟩ : BufTy).Contents (Elt F) → (⟨S100000, .f32⟩ : BufTy).Contents (Elt F)),
    StableHlo.binary main_v141 main_v160 main_v161 (Host.powf : (⟨S100000, .f32⟩ : BufTy).Contents (Elt F) → (⟨S100000, .f32⟩ : BufTy).Contents (Elt F) → (⟨S100000, .f32⟩ : BufTy).Contents (Elt F)),
    StableHlo.unary main_v161 main_v162 (broadcastInDim S100000x1 ![0] bcast_S100000_S100000x1_0 : (⟨S100000, .f32⟩ : BufTy).Contents (Elt F) → (⟨S100000x1, .f32⟩ : BufTy).Contents (Elt F)),
    StableHlo.unary main_v162 main_v163 (broadcastInDim S100000x128 ![0, 1] bcast_S100000x1_S100000x128_0_1 : (⟨S100000x1, .f32⟩ : BufTy).Contents (Elt F) → (⟨S100000x128, .f32⟩ : BufTy).Contents (Elt F)),
    StableHlo.binary main_v159 main_v163 main_v164 (mulf : (⟨S100000x128, .f32⟩ : BufTy).Contents (Elt F) → (⟨S100000x128, .f32⟩ : BufTy).Contents (Elt F) → (⟨S100000x128, .f32⟩ : BufTy).Contents (Elt F)),
    StableHlo.binary main_v128 main_v164 main_v165 (addf : (⟨S100000x128, .f32⟩ : BufTy).Contents (Elt F) → (⟨S100000x128, .f32⟩ : BufTy).Contents (Elt F) → (⟨S100000x128, .f32⟩ : BufTy).Contents (Elt F)),
    StableHlo.unary main_arg6 main_v166 ((extractStridedSlice S1x128 ![0, 0] · slices_S3x128_S1x128_0_0) : (⟨S3x128, .f32⟩ : BufTy).Contents (Elt F) → (⟨S1x128, .f32⟩ : BufTy).Contents (Elt F)),
    StableHlo.reshape main_v166 main_v167 rfl shapeCasts_S1x128_S128,
    StableHlo.unary main_v167 main_v168 (broadcastInDim S1x128 ![1] bcast_S128_S1x128_1 : (⟨S128, .f32⟩ : BufTy).Contents (Elt F) → (⟨S1x128, .f32⟩ : BufTy).Contents (Elt F)),
    StableHlo.unary main_v168 main_v169 (broadcastInDim S100000x128 ![0, 1] bcast_S1x128_S100000x128_0_1 : (⟨S1x128, .f32⟩ : BufTy).Contents (Elt F) → (⟨S100000x128, .f32⟩ : BufTy).Contents (Elt F)),
    StableHlo.binary main_v165 main_v169 main_v170 (addf : (⟨S100000x128, .f32⟩ : BufTy).Contents (Elt F) → (⟨S100000x128, .f32⟩ : BufTy).Contents (Elt F) → (⟨S100000x128, .f32⟩ : BufTy).Contents (Elt F)),
    StableHlo.unary main_arg1 main_v171 ((extractStridedSlice S1x600000 ![1, 0] · slices_S3x600000_S1x600000_1_0) : (⟨S3x600000, .i32⟩ : BufTy).Contents (Elt F) → (⟨S1x600000, .i32⟩ : BufTy).Contents (Elt F)),
    StableHlo.reshape main_v171 main_v172 rfl shapeCasts_S1x600000_S600000,
    StableHlo.unary main_arg2 main_v173 ((extractStridedSlice S1x600000 ![1, 0] · slices_S3x600000_S1x600000_1_0) : (⟨S3x600000, .i32⟩ : BufTy).Contents (Elt F) → (⟨S1x600000, .i32⟩ : BufTy).Contents (Elt F)),
    StableHlo.reshape main_v173 main_v174 rfl shapeCasts_S1x600000_S600000,
    StableHlo.nullary main_cst_41 (constant S_ .f32 0x3F800000#32),
    StableHlo.unary main_cst_41 main_v175 (broadcastInDim S600000 ![] bcast_S_S600000 : (⟨S_, .f32⟩ : BufTy).Contents (Elt F) → (⟨S600000, .f32⟩ : BufTy).Contents (Elt F)),
    StableHlo.nullary main_cst_42 (constant S_ .f32 0x00000000#32),
    StableHlo.unary main_cst_42 main_v176 (broadcastInDim S100000 ![] bcast_S_S100000 : (⟨S_, .f32⟩ : BufTy).Contents (Elt F) → (⟨S100000, .f32⟩ : BufTy).Contents (Elt F)),
    StableHlo.unary main_v172 main_v177 (broadcastInDim S600000x1 ![0] bcast_S600000_S600000x1_0 : (⟨S600000, .i32⟩ : BufTy).Contents (Elt F) → (⟨S600000x1, .i32⟩ : BufTy).Contents (Elt F)),
    StableHlo.ternary main_v176 main_v177 main_v175 main_v178 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)),
    StableHlo.nullary main_cst_43 (constant S_ .f32 0x3F800000#32),
    StableHlo.TRef.unary (.of main_cst_43 : StableHlo.TRef sig ⟨S_, .f32⟩) (.of main_call9_v0 : StableHlo.TRef sig ⟨S_, .f32⟩) id,
    StableHlo.TRef.unary (.of main_call9_v0 : StableHlo.TRef sig ⟨S_, .f32⟩) (.of main_call9_v1 : StableHlo.TRef sig ⟨S100000, .f32⟩) (broadcastInDim S100000 ![] bcast_S_S100000),
    StableHlo.TRef.binary (.of main_call9_v1 : StableHlo.TRef sig ⟨S100000, .f32⟩) (.of main_v178 : StableHlo.TRef sig ⟨S100000, .f32⟩) (.of main_v179 : StableHlo.TRef sig ⟨S100000, .f32⟩) maximumf,
    StableHlo.nullary main_cst_44 (constant S_ .f32 0x00000000#32),
    StableHlo.unary main_cst_44 main_v180 (broadcastInDim S100000 ![] bcast_S_S100000 : (⟨S_, .f32⟩ : BufTy).Contents (Elt F) → (⟨S100000, .f32⟩ : BufTy).Contents (Elt F)),
    StableHlo.unary main_v174 main_v181 (broadcastInDim S600000x1 ![0] bcast_S600000_S600000x1_0 : (⟨S600000, .i32⟩ : BufTy).Contents (Elt F) → (⟨S600000x1, .i32⟩ : BufTy).Contents (Elt F)),
    StableHlo.ternary main_v180 main_v181 main_v175 main_v182 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)),
    StableHlo.nullary main_cst_45 (constant S_ .f32 0x3F800000#32),
    StableHlo.TRef.unary (.of main_cst_45 : StableHlo.TRef sig ⟨S_, .f32⟩) (.of main_call10_v0 : StableHlo.TRef sig ⟨S_, .f32⟩) id,
    StableHlo.TRef.unary (.of main_call10_v0 : StableHlo.TRef sig ⟨S_, .f32⟩) (.of main_call10_v1 : StableHlo.TRef sig ⟨S100000, .f32⟩) (broadcastInDim S100000 ![] bcast_S_S100000),
    StableHlo.TRef.binary (.of main_call10_v1 : StableHlo.TRef sig ⟨S100000, .f32⟩) (.of main_v182 : StableHlo.TRef sig ⟨S100000, .f32⟩) (.of main_v183 : StableHlo.TRef sig ⟨S100000, .f32⟩) maximumf,
    StableHlo.nullary main_cst_46 (constant S_ .f32 0xBF000000#32),
    StableHlo.unary main_cst_46 main_v184 (broadcastInDim S100000 ![] bcast_S_S100000 : (⟨S_, .f32⟩ : BufTy).Contents (Elt F) → (⟨S100000, .f32⟩ : BufTy).Contents (Elt F)),
    StableHlo.binary main_v179 main_v184 main_v185 (Host.powf : (⟨S100000, .f32⟩ : BufTy).Contents (Elt F) → (⟨S100000, .f32⟩ : BufTy).Contents (Elt F) → (⟨S100000, .f32⟩ : BufTy).Contents (Elt F)),
    StableHlo.unary main_v185 main_v186 (broadcastInDim S100000x1 ![0] bcast_S100000_S100000x1_0 : (⟨S100000, .f32⟩ : BufTy).Contents (Elt F) → (⟨S100000x1, .f32⟩ : BufTy).Contents (Elt F)),
    StableHlo.unary main_v186 main_v187 (broadcastInDim S100000x128 ![0, 1] bcast_S100000x1_S100000x128_0_1 : (⟨S100000x1, .f32⟩ : BufTy).Contents (Elt F) → (⟨S100000x128, .f32⟩ : BufTy).Contents (Elt F)),
    StableHlo.binary main_v127 main_v187 main_v188 (mulf : (⟨S100000x128, .f32⟩ : BufTy).Contents (Elt F) → (⟨S100000x128, .f32⟩ : BufTy).Contents (Elt F) → (⟨S100000x128, .f32⟩ : BufTy).Contents (Elt F)),
    StableHlo.unary main_arg5 main_v189 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v189 main_v190 rfl shapeCasts_S1x128x128_S128x128 ]

/-- The buffer each of them writes. -/
abbrev Ws3 : List (Ref sig .tc) :=
  [ main_cst_36, main_v142, main_v143, main_v144, main_v145, main_v146, main_v147, main_v148, main_v149, main_c_37, main_v150, main_v151, main_c_38, main_v152, main_v153, main_v154, main_v155, main_v156, main_cst_39, main_v157, main_v158, main_v159, main_cst_40, main_v160, main_v161, main_v162, main_v163, main_v164, main_v165, main_v166, main_v167, main_v168, main_v169, main_v170, main_v171, main_v172, main_v173, main_v174, main_cst_41, main_v175, main_cst_42, main_v176, main_v177, main_v178, main_cst_43, main_call9_v0, main_call9_v1, main_v179, main_cst_44, main_v180, main_v181, main_v182, main_cst_45, main_call10_v0, main_call10_v1, main_v183, main_cst_46, main_v184, main_v185, main_v186, main_v187, main_v188, main_v189, main_v190 ]

set_option maxRecDepth 8192 in
theorem ops3_sub : (ops3 : List (HloOp τ sig (Elt F))).Forall fun op => op.bufs ⊆ tcRefs τ sig :=
  ⟨nullary_bufs_sub .., unary_bufs_sub .., binary_bufs_sub .., unary_bufs_sub .., unary_bufs_sub .., binary_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., unary_bufs_sub .., binary_bufs_sub .., nullary_bufs_sub .., unary_bufs_sub .., unary_bufs_sub .., ternary_bufs_sub .., nullary_bufs_sub .., unary_bufs_sub .., unary_bufs_sub .., binary_bufs_sub .., nullary_bufs_sub .., unary_bufs_sub .., binary_bufs_sub .., unary_bufs_sub .., unary_bufs_sub .., binary_bufs_sub .., unary_bufs_sub .., reshape_bufs_sub ..⟩

/-- The operations of window 4 of @main (64 of them), in order. -/
abbrev ops4 : List (HloOp τ sig (Elt F)) :=
  [ StableHlo.binary main_v188 main_v190 main_v191 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c_47 (constantI S_ 32 0#32),
    StableHlo.unary main_c_47 main_v192 (broadcastInDim S600000 ![] bcast_S_S600000 : (⟨S_, .i32⟩ : BufTy).Contents (Elt F) → (⟨S600000, .i32⟩ : BufTy).Contents (Elt F)),
    StableHlo.binary main_v172 main_v192 main_v193 (cmpi .slt : (⟨S600000, .i32⟩ : BufTy).Contents (Elt F) → (⟨S600000, .i32⟩ : BufTy).Contents (Elt F) → (⟨S600000, .i1⟩ : BufTy).Contents (Elt F)),
    StableHlo.nullary main_c_48 (constantI S_ 32 100000#32),
    StableHlo.unary main_c_48 main_v194 (broadcastInDim S600000 ![] bcast_S_S600000 : (⟨S_, .i32⟩ : BufTy).Contents (Elt F) → (⟨S600000, .i32⟩ : BufTy).Contents (Elt F)),
    StableHlo.binary main_v172 main_v194 main_v195 (addi : (⟨S600000, .i32⟩ : BufTy).Contents (Elt F) → (⟨S600000, .i32⟩ : BufTy).Contents (Elt F) → (⟨S600000, .i32⟩ : BufTy).Contents (Elt F)),
    StableHlo.ternary main_v193 main_v195 main_v172 main_v196 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v196 main_v197 (broadcastInDim S600000x1 ![0] bcast_S600000_S600000x1_0 : (⟨S600000, .i32⟩ : BufTy).Contents (Elt F) → (⟨S600000x1, .i32⟩ : BufTy).Contents (Elt F)),
    StableHlo.binary main_v191 main_v197 main_v198 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.nullary main_cst_49 (constant S_ .f32 0x00000000#32),
    StableHlo.unary main_cst_49 main_v199 (broadcastInDim S100000x128 ![] bcast_S_S100000x128 : (⟨S_, .f32⟩ : BufTy).Contents (Elt F) → (⟨S100000x128, .f32⟩ : BufTy).Contents (Elt F)),
    StableHlo.unary main_v174 main_v200 (broadcastInDim S600000x1 ![0] bcast_S600000_S600000x1_0 : (⟨S600000, .i32⟩ : BufTy).Contents (Elt F) → (⟨S600000x1, .i32⟩ : BufTy).Contents (Elt F)),
    StableHlo.ternary main_v199 main_v200 main_v198 main_v201 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    StableHlo.nullary main_cst_50 (constant S_ .f32 0xBF000000#32),
    StableHlo.unary main_cst_50 main_v202 (broadcastInDim S100000 ![] bcast_S_S100000 : (⟨S_, .f32⟩ : BufTy).Contents (Elt F) → (⟨S100000, .f32⟩ : BufTy).Contents (Elt F)),
    StableHlo.binary main_v183 main_v202 main_v203 (Host.powf : (⟨S100000, .f32⟩ : BufTy).Contents (Elt F) → (⟨S100000, .f32⟩ : BufTy).Contents (Elt F) → (⟨S100000, .f32⟩ : BufTy).Contents (Elt F)),
    StableHlo.unary main_v203 main_v204 (broadcastInDim S100000x1 ![0] bcast_S100000_S100000x1_0 : (⟨S100000, .f32⟩ : BufTy).Contents (Elt F) → (⟨S100000x1, .f32⟩ : BufTy).Contents (Elt F)),
    StableHlo.unary main_v204 main_v205 (broadcastInDim S100000x128 ![0, 1] bcast_S100000x1_S100000x128_0_1 : (⟨S100000x1, .f32⟩ : BufTy).Contents (Elt F) → (⟨S100000x128, .f32⟩ : BufTy).Contents (Elt F)),
    StableHlo.binary main_v201 main_v205 main_v206 (mulf : (⟨S100000x128, .f32⟩ : BufTy).Contents (Elt F) → (⟨S100000x128, .f32⟩ : BufTy).Contents (Elt F) → (⟨S100000x128, .f32⟩ : BufTy).Contents (Elt F)),
    StableHlo.binary main_v170 main_v206 main_v207 (addf : (⟨S100000x128, .f32⟩ : BufTy).Contents (Elt F) → (⟨S100000x128, .f32⟩ : BufTy).Contents (Elt F) → (⟨S100000x128, .f32⟩ : BufTy).Contents (Elt F)),
    StableHlo.unary main_arg6 main_v208 ((extractStridedSlice S1x128 ![1, 0] · slices_S3x128_S1x128_1_0) : (⟨S3x128, .f32⟩ : BufTy).Contents (Elt F) → (⟨S1x128, .f32⟩ : BufTy).Contents (Elt F)),
    StableHlo.reshape main_v208 main_v209 rfl shapeCasts_S1x128_S128,
    StableHlo.unary main_v209 main_v210 (broadcastInDim S1x128 ![1] bcast_S128_S1x128_1 : (⟨S128, .f32⟩ : BufTy).Contents (Elt F) → (⟨S1x128, .f32⟩ : BufTy).Contents (Elt F)),
    StableHlo.unary main_v210 main_v211 (broadcastInDim S100000x128 ![0, 1] bcast_S1x128_S100000x128_0_1 : (⟨S1x128, .f32⟩ : BufTy).Contents (Elt F) → (⟨S100000x128, .f32⟩ : BufTy).Contents (Elt F)),
    StableHlo.binary main_v207 main_v211 main_v212 (addf : (⟨S100000x128, .f32⟩ : BufTy).Contents (Elt F) → (⟨S100000x128, .f32⟩ : BufTy).Contents (Elt F) → (⟨S100000x128, .f32⟩ : BufTy).Contents (Elt F)),
    StableHlo.unary main_arg1 main_v213 ((extractStridedSlice S1x600000 ![2, 0] · slices_S3x600000_S1x600000_2_0) : (⟨S3x600000, .i32⟩ : BufTy).Contents (Elt F) → (⟨S1x600000, .i32⟩ : BufTy).Contents (Elt F)),
    StableHlo.reshape main_v213 main_v214 rfl shapeCasts_S1x600000_S600000,
    StableHlo.unary main_arg2 main_v215 ((extractStridedSlice S1x600000 ![2, 0] · slices_S3x600000_S1x600000_2_0) : (⟨S3x600000, .i32⟩ : BufTy).Contents (Elt F) → (⟨S1x600000, .i32⟩ : BufTy).Contents (Elt F)),
    StableHlo.reshape main_v215 main_v216 rfl shapeCasts_S1x600000_S600000,
    StableHlo.nullary main_cst_51 (constant S_ .f32 0x3F800000#32),
    StableHlo.unary main_cst_51 main_v217 (broadcastInDim S600000 ![] bcast_S_S600000 : (⟨S_, .f32⟩ : BufTy).Contents (Elt F) → (⟨S600000, .f32⟩ : BufTy).Contents (Elt F)),
    StableHlo.nullary main_cst_52 (constant S_ .f32 0x00000000#32),
    StableHlo.unary main_cst_52 main_v218 (broadcastInDim S100000 ![] bcast_S_S100000 : (⟨S_, .f32⟩ : BufTy).Contents (Elt F) → (⟨S100000, .f32⟩ : BufTy).Contents (Elt F)),
    StableHlo.unary main_v214 main_v219 (broadcastInDim S600000x1 ![0] bcast_S600000_S600000x1_0 : (⟨S600000, .i32⟩ : BufTy).Contents (Elt F) → (⟨S600000x1, .i32⟩ : BufTy).Contents (Elt F)),
    StableHlo.ternary main_v218 main_v219 main_v217 main_v220 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)),
    StableHlo.nullary main_cst_53 (constant S_ .f32 0x3F800000#32),
    StableHlo.TRef.unary (.of main_cst_53 : StableHlo.TRef sig ⟨S_, .f32⟩) (.of main_call11_v0 : StableHlo.TRef sig ⟨S_, .f32⟩) id,
    StableHlo.TRef.unary (.of main_call11_v0 : StableHlo.TRef sig ⟨S_, .f32⟩) (.of main_call11_v1 : StableHlo.TRef sig ⟨S100000, .f32⟩) (broadcastInDim S100000 ![] bcast_S_S100000),
    StableHlo.TRef.binary (.of main_call11_v1 : StableHlo.TRef sig ⟨S100000, .f32⟩) (.of main_v220 : StableHlo.TRef sig ⟨S100000, .f32⟩) (.of main_v221 : StableHlo.TRef sig ⟨S100000, .f32⟩) maximumf,
    StableHlo.nullary main_cst_54 (constant S_ .f32 0x00000000#32),
    StableHlo.unary main_cst_54 main_v222 (broadcastInDim S100000 ![] bcast_S_S100000 : (⟨S_, .f32⟩ : BufTy).Contents (Elt F) → (⟨S100000, .f32⟩ : BufTy).Contents (Elt F)),
    StableHlo.unary main_v216 main_v223 (broadcastInDim S600000x1 ![0] bcast_S600000_S600000x1_0 : (⟨S600000, .i32⟩ : BufTy).Contents (Elt F) → (⟨S600000x1, .i32⟩ : BufTy).Contents (Elt F)),
    StableHlo.ternary main_v222 main_v223 main_v217 main_v224 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)),
    StableHlo.nullary main_cst_55 (constant S_ .f32 0x3F800000#32),
    StableHlo.TRef.unary (.of main_cst_55 : StableHlo.TRef sig ⟨S_, .f32⟩) (.of main_call12_v0 : StableHlo.TRef sig ⟨S_, .f32⟩) id,
    StableHlo.TRef.unary (.of main_call12_v0 : StableHlo.TRef sig ⟨S_, .f32⟩) (.of main_call12_v1 : StableHlo.TRef sig ⟨S100000, .f32⟩) (broadcastInDim S100000 ![] bcast_S_S100000),
    StableHlo.TRef.binary (.of main_call12_v1 : StableHlo.TRef sig ⟨S100000, .f32⟩) (.of main_v224 : StableHlo.TRef sig ⟨S100000, .f32⟩) (.of main_v225 : StableHlo.TRef sig ⟨S100000, .f32⟩) maximumf,
    StableHlo.nullary main_cst_56 (constant S_ .f32 0xBF000000#32),
    StableHlo.unary main_cst_56 main_v226 (broadcastInDim S100000 ![] bcast_S_S100000 : (⟨S_, .f32⟩ : BufTy).Contents (Elt F) → (⟨S100000, .f32⟩ : BufTy).Contents (Elt F)),
    StableHlo.binary main_v221 main_v226 main_v227 (Host.powf : (⟨S100000, .f32⟩ : BufTy).Contents (Elt F) → (⟨S100000, .f32⟩ : BufTy).Contents (Elt F) → (⟨S100000, .f32⟩ : BufTy).Contents (Elt F)),
    StableHlo.unary main_v227 main_v228 (broadcastInDim S100000x1 ![0] bcast_S100000_S100000x1_0 : (⟨S100000, .f32⟩ : BufTy).Contents (Elt F) → (⟨S100000x1, .f32⟩ : BufTy).Contents (Elt F)),
    StableHlo.unary main_v228 main_v229 (broadcastInDim S100000x128 ![0, 1] bcast_S100000x1_S100000x128_0_1 : (⟨S100000x1, .f32⟩ : BufTy).Contents (Elt F) → (⟨S100000x128, .f32⟩ : BufTy).Contents (Elt F)),
    StableHlo.binary main_v127 main_v229 main_v230 (mulf : (⟨S100000x128, .f32⟩ : BufTy).Contents (Elt F) → (⟨S100000x128, .f32⟩ : BufTy).Contents (Elt F) → (⟨S100000x128, .f32⟩ : BufTy).Contents (Elt F)),
    StableHlo.unary main_arg5 main_v231 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v231 main_v232 rfl shapeCasts_S1x128x128_S128x128,
    StableHlo.binary main_v230 main_v232 main_v233 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c_57 (constantI S_ 32 0#32),
    StableHlo.unary main_c_57 main_v234 (broadcastInDim S600000 ![] bcast_S_S600000 : (⟨S_, .i32⟩ : BufTy).Contents (Elt F) → (⟨S600000, .i32⟩ : BufTy).Contents (Elt F)),
    StableHlo.binary main_v214 main_v234 main_v235 (cmpi .slt : (⟨S600000, .i32⟩ : BufTy).Contents (Elt F) → (⟨S600000, .i32⟩ : BufTy).Contents (Elt F) → (⟨S600000, .i1⟩ : BufTy).Contents (Elt F)),
    StableHlo.nullary main_c_58 (constantI S_ 32 100000#32),
    StableHlo.unary main_c_58 main_v236 (broadcastInDim S600000 ![] bcast_S_S600000 : (⟨S_, .i32⟩ : BufTy).Contents (Elt F) → (⟨S600000, .i32⟩ : BufTy).Contents (Elt F)),
    StableHlo.binary main_v214 main_v236 main_v237 (addi : (⟨S600000, .i32⟩ : BufTy).Contents (Elt F) → (⟨S600000, .i32⟩ : BufTy).Contents (Elt F) → (⟨S600000, .i32⟩ : BufTy).Contents (Elt F)),
    StableHlo.ternary main_v235 main_v237 main_v214 main_v238 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) ]

/-- The buffer each of them writes. -/
abbrev Ws4 : List (Ref sig .tc) :=
  [ main_v191, main_c_47, main_v192, main_v193, main_c_48, main_v194, main_v195, main_v196, main_v197, main_v198, main_cst_49, main_v199, main_v200, main_v201, main_cst_50, main_v202, main_v203, main_v204, main_v205, main_v206, main_v207, main_v208, main_v209, main_v210, main_v211, main_v212, main_v213, main_v214, main_v215, main_v216, main_cst_51, main_v217, main_cst_52, main_v218, main_v219, main_v220, main_cst_53, main_call11_v0, main_call11_v1, main_v221, main_cst_54, main_v222, main_v223, main_v224, main_cst_55, main_call12_v0, main_call12_v1, main_v225, main_cst_56, main_v226, main_v227, main_v228, main_v229, main_v230, main_v231, main_v232, main_v233, main_c_57, main_v234, main_v235, main_c_58, main_v236, main_v237, main_v238 ]

set_option maxRecDepth 8192 in
theorem ops4_sub : (ops4 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., unary_bufs_sub .., binary_bufs_sub .., nullary_bufs_sub .., unary_bufs_sub .., unary_bufs_sub .., ternary_bufs_sub .., nullary_bufs_sub .., unary_bufs_sub .., unary_bufs_sub .., binary_bufs_sub .., nullary_bufs_sub .., unary_bufs_sub .., binary_bufs_sub .., unary_bufs_sub .., unary_bufs_sub .., binary_bufs_sub .., unary_bufs_sub .., reshape_bufs_sub .., binary_bufs_sub .., nullary_bufs_sub .., unary_bufs_sub .., binary_bufs_sub .., nullary_bufs_sub .., unary_bufs_sub .., binary_bufs_sub .., ternary_bufs_sub ..⟩

/-- The operations of window 5 of @main (22 of them), in order. -/
abbrev ops5 : List (HloOp τ sig (Elt F)) :=
  [ StableHlo.unary main_v238 main_v239 (broadcastInDim S600000x1 ![0] bcast_S600000_S600000x1_0 : (⟨S600000, .i32⟩ : BufTy).Contents (Elt F) → (⟨S600000x1, .i32⟩ : BufTy).Contents (Elt F)),
    StableHlo.binary main_v233 main_v239 main_v240 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.nullary main_cst_59 (constant S_ .f32 0x00000000#32),
    StableHlo.unary main_cst_59 main_v241 (broadcastInDim S100000x128 ![] bcast_S_S100000x128 : (⟨S_, .f32⟩ : BufTy).Contents (Elt F) → (⟨S100000x128, .f32⟩ : BufTy).Contents (Elt F)),
    StableHlo.unary main_v216 main_v242 (broadcastInDim S600000x1 ![0] bcast_S600000_S600000x1_0 : (⟨S600000, .i32⟩ : BufTy).Contents (Elt F) → (⟨S600000x1, .i32⟩ : BufTy).Contents (Elt F)),
    StableHlo.ternary main_v241 main_v242 main_v240 main_v243 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    StableHlo.nullary main_cst_60 (constant S_ .f32 0xBF000000#32),
    StableHlo.unary main_cst_60 main_v244 (broadcastInDim S100000 ![] bcast_S_S100000 : (⟨S_, .f32⟩ : BufTy).Contents (Elt F) → (⟨S100000, .f32⟩ : BufTy).Contents (Elt F)),
    StableHlo.binary main_v225 main_v244 main_v245 (Host.powf : (⟨S100000, .f32⟩ : BufTy).Contents (Elt F) → (⟨S100000, .f32⟩ : BufTy).Contents (Elt F) → (⟨S100000, .f32⟩ : BufTy).Contents (Elt F)),
    StableHlo.unary main_v245 main_v246 (broadcastInDim S100000x1 ![0] bcast_S100000_S100000x1_0 : (⟨S100000, .f32⟩ : BufTy).Contents (Elt F) → (⟨S100000x1, .f32⟩ : BufTy).Contents (Elt F)),
    StableHlo.unary main_v246 main_v247 (broadcastInDim S100000x128 ![0, 1] bcast_S100000x1_S100000x128_0_1 : (⟨S100000x1, .f32⟩ : BufTy).Contents (Elt F) → (⟨S100000x128, .f32⟩ : BufTy).Contents (Elt F)),
    StableHlo.binary main_v243 main_v247 main_v248 (mulf : (⟨S100000x128, .f32⟩ : BufTy).Contents (Elt F) → (⟨S100000x128, .f32⟩ : BufTy).Contents (Elt F) → (⟨S100000x128, .f32⟩ : BufTy).Contents (Elt F)),
    StableHlo.binary main_v212 main_v248 main_v249 (addf : (⟨S100000x128, .f32⟩ : BufTy).Contents (Elt F) → (⟨S100000x128, .f32⟩ : BufTy).Contents (Elt F) → (⟨S100000x128, .f32⟩ : BufTy).Contents (Elt F)),
    StableHlo.unary main_arg6 main_v250 ((extractStridedSlice S1x128 ![2, 0] · slices_S3x128_S1x128_2_0) : (⟨S3x128, .f32⟩ : BufTy).Contents (Elt F) → (⟨S1x128, .f32⟩ : BufTy).Contents (Elt F)),
    StableHlo.reshape main_v250 main_v251 rfl shapeCasts_S1x128_S128,
    StableHlo.unary main_v251 main_v252 (broadcastInDim S1x128 ![1] bcast_S128_S1x128_1 : (⟨S128, .f32⟩ : BufTy).Contents (Elt F) → (⟨S1x128, .f32⟩ : BufTy).Contents (Elt F)),
    StableHlo.unary main_v252 main_v253 (broadcastInDim S100000x128 ![0, 1] bcast_S1x128_S100000x128_0_1 : (⟨S1x128, .f32⟩ : BufTy).Contents (Elt F) → (⟨S100000x128, .f32⟩ : BufTy).Contents (Elt F)),
    StableHlo.binary main_v249 main_v253 main_v254 (addf : (⟨S100000x128, .f32⟩ : BufTy).Contents (Elt F) → (⟨S100000x128, .f32⟩ : BufTy).Contents (Elt F) → (⟨S100000x128, .f32⟩ : BufTy).Contents (Elt F)),
    StableHlo.binary main_v254 main_arg7 main_v255 ((fun l r => Host.dotGeneral dot_S100000x128_S128x16_S100000x16_1_0_0_1_n_n none l r) : (⟨S100000x128, .f32⟩ : BufTy).Contents (Elt F) → (⟨S128x16, .f32⟩ : BufTy).Contents (Elt F) → (⟨S100000x16, .f32⟩ : BufTy).Contents (Elt F)),
    StableHlo.unary main_arg8 main_v256 (broadcastInDim S1x16 ![1] bcast_S16_S1x16_1 : (⟨S16, .f32⟩ : BufTy).Contents (Elt F) → (⟨S1x16, .f32⟩ : BufTy).Contents (Elt F)),
    StableHlo.unary main_v256 main_v257 (broadcastInDim S100000x16 ![0, 1] bcast_S1x16_S100000x16_0_1 : (⟨S1x16, .f32⟩ : BufTy).Contents (Elt F) → (⟨S100000x16, .f32⟩ : BufTy).Contents (Elt F)),
    StableHlo.binary main_v255 main_v257 main_v258 (addf : (⟨S100000x16, .f32⟩ : BufTy).Contents (Elt F) → (⟨S100000x16, .f32⟩ : BufTy).Contents (Elt F) → (⟨S100000x16, .f32⟩ : BufTy).Contents (Elt F)) ]

/-- The buffer each of them writes. -/
abbrev Ws5 : List (Ref sig .tc) :=
  [ main_v239, main_v240, main_cst_59, main_v241, main_v242, main_v243, main_cst_60, main_v244, main_v245, main_v246, main_v247, main_v248, main_v249, main_v250, main_v251, main_v252, main_v253, main_v254, main_v255, main_v256, main_v257, main_v258 ]

set_option maxRecDepth 8192 in
theorem ops5_sub : (ops5 : List (HloOp τ sig (Elt F))).Forall fun op => op.bufs ⊆ tcRefs τ sig :=
  ⟨unary_bufs_sub .., binary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., reshape_bufs_sub .., unary_bufs_sub .., unary_bufs_sub .., binary_bufs_sub .., binary_bufs_sub .., unary_bufs_sub .., unary_bufs_sub .., binary_bufs_sub ..⟩

end Cert.ReferenceIdeal.Hand

end
-- ==== Proof.LibAfter.lean ====
/-
  A straight line of host operations in single-assignment form, read locally. When operation `k` of the line writes
  exactly the buffer `Ws[k]`, a buffer that no later operation writes holds, after the whole line, what it held
  after the operations up to the last one that could write it: the result of operation `k` is read from the contents
  after the first `k` operations, and an operand no later operation writes is stable.
-/
import Idealize.ShloMosaic.Lib.StableHlo.Run

noncomputable section

namespace Cert.LibAfter

open Idealize.ShloMosaic Idealize.ShloMosaic.StableHlo

variable {τ : Topo} {sig : RefSig} {Val : EltTy → Type}

/-- Operation `k` writes exactly buffer `Ws[k]`. -/
def WritesList (ops : List (HloOp τ sig Val)) (Ws : List (Ref sig .tc)) : Prop :=
  List.Forall₂ (fun op r => op.writes = {Proc.devRef (τ := τ) .tc r}) ops Ws

theorem writesList_nil : WritesList ([] : List (HloOp τ sig Val)) [] := List.Forall₂.nil

theorem writesList_cons {op : HloOp τ sig Val} {r : Ref sig .tc} {ops : List (HloOp τ sig Val)} {Ws : List (Ref sig .tc)}
    (hw : op.writes = {Proc.devRef (τ := τ) .tc r}) (h : WritesList ops Ws) : WritesList (op :: ops) (r :: Ws) :=
  List.Forall₂.cons hw h

/-- Two lines one after the other are their concatenation. -/
theorem after_append (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- A reference outside the list of written references is written by no operation of the line. -/
theorem not_mem_writes {ops : List (HloOp τ sig Val)} {Ws : List (Ref sig .tc)} (h : WritesList ops Ws)
    {a : Ref sig .tc} (ha : a ∉ Ws) : ∀ op ∈ ops, Proc.devRef (τ := τ) .tc a ∉ op.writes := by
  unfold WritesList at h
  induction h with
  | nil => intro op hop; exact absurd hop List.not_mem_nil
  | cons hw _ ih =>
    intro op hop
    rcases List.mem_cons.1 hop with rfl | hop
    · rw [hw, Finset.mem_singleton]
      intro e
      exact ha (Proc.devRef_injective _ e ▸ List.mem_cons_self)
    · exact ih (fun hm => ha (List.mem_cons_of_mem _ hm)) op hop

/-- A buffer the line does not write keeps its contents. -/
theorem after_keep (ops : List (HloOp τ sig Val)) (Ws : List (Ref sig .tc)) (h : WritesList ops Ws)
    (V : Valuation τ sig Val) (a : Ref sig .tc) (ha : a ∉ Ws) :
    after ops V (Proc.devRef .tc a) = V (Proc.devRef .tc a) :=
  after_of_forall_not_mem ops V (not_mem_writes h ha)

/-- A buffer no operation from the `k`-th on writes holds after the first `k` operations what it holds after all. -/
theorem after_take (ops : List (HloOp τ sig Val)) (Ws : List (Ref sig .tc)) (h : WritesList ops Ws) (k : ℕ)
    (V : Valuation τ sig Val) (a : Ref sig .tc) (ha : a ∉ Ws.drop k) :
    after (ops.take k) V (Proc.devRef .tc a) = after ops V (Proc.devRef .tc a) := by
  have hd : WritesList (ops.drop k) (Ws.drop k) := List.forall₂_drop k h
  have e : ops.take k ++ ops.drop k = ops := List.take_append_drop k ops
  refine Eq.trans ?_ (congrArg (fun l => after l V (Proc.devRef .tc a)) e)
  show _ = after (ops.take k ++ ops.drop k) V (Proc.devRef .tc a)
  rw [after_append]
  exact (after_keep _ _ hd _ a ha).symm

/-- A buffer no operation after the `k`-th writes holds after the line what operation `k` leaves in it, run from the
    contents after the first `k` operations. -/
theorem after_local (ops : List (HloOp τ sig Val)) (Ws : List (Ref sig .tc)) (h : WritesList ops Ws) (k : ℕ)
    (hk : k < ops.length) (V : Valuation τ sig Val) (y : Ref sig .tc) (hy : y ∉ Ws.drop (k + 1)) :
    after ops V (Proc.devRef .tc y) = (ops[k]).result (after (ops.take k) V) (Proc.devRef .tc y) := by
  have hd : WritesList (ops.drop (k + 1)) (Ws.drop (k + 1)) := List.forall₂_drop (k + 1) h
  have e : ops = ops.take k ++ (ops[k] :: ops.drop (k + 1)) := by
    rw [← List.drop_eq_getElem_cons hk, List.take_append_drop]
  refine (congrArg (fun l => after l V (Proc.devRef .tc y)) e).trans ?_
  show after (ops.take k ++ (ops[k] :: ops.drop (k + 1))) V (Proc.devRef .tc y) = _
  rw [after_append, after_cons]
  exact after_keep _ _ hd _ y hy

end Cert.LibAfter

end
-- ==== Proof.RefOps.lean ====
/-
  The reference program's run. Its @main is printed as six windows of statements, each statement one host operation or
  a call of a module-local function (a clamp from below: three operations; a leaky rectifier: six operations and, inside
  it, a selection: one more). With every call replaced by the callee's operations over that call's buffers, the program
  is one straight line of operations, each writing one buffer of its own from buffers written before it. The line is
  listed window by window in the table module; here the windows are shown equal to their lists, the lists joined, and
  the run read off: every execution ends with each buffer at the fold of the line over the launch contents.
-/
import proofs.«124848_j55800215109809_1_alg».proof.Proof.RefOpsTable
import proofs.«124848_j55800215109809_1_alg».proof.Proof.LibAfter

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls' operations in their calls' places: the six windows one after the other. -/
abbrev ops : List (HloOp τ sig (Elt F)) := ops0 ++ (ops1 ++ (ops2 ++ (ops3 ++ (ops4 ++ ops5))))

/-- The buffer each operation writes, in the same order. -/
abbrev Ws : List (Ref sig .tc) := Ws0 ++ (Ws1 ++ (Ws2 ++ (Ws3 ++ (Ws4 ++ Ws5))))

/-- The line has 352 operations. -/
theorem ops_length : (ops : List (HloOp τ sig (Elt F))).length = 352 := rfl

/-- A position below 352 is a position of the line. -/
theorem lt_length {k : ℕ} (h : k < 352) : k < (ops : List (HloOp τ sig (Elt F))).length := ops_length (F := F) ▸ h

/-! Each window is its list run in order: a call unfolds to the callee's body over the call's buffers, and sequencing
    a body that ends in a return is sequencing its operations. -/

set_option maxRecDepth 8192 in
theorem main_part0_eq (c : Dev nD) : main_part0 (F := F) c = seq ops0 := rfl
set_option maxRecDepth 8192 in
theorem main_part1_eq (c : Dev nD) : main_part1 (F := F) c = seq ops1 := rfl
set_option maxRecDepth 8192 in
theorem main_part2_eq (c : Dev nD) : main_part2 (F := F) c = seq ops2 := rfl
set_option maxRecDepth 8192 in
theorem main_part3_eq (c : Dev nD) : main_part3 (F := F) c = seq ops3 := rfl
set_option maxRecDepth 8192 in
theorem main_part4_eq (c : Dev nD) : main_part4 (F := F) c = seq ops4 := rfl
set_option maxRecDepth 8192 in
theorem main_part5_eq (c : Dev nD) : main_part5 (F := F) c = seq ops5 := rfl

set_option maxRecDepth 8192 in
/-- @main is the whole line: the windows in order are the concatenation run as one. -/
theorem main_eq (c : Dev nD) : main (F := F) c = seq ops := by
  simp only [ops, seq_append, ← main_part0_eq c, ← main_part1_eq c, ← main_part2_eq c, ← main_part3_eq c,
    ← main_part4_eq c, ← main_part5_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore buffers only. -/
theorem ops_sub : (ops : List (HloOp τ sig (Elt F))).Forall fun op => op.bufs ⊆ tcRefs τ sig :=
  List.forall_iff_forall_mem.mpr fun op h => by
    simp only [ops, List.mem_append] at h
    rcases h with h | h | h | h | h | h
    exacts [List.forall_iff_forall_mem.mp ops0_sub op h, List.forall_iff_forall_mem.mp ops1_sub op h,
      List.forall_iff_forall_mem.mp ops2_sub op h, List.forall_iff_forall_mem.mp ops3_sub op h,
      List.forall_iff_forall_mem.mp ops4_sub op h, List.forall_iff_forall_mem.mp ops5_sub op h]

/-! Every operation determines the contents of the buffer it writes (none allocates without writing). -/

set_option maxRecDepth 8192 in
theorem ops0_fresh : ∀ op ∈ (ops0 : List (HloOp τ sig (Elt F))), op.fresh = ∅ := by
  intro _ h; (repeat (cases h with | head => rfl | tail _ h => ?_)); exact nomatch h
set_option maxRecDepth 8192 in
theorem ops1_fresh : ∀ op ∈ (ops1 : List (HloOp τ sig (Elt F))), op.fresh = ∅ := by
  intro _ h; (repeat (cases h with | head => rfl | tail _ h => ?_)); exact nomatch h
set_option maxRecDepth 8192 in
theorem ops2_fresh : ∀ op ∈ (ops2 : List (HloOp τ sig (Elt F))), op.fresh = ∅ := by
  intro _ h; (repeat (cases h with | head => rfl | tail _ h => ?_)); exact nomatch h
set_option maxRecDepth 8192 in
theorem ops3_fresh : ∀ op ∈ (ops3 : List (HloOp τ sig (Elt F))), op.fresh = ∅ := by
  intro _ h; (repeat (cases h with | head => rfl | tail _ h => ?_)); exact nomatch h
set_option maxRecDepth 8192 in
theorem ops4_fresh : ∀ op ∈ (ops4 : List (HloOp τ sig (Elt F))), op.fresh = ∅ := by
  intro _ h; (repeat (cases h with | head => rfl | tail _ h => ?_)); exact nomatch h
set_option maxRecDepth 8192 in
theorem ops5_fresh : ∀ op ∈ (ops5 : List (HloOp τ sig (Elt F))), op.fresh = ∅ := by
  intro _ h; (repeat (cases h with | head => rfl | tail _ h => ?_)); exact nomatch h

theorem ops_fresh : ∀ op ∈ (ops : List (HloOp τ sig (Elt F))), op.fresh = ∅ := by
  intro op h
  simp only [ops, List.mem_append] at h
  rcases h with h | h | h | h | h | h
  exacts [ops0_fresh op h, ops1_fresh op h, ops2_fresh op h, ops3_fresh op h, ops4_fresh op h, ops5_fresh op h]

/-- At the compiled mesh, for any float values, from any memory with zero counters: every weakly fair execution of
    @main terminates, and every final state has each TensorCore buffer at the line's fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-! The line is in single-assignment form: operation k writes exactly the k-th buffer of the list. -/

theorem hWs0 : Cert.LibAfter.WritesList (ops0 (F := F)) Ws0 := by
  repeat' (first | exact Cert.LibAfter.writesList_nil | refine Cert.LibAfter.writesList_cons rfl ?_)
theorem hWs1 : Cert.LibAfter.WritesList (ops1 (F := F)) Ws1 := by
  repeat' (first | exact Cert.LibAfter.writesList_nil | refine Cert.LibAfter.writesList_cons rfl ?_)
theorem hWs2 : Cert.LibAfter.WritesList (ops2 (F := F)) Ws2 := by
  repeat' (first | exact Cert.LibAfter.writesList_nil | refine Cert.LibAfter.writesList_cons rfl ?_)
theorem hWs3 : Cert.LibAfter.WritesList (ops3 (F := F)) Ws3 := by
  repeat' (first | exact Cert.LibAfter.writesList_nil | refine Cert.LibAfter.writesList_cons rfl ?_)
theorem hWs4 : Cert.LibAfter.WritesList (ops4 (F := F)) Ws4 := by
  repeat' (first | exact Cert.LibAfter.writesList_nil | refine Cert.LibAfter.writesList_cons rfl ?_)
theorem hWs5 : Cert.LibAfter.WritesList (ops5 (F := F)) Ws5 := by
  repeat' (first | exact Cert.LibAfter.writesList_nil | refine Cert.LibAfter.writesList_cons rfl ?_)

theorem hWs : Cert.LibAfter.WritesList (ops (F := F)) Ws :=
  List.rel_append hWs0 (List.rel_append hWs1 (List.rel_append hWs2 (List.rel_append hWs3 (List.rel_append hWs4 hWs5))))

end Cert.ReferenceIdeal.Hand

namespace Cert.ReferenceIdeal.Rd

open Cert.ReferenceIdeal Idealize.ShloMosaic Idealize.ShloMosaic.StableHlo

variable {F : FTy → Type} [FloatOps F]

/-- What buffer `b` holds after the whole line, from contents `V`. -/
abbrev Z (V : Valuation τ sig (Elt F)) (b : Ref sig .tc) := after (Hand.ops (F := F)) V (Proc.devRef .tc b)

end Cert.ReferenceIdeal.Rd

end
-- ==== Proof.LibAfterRead.lean ====
/-
  One operation of a single-assignment line read from the line's final contents: when operation k of the line is a
  given builder's operation, its result buffer holds, after the whole line, the operation's function of what its
  operand buffers hold after the whole line (the operands are written before k and never again, the result never after).
-/
import proofs.«124848_j55800215109809_1_alg».proof.Proof.LibAfter

noncomputable section

namespace Cert.LibAfter

open Idealize.ShloMosaic Idealize.ShloMosaic.StableHlo

variable {τ : Topo} {sig : RefSig} {Val : EltTy → Type}

theorem read_nullary (ops : List (HloOp τ sig Val)) (Ws : List (Ref sig .tc)) (h : WritesList ops Ws) (k : ℕ)
    (hk : k < ops.length) (V : Valuation τ sig Val) (y : Ref sig .tc) (v : y.ty.Contents Val) (hy)
    (hop : ops[k] = nullary y v hy) (hy' : y ∉ Ws.drop (k + 1)) :
    after ops V (Proc.devRef .tc y) = v := by
  rw [after_local ops Ws h k hk V y hy', hop]
  exact nullary_result y v hy _

theorem read_unary (ops : List (HloOp τ sig Val)) (Ws : List (Ref sig .tc)) (h : WritesList ops Ws) (k : ℕ)
    (hk : k < ops.length) (V : Valuation τ sig Val) (x y : Ref sig .tc) (f : x.ty.Contents Val → y.ty.Contents Val) (hx hy)
    (hop : ops[k] = unary x y f hx hy) (hy' : y ∉ Ws.drop (k + 1)) (hx' : x ∉ Ws.drop k) :
    after ops V (Proc.devRef .tc y) = f (after ops V (Proc.devRef .tc x)) := by
  rw [after_local ops Ws h k hk V y hy', hop]
  refine (unary_result x y f hx hy _).trans ?_
  exact congrArg f (after_take ops Ws h k V x hx')

theorem read_binary (ops : List (HloOp τ sig Val)) (Ws : List (Ref sig .tc)) (h : WritesList ops Ws) (k : ℕ)
    (hk : k < ops.length) (V : Valuation τ sig Val) (a b y : Ref sig .tc)
    (f : a.ty.Contents Val → b.ty.Contents Val → y.ty.Contents Val) (ha hb hy)
    (hop : ops[k] = binary a b y f ha hb hy) (hy' : y ∉ Ws.drop (k + 1)) (ha' : a ∉ Ws.drop k) (hb' : b ∉ Ws.drop k) :
    after ops V (Proc.devRef .tc y) = f (after ops V (Proc.devRef .tc a)) (after ops V (Proc.devRef .tc b)) := by
  rw [after_local ops Ws h k hk V y hy', hop]
  refine (binary_result a b y f ha hb hy _).trans ?_
  rw [show after (ops.take k) V (Proc.devRef .tc a) = _ from after_take ops Ws h k V a ha',
    show after (ops.take k) V (Proc.devRef .tc b) = _ from after_take ops Ws h k V b hb']

theorem read_ternary (ops : List (HloOp τ sig Val)) (Ws : List (Ref sig .tc)) (h : WritesList ops Ws) (k : ℕ)
    (hk : k < ops.length) (V : Valuation τ sig Val) (c a b y : Ref sig .tc)
    (f : c.ty.Contents Val → a.ty.Contents Val → b.ty.Contents Val → y.ty.Contents Val) (hc ha hb hy)
    (hop : ops[k] = ternary c a b y f hc ha hb hy) (hy' : y ∉ Ws.drop (k + 1)) (hc' : c ∉ Ws.drop k)
    (ha' : a ∉ Ws.drop k) (hb' : b ∉ Ws.drop k) :
    after ops V (Proc.devRef .tc y)
      = f (after ops V (Proc.devRef .tc c)) (after ops V (Proc.devRef .tc a)) (after ops V (Proc.devRef .tc b)) := by
  rw [after_local ops Ws h k hk V y hy', hop]
  refine (ternary_result c a b y f hc ha hb hy _).trans ?_
  rw [show after (ops.take k) V (Proc.devRef .tc c) = _ from after_take ops Ws h k V c hc',
    show after (ops.take k) V (Proc.devRef .tc a) = _ from after_take ops Ws h k V a ha',
    show after (ops.take k) V (Proc.devRef .tc b) = _ from after_take ops Ws h k V b hb']

theorem read_reshape (ops : List (HloOp τ sig Val)) (Ws : List (Ref sig .tc)) (h : WritesList ops Ws) (k : ℕ)
    (hk : k < ops.length) (V : Valuation τ sig Val) (x y : Ref sig .tc) (he : x.ty.elt = y.ty.elt)
    (hn : x.ty.shape.ShapeCasts y.ty.shape) (hx hy)
    (hop : ops[k] = reshape x y he hn hx hy) (hy' : y ∉ Ws.drop (k + 1)) (hx' : x ∉ Ws.drop k) :
    after ops V (Proc.devRef .tc y) = fun i => he ▸ shapeCast y.ty.shape (after ops V (Proc.devRef .tc x)) hn i := by
  rw [after_local ops Ws h k hk V y hy', hop]
  refine (reshape_result x y he hn hx hy _).trans ?_
  rw [show after (ops.take k) V (Proc.devRef .tc x) = _ from after_take ops Ws h k V x hx']

end Cert.LibAfter

end
-- ==== Proof.KernelChain.lean ====
/-
  The idealized kernel program's buffers through its segments.  Each host stretch is in single-assignment form: operation k
  writes exactly one buffer (Ws_…); a region writes only its output array (its input arrays are read through their windows and
  end as they were: keepR…).  WF s lists every buffer written from boundary s on, and a buffer outside WF s holds at the last
  boundary what it held at boundary s (keep s).
-/
import proofs.«124848_j55800215109809_1_alg».proof.Proof.Gen.KernelIdeal.Frame
import proofs.«124848_j55800215109809_1_alg».proof.Proof.LibAfterRead

set_option maxRecDepth 16384

noncomputable section

namespace Cert.KernelIdeal.Chain

open Cert.KernelIdeal Cert.KernelIdeal.Gen Cert.LibAfter
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

abbrev Ws_hostOps0 : List (Ref sig .tc) := [main_v0, main_v1, main_v2, main_v3, main_cst, main_v4, main_cst_0, main_v5, main_v6, main_v7, main_cst_1]
theorem hW_hostOps0 : WritesList (hostOps0 : List (HloOp τ sig (Elt F))) Ws_hostOps0 :=
  writesList_cons rfl (writesList_cons rfl (writesList_cons rfl (writesList_cons rfl (writesList_cons rfl (writesList_cons rfl (writesList_cons rfl (writesList_cons rfl (writesList_cons rfl (writesList_cons rfl (writesList_cons rfl (writesList_nil)))))))))))
abbrev Ws_hostOps0_1 : List (Ref sig .tc) := [main_call0_v0, main_call0_v1, main_v8]
theorem hW_hostOps0_1 : WritesList (hostOps0_1 : List (HloOp τ sig (Elt F))) Ws_hostOps0_1 :=
  writesList_cons rfl (writesList_cons rfl (writesList_cons rfl (writesList_nil)))
abbrev Ws_hostOps0_2 : List (Ref sig .tc) := [main_cst_2, main_v9, main_v10, main_v11, main_cst_3]
theorem hW_hostOps0_2 : WritesList (hostOps0_2 : List (HloOp τ sig (Elt F))) Ws_hostOps0_2 :=
  writesList_cons rfl (writesList_cons rfl (writesList_cons rfl (writesList_cons rfl (writesList_cons rfl (writesList_nil)))))
abbrev Ws_hostOps0_3 : List (Ref sig .tc) := [main_call1_v0, main_call1_v1, main_v12]
theorem hW_hostOps0_3 : WritesList (hostOps0_3 : List (HloOp τ sig (Elt F))) Ws_hostOps0_3 :=
  writesList_cons rfl (writesList_cons rfl (writesList_cons rfl (writesList_nil)))
abbrev Ws_hostOps0_4 : List (Ref sig .tc) := [main_cst_4, main_v13, main_v14, main_cst_5, main_v15, main_v16, main_v17, main_v18, main_v19]
theorem hW_hostOps0_4 : WritesList (hostOps0_4 : List (HloOp τ sig (Elt F))) Ws_hostOps0_4 :=
  writesList_cons rfl (writesList_cons rfl (writesList_cons rfl (writesList_cons rfl (writesList_cons rfl (writesList_cons rfl (writesList_cons rfl (writesList_cons rfl (writesList_cons rfl (writesList_nil)))))))))
abbrev Ws_hostOps1 : List (Ref sig .tc) := [main_c, main_v21, main_v22, main_c_6, main_v23, main_v24, main_v25, main_v26, main_v27, main_cst_7, main_v28, main_v29, main_v30, main_v31, main_v32, main_v33, main_v34, main_cst_8, main_v35, main_cst_9, main_v36, main_v37, main_v38, main_cst_10]
theorem hW_hostOps1 : WritesList (hostOps1 : List (HloOp τ sig (Elt F))) Ws_hostOps1 :=
  writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_nil))))))))))))))))))))))))
abbrev Ws_hostOps1_1 : List (Ref sig .tc) := [main_call2_v0, main_call2_v1, main_v39]
theorem hW_hostOps1_1 : WritesList (hostOps1_1 : List (HloOp τ sig (Elt F))) Ws_hostOps1_1 :=
  writesList_cons rfl (writesList_cons rfl (writesList_cons rfl (writesList_nil)))
abbrev Ws_hostOps1_2 : List (Ref sig .tc) := [main_cst_11, main_v40, main_v41, main_v42, main_cst_12]
theorem hW_hostOps1_2 : WritesList (hostOps1_2 : List (HloOp τ sig (Elt F))) Ws_hostOps1_2 :=
  writesList_cons rfl (writesList_cons rfl (writesList_cons rfl (writesList_cons rfl (writesList_cons rfl (writesList_nil)))))
abbrev Ws_hostOps1_3 : List (Ref sig .tc) := [main_call3_v0, main_call3_v1, main_v43]
theorem hW_hostOps1_3 : WritesList (hostOps1_3 : List (HloOp τ sig (Elt F))) Ws_hostOps1_3 :=
  writesList_cons rfl (writesList_cons rfl (writesList_cons rfl (writesList_nil)))
abbrev Ws_hostOps1_4 : List (Ref sig .tc) := [main_cst_13, main_v44, main_v45, main_cst_14, main_v46, main_v47, main_v48, main_v49, main_v50]
theorem hW_hostOps1_4 : WritesList (hostOps1_4 : List (HloOp τ sig (Elt F))) Ws_hostOps1_4 :=
  writesList_cons rfl (writesList_cons rfl (writesList_cons rfl (writesList_cons rfl (writesList_cons rfl (writesList_cons rfl (writesList_cons rfl (writesList_cons rfl (writesList_cons rfl (writesList_nil)))))))))
abbrev Ws_hostOps2 : List (Ref sig .tc) := [main_c_15, main_v52, main_v53, main_c_16, main_v54, main_v55, main_v56, main_v57, main_v58, main_cst_17, main_v59, main_v60, main_v61, main_v62, main_v63, main_v64, main_v65, main_cst_18, main_v66, main_cst_19, main_v67, main_v68, main_v69, main_cst_20]
theorem hW_hostOps2 : WritesList (hostOps2 : List (HloOp τ sig (Elt F))) Ws_hostOps2 :=
  writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_nil))))))))))))))))))))))))
abbrev Ws_hostOps2_1 : List (Ref sig .tc) := [main_call4_v0, main_call4_v1, main_v70]
theorem hW_hostOps2_1 : WritesList (hostOps2_1 : List (HloOp τ sig (Elt F))) Ws_hostOps2_1 :=
  writesList_cons rfl (writesList_cons rfl (writesList_cons rfl (writesList_nil)))
abbrev Ws_hostOps2_2 : List (Ref sig .tc) := [main_cst_21, main_v71, main_v72, main_v73, main_cst_22]
theorem hW_hostOps2_2 : WritesList (hostOps2_2 : List (HloOp τ sig (Elt F))) Ws_hostOps2_2 :=
  writesList_cons rfl (writesList_cons rfl (writesList_cons rfl (writesList_cons rfl (writesList_cons rfl (writesList_nil)))))
abbrev Ws_hostOps2_3 : List (Ref sig .tc) := [main_call5_v0, main_call5_v1, main_v74]
theorem hW_hostOps2_3 : WritesList (hostOps2_3 : List (HloOp τ sig (Elt F))) Ws_hostOps2_3 :=
  writesList_cons rfl (writesList_cons rfl (writesList_cons rfl (writesList_nil)))
abbrev Ws_hostOps2_4 : List (Ref sig .tc) := [main_cst_23, main_v75, main_v76, main_cst_24, main_v77, main_v78, main_v79, main_v80, main_v81]
theorem hW_hostOps2_4 : WritesList (hostOps2_4 : List (HloOp τ sig (Elt F))) Ws_hostOps2_4 :=
  writesList_cons rfl (writesList_cons rfl (writesList_cons rfl (writesList_cons rfl (writesList_cons rfl (writesList_cons rfl (writesList_cons rfl (writesList_cons rfl (writesList_cons rfl (writesList_nil)))))))))
abbrev Ws_hostOps3 : List (Ref sig .tc) := [main_c_25, main_v83, main_v84, main_c_26, main_v85, main_v86, main_v87, main_v88, main_v89, main_cst_27, main_v90, main_v91, main_v92, main_cst_28, main_v93, main_v94, main_v95, main_v96, main_v97]
theorem hW_hostOps3 : WritesList (hostOps3 : List (HloOp τ sig (Elt F))) Ws_hostOps3 :=
  writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_nil)))))))))))))))))))
abbrev Ws_hostOps4 : List (Ref sig .tc) := [main_v99, main_v100, main_v101, main_v102, main_cst_29, main_v103, main_cst_30, main_v104, main_v105, main_v106, main_cst_31]
theorem hW_hostOps4 : WritesList (hostOps4 : List (HloOp τ sig (Elt F))) Ws_hostOps4 :=
  writesList_cons rfl (writesList_cons rfl (writesList_cons rfl (writesList_cons rfl (writesList_cons rfl (writesList_cons rfl (writesList_cons rfl (writesList_cons rfl (writesList_cons rfl (writesList_cons rfl (writesList_cons rfl (writesList_nil)))))))))))
abbrev Ws_hostOps4_1 : List (Ref sig .tc) := [main_call6_v0, main_call6_v1, main_v107]
theorem hW_hostOps4_1 : WritesList (hostOps4_1 : List (HloOp τ sig (Elt F))) Ws_hostOps4_1 :=
  writesList_cons rfl (writesList_cons rfl (writesList_cons rfl (writesList_nil)))
abbrev Ws_hostOps4_2 : List (Ref sig .tc) := [main_cst_32, main_v108, main_v109, main_v110, main_cst_33]
theorem hW_hostOps4_2 : WritesList (hostOps4_2 : List (HloOp τ sig (Elt F))) Ws_hostOps4_2 :=
  writesList_cons rfl (writesList_cons rfl (writesList_cons rfl (writesList_cons rfl (writesList_cons rfl (writesList_nil)))))
abbrev Ws_hostOps4_3 : List (Ref sig .tc) := [main_call7_v0, main_call7_v1, main_v111]
theorem hW_hostOps4_3 : WritesList (hostOps4_3 : List (HloOp τ sig (Elt F))) Ws_hostOps4_3 :=
  writesList_cons rfl (writesList_cons rfl (writesList_cons rfl (writesList_nil)))
abbrev Ws_hostOps4_4 : List (Ref sig .tc) := [main_cst_34, main_v112, main_v113, main_cst_35, main_v114, main_v115, main_v116, main_v117, main_v118]
theorem hW_hostOps4_4 : WritesList (hostOps4_4 : List (HloOp τ sig (Elt F))) Ws_hostOps4_4 :=
  writesList_cons rfl (writesList_cons rfl (writesList_cons rfl (writesList_cons rfl (writesList_cons rfl (writesList_cons rfl (writesList_cons rfl (writesList_cons rfl (writesList_cons rfl (writesList_nil)))))))))
abbrev Ws_hostOps5 : List (Ref sig .tc) := [main_c_36, main_v120, main_v121, main_c_37, main_v122, main_v123, main_v124, main_v125, main_v126, main_cst_38, main_v127, main_v128, main_v129, main_v130, main_v131, main_v132, main_v133, main_cst_39, main_v134, main_cst_40, main_v135, main_v136, main_v137, main_cst_41]
theorem hW_hostOps5 : WritesList (hostOps5 : List (HloOp τ sig (Elt F))) Ws_hostOps5 :=
  writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_nil))))))))))))))))))))))))
abbrev Ws_hostOps5_1 : List (Ref sig .tc) := [main_call8_v0, main_call8_v1, main_v138]
theorem hW_hostOps5_1 : WritesList (hostOps5_1 : List (HloOp τ sig (Elt F))) Ws_hostOps5_1 :=
  writesList_cons rfl (writesList_cons rfl (writesList_cons rfl (writesList_nil)))
abbrev Ws_hostOps5_2 : List (Ref sig .tc) := [main_cst_42, main_v139, main_v140, main_v141, main_cst_43]
theorem hW_hostOps5_2 : WritesList (hostOps5_2 : List (HloOp τ sig (Elt F))) Ws_hostOps5_2 :=
  writesList_cons rfl (writesList_cons rfl (writesList_cons rfl (writesList_cons rfl (writesList_cons rfl (writesList_nil)))))
abbrev Ws_hostOps5_3 : List (Ref sig .tc) := [main_call9_v0, main_call9_v1, main_v142]
theorem hW_hostOps5_3 : WritesList (hostOps5_3 : List (HloOp τ sig (Elt F))) Ws_hostOps5_3 :=
  writesList_cons rfl (writesList_cons rfl (writesList_cons rfl (writesList_nil)))
abbrev Ws_hostOps5_4 : List (Ref sig .tc) := [main_cst_44, main_v143, main_v144, main_cst_45, main_v145, main_v146, main_v147, main_v148, main_v149]
theorem hW_hostOps5_4 : WritesList (hostOps5_4 : List (HloOp τ sig (Elt F))) Ws_hostOps5_4 :=
  writesList_cons rfl (writesList_cons rfl (writesList_cons rfl (writesList_cons rfl (writesList_cons rfl (writesList_cons rfl (writesList_cons rfl (writesList_cons rfl (writesList_cons rfl (writesList_nil)))))))))
abbrev Ws_hostOps6 : List (Ref sig .tc) := [main_c_46, main_v151, main_v152, main_c_47, main_v153, main_v154, main_v155, main_v156, main_v157, main_cst_48, main_v158, main_v159, main_v160, main_v161, main_v162, main_v163, main_v164, main_cst_49, main_v165, main_cst_50, main_v166, main_v167, main_v168, main_cst_51]
theorem hW_hostOps6 : WritesList (hostOps6 : List (HloOp τ sig (Elt F))) Ws_hostOps6 :=
  writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_nil))))))))))))))))))))))))
abbrev Ws_hostOps6_1 : List (Ref sig .tc) := [main_call10_v0, main_call10_v1, main_v169]
theorem hW_hostOps6_1 : WritesList (hostOps6_1 : List (HloOp τ sig (Elt F))) Ws_hostOps6_1 :=
  writesList_cons rfl (writesList_cons rfl (writesList_cons rfl (writesList_nil)))
abbrev Ws_hostOps6_2 : List (Ref sig .tc) := [main_cst_52, main_v170, main_v171, main_v172, main_cst_53]
theorem hW_hostOps6_2 : WritesList (hostOps6_2 : List (HloOp τ sig (Elt F))) Ws_hostOps6_2 :=
  writesList_cons rfl (writesList_cons rfl (writesList_cons rfl (writesList_cons rfl (writesList_cons rfl (writesList_nil)))))
abbrev Ws_hostOps6_3 : List (Ref sig .tc) := [main_call11_v0, main_call11_v1, main_v173]
theorem hW_hostOps6_3 : WritesList (hostOps6_3 : List (HloOp τ sig (Elt F))) Ws_hostOps6_3 :=
  writesList_cons rfl (writesList_cons rfl (writesList_cons rfl (writesList_nil)))
abbrev Ws_hostOps6_4 : List (Ref sig .tc) := [main_cst_54, main_v174, main_v175, main_cst_55, main_v176, main_v177, main_v178, main_v179, main_v180]
theorem hW_hostOps6_4 : WritesList (hostOps6_4 : List (HloOp τ sig (Elt F))) Ws_hostOps6_4 :=
  writesList_cons rfl (writesList_cons rfl (writesList_cons rfl (writesList_cons rfl (writesList_cons rfl (writesList_cons rfl (writesList_cons rfl (writesList_cons rfl (writesList_cons rfl (writesList_nil)))))))))
abbrev Ws_hostOps7 : List (Ref sig .tc) := [main_c_56, main_v182, main_v183, main_c_57, main_v184, main_v185, main_v186, main_v187, main_v188, main_cst_58, main_v189, main_v190, main_v191, main_cst_59, main_v192, main_v193, main_v194, main_v195, main_v196]
theorem hW_hostOps7 : WritesList (hostOps7 : List (HloOp τ sig (Elt F))) Ws_hostOps7 :=
  writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_cons rfl (writesList_nil)))))))))))))))))))
abbrev Ws_hostOps8 : List (Ref sig .tc) := [main_v198]
theorem hW_hostOps8 : WritesList (hostOps8 : List (HloOp τ sig (Elt F))) Ws_hostOps8 :=
  writesList_cons rfl (writesList_nil)

/-- Region 0 changes only its output array main_v20. -/
theorem keepR0 (c : Dev nD) (b : Ref sig .tc) (hb : b ∉ [main_v20]) :
    W6 m ρ c (Proc.devRef .tc b) = W5 m ρ c (Proc.devRef .tc b) := by
  by_cases h0 : b = main_arg0
  · subst h0; exact (W6_arr m ρ c 0).trans (((dat0 (V5 m ρ) c).arrAt_in 0 rfl _).trans (A_eq0 (V5 m ρ) c 0))
  by_cases h1 : b = main_v19
  · subst h1; exact (W6_arr m ρ c 1).trans (((dat0 (V5 m ρ) c).arrAt_in 1 rfl _).trans (A_eq0 (V5 m ρ) c 1))
  by_cases h2 : b = main_v18
  · subst h2; exact (W6_arr m ρ c 2).trans (((dat0 (V5 m ρ) c).arrAt_in 2 rfl _).trans (A_eq0 (V5 m ρ) c 2))
  refine W6_of_ne m ρ c b ?_
  intro w
  have hw : w = 0 ∨ w = 1 ∨ w = 2 ∨ w = 3 := by revert w; decide
  rcases hw with rfl | rfl | rfl | rfl
  · exact fun e => h0 e.symm
  · exact fun e => h1 e.symm
  · exact fun e => h2 e.symm
  · exact fun e => hb (List.mem_singleton.mpr e.symm)
/-- Region 1 changes only its output array main_v51. -/
theorem keepR1 (c : Dev nD) (b : Ref sig .tc) (hb : b ∉ [main_v51]) :
    W12 m ρ c (Proc.devRef .tc b) = W11 m ρ c (Proc.devRef .tc b) := by
  by_cases h0 : b = main_arg0
  · subst h0; exact (W12_arr m ρ c 0).trans (((dat1 (V11 m ρ) c).arrAt_in 0 rfl _).trans (A_eq1 (V11 m ρ) c 0))
  by_cases h1 : b = main_v50
  · subst h1; exact (W12_arr m ρ c 1).trans (((dat1 (V11 m ρ) c).arrAt_in 1 rfl _).trans (A_eq1 (V11 m ρ) c 1))
  by_cases h2 : b = main_v49
  · subst h2; exact (W12_arr m ρ c 2).trans (((dat1 (V11 m ρ) c).arrAt_in 2 rfl _).trans (A_eq1 (V11 m ρ) c 2))
  refine W12_of_ne m ρ c b ?_
  intro w
  have hw : w = 0 ∨ w = 1 ∨ w = 2 ∨ w = 3 := by revert w; decide
  rcases hw with rfl | rfl | rfl | rfl
  · exact fun e => h0 e.symm
  · exact fun e => h1 e.symm
  · exact fun e => h2 e.symm
  · exact fun e => hb (List.mem_singleton.mpr e.symm)
/-- Region 2 changes only its output array main_v82. -/
theorem keepR2 (c : Dev nD) (b : Ref sig .tc) (hb : b ∉ [main_v82]) :
    W18 m ρ c (Proc.devRef .tc b) = W17 m ρ c (Proc.devRef .tc b) := by
  by_cases h0 : b = main_arg0
  · subst h0; exact (W18_arr m ρ c 0).trans (((dat2 (V17 m ρ) c).arrAt_in 0 rfl _).trans (A_eq2 (V17 m ρ) c 0))
  by_cases h1 : b = main_v81
  · subst h1; exact (W18_arr m ρ c 1).trans (((dat2 (V17 m ρ) c).arrAt_in 1 rfl _).trans (A_eq2 (V17 m ρ) c 1))
  by_cases h2 : b = main_v80
  · subst h2; exact (W18_arr m ρ c 2).trans (((dat2 (V17 m ρ) c).arrAt_in 2 rfl _).trans (A_eq2 (V17 m ρ) c 2))
  refine W18_of_ne m ρ c b ?_
  intro w
  have hw : w = 0 ∨ w = 1 ∨ w = 2 ∨ w = 3 := by revert w; decide
  rcases hw with rfl | rfl | rfl | rfl
  · exact fun e => h0 e.symm
  · exact fun e => h1 e.symm
  · exact fun e => h2 e.symm
  · exact fun e => hb (List.mem_singleton.mpr e.symm)
/-- Region 3 changes only its output array main_v98. -/
theorem keepR3 (c : Dev nD) (b : Ref sig .tc) (hb : b ∉ [main_v98]) :
    W20 m ρ c (Proc.devRef .tc b) = W19 m ρ c (Proc.devRef .tc b) := by
  by_cases h0 : b = main_v30
  · subst h0; exact (W20_arr m ρ c 0).trans (((dat3 (V19 m ρ) c).arrAt_in 0 rfl _).trans (A_eq3 (V19 m ρ) c 0))
  by_cases h1 : b = main_v61
  · subst h1; exact (W20_arr m ρ c 1).trans (((dat3 (V19 m ρ) c).arrAt_in 1 rfl _).trans (A_eq3 (V19 m ρ) c 1))
  by_cases h2 : b = main_v92
  · subst h2; exact (W20_arr m ρ c 2).trans (((dat3 (V19 m ρ) c).arrAt_in 2 rfl _).trans (A_eq3 (V19 m ρ) c 2))
  by_cases h3 : b = main_v95
  · subst h3; exact (W20_arr m ρ c 3).trans (((dat3 (V19 m ρ) c).arrAt_in 3 rfl _).trans (A_eq3 (V19 m ρ) c 3))
  by_cases h4 : b = main_v96
  · subst h4; exact (W20_arr m ρ c 4).trans (((dat3 (V19 m ρ) c).arrAt_in 4 rfl _).trans (A_eq3 (V19 m ρ) c 4))
  by_cases h5 : b = main_v97
  · subst h5; exact (W20_arr m ρ c 5).trans (((dat3 (V19 m ρ) c).arrAt_in 5 rfl _).trans (A_eq3 (V19 m ρ) c 5))
  by_cases h6 : b = main_v94
  · subst h6; exact (W20_arr m ρ c 6).trans (((dat3 (V19 m ρ) c).arrAt_in 6 rfl _).trans (A_eq3 (V19 m ρ) c 6))
  refine W20_of_ne m ρ c b ?_
  intro w
  have hw : w = 0 ∨ w = 1 ∨ w = 2 ∨ w = 3 ∨ w = 4 ∨ w = 5 ∨ w = 6 ∨ w = 7 := by revert w; decide
  rcases hw with rfl | rfl | rfl | rfl | rfl | rfl | rfl | rfl
  · exact fun e => h0 e.symm
  · exact fun e => h1 e.symm
  · exact fun e => h2 e.symm
  · exact fun e => h3 e.symm
  · exact fun e => h4 e.symm
  · exact fun e => h5 e.symm
  · exact fun e => h6 e.symm
  · exact fun e => hb (List.mem_singleton.mpr e.symm)
/-- Region 4 changes only its output array main_v119. -/
theorem keepR4 (c : Dev nD) (b : Ref sig .tc) (hb : b ∉ [main_v119]) :
    W26 m ρ c (Proc.devRef .tc b) = W25 m ρ c (Proc.devRef .tc b) := by
  by_cases h0 : b = main_v98
  · subst h0; exact (W26_arr m ρ c 0).trans (((dat4 (V25 m ρ) c).arrAt_in 0 rfl _).trans (A_eq4 (V25 m ρ) c 0))
  by_cases h1 : b = main_v118
  · subst h1; exact (W26_arr m ρ c 1).trans (((dat4 (V25 m ρ) c).arrAt_in 1 rfl _).trans (A_eq4 (V25 m ρ) c 1))
  by_cases h2 : b = main_v117
  · subst h2; exact (W26_arr m ρ c 2).trans (((dat4 (V25 m ρ) c).arrAt_in 2 rfl _).trans (A_eq4 (V25 m ρ) c 2))
  refine W26_of_ne m ρ c b ?_
  intro w
  have hw : w = 0 ∨ w = 1 ∨ w = 2 ∨ w = 3 := by revert w; decide
  rcases hw with rfl | rfl | rfl | rfl
  · exact fun e => h0 e.symm
  · exact fun e => h1 e.symm
  · exact fun e => h2 e.symm
  · exact fun e => hb (List.mem_singleton.mpr e.symm)
/-- Region 5 changes only its output array main_v150. -/
theorem keepR5 (c : Dev nD) (b : Ref sig .tc) (hb : b ∉ [main_v150]) :
    W32 m ρ c (Proc.devRef .tc b) = W31 m ρ c (Proc.devRef .tc b) := by
  by_cases h0 : b = main_v98
  · subst h0; exact (W32_arr m ρ c 0).trans (((dat5 (V31 m ρ) c).arrAt_in 0 rfl _).trans (A_eq5 (V31 m ρ) c 0))
  by_cases h1 : b = main_v149
  · subst h1; exact (W32_arr m ρ c 1).trans (((dat5 (V31 m ρ) c).arrAt_in 1 rfl _).trans (A_eq5 (V31 m ρ) c 1))
  by_cases h2 : b = main_v148
  · subst h2; exact (W32_arr m ρ c 2).trans (((dat5 (V31 m ρ) c).arrAt_in 2 rfl _).trans (A_eq5 (V31 m ρ) c 2))
  refine W32_of_ne m ρ c b ?_
  intro w
  have hw : w = 0 ∨ w = 1 ∨ w = 2 ∨ w = 3 := by revert w; decide
  rcases hw with rfl | rfl | rfl | rfl
  · exact fun e => h0 e.symm
  · exact fun e => h1 e.symm
  · exact fun e => h2 e.symm
  · exact fun e => hb (List.mem_singleton.mpr e.symm)
/-- Region 6 changes only its output array main_v181. -/
theorem keepR6 (c : Dev nD) (b : Ref sig .tc) (hb : b ∉ [main_v181]) :
    W38 m ρ c (Proc.devRef .tc b) = W37 m ρ c (Proc.devRef .tc b) := by
  by_cases h0 : b = main_v98
  · subst h0; exact (W38_arr m ρ c 0).trans (((dat6 (V37 m ρ) c).arrAt_in 0 rfl _).trans (A_eq6 (V37 m ρ) c 0))
  by_cases h1 : b = main_v180
  · subst h1; exact (W38_arr m ρ c 1).trans (((dat6 (V37 m ρ) c).arrAt_in 1 rfl _).trans (A_eq6 (V37 m ρ) c 1))
  by_cases h2 : b = main_v179
  · subst h2; exact (W38_arr m ρ c 2).trans (((dat6 (V37 m ρ) c).arrAt_in 2 rfl _).trans (A_eq6 (V37 m ρ) c 2))
  refine W38_of_ne m ρ c b ?_
  intro w
  have hw : w = 0 ∨ w = 1 ∨ w = 2 ∨ w = 3 := by revert w; decide
  rcases hw with rfl | rfl | rfl | rfl
  · exact fun e => h0 e.symm
  · exact fun e => h1 e.symm
  · exact fun e => h2 e.symm
  · exact fun e => hb (List.mem_singleton.mpr e.symm)
/-- Region 7 changes only its output array main_v197. -/
theorem keepR7 (c : Dev nD) (b : Ref sig .tc) (hb : b ∉ [main_v197]) :
    W40 m ρ c (Proc.devRef .tc b) = W39 m ρ c (Proc.devRef .tc b) := by
  by_cases h0 : b = main_v129
  · subst h0; exact (W40_arr m ρ c 0).trans (((dat7 (V39 m ρ) c).arrAt_in 0 rfl _).trans (A_eq7 (V39 m ρ) c 0))
  by_cases h1 : b = main_v160
  · subst h1; exact (W40_arr m ρ c 1).trans (((dat7 (V39 m ρ) c).arrAt_in 1 rfl _).trans (A_eq7 (V39 m ρ) c 1))
  by_cases h2 : b = main_v191
  · subst h2; exact (W40_arr m ρ c 2).trans (((dat7 (V39 m ρ) c).arrAt_in 2 rfl _).trans (A_eq7 (V39 m ρ) c 2))
  by_cases h3 : b = main_v194
  · subst h3; exact (W40_arr m ρ c 3).trans (((dat7 (V39 m ρ) c).arrAt_in 3 rfl _).trans (A_eq7 (V39 m ρ) c 3))
  by_cases h4 : b = main_v195
  · subst h4; exact (W40_arr m ρ c 4).trans (((dat7 (V39 m ρ) c).arrAt_in 4 rfl _).trans (A_eq7 (V39 m ρ) c 4))
  by_cases h5 : b = main_v196
  · subst h5; exact (W40_arr m ρ c 5).trans (((dat7 (V39 m ρ) c).arrAt_in 5 rfl _).trans (A_eq7 (V39 m ρ) c 5))
  by_cases h6 : b = main_v193
  · subst h6; exact (W40_arr m ρ c 6).trans (((dat7 (V39 m ρ) c).arrAt_in 6 rfl _).trans (A_eq7 (V39 m ρ) c 6))
  refine W40_of_ne m ρ c b ?_
  intro w
  have hw : w = 0 ∨ w = 1 ∨ w = 2 ∨ w = 3 ∨ w = 4 ∨ w = 5 ∨ w = 6 ∨ w = 7 := by revert w; decide
  rcases hw with rfl | rfl | rfl | rfl | rfl | rfl | rfl | rfl
  · exact fun e => h0 e.symm
  · exact fun e => h1 e.symm
  · exact fun e => h2 e.symm
  · exact fun e => h3 e.symm
  · exact fun e => h4 e.symm
  · exact fun e => h5 e.symm
  · exact fun e => h6 e.symm
  · exact fun e => hb (List.mem_singleton.mpr e.symm)
/-- Region 8 changes only its output array main_v199. -/
theorem keepR8 (c : Dev nD) (b : Ref sig .tc) (hb : b ∉ [main_v199]) :
    W42 m ρ c (Proc.devRef .tc b) = W41 m ρ c (Proc.devRef .tc b) := by
  by_cases h0 : b = main_v197
  · subst h0; exact (W42_arr m ρ c 0).trans (((dat8 (V41 m ρ) c).arrAt_in 0 rfl _).trans (A_eq8 (V41 m ρ) c 0))
  by_cases h1 : b = main_arg7
  · subst h1; exact (W42_arr m ρ c 1).trans (((dat8 (V41 m ρ) c).arrAt_in 1 rfl _).trans (A_eq8 (V41 m ρ) c 1))
  by_cases h2 : b = main_v198
  · subst h2; exact (W42_arr m ρ c 2).trans (((dat8 (V41 m ρ) c).arrAt_in 2 rfl _).trans (A_eq8 (V41 m ρ) c 2))
  refine W42_of_ne m ρ c b ?_
  intro w
  have hw : w = 0 ∨ w = 1 ∨ w = 2 ∨ w = 3 := by revert w; decide
  rcases hw with rfl | rfl | rfl | rfl
  · exact fun e => h0 e.symm
  · exact fun e => h1 e.symm
  · exact fun e => h2 e.symm
  · exact fun e => hb (List.mem_singleton.mpr e.symm)

abbrev WF42 : List (Ref sig .tc) := []
abbrev WF41 : List (Ref sig .tc) := [main_v199] ++ WF42
abbrev WF40 : List (Ref sig .tc) := Ws_hostOps8 ++ WF41
abbrev WF39 : List (Ref sig .tc) := [main_v197] ++ WF40
abbrev WF38 : List (Ref sig .tc) := Ws_hostOps7 ++ WF39
abbrev WF37 : List (Ref sig .tc) := [main_v181] ++ WF38
abbrev WF36 : List (Ref sig .tc) := Ws_hostOps6_4 ++ WF37
abbrev WF35 : List (Ref sig .tc) := Ws_hostOps6_3 ++ WF36
abbrev WF34 : List (Ref sig .tc) := Ws_hostOps6_2 ++ WF35
abbrev WF33 : List (Ref sig .tc) := Ws_hostOps6_1 ++ WF34
abbrev WF32 : List (Ref sig .tc) := Ws_hostOps6 ++ WF33
abbrev WF31 : List (Ref sig .tc) := [main_v150] ++ WF32
abbrev WF30 : List (Ref sig .tc) := Ws_hostOps5_4 ++ WF31
abbrev WF29 : List (Ref sig .tc) := Ws_hostOps5_3 ++ WF30
abbrev WF28 : List (Ref sig .tc) := Ws_hostOps5_2 ++ WF29
abbrev WF27 : List (Ref sig .tc) := Ws_hostOps5_1 ++ WF28
abbrev WF26 : List (Ref sig .tc) := Ws_hostOps5 ++ WF27
abbrev WF25 : List (Ref sig .tc) := [main_v119] ++ WF26
abbrev WF24 : List (Ref sig .tc) := Ws_hostOps4_4 ++ WF25
abbrev WF23 : List (Ref sig .tc) := Ws_hostOps4_3 ++ WF24
abbrev WF22 : List (Ref sig .tc) := Ws_hostOps4_2 ++ WF23
abbrev WF21 : List (Ref sig .tc) := Ws_hostOps4_1 ++ WF22
abbrev WF20 : List (Ref sig .tc) := Ws_hostOps4 ++ WF21
abbrev WF19 : List (Ref sig .tc) := [main_v98] ++ WF20
abbrev WF18 : List (Ref sig .tc) := Ws_hostOps3 ++ WF19
abbrev WF17 : List (Ref sig .tc) := [main_v82] ++ WF18
abbrev WF16 : List (Ref sig .tc) := Ws_hostOps2_4 ++ WF17
abbrev WF15 : List (Ref sig .tc) := Ws_hostOps2_3 ++ WF16
abbrev WF14 : List (Ref sig .tc) := Ws_hostOps2_2 ++ WF15
abbrev WF13 : List (Ref sig .tc) := Ws_hostOps2_1 ++ WF14
abbrev WF12 : List (Ref sig .tc) := Ws_hostOps2 ++ WF13
abbrev WF11 : List (Ref sig .tc) := [main_v51] ++ WF12
abbrev WF10 : List (Ref sig .tc) := Ws_hostOps1_4 ++ WF11
abbrev WF9 : List (Ref sig .tc) := Ws_hostOps1_3 ++ WF10
abbrev WF8 : List (Ref sig .tc) := Ws_hostOps1_2 ++ WF9
abbrev WF7 : List (Ref sig .tc) := Ws_hostOps1_1 ++ WF8
abbrev WF6 : List (Ref sig .tc) := Ws_hostOps1 ++ WF7
abbrev WF5 : List (Ref sig .tc) := [main_v20] ++ WF6
abbrev WF4 : List (Ref sig .tc) := Ws_hostOps0_4 ++ WF5
abbrev WF3 : List (Ref sig .tc) := Ws_hostOps0_3 ++ WF4
abbrev WF2 : List (Ref sig .tc) := Ws_hostOps0_2 ++ WF3
abbrev WF1 : List (Ref sig .tc) := Ws_hostOps0_1 ++ WF2
abbrev WF0 : List (Ref sig .tc) := Ws_hostOps0 ++ WF1

theorem keep42 (c : Dev nD) (b : Ref sig .tc) (hb : b ∉ WF42) : W42 m ρ c (Proc.devRef .tc b) = W42 m ρ c (Proc.devRef .tc b) := rfl
theorem keep41 (c : Dev nD) (b : Ref sig .tc) (hb : b ∉ WF41) : W42 m ρ c (Proc.devRef .tc b) = W41 m ρ c (Proc.devRef .tc b) :=
  (keep42 m ρ c b fun h => hb (List.mem_append_right _ h)).trans (keepR8 m ρ c b fun h => hb (List.mem_append_left _ h))
theorem keep40 (c : Dev nD) (b : Ref sig .tc) (hb : b ∉ WF40) : W42 m ρ c (Proc.devRef .tc b) = W40 m ρ c (Proc.devRef .tc b) :=
  (keep41 m ρ c b fun h => hb (List.mem_append_right _ h)).trans (after_keep hostOps8 Ws_hostOps8 hW_hostOps8 (W40 m ρ c) b fun h => hb (List.mem_append_left _ h))
theorem keep39 (c : Dev nD) (b : Ref sig .tc) (hb : b ∉ WF39) : W42 m ρ c (Proc.devRef .tc b) = W39 m ρ c (Proc.devRef .tc b) :=
  (keep40 m ρ c b fun h => hb (List.mem_append_right _ h)).trans (keepR7 m ρ c b fun h => hb (List.mem_append_left _ h))
theorem keep38 (c : Dev nD) (b : Ref sig .tc) (hb : b ∉ WF38) : W42 m ρ c (Proc.devRef .tc b) = W38 m ρ c (Proc.devRef .tc b) :=
  (keep39 m ρ c b fun h => hb (List.mem_append_right _ h)).trans (after_keep hostOps7 Ws_hostOps7 hW_hostOps7 (W38 m ρ c) b fun h => hb (List.mem_append_left _ h))
theorem keep37 (c : Dev nD) (b : Ref sig .tc) (hb : b ∉ WF37) : W42 m ρ c (Proc.devRef .tc b) = W37 m ρ c (Proc.devRef .tc b) :=
  (keep38 m ρ c b fun h => hb (List.mem_append_right _ h)).trans (keepR6 m ρ c b fun h => hb (List.mem_append_left _ h))
theorem keep36 (c : Dev nD) (b : Ref sig .tc) (hb : b ∉ WF36) : W42 m ρ c (Proc.devRef .tc b) = W36 m ρ c (Proc.devRef .tc b) :=
  (keep37 m ρ c b fun h => hb (List.mem_append_right _ h)).trans (after_keep hostOps6_4 Ws_hostOps6_4 hW_hostOps6_4 (W36 m ρ c) b fun h => hb (List.mem_append_left _ h))
theorem keep35 (c : Dev nD) (b : Ref sig .tc) (hb : b ∉ WF35) : W42 m ρ c (Proc.devRef .tc b) = W35 m ρ c (Proc.devRef .tc b) :=
  (keep36 m ρ c b fun h => hb (List.mem_append_right _ h)).trans (after_keep hostOps6_3 Ws_hostOps6_3 hW_hostOps6_3 (W35 m ρ c) b fun h => hb (List.mem_append_left _ h))
theorem keep34 (c : Dev nD) (b : Ref sig .tc) (hb : b ∉ WF34) : W42 m ρ c (Proc.devRef .tc b) = W34 m ρ c (Proc.devRef .tc b) :=
  (keep35 m ρ c b fun h => hb (List.mem_append_right _ h)).trans (after_keep hostOps6_2 Ws_hostOps6_2 hW_hostOps6_2 (W34 m ρ c) b fun h => hb (List.mem_append_left _ h))
theorem keep33 (c : Dev nD) (b : Ref sig .tc) (hb : b ∉ WF33) : W42 m ρ c (Proc.devRef .tc b) = W33 m ρ c (Proc.devRef .tc b) :=
  (keep34 m ρ c b fun h => hb (List.mem_append_right _ h)).trans (after_keep hostOps6_1 Ws_hostOps6_1 hW_hostOps6_1 (W33 m ρ c) b fun h => hb (List.mem_append_left _ h))
theorem keep32 (c : Dev nD) (b : Ref sig .tc) (hb : b ∉ WF32) : W42 m ρ c (Proc.devRef .tc b) = W32 m ρ c (Proc.devRef .tc b) :=
  (keep33 m ρ c b fun h => hb (List.mem_append_right _ h)).trans (after_keep hostOps6 Ws_hostOps6 hW_hostOps6 (W32 m ρ c) b fun h => hb (List.mem_append_left _ h))
theorem keep31 (c : Dev nD) (b : Ref sig .tc) (hb : b ∉ WF31) : W42 m ρ c (Proc.devRef .tc b) = W31 m ρ c (Proc.devRef .tc b) :=
  (keep32 m ρ c b fun h => hb (List.mem_append_right _ h)).trans (keepR5 m ρ c b fun h => hb (List.mem_append_left _ h))
theorem keep30 (c : Dev nD) (b : Ref sig .tc) (hb : b ∉ WF30) : W42 m ρ c (Proc.devRef .tc b) = W30 m ρ c (Proc.devRef .tc b) :=
  (keep31 m ρ c b fun h => hb (List.mem_append_right _ h)).trans (after_keep hostOps5_4 Ws_hostOps5_4 hW_hostOps5_4 (W30 m ρ c) b fun h => hb (List.mem_append_left _ h))
theorem keep29 (c : Dev nD) (b : Ref sig .tc) (hb : b ∉ WF29) : W42 m ρ c (Proc.devRef .tc b) = W29 m ρ c (Proc.devRef .tc b) :=
  (keep30 m ρ c b fun h => hb (List.mem_append_right _ h)).trans (after_keep hostOps5_3 Ws_hostOps5_3 hW_hostOps5_3 (W29 m ρ c) b fun h => hb (List.mem_append_left _ h))
theorem keep28 (c : Dev nD) (b : Ref sig .tc) (hb : b ∉ WF28) : W42 m ρ c (Proc.devRef .tc b) = W28 m ρ c (Proc.devRef .tc b) :=
  (keep29 m ρ c b fun h => hb (List.mem_append_right _ h)).trans (after_keep hostOps5_2 Ws_hostOps5_2 hW_hostOps5_2 (W28 m ρ c) b fun h => hb (List.mem_append_left _ h))
theorem keep27 (c : Dev nD) (b : Ref sig .tc) (hb : b ∉ WF27) : W42 m ρ c (Proc.devRef .tc b) = W27 m ρ c (Proc.devRef .tc b) :=
  (keep28 m ρ c b fun h => hb (List.mem_append_right _ h)).trans (after_keep hostOps5_1 Ws_hostOps5_1 hW_hostOps5_1 (W27 m ρ c) b fun h => hb (List.mem_append_left _ h))
theorem keep26 (c : Dev nD) (b : Ref sig .tc) (hb : b ∉ WF26) : W42 m ρ c (Proc.devRef .tc b) = W26 m ρ c (Proc.devRef .tc b) :=
  (keep27 m ρ c b fun h => hb (List.mem_append_right _ h)).trans (after_keep hostOps5 Ws_hostOps5 hW_hostOps5 (W26 m ρ c) b fun h => hb (List.mem_append_left _ h))
theorem keep25 (c : Dev nD) (b : Ref sig .tc) (hb : b ∉ WF25) : W42 m ρ c (Proc.devRef .tc b) = W25 m ρ c (Proc.devRef .tc b) :=
  (keep26 m ρ c b fun h => hb (List.mem_append_right _ h)).trans (keepR4 m ρ c b fun h => hb (List.mem_append_left _ h))
theorem keep24 (c : Dev nD) (b : Ref sig .tc) (hb : b ∉ WF24) : W42 m ρ c (Proc.devRef .tc b) = W24 m ρ c (Proc.devRef .tc b) :=
  (keep25 m ρ c b fun h => hb (List.mem_append_right _ h)).trans (after_keep hostOps4_4 Ws_hostOps4_4 hW_hostOps4_4 (W24 m ρ c) b fun h => hb (List.mem_append_left _ h))
theorem keep23 (c : Dev nD) (b : Ref sig .tc) (hb : b ∉ WF23) : W42 m ρ c (Proc.devRef .tc b) = W23 m ρ c (Proc.devRef .tc b) :=
  (keep24 m ρ c b fun h => hb (List.mem_append_right _ h)).trans (after_keep hostOps4_3 Ws_hostOps4_3 hW_hostOps4_3 (W23 m ρ c) b fun h => hb (List.mem_append_left _ h))
theorem keep22 (c : Dev nD) (b : Ref sig .tc) (hb : b ∉ WF22) : W42 m ρ c (Proc.devRef .tc b) = W22 m ρ c (Proc.devRef .tc b) :=
  (keep23 m ρ c b fun h => hb (List.mem_append_right _ h)).trans (after_keep hostOps4_2 Ws_hostOps4_2 hW_hostOps4_2 (W22 m ρ c) b fun h => hb (List.mem_append_left _ h))
theorem keep21 (c : Dev nD) (b : Ref sig .tc) (hb : b ∉ WF21) : W42 m ρ c (Proc.devRef .tc b) = W21 m ρ c (Proc.devRef .tc b) :=
  (keep22 m ρ c b fun h => hb (List.mem_append_right _ h)).trans (after_keep hostOps4_1 Ws_hostOps4_1 hW_hostOps4_1 (W21 m ρ c) b fun h => hb (List.mem_append_left _ h))
theorem keep20 (c : Dev nD) (b : Ref sig .tc) (hb : b ∉ WF20) : W42 m ρ c (Proc.devRef .tc b) = W20 m ρ c (Proc.devRef .tc b) :=
  (keep21 m ρ c b fun h => hb (List.mem_append_right _ h)).trans (after_keep hostOps4 Ws_hostOps4 hW_hostOps4 (W20 m ρ c) b fun h => hb (List.mem_append_left _ h))
theorem keep19 (c : Dev nD) (b : Ref sig .tc) (hb : b ∉ WF19) : W42 m ρ c (Proc.devRef .tc b) = W19 m ρ c (Proc.devRef .tc b) :=
  (keep20 m ρ c b fun h => hb (List.mem_append_right _ h)).trans (keepR3 m ρ c b fun h => hb (List.mem_append_left _ h))
theorem keep18 (c : Dev nD) (b : Ref sig .tc) (hb : b ∉ WF18) : W42 m ρ c (Proc.devRef .tc b) = W18 m ρ c (Proc.devRef .tc b) :=
  (keep19 m ρ c b fun h => hb (List.mem_append_right _ h)).trans (after_keep hostOps3 Ws_hostOps3 hW_hostOps3 (W18 m ρ c) b fun h => hb (List.mem_append_left _ h))
theorem keep17 (c : Dev nD) (b : Ref sig .tc) (hb : b ∉ WF17) : W42 m ρ c (Proc.devRef .tc b) = W17 m ρ c (Proc.devRef .tc b) :=
  (keep18 m ρ c b fun h => hb (List.mem_append_right _ h)).trans (keepR2 m ρ c b fun h => hb (List.mem_append_left _ h))
theorem keep16 (c : Dev nD) (b : Ref sig .tc) (hb : b ∉ WF16) : W42 m ρ c (Proc.devRef .tc b) = W16 m ρ c (Proc.devRef .tc b) :=
  (keep17 m ρ c b fun h => hb (List.mem_append_right _ h)).trans (after_keep hostOps2_4 Ws_hostOps2_4 hW_hostOps2_4 (W16 m ρ c) b fun h => hb (List.mem_append_left _ h))
theorem keep15 (c : Dev nD) (b : Ref sig .tc) (hb : b ∉ WF15) : W42 m ρ c (Proc.devRef .tc b) = W15 m ρ c (Proc.devRef .tc b) :=
  (keep16 m ρ c b fun h => hb (List.mem_append_right _ h)).trans (after_keep hostOps2_3 Ws_hostOps2_3 hW_hostOps2_3 (W15 m ρ c) b fun h => hb (List.mem_append_left _ h))
theorem keep14 (c : Dev nD) (b : Ref sig .tc) (hb : b ∉ WF14) : W42 m ρ c (Proc.devRef .tc b) = W14 m ρ c (Proc.devRef .tc b) :=
  (keep15 m ρ c b fun h => hb (List.mem_append_right _ h)).trans (after_keep hostOps2_2 Ws_hostOps2_2 hW_hostOps2_2 (W14 m ρ c) b fun h => hb (List.mem_append_left _ h))
theorem keep13 (c : Dev nD) (b : Ref sig .tc) (hb : b ∉ WF13) : W42 m ρ c (Proc.devRef .tc b) = W13 m ρ c (Proc.devRef .tc b) :=
  (keep14 m ρ c b fun h => hb (List.mem_append_right _ h)).trans (after_keep hostOps2_1 Ws_hostOps2_1 hW_hostOps2_1 (W13 m ρ c) b fun h => hb (List.mem_append_left _ h))
theorem keep12 (c : Dev nD) (b : Ref sig .tc) (hb : b ∉ WF12) : W42 m ρ c (Proc.devRef .tc b) = W12 m ρ c (Proc.devRef .tc b) :=
  (keep13 m ρ c b fun h => hb (List.mem_append_right _ h)).trans (after_keep hostOps2 Ws_hostOps2 hW_hostOps2 (W12 m ρ c) b fun h => hb (List.mem_append_left _ h))
theorem keep11 (c : Dev nD) (b : Ref sig .tc) (hb : b ∉ WF11) : W42 m ρ c (Proc.devRef .tc b) = W11 m ρ c (Proc.devRef .tc b) :=
  (keep12 m ρ c b fun h => hb (List.mem_append_right _ h)).trans (keepR1 m ρ c b fun h => hb (List.mem_append_left _ h))
theorem keep10 (c : Dev nD) (b : Ref sig .tc) (hb : b ∉ WF10) : W42 m ρ c (Proc.devRef .tc b) = W10 m ρ c (Proc.devRef .tc b) :=
  (keep11 m ρ c b fun h => hb (List.mem_append_right _ h)).trans (after_keep hostOps1_4 Ws_hostOps1_4 hW_hostOps1_4 (W10 m ρ c) b fun h => hb (List.mem_append_left _ h))
theorem keep9 (c : Dev nD) (b : Ref sig .tc) (hb : b ∉ WF9) : W42 m ρ c (Proc.devRef .tc b) = W9 m ρ c (Proc.devRef .tc b) :=
  (keep10 m ρ c b fun h => hb (List.mem_append_right _ h)).trans (after_keep hostOps1_3 Ws_hostOps1_3 hW_hostOps1_3 (W9 m ρ c) b fun h => hb (List.mem_append_left _ h))
theorem keep8 (c : Dev nD) (b : Ref sig .tc) (hb : b ∉ WF8) : W42 m ρ c (Proc.devRef .tc b) = W8 m ρ c (Proc.devRef .tc b) :=
  (keep9 m ρ c b fun h => hb (List.mem_append_right _ h)).trans (after_keep hostOps1_2 Ws_hostOps1_2 hW_hostOps1_2 (W8 m ρ c) b fun h => hb (List.mem_append_left _ h))
theorem keep7 (c : Dev nD) (b : Ref sig .tc) (hb : b ∉ WF7) : W42 m ρ c (Proc.devRef .tc b) = W7 m ρ c (Proc.devRef .tc b) :=
  (keep8 m ρ c b fun h => hb (List.mem_append_right _ h)).trans (after_keep hostOps1_1 Ws_hostOps1_1 hW_hostOps1_1 (W7 m ρ c) b fun h => hb (List.mem_append_left _ h))
theorem keep6 (c : Dev nD) (b : Ref sig .tc) (hb : b ∉ WF6) : W42 m ρ c (Proc.devRef .tc b) = W6 m ρ c (Proc.devRef .tc b) :=
  (keep7 m ρ c b fun h => hb (List.mem_append_right _ h)).trans (after_keep hostOps1 Ws_hostOps1 hW_hostOps1 (W6 m ρ c) b fun h => hb (List.mem_append_left _ h))
theorem keep5 (c : Dev nD) (b : Ref sig .tc) (hb : b ∉ WF5) : W42 m ρ c (Proc.devRef .tc b) = W5 m ρ c (Proc.devRef .tc b) :=
  (keep6 m ρ c b fun h => hb (List.mem_append_right _ h)).trans (keepR0 m ρ c b fun h => hb (List.mem_append_left _ h))
theorem keep4 (c : Dev nD) (b : Ref sig .tc) (hb : b ∉ WF4) : W42 m ρ c (Proc.devRef .tc b) = W4 m ρ c (Proc.devRef .tc b) :=
  (keep5 m ρ c b fun h => hb (List.mem_append_right _ h)).trans (after_keep hostOps0_4 Ws_hostOps0_4 hW_hostOps0_4 (W4 m ρ c) b fun h => hb (List.mem_append_left _ h))
theorem keep3 (c : Dev nD) (b : Ref sig .tc) (hb : b ∉ WF3) : W42 m ρ c (Proc.devRef .tc b) = W3 m ρ c (Proc.devRef .tc b) :=
  (keep4 m ρ c b fun h => hb (List.mem_append_right _ h)).trans (after_keep hostOps0_3 Ws_hostOps0_3 hW_hostOps0_3 (W3 m ρ c) b fun h => hb (List.mem_append_left _ h))
theorem keep2 (c : Dev nD) (b : Ref sig .tc) (hb : b ∉ WF2) : W42 m ρ c (Proc.devRef .tc b) = W2 m ρ c (Proc.devRef .tc b) :=
  (keep3 m ρ c b fun h => hb (List.mem_append_right _ h)).trans (after_keep hostOps0_2 Ws_hostOps0_2 hW_hostOps0_2 (W2 m ρ c) b fun h => hb (List.mem_append_left _ h))
theorem keep1 (c : Dev nD) (b : Ref sig .tc) (hb : b ∉ WF1) : W42 m ρ c (Proc.devRef .tc b) = W1 m ρ c (Proc.devRef .tc b) :=
  (keep2 m ρ c b fun h => hb (List.mem_append_right _ h)).trans (after_keep hostOps0_1 Ws_hostOps0_1 hW_hostOps0_1 (W1 m ρ c) b fun h => hb (List.mem_append_left _ h))
theorem keep0 (c : Dev nD) (b : Ref sig .tc) (hb : b ∉ WF0) : W42 m ρ c (Proc.devRef .tc b) = W0 m ρ c (Proc.devRef .tc b) :=
  (keep1 m ρ c b fun h => hb (List.mem_append_right _ h)).trans (after_keep hostOps0 Ws_hostOps0 hW_hostOps0 (W0 m ρ c) b fun h => hb (List.mem_append_left _ h))

end Cert.KernelIdeal.Chain

end
-- ==== Proof.LibAfterLater.lean ====
/-
  One operation of a single-assignment line read from LATER contents.  `Zf` is what the buffers hold at some later moment;
  it agrees with the contents right after the line `ops` (run from `Win`) on every buffer outside `WFn`, the buffers
  written after the line.  Then the result buffer of operation k holds in `Zf` the operation's function of what its operand
  buffers hold in `Zf`, provided neither the result nor an operand is written later.
-/
import proofs.«124848_j55800215109809_1_alg».proof.Proof.LibAfterRead

noncomputable section

namespace Cert.LibAfter

open Idealize.ShloMosaic Idealize.ShloMosaic.StableHlo

variable {τ : Topo} {sig : RefSig} {Val : EltTy → Type}

section
variable (Zf Win : Valuation τ sig Val) (ops : List (HloOp τ sig Val)) (Ws : List (Ref sig .tc)) (h : WritesList ops Ws)
  (WFn : List (Ref sig .tc))
  (hkeep : ∀ b : Ref sig .tc, b ∉ WFn → Zf (Proc.devRef .tc b) = after ops Win (Proc.devRef .tc b))
  (k : ℕ) (hk : k < ops.length)
include h hkeep

theorem fin_nullary (y : Ref sig .tc) (v : y.ty.Contents Val) (hy)
    (hop : ops[k] = nullary y v hy) (hy' : y ∉ Ws.drop (k + 1)) (hyF : y ∉ WFn) :
    Zf (Proc.devRef .tc y) = v :=
  (hkeep y hyF).trans (read_nullary ops Ws h k hk Win y v hy hop hy')

theorem fin_unary (x y : Ref sig .tc) (f : x.ty.Contents Val → y.ty.Contents Val) (hx hy)
    (hop : ops[k] = unary x y f hx hy) (hy' : y ∉ Ws.drop (k + 1)) (hx' : x ∉ Ws.drop k)
    (hyF : y ∉ WFn) (hxF : x ∉ WFn) :
    Zf (Proc.devRef .tc y) = f (Zf (Proc.devRef .tc x)) := by
  rw [hkeep y hyF, hkeep x hxF]
  exact read_unary ops Ws h k hk Win x y f hx hy hop hy' hx'

theorem fin_binary (a b y : Ref sig .tc) (f : a.ty.Contents Val → b.ty.Contents Val → y.ty.Contents Val) (ha hb hy)
    (hop : ops[k] = binary a b y f ha hb hy) (hy' : y ∉ Ws.drop (k + 1)) (ha' : a ∉ Ws.drop k) (hb' : b ∉ Ws.drop k)
    (hyF : y ∉ WFn) (haF : a ∉ WFn) (hbF : b ∉ WFn) :
    Zf (Proc.devRef .tc y) = f (Zf (Proc.devRef .tc a)) (Zf (Proc.devRef .tc b)) := by
  rw [hkeep y hyF, hkeep a haF, hkeep b hbF]
  exact read_binary ops Ws h k hk Win a b y f ha hb hy hop hy' ha' hb'

theorem fin_ternary (c a b y : Ref sig .tc)
    (f : c.ty.Contents Val → a.ty.Contents Val → b.ty.Contents Val → y.ty.Contents Val) (hc ha hb hy)
    (hop : ops[k] = ternary c a b y f hc ha hb hy) (hy' : y ∉ Ws.drop (k + 1)) (hc' : c ∉ Ws.drop k)
    (ha' : a ∉ Ws.drop k) (hb' : b ∉ Ws.drop k)
    (hyF : y ∉ WFn) (hcF : c ∉ WFn) (haF : a ∉ WFn) (hbF : b ∉ WFn) :
    Zf (Proc.devRef .tc y) = f (Zf (Proc.devRef .tc c)) (Zf (Proc.devRef .tc a)) (Zf (Proc.devRef .tc b)) := by
  rw [hkeep y hyF, hkeep c hcF, hkeep a haF, hkeep b hbF]
  exact read_ternary ops Ws h k hk Win c a b y f hc ha hb hy hop hy' hc' ha' hb'

theorem fin_reshape (x y : Ref sig .tc) (he : x.ty.elt = y.ty.elt) (hn : x.ty.shape.ShapeCasts y.ty.shape) (hx hy)
    (hop : ops[k] = reshape x y he hn hx hy) (hy' : y ∉ Ws.drop (k + 1)) (hx' : x ∉ Ws.drop k)
    (hyF : y ∉ WFn) (hxF : x ∉ WFn) :
    Zf (Proc.devRef .tc y) = fun i => he ▸ shapeCast y.ty.shape (Zf (Proc.devRef .tc x)) hn i := by
  rw [hkeep y hyF, hkeep x hxF]
  exact read_reshape ops Ws h k hk Win x y he hn hx hy hop hy' hx'

end

end Cert.LibAfter

end
-- ==== Proof.KernelReads0.lean ====
/-
  The idealized kernel program's host operations read at the last boundary's contents Z: each operation's result buffer holds
  the operation's function of what its operand buffers hold there (every buffer is written once, operands before results).  Part 0.
-/
import proofs.«124848_j55800215109809_1_alg».proof.Proof.KernelChain
import proofs.«124848_j55800215109809_1_alg».proof.Proof.LibAfterLater

set_option maxRecDepth 16384

noncomputable section

namespace Cert.KernelIdeal.Rd

open Cert.KernelIdeal Cert.KernelIdeal.Gen Cert.KernelIdeal.Chain Cert.LibAfter
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

theorem v0 (c : Dev nD) : W42 m ρ c (Proc.devRef .tc main_v0) = extractStridedSlice S1x600000 ![0, 0] (W42 m ρ c (Proc.devRef .tc main_arg1)) slices_S3x600000_S1x600000_0_0 := by
  have hop : (hostOps0 (F := F))[0]'(of_decide_eq_true rfl) = StableHlo.unary main_arg1 main_v0 (fun x => extractStridedSlice S1x600000 ![0, 0] x slices_S3x600000_S1x600000_0_0) := rfl
  have h := fin_unary (W42 m ρ c) (W0 m ρ c) hostOps0 Ws_hostOps0 hW_hostOps0 WF1 (keep1 m ρ c) 0 (of_decide_eq_true rfl) main_arg1 main_v0 _ _ _ hop (by decide) (by decide) (by decide) (by decide)
  exact h
theorem v1 (c : Dev nD) : W42 m ρ c (Proc.devRef .tc main_v1) = shapeCast _ (W42 m ρ c (Proc.devRef .tc main_v0)) shapeCasts_S1x600000_S600000 :=
  fin_reshape (W42 m ρ c) (W0 m ρ c) hostOps0 Ws_hostOps0 hW_hostOps0 WF1 (keep1 m ρ c) 1 (of_decide_eq_true rfl) main_v0 main_v1 rfl shapeCasts_S1x600000_S600000 (by exact ⟨by decide, rfl⟩) (by exact ⟨by decide, rfl⟩) rfl (by decide) (by decide) (by decide) (by decide)
theorem v2 (c : Dev nD) : W42 m ρ c (Proc.devRef .tc main_v2) = extractStridedSlice S1x600000 ![0, 0] (W42 m ρ c (Proc.devRef .tc main_arg2)) slices_S3x600000_S1x600000_0_0 := by
  have hop : (hostOps0 (F := F))[2]'(of_decide_eq_true rfl) = StableHlo.unary main_arg2 main_v2 (fun x => extractStridedSlice S1x600000 ![0, 0] x slices_S3x600000_S1x600000_0_0) := rfl
  have h := fin_unary (W42 m ρ c) (W0 m ρ c) hostOps0 Ws_hostOps0 hW_hostOps0 WF1 (keep1 m ρ c) 2 (of_decide_eq_true rfl) main_arg2 main_v2 _ _ _ hop (by decide) (by decide) (by decide) (by decide)
  exact h
theorem v3 (c : Dev nD) : W42 m ρ c (Proc.devRef .tc main_v3) = shapeCast _ (W42 m ρ c (Proc.devRef .tc main_v2)) shapeCasts_S1x600000_S600000 :=
  fin_reshape (W42 m ρ c) (W0 m ρ c) hostOps0 Ws_hostOps0 hW_hostOps0 WF1 (keep1 m ρ c) 3 (of_decide_eq_true rfl) main_v2 main_v3 rfl shapeCasts_S1x600000_S600000 (by exact ⟨by decide, rfl⟩) (by exact ⟨by decide, rfl⟩) rfl (by decide) (by decide) (by decide) (by decide)
theorem cst (c : Dev nD) : W42 m ρ c (Proc.devRef .tc main_cst) = (constant S_ .f32 0x3F800000#32) :=
  fin_nullary (W42 m ρ c) (W0 m ρ c) hostOps0 Ws_hostOps0 hW_hostOps0 WF1 (keep1 m ρ c) 4 (of_decide_eq_true rfl) main_cst (constant S_ .f32 0x3F800000#32) (by exact ⟨by decide, rfl⟩) rfl (by decide) (by decide)
theorem v4 (c : Dev nD) : W42 m ρ c (Proc.devRef .tc main_v4) = (broadcastInDim S600000 ![] bcast_S_S600000 : (⟨S_, .f32⟩ : BufTy).Contents (Elt F) → (⟨S600000, .f32⟩ : BufTy).Contents (Elt F)) (W42 m ρ c (Proc.devRef .tc main_cst)) :=
  fin_unary (W42 m ρ c) (W0 m ρ c) hostOps0 Ws_hostOps0 hW_hostOps0 WF1 (keep1 m ρ c) 5 (of_decide_eq_true rfl) main_cst main_v4 (broadcastInDim S600000 ![] bcast_S_S600000 : (⟨S_, .f32⟩ : BufTy).Contents (Elt F) → (⟨S600000, .f32⟩ : BufTy).Contents (Elt F)) (by exact ⟨by decide, rfl⟩) (by exact ⟨by decide, rfl⟩) rfl (by decide) (by decide) (by decide) (by decide)
theorem cst_0 (c : Dev nD) : W42 m ρ c (Proc.devRef .tc main_cst_0) = (constant S_ .f32 0x00000000#32) :=
  fin_nullary (W42 m ρ c) (W0 m ρ c) hostOps0 Ws_hostOps0 hW_hostOps0 WF1 (keep1 m ρ c) 6 (of_decide_eq_true rfl) main_cst_0 (constant S_ .f32 0x00000000#32) (by exact ⟨by decide, rfl⟩) rfl (by decide) (by decide)
theorem v5 (c : Dev nD) : W42 m ρ c (Proc.devRef .tc main_v5) = (broadcastInDim S100000 ![] bcast_S_S100000 : (⟨S_, .f32⟩ : BufTy).Contents (Elt F) → (⟨S100000, .f32⟩ : BufTy).Contents (Elt F)) (W42 m ρ c (Proc.devRef .tc main_cst_0)) :=
  fin_unary (W42 m ρ c) (W0 m ρ c) hostOps0 Ws_hostOps0 hW_hostOps0 WF1 (keep1 m ρ c) 7 (of_decide_eq_true rfl) main_cst_0 main_v5 (broadcastInDim S100000 ![] bcast_S_S100000 : (⟨S_, .f32⟩ : BufTy).Contents (Elt F) → (⟨S100000, .f32⟩ : BufTy).Contents (Elt F)) (by exact ⟨by decide, rfl⟩) (by exact ⟨by decide, rfl⟩) rfl (by decide) (by decide) (by decide) (by decide)
theorem v6 (c : Dev nD) : W42 m ρ c (Proc.devRef .tc main_v6) = (broadcastInDim S600000x1 ![0] bcast_S600000_S600000x1_0 : (⟨S600000, .i32⟩ : BufTy).Contents (Elt F) → (⟨S600000x1, .i32⟩ : BufTy).Contents (Elt F)) (W42 m ρ c (Proc.devRef .tc main_v1)) :=
  fin_unary (W42 m ρ c) (W0 m ρ c) hostOps0 Ws_hostOps0 hW_hostOps0 WF1 (keep1 m ρ c) 8 (of_decide_eq_true rfl) main_v1 main_v6 (broadcastInDim S600000x1 ![0] bcast_S600000_S600000x1_0 : (⟨S600000, .i32⟩ : BufTy).Contents (Elt F) → (⟨S600000x1, .i32⟩ : BufTy).Contents (Elt F)) (by exact ⟨by decide, rfl⟩) (by exact ⟨by decide, rfl⟩) rfl (by decide) (by decide) (by decide) (by decide)
theorem v7 (c : Dev nD) : W42 m ρ c (Proc.devRef .tc main_v7) = ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)) (W42 m ρ c (Proc.devRef .tc main_v5)) (W42 m ρ c (Proc.devRef .tc main_v6)) (W42 m ρ c (Proc.devRef .tc main_v4)) :=
  fin_ternary (W42 m ρ c) (W0 m ρ c) hostOps0 Ws_hostOps0 hW_hostOps0 WF1 (keep1 m ρ c) 9 (of_decide_eq_true rfl) main_v5 main_v6 main_v4 main_v7 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)) (by exact ⟨by decide, rfl⟩) (by exact ⟨by decide, rfl⟩) (by exact ⟨by decide, rfl⟩) (by exact ⟨by decide, rfl⟩) rfl (by decide) (by decide) (by decide) (by decide) (by decide) (by decide) (by decide) (by decide)
theorem cst_1 (c : Dev nD) : W42 m ρ c (Proc.devRef .tc main_cst_1) = (constant S_ .f32 0x3F800000#32) :=
  fin_nullary (W42 m ρ c) (W0 m ρ c) hostOps0 Ws_hostOps0 hW_hostOps0 WF1 (keep1 m ρ c) 10 (of_decide_eq_true rfl) main_cst_1 (constant S_ .f32 0x3F800000#32) (by exact ⟨by decide, rfl⟩) rfl (by decide) (by decide)
theorem call0_v0 (c : Dev nD) : W42 m ρ c (Proc.devRef .tc main_call0_v0) = W42 m ρ c (Proc.devRef .tc main_cst_1) :=
  fin_unary (W42 m ρ c) (W1 m ρ c) hostOps0_1 Ws_hostOps0_1 hW_hostOps0_1 WF2 (keep2 m ρ c) 0 (of_decide_eq_true rfl) main_cst_1 main_call0_v0 (fun u => u) (by exact ⟨by decide, rfl⟩) (by exact ⟨by decide, rfl⟩) rfl (by decide) (by decide) (by decide) (by decide)
theorem call0_v1 (c : Dev nD) : W42 m ρ c (Proc.devRef .tc main_call0_v1) = (broadcastInDim S100000 ![] bcast_S_S100000) (W42 m ρ c (Proc.devRef .tc main_call0_v0)) :=
  fin_unary (W42 m ρ c) (W1 m ρ c) hostOps0_1 Ws_hostOps0_1 hW_hostOps0_1 WF2 (keep2 m ρ c) 1 (of_decide_eq_true rfl) main_call0_v0 main_call0_v1 _ (by exact ⟨by decide, rfl⟩) (by exact ⟨by decide, rfl⟩) rfl (by decide) (by decide) (by decide) (by decide)
theorem v8 (c : Dev nD) : W42 m ρ c (Proc.devRef .tc main_v8) = maximumf (W42 m ρ c (Proc.devRef .tc main_call0_v1)) (W42 m ρ c (Proc.devRef .tc main_v7)) :=
  fin_binary (W42 m ρ c) (W1 m ρ c) hostOps0_1 Ws_hostOps0_1 hW_hostOps0_1 WF2 (keep2 m ρ c) 2 (of_decide_eq_true rfl) main_call0_v1 main_v7 main_v8 _ (by exact ⟨by decide, rfl⟩) (by exact ⟨by decide, rfl⟩) (by exact ⟨by decide, rfl⟩) rfl (by decide) (by decide) (by decide) (by decide) (by decide) (by decide)
theorem cst_2 (c : Dev nD) : W42 m ρ c (Proc.devRef .tc main_cst_2) = (constant S_ .f32 0x00000000#32) :=
  fin_nullary (W42 m ρ c) (W2 m ρ c) hostOps0_2 Ws_hostOps0_2 hW_hostOps0_2 WF3 (keep3 m ρ c) 0 (of_decide_eq_true rfl) main_cst_2 (constant S_ .f32 0x00000000#32) (by exact ⟨by decide, rfl⟩) rfl (by decide) (by decide)
theorem v9 (c : Dev nD) : W42 m ρ c (Proc.devRef .tc main_v9) = (broadcastInDim S100000 ![] bcast_S_S100000 : (⟨S_, .f32⟩ : BufTy).Contents (Elt F) → (⟨S100000, .f32⟩ : BufTy).Contents (Elt F)) (W42 m ρ c (Proc.devRef .tc main_cst_2)) :=
  fin_unary (W42 m ρ c) (W2 m ρ c) hostOps0_2 Ws_hostOps0_2 hW_hostOps0_2 WF3 (keep3 m ρ c) 1 (of_decide_eq_true rfl) main_cst_2 main_v9 (broadcastInDim S100000 ![] bcast_S_S100000 : (⟨S_, .f32⟩ : BufTy).Contents (Elt F) → (⟨S100000, .f32⟩ : BufTy).Contents (Elt F)) (by exact ⟨by decide, rfl⟩) (by exact ⟨by decide, rfl⟩) rfl (by decide) (by decide) (by decide) (by decide)
theorem v10 (c : Dev nD) : W42 m ρ c (Proc.devRef .tc main_v10) = (broadcastInDim S600000x1 ![0] bcast_S600000_S600000x1_0 : (⟨S600000, .i32⟩ : BufTy).Contents (Elt F) → (⟨S600000x1, .i32⟩ : BufTy).Contents (Elt F)) (W42 m ρ c (Proc.devRef .tc main_v3)) :=
  fin_unary (W42 m ρ c) (W2 m ρ c) hostOps0_2 Ws_hostOps0_2 hW_hostOps0_2 WF3 (keep3 m ρ c) 2 (of_decide_eq_true rfl) main_v3 main_v10 (broadcastInDim S600000x1 ![0] bcast_S600000_S600000x1_0 : (⟨S600000, .i32⟩ : BufTy).Contents (Elt F) → (⟨S600000x1, .i32⟩ : BufTy).Contents (Elt F)) (by exact ⟨by decide, rfl⟩) (by exact ⟨by decide, rfl⟩) rfl (by decide) (by decide) (by decide) (by decide)
theorem v11 (c : Dev nD) : W42 m ρ c (Proc.devRef .tc main_v11) = ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)) (W42 m ρ c (Proc.devRef .tc main_v9)) (W42 m ρ c (Proc.devRef .tc main_v10)) (W42 m ρ c (Proc.devRef .tc main_v4)) :=
  fin_ternary (W42 m ρ c) (W2 m ρ c) hostOps0_2 Ws_hostOps0_2 hW_hostOps0_2 WF3 (keep3 m ρ c) 3 (of_decide_eq_true rfl) main_v9 main_v10 main_v4 main_v11 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)) (by exact ⟨by decide, rfl⟩) (by exact ⟨by decide, rfl⟩) (by exact ⟨by decide, rfl⟩) (by exact ⟨by decide, rfl⟩) rfl (by decide) (by decide) (by decide) (by decide) (by decide) (by decide) (by decide) (by decide)
theorem cst_3 (c : Dev nD) : W42 m ρ c (Proc.devRef .tc main_cst_3) = (constant S_ .f32 0x3F800000#32) :=
  fin_nullary (W42 m ρ c) (W2 m ρ c) hostOps0_2 Ws_hostOps0_2 hW_hostOps0_2 WF3 (keep3 m ρ c) 4 (of_decide_eq_true rfl) main_cst_3 (constant S_ .f32 0x3F800000#32) (by exact ⟨by decide, rfl⟩) rfl (by decide) (by decide)
theorem call1_v0 (c : Dev nD) : W42 m ρ c (Proc.devRef .tc main_call1_v0) = W42 m ρ c (Proc.devRef .tc main_cst_3) :=
  fin_unary (W42 m ρ c) (W3 m ρ c) hostOps0_3 Ws_hostOps0_3 hW_hostOps0_3 WF4 (keep4 m ρ c) 0 (of_decide_eq_true rfl) main_cst_3 main_call1_v0 (fun u => u) (by exact ⟨by decide, rfl⟩) (by exact ⟨by decide, rfl⟩) rfl (by decide) (by decide) (by decide) (by decide)
theorem call1_v1 (c : Dev nD) : W42 m ρ c (Proc.devRef .tc main_call1_v1) = (broadcastInDim S100000 ![] bcast_S_S100000) (W42 m ρ c (Proc.devRef .tc main_call1_v0)) :=
  fin_unary (W42 m ρ c) (W3 m ρ c) hostOps0_3 Ws_hostOps0_3 hW_hostOps0_3 WF4 (keep4 m ρ c) 1 (of_decide_eq_true rfl) main_call1_v0 main_call1_v1 _ (by exact ⟨by decide, rfl⟩) (by exact ⟨by decide, rfl⟩) rfl (by decide) (by decide) (by decide) (by decide)
theorem v12 (c : Dev nD) : W42 m ρ c (Proc.devRef .tc main_v12) = maximumf (W42 m ρ c (Proc.devRef .tc main_call1_v1)) (W42 m ρ c (Proc.devRef .tc main_v11)) :=
  fin_binary (W42 m ρ c) (W3 m ρ c) hostOps0_3 Ws_hostOps0_3 hW_hostOps0_3 WF4 (keep4 m ρ c) 2 (of_decide_eq_true rfl) main_call1_v1 main_v11 main_v12 _ (by exact ⟨by decide, rfl⟩) (by exact ⟨by decide, rfl⟩) (by exact ⟨by decide, rfl⟩) rfl (by decide) (by decide) (by decide) (by decide) (by decide) (by decide)
theorem cst_4 (c : Dev nD) : W42 m ρ c (Proc.devRef .tc main_cst_4) = (constant S_ .f32 0xBF000000#32) :=
  fin_nullary (W42 m ρ c) (W4 m ρ c) hostOps0_4 Ws_hostOps0_4 hW_hostOps0_4 WF5 (keep5 m ρ c) 0 (of_decide_eq_true rfl) main_cst_4 (constant S_ .f32 0xBF000000#32) (by exact ⟨by decide, rfl⟩) rfl (by decide) (by decide)
theorem v13 (c : Dev nD) : W42 m ρ c (Proc.devRef .tc main_v13) = (broadcastInDim S100000 ![] bcast_S_S100000 : (⟨S_, .f32⟩ : BufTy).Contents (Elt F) → (⟨S100000, .f32⟩ : BufTy).Contents (Elt F)) (W42 m ρ c (Proc.devRef .tc main_cst_4)) :=
  fin_unary (W42 m ρ c) (W4 m ρ c) hostOps0_4 Ws_hostOps0_4 hW_hostOps0_4 WF5 (keep5 m ρ c) 1 (of_decide_eq_true rfl) main_cst_4 main_v13 (broadcastInDim S100000 ![] bcast_S_S100000 : (⟨S_, .f32⟩ : BufTy).Contents (Elt F) → (⟨S100000, .f32⟩ : BufTy).Contents (Elt F)) (by exact ⟨by decide, rfl⟩) (by exact ⟨by decide, rfl⟩) rfl (by decide) (by decide) (by decide) (by decide)
theorem v14 (c : Dev nD) : W42 m ρ c (Proc.devRef .tc main_v14) = (Host.powf : (⟨S100000, .f32⟩ : BufTy).Contents (Elt F) → (⟨S100000, .f32⟩ : BufTy).Contents (Elt F) → (⟨S100000, .f32⟩ : BufTy).Contents (Elt F)) (W42 m ρ c (Proc.devRef .tc main_v8)) (W42 m ρ c (Proc.devRef .tc main_v13)) :=
  fin_binary (W42 m ρ c) (W4 m ρ c) hostOps0_4 Ws_hostOps0_4 hW_hostOps0_4 WF5 (keep5 m ρ c) 2 (of_decide_eq_true rfl) main_v8 main_v13 main_v14 (Host.powf : (⟨S100000, .f32⟩ : BufTy).Contents (Elt F) → (⟨S100000, .f32⟩ : BufTy).Contents (Elt F) → (⟨S100000, .f32⟩ : BufTy).Contents (Elt F)) (by exact ⟨by decide, rfl⟩) (by exact ⟨by decide, rfl⟩) (by exact ⟨by decide, rfl⟩) rfl (by decide) (by decide) (by decide) (by decide) (by decide) (by decide)
theorem cst_5 (c : Dev nD) : W42 m ρ c (Proc.devRef .tc main_cst_5) = (constant S_ .f32 0xBF000000#32) :=
  fin_nullary (W42 m ρ c) (W4 m ρ c) hostOps0_4 Ws_hostOps0_4 hW_hostOps0_4 WF5 (keep5 m ρ c) 3 (of_decide_eq_true rfl) main_cst_5 (constant S_ .f32 0xBF000000#32) (by exact ⟨by decide, rfl⟩) rfl (by decide) (by decide)
theorem v15 (c : Dev nD) : W42 m ρ c (Proc.devRef .tc main_v15) = (broadcastInDim S100000 ![] bcast_S_S100000 : (⟨S_, .f32⟩ : BufTy).Contents (Elt F) → (⟨S100000, .f32⟩ : BufTy).Contents (Elt F)) (W42 m ρ c (Proc.devRef .tc main_cst_5)) :=
  fin_unary (W42 m ρ c) (W4 m ρ c) hostOps0_4 Ws_hostOps0_4 hW_hostOps0_4 WF5 (keep5 m ρ c) 4 (of_decide_eq_true rfl) main_cst_5 main_v15 (broadcastInDim S100000 ![] bcast_S_S100000 : (⟨S_, .f32⟩ : BufTy).Contents (Elt F) → (⟨S100000, .f32⟩ : BufTy).Contents (Elt F)) (by exact ⟨by decide, rfl⟩) (by exact ⟨by decide, rfl⟩) rfl (by decide) (by decide) (by decide) (by decide)
theorem v16 (c : Dev nD) : W42 m ρ c (Proc.devRef .tc main_v16) = (Host.powf : (⟨S100000, .f32⟩ : BufTy).Contents (Elt F) → (⟨S100000, .f32⟩ : BufTy).Contents (Elt F) → (⟨S100000, .f32⟩ : BufTy).Contents (Elt F)) (W42 m ρ c (Proc.devRef .tc main_v12)) (W42 m ρ c (Proc.devRef .tc main_v15)) :=
  fin_binary (W42 m ρ c) (W4 m ρ c) hostOps0_4 Ws_hostOps0_4 hW_hostOps0_4 WF5 (keep5 m ρ c) 5 (of_decide_eq_true rfl) main_v12 main_v15 main_v16 (Host.powf : (⟨S100000, .f32⟩ : BufTy).Contents (Elt F) → (⟨S100000, .f32⟩ : BufTy).Contents (Elt F) → (⟨S100000, .f32⟩ : BufTy).Contents (Elt F)) (by exact ⟨by decide, rfl⟩) (by exact ⟨by decide, rfl⟩) (by exact ⟨by decide, rfl⟩) rfl (by decide) (by decide) (by decide) (by decide) (by decide) (by decide)
theorem v17 (c : Dev nD) : W42 m ρ c (Proc.devRef .tc main_v17) = extractStridedSlice S1x256x128 ![0, 0, 0] (W42 m ρ c (Proc.devRef .tc main_arg3)) slices_S3x256x128_S1x256x128_0_0_0 := by
  have hop : (hostOps0_4 (F := F))[6]'(of_decide_eq_true rfl) = StableHlo.unary main_arg3 main_v17 (fun x => extractStridedSlice S1x256x128 ![0, 0, 0] x slices_S3x256x128_S1x256x128_0_0_0) := rfl
  have h := fin_unary (W42 m ρ c) (W4 m ρ c) hostOps0_4 Ws_hostOps0_4 hW_hostOps0_4 WF5 (keep5 m ρ c) 6 (of_decide_eq_true rfl) main_arg3 main_v17 _ _ _ hop (by decide) (by decide) (by decide) (by decide)
  exact h
theorem v18 (c : Dev nD) : W42 m ρ c (Proc.devRef .tc main_v18) = shapeCast _ (W42 m ρ c (Proc.devRef .tc main_v17)) shapeCasts_S1x256x128_S256x128 :=
  fin_reshape (W42 m ρ c) (W4 m ρ c) hostOps0_4 Ws_hostOps0_4 hW_hostOps0_4 WF5 (keep5 m ρ c) 7 (of_decide_eq_true rfl) main_v17 main_v18 rfl shapeCasts_S1x256x128_S256x128 (by exact ⟨by decide, rfl⟩) (by exact ⟨by decide, rfl⟩) rfl (by decide) (by decide) (by decide) (by decide)
theorem v19 (c : Dev nD) : W42 m ρ c (Proc.devRef .tc main_v19) = shapeCast _ (W42 m ρ c (Proc.devRef .tc main_v14)) shapeCasts_S100000_S100000x1 :=
  fin_reshape (W42 m ρ c) (W4 m ρ c) hostOps0_4 Ws_hostOps0_4 hW_hostOps0_4 WF5 (keep5 m ρ c) 8 (of_decide_eq_true rfl) main_v14 main_v19 rfl shapeCasts_S100000_S100000x1 (by exact ⟨by decide, rfl⟩) (by exact ⟨by decide, rfl⟩) rfl (by decide) (by decide) (by decide) (by decide)
theorem c (c : Dev nD) : W42 m ρ c (Proc.devRef .tc main_c) = (constantI S_ 32 0#32) :=
  fin_nullary (W42 m ρ c) (W6 m ρ c) hostOps1 Ws_hostOps1 hW_hostOps1 WF7 (keep7 m ρ c) 0 (of_decide_eq_true rfl) main_c (constantI S_ 32 0#32) (by exact ⟨by decide, rfl⟩) rfl (by decide) (by decide)
theorem v21 (c : Dev nD) : W42 m ρ c (Proc.devRef .tc main_v21) = (broadcastInDim S600000 ![] bcast_S_S600000 : (⟨S_, .i32⟩ : BufTy).Contents (Elt F) → (⟨S600000, .i32⟩ : BufTy).Contents (Elt F)) (W42 m ρ c (Proc.devRef .tc main_c)) :=
  fin_unary (W42 m ρ c) (W6 m ρ c) hostOps1 Ws_hostOps1 hW_hostOps1 WF7 (keep7 m ρ c) 1 (of_decide_eq_true rfl) main_c main_v21 (broadcastInDim S600000 ![] bcast_S_S600000 : (⟨S_, .i32⟩ : BufTy).Contents (Elt F) → (⟨S600000, .i32⟩ : BufTy).Contents (Elt F)) (by exact ⟨by decide, rfl⟩) (by exact ⟨by decide, rfl⟩) rfl (by decide) (by decide) (by decide) (by decide)
theorem v22 (c : Dev nD) : W42 m ρ c (Proc.devRef .tc main_v22) = (cmpi .slt : (⟨S600000, .i32⟩ : BufTy).Contents (Elt F) → (⟨S600000, .i32⟩ : BufTy).Contents (Elt F) → (⟨S600000, .i1⟩ : BufTy).Contents (Elt F)) (W42 m ρ c (Proc.devRef .tc main_v1)) (W42 m ρ c (Proc.devRef .tc main_v21)) :=
  fin_binary (W42 m ρ c) (W6 m ρ c) hostOps1 Ws_hostOps1 hW_hostOps1 WF7 (keep7 m ρ c) 2 (of_decide_eq_true rfl) main_v1 main_v21 main_v22 (cmpi .slt : (⟨S600000, .i32⟩ : BufTy).Contents (Elt F) → (⟨S600000, .i32⟩ : BufTy).Contents (Elt F) → (⟨S600000, .i1⟩ : BufTy).Contents (Elt F)) (by exact ⟨by decide, rfl⟩) (by exact ⟨by decide, rfl⟩) (by exact ⟨by decide, rfl⟩) rfl (by decide) (by decide) (by decide) (by decide) (by decide) (by decide)
theorem c_6 (c : Dev nD) : W42 m ρ c (Proc.devRef .tc main_c_6) = (constantI S_ 32 100000#32) :=
  fin_nullary (W42 m ρ c) (W6 m ρ c) hostOps1 Ws_hostOps1 hW_hostOps1 WF7 (keep7 m ρ c) 3 (of_decide_eq_true rfl) main_c_6 (constantI S_ 32 100000#32) (by exact ⟨by decide, rfl⟩) rfl (by decide) (by decide)
theorem v23 (c : Dev nD) : W42 m ρ c (Proc.devRef .tc main_v23) = (broadcastInDim S600000 ![] bcast_S_S600000 : (⟨S_, .i32⟩ : BufTy).Contents (Elt F) → (⟨S600000, .i32⟩ : BufTy).Contents (Elt F)) (W42 m ρ c (Proc.devRef .tc main_c_6)) :=
  fin_unary (W42 m ρ c) (W6 m ρ c) hostOps1 Ws_hostOps1 hW_hostOps1 WF7 (keep7 m ρ c) 4 (of_decide_eq_true rfl) main_c_6 main_v23 (broadcastInDim S600000 ![] bcast_S_S600000 : (⟨S_, .i32⟩ : BufTy).Contents (Elt F) → (⟨S600000, .i32⟩ : BufTy).Contents (Elt F)) (by exact ⟨by decide, rfl⟩) (by exact ⟨by decide, rfl⟩) rfl (by decide) (by decide) (by decide) (by decide)
theorem v24 (c : Dev nD) : W42 m ρ c (Proc.devRef .tc main_v24) = (addi : (⟨S600000, .i32⟩ : BufTy).Contents (Elt F) → (⟨S600000, .i32⟩ : BufTy).Contents (Elt F) → (⟨S600000, .i32⟩ : BufTy).Contents (Elt F)) (W42 m ρ c (Proc.devRef .tc main_v1)) (W42 m ρ c (Proc.devRef .tc main_v23)) :=
  fin_binary (W42 m ρ c) (W6 m ρ c) hostOps1 Ws_hostOps1 hW_hostOps1 WF7 (keep7 m ρ c) 5 (of_decide_eq_true rfl) main_v1 main_v23 main_v24 (addi : (⟨S600000, .i32⟩ : BufTy).Contents (Elt F) → (⟨S600000, .i32⟩ : BufTy).Contents (Elt F) → (⟨S600000, .i32⟩ : BufTy).Contents (Elt F)) (by exact ⟨by decide, rfl⟩) (by exact ⟨by decide, rfl⟩) (by exact ⟨by decide, rfl⟩) rfl (by decide) (by decide) (by decide) (by decide) (by decide) (by decide)
theorem v25 (c : Dev nD) : W42 m ρ c (Proc.devRef .tc main_v25) = (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) (W42 m ρ c (Proc.devRef .tc main_v22)) (W42 m ρ c (Proc.devRef .tc main_v24)) (W42 m ρ c (Proc.devRef .tc main_v1)) :=
  fin_ternary (W42 m ρ c) (W6 m ρ c) hostOps1 Ws_hostOps1 hW_hostOps1 WF7 (keep7 m ρ c) 6 (of_decide_eq_true rfl) main_v22 main_v24 main_v1 main_v25 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) (by exact ⟨by decide, rfl⟩) (by exact ⟨by decide, rfl⟩) (by exact ⟨by decide, rfl⟩) (by exact ⟨by decide, rfl⟩) rfl (by decide) (by decide) (by decide) (by decide) (by decide) (by decide) (by decide) (by decide)
theorem v26 (c : Dev nD) : W42 m ρ c (Proc.devRef .tc main_v26) = (broadcastInDim S600000x1 ![0] bcast_S600000_S600000x1_0 : (⟨S600000, .i32⟩ : BufTy).Contents (Elt F) → (⟨S600000x1, .i32⟩ : BufTy).Contents (Elt F)) (W42 m ρ c (Proc.devRef .tc main_v25)) :=
  fin_unary (W42 m ρ c) (W6 m ρ c) hostOps1 Ws_hostOps1 hW_hostOps1 WF7 (keep7 m ρ c) 7 (of_decide_eq_true rfl) main_v25 main_v26 (broadcastInDim S600000x1 ![0] bcast_S600000_S600000x1_0 : (⟨S600000, .i32⟩ : BufTy).Contents (Elt F) → (⟨S600000x1, .i32⟩ : BufTy).Contents (Elt F)) (by exact ⟨by decide, rfl⟩) (by exact ⟨by decide, rfl⟩) rfl (by decide) (by decide) (by decide) (by decide)
theorem v27 (c : Dev nD) : W42 m ρ c (Proc.devRef .tc main_v27) = ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)) (W42 m ρ c (Proc.devRef .tc main_v20)) (W42 m ρ c (Proc.devRef .tc main_v26)) :=
  fin_binary (W42 m ρ c) (W6 m ρ c) hostOps1 Ws_hostOps1 hW_hostOps1 WF7 (keep7 m ρ c) 8 (of_decide_eq_true rfl) main_v20 main_v26 main_v27 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)) (by exact ⟨by decide, rfl⟩) (by exact ⟨by decide, rfl⟩) (by exact ⟨by decide, rfl⟩) rfl (by decide) (by decide) (by decide) (by decide) (by decide) (by decide)
theorem cst_7 (c : Dev nD) : W42 m ρ c (Proc.devRef .tc main_cst_7) = (constant S_ .f32 0x00000000#32) :=
  fin_nullary (W42 m ρ c) (W6 m ρ c) hostOps1 Ws_hostOps1 hW_hostOps1 WF7 (keep7 m ρ c) 9 (of_decide_eq_true rfl) main_cst_7 (constant S_ .f32 0x00000000#32) (by exact ⟨by decide, rfl⟩) rfl (by decide) (by decide)
theorem v28 (c : Dev nD) : W42 m ρ c (Proc.devRef .tc main_v28) = (broadcastInDim S100000x128 ![] bcast_S_S100000x128 : (⟨S_, .f32⟩ : BufTy).Contents (Elt F) → (⟨S100000x128, .f32⟩ : BufTy).Contents (Elt F)) (W42 m ρ c (Proc.devRef .tc main_cst_7)) :=
  fin_unary (W42 m ρ c) (W6 m ρ c) hostOps1 Ws_hostOps1 hW_hostOps1 WF7 (keep7 m ρ c) 10 (of_decide_eq_true rfl) main_cst_7 main_v28 (broadcastInDim S100000x128 ![] bcast_S_S100000x128 : (⟨S_, .f32⟩ : BufTy).Contents (Elt F) → (⟨S100000x128, .f32⟩ : BufTy).Contents (Elt F)) (by exact ⟨by decide, rfl⟩) (by exact ⟨by decide, rfl⟩) rfl (by decide) (by decide) (by decide) (by decide)
theorem v29 (c : Dev nD) : W42 m ρ c (Proc.devRef .tc main_v29) = (broadcastInDim S600000x1 ![0] bcast_S600000_S600000x1_0 : (⟨S600000, .i32⟩ : BufTy).Contents (Elt F) → (⟨S600000x1, .i32⟩ : BufTy).Contents (Elt F)) (W42 m ρ c (Proc.devRef .tc main_v3)) :=
  fin_unary (W42 m ρ c) (W6 m ρ c) hostOps1 Ws_hostOps1 hW_hostOps1 WF7 (keep7 m ρ c) 11 (of_decide_eq_true rfl) main_v3 main_v29 (broadcastInDim S600000x1 ![0] bcast_S600000_S600000x1_0 : (⟨S600000, .i32⟩ : BufTy).Contents (Elt F) → (⟨S600000x1, .i32⟩ : BufTy).Contents (Elt F)) (by exact ⟨by decide, rfl⟩) (by exact ⟨by decide, rfl⟩) rfl (by decide) (by decide) (by decide) (by decide)
theorem v30 (c : Dev nD) : W42 m ρ c (Proc.devRef .tc main_v30) = ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)) (W42 m ρ c (Proc.devRef .tc main_v28)) (W42 m ρ c (Proc.devRef .tc main_v29)) (W42 m ρ c (Proc.devRef .tc main_v27)) :=
  fin_ternary (W42 m ρ c) (W6 m ρ c) hostOps1 Ws_hostOps1 hW_hostOps1 WF7 (keep7 m ρ c) 12 (of_decide_eq_true rfl) main_v28 main_v29 main_v27 main_v30 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)) (by exact ⟨by decide, rfl⟩) (by exact ⟨by decide, rfl⟩) (by exact ⟨by decide, rfl⟩) (by exact ⟨by decide, rfl⟩) rfl (by decide) (by decide) (by decide) (by decide) (by decide) (by decide) (by decide) (by decide)
theorem v31 (c : Dev nD) : W42 m ρ c (Proc.devRef .tc main_v31) = extractStridedSlice S1x600000 ![1, 0] (W42 m ρ c (Proc.devRef .tc main_arg1)) slices_S3x600000_S1x600000_1_0 := by
  have hop : (hostOps1 (F := F))[13]'(of_decide_eq_true rfl) = StableHlo.unary main_arg1 main_v31 (fun x => extractStridedSlice S1x600000 ![1, 0] x slices_S3x600000_S1x600000_1_0) := rfl
  have h := fin_unary (W42 m ρ c) (W6 m ρ c) hostOps1 Ws_hostOps1 hW_hostOps1 WF7 (keep7 m ρ c) 13 (of_decide_eq_true rfl) main_arg1 main_v31 _ _ _ hop (by decide) (by decide) (by decide) (by decide)
  exact h
theorem v32 (c : Dev nD) : W42 m ρ c (Proc.devRef .tc main_v32) = shapeCast _ (W42 m ρ c (Proc.devRef .tc main_v31)) shapeCasts_S1x600000_S600000 :=
  fin_reshape (W42 m ρ c) (W6 m ρ c) hostOps1 Ws_hostOps1 hW_hostOps1 WF7 (keep7 m ρ c) 14 (of_decide_eq_true rfl) main_v31 main_v32 rfl shapeCasts_S1x600000_S600000 (by exact ⟨by decide, rfl⟩) (by exact ⟨by decide, rfl⟩) rfl (by decide) (by decide) (by decide) (by decide)
theorem v33 (c : Dev nD) : W42 m ρ c (Proc.devRef .tc main_v33) = extractStridedSlice S1x600000 ![1, 0] (W42 m ρ c (Proc.devRef .tc main_arg2)) slices_S3x600000_S1x600000_1_0 := by
  have hop : (hostOps1 (F := F))[15]'(of_decide_eq_true rfl) = StableHlo.unary main_arg2 main_v33 (fun x => extractStridedSlice S1x600000 ![1, 0] x slices_S3x600000_S1x600000_1_0) := rfl
  have h := fin_unary (W42 m ρ c) (W6 m ρ c) hostOps1 Ws_hostOps1 hW_hostOps1 WF7 (keep7 m ρ c) 15 (of_decide_eq_true rfl) main_arg2 main_v33 _ _ _ hop (by decide) (by decide) (by decide) (by decide)
  exact h
theorem v34 (c : Dev nD) : W42 m ρ c (Proc.devRef .tc main_v34) = shapeCast _ (W42 m ρ c (Proc.devRef .tc main_v33)) shapeCasts_S1x600000_S600000 :=
  fin_reshape (W42 m ρ c) (W6 m ρ c) hostOps1 Ws_hostOps1 hW_hostOps1 WF7 (keep7 m ρ c) 16 (of_decide_eq_true rfl) main_v33 main_v34 rfl shapeCasts_S1x600000_S600000 (by exact ⟨by decide, rfl⟩) (by exact ⟨by decide, rfl⟩) rfl (by decide) (by decide) (by decide) (by decide)
theorem cst_8 (c : Dev nD) : W42 m ρ c (Proc.devRef .tc main_cst_8) = (constant S_ .f32 0x3F800000#32) :=
  fin_nullary (W42 m ρ c) (W6 m ρ c) hostOps1 Ws_hostOps1 hW_hostOps1 WF7 (keep7 m ρ c) 17 (of_decide_eq_true rfl) main_cst_8 (constant S_ .f32 0x3F800000#32) (by exact ⟨by decide, rfl⟩) rfl (by decide) (by decide)
theorem v35 (c : Dev nD) : W42 m ρ c (Proc.devRef .tc main_v35) = (broadcastInDim S600000 ![] bcast_S_S600000 : (⟨S_, .f32⟩ : BufTy).Contents (Elt F) → (⟨S600000, .f32⟩ : BufTy).Contents (Elt F)) (W42 m ρ c (Proc.devRef .tc main_cst_8)) :=
  fin_unary (W42 m ρ c) (W6 m ρ c) hostOps1 Ws_hostOps1 hW_hostOps1 WF7 (keep7 m ρ c) 18 (of_decide_eq_true rfl) main_cst_8 main_v35 (broadcastInDim S600000 ![] bcast_S_S600000 : (⟨S_, .f32⟩ : BufTy).Contents (Elt F) → (⟨S600000, .f32⟩ : BufTy).Contents (Elt F)) (by exact ⟨by decide, rfl⟩) (by exact ⟨by decide, rfl⟩) rfl (by decide) (by decide) (by decide) (by decide)
theorem cst_9 (c : Dev nD) : W42 m ρ c (Proc.devRef .tc main_cst_9) = (constant S_ .f32 0x00000000#32) :=
  fin_nullary (W42 m ρ c) (W6 m ρ c) hostOps1 Ws_hostOps1 hW_hostOps1 WF7 (keep7 m ρ c) 19 (of_decide_eq_true rfl) main_cst_9 (constant S_ .f32 0x00000000#32) (by exact ⟨by decide, rfl⟩) rfl (by decide) (by decide)
theorem v36 (c : Dev nD) : W42 m ρ c (Proc.devRef .tc main_v36) = (broadcastInDim S100000 ![] bcast_S_S100000 : (⟨S_, .f32⟩ : BufTy).Contents (Elt F) → (⟨S100000, .f32⟩ : BufTy).Contents (Elt F)) (W42 m ρ c (Proc.devRef .tc main_cst_9)) :=
  fin_unary (W42 m ρ c) (W6 m ρ c) hostOps1 Ws_hostOps1 hW_hostOps1 WF7 (keep7 m ρ c) 20 (of_decide_eq_true rfl) main_cst_9 main_v36 (broadcastInDim S100000 ![] bcast_S_S100000 : (⟨S_, .f32⟩ : BufTy).Contents (Elt F) → (⟨S100000, .f32⟩ : BufTy).Contents (Elt F)) (by exact ⟨by decide, rfl⟩) (by exact ⟨by decide, rfl⟩) rfl (by decide) (by decide) (by decide) (by decide)
theorem v37 (c : Dev nD) : W42 m ρ c (Proc.devRef .tc main_v37) = (broadcastInDim S600000x1 ![0] bcast_S600000_S600000x1_0 : (⟨S600000, .i32⟩ : BufTy).Contents (Elt F) → (⟨S600000x1, .i32⟩ : BufTy).Contents (Elt F)) (W42 m ρ c (Proc.devRef .tc main_v32)) :=
  fin_unary (W42 m ρ c) (W6 m ρ c) hostOps1 Ws_hostOps1 hW_hostOps1 WF7 (keep7 m ρ c) 21 (of_decide_eq_true rfl) main_v32 main_v37 (broadcastInDim S600000x1 ![0] bcast_S600000_S600000x1_0 : (⟨S600000, .i32⟩ : BufTy).Contents (Elt F) → (⟨S600000x1, .i32⟩ : BufTy).Contents (Elt F)) (by exact ⟨by decide, rfl⟩) (by exact ⟨by decide, rfl⟩) rfl (by decide) (by decide) (by decide) (by decide)
theorem v38 (c : Dev nD) : W42 m ρ c (Proc.devRef .tc main_v38) = ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)) (W42 m ρ c (Proc.devRef .tc main_v36)) (W42 m ρ c (Proc.devRef .tc main_v37)) (W42 m ρ c (Proc.devRef .tc main_v35)) :=
  fin_ternary (W42 m ρ c) (W6 m ρ c) hostOps1 Ws_hostOps1 hW_hostOps1 WF7 (keep7 m ρ c) 22 (of_decide_eq_true rfl) main_v36 main_v37 main_v35 main_v38 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)) (by exact ⟨by decide, rfl⟩) (by exact ⟨by decide, rfl⟩) (by exact ⟨by decide, rfl⟩) (by exact ⟨by decide, rfl⟩) rfl (by decide) (by decide) (by decide) (by decide) (by decide) (by decide) (by decide) (by decide)
theorem cst_10 (c : Dev nD) : W42 m ρ c (Proc.devRef .tc main_cst_10) = (constant S_ .f32 0x3F800000#32) :=
  fin_nullary (W42 m ρ c) (W6 m ρ c) hostOps1 Ws_hostOps1 hW_hostOps1 WF7 (keep7 m ρ c) 23 (of_decide_eq_true rfl) main_cst_10 (constant S_ .f32 0x3F800000#32) (by exact ⟨by decide, rfl⟩) rfl (by decide) (by decide)
theorem call2_v0 (c : Dev nD) : W42 m ρ c (Proc.devRef .tc main_call2_v0) = W42 m ρ c (Proc.devRef .tc main_cst_10) :=
  fin_unary (W42 m ρ c) (W7 m ρ c) hostOps1_1 Ws_hostOps1_1 hW_hostOps1_1 WF8 (keep8 m ρ c) 0 (of_decide_eq_true rfl) main_cst_10 main_call2_v0 (fun u => u) (by exact ⟨by decide, rfl⟩) (by exact ⟨by decide, rfl⟩) rfl (by decide) (by decide) (by decide) (by decide)
theorem call2_v1 (c : Dev nD) : W42 m ρ c (Proc.devRef .tc main_call2_v1) = (broadcastInDim S100000 ![] bcast_S_S100000) (W42 m ρ c (Proc.devRef .tc main_call2_v0)) :=
  fin_unary (W42 m ρ c) (W7 m ρ c) hostOps1_1 Ws_hostOps1_1 hW_hostOps1_1 WF8 (keep8 m ρ c) 1 (of_decide_eq_true rfl) main_call2_v0 main_call2_v1 _ (by exact ⟨by decide, rfl⟩) (by exact ⟨by decide, rfl⟩) rfl (by decide) (by decide) (by decide) (by decide)
theorem v39 (c : Dev nD) : W42 m ρ c (Proc.devRef .tc main_v39) = maximumf (W42 m ρ c (Proc.devRef .tc main_call2_v1)) (W42 m ρ c (Proc.devRef .tc main_v38)) :=
  fin_binary (W42 m ρ c) (W7 m ρ c) hostOps1_1 Ws_hostOps1_1 hW_hostOps1_1 WF8 (keep8 m ρ c) 2 (of_decide_eq_true rfl) main_call2_v1 main_v38 main_v39 _ (by exact ⟨by decide, rfl⟩) (by exact ⟨by decide, rfl⟩) (by exact ⟨by decide, rfl⟩) rfl (by decide) (by decide) (by decide) (by decide) (by decide) (by decide)
theorem cst_11 (c : Dev nD) : W42 m ρ c (Proc.devRef .tc main_cst_11) = (constant S_ .f32 0x00000000#32) :=
  fin_nullary (W42 m ρ c) (W8 m ρ c) hostOps1_2 Ws_hostOps1_2 hW_hostOps1_2 WF9 (keep9 m ρ c) 0 (of_decide_eq_true rfl) main_cst_11 (constant S_ .f32 0x00000000#32) (by exact ⟨by decide, rfl⟩) rfl (by decide) (by decide)
theorem v40 (c : Dev nD) : W42 m ρ c (Proc.devRef .tc main_v40) = (broadcastInDim S100000 ![] bcast_S_S100000 : (⟨S_, .f32⟩ : BufTy).Contents (Elt F) → (⟨S100000, .f32⟩ : BufTy).Contents (Elt F)) (W42 m ρ c (Proc.devRef .tc main_cst_11)) :=
  fin_unary (W42 m ρ c) (W8 m ρ c) hostOps1_2 Ws_hostOps1_2 hW_hostOps1_2 WF9 (keep9 m ρ c) 1 (of_decide_eq_true rfl) main_cst_11 main_v40 (broadcastInDim S100000 ![] bcast_S_S100000 : (⟨S_, .f32⟩ : BufTy).Contents (Elt F) → (⟨S100000, .f32⟩ : BufTy).Contents (Elt F)) (by exact ⟨by decide, rfl⟩) (by exact ⟨by decide, rfl⟩) rfl (by decide) (by decide) (by decide) (by decide)
theorem v41 (c : Dev nD) : W42 m ρ c (Proc.devRef .tc main_v41) = (broadcastInDim S600000x1 ![0] bcast_S600000_S600000x1_0 : (⟨S600000, .i32⟩ : BufTy).Contents (Elt F) → (⟨S600000x1, .i32⟩ : BufTy).Contents (Elt F)) (W42 m ρ c (Proc.devRef .tc main_v34)) :=
  fin_unary (W42 m ρ c) (W8 m ρ c) hostOps1_2 Ws_hostOps1_2 hW_hostOps1_2 WF9 (keep9 m ρ c) 2 (of_decide_eq_true rfl) main_v34 main_v41 (broadcastInDim S600000x1 ![0] bcast_S600000_S600000x1_0 : (⟨S600000, .i32⟩ : BufTy).Contents (Elt F) → (⟨S600000x1, .i32⟩ : BufTy).Contents (Elt F)) (by exact ⟨by decide, rfl⟩) (by exact ⟨by decide, rfl⟩) rfl (by decide) (by decide) (by decide) (by decide)
theorem v42 (c : Dev nD) : W42 m ρ c (Proc.devRef .tc main_v42) = ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)) (W42 m ρ c (Proc.devRef .tc main_v40)) (W42 m ρ c (Proc.devRef .tc main_v41)) (W42 m ρ c (Proc.devRef .tc main_v35)) :=
  fin_ternary (W42 m ρ c) (W8 m ρ c) hostOps1_2 Ws_hostOps1_2 hW_hostOps1_2 WF9 (keep9 m ρ c) 3 (of_decide_eq_true rfl) main_v40 main_v41 main_v35 main_v42 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)) (by exact ⟨by decide, rfl⟩) (by exact ⟨by decide, rfl⟩) (by exact ⟨by decide, rfl⟩) (by exact ⟨by decide, rfl⟩) rfl (by decide) (by decide) (by decide) (by decide) (by decide) (by decide) (by decide) (by decide)
theorem cst_12 (c : Dev nD) : W42 m ρ c (Proc.devRef .tc main_cst_12) = (constant S_ .f32 0x3F800000#32) :=
  fin_nullary (W42 m ρ c) (W8 m ρ c) hostOps1_2 Ws_hostOps1_2 hW_hostOps1_2 WF9 (keep9 m ρ c) 4 (of_decide_eq_true rfl) main_cst_12 (constant S_ .f32 0x3F800000#32) (by exact ⟨by decide, rfl⟩) rfl (by decide) (by decide)

end Cert.KernelIdeal.Rd

end
-- ==== Proof.KernelReads1.lean ====
/-
  The idealized kernel program's host operations read at the last boundary's contents Z: each operation's result buffer holds
  the operation's function of what its operand buffers hold there (every buffer is written once, operands before results).  Part 1.
-/
import proofs.«124848_j55800215109809_1_alg».proof.Proof.KernelChain
import proofs.«124848_j55800215109809_1_alg».proof.Proof.LibAfterLater

set_option maxRecDepth 16384

noncomputable section

namespace Cert.KernelIdeal.Rd

open Cert.KernelIdeal Cert.KernelIdeal.Gen Cert.KernelIdeal.Chain Cert.LibAfter
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

theorem call3_v0 (c : Dev nD) : W42 m ρ c (Proc.devRef .tc main_call3_v0) = W42 m ρ c (Proc.devRef .tc main_cst_12) :=
  fin_unary (W42 m ρ c) (W9 m ρ c) hostOps1_3 Ws_hostOps1_3 hW_hostOps1_3 WF10 (keep10 m ρ c) 0 (of_decide_eq_true rfl) main_cst_12 main_call3_v0 (fun u => u) (by exact ⟨by decide, rfl⟩) (by exact ⟨by decide, rfl⟩) rfl (by decide) (by decide) (by decide) (by decide)
theorem call3_v1 (c : Dev nD) : W42 m ρ c (Proc.devRef .tc main_call3_v1) = (broadcastInDim S100000 ![] bcast_S_S100000) (W42 m ρ c (Proc.devRef .tc main_call3_v0)) :=
  fin_unary (W42 m ρ c) (W9 m ρ c) hostOps1_3 Ws_hostOps1_3 hW_hostOps1_3 WF10 (keep10 m ρ c) 1 (of_decide_eq_true rfl) main_call3_v0 main_call3_v1 _ (by exact ⟨by decide, rfl⟩) (by exact ⟨by decide, rfl⟩) rfl (by decide) (by decide) (by decide) (by decide)
theorem v43 (c : Dev nD) : W42 m ρ c (Proc.devRef .tc main_v43) = maximumf (W42 m ρ c (Proc.devRef .tc main_call3_v1)) (W42 m ρ c (Proc.devRef .tc main_v42)) :=
  fin_binary (W42 m ρ c) (W9 m ρ c) hostOps1_3 Ws_hostOps1_3 hW_hostOps1_3 WF10 (keep10 m ρ c) 2 (of_decide_eq_true rfl) main_call3_v1 main_v42 main_v43 _ (by exact ⟨by decide, rfl⟩) (by exact ⟨by decide, rfl⟩) (by exact ⟨by decide, rfl⟩) rfl (by decide) (by decide) (by decide) (by decide) (by decide) (by decide)
theorem cst_13 (c : Dev nD) : W42 m ρ c (Proc.devRef .tc main_cst_13) = (constant S_ .f32 0xBF000000#32) :=
  fin_nullary (W42 m ρ c) (W10 m ρ c) hostOps1_4 Ws_hostOps1_4 hW_hostOps1_4 WF11 (keep11 m ρ c) 0 (of_decide_eq_true rfl) main_cst_13 (constant S_ .f32 0xBF000000#32) (by exact ⟨by decide, rfl⟩) rfl (by decide) (by decide)
theorem v44 (c : Dev nD) : W42 m ρ c (Proc.devRef .tc main_v44) = (broadcastInDim S100000 ![] bcast_S_S100000 : (⟨S_, .f32⟩ : BufTy).Contents (Elt F) → (⟨S100000, .f32⟩ : BufTy).Contents (Elt F)) (W42 m ρ c (Proc.devRef .tc main_cst_13)) :=
  fin_unary (W42 m ρ c) (W10 m ρ c) hostOps1_4 Ws_hostOps1_4 hW_hostOps1_4 WF11 (keep11 m ρ c) 1 (of_decide_eq_true rfl) main_cst_13 main_v44 (broadcastInDim S100000 ![] bcast_S_S100000 : (⟨S_, .f32⟩ : BufTy).Contents (Elt F) → (⟨S100000, .f32⟩ : BufTy).Contents (Elt F)) (by exact ⟨by decide, rfl⟩) (by exact ⟨by decide, rfl⟩) rfl (by decide) (by decide) (by decide) (by decide)
theorem v45 (c : Dev nD) : W42 m ρ c (Proc.devRef .tc main_v45) = (Host.powf : (⟨S100000, .f32⟩ : BufTy).Contents (Elt F) → (⟨S100000, .f32⟩ : BufTy).Contents (Elt F) → (⟨S100000, .f32⟩ : BufTy).Contents (Elt F)) (W42 m ρ c (Proc.devRef .tc main_v39)) (W42 m ρ c (Proc.devRef .tc main_v44)) :=
  fin_binary (W42 m ρ c) (W10 m ρ c) hostOps1_4 Ws_hostOps1_4 hW_hostOps1_4 WF11 (keep11 m ρ c) 2 (of_decide_eq_true rfl) main_v39 main_v44 main_v45 (Host.powf : (⟨S100000, .f32⟩ : BufTy).Contents (Elt F) → (⟨S100000, .f32⟩ : BufTy).Contents (Elt F) → (⟨S100000, .f32⟩ : BufTy).Contents (Elt F)) (by exact ⟨by decide, rfl⟩) (by exact ⟨by decide, rfl⟩) (by exact ⟨by decide, rfl⟩) rfl (by decide) (by decide) (by decide) (by decide) (by decide) (by decide)
theorem cst_14 (c : Dev nD) : W42 m ρ c (Proc.devRef .tc main_cst_14) = (constant S_ .f32 0xBF000000#32) :=
  fin_nullary (W42 m ρ c) (W10 m ρ c) hostOps1_4 Ws_hostOps1_4 hW_hostOps1_4 WF11 (keep11 m ρ c) 3 (of_decide_eq_true rfl) main_cst_14 (constant S_ .f32 0xBF000000#32) (by exact ⟨by decide, rfl⟩) rfl (by decide) (by decide)
theorem v46 (c : Dev nD) : W42 m ρ c (Proc.devRef .tc main_v46) = (broadcastInDim S100000 ![] bcast_S_S100000 : (⟨S_, .f32⟩ : BufTy).Contents (Elt F) → (⟨S100000, .f32⟩ : BufTy).Contents (Elt F)) (W42 m ρ c (Proc.devRef .tc main_cst_14)) :=
  fin_unary (W42 m ρ c) (W10 m ρ c) hostOps1_4 Ws_hostOps1_4 hW_hostOps1_4 WF11 (keep11 m ρ c) 4 (of_decide_eq_true rfl) main_cst_14 main_v46 (broadcastInDim S100000 ![] bcast_S_S100000 : (⟨S_, .f32⟩ : BufTy).Contents (Elt F) → (⟨S100000, .f32⟩ : BufTy).Contents (Elt F)) (by exact ⟨by decide, rfl⟩) (by exact ⟨by decide, rfl⟩) rfl (by decide) (by decide) (by decide) (by decide)
theorem v47 (c : Dev nD) : W42 m ρ c (Proc.devRef .tc main_v47) = (Host.powf : (⟨S100000, .f32⟩ : BufTy).Contents (Elt F) → (⟨S100000, .f32⟩ : BufTy).Contents (Elt F) → (⟨S100000, .f32⟩ : BufTy).Contents (Elt F)) (W42 m ρ c (Proc.devRef .tc main_v43)) (W42 m ρ c (Proc.devRef .tc main_v46)) :=
  fin_binary (W42 m ρ c) (W10 m ρ c) hostOps1_4 Ws_hostOps1_4 hW_hostOps1_4 WF11 (keep11 m ρ c) 5 (of_decide_eq_true rfl) main_v43 main_v46 main_v47 (Host.powf : (⟨S100000, .f32⟩ : BufTy).Contents (Elt F) → (⟨S100000, .f32⟩ : BufTy).Contents (Elt F) → (⟨S100000, .f32⟩ : BufTy).Contents (Elt F)) (by exact ⟨by decide, rfl⟩) (by exact ⟨by decide, rfl⟩) (by exact ⟨by decide, rfl⟩) rfl (by decide) (by decide) (by decide) (by decide) (by decide) (by decide)
theorem v48 (c : Dev nD) : W42 m ρ c (Proc.devRef .tc main_v48) = extractStridedSlice S1x256x128 ![1, 0, 0] (W42 m ρ c (Proc.devRef .tc main_arg3)) slices_S3x256x128_S1x256x128_1_0_0 := by
  have hop : (hostOps1_4 (F := F))[6]'(of_decide_eq_true rfl) = StableHlo.unary main_arg3 main_v48 (fun x => extractStridedSlice S1x256x128 ![1, 0, 0] x slices_S3x256x128_S1x256x128_1_0_0) := rfl
  have h := fin_unary (W42 m ρ c) (W10 m ρ c) hostOps1_4 Ws_hostOps1_4 hW_hostOps1_4 WF11 (keep11 m ρ c) 6 (of_decide_eq_true rfl) main_arg3 main_v48 _ _ _ hop (by decide) (by decide) (by decide) (by decide)
  exact h
theorem v49 (c : Dev nD) : W42 m ρ c (Proc.devRef .tc main_v49) = shapeCast _ (W42 m ρ c (Proc.devRef .tc main_v48)) shapeCasts_S1x256x128_S256x128 :=
  fin_reshape (W42 m ρ c) (W10 m ρ c) hostOps1_4 Ws_hostOps1_4 hW_hostOps1_4 WF11 (keep11 m ρ c) 7 (of_decide_eq_true rfl) main_v48 main_v49 rfl shapeCasts_S1x256x128_S256x128 (by exact ⟨by decide, rfl⟩) (by exact ⟨by decide, rfl⟩) rfl (by decide) (by decide) (by decide) (by decide)
theorem v50 (c : Dev nD) : W42 m ρ c (Proc.devRef .tc main_v50) = shapeCast _ (W42 m ρ c (Proc.devRef .tc main_v45)) shapeCasts_S100000_S100000x1 :=
  fin_reshape (W42 m ρ c) (W10 m ρ c) hostOps1_4 Ws_hostOps1_4 hW_hostOps1_4 WF11 (keep11 m ρ c) 8 (of_decide_eq_true rfl) main_v45 main_v50 rfl shapeCasts_S100000_S100000x1 (by exact ⟨by decide, rfl⟩) (by exact ⟨by decide, rfl⟩) rfl (by decide) (by decide) (by decide) (by decide)
theorem c_15 (c : Dev nD) : W42 m ρ c (Proc.devRef .tc main_c_15) = (constantI S_ 32 0#32) :=
  fin_nullary (W42 m ρ c) (W12 m ρ c) hostOps2 Ws_hostOps2 hW_hostOps2 WF13 (keep13 m ρ c) 0 (of_decide_eq_true rfl) main_c_15 (constantI S_ 32 0#32) (by exact ⟨by decide, rfl⟩) rfl (by decide) (by decide)
theorem v52 (c : Dev nD) : W42 m ρ c (Proc.devRef .tc main_v52) = (broadcastInDim S600000 ![] bcast_S_S600000 : (⟨S_, .i32⟩ : BufTy).Contents (Elt F) → (⟨S600000, .i32⟩ : BufTy).Contents (Elt F)) (W42 m ρ c (Proc.devRef .tc main_c_15)) :=
  fin_unary (W42 m ρ c) (W12 m ρ c) hostOps2 Ws_hostOps2 hW_hostOps2 WF13 (keep13 m ρ c) 1 (of_decide_eq_true rfl) main_c_15 main_v52 (broadcastInDim S600000 ![] bcast_S_S600000 : (⟨S_, .i32⟩ : BufTy).Contents (Elt F) → (⟨S600000, .i32⟩ : BufTy).Contents (Elt F)) (by exact ⟨by decide, rfl⟩) (by exact ⟨by decide, rfl⟩) rfl (by decide) (by decide) (by decide) (by decide)
theorem v53 (c : Dev nD) : W42 m ρ c (Proc.devRef .tc main_v53) = (cmpi .slt : (⟨S600000, .i32⟩ : BufTy).Contents (Elt F) → (⟨S600000, .i32⟩ : BufTy).Contents (Elt F) → (⟨S600000, .i1⟩ : BufTy).Contents (Elt F)) (W42 m ρ c (Proc.devRef .tc main_v32)) (W42 m ρ c (Proc.devRef .tc main_v52)) :=
  fin_binary (W42 m ρ c) (W12 m ρ c) hostOps2 Ws_hostOps2 hW_hostOps2 WF13 (keep13 m ρ c) 2 (of_decide_eq_true rfl) main_v32 main_v52 main_v53 (cmpi .slt : (⟨S600000, .i32⟩ : BufTy).Contents (Elt F) → (⟨S600000, .i32⟩ : BufTy).Contents (Elt F) → (⟨S600000, .i1⟩ : BufTy).Contents (Elt F)) (by exact ⟨by decide, rfl⟩) (by exact ⟨by decide, rfl⟩) (by exact ⟨by decide, rfl⟩) rfl (by decide) (by decide) (by decide) (by decide) (by decide) (by decide)
theorem c_16 (c : Dev nD) : W42 m ρ c (Proc.devRef .tc main_c_16) = (constantI S_ 32 100000#32) :=
  fin_nullary (W42 m ρ c) (W12 m ρ c) hostOps2 Ws_hostOps2 hW_hostOps2 WF13 (keep13 m ρ c) 3 (of_decide_eq_true rfl) main_c_16 (constantI S_ 32 100000#32) (by exact ⟨by decide, rfl⟩) rfl (by decide) (by decide)
theorem v54 (c : Dev nD) : W42 m ρ c (Proc.devRef .tc main_v54) = (broadcastInDim S600000 ![] bcast_S_S600000 : (⟨S_, .i32⟩ : BufTy).Contents (Elt F) → (⟨S600000, .i32⟩ : BufTy).Contents (Elt F)) (W42 m ρ c (Proc.devRef .tc main_c_16)) :=
  fin_unary (W42 m ρ c) (W12 m ρ c) hostOps2 Ws_hostOps2 hW_hostOps2 WF13 (keep13 m ρ c) 4 (of_decide_eq_true rfl) main_c_16 main_v54 (broadcastInDim S600000 ![] bcast_S_S600000 : (⟨S_, .i32⟩ : BufTy).Contents (Elt F) → (⟨S600000, .i32⟩ : BufTy).Contents (Elt F)) (by exact ⟨by decide, rfl⟩) (by exact ⟨by decide, rfl⟩) rfl (by decide) (by decide) (by decide) (by decide)
theorem v55 (c : Dev nD) : W42 m ρ c (Proc.devRef .tc main_v55) = (addi : (⟨S600000, .i32⟩ : BufTy).Contents (Elt F) → (⟨S600000, .i32⟩ : BufTy).Contents (Elt F) → (⟨S600000, .i32⟩ : BufTy).Contents (Elt F)) (W42 m ρ c (Proc.devRef .tc main_v32)) (W42 m ρ c (Proc.devRef .tc main_v54)) :=
  fin_binary (W42 m ρ c) (W12 m ρ c) hostOps2 Ws_hostOps2 hW_hostOps2 WF13 (keep13 m ρ c) 5 (of_decide_eq_true rfl) main_v32 main_v54 main_v55 (addi : (⟨S600000, .i32⟩ : BufTy).Contents (Elt F) → (⟨S600000, .i32⟩ : BufTy).Contents (Elt F) → (⟨S600000, .i32⟩ : BufTy).Contents (Elt F)) (by exact ⟨by decide, rfl⟩) (by exact ⟨by decide, rfl⟩) (by exact ⟨by decide, rfl⟩) rfl (by decide) (by decide) (by decide) (by decide) (by decide) (by decide)
theorem v56 (c : Dev nD) : W42 m ρ c (Proc.devRef .tc main_v56) = (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) (W42 m ρ c (Proc.devRef .tc main_v53)) (W42 m ρ c (Proc.devRef .tc main_v55)) (W42 m ρ c (Proc.devRef .tc main_v32)) :=
  fin_ternary (W42 m ρ c) (W12 m ρ c) hostOps2 Ws_hostOps2 hW_hostOps2 WF13 (keep13 m ρ c) 6 (of_decide_eq_true rfl) main_v53 main_v55 main_v32 main_v56 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) (by exact ⟨by decide, rfl⟩) (by exact ⟨by decide, rfl⟩) (by exact ⟨by decide, rfl⟩) (by exact ⟨by decide, rfl⟩) rfl (by decide) (by decide) (by decide) (by decide) (by decide) (by decide) (by decide) (by decide)
theorem v57 (c : Dev nD) : W42 m ρ c (Proc.devRef .tc main_v57) = (broadcastInDim S600000x1 ![0] bcast_S600000_S600000x1_0 : (⟨S600000, .i32⟩ : BufTy).Contents (Elt F) → (⟨S600000x1, .i32⟩ : BufTy).Contents (Elt F)) (W42 m ρ c (Proc.devRef .tc main_v56)) :=
  fin_unary (W42 m ρ c) (W12 m ρ c) hostOps2 Ws_hostOps2 hW_hostOps2 WF13 (keep13 m ρ c) 7 (of_decide_eq_true rfl) main_v56 main_v57 (broadcastInDim S600000x1 ![0] bcast_S600000_S600000x1_0 : (⟨S600000, .i32⟩ : BufTy).Contents (Elt F) → (⟨S600000x1, .i32⟩ : BufTy).Contents (Elt F)) (by exact ⟨by decide, rfl⟩) (by exact ⟨by decide, rfl⟩) rfl (by decide) (by decide) (by decide) (by decide)
theorem v58 (c : Dev nD) : W42 m ρ c (Proc.devRef .tc main_v58) = ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)) (W42 m ρ c (Proc.devRef .tc main_v51)) (W42 m ρ c (Proc.devRef .tc main_v57)) :=
  fin_binary (W42 m ρ c) (W12 m ρ c) hostOps2 Ws_hostOps2 hW_hostOps2 WF13 (keep13 m ρ c) 8 (of_decide_eq_true rfl) main_v51 main_v57 main_v58 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)) (by exact ⟨by decide, rfl⟩) (by exact ⟨by decide, rfl⟩) (by exact ⟨by decide, rfl⟩) rfl (by decide) (by decide) (by decide) (by decide) (by decide) (by decide)
theorem cst_17 (c : Dev nD) : W42 m ρ c (Proc.devRef .tc main_cst_17) = (constant S_ .f32 0x00000000#32) :=
  fin_nullary (W42 m ρ c) (W12 m ρ c) hostOps2 Ws_hostOps2 hW_hostOps2 WF13 (keep13 m ρ c) 9 (of_decide_eq_true rfl) main_cst_17 (constant S_ .f32 0x00000000#32) (by exact ⟨by decide, rfl⟩) rfl (by decide) (by decide)
theorem v59 (c : Dev nD) : W42 m ρ c (Proc.devRef .tc main_v59) = (broadcastInDim S100000x128 ![] bcast_S_S100000x128 : (⟨S_, .f32⟩ : BufTy).Contents (Elt F) → (⟨S100000x128, .f32⟩ : BufTy).Contents (Elt F)) (W42 m ρ c (Proc.devRef .tc main_cst_17)) :=
  fin_unary (W42 m ρ c) (W12 m ρ c) hostOps2 Ws_hostOps2 hW_hostOps2 WF13 (keep13 m ρ c) 10 (of_decide_eq_true rfl) main_cst_17 main_v59 (broadcastInDim S100000x128 ![] bcast_S_S100000x128 : (⟨S_, .f32⟩ : BufTy).Contents (Elt F) → (⟨S100000x128, .f32⟩ : BufTy).Contents (Elt F)) (by exact ⟨by decide, rfl⟩) (by exact ⟨by decide, rfl⟩) rfl (by decide) (by decide) (by decide) (by decide)
theorem v60 (c : Dev nD) : W42 m ρ c (Proc.devRef .tc main_v60) = (broadcastInDim S600000x1 ![0] bcast_S600000_S600000x1_0 : (⟨S600000, .i32⟩ : BufTy).Contents (Elt F) → (⟨S600000x1, .i32⟩ : BufTy).Contents (Elt F)) (W42 m ρ c (Proc.devRef .tc main_v34)) :=
  fin_unary (W42 m ρ c) (W12 m ρ c) hostOps2 Ws_hostOps2 hW_hostOps2 WF13 (keep13 m ρ c) 11 (of_decide_eq_true rfl) main_v34 main_v60 (broadcastInDim S600000x1 ![0] bcast_S600000_S600000x1_0 : (⟨S600000, .i32⟩ : BufTy).Contents (Elt F) → (⟨S600000x1, .i32⟩ : BufTy).Contents (Elt F)) (by exact ⟨by decide, rfl⟩) (by exact ⟨by decide, rfl⟩) rfl (by decide) (by decide) (by decide) (by decide)
theorem v61 (c : Dev nD) : W42 m ρ c (Proc.devRef .tc main_v61) = ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)) (W42 m ρ c (Proc.devRef .tc main_v59)) (W42 m ρ c (Proc.devRef .tc main_v60)) (W42 m ρ c (Proc.devRef .tc main_v58)) :=
  fin_ternary (W42 m ρ c) (W12 m ρ c) hostOps2 Ws_hostOps2 hW_hostOps2 WF13 (keep13 m ρ c) 12 (of_decide_eq_true rfl) main_v59 main_v60 main_v58 main_v61 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)) (by exact ⟨by decide, rfl⟩) (by exact ⟨by decide, rfl⟩) (by exact ⟨by decide, rfl⟩) (by exact ⟨by decide, rfl⟩) rfl (by decide) (by decide) (by decide) (by decide) (by decide) (by decide) (by decide) (by decide)
theorem v62 (c : Dev nD) : W42 m ρ c (Proc.devRef .tc main_v62) = extractStridedSlice S1x600000 ![2, 0] (W42 m ρ c (Proc.devRef .tc main_arg1)) slices_S3x600000_S1x600000_2_0 := by
  have hop : (hostOps2 (F := F))[13]'(of_decide_eq_true rfl) = StableHlo.unary main_arg1 main_v62 (fun x => extractStridedSlice S1x600000 ![2, 0] x slices_S3x600000_S1x600000_2_0) := rfl
  have h := fin_unary (W42 m ρ c) (W12 m ρ c) hostOps2 Ws_hostOps2 hW_hostOps2 WF13 (keep13 m ρ c) 13 (of_decide_eq_true rfl) main_arg1 main_v62 _ _ _ hop (by decide) (by decide) (by decide) (by decide)
  exact h
theorem v63 (c : Dev nD) : W42 m ρ c (Proc.devRef .tc main_v63) = shapeCast _ (W42 m ρ c (Proc.devRef .tc main_v62)) shapeCasts_S1x600000_S600000 :=
  fin_reshape (W42 m ρ c) (W12 m ρ c) hostOps2 Ws_hostOps2 hW_hostOps2 WF13 (keep13 m ρ c) 14 (of_decide_eq_true rfl) main_v62 main_v63 rfl shapeCasts_S1x600000_S600000 (by exact ⟨by decide, rfl⟩) (by exact ⟨by decide, rfl⟩) rfl (by decide) (by decide) (by decide) (by decide)
theorem v64 (c : Dev nD) : W42 m ρ c (Proc.devRef .tc main_v64) = extractStridedSlice S1x600000 ![2, 0] (W42 m ρ c (Proc.devRef .tc main_arg2)) slices_S3x600000_S1x600000_2_0 := by
  have hop : (hostOps2 (F := F))[15]'(of_decide_eq_true rfl) = StableHlo.unary main_arg2 main_v64 (fun x => extractStridedSlice S1x600000 ![2, 0] x slices_S3x600000_S1x600000_2_0) := rfl
  have h := fin_unary (W42 m ρ c) (W12 m ρ c) hostOps2 Ws_hostOps2 hW_hostOps2 WF13 (keep13 m ρ c) 15 (of_decide_eq_true rfl) main_arg2 main_v64 _ _ _ hop (by decide) (by decide) (by decide) (by decide)
  exact h
theorem v65 (c : Dev nD) : W42 m ρ c (Proc.devRef .tc main_v65) = shapeCast _ (W42 m ρ c (Proc.devRef .tc main_v64)) shapeCasts_S1x600000_S600000 :=
  fin_reshape (W42 m ρ c) (W12 m ρ c) hostOps2 Ws_hostOps2 hW_hostOps2 WF13 (keep13 m ρ c) 16 (of_decide_eq_true rfl) main_v64 main_v65 rfl shapeCasts_S1x600000_S600000 (by exact ⟨by decide, rfl⟩) (by exact ⟨by decide, rfl⟩) rfl (by decide) (by decide) (by decide) (by decide)
theorem cst_18 (c : Dev nD) : W42 m ρ c (Proc.devRef .tc main_cst_18) = (constant S_ .f32 0x3F800000#32) :=
  fin_nullary (W42 m ρ c) (W12 m ρ c) hostOps2 Ws_hostOps2 hW_hostOps2 WF13 (keep13 m ρ c) 17 (of_decide_eq_true rfl) main_cst_18 (constant S_ .f32 0x3F800000#32) (by exact ⟨by decide, rfl⟩) rfl (by decide) (by decide)
theorem v66 (c : Dev nD) : W42 m ρ c (Proc.devRef .tc main_v66) = (broadcastInDim S600000 ![] bcast_S_S600000 : (⟨S_, .f32⟩ : BufTy).Contents (Elt F) → (⟨S600000, .f32⟩ : BufTy).Contents (Elt F)) (W42 m ρ c (Proc.devRef .tc main_cst_18)) :=
  fin_unary (W42 m ρ c) (W12 m ρ c) hostOps2 Ws_hostOps2 hW_hostOps2 WF13 (keep13 m ρ c) 18 (of_decide_eq_true rfl) main_cst_18 main_v66 (broadcastInDim S600000 ![] bcast_S_S600000 : (⟨S_, .f32⟩ : BufTy).Contents (Elt F) → (⟨S600000, .f32⟩ : BufTy).Contents (Elt F)) (by exact ⟨by decide, rfl⟩) (by exact ⟨by decide, rfl⟩) rfl (by decide) (by decide) (by decide) (by decide)
theorem cst_19 (c : Dev nD) : W42 m ρ c (Proc.devRef .tc main_cst_19) = (constant S_ .f32 0x00000000#32) :=
  fin_nullary (W42 m ρ c) (W12 m ρ c) hostOps2 Ws_hostOps2 hW_hostOps2 WF13 (keep13 m ρ c) 19 (of_decide_eq_true rfl) main_cst_19 (constant S_ .f32 0x00000000#32) (by exact ⟨by decide, rfl⟩) rfl (by decide) (by decide)
theorem v67 (c : Dev nD) : W42 m ρ c (Proc.devRef .tc main_v67) = (broadcastInDim S100000 ![] bcast_S_S100000 : (⟨S_, .f32⟩ : BufTy).Contents (Elt F) → (⟨S100000, .f32⟩ : BufTy).Contents (Elt F)) (W42 m ρ c (Proc.devRef .tc main_cst_19)) :=
  fin_unary (W42 m ρ c) (W12 m ρ c) hostOps2 Ws_hostOps2 hW_hostOps2 WF13 (keep13 m ρ c) 20 (of_decide_eq_true rfl) main_cst_19 main_v67 (broadcastInDim S100000 ![] bcast_S_S100000 : (⟨S_, .f32⟩ : BufTy).Contents (Elt F) → (⟨S100000, .f32⟩ : BufTy).Contents (Elt F)) (by exact ⟨by decide, rfl⟩) (by exact ⟨by decide, rfl⟩) rfl (by decide) (by decide) (by decide) (by decide)
theorem v68 (c : Dev nD) : W42 m ρ c (Proc.devRef .tc main_v68) = (broadcastInDim S600000x1 ![0] bcast_S600000_S600000x1_0 : (⟨S600000, .i32⟩ : BufTy).Contents (Elt F) → (⟨S600000x1, .i32⟩ : BufTy).Contents (Elt F)) (W42 m ρ c (Proc.devRef .tc main_v63)) :=
  fin_unary (W42 m ρ c) (W12 m ρ c) hostOps2 Ws_hostOps2 hW_hostOps2 WF13 (keep13 m ρ c) 21 (of_decide_eq_true rfl) main_v63 main_v68 (broadcastInDim S600000x1 ![0] bcast_S600000_S600000x1_0 : (⟨S600000, .i32⟩ : BufTy).Contents (Elt F) → (⟨S600000x1, .i32⟩ : BufTy).Contents (Elt F)) (by exact ⟨by decide, rfl⟩) (by exact ⟨by decide, rfl⟩) rfl (by decide) (by decide) (by decide) (by decide)
theorem v69 (c : Dev nD) : W42 m ρ c (Proc.devRef .tc main_v69) = ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)) (W42 m ρ c (Proc.devRef .tc main_v67)) (W42 m ρ c (Proc.devRef .tc main_v68)) (W42 m ρ c (Proc.devRef .tc main_v66)) :=
  fin_ternary (W42 m ρ c) (W12 m ρ c) hostOps2 Ws_hostOps2 hW_hostOps2 WF13 (keep13 m ρ c) 22 (of_decide_eq_true rfl) main_v67 main_v68 main_v66 main_v69 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)) (by exact ⟨by decide, rfl⟩) (by exact ⟨by decide, rfl⟩) (by exact ⟨by decide, rfl⟩) (by exact ⟨by decide, rfl⟩) rfl (by decide) (by decide) (by decide) (by decide) (by decide) (by decide) (by decide) (by decide)
theorem cst_20 (c : Dev nD) : W42 m ρ c (Proc.devRef .tc main_cst_20) = (constant S_ .f32 0x3F800000#32) :=
  fin_nullary (W42 m ρ c) (W12 m ρ c) hostOps2 Ws_hostOps2 hW_hostOps2 WF13 (keep13 m ρ c) 23 (of_decide_eq_true rfl) main_cst_20 (constant S_ .f32 0x3F800000#32) (by exact ⟨by decide, rfl⟩) rfl (by decide) (by decide)
theorem call4_v0 (c : Dev nD) : W42 m ρ c (Proc.devRef .tc main_call4_v0) = W42 m ρ c (Proc.devRef .tc main_cst_20) :=
  fin_unary (W42 m ρ c) (W13 m ρ c) hostOps2_1 Ws_hostOps2_1 hW_hostOps2_1 WF14 (keep14 m ρ c) 0 (of_decide_eq_true rfl) main_cst_20 main_call4_v0 (fun u => u) (by exact ⟨by decide, rfl⟩) (by exact ⟨by decide, rfl⟩) rfl (by decide) (by decide) (by decide) (by decide)
theorem call4_v1 (c : Dev nD) : W42 m ρ c (Proc.devRef .tc main_call4_v1) = (broadcastInDim S100000 ![] bcast_S_S100000) (W42 m ρ c (Proc.devRef .tc main_call4_v0)) :=
  fin_unary (W42 m ρ c) (W13 m ρ c) hostOps2_1 Ws_hostOps2_1 hW_hostOps2_1 WF14 (keep14 m ρ c) 1 (of_decide_eq_true rfl) main_call4_v0 main_call4_v1 _ (by exact ⟨by decide, rfl⟩) (by exact ⟨by decide, rfl⟩) rfl (by decide) (by decide) (by decide) (by decide)
theorem v70 (c : Dev nD) : W42 m ρ c (Proc.devRef .tc main_v70) = maximumf (W42 m ρ c (Proc.devRef .tc main_call4_v1)) (W42 m ρ c (Proc.devRef .tc main_v69)) :=
  fin_binary (W42 m ρ c) (W13 m ρ c) hostOps2_1 Ws_hostOps2_1 hW_hostOps2_1 WF14 (keep14 m ρ c) 2 (of_decide_eq_true rfl) main_call4_v1 main_v69 main_v70 _ (by exact ⟨by decide, rfl⟩) (by exact ⟨by decide, rfl⟩) (by exact ⟨by decide, rfl⟩) rfl (by decide) (by decide) (by decide) (by decide) (by decide) (by decide)
theorem cst_21 (c : Dev nD) : W42 m ρ c (Proc.devRef .tc main_cst_21) = (constant S_ .f32 0x00000000#32) :=
  fin_nullary (W42 m ρ c) (W14 m ρ c) hostOps2_2 Ws_hostOps2_2 hW_hostOps2_2 WF15 (keep15 m ρ c) 0 (of_decide_eq_true rfl) main_cst_21 (constant S_ .f32 0x00000000#32) (by exact ⟨by decide, rfl⟩) rfl (by decide) (by decide)
theorem v71 (c : Dev nD) : W42 m ρ c (Proc.devRef .tc main_v71) = (broadcastInDim S100000 ![] bcast_S_S100000 : (⟨S_, .f32⟩ : BufTy).Contents (Elt F) → (⟨S100000, .f32⟩ : BufTy).Contents (Elt F)) (W42 m ρ c (Proc.devRef .tc main_cst_21)) :=
  fin_unary (W42 m ρ c) (W14 m ρ c) hostOps2_2 Ws_hostOps2_2 hW_hostOps2_2 WF15 (keep15 m ρ c) 1 (of_decide_eq_true rfl) main_cst_21 main_v71 (broadcastInDim S100000 ![] bcast_S_S100000 : (⟨S_, .f32⟩ : BufTy).Contents (Elt F) → (⟨S100000, .f32⟩ : BufTy).Contents (Elt F)) (by exact ⟨by decide, rfl⟩) (by exact ⟨by decide, rfl⟩) rfl (by decide) (by decide) (by decide) (by decide)
theorem v72 (c : Dev nD) : W42 m ρ c (Proc.devRef .tc main_v72) = (broadcastInDim S600000x1 ![0] bcast_S600000_S600000x1_0 : (⟨S600000, .i32⟩ : BufTy).Contents (Elt F) → (⟨S600000x1, .i32⟩ : BufTy).Contents (Elt F)) (W42 m ρ c (Proc.devRef .tc main_v65)) :=
  fin_unary (W42 m ρ c) (W14 m ρ c) hostOps2_2 Ws_hostOps2_2 hW_hostOps2_2 WF15 (keep15 m ρ c) 2 (of_decide_eq_true rfl) main_v65 main_v72 (broadcastInDim S600000x1 ![0] bcast_S600000_S600000x1_0 : (⟨S600000, .i32⟩ : BufTy).Contents (Elt F) → (⟨S600000x1, .i32⟩ : BufTy).Contents (Elt F)) (by exact ⟨by decide, rfl⟩) (by exact ⟨by decide, rfl⟩) rfl (by decide) (by decide) (by decide) (by decide)
theorem v73 (c : Dev nD) : W42 m ρ c (Proc.devRef .tc main_v73) = ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)) (W42 m ρ c (Proc.devRef .tc main_v71)) (W42 m ρ c (Proc.devRef .tc main_v72)) (W42 m ρ c (Proc.devRef .tc main_v66)) :=
  fin_ternary (W42 m ρ c) (W14 m ρ c) hostOps2_2 Ws_hostOps2_2 hW_hostOps2_2 WF15 (keep15 m ρ c) 3 (of_decide_eq_true rfl) main_v71 main_v72 main_v66 main_v73 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)) (by exact ⟨by decide, rfl⟩) (by exact ⟨by decide, rfl⟩) (by exact ⟨by decide, rfl⟩) (by exact ⟨by decide, rfl⟩) rfl (by decide) (by decide) (by decide) (by decide) (by decide) (by decide) (by decide) (by decide)
theorem cst_22 (c : Dev nD) : W42 m ρ c (Proc.devRef .tc main_cst_22) = (constant S_ .f32 0x3F800000#32) :=
  fin_nullary (W42 m ρ c) (W14 m ρ c) hostOps2_2 Ws_hostOps2_2 hW_hostOps2_2 WF15 (keep15 m ρ c) 4 (of_decide_eq_true rfl) main_cst_22 (constant S_ .f32 0x3F800000#32) (by exact ⟨by decide, rfl⟩) rfl (by decide) (by decide)
theorem call5_v0 (c : Dev nD) : W42 m ρ c (Proc.devRef .tc main_call5_v0) = W42 m ρ c (Proc.devRef .tc main_cst_22) :=
  fin_unary (W42 m ρ c) (W15 m ρ c) hostOps2_3 Ws_hostOps2_3 hW_hostOps2_3 WF16 (keep16 m ρ c) 0 (of_decide_eq_true rfl) main_cst_22 main_call5_v0 (fun u => u) (by exact ⟨by decide, rfl⟩) (by exact ⟨by decide, rfl⟩) rfl (by decide) (by decide) (by decide) (by decide)
theorem call5_v1 (c : Dev nD) : W42 m ρ c (Proc.devRef .tc main_call5_v1) = (broadcastInDim S100000 ![] bcast_S_S100000) (W42 m ρ c (Proc.devRef .tc main_call5_v0)) :=
  fin_unary (W42 m ρ c) (W15 m ρ c) hostOps2_3 Ws_hostOps2_3 hW_hostOps2_3 WF16 (keep16 m ρ c) 1 (of_decide_eq_true rfl) main_call5_v0 main_call5_v1 _ (by exact ⟨by decide, rfl⟩) (by exact ⟨by decide, rfl⟩) rfl (by decide) (by decide) (by decide) (by decide)
theorem v74 (c : Dev nD) : W42 m ρ c (Proc.devRef .tc main_v74) = maximumf (W42 m ρ c (Proc.devRef .tc main_call5_v1)) (W42 m ρ c (Proc.devRef .tc main_v73)) :=
  fin_binary (W42 m ρ c) (W15 m ρ c) hostOps2_3 Ws_hostOps2_3 hW_hostOps2_3 WF16 (keep16 m ρ c) 2 (of_decide_eq_true rfl) main_call5_v1 main_v73 main_v74 _ (by exact ⟨by decide, rfl⟩) (by exact ⟨by decide, rfl⟩) (by exact ⟨by decide, rfl⟩) rfl (by decide) (by decide) (by decide) (by decide) (by decide) (by decide)
theorem cst_23 (c : Dev nD) : W42 m ρ c (Proc.devRef .tc main_cst_23) = (constant S_ .f32 0xBF000000#32) :=
  fin_nullary (W42 m ρ c) (W16 m ρ c) hostOps2_4 Ws_hostOps2_4 hW_hostOps2_4 WF17 (keep17 m ρ c) 0 (of_decide_eq_true rfl) main_cst_23 (constant S_ .f32 0xBF000000#32) (by exact ⟨by decide, rfl⟩) rfl (by decide) (by decide)
theorem v75 (c : Dev nD) : W42 m ρ c (Proc.devRef .tc main_v75) = (broadcastInDim S100000 ![] bcast_S_S100000 : (⟨S_, .f32⟩ : BufTy).Contents (Elt F) → (⟨S100000, .f32⟩ : BufTy).Contents (Elt F)) (W42 m ρ c (Proc.devRef .tc main_cst_23)) :=
  fin_unary (W42 m ρ c) (W16 m ρ c) hostOps2_4 Ws_hostOps2_4 hW_hostOps2_4 WF17 (keep17 m ρ c) 1 (of_decide_eq_true rfl) main_cst_23 main_v75 (broadcastInDim S100000 ![] bcast_S_S100000 : (⟨S_, .f32⟩ : BufTy).Contents (Elt F) → (⟨S100000, .f32⟩ : BufTy).Contents (Elt F)) (by exact ⟨by decide, rfl⟩) (by exact ⟨by decide, rfl⟩) rfl (by decide) (by decide) (by decide) (by decide)
theorem v76 (c : Dev nD) : W42 m ρ c (Proc.devRef .tc main_v76) = (Host.powf : (⟨S100000, .f32⟩ : BufTy).Contents (Elt F) → (⟨S100000, .f32⟩ : BufTy).Contents (Elt F) → (⟨S100000, .f32⟩ : BufTy).Contents (Elt F)) (W42 m ρ c (Proc.devRef .tc main_v70)) (W42 m ρ c (Proc.devRef .tc main_v75)) :=
  fin_binary (W42 m ρ c) (W16 m ρ c) hostOps2_4 Ws_hostOps2_4 hW_hostOps2_4 WF17 (keep17 m ρ c) 2 (of_decide_eq_true rfl) main_v70 main_v75 main_v76 (Host.powf : (⟨S100000, .f32⟩ : BufTy).Contents (Elt F) → (⟨S100000, .f32⟩ : BufTy).Contents (Elt F) → (⟨S100000, .f32⟩ : BufTy).Contents (Elt F)) (by exact ⟨by decide, rfl⟩) (by exact ⟨by decide, rfl⟩) (by exact ⟨by decide, rfl⟩) rfl (by decide) (by decide) (by decide) (by decide) (by decide) (by decide)
theorem cst_24 (c : Dev nD) : W42 m ρ c (Proc.devRef .tc main_cst_24) = (constant S_ .f32 0xBF000000#32) :=
  fin_nullary (W42 m ρ c) (W16 m ρ c) hostOps2_4 Ws_hostOps2_4 hW_hostOps2_4 WF17 (keep17 m ρ c) 3 (of_decide_eq_true rfl) main_cst_24 (constant S_ .f32 0xBF000000#32) (by exact ⟨by decide, rfl⟩) rfl (by decide) (by decide)
theorem v77 (c : Dev nD) : W42 m ρ c (Proc.devRef .tc main_v77) = (broadcastInDim S100000 ![] bcast_S_S100000 : (⟨S_, .f32⟩ : BufTy).Contents (Elt F) → (⟨S100000, .f32⟩ : BufTy).Contents (Elt F)) (W42 m ρ c (Proc.devRef .tc main_cst_24)) :=
  fin_unary (W42 m ρ c) (W16 m ρ c) hostOps2_4 Ws_hostOps2_4 hW_hostOps2_4 WF17 (keep17 m ρ c) 4 (of_decide_eq_true rfl) main_cst_24 main_v77 (broadcastInDim S100000 ![] bcast_S_S100000 : (⟨S_, .f32⟩ : BufTy).Contents (Elt F) → (⟨S100000, .f32⟩ : BufTy).Contents (Elt F)) (by exact ⟨by decide, rfl⟩) (by exact ⟨by decide, rfl⟩) rfl (by decide) (by decide) (by decide) (by decide)
theorem v78 (c : Dev nD) : W42 m ρ c (Proc.devRef .tc main_v78) = (Host.powf : (⟨S100000, .f32⟩ : BufTy).Contents (Elt F) → (⟨S100000, .f32⟩ : BufTy).Contents (Elt F) → (⟨S100000, .f32⟩ : BufTy).Contents (Elt F)) (W42 m ρ c (Proc.devRef .tc main_v74)) (W42 m ρ c (Proc.devRef .tc main_v77)) :=
  fin_binary (W42 m ρ c) (W16 m ρ c) hostOps2_4 Ws_hostOps2_4 hW_hostOps2_4 WF17 (keep17 m ρ c) 5 (of_decide_eq_true rfl) main_v74 main_v77 main_v78 (Host.powf : (⟨S100000, .f32⟩ : BufTy).Contents (Elt F) → (⟨S100000, .f32⟩ : BufTy).Contents (Elt F) → (⟨S100000, .f32⟩ : BufTy).Contents (Elt F)) (by exact ⟨by decide, rfl⟩) (by exact ⟨by decide, rfl⟩) (by exact ⟨by decide, rfl⟩) rfl (by decide) (by decide) (by decide) (by decide) (by decide) (by decide)
theorem v79 (c : Dev nD) : W42 m ρ c (Proc.devRef .tc main_v79) = extractStridedSlice S1x256x128 ![2, 0, 0] (W42 m ρ c (Proc.devRef .tc main_arg3)) slices_S3x256x128_S1x256x128_2_0_0 := by
  have hop : (hostOps2_4 (F := F))[6]'(of_decide_eq_true rfl) = StableHlo.unary main_arg3 main_v79 (fun x => extractStridedSlice S1x256x128 ![2, 0, 0] x slices_S3x256x128_S1x256x128_2_0_0) := rfl
  have h := fin_unary (W42 m ρ c) (W16 m ρ c) hostOps2_4 Ws_hostOps2_4 hW_hostOps2_4 WF17 (keep17 m ρ c) 6 (of_decide_eq_true rfl) main_arg3 main_v79 _ _ _ hop (by decide) (by decide) (by decide) (by decide)
  exact h
theorem v80 (c : Dev nD) : W42 m ρ c (Proc.devRef .tc main_v80) = shapeCast _ (W42 m ρ c (Proc.devRef .tc main_v79)) shapeCasts_S1x256x128_S256x128 :=
  fin_reshape (W42 m ρ c) (W16 m ρ c) hostOps2_4 Ws_hostOps2_4 hW_hostOps2_4 WF17 (keep17 m ρ c) 7 (of_decide_eq_true rfl) main_v79 main_v80 rfl shapeCasts_S1x256x128_S256x128 (by exact ⟨by decide, rfl⟩) (by exact ⟨by decide, rfl⟩) rfl (by decide) (by decide) (by decide) (by decide)
theorem v81 (c : Dev nD) : W42 m ρ c (Proc.devRef .tc main_v81) = shapeCast _ (W42 m ρ c (Proc.devRef .tc main_v76)) shapeCasts_S100000_S100000x1 :=
  fin_reshape (W42 m ρ c) (W16 m ρ c) hostOps2_4 Ws_hostOps2_4 hW_hostOps2_4 WF17 (keep17 m ρ c) 8 (of_decide_eq_true rfl) main_v76 main_v81 rfl shapeCasts_S100000_S100000x1 (by exact ⟨by decide, rfl⟩) (by exact ⟨by decide, rfl⟩) rfl (by decide) (by decide) (by decide) (by decide)
theorem c_25 (c : Dev nD) : W42 m ρ c (Proc.devRef .tc main_c_25) = (constantI S_ 32 0#32) :=
  fin_nullary (W42 m ρ c) (W18 m ρ c) hostOps3 Ws_hostOps3 hW_hostOps3 WF19 (keep19 m ρ c) 0 (of_decide_eq_true rfl) main_c_25 (constantI S_ 32 0#32) (by exact ⟨by decide, rfl⟩) rfl (by decide) (by decide)
theorem v83 (c : Dev nD) : W42 m ρ c (Proc.devRef .tc main_v83) = (broadcastInDim S600000 ![] bcast_S_S600000 : (⟨S_, .i32⟩ : BufTy).Contents (Elt F) → (⟨S600000, .i32⟩ : BufTy).Contents (Elt F)) (W42 m ρ c (Proc.devRef .tc main_c_25)) :=
  fin_unary (W42 m ρ c) (W18 m ρ c) hostOps3 Ws_hostOps3 hW_hostOps3 WF19 (keep19 m ρ c) 1 (of_decide_eq_true rfl) main_c_25 main_v83 (broadcastInDim S600000 ![] bcast_S_S600000 : (⟨S_, .i32⟩ : BufTy).Contents (Elt F) → (⟨S600000, .i32⟩ : BufTy).Contents (Elt F)) (by exact ⟨by decide, rfl⟩) (by exact ⟨by decide, rfl⟩) rfl (by decide) (by decide) (by decide) (by decide)
theorem v84 (c : Dev nD) : W42 m ρ c (Proc.devRef .tc main_v84) = (cmpi .slt : (⟨S600000, .i32⟩ : BufTy).Contents (Elt F) → (⟨S600000, .i32⟩ : BufTy).Contents (Elt F) → (⟨S600000, .i1⟩ : BufTy).Contents (Elt F)) (W42 m ρ c (Proc.devRef .tc main_v63)) (W42 m ρ c (Proc.devRef .tc main_v83)) :=
  fin_binary (W42 m ρ c) (W18 m ρ c) hostOps3 Ws_hostOps3 hW_hostOps3 WF19 (keep19 m ρ c) 2 (of_decide_eq_true rfl) main_v63 main_v83 main_v84 (cmpi .slt : (⟨S600000, .i32⟩ : BufTy).Contents (Elt F) → (⟨S600000, .i32⟩ : BufTy).Contents (Elt F) → (⟨S600000, .i1⟩ : BufTy).Contents (Elt F)) (by exact ⟨by decide, rfl⟩) (by exact ⟨by decide, rfl⟩) (by exact ⟨by decide, rfl⟩) rfl (by decide) (by decide) (by decide) (by decide) (by decide) (by decide)
theorem c_26 (c : Dev nD) : W42 m ρ c (Proc.devRef .tc main_c_26) = (constantI S_ 32 100000#32) :=
  fin_nullary (W42 m ρ c) (W18 m ρ c) hostOps3 Ws_hostOps3 hW_hostOps3 WF19 (keep19 m ρ c) 3 (of_decide_eq_true rfl) main_c_26 (constantI S_ 32 100000#32) (by exact ⟨by decide, rfl⟩) rfl (by decide) (by decide)
theorem v85 (c : Dev nD) : W42 m ρ c (Proc.devRef .tc main_v85) = (broadcastInDim S600000 ![] bcast_S_S600000 : (⟨S_, .i32⟩ : BufTy).Contents (Elt F) → (⟨S600000, .i32⟩ : BufTy).Contents (Elt F)) (W42 m ρ c (Proc.devRef .tc main_c_26)) :=
  fin_unary (W42 m ρ c) (W18 m ρ c) hostOps3 Ws_hostOps3 hW_hostOps3 WF19 (keep19 m ρ c) 4 (of_decide_eq_true rfl) main_c_26 main_v85 (broadcastInDim S600000 ![] bcast_S_S600000 : (⟨S_, .i32⟩ : BufTy).Contents (Elt F) → (⟨S600000, .i32⟩ : BufTy).Contents (Elt F)) (by exact ⟨by decide, rfl⟩) (by exact ⟨by decide, rfl⟩) rfl (by decide) (by decide) (by decide) (by decide)
theorem v86 (c : Dev nD) : W42 m ρ c (Proc.devRef .tc main_v86) = (addi : (⟨S600000, .i32⟩ : BufTy).Contents (Elt F) → (⟨S600000, .i32⟩ : BufTy).Contents (Elt F) → (⟨S600000, .i32⟩ : BufTy).Contents (Elt F)) (W42 m ρ c (Proc.devRef .tc main_v63)) (W42 m ρ c (Proc.devRef .tc main_v85)) :=
  fin_binary (W42 m ρ c) (W18 m ρ c) hostOps3 Ws_hostOps3 hW_hostOps3 WF19 (keep19 m ρ c) 5 (of_decide_eq_true rfl) main_v63 main_v85 main_v86 (addi : (⟨S600000, .i32⟩ : BufTy).Contents (Elt F) → (⟨S600000, .i32⟩ : BufTy).Contents (Elt F) → (⟨S600000, .i32⟩ : BufTy).Contents (Elt F)) (by exact ⟨by decide, rfl⟩) (by exact ⟨by decide, rfl⟩) (by exact ⟨by decide, rfl⟩) rfl (by decide) (by decide) (by decide) (by decide) (by decide) (by decide)
theorem v87 (c : Dev nD) : W42 m ρ c (Proc.devRef .tc main_v87) = (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) (W42 m ρ c (Proc.devRef .tc main_v84)) (W42 m ρ c (Proc.devRef .tc main_v86)) (W42 m ρ c (Proc.devRef .tc main_v63)) :=
  fin_ternary (W42 m ρ c) (W18 m ρ c) hostOps3 Ws_hostOps3 hW_hostOps3 WF19 (keep19 m ρ c) 6 (of_decide_eq_true rfl) main_v84 main_v86 main_v63 main_v87 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) (by exact ⟨by decide, rfl⟩) (by exact ⟨by decide, rfl⟩) (by exact ⟨by decide, rfl⟩) (by exact ⟨by decide, rfl⟩) rfl (by decide) (by decide) (by decide) (by decide) (by decide) (by decide) (by decide) (by decide)
theorem v88 (c : Dev nD) : W42 m ρ c (Proc.devRef .tc main_v88) = (broadcastInDim S600000x1 ![0] bcast_S600000_S600000x1_0 : (⟨S600000, .i32⟩ : BufTy).Contents (Elt F) → (⟨S600000x1, .i32⟩ : BufTy).Contents (Elt F)) (W42 m ρ c (Proc.devRef .tc main_v87)) :=
  fin_unary (W42 m ρ c) (W18 m ρ c) hostOps3 Ws_hostOps3 hW_hostOps3 WF19 (keep19 m ρ c) 7 (of_decide_eq_true rfl) main_v87 main_v88 (broadcastInDim S600000x1 ![0] bcast_S600000_S600000x1_0 : (⟨S600000, .i32⟩ : BufTy).Contents (Elt F) → (⟨S600000x1, .i32⟩ : BufTy).Contents (Elt F)) (by exact ⟨by decide, rfl⟩) (by exact ⟨by decide, rfl⟩) rfl (by decide) (by decide) (by decide) (by decide)
theorem v89 (c : Dev nD) : W42 m ρ c (Proc.devRef .tc main_v89) = ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)) (W42 m ρ c (Proc.devRef .tc main_v82)) (W42 m ρ c (Proc.devRef .tc main_v88)) :=
  fin_binary (W42 m ρ c) (W18 m ρ c) hostOps3 Ws_hostOps3 hW_hostOps3 WF19 (keep19 m ρ c) 8 (of_decide_eq_true rfl) main_v82 main_v88 main_v89 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)) (by exact ⟨by decide, rfl⟩) (by exact ⟨by decide, rfl⟩) (by exact ⟨by decide, rfl⟩) rfl (by decide) (by decide) (by decide) (by decide) (by decide) (by decide)
theorem cst_27 (c : Dev nD) : W42 m ρ c (Proc.devRef .tc main_cst_27) = (constant S_ .f32 0x00000000#32) :=
  fin_nullary (W42 m ρ c) (W18 m ρ c) hostOps3 Ws_hostOps3 hW_hostOps3 WF19 (keep19 m ρ c) 9 (of_decide_eq_true rfl) main_cst_27 (constant S_ .f32 0x00000000#32) (by exact ⟨by decide, rfl⟩) rfl (by decide) (by decide)
theorem v90 (c : Dev nD) : W42 m ρ c (Proc.devRef .tc main_v90) = (broadcastInDim S100000x128 ![] bcast_S_S100000x128 : (⟨S_, .f32⟩ : BufTy).Contents (Elt F) → (⟨S100000x128, .f32⟩ : BufTy).Contents (Elt F)) (W42 m ρ c (Proc.devRef .tc main_cst_27)) :=
  fin_unary (W42 m ρ c) (W18 m ρ c) hostOps3 Ws_hostOps3 hW_hostOps3 WF19 (keep19 m ρ c) 10 (of_decide_eq_true rfl) main_cst_27 main_v90 (broadcastInDim S100000x128 ![] bcast_S_S100000x128 : (⟨S_, .f32⟩ : BufTy).Contents (Elt F) → (⟨S100000x128, .f32⟩ : BufTy).Contents (Elt F)) (by exact ⟨by decide, rfl⟩) (by exact ⟨by decide, rfl⟩) rfl (by decide) (by decide) (by decide) (by decide)
theorem v91 (c : Dev nD) : W42 m ρ c (Proc.devRef .tc main_v91) = (broadcastInDim S600000x1 ![0] bcast_S600000_S600000x1_0 : (⟨S600000, .i32⟩ : BufTy).Contents (Elt F) → (⟨S600000x1, .i32⟩ : BufTy).Contents (Elt F)) (W42 m ρ c (Proc.devRef .tc main_v65)) :=
  fin_unary (W42 m ρ c) (W18 m ρ c) hostOps3 Ws_hostOps3 hW_hostOps3 WF19 (keep19 m ρ c) 11 (of_decide_eq_true rfl) main_v65 main_v91 (broadcastInDim S600000x1 ![0] bcast_S600000_S600000x1_0 : (⟨S600000, .i32⟩ : BufTy).Contents (Elt F) → (⟨S600000x1, .i32⟩ : BufTy).Contents (Elt F)) (by exact ⟨by decide, rfl⟩) (by exact ⟨by decide, rfl⟩) rfl (by decide) (by decide) (by decide) (by decide)
theorem v92 (c : Dev nD) : W42 m ρ c (Proc.devRef .tc main_v92) = ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)) (W42 m ρ c (Proc.devRef .tc main_v90)) (W42 m ρ c (Proc.devRef .tc main_v91)) (W42 m ρ c (Proc.devRef .tc main_v89)) :=
  fin_ternary (W42 m ρ c) (W18 m ρ c) hostOps3 Ws_hostOps3 hW_hostOps3 WF19 (keep19 m ρ c) 12 (of_decide_eq_true rfl) main_v90 main_v91 main_v89 main_v92 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)) (by exact ⟨by decide, rfl⟩) (by exact ⟨by decide, rfl⟩) (by exact ⟨by decide, rfl⟩) (by exact ⟨by decide, rfl⟩) rfl (by decide) (by decide) (by decide) (by decide) (by decide) (by decide) (by decide) (by decide)
theorem cst_28 (c : Dev nD) : W42 m ρ c (Proc.devRef .tc main_cst_28) = (constant S_ .f32 0x00000000#32) :=
  fin_nullary (W42 m ρ c) (W18 m ρ c) hostOps3 Ws_hostOps3 hW_hostOps3 WF19 (keep19 m ρ c) 13 (of_decide_eq_true rfl) main_cst_28 (constant S_ .f32 0x00000000#32) (by exact ⟨by decide, rfl⟩) rfl (by decide) (by decide)
theorem v93 (c : Dev nD) : W42 m ρ c (Proc.devRef .tc main_v93) = ((fun x v => Host.reduceAdd x v reducesTo_S3x128_S128_d0 h_S_) : (⟨S3x128, .f32⟩ : BufTy).Contents (Elt F) → (⟨S_, .f32⟩ : BufTy).Contents (Elt F) → (⟨S128, .f32⟩ : BufTy).Contents (Elt F)) (W42 m ρ c (Proc.devRef .tc main_arg4)) (W42 m ρ c (Proc.devRef .tc main_cst_28)) :=
  fin_binary (W42 m ρ c) (W18 m ρ c) hostOps3 Ws_hostOps3 hW_hostOps3 WF19 (keep19 m ρ c) 14 (of_decide_eq_true rfl) main_arg4 main_cst_28 main_v93 ((fun x v => Host.reduceAdd x v reducesTo_S3x128_S128_d0 h_S_) : (⟨S3x128, .f32⟩ : BufTy).Contents (Elt F) → (⟨S_, .f32⟩ : BufTy).Contents (Elt F) → (⟨S128, .f32⟩ : BufTy).Contents (Elt F)) (by exact ⟨by decide, rfl⟩) (by exact ⟨by decide, rfl⟩) (by exact ⟨by decide, rfl⟩) rfl (by decide) (by decide) (by decide) (by decide) (by decide) (by decide)
theorem v94 (c : Dev nD) : W42 m ρ c (Proc.devRef .tc main_v94) = shapeCast _ (W42 m ρ c (Proc.devRef .tc main_v93)) shapeCasts_S128_S1x128 :=
  fin_reshape (W42 m ρ c) (W18 m ρ c) hostOps3 Ws_hostOps3 hW_hostOps3 WF19 (keep19 m ρ c) 15 (of_decide_eq_true rfl) main_v93 main_v94 rfl shapeCasts_S128_S1x128 (by exact ⟨by decide, rfl⟩) (by exact ⟨by decide, rfl⟩) rfl (by decide) (by decide) (by decide) (by decide)
theorem v95 (c : Dev nD) : W42 m ρ c (Proc.devRef .tc main_v95) = shapeCast _ (W42 m ρ c (Proc.devRef .tc main_v16)) shapeCasts_S100000_S100000x1 :=
  fin_reshape (W42 m ρ c) (W18 m ρ c) hostOps3 Ws_hostOps3 hW_hostOps3 WF19 (keep19 m ρ c) 16 (of_decide_eq_true rfl) main_v16 main_v95 rfl shapeCasts_S100000_S100000x1 (by exact ⟨by decide, rfl⟩) (by exact ⟨by decide, rfl⟩) rfl (by decide) (by decide) (by decide) (by decide)
theorem v96 (c : Dev nD) : W42 m ρ c (Proc.devRef .tc main_v96) = shapeCast _ (W42 m ρ c (Proc.devRef .tc main_v47)) shapeCasts_S100000_S100000x1 :=
  fin_reshape (W42 m ρ c) (W18 m ρ c) hostOps3 Ws_hostOps3 hW_hostOps3 WF19 (keep19 m ρ c) 17 (of_decide_eq_true rfl) main_v47 main_v96 rfl shapeCasts_S100000_S100000x1 (by exact ⟨by decide, rfl⟩) (by exact ⟨by decide, rfl⟩) rfl (by decide) (by decide) (by decide) (by decide)
theorem v97 (c : Dev nD) : W42 m ρ c (Proc.devRef .tc main_v97) = shapeCast _ (W42 m ρ c (Proc.devRef .tc main_v78)) shapeCasts_S100000_S100000x1 :=
  fin_reshape (W42 m ρ c) (W18 m ρ c) hostOps3 Ws_hostOps3 hW_hostOps3 WF19 (keep19 m ρ c) 18 (of_decide_eq_true rfl) main_v78 main_v97 rfl shapeCasts_S100000_S100000x1 (by exact ⟨by decide, rfl⟩) (by exact ⟨by decide, rfl⟩) rfl (by decide) (by decide) (by decide) (by decide)

end Cert.KernelIdeal.Rd

end
-- ==== Proof.KernelReads2.lean ====
/-
  The idealized kernel program's host operations read at the last boundary's contents Z: each operation's result buffer holds
  the operation's function of what its operand buffers hold there (every buffer is written once, operands before results).  Part 2.
-/
import proofs.«124848_j55800215109809_1_alg».proof.Proof.KernelChain
import proofs.«124848_j55800215109809_1_alg».proof.Proof.LibAfterLater

set_option maxRecDepth 16384

noncomputable section

namespace Cert.KernelIdeal.Rd

open Cert.KernelIdeal Cert.KernelIdeal.Gen Cert.KernelIdeal.Chain Cert.LibAfter
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

theorem v99 (c : Dev nD) : W42 m ρ c (Proc.devRef .tc main_v99) = extractStridedSlice S1x600000 ![0, 0] (W42 m ρ c (Proc.devRef .tc main_arg1)) slices_S3x600000_S1x600000_0_0 := by
  have hop : (hostOps4 (F := F))[0]'(of_decide_eq_true rfl) = StableHlo.unary main_arg1 main_v99 (fun x => extractStridedSlice S1x600000 ![0, 0] x slices_S3x600000_S1x600000_0_0) := rfl
  have h := fin_unary (W42 m ρ c) (W20 m ρ c) hostOps4 Ws_hostOps4 hW_hostOps4 WF21 (keep21 m ρ c) 0 (of_decide_eq_true rfl) main_arg1 main_v99 _ _ _ hop (by decide) (by decide) (by decide) (by decide)
  exact h
theorem v100 (c : Dev nD) : W42 m ρ c (Proc.devRef .tc main_v100) = shapeCast _ (W42 m ρ c (Proc.devRef .tc main_v99)) shapeCasts_S1x600000_S600000 :=
  fin_reshape (W42 m ρ c) (W20 m ρ c) hostOps4 Ws_hostOps4 hW_hostOps4 WF21 (keep21 m ρ c) 1 (of_decide_eq_true rfl) main_v99 main_v100 rfl shapeCasts_S1x600000_S600000 (by exact ⟨by decide, rfl⟩) (by exact ⟨by decide, rfl⟩) rfl (by decide) (by decide) (by decide) (by decide)
theorem v101 (c : Dev nD) : W42 m ρ c (Proc.devRef .tc main_v101) = extractStridedSlice S1x600000 ![0, 0] (W42 m ρ c (Proc.devRef .tc main_arg2)) slices_S3x600000_S1x600000_0_0 := by
  have hop : (hostOps4 (F := F))[2]'(of_decide_eq_true rfl) = StableHlo.unary main_arg2 main_v101 (fun x => extractStridedSlice S1x600000 ![0, 0] x slices_S3x600000_S1x600000_0_0) := rfl
  have h := fin_unary (W42 m ρ c) (W20 m ρ c) hostOps4 Ws_hostOps4 hW_hostOps4 WF21 (keep21 m ρ c) 2 (of_decide_eq_true rfl) main_arg2 main_v101 _ _ _ hop (by decide) (by decide) (by decide) (by decide)
  exact h
theorem v102 (c : Dev nD) : W42 m ρ c (Proc.devRef .tc main_v102) = shapeCast _ (W42 m ρ c (Proc.devRef .tc main_v101)) shapeCasts_S1x600000_S600000 :=
  fin_reshape (W42 m ρ c) (W20 m ρ c) hostOps4 Ws_hostOps4 hW_hostOps4 WF21 (keep21 m ρ c) 3 (of_decide_eq_true rfl) main_v101 main_v102 rfl shapeCasts_S1x600000_S600000 (by exact ⟨by decide, rfl⟩) (by exact ⟨by decide, rfl⟩) rfl (by decide) (by decide) (by decide) (by decide)
theorem cst_29 (c : Dev nD) : W42 m ρ c (Proc.devRef .tc main_cst_29) = (constant S_ .f32 0x3F800000#32) :=
  fin_nullary (W42 m ρ c) (W20 m ρ c) hostOps4 Ws_hostOps4 hW_hostOps4 WF21 (keep21 m ρ c) 4 (of_decide_eq_true rfl) main_cst_29 (constant S_ .f32 0x3F800000#32) (by exact ⟨by decide, rfl⟩) rfl (by decide) (by decide)
theorem v103 (c : Dev nD) : W42 m ρ c (Proc.devRef .tc main_v103) = (broadcastInDim S600000 ![] bcast_S_S600000 : (⟨S_, .f32⟩ : BufTy).Contents (Elt F) → (⟨S600000, .f32⟩ : BufTy).Contents (Elt F)) (W42 m ρ c (Proc.devRef .tc main_cst_29)) :=
  fin_unary (W42 m ρ c) (W20 m ρ c) hostOps4 Ws_hostOps4 hW_hostOps4 WF21 (keep21 m ρ c) 5 (of_decide_eq_true rfl) main_cst_29 main_v103 (broadcastInDim S600000 ![] bcast_S_S600000 : (⟨S_, .f32⟩ : BufTy).Contents (Elt F) → (⟨S600000, .f32⟩ : BufTy).Contents (Elt F)) (by exact ⟨by decide, rfl⟩) (by exact ⟨by decide, rfl⟩) rfl (by decide) (by decide) (by decide) (by decide)
theorem cst_30 (c : Dev nD) : W42 m ρ c (Proc.devRef .tc main_cst_30) = (constant S_ .f32 0x00000000#32) :=
  fin_nullary (W42 m ρ c) (W20 m ρ c) hostOps4 Ws_hostOps4 hW_hostOps4 WF21 (keep21 m ρ c) 6 (of_decide_eq_true rfl) main_cst_30 (constant S_ .f32 0x00000000#32) (by exact ⟨by decide, rfl⟩) rfl (by decide) (by decide)
theorem v104 (c : Dev nD) : W42 m ρ c (Proc.devRef .tc main_v104) = (broadcastInDim S100000 ![] bcast_S_S100000 : (⟨S_, .f32⟩ : BufTy).Contents (Elt F) → (⟨S100000, .f32⟩ : BufTy).Contents (Elt F)) (W42 m ρ c (Proc.devRef .tc main_cst_30)) :=
  fin_unary (W42 m ρ c) (W20 m ρ c) hostOps4 Ws_hostOps4 hW_hostOps4 WF21 (keep21 m ρ c) 7 (of_decide_eq_true rfl) main_cst_30 main_v104 (broadcastInDim S100000 ![] bcast_S_S100000 : (⟨S_, .f32⟩ : BufTy).Contents (Elt F) → (⟨S100000, .f32⟩ : BufTy).Contents (Elt F)) (by exact ⟨by decide, rfl⟩) (by exact ⟨by decide, rfl⟩) rfl (by decide) (by decide) (by decide) (by decide)
theorem v105 (c : Dev nD) : W42 m ρ c (Proc.devRef .tc main_v105) = (broadcastInDim S600000x1 ![0] bcast_S600000_S600000x1_0 : (⟨S600000, .i32⟩ : BufTy).Contents (Elt F) → (⟨S600000x1, .i32⟩ : BufTy).Contents (Elt F)) (W42 m ρ c (Proc.devRef .tc main_v100)) :=
  fin_unary (W42 m ρ c) (W20 m ρ c) hostOps4 Ws_hostOps4 hW_hostOps4 WF21 (keep21 m ρ c) 8 (of_decide_eq_true rfl) main_v100 main_v105 (broadcastInDim S600000x1 ![0] bcast_S600000_S600000x1_0 : (⟨S600000, .i32⟩ : BufTy).Contents (Elt F) → (⟨S600000x1, .i32⟩ : BufTy).Contents (Elt F)) (by exact ⟨by decide, rfl⟩) (by exact ⟨by decide, rfl⟩) rfl (by decide) (by decide) (by decide) (by decide)
theorem v106 (c : Dev nD) : W42 m ρ c (Proc.devRef .tc main_v106) = ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)) (W42 m ρ c (Proc.devRef .tc main_v104)) (W42 m ρ c (Proc.devRef .tc main_v105)) (W42 m ρ c (Proc.devRef .tc main_v103)) :=
  fin_ternary (W42 m ρ c) (W20 m ρ c) hostOps4 Ws_hostOps4 hW_hostOps4 WF21 (keep21 m ρ c) 9 (of_decide_eq_true rfl) main_v104 main_v105 main_v103 main_v106 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)) (by exact ⟨by decide, rfl⟩) (by exact ⟨by decide, rfl⟩) (by exact ⟨by decide, rfl⟩) (by exact ⟨by decide, rfl⟩) rfl (by decide) (by decide) (by decide) (by decide) (by decide) (by decide) (by decide) (by decide)
theorem cst_31 (c : Dev nD) : W42 m ρ c (Proc.devRef .tc main_cst_31) = (constant S_ .f32 0x3F800000#32) :=
  fin_nullary (W42 m ρ c) (W20 m ρ c) hostOps4 Ws_hostOps4 hW_hostOps4 WF21 (keep21 m ρ c) 10 (of_decide_eq_true rfl) main_cst_31 (constant S_ .f32 0x3F800000#32) (by exact ⟨by decide, rfl⟩) rfl (by decide) (by decide)
theorem call6_v0 (c : Dev nD) : W42 m ρ c (Proc.devRef .tc main_call6_v0) = W42 m ρ c (Proc.devRef .tc main_cst_31) :=
  fin_unary (W42 m ρ c) (W21 m ρ c) hostOps4_1 Ws_hostOps4_1 hW_hostOps4_1 WF22 (keep22 m ρ c) 0 (of_decide_eq_true rfl) main_cst_31 main_call6_v0 (fun u => u) (by exact ⟨by decide, rfl⟩) (by exact ⟨by decide, rfl⟩) rfl (by decide) (by decide) (by decide) (by decide)
theorem call6_v1 (c : Dev nD) : W42 m ρ c (Proc.devRef .tc main_call6_v1) = (broadcastInDim S100000 ![] bcast_S_S100000) (W42 m ρ c (Proc.devRef .tc main_call6_v0)) :=
  fin_unary (W42 m ρ c) (W21 m ρ c) hostOps4_1 Ws_hostOps4_1 hW_hostOps4_1 WF22 (keep22 m ρ c) 1 (of_decide_eq_true rfl) main_call6_v0 main_call6_v1 _ (by exact ⟨by decide, rfl⟩) (by exact ⟨by decide, rfl⟩) rfl (by decide) (by decide) (by decide) (by decide)
theorem v107 (c : Dev nD) : W42 m ρ c (Proc.devRef .tc main_v107) = maximumf (W42 m ρ c (Proc.devRef .tc main_call6_v1)) (W42 m ρ c (Proc.devRef .tc main_v106)) :=
  fin_binary (W42 m ρ c) (W21 m ρ c) hostOps4_1 Ws_hostOps4_1 hW_hostOps4_1 WF22 (keep22 m ρ c) 2 (of_decide_eq_true rfl) main_call6_v1 main_v106 main_v107 _ (by exact ⟨by decide, rfl⟩) (by exact ⟨by decide, rfl⟩) (by exact ⟨by decide, rfl⟩) rfl (by decide) (by decide) (by decide) (by decide) (by decide) (by decide)
theorem cst_32 (c : Dev nD) : W42 m ρ c (Proc.devRef .tc main_cst_32) = (constant S_ .f32 0x00000000#32) :=
  fin_nullary (W42 m ρ c) (W22 m ρ c) hostOps4_2 Ws_hostOps4_2 hW_hostOps4_2 WF23 (keep23 m ρ c) 0 (of_decide_eq_true rfl) main_cst_32 (constant S_ .f32 0x00000000#32) (by exact ⟨by decide, rfl⟩) rfl (by decide) (by decide)
theorem v108 (c : Dev nD) : W42 m ρ c (Proc.devRef .tc main_v108) = (broadcastInDim S100000 ![] bcast_S_S100000 : (⟨S_, .f32⟩ : BufTy).Contents (Elt F) → (⟨S100000, .f32⟩ : BufTy).Contents (Elt F)) (W42 m ρ c (Proc.devRef .tc main_cst_32)) :=
  fin_unary (W42 m ρ c) (W22 m ρ c) hostOps4_2 Ws_hostOps4_2 hW_hostOps4_2 WF23 (keep23 m ρ c) 1 (of_decide_eq_true rfl) main_cst_32 main_v108 (broadcastInDim S100000 ![] bcast_S_S100000 : (⟨S_, .f32⟩ : BufTy).Contents (Elt F) → (⟨S100000, .f32⟩ : BufTy).Contents (Elt F)) (by exact ⟨by decide, rfl⟩) (by exact ⟨by decide, rfl⟩) rfl (by decide) (by decide) (by decide) (by decide)
theorem v109 (c : Dev nD) : W42 m ρ c (Proc.devRef .tc main_v109) = (broadcastInDim S600000x1 ![0] bcast_S600000_S600000x1_0 : (⟨S600000, .i32⟩ : BufTy).Contents (Elt F) → (⟨S600000x1, .i32⟩ : BufTy).Contents (Elt F)) (W42 m ρ c (Proc.devRef .tc main_v102)) :=
  fin_unary (W42 m ρ c) (W22 m ρ c) hostOps4_2 Ws_hostOps4_2 hW_hostOps4_2 WF23 (keep23 m ρ c) 2 (of_decide_eq_true rfl) main_v102 main_v109 (broadcastInDim S600000x1 ![0] bcast_S600000_S600000x1_0 : (⟨S600000, .i32⟩ : BufTy).Contents (Elt F) → (⟨S600000x1, .i32⟩ : BufTy).Contents (Elt F)) (by exact ⟨by decide, rfl⟩) (by exact ⟨by decide, rfl⟩) rfl (by decide) (by decide) (by decide) (by decide)
theorem v110 (c : Dev nD) : W42 m ρ c (Proc.devRef .tc main_v110) = ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)) (W42 m ρ c (Proc.devRef .tc main_v108)) (W42 m ρ c (Proc.devRef .tc main_v109)) (W42 m ρ c (Proc.devRef .tc main_v103)) :=
  fin_ternary (W42 m ρ c) (W22 m ρ c) hostOps4_2 Ws_hostOps4_2 hW_hostOps4_2 WF23 (keep23 m ρ c) 3 (of_decide_eq_true rfl) main_v108 main_v109 main_v103 main_v110 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)) (by exact ⟨by decide, rfl⟩) (by exact ⟨by decide, rfl⟩) (by exact ⟨by decide, rfl⟩) (by exact ⟨by decide, rfl⟩) rfl (by decide) (by decide) (by decide) (by decide) (by decide) (by decide) (by decide) (by decide)
theorem cst_33 (c : Dev nD) : W42 m ρ c (Proc.devRef .tc main_cst_33) = (constant S_ .f32 0x3F800000#32) :=
  fin_nullary (W42 m ρ c) (W22 m ρ c) hostOps4_2 Ws_hostOps4_2 hW_hostOps4_2 WF23 (keep23 m ρ c) 4 (of_decide_eq_true rfl) main_cst_33 (constant S_ .f32 0x3F800000#32) (by exact ⟨by decide, rfl⟩) rfl (by decide) (by decide)
theorem call7_v0 (c : Dev nD) : W42 m ρ c (Proc.devRef .tc main_call7_v0) = W42 m ρ c (Proc.devRef .tc main_cst_33) :=
  fin_unary (W42 m ρ c) (W23 m ρ c) hostOps4_3 Ws_hostOps4_3 hW_hostOps4_3 WF24 (keep24 m ρ c) 0 (of_decide_eq_true rfl) main_cst_33 main_call7_v0 (fun u => u) (by exact ⟨by decide, rfl⟩) (by exact ⟨by decide, rfl⟩) rfl (by decide) (by decide) (by decide) (by decide)
theorem call7_v1 (c : Dev nD) : W42 m ρ c (Proc.devRef .tc main_call7_v1) = (broadcastInDim S100000 ![] bcast_S_S100000) (W42 m ρ c (Proc.devRef .tc main_call7_v0)) :=
  fin_unary (W42 m ρ c) (W23 m ρ c) hostOps4_3 Ws_hostOps4_3 hW_hostOps4_3 WF24 (keep24 m ρ c) 1 (of_decide_eq_true rfl) main_call7_v0 main_call7_v1 _ (by exact ⟨by decide, rfl⟩) (by exact ⟨by decide, rfl⟩) rfl (by decide) (by decide) (by decide) (by decide)
theorem v111 (c : Dev nD) : W42 m ρ c (Proc.devRef .tc main_v111) = maximumf (W42 m ρ c (Proc.devRef .tc main_call7_v1)) (W42 m ρ c (Proc.devRef .tc main_v110)) :=
  fin_binary (W42 m ρ c) (W23 m ρ c) hostOps4_3 Ws_hostOps4_3 hW_hostOps4_3 WF24 (keep24 m ρ c) 2 (of_decide_eq_true rfl) main_call7_v1 main_v110 main_v111 _ (by exact ⟨by decide, rfl⟩) (by exact ⟨by decide, rfl⟩) (by exact ⟨by decide, rfl⟩) rfl (by decide) (by decide) (by decide) (by decide) (by decide) (by decide)
theorem cst_34 (c : Dev nD) : W42 m ρ c (Proc.devRef .tc main_cst_34) = (constant S_ .f32 0xBF000000#32) :=
  fin_nullary (W42 m ρ c) (W24 m ρ c) hostOps4_4 Ws_hostOps4_4 hW_hostOps4_4 WF25 (keep25 m ρ c) 0 (of_decide_eq_true rfl) main_cst_34 (constant S_ .f32 0xBF000000#32) (by exact ⟨by decide, rfl⟩) rfl (by decide) (by decide)
theorem v112 (c : Dev nD) : W42 m ρ c (Proc.devRef .tc main_v112) = (broadcastInDim S100000 ![] bcast_S_S100000 : (⟨S_, .f32⟩ : BufTy).Contents (Elt F) → (⟨S100000, .f32⟩ : BufTy).Contents (Elt F)) (W42 m ρ c (Proc.devRef .tc main_cst_34)) :=
  fin_unary (W42 m ρ c) (W24 m ρ c) hostOps4_4 Ws_hostOps4_4 hW_hostOps4_4 WF25 (keep25 m ρ c) 1 (of_decide_eq_true rfl) main_cst_34 main_v112 (broadcastInDim S100000 ![] bcast_S_S100000 : (⟨S_, .f32⟩ : BufTy).Contents (Elt F) → (⟨S100000, .f32⟩ : BufTy).Contents (Elt F)) (by exact ⟨by decide, rfl⟩) (by exact ⟨by decide, rfl⟩) rfl (by decide) (by decide) (by decide) (by decide)
theorem v113 (c : Dev nD) : W42 m ρ c (Proc.devRef .tc main_v113) = (Host.powf : (⟨S100000, .f32⟩ : BufTy).Contents (Elt F) → (⟨S100000, .f32⟩ : BufTy).Contents (Elt F) → (⟨S100000, .f32⟩ : BufTy).Contents (Elt F)) (W42 m ρ c (Proc.devRef .tc main_v107)) (W42 m ρ c (Proc.devRef .tc main_v112)) :=
  fin_binary (W42 m ρ c) (W24 m ρ c) hostOps4_4 Ws_hostOps4_4 hW_hostOps4_4 WF25 (keep25 m ρ c) 2 (of_decide_eq_true rfl) main_v107 main_v112 main_v113 (Host.powf : (⟨S100000, .f32⟩ : BufTy).Contents (Elt F) → (⟨S100000, .f32⟩ : BufTy).Contents (Elt F) → (⟨S100000, .f32⟩ : BufTy).Contents (Elt F)) (by exact ⟨by decide, rfl⟩) (by exact ⟨by decide, rfl⟩) (by exact ⟨by decide, rfl⟩) rfl (by decide) (by decide) (by decide) (by decide) (by decide) (by decide)
theorem cst_35 (c : Dev nD) : W42 m ρ c (Proc.devRef .tc main_cst_35) = (constant S_ .f32 0xBF000000#32) :=
  fin_nullary (W42 m ρ c) (W24 m ρ c) hostOps4_4 Ws_hostOps4_4 hW_hostOps4_4 WF25 (keep25 m ρ c) 3 (of_decide_eq_true rfl) main_cst_35 (constant S_ .f32 0xBF000000#32) (by exact ⟨by decide, rfl⟩) rfl (by decide) (by decide)
theorem v114 (c : Dev nD) : W42 m ρ c (Proc.devRef .tc main_v114) = (broadcastInDim S100000 ![] bcast_S_S100000 : (⟨S_, .f32⟩ : BufTy).Contents (Elt F) → (⟨S100000, .f32⟩ : BufTy).Contents (Elt F)) (W42 m ρ c (Proc.devRef .tc main_cst_35)) :=
  fin_unary (W42 m ρ c) (W24 m ρ c) hostOps4_4 Ws_hostOps4_4 hW_hostOps4_4 WF25 (keep25 m ρ c) 4 (of_decide_eq_true rfl) main_cst_35 main_v114 (broadcastInDim S100000 ![] bcast_S_S100000 : (⟨S_, .f32⟩ : BufTy).Contents (Elt F) → (⟨S100000, .f32⟩ : BufTy).Contents (Elt F)) (by exact ⟨by decide, rfl⟩) (by exact ⟨by decide, rfl⟩) rfl (by decide) (by decide) (by decide) (by decide)
theorem v115 (c : Dev nD) : W42 m ρ c (Proc.devRef .tc main_v115) = (Host.powf : (⟨S100000, .f32⟩ : BufTy).Contents (Elt F) → (⟨S100000, .f32⟩ : BufTy).Contents (Elt F) → (⟨S100000, .f32⟩ : BufTy).Contents (Elt F)) (W42 m ρ c (Proc.devRef .tc main_v111)) (W42 m ρ c (Proc.devRef .tc main_v114)) :=
  fin_binary (W42 m ρ c) (W24 m ρ c) hostOps4_4 Ws_hostOps4_4 hW_hostOps4_4 WF25 (keep25 m ρ c) 5 (of_decide_eq_true rfl) main_v111 main_v114 main_v115 (Host.powf : (⟨S100000, .f32⟩ : BufTy).Contents (Elt F) → (⟨S100000, .f32⟩ : BufTy).Contents (Elt F) → (⟨S100000, .f32⟩ : BufTy).Contents (Elt F)) (by exact ⟨by decide, rfl⟩) (by exact ⟨by decide, rfl⟩) (by exact ⟨by decide, rfl⟩) rfl (by decide) (by decide) (by decide) (by decide) (by decide) (by decide)
theorem v116 (c : Dev nD) : W42 m ρ c (Proc.devRef .tc main_v116) = extractStridedSlice S1x128x128 ![0, 0, 0] (W42 m ρ c (Proc.devRef .tc main_arg5)) slices_S3x128x128_S1x128x128_0_0_0 := by
  have hop : (hostOps4_4 (F := F))[6]'(of_decide_eq_true rfl) = StableHlo.unary main_arg5 main_v116 (fun x => extractStridedSlice S1x128x128 ![0, 0, 0] x slices_S3x128x128_S1x128x128_0_0_0) := rfl
  have h := fin_unary (W42 m ρ c) (W24 m ρ c) hostOps4_4 Ws_hostOps4_4 hW_hostOps4_4 WF25 (keep25 m ρ c) 6 (of_decide_eq_true rfl) main_arg5 main_v116 _ _ _ hop (by decide) (by decide) (by decide) (by decide)
  exact h
theorem v117 (c : Dev nD) : W42 m ρ c (Proc.devRef .tc main_v117) = shapeCast _ (W42 m ρ c (Proc.devRef .tc main_v116)) shapeCasts_S1x128x128_S128x128 :=
  fin_reshape (W42 m ρ c) (W24 m ρ c) hostOps4_4 Ws_hostOps4_4 hW_hostOps4_4 WF25 (keep25 m ρ c) 7 (of_decide_eq_true rfl) main_v116 main_v117 rfl shapeCasts_S1x128x128_S128x128 (by exact ⟨by decide, rfl⟩) (by exact ⟨by decide, rfl⟩) rfl (by decide) (by decide) (by decide) (by decide)
theorem v118 (c : Dev nD) : W42 m ρ c (Proc.devRef .tc main_v118) = shapeCast _ (W42 m ρ c (Proc.devRef .tc main_v113)) shapeCasts_S100000_S100000x1 :=
  fin_reshape (W42 m ρ c) (W24 m ρ c) hostOps4_4 Ws_hostOps4_4 hW_hostOps4_4 WF25 (keep25 m ρ c) 8 (of_decide_eq_true rfl) main_v113 main_v118 rfl shapeCasts_S100000_S100000x1 (by exact ⟨by decide, rfl⟩) (by exact ⟨by decide, rfl⟩) rfl (by decide) (by decide) (by decide) (by decide)
theorem c_36 (c : Dev nD) : W42 m ρ c (Proc.devRef .tc main_c_36) = (constantI S_ 32 0#32) :=
  fin_nullary (W42 m ρ c) (W26 m ρ c) hostOps5 Ws_hostOps5 hW_hostOps5 WF27 (keep27 m ρ c) 0 (of_decide_eq_true rfl) main_c_36 (constantI S_ 32 0#32) (by exact ⟨by decide, rfl⟩) rfl (by decide) (by decide)
theorem v120 (c : Dev nD) : W42 m ρ c (Proc.devRef .tc main_v120) = (broadcastInDim S600000 ![] bcast_S_S600000 : (⟨S_, .i32⟩ : BufTy).Contents (Elt F) → (⟨S600000, .i32⟩ : BufTy).Contents (Elt F)) (W42 m ρ c (Proc.devRef .tc main_c_36)) :=
  fin_unary (W42 m ρ c) (W26 m ρ c) hostOps5 Ws_hostOps5 hW_hostOps5 WF27 (keep27 m ρ c) 1 (of_decide_eq_true rfl) main_c_36 main_v120 (broadcastInDim S600000 ![] bcast_S_S600000 : (⟨S_, .i32⟩ : BufTy).Contents (Elt F) → (⟨S600000, .i32⟩ : BufTy).Contents (Elt F)) (by exact ⟨by decide, rfl⟩) (by exact ⟨by decide, rfl⟩) rfl (by decide) (by decide) (by decide) (by decide)
theorem v121 (c : Dev nD) : W42 m ρ c (Proc.devRef .tc main_v121) = (cmpi .slt : (⟨S600000, .i32⟩ : BufTy).Contents (Elt F) → (⟨S600000, .i32⟩ : BufTy).Contents (Elt F) → (⟨S600000, .i1⟩ : BufTy).Contents (Elt F)) (W42 m ρ c (Proc.devRef .tc main_v100)) (W42 m ρ c (Proc.devRef .tc main_v120)) :=
  fin_binary (W42 m ρ c) (W26 m ρ c) hostOps5 Ws_hostOps5 hW_hostOps5 WF27 (keep27 m ρ c) 2 (of_decide_eq_true rfl) main_v100 main_v120 main_v121 (cmpi .slt : (⟨S600000, .i32⟩ : BufTy).Contents (Elt F) → (⟨S600000, .i32⟩ : BufTy).Contents (Elt F) → (⟨S600000, .i1⟩ : BufTy).Contents (Elt F)) (by exact ⟨by decide, rfl⟩) (by exact ⟨by decide, rfl⟩) (by exact ⟨by decide, rfl⟩) rfl (by decide) (by decide) (by decide) (by decide) (by decide) (by decide)
theorem c_37 (c : Dev nD) : W42 m ρ c (Proc.devRef .tc main_c_37) = (constantI S_ 32 100000#32) :=
  fin_nullary (W42 m ρ c) (W26 m ρ c) hostOps5 Ws_hostOps5 hW_hostOps5 WF27 (keep27 m ρ c) 3 (of_decide_eq_true rfl) main_c_37 (constantI S_ 32 100000#32) (by exact ⟨by decide, rfl⟩) rfl (by decide) (by decide)
theorem v122 (c : Dev nD) : W42 m ρ c (Proc.devRef .tc main_v122) = (broadcastInDim S600000 ![] bcast_S_S600000 : (⟨S_, .i32⟩ : BufTy).Contents (Elt F) → (⟨S600000, .i32⟩ : BufTy).Contents (Elt F)) (W42 m ρ c (Proc.devRef .tc main_c_37)) :=
  fin_unary (W42 m ρ c) (W26 m ρ c) hostOps5 Ws_hostOps5 hW_hostOps5 WF27 (keep27 m ρ c) 4 (of_decide_eq_true rfl) main_c_37 main_v122 (broadcastInDim S600000 ![] bcast_S_S600000 : (⟨S_, .i32⟩ : BufTy).Contents (Elt F) → (⟨S600000, .i32⟩ : BufTy).Contents (Elt F)) (by exact ⟨by decide, rfl⟩) (by exact ⟨by decide, rfl⟩) rfl (by decide) (by decide) (by decide) (by decide)
theorem v123 (c : Dev nD) : W42 m ρ c (Proc.devRef .tc main_v123) = (addi : (⟨S600000, .i32⟩ : BufTy).Contents (Elt F) → (⟨S600000, .i32⟩ : BufTy).Contents (Elt F) → (⟨S600000, .i32⟩ : BufTy).Contents (Elt F)) (W42 m ρ c (Proc.devRef .tc main_v100)) (W42 m ρ c (Proc.devRef .tc main_v122)) :=
  fin_binary (W42 m ρ c) (W26 m ρ c) hostOps5 Ws_hostOps5 hW_hostOps5 WF27 (keep27 m ρ c) 5 (of_decide_eq_true rfl) main_v100 main_v122 main_v123 (addi : (⟨S600000, .i32⟩ : BufTy).Contents (Elt F) → (⟨S600000, .i32⟩ : BufTy).Contents (Elt F) → (⟨S600000, .i32⟩ : BufTy).Contents (Elt F)) (by exact ⟨by decide, rfl⟩) (by exact ⟨by decide, rfl⟩) (by exact ⟨by decide, rfl⟩) rfl (by decide) (by decide) (by decide) (by decide) (by decide) (by decide)
theorem v124 (c : Dev nD) : W42 m ρ c (Proc.devRef .tc main_v124) = (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) (W42 m ρ c (Proc.devRef .tc main_v121)) (W42 m ρ c (Proc.devRef .tc main_v123)) (W42 m ρ c (Proc.devRef .tc main_v100)) :=
  fin_ternary (W42 m ρ c) (W26 m ρ c) hostOps5 Ws_hostOps5 hW_hostOps5 WF27 (keep27 m ρ c) 6 (of_decide_eq_true rfl) main_v121 main_v123 main_v100 main_v124 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) (by exact ⟨by decide, rfl⟩) (by exact ⟨by decide, rfl⟩) (by exact ⟨by decide, rfl⟩) (by exact ⟨by decide, rfl⟩) rfl (by decide) (by decide) (by decide) (by decide) (by decide) (by decide) (by decide) (by decide)
theorem v125 (c : Dev nD) : W42 m ρ c (Proc.devRef .tc main_v125) = (broadcastInDim S600000x1 ![0] bcast_S600000_S600000x1_0 : (⟨S600000, .i32⟩ : BufTy).Contents (Elt F) → (⟨S600000x1, .i32⟩ : BufTy).Contents (Elt F)) (W42 m ρ c (Proc.devRef .tc main_v124)) :=
  fin_unary (W42 m ρ c) (W26 m ρ c) hostOps5 Ws_hostOps5 hW_hostOps5 WF27 (keep27 m ρ c) 7 (of_decide_eq_true rfl) main_v124 main_v125 (broadcastInDim S600000x1 ![0] bcast_S600000_S600000x1_0 : (⟨S600000, .i32⟩ : BufTy).Contents (Elt F) → (⟨S600000x1, .i32⟩ : BufTy).Contents (Elt F)) (by exact ⟨by decide, rfl⟩) (by exact ⟨by decide, rfl⟩) rfl (by decide) (by decide) (by decide) (by decide)
theorem v126 (c : Dev nD) : W42 m ρ c (Proc.devRef .tc main_v126) = ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)) (W42 m ρ c (Proc.devRef .tc main_v119)) (W42 m ρ c (Proc.devRef .tc main_v125)) :=
  fin_binary (W42 m ρ c) (W26 m ρ c) hostOps5 Ws_hostOps5 hW_hostOps5 WF27 (keep27 m ρ c) 8 (of_decide_eq_true rfl) main_v119 main_v125 main_v126 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)) (by exact ⟨by decide, rfl⟩) (by exact ⟨by decide, rfl⟩) (by exact ⟨by decide, rfl⟩) rfl (by decide) (by decide) (by decide) (by decide) (by decide) (by decide)
theorem cst_38 (c : Dev nD) : W42 m ρ c (Proc.devRef .tc main_cst_38) = (constant S_ .f32 0x00000000#32) :=
  fin_nullary (W42 m ρ c) (W26 m ρ c) hostOps5 Ws_hostOps5 hW_hostOps5 WF27 (keep27 m ρ c) 9 (of_decide_eq_true rfl) main_cst_38 (constant S_ .f32 0x00000000#32) (by exact ⟨by decide, rfl⟩) rfl (by decide) (by decide)
theorem v127 (c : Dev nD) : W42 m ρ c (Proc.devRef .tc main_v127) = (broadcastInDim S100000x128 ![] bcast_S_S100000x128 : (⟨S_, .f32⟩ : BufTy).Contents (Elt F) → (⟨S100000x128, .f32⟩ : BufTy).Contents (Elt F)) (W42 m ρ c (Proc.devRef .tc main_cst_38)) :=
  fin_unary (W42 m ρ c) (W26 m ρ c) hostOps5 Ws_hostOps5 hW_hostOps5 WF27 (keep27 m ρ c) 10 (of_decide_eq_true rfl) main_cst_38 main_v127 (broadcastInDim S100000x128 ![] bcast_S_S100000x128 : (⟨S_, .f32⟩ : BufTy).Contents (Elt F) → (⟨S100000x128, .f32⟩ : BufTy).Contents (Elt F)) (by exact ⟨by decide, rfl⟩) (by exact ⟨by decide, rfl⟩) rfl (by decide) (by decide) (by decide) (by decide)
theorem v128 (c : Dev nD) : W42 m ρ c (Proc.devRef .tc main_v128) = (broadcastInDim S600000x1 ![0] bcast_S600000_S600000x1_0 : (⟨S600000, .i32⟩ : BufTy).Contents (Elt F) → (⟨S600000x1, .i32⟩ : BufTy).Contents (Elt F)) (W42 m ρ c (Proc.devRef .tc main_v102)) :=
  fin_unary (W42 m ρ c) (W26 m ρ c) hostOps5 Ws_hostOps5 hW_hostOps5 WF27 (keep27 m ρ c) 11 (of_decide_eq_true rfl) main_v102 main_v128 (broadcastInDim S600000x1 ![0] bcast_S600000_S600000x1_0 : (⟨S600000, .i32⟩ : BufTy).Contents (Elt F) → (⟨S600000x1, .i32⟩ : BufTy).Contents (Elt F)) (by exact ⟨by decide, rfl⟩) (by exact ⟨by decide, rfl⟩) rfl (by decide) (by decide) (by decide) (by decide)
theorem v129 (c : Dev nD) : W42 m ρ c (Proc.devRef .tc main_v129) = ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)) (W42 m ρ c (Proc.devRef .tc main_v127)) (W42 m ρ c (Proc.devRef .tc main_v128)) (W42 m ρ c (Proc.devRef .tc main_v126)) :=
  fin_ternary (W42 m ρ c) (W26 m ρ c) hostOps5 Ws_hostOps5 hW_hostOps5 WF27 (keep27 m ρ c) 12 (of_decide_eq_true rfl) main_v127 main_v128 main_v126 main_v129 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)) (by exact ⟨by decide, rfl⟩) (by exact ⟨by decide, rfl⟩) (by exact ⟨by decide, rfl⟩) (by exact ⟨by decide, rfl⟩) rfl (by decide) (by decide) (by decide) (by decide) (by decide) (by decide) (by decide) (by decide)
theorem v130 (c : Dev nD) : W42 m ρ c (Proc.devRef .tc main_v130) = extractStridedSlice S1x600000 ![1, 0] (W42 m ρ c (Proc.devRef .tc main_arg1)) slices_S3x600000_S1x600000_1_0 := by
  have hop : (hostOps5 (F := F))[13]'(of_decide_eq_true rfl) = StableHlo.unary main_arg1 main_v130 (fun x => extractStridedSlice S1x600000 ![1, 0] x slices_S3x600000_S1x600000_1_0) := rfl
  have h := fin_unary (W42 m ρ c) (W26 m ρ c) hostOps5 Ws_hostOps5 hW_hostOps5 WF27 (keep27 m ρ c) 13 (of_decide_eq_true rfl) main_arg1 main_v130 _ _ _ hop (by decide) (by decide) (by decide) (by decide)
  exact h
theorem v131 (c : Dev nD) : W42 m ρ c (Proc.devRef .tc main_v131) = shapeCast _ (W42 m ρ c (Proc.devRef .tc main_v130)) shapeCasts_S1x600000_S600000 :=
  fin_reshape (W42 m ρ c) (W26 m ρ c) hostOps5 Ws_hostOps5 hW_hostOps5 WF27 (keep27 m ρ c) 14 (of_decide_eq_true rfl) main_v130 main_v131 rfl shapeCasts_S1x600000_S600000 (by exact ⟨by decide, rfl⟩) (by exact ⟨by decide, rfl⟩) rfl (by decide) (by decide) (by decide) (by decide)
theorem v132 (c : Dev nD) : W42 m ρ c (Proc.devRef .tc main_v132) = extractStridedSlice S1x600000 ![1, 0] (W42 m ρ c (Proc.devRef .tc main_arg2)) slices_S3x600000_S1x600000_1_0 := by
  have hop : (hostOps5 (F := F))[15]'(of_decide_eq_true rfl) = StableHlo.unary main_arg2 main_v132 (fun x => extractStridedSlice S1x600000 ![1, 0] x slices_S3x600000_S1x600000_1_0) := rfl
  have h := fin_unary (W42 m ρ c) (W26 m ρ c) hostOps5 Ws_hostOps5 hW_hostOps5 WF27 (keep27 m ρ c) 15 (of_decide_eq_true rfl) main_arg2 main_v132 _ _ _ hop (by decide) (by decide) (by decide) (by decide)
  exact h
theorem v133 (c : Dev nD) : W42 m ρ c (Proc.devRef .tc main_v133) = shapeCast _ (W42 m ρ c (Proc.devRef .tc main_v132)) shapeCasts_S1x600000_S600000 :=
  fin_reshape (W42 m ρ c) (W26 m ρ c) hostOps5 Ws_hostOps5 hW_hostOps5 WF27 (keep27 m ρ c) 16 (of_decide_eq_true rfl) main_v132 main_v133 rfl shapeCasts_S1x600000_S600000 (by exact ⟨by decide, rfl⟩) (by exact ⟨by decide, rfl⟩) rfl (by decide) (by decide) (by decide) (by decide)
theorem cst_39 (c : Dev nD) : W42 m ρ c (Proc.devRef .tc main_cst_39) = (constant S_ .f32 0x3F800000#32) :=
  fin_nullary (W42 m ρ c) (W26 m ρ c) hostOps5 Ws_hostOps5 hW_hostOps5 WF27 (keep27 m ρ c) 17 (of_decide_eq_true rfl) main_cst_39 (constant S_ .f32 0x3F800000#32) (by exact ⟨by decide, rfl⟩) rfl (by decide) (by decide)
theorem v134 (c : Dev nD) : W42 m ρ c (Proc.devRef .tc main_v134) = (broadcastInDim S600000 ![] bcast_S_S600000 : (⟨S_, .f32⟩ : BufTy).Contents (Elt F) → (⟨S600000, .f32⟩ : BufTy).Contents (Elt F)) (W42 m ρ c (Proc.devRef .tc main_cst_39)) :=
  fin_unary (W42 m ρ c) (W26 m ρ c) hostOps5 Ws_hostOps5 hW_hostOps5 WF27 (keep27 m ρ c) 18 (of_decide_eq_true rfl) main_cst_39 main_v134 (broadcastInDim S600000 ![] bcast_S_S600000 : (⟨S_, .f32⟩ : BufTy).Contents (Elt F) → (⟨S600000, .f32⟩ : BufTy).Contents (Elt F)) (by exact ⟨by decide, rfl⟩) (by exact ⟨by decide, rfl⟩) rfl (by decide) (by decide) (by decide) (by decide)
theorem cst_40 (c : Dev nD) : W42 m ρ c (Proc.devRef .tc main_cst_40) = (constant S_ .f32 0x00000000#32) :=
  fin_nullary (W42 m ρ c) (W26 m ρ c) hostOps5 Ws_hostOps5 hW_hostOps5 WF27 (keep27 m ρ c) 19 (of_decide_eq_true rfl) main_cst_40 (constant S_ .f32 0x00000000#32) (by exact ⟨by decide, rfl⟩) rfl (by decide) (by decide)
theorem v135 (c : Dev nD) : W42 m ρ c (Proc.devRef .tc main_v135) = (broadcastInDim S100000 ![] bcast_S_S100000 : (⟨S_, .f32⟩ : BufTy).Contents (Elt F) → (⟨S100000, .f32⟩ : BufTy).Contents (Elt F)) (W42 m ρ c (Proc.devRef .tc main_cst_40)) :=
  fin_unary (W42 m ρ c) (W26 m ρ c) hostOps5 Ws_hostOps5 hW_hostOps5 WF27 (keep27 m ρ c) 20 (of_decide_eq_true rfl) main_cst_40 main_v135 (broadcastInDim S100000 ![] bcast_S_S100000 : (⟨S_, .f32⟩ : BufTy).Contents (Elt F) → (⟨S100000, .f32⟩ : BufTy).Contents (Elt F)) (by exact ⟨by decide, rfl⟩) (by exact ⟨by decide, rfl⟩) rfl (by decide) (by decide) (by decide) (by decide)
theorem v136 (c : Dev nD) : W42 m ρ c (Proc.devRef .tc main_v136) = (broadcastInDim S600000x1 ![0] bcast_S600000_S600000x1_0 : (⟨S600000, .i32⟩ : BufTy).Contents (Elt F) → (⟨S600000x1, .i32⟩ : BufTy).Contents (Elt F)) (W42 m ρ c (Proc.devRef .tc main_v131)) :=
  fin_unary (W42 m ρ c) (W26 m ρ c) hostOps5 Ws_hostOps5 hW_hostOps5 WF27 (keep27 m ρ c) 21 (of_decide_eq_true rfl) main_v131 main_v136 (broadcastInDim S600000x1 ![0] bcast_S600000_S600000x1_0 : (⟨S600000, .i32⟩ : BufTy).Contents (Elt F) → (⟨S600000x1, .i32⟩ : BufTy).Contents (Elt F)) (by exact ⟨by decide, rfl⟩) (by exact ⟨by decide, rfl⟩) rfl (by decide) (by decide) (by decide) (by decide)
theorem v137 (c : Dev nD) : W42 m ρ c (Proc.devRef .tc main_v137) = ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)) (W42 m ρ c (Proc.devRef .tc main_v135)) (W42 m ρ c (Proc.devRef .tc main_v136)) (W42 m ρ c (Proc.devRef .tc main_v134)) :=
  fin_ternary (W42 m ρ c) (W26 m ρ c) hostOps5 Ws_hostOps5 hW_hostOps5 WF27 (keep27 m ρ c) 22 (of_decide_eq_true rfl) main_v135 main_v136 main_v134 main_v137 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)) (by exact ⟨by decide, rfl⟩) (by exact ⟨by decide, rfl⟩) (by exact ⟨by decide, rfl⟩) (by exact ⟨by decide, rfl⟩) rfl (by decide) (by decide) (by decide) (by decide) (by decide) (by decide) (by decide) (by decide)
theorem cst_41 (c : Dev nD) : W42 m ρ c (Proc.devRef .tc main_cst_41) = (constant S_ .f32 0x3F800000#32) :=
  fin_nullary (W42 m ρ c) (W26 m ρ c) hostOps5 Ws_hostOps5 hW_hostOps5 WF27 (keep27 m ρ c) 23 (of_decide_eq_true rfl) main_cst_41 (constant S_ .f32 0x3F800000#32) (by exact ⟨by decide, rfl⟩) rfl (by decide) (by decide)
theorem call8_v0 (c : Dev nD) : W42 m ρ c (Proc.devRef .tc main_call8_v0) = W42 m ρ c (Proc.devRef .tc main_cst_41) :=
  fin_unary (W42 m ρ c) (W27 m ρ c) hostOps5_1 Ws_hostOps5_1 hW_hostOps5_1 WF28 (keep28 m ρ c) 0 (of_decide_eq_true rfl) main_cst_41 main_call8_v0 (fun u => u) (by exact ⟨by decide, rfl⟩) (by exact ⟨by decide, rfl⟩) rfl (by decide) (by decide) (by decide) (by decide)
theorem call8_v1 (c : Dev nD) : W42 m ρ c (Proc.devRef .tc main_call8_v1) = (broadcastInDim S100000 ![] bcast_S_S100000) (W42 m ρ c (Proc.devRef .tc main_call8_v0)) :=
  fin_unary (W42 m ρ c) (W27 m ρ c) hostOps5_1 Ws_hostOps5_1 hW_hostOps5_1 WF28 (keep28 m ρ c) 1 (of_decide_eq_true rfl) main_call8_v0 main_call8_v1 _ (by exact ⟨by decide, rfl⟩) (by exact ⟨by decide, rfl⟩) rfl (by decide) (by decide) (by decide) (by decide)
theorem v138 (c : Dev nD) : W42 m ρ c (Proc.devRef .tc main_v138) = maximumf (W42 m ρ c (Proc.devRef .tc main_call8_v1)) (W42 m ρ c (Proc.devRef .tc main_v137)) :=
  fin_binary (W42 m ρ c) (W27 m ρ c) hostOps5_1 Ws_hostOps5_1 hW_hostOps5_1 WF28 (keep28 m ρ c) 2 (of_decide_eq_true rfl) main_call8_v1 main_v137 main_v138 _ (by exact ⟨by decide, rfl⟩) (by exact ⟨by decide, rfl⟩) (by exact ⟨by decide, rfl⟩) rfl (by decide) (by decide) (by decide) (by decide) (by decide) (by decide)
theorem cst_42 (c : Dev nD) : W42 m ρ c (Proc.devRef .tc main_cst_42) = (constant S_ .f32 0x00000000#32) :=
  fin_nullary (W42 m ρ c) (W28 m ρ c) hostOps5_2 Ws_hostOps5_2 hW_hostOps5_2 WF29 (keep29 m ρ c) 0 (of_decide_eq_true rfl) main_cst_42 (constant S_ .f32 0x00000000#32) (by exact ⟨by decide, rfl⟩) rfl (by decide) (by decide)
theorem v139 (c : Dev nD) : W42 m ρ c (Proc.devRef .tc main_v139) = (broadcastInDim S100000 ![] bcast_S_S100000 : (⟨S_, .f32⟩ : BufTy).Contents (Elt F) → (⟨S100000, .f32⟩ : BufTy).Contents (Elt F)) (W42 m ρ c (Proc.devRef .tc main_cst_42)) :=
  fin_unary (W42 m ρ c) (W28 m ρ c) hostOps5_2 Ws_hostOps5_2 hW_hostOps5_2 WF29 (keep29 m ρ c) 1 (of_decide_eq_true rfl) main_cst_42 main_v139 (broadcastInDim S100000 ![] bcast_S_S100000 : (⟨S_, .f32⟩ : BufTy).Contents (Elt F) → (⟨S100000, .f32⟩ : BufTy).Contents (Elt F)) (by exact ⟨by decide, rfl⟩) (by exact ⟨by decide, rfl⟩) rfl (by decide) (by decide) (by decide) (by decide)
theorem v140 (c : Dev nD) : W42 m ρ c (Proc.devRef .tc main_v140) = (broadcastInDim S600000x1 ![0] bcast_S600000_S600000x1_0 : (⟨S600000, .i32⟩ : BufTy).Contents (Elt F) → (⟨S600000x1, .i32⟩ : BufTy).Contents (Elt F)) (W42 m ρ c (Proc.devRef .tc main_v133)) :=
  fin_unary (W42 m ρ c) (W28 m ρ c) hostOps5_2 Ws_hostOps5_2 hW_hostOps5_2 WF29 (keep29 m ρ c) 2 (of_decide_eq_true rfl) main_v133 main_v140 (broadcastInDim S600000x1 ![0] bcast_S600000_S600000x1_0 : (⟨S600000, .i32⟩ : BufTy).Contents (Elt F) → (⟨S600000x1, .i32⟩ : BufTy).Contents (Elt F)) (by exact ⟨by decide, rfl⟩) (by exact ⟨by decide, rfl⟩) rfl (by decide) (by decide) (by decide) (by decide)
theorem v141 (c : Dev nD) : W42 m ρ c (Proc.devRef .tc main_v141) = ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)) (W42 m ρ c (Proc.devRef .tc main_v139)) (W42 m ρ c (Proc.devRef .tc main_v140)) (W42 m ρ c (Proc.devRef .tc main_v134)) :=
  fin_ternary (W42 m ρ c) (W28 m ρ c) hostOps5_2 Ws_hostOps5_2 hW_hostOps5_2 WF29 (keep29 m ρ c) 3 (of_decide_eq_true rfl) main_v139 main_v140 main_v134 main_v141 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)) (by exact ⟨by decide, rfl⟩) (by exact ⟨by decide, rfl⟩) (by exact ⟨by decide, rfl⟩) (by exact ⟨by decide, rfl⟩) rfl (by decide) (by decide) (by decide) (by decide) (by decide) (by decide) (by decide) (by decide)
theorem cst_43 (c : Dev nD) : W42 m ρ c (Proc.devRef .tc main_cst_43) = (constant S_ .f32 0x3F800000#32) :=
  fin_nullary (W42 m ρ c) (W28 m ρ c) hostOps5_2 Ws_hostOps5_2 hW_hostOps5_2 WF29 (keep29 m ρ c) 4 (of_decide_eq_true rfl) main_cst_43 (constant S_ .f32 0x3F800000#32) (by exact ⟨by decide, rfl⟩) rfl (by decide) (by decide)

end Cert.KernelIdeal.Rd

end
-- ==== Proof.KernelReads3.lean ====
/-
  The idealized kernel program's host operations read at the last boundary's contents Z: each operation's result buffer holds
  the operation's function of what its operand buffers hold there (every buffer is written once, operands before results).  Part 3.
-/
import proofs.«124848_j55800215109809_1_alg».proof.Proof.KernelChain
import proofs.«124848_j55800215109809_1_alg».proof.Proof.LibAfterLater

set_option maxRecDepth 16384

noncomputable section

namespace Cert.KernelIdeal.Rd

open Cert.KernelIdeal Cert.KernelIdeal.Gen Cert.KernelIdeal.Chain Cert.LibAfter
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

theorem call9_v0 (c : Dev nD) : W42 m ρ c (Proc.devRef .tc main_call9_v0) = W42 m ρ c (Proc.devRef .tc main_cst_43) :=
  fin_unary (W42 m ρ c) (W29 m ρ c) hostOps5_3 Ws_hostOps5_3 hW_hostOps5_3 WF30 (keep30 m ρ c) 0 (of_decide_eq_true rfl) main_cst_43 main_call9_v0 (fun u => u) (by exact ⟨by decide, rfl⟩) (by exact ⟨by decide, rfl⟩) rfl (by decide) (by decide) (by decide) (by decide)
theorem call9_v1 (c : Dev nD) : W42 m ρ c (Proc.devRef .tc main_call9_v1) = (broadcastInDim S100000 ![] bcast_S_S100000) (W42 m ρ c (Proc.devRef .tc main_call9_v0)) :=
  fin_unary (W42 m ρ c) (W29 m ρ c) hostOps5_3 Ws_hostOps5_3 hW_hostOps5_3 WF30 (keep30 m ρ c) 1 (of_decide_eq_true rfl) main_call9_v0 main_call9_v1 _ (by exact ⟨by decide, rfl⟩) (by exact ⟨by decide, rfl⟩) rfl (by decide) (by decide) (by decide) (by decide)
theorem v142 (c : Dev nD) : W42 m ρ c (Proc.devRef .tc main_v142) = maximumf (W42 m ρ c (Proc.devRef .tc main_call9_v1)) (W42 m ρ c (Proc.devRef .tc main_v141)) :=
  fin_binary (W42 m ρ c) (W29 m ρ c) hostOps5_3 Ws_hostOps5_3 hW_hostOps5_3 WF30 (keep30 m ρ c) 2 (of_decide_eq_true rfl) main_call9_v1 main_v141 main_v142 _ (by exact ⟨by decide, rfl⟩) (by exact ⟨by decide, rfl⟩) (by exact ⟨by decide, rfl⟩) rfl (by decide) (by decide) (by decide) (by decide) (by decide) (by decide)
theorem cst_44 (c : Dev nD) : W42 m ρ c (Proc.devRef .tc main_cst_44) = (constant S_ .f32 0xBF000000#32) :=
  fin_nullary (W42 m ρ c) (W30 m ρ c) hostOps5_4 Ws_hostOps5_4 hW_hostOps5_4 WF31 (keep31 m ρ c) 0 (of_decide_eq_true rfl) main_cst_44 (constant S_ .f32 0xBF000000#32) (by exact ⟨by decide, rfl⟩) rfl (by decide) (by decide)
theorem v143 (c : Dev nD) : W42 m ρ c (Proc.devRef .tc main_v143) = (broadcastInDim S100000 ![] bcast_S_S100000 : (⟨S_, .f32⟩ : BufTy).Contents (Elt F) → (⟨S100000, .f32⟩ : BufTy).Contents (Elt F)) (W42 m ρ c (Proc.devRef .tc main_cst_44)) :=
  fin_unary (W42 m ρ c) (W30 m ρ c) hostOps5_4 Ws_hostOps5_4 hW_hostOps5_4 WF31 (keep31 m ρ c) 1 (of_decide_eq_true rfl) main_cst_44 main_v143 (broadcastInDim S100000 ![] bcast_S_S100000 : (⟨S_, .f32⟩ : BufTy).Contents (Elt F) → (⟨S100000, .f32⟩ : BufTy).Contents (Elt F)) (by exact ⟨by decide, rfl⟩) (by exact ⟨by decide, rfl⟩) rfl (by decide) (by decide) (by decide) (by decide)
theorem v144 (c : Dev nD) : W42 m ρ c (Proc.devRef .tc main_v144) = (Host.powf : (⟨S100000, .f32⟩ : BufTy).Contents (Elt F) → (⟨S100000, .f32⟩ : BufTy).Contents (Elt F) → (⟨S100000, .f32⟩ : BufTy).Contents (Elt F)) (W42 m ρ c (Proc.devRef .tc main_v138)) (W42 m ρ c (Proc.devRef .tc main_v143)) :=
  fin_binary (W42 m ρ c) (W30 m ρ c) hostOps5_4 Ws_hostOps5_4 hW_hostOps5_4 WF31 (keep31 m ρ c) 2 (of_decide_eq_true rfl) main_v138 main_v143 main_v144 (Host.powf : (⟨S100000, .f32⟩ : BufTy).Contents (Elt F) → (⟨S100000, .f32⟩ : BufTy).Contents (Elt F) → (⟨S100000, .f32⟩ : BufTy).Contents (Elt F)) (by exact ⟨by decide, rfl⟩) (by exact ⟨by decide, rfl⟩) (by exact ⟨by decide, rfl⟩) rfl (by decide) (by decide) (by decide) (by decide) (by decide) (by decide)
theorem cst_45 (c : Dev nD) : W42 m ρ c (Proc.devRef .tc main_cst_45) = (constant S_ .f32 0xBF000000#32) :=
  fin_nullary (W42 m ρ c) (W30 m ρ c) hostOps5_4 Ws_hostOps5_4 hW_hostOps5_4 WF31 (keep31 m ρ c) 3 (of_decide_eq_true rfl) main_cst_45 (constant S_ .f32 0xBF000000#32) (by exact ⟨by decide, rfl⟩) rfl (by decide) (by decide)
theorem v145 (c : Dev nD) : W42 m ρ c (Proc.devRef .tc main_v145) = (broadcastInDim S100000 ![] bcast_S_S100000 : (⟨S_, .f32⟩ : BufTy).Contents (Elt F) → (⟨S100000, .f32⟩ : BufTy).Contents (Elt F)) (W42 m ρ c (Proc.devRef .tc main_cst_45)) :=
  fin_unary (W42 m ρ c) (W30 m ρ c) hostOps5_4 Ws_hostOps5_4 hW_hostOps5_4 WF31 (keep31 m ρ c) 4 (of_decide_eq_true rfl) main_cst_45 main_v145 (broadcastInDim S100000 ![] bcast_S_S100000 : (⟨S_, .f32⟩ : BufTy).Contents (Elt F) → (⟨S100000, .f32⟩ : BufTy).Contents (Elt F)) (by exact ⟨by decide, rfl⟩) (by exact ⟨by decide, rfl⟩) rfl (by decide) (by decide) (by decide) (by decide)
theorem v146 (c : Dev nD) : W42 m ρ c (Proc.devRef .tc main_v146) = (Host.powf : (⟨S100000, .f32⟩ : BufTy).Contents (Elt F) → (⟨S100000, .f32⟩ : BufTy).Contents (Elt F) → (⟨S100000, .f32⟩ : BufTy).Contents (Elt F)) (W42 m ρ c (Proc.devRef .tc main_v142)) (W42 m ρ c (Proc.devRef .tc main_v145)) :=
  fin_binary (W42 m ρ c) (W30 m ρ c) hostOps5_4 Ws_hostOps5_4 hW_hostOps5_4 WF31 (keep31 m ρ c) 5 (of_decide_eq_true rfl) main_v142 main_v145 main_v146 (Host.powf : (⟨S100000, .f32⟩ : BufTy).Contents (Elt F) → (⟨S100000, .f32⟩ : BufTy).Contents (Elt F) → (⟨S100000, .f32⟩ : BufTy).Contents (Elt F)) (by exact ⟨by decide, rfl⟩) (by exact ⟨by decide, rfl⟩) (by exact ⟨by decide, rfl⟩) rfl (by decide) (by decide) (by decide) (by decide) (by decide) (by decide)
theorem v147 (c : Dev nD) : W42 m ρ c (Proc.devRef .tc main_v147) = extractStridedSlice S1x128x128 ![1, 0, 0] (W42 m ρ c (Proc.devRef .tc main_arg5)) slices_S3x128x128_S1x128x128_1_0_0 := by
  have hop : (hostOps5_4 (F := F))[6]'(of_decide_eq_true rfl) = StableHlo.unary main_arg5 main_v147 (fun x => extractStridedSlice S1x128x128 ![1, 0, 0] x slices_S3x128x128_S1x128x128_1_0_0) := rfl
  have h := fin_unary (W42 m ρ c) (W30 m ρ c) hostOps5_4 Ws_hostOps5_4 hW_hostOps5_4 WF31 (keep31 m ρ c) 6 (of_decide_eq_true rfl) main_arg5 main_v147 _ _ _ hop (by decide) (by decide) (by decide) (by decide)
  exact h
theorem v148 (c : Dev nD) : W42 m ρ c (Proc.devRef .tc main_v148) = shapeCast _ (W42 m ρ c (Proc.devRef .tc main_v147)) shapeCasts_S1x128x128_S128x128 :=
  fin_reshape (W42 m ρ c) (W30 m ρ c) hostOps5_4 Ws_hostOps5_4 hW_hostOps5_4 WF31 (keep31 m ρ c) 7 (of_decide_eq_true rfl) main_v147 main_v148 rfl shapeCasts_S1x128x128_S128x128 (by exact ⟨by decide, rfl⟩) (by exact ⟨by decide, rfl⟩) rfl (by decide) (by decide) (by decide) (by decide)
theorem v149 (c : Dev nD) : W42 m ρ c (Proc.devRef .tc main_v149) = shapeCast _ (W42 m ρ c (Proc.devRef .tc main_v144)) shapeCasts_S100000_S100000x1 :=
  fin_reshape (W42 m ρ c) (W30 m ρ c) hostOps5_4 Ws_hostOps5_4 hW_hostOps5_4 WF31 (keep31 m ρ c) 8 (of_decide_eq_true rfl) main_v144 main_v149 rfl shapeCasts_S100000_S100000x1 (by exact ⟨by decide, rfl⟩) (by exact ⟨by decide, rfl⟩) rfl (by decide) (by decide) (by decide) (by decide)
theorem c_46 (c : Dev nD) : W42 m ρ c (Proc.devRef .tc main_c_46) = (constantI S_ 32 0#32) :=
  fin_nullary (W42 m ρ c) (W32 m ρ c) hostOps6 Ws_hostOps6 hW_hostOps6 WF33 (keep33 m ρ c) 0 (of_decide_eq_true rfl) main_c_46 (constantI S_ 32 0#32) (by exact ⟨by decide, rfl⟩) rfl (by decide) (by decide)
theorem v151 (c : Dev nD) : W42 m ρ c (Proc.devRef .tc main_v151) = (broadcastInDim S600000 ![] bcast_S_S600000 : (⟨S_, .i32⟩ : BufTy).Contents (Elt F) → (⟨S600000, .i32⟩ : BufTy).Contents (Elt F)) (W42 m ρ c (Proc.devRef .tc main_c_46)) :=
  fin_unary (W42 m ρ c) (W32 m ρ c) hostOps6 Ws_hostOps6 hW_hostOps6 WF33 (keep33 m ρ c) 1 (of_decide_eq_true rfl) main_c_46 main_v151 (broadcastInDim S600000 ![] bcast_S_S600000 : (⟨S_, .i32⟩ : BufTy).Contents (Elt F) → (⟨S600000, .i32⟩ : BufTy).Contents (Elt F)) (by exact ⟨by decide, rfl⟩) (by exact ⟨by decide, rfl⟩) rfl (by decide) (by decide) (by decide) (by decide)
theorem v152 (c : Dev nD) : W42 m ρ c (Proc.devRef .tc main_v152) = (cmpi .slt : (⟨S600000, .i32⟩ : BufTy).Contents (Elt F) → (⟨S600000, .i32⟩ : BufTy).Contents (Elt F) → (⟨S600000, .i1⟩ : BufTy).Contents (Elt F)) (W42 m ρ c (Proc.devRef .tc main_v131)) (W42 m ρ c (Proc.devRef .tc main_v151)) :=
  fin_binary (W42 m ρ c) (W32 m ρ c) hostOps6 Ws_hostOps6 hW_hostOps6 WF33 (keep33 m ρ c) 2 (of_decide_eq_true rfl) main_v131 main_v151 main_v152 (cmpi .slt : (⟨S600000, .i32⟩ : BufTy).Contents (Elt F) → (⟨S600000, .i32⟩ : BufTy).Contents (Elt F) → (⟨S600000, .i1⟩ : BufTy).Contents (Elt F)) (by exact ⟨by decide, rfl⟩) (by exact ⟨by decide, rfl⟩) (by exact ⟨by decide, rfl⟩) rfl (by decide) (by decide) (by decide) (by decide) (by decide) (by decide)
theorem c_47 (c : Dev nD) : W42 m ρ c (Proc.devRef .tc main_c_47) = (constantI S_ 32 100000#32) :=
  fin_nullary (W42 m ρ c) (W32 m ρ c) hostOps6 Ws_hostOps6 hW_hostOps6 WF33 (keep33 m ρ c) 3 (of_decide_eq_true rfl) main_c_47 (constantI S_ 32 100000#32) (by exact ⟨by decide, rfl⟩) rfl (by decide) (by decide)
theorem v153 (c : Dev nD) : W42 m ρ c (Proc.devRef .tc main_v153) = (broadcastInDim S600000 ![] bcast_S_S600000 : (⟨S_, .i32⟩ : BufTy).Contents (Elt F) → (⟨S600000, .i32⟩ : BufTy).Contents (Elt F)) (W42 m ρ c (Proc.devRef .tc main_c_47)) :=
  fin_unary (W42 m ρ c) (W32 m ρ c) hostOps6 Ws_hostOps6 hW_hostOps6 WF33 (keep33 m ρ c) 4 (of_decide_eq_true rfl) main_c_47 main_v153 (broadcastInDim S600000 ![] bcast_S_S600000 : (⟨S_, .i32⟩ : BufTy).Contents (Elt F) → (⟨S600000, .i32⟩ : BufTy).Contents (Elt F)) (by exact ⟨by decide, rfl⟩) (by exact ⟨by decide, rfl⟩) rfl (by decide) (by decide) (by decide) (by decide)
theorem v154 (c : Dev nD) : W42 m ρ c (Proc.devRef .tc main_v154) = (addi : (⟨S600000, .i32⟩ : BufTy).Contents (Elt F) → (⟨S600000, .i32⟩ : BufTy).Contents (Elt F) → (⟨S600000, .i32⟩ : BufTy).Contents (Elt F)) (W42 m ρ c (Proc.devRef .tc main_v131)) (W42 m ρ c (Proc.devRef .tc main_v153)) :=
  fin_binary (W42 m ρ c) (W32 m ρ c) hostOps6 Ws_hostOps6 hW_hostOps6 WF33 (keep33 m ρ c) 5 (of_decide_eq_true rfl) main_v131 main_v153 main_v154 (addi : (⟨S600000, .i32⟩ : BufTy).Contents (Elt F) → (⟨S600000, .i32⟩ : BufTy).Contents (Elt F) → (⟨S600000, .i32⟩ : BufTy).Contents (Elt F)) (by exact ⟨by decide, rfl⟩) (by exact ⟨by decide, rfl⟩) (by exact ⟨by decide, rfl⟩) rfl (by decide) (by decide) (by decide) (by decide) (by decide) (by decide)
theorem v155 (c : Dev nD) : W42 m ρ c (Proc.devRef .tc main_v155) = (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) (W42 m ρ c (Proc.devRef .tc main_v152)) (W42 m ρ c (Proc.devRef .tc main_v154)) (W42 m ρ c (Proc.devRef .tc main_v131)) :=
  fin_ternary (W42 m ρ c) (W32 m ρ c) hostOps6 Ws_hostOps6 hW_hostOps6 WF33 (keep33 m ρ c) 6 (of_decide_eq_true rfl) main_v152 main_v154 main_v131 main_v155 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) (by exact ⟨by decide, rfl⟩) (by exact ⟨by decide, rfl⟩) (by exact ⟨by decide, rfl⟩) (by exact ⟨by decide, rfl⟩) rfl (by decide) (by decide) (by decide) (by decide) (by decide) (by decide) (by decide) (by decide)
theorem v156 (c : Dev nD) : W42 m ρ c (Proc.devRef .tc main_v156) = (broadcastInDim S600000x1 ![0] bcast_S600000_S600000x1_0 : (⟨S600000, .i32⟩ : BufTy).Contents (Elt F) → (⟨S600000x1, .i32⟩ : BufTy).Contents (Elt F)) (W42 m ρ c (Proc.devRef .tc main_v155)) :=
  fin_unary (W42 m ρ c) (W32 m ρ c) hostOps6 Ws_hostOps6 hW_hostOps6 WF33 (keep33 m ρ c) 7 (of_decide_eq_true rfl) main_v155 main_v156 (broadcastInDim S600000x1 ![0] bcast_S600000_S600000x1_0 : (⟨S600000, .i32⟩ : BufTy).Contents (Elt F) → (⟨S600000x1, .i32⟩ : BufTy).Contents (Elt F)) (by exact ⟨by decide, rfl⟩) (by exact ⟨by decide, rfl⟩) rfl (by decide) (by decide) (by decide) (by decide)
theorem v157 (c : Dev nD) : W42 m ρ c (Proc.devRef .tc main_v157) = ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)) (W42 m ρ c (Proc.devRef .tc main_v150)) (W42 m ρ c (Proc.devRef .tc main_v156)) :=
  fin_binary (W42 m ρ c) (W32 m ρ c) hostOps6 Ws_hostOps6 hW_hostOps6 WF33 (keep33 m ρ c) 8 (of_decide_eq_true rfl) main_v150 main_v156 main_v157 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)) (by exact ⟨by decide, rfl⟩) (by exact ⟨by decide, rfl⟩) (by exact ⟨by decide, rfl⟩) rfl (by decide) (by decide) (by decide) (by decide) (by decide) (by decide)
theorem cst_48 (c : Dev nD) : W42 m ρ c (Proc.devRef .tc main_cst_48) = (constant S_ .f32 0x00000000#32) :=
  fin_nullary (W42 m ρ c) (W32 m ρ c) hostOps6 Ws_hostOps6 hW_hostOps6 WF33 (keep33 m ρ c) 9 (of_decide_eq_true rfl) main_cst_48 (constant S_ .f32 0x00000000#32) (by exact ⟨by decide, rfl⟩) rfl (by decide) (by decide)
theorem v158 (c : Dev nD) : W42 m ρ c (Proc.devRef .tc main_v158) = (broadcastInDim S100000x128 ![] bcast_S_S100000x128 : (⟨S_, .f32⟩ : BufTy).Contents (Elt F) → (⟨S100000x128, .f32⟩ : BufTy).Contents (Elt F)) (W42 m ρ c (Proc.devRef .tc main_cst_48)) :=
  fin_unary (W42 m ρ c) (W32 m ρ c) hostOps6 Ws_hostOps6 hW_hostOps6 WF33 (keep33 m ρ c) 10 (of_decide_eq_true rfl) main_cst_48 main_v158 (broadcastInDim S100000x128 ![] bcast_S_S100000x128 : (⟨S_, .f32⟩ : BufTy).Contents (Elt F) → (⟨S100000x128, .f32⟩ : BufTy).Contents (Elt F)) (by exact ⟨by decide, rfl⟩) (by exact ⟨by decide, rfl⟩) rfl (by decide) (by decide) (by decide) (by decide)
theorem v159 (c : Dev nD) : W42 m ρ c (Proc.devRef .tc main_v159) = (broadcastInDim S600000x1 ![0] bcast_S600000_S600000x1_0 : (⟨S600000, .i32⟩ : BufTy).Contents (Elt F) → (⟨S600000x1, .i32⟩ : BufTy).Contents (Elt F)) (W42 m ρ c (Proc.devRef .tc main_v133)) :=
  fin_unary (W42 m ρ c) (W32 m ρ c) hostOps6 Ws_hostOps6 hW_hostOps6 WF33 (keep33 m ρ c) 11 (of_decide_eq_true rfl) main_v133 main_v159 (broadcastInDim S600000x1 ![0] bcast_S600000_S600000x1_0 : (⟨S600000, .i32⟩ : BufTy).Contents (Elt F) → (⟨S600000x1, .i32⟩ : BufTy).Contents (Elt F)) (by exact ⟨by decide, rfl⟩) (by exact ⟨by decide, rfl⟩) rfl (by decide) (by decide) (by decide) (by decide)
theorem v160 (c : Dev nD) : W42 m ρ c (Proc.devRef .tc main_v160) = ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)) (W42 m ρ c (Proc.devRef .tc main_v158)) (W42 m ρ c (Proc.devRef .tc main_v159)) (W42 m ρ c (Proc.devRef .tc main_v157)) :=
  fin_ternary (W42 m ρ c) (W32 m ρ c) hostOps6 Ws_hostOps6 hW_hostOps6 WF33 (keep33 m ρ c) 12 (of_decide_eq_true rfl) main_v158 main_v159 main_v157 main_v160 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)) (by exact ⟨by decide, rfl⟩) (by exact ⟨by decide, rfl⟩) (by exact ⟨by decide, rfl⟩) (by exact ⟨by decide, rfl⟩) rfl (by decide) (by decide) (by decide) (by decide) (by decide) (by decide) (by decide) (by decide)
theorem v161 (c : Dev nD) : W42 m ρ c (Proc.devRef .tc main_v161) = extractStridedSlice S1x600000 ![2, 0] (W42 m ρ c (Proc.devRef .tc main_arg1)) slices_S3x600000_S1x600000_2_0 := by
  have hop : (hostOps6 (F := F))[13]'(of_decide_eq_true rfl) = StableHlo.unary main_arg1 main_v161 (fun x => extractStridedSlice S1x600000 ![2, 0] x slices_S3x600000_S1x600000_2_0) := rfl
  have h := fin_unary (W42 m ρ c) (W32 m ρ c) hostOps6 Ws_hostOps6 hW_hostOps6 WF33 (keep33 m ρ c) 13 (of_decide_eq_true rfl) main_arg1 main_v161 _ _ _ hop (by decide) (by decide) (by decide) (by decide)
  exact h
theorem v162 (c : Dev nD) : W42 m ρ c (Proc.devRef .tc main_v162) = shapeCast _ (W42 m ρ c (Proc.devRef .tc main_v161)) shapeCasts_S1x600000_S600000 :=
  fin_reshape (W42 m ρ c) (W32 m ρ c) hostOps6 Ws_hostOps6 hW_hostOps6 WF33 (keep33 m ρ c) 14 (of_decide_eq_true rfl) main_v161 main_v162 rfl shapeCasts_S1x600000_S600000 (by exact ⟨by decide, rfl⟩) (by exact ⟨by decide, rfl⟩) rfl (by decide) (by decide) (by decide) (by decide)
theorem v163 (c : Dev nD) : W42 m ρ c (Proc.devRef .tc main_v163) = extractStridedSlice S1x600000 ![2, 0] (W42 m ρ c (Proc.devRef .tc main_arg2)) slices_S3x600000_S1x600000_2_0 := by
  have hop : (hostOps6 (F := F))[15]'(of_decide_eq_true rfl) = StableHlo.unary main_arg2 main_v163 (fun x => extractStridedSlice S1x600000 ![2, 0] x slices_S3x600000_S1x600000_2_0) := rfl
  have h := fin_unary (W42 m ρ c) (W32 m ρ c) hostOps6 Ws_hostOps6 hW_hostOps6 WF33 (keep33 m ρ c) 15 (of_decide_eq_true rfl) main_arg2 main_v163 _ _ _ hop (by decide) (by decide) (by decide) (by decide)
  exact h
theorem v164 (c : Dev nD) : W42 m ρ c (Proc.devRef .tc main_v164) = shapeCast _ (W42 m ρ c (Proc.devRef .tc main_v163)) shapeCasts_S1x600000_S600000 :=
  fin_reshape (W42 m ρ c) (W32 m ρ c) hostOps6 Ws_hostOps6 hW_hostOps6 WF33 (keep33 m ρ c) 16 (of_decide_eq_true rfl) main_v163 main_v164 rfl shapeCasts_S1x600000_S600000 (by exact ⟨by decide, rfl⟩) (by exact ⟨by decide, rfl⟩) rfl (by decide) (by decide) (by decide) (by decide)
theorem cst_49 (c : Dev nD) : W42 m ρ c (Proc.devRef .tc main_cst_49) = (constant S_ .f32 0x3F800000#32) :=
  fin_nullary (W42 m ρ c) (W32 m ρ c) hostOps6 Ws_hostOps6 hW_hostOps6 WF33 (keep33 m ρ c) 17 (of_decide_eq_true rfl) main_cst_49 (constant S_ .f32 0x3F800000#32) (by exact ⟨by decide, rfl⟩) rfl (by decide) (by decide)
theorem v165 (c : Dev nD) : W42 m ρ c (Proc.devRef .tc main_v165) = (broadcastInDim S600000 ![] bcast_S_S600000 : (⟨S_, .f32⟩ : BufTy).Contents (Elt F) → (⟨S600000, .f32⟩ : BufTy).Contents (Elt F)) (W42 m ρ c (Proc.devRef .tc main_cst_49)) :=
  fin_unary (W42 m ρ c) (W32 m ρ c) hostOps6 Ws_hostOps6 hW_hostOps6 WF33 (keep33 m ρ c) 18 (of_decide_eq_true rfl) main_cst_49 main_v165 (broadcastInDim S600000 ![] bcast_S_S600000 : (⟨S_, .f32⟩ : BufTy).Contents (Elt F) → (⟨S600000, .f32⟩ : BufTy).Contents (Elt F)) (by exact ⟨by decide, rfl⟩) (by exact ⟨by decide, rfl⟩) rfl (by decide) (by decide) (by decide) (by decide)
theorem cst_50 (c : Dev nD) : W42 m ρ c (Proc.devRef .tc main_cst_50) = (constant S_ .f32 0x00000000#32) :=
  fin_nullary (W42 m ρ c) (W32 m ρ c) hostOps6 Ws_hostOps6 hW_hostOps6 WF33 (keep33 m ρ c) 19 (of_decide_eq_true rfl) main_cst_50 (constant S_ .f32 0x00000000#32) (by exact ⟨by decide, rfl⟩) rfl (by decide) (by decide)
theorem v166 (c : Dev nD) : W42 m ρ c (Proc.devRef .tc main_v166) = (broadcastInDim S100000 ![] bcast_S_S100000 : (⟨S_, .f32⟩ : BufTy).Contents (Elt F) → (⟨S100000, .f32⟩ : BufTy).Contents (Elt F)) (W42 m ρ c (Proc.devRef .tc main_cst_50)) :=
  fin_unary (W42 m ρ c) (W32 m ρ c) hostOps6 Ws_hostOps6 hW_hostOps6 WF33 (keep33 m ρ c) 20 (of_decide_eq_true rfl) main_cst_50 main_v166 (broadcastInDim S100000 ![] bcast_S_S100000 : (⟨S_, .f32⟩ : BufTy).Contents (Elt F) → (⟨S100000, .f32⟩ : BufTy).Contents (Elt F)) (by exact ⟨by decide, rfl⟩) (by exact ⟨by decide, rfl⟩) rfl (by decide) (by decide) (by decide) (by decide)
theorem v167 (c : Dev nD) : W42 m ρ c (Proc.devRef .tc main_v167) = (broadcastInDim S600000x1 ![0] bcast_S600000_S600000x1_0 : (⟨S600000, .i32⟩ : BufTy).Contents (Elt F) → (⟨S600000x1, .i32⟩ : BufTy).Contents (Elt F)) (W42 m ρ c (Proc.devRef .tc main_v162)) :=
  fin_unary (W42 m ρ c) (W32 m ρ c) hostOps6 Ws_hostOps6 hW_hostOps6 WF33 (keep33 m ρ c) 21 (of_decide_eq_true rfl) main_v162 main_v167 (broadcastInDim S600000x1 ![0] bcast_S600000_S600000x1_0 : (⟨S600000, .i32⟩ : BufTy).Contents (Elt F) → (⟨S600000x1, .i32⟩ : BufTy).Contents (Elt F)) (by exact ⟨by decide, rfl⟩) (by exact ⟨by decide, rfl⟩) rfl (by decide) (by decide) (by decide) (by decide)
theorem v168 (c : Dev nD) : W42 m ρ c (Proc.devRef .tc main_v168) = ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)) (W42 m ρ c (Proc.devRef .tc main_v166)) (W42 m ρ c (Proc.devRef .tc main_v167)) (W42 m ρ c (Proc.devRef .tc main_v165)) :=
  fin_ternary (W42 m ρ c) (W32 m ρ c) hostOps6 Ws_hostOps6 hW_hostOps6 WF33 (keep33 m ρ c) 22 (of_decide_eq_true rfl) main_v166 main_v167 main_v165 main_v168 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)) (by exact ⟨by decide, rfl⟩) (by exact ⟨by decide, rfl⟩) (by exact ⟨by decide, rfl⟩) (by exact ⟨by decide, rfl⟩) rfl (by decide) (by decide) (by decide) (by decide) (by decide) (by decide) (by decide) (by decide)
theorem cst_51 (c : Dev nD) : W42 m ρ c (Proc.devRef .tc main_cst_51) = (constant S_ .f32 0x3F800000#32) :=
  fin_nullary (W42 m ρ c) (W32 m ρ c) hostOps6 Ws_hostOps6 hW_hostOps6 WF33 (keep33 m ρ c) 23 (of_decide_eq_true rfl) main_cst_51 (constant S_ .f32 0x3F800000#32) (by exact ⟨by decide, rfl⟩) rfl (by decide) (by decide)
theorem call10_v0 (c : Dev nD) : W42 m ρ c (Proc.devRef .tc main_call10_v0) = W42 m ρ c (Proc.devRef .tc main_cst_51) :=
  fin_unary (W42 m ρ c) (W33 m ρ c) hostOps6_1 Ws_hostOps6_1 hW_hostOps6_1 WF34 (keep34 m ρ c) 0 (of_decide_eq_true rfl) main_cst_51 main_call10_v0 (fun u => u) (by exact ⟨by decide, rfl⟩) (by exact ⟨by decide, rfl⟩) rfl (by decide) (by decide) (by decide) (by decide)
theorem call10_v1 (c : Dev nD) : W42 m ρ c (Proc.devRef .tc main_call10_v1) = (broadcastInDim S100000 ![] bcast_S_S100000) (W42 m ρ c (Proc.devRef .tc main_call10_v0)) :=
  fin_unary (W42 m ρ c) (W33 m ρ c) hostOps6_1 Ws_hostOps6_1 hW_hostOps6_1 WF34 (keep34 m ρ c) 1 (of_decide_eq_true rfl) main_call10_v0 main_call10_v1 _ (by exact ⟨by decide, rfl⟩) (by exact ⟨by decide, rfl⟩) rfl (by decide) (by decide) (by decide) (by decide)
theorem v169 (c : Dev nD) : W42 m ρ c (Proc.devRef .tc main_v169) = maximumf (W42 m ρ c (Proc.devRef .tc main_call10_v1)) (W42 m ρ c (Proc.devRef .tc main_v168)) :=
  fin_binary (W42 m ρ c) (W33 m ρ c) hostOps6_1 Ws_hostOps6_1 hW_hostOps6_1 WF34 (keep34 m ρ c) 2 (of_decide_eq_true rfl) main_call10_v1 main_v168 main_v169 _ (by exact ⟨by decide, rfl⟩) (by exact ⟨by decide, rfl⟩) (by exact ⟨by decide, rfl⟩) rfl (by decide) (by decide) (by decide) (by decide) (by decide) (by decide)
theorem cst_52 (c : Dev nD) : W42 m ρ c (Proc.devRef .tc main_cst_52) = (constant S_ .f32 0x00000000#32) :=
  fin_nullary (W42 m ρ c) (W34 m ρ c) hostOps6_2 Ws_hostOps6_2 hW_hostOps6_2 WF35 (keep35 m ρ c) 0 (of_decide_eq_true rfl) main_cst_52 (constant S_ .f32 0x00000000#32) (by exact ⟨by decide, rfl⟩) rfl (by decide) (by decide)
theorem v170 (c : Dev nD) : W42 m ρ c (Proc.devRef .tc main_v170) = (broadcastInDim S100000 ![] bcast_S_S100000 : (⟨S_, .f32⟩ : BufTy).Contents (Elt F) → (⟨S100000, .f32⟩ : BufTy).Contents (Elt F)) (W42 m ρ c (Proc.devRef .tc main_cst_52)) :=
  fin_unary (W42 m ρ c) (W34 m ρ c) hostOps6_2 Ws_hostOps6_2 hW_hostOps6_2 WF35 (keep35 m ρ c) 1 (of_decide_eq_true rfl) main_cst_52 main_v170 (broadcastInDim S100000 ![] bcast_S_S100000 : (⟨S_, .f32⟩ : BufTy).Contents (Elt F) → (⟨S100000, .f32⟩ : BufTy).Contents (Elt F)) (by exact ⟨by decide, rfl⟩) (by exact ⟨by decide, rfl⟩) rfl (by decide) (by decide) (by decide) (by decide)
theorem v171 (c : Dev nD) : W42 m ρ c (Proc.devRef .tc main_v171) = (broadcastInDim S600000x1 ![0] bcast_S600000_S600000x1_0 : (⟨S600000, .i32⟩ : BufTy).Contents (Elt F) → (⟨S600000x1, .i32⟩ : BufTy).Contents (Elt F)) (W42 m ρ c (Proc.devRef .tc main_v164)) :=
  fin_unary (W42 m ρ c) (W34 m ρ c) hostOps6_2 Ws_hostOps6_2 hW_hostOps6_2 WF35 (keep35 m ρ c) 2 (of_decide_eq_true rfl) main_v164 main_v171 (broadcastInDim S600000x1 ![0] bcast_S600000_S600000x1_0 : (⟨S600000, .i32⟩ : BufTy).Contents (Elt F) → (⟨S600000x1, .i32⟩ : BufTy).Contents (Elt F)) (by exact ⟨by decide, rfl⟩) (by exact ⟨by decide, rfl⟩) rfl (by decide) (by decide) (by decide) (by decide)
theorem v172 (c : Dev nD) : W42 m ρ c (Proc.devRef .tc main_v172) = ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)) (W42 m ρ c (Proc.devRef .tc main_v170)) (W42 m ρ c (Proc.devRef .tc main_v171)) (W42 m ρ c (Proc.devRef .tc main_v165)) :=
  fin_ternary (W42 m ρ c) (W34 m ρ c) hostOps6_2 Ws_hostOps6_2 hW_hostOps6_2 WF35 (keep35 m ρ c) 3 (of_decide_eq_true rfl) main_v170 main_v171 main_v165 main_v172 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)) (by exact ⟨by decide, rfl⟩) (by exact ⟨by decide, rfl⟩) (by exact ⟨by decide, rfl⟩) (by exact ⟨by decide, rfl⟩) rfl (by decide) (by decide) (by decide) (by decide) (by decide) (by decide) (by decide) (by decide)
theorem cst_53 (c : Dev nD) : W42 m ρ c (Proc.devRef .tc main_cst_53) = (constant S_ .f32 0x3F800000#32) :=
  fin_nullary (W42 m ρ c) (W34 m ρ c) hostOps6_2 Ws_hostOps6_2 hW_hostOps6_2 WF35 (keep35 m ρ c) 4 (of_decide_eq_true rfl) main_cst_53 (constant S_ .f32 0x3F800000#32) (by exact ⟨by decide, rfl⟩) rfl (by decide) (by decide)
theorem call11_v0 (c : Dev nD) : W42 m ρ c (Proc.devRef .tc main_call11_v0) = W42 m ρ c (Proc.devRef .tc main_cst_53) :=
  fin_unary (W42 m ρ c) (W35 m ρ c) hostOps6_3 Ws_hostOps6_3 hW_hostOps6_3 WF36 (keep36 m ρ c) 0 (of_decide_eq_true rfl) main_cst_53 main_call11_v0 (fun u => u) (by exact ⟨by decide, rfl⟩) (by exact ⟨by decide, rfl⟩) rfl (by decide) (by decide) (by decide) (by decide)
theorem call11_v1 (c : Dev nD) : W42 m ρ c (Proc.devRef .tc main_call11_v1) = (broadcastInDim S100000 ![] bcast_S_S100000) (W42 m ρ c (Proc.devRef .tc main_call11_v0)) :=
  fin_unary (W42 m ρ c) (W35 m ρ c) hostOps6_3 Ws_hostOps6_3 hW_hostOps6_3 WF36 (keep36 m ρ c) 1 (of_decide_eq_true rfl) main_call11_v0 main_call11_v1 _ (by exact ⟨by decide, rfl⟩) (by exact ⟨by decide, rfl⟩) rfl (by decide) (by decide) (by decide) (by decide)
theorem v173 (c : Dev nD) : W42 m ρ c (Proc.devRef .tc main_v173) = maximumf (W42 m ρ c (Proc.devRef .tc main_call11_v1)) (W42 m ρ c (Proc.devRef .tc main_v172)) :=
  fin_binary (W42 m ρ c) (W35 m ρ c) hostOps6_3 Ws_hostOps6_3 hW_hostOps6_3 WF36 (keep36 m ρ c) 2 (of_decide_eq_true rfl) main_call11_v1 main_v172 main_v173 _ (by exact ⟨by decide, rfl⟩) (by exact ⟨by decide, rfl⟩) (by exact ⟨by decide, rfl⟩) rfl (by decide) (by decide) (by decide) (by decide) (by decide) (by decide)
theorem cst_54 (c : Dev nD) : W42 m ρ c (Proc.devRef .tc main_cst_54) = (constant S_ .f32 0xBF000000#32) :=
  fin_nullary (W42 m ρ c) (W36 m ρ c) hostOps6_4 Ws_hostOps6_4 hW_hostOps6_4 WF37 (keep37 m ρ c) 0 (of_decide_eq_true rfl) main_cst_54 (constant S_ .f32 0xBF000000#32) (by exact ⟨by decide, rfl⟩) rfl (by decide) (by decide)
theorem v174 (c : Dev nD) : W42 m ρ c (Proc.devRef .tc main_v174) = (broadcastInDim S100000 ![] bcast_S_S100000 : (⟨S_, .f32⟩ : BufTy).Contents (Elt F) → (⟨S100000, .f32⟩ : BufTy).Contents (Elt F)) (W42 m ρ c (Proc.devRef .tc main_cst_54)) :=
  fin_unary (W42 m ρ c) (W36 m ρ c) hostOps6_4 Ws_hostOps6_4 hW_hostOps6_4 WF37 (keep37 m ρ c) 1 (of_decide_eq_true rfl) main_cst_54 main_v174 (broadcastInDim S100000 ![] bcast_S_S100000 : (⟨S_, .f32⟩ : BufTy).Contents (Elt F) → (⟨S100000, .f32⟩ : BufTy).Contents (Elt F)) (by exact ⟨by decide, rfl⟩) (by exact ⟨by decide, rfl⟩) rfl (by decide) (by decide) (by decide) (by decide)
theorem v175 (c : Dev nD) : W42 m ρ c (Proc.devRef .tc main_v175) = (Host.powf : (⟨S100000, .f32⟩ : BufTy).Contents (Elt F) → (⟨S100000, .f32⟩ : BufTy).Contents (Elt F) → (⟨S100000, .f32⟩ : BufTy).Contents (Elt F)) (W42 m ρ c (Proc.devRef .tc main_v169)) (W42 m ρ c (Proc.devRef .tc main_v174)) :=
  fin_binary (W42 m ρ c) (W36 m ρ c) hostOps6_4 Ws_hostOps6_4 hW_hostOps6_4 WF37 (keep37 m ρ c) 2 (of_decide_eq_true rfl) main_v169 main_v174 main_v175 (Host.powf : (⟨S100000, .f32⟩ : BufTy).Contents (Elt F) → (⟨S100000, .f32⟩ : BufTy).Contents (Elt F) → (⟨S100000, .f32⟩ : BufTy).Contents (Elt F)) (by exact ⟨by decide, rfl⟩) (by exact ⟨by decide, rfl⟩) (by exact ⟨by decide, rfl⟩) rfl (by decide) (by decide) (by decide) (by decide) (by decide) (by decide)
theorem cst_55 (c : Dev nD) : W42 m ρ c (Proc.devRef .tc main_cst_55) = (constant S_ .f32 0xBF000000#32) :=
  fin_nullary (W42 m ρ c) (W36 m ρ c) hostOps6_4 Ws_hostOps6_4 hW_hostOps6_4 WF37 (keep37 m ρ c) 3 (of_decide_eq_true rfl) main_cst_55 (constant S_ .f32 0xBF000000#32) (by exact ⟨by decide, rfl⟩) rfl (by decide) (by decide)
theorem v176 (c : Dev nD) : W42 m ρ c (Proc.devRef .tc main_v176) = (broadcastInDim S100000 ![] bcast_S_S100000 : (⟨S_, .f32⟩ : BufTy).Contents (Elt F) → (⟨S100000, .f32⟩ : BufTy).Contents (Elt F)) (W42 m ρ c (Proc.devRef .tc main_cst_55)) :=
  fin_unary (W42 m ρ c) (W36 m ρ c) hostOps6_4 Ws_hostOps6_4 hW_hostOps6_4 WF37 (keep37 m ρ c) 4 (of_decide_eq_true rfl) main_cst_55 main_v176 (broadcastInDim S100000 ![] bcast_S_S100000 : (⟨S_, .f32⟩ : BufTy).Contents (Elt F) → (⟨S100000, .f32⟩ : BufTy).Contents (Elt F)) (by exact ⟨by decide, rfl⟩) (by exact ⟨by decide, rfl⟩) rfl (by decide) (by decide) (by decide) (by decide)
theorem v177 (c : Dev nD) : W42 m ρ c (Proc.devRef .tc main_v177) = (Host.powf : (⟨S100000, .f32⟩ : BufTy).Contents (Elt F) → (⟨S100000, .f32⟩ : BufTy).Contents (Elt F) → (⟨S100000, .f32⟩ : BufTy).Contents (Elt F)) (W42 m ρ c (Proc.devRef .tc main_v173)) (W42 m ρ c (Proc.devRef .tc main_v176)) :=
  fin_binary (W42 m ρ c) (W36 m ρ c) hostOps6_4 Ws_hostOps6_4 hW_hostOps6_4 WF37 (keep37 m ρ c) 5 (of_decide_eq_true rfl) main_v173 main_v176 main_v177 (Host.powf : (⟨S100000, .f32⟩ : BufTy).Contents (Elt F) → (⟨S100000, .f32⟩ : BufTy).Contents (Elt F) → (⟨S100000, .f32⟩ : BufTy).Contents (Elt F)) (by exact ⟨by decide, rfl⟩) (by exact ⟨by decide, rfl⟩) (by exact ⟨by decide, rfl⟩) rfl (by decide) (by decide) (by decide) (by decide) (by decide) (by decide)
theorem v178 (c : Dev nD) : W42 m ρ c (Proc.devRef .tc main_v178) = extractStridedSlice S1x128x128 ![2, 0, 0] (W42 m ρ c (Proc.devRef .tc main_arg5)) slices_S3x128x128_S1x128x128_2_0_0 := by
  have hop : (hostOps6_4 (F := F))[6]'(of_decide_eq_true rfl) = StableHlo.unary main_arg5 main_v178 (fun x => extractStridedSlice S1x128x128 ![2, 0, 0] x slices_S3x128x128_S1x128x128_2_0_0) := rfl
  have h := fin_unary (W42 m ρ c) (W36 m ρ c) hostOps6_4 Ws_hostOps6_4 hW_hostOps6_4 WF37 (keep37 m ρ c) 6 (of_decide_eq_true rfl) main_arg5 main_v178 _ _ _ hop (by decide) (by decide) (by decide) (by decide)
  exact h
theorem v179 (c : Dev nD) : W42 m ρ c (Proc.devRef .tc main_v179) = shapeCast _ (W42 m ρ c (Proc.devRef .tc main_v178)) shapeCasts_S1x128x128_S128x128 :=
  fin_reshape (W42 m ρ c) (W36 m ρ c) hostOps6_4 Ws_hostOps6_4 hW_hostOps6_4 WF37 (keep37 m ρ c) 7 (of_decide_eq_true rfl) main_v178 main_v179 rfl shapeCasts_S1x128x128_S128x128 (by exact ⟨by decide, rfl⟩) (by exact ⟨by decide, rfl⟩) rfl (by decide) (by decide) (by decide) (by decide)
theorem v180 (c : Dev nD) : W42 m ρ c (Proc.devRef .tc main_v180) = shapeCast _ (W42 m ρ c (Proc.devRef .tc main_v175)) shapeCasts_S100000_S100000x1 :=
  fin_reshape (W42 m ρ c) (W36 m ρ c) hostOps6_4 Ws_hostOps6_4 hW_hostOps6_4 WF37 (keep37 m ρ c) 8 (of_decide_eq_true rfl) main_v175 main_v180 rfl shapeCasts_S100000_S100000x1 (by exact ⟨by decide, rfl⟩) (by exact ⟨by decide, rfl⟩) rfl (by decide) (by decide) (by decide) (by decide)
theorem c_56 (c : Dev nD) : W42 m ρ c (Proc.devRef .tc main_c_56) = (constantI S_ 32 0#32) :=
  fin_nullary (W42 m ρ c) (W38 m ρ c) hostOps7 Ws_hostOps7 hW_hostOps7 WF39 (keep39 m ρ c) 0 (of_decide_eq_true rfl) main_c_56 (constantI S_ 32 0#32) (by exact ⟨by decide, rfl⟩) rfl (by decide) (by decide)
theorem v182 (c : Dev nD) : W42 m ρ c (Proc.devRef .tc main_v182) = (broadcastInDim S600000 ![] bcast_S_S600000 : (⟨S_, .i32⟩ : BufTy).Contents (Elt F) → (⟨S600000, .i32⟩ : BufTy).Contents (Elt F)) (W42 m ρ c (Proc.devRef .tc main_c_56)) :=
  fin_unary (W42 m ρ c) (W38 m ρ c) hostOps7 Ws_hostOps7 hW_hostOps7 WF39 (keep39 m ρ c) 1 (of_decide_eq_true rfl) main_c_56 main_v182 (broadcastInDim S600000 ![] bcast_S_S600000 : (⟨S_, .i32⟩ : BufTy).Contents (Elt F) → (⟨S600000, .i32⟩ : BufTy).Contents (Elt F)) (by exact ⟨by decide, rfl⟩) (by exact ⟨by decide, rfl⟩) rfl (by decide) (by decide) (by decide) (by decide)
theorem v183 (c : Dev nD) : W42 m ρ c (Proc.devRef .tc main_v183) = (cmpi .slt : (⟨S600000, .i32⟩ : BufTy).Contents (Elt F) → (⟨S600000, .i32⟩ : BufTy).Contents (Elt F) → (⟨S600000, .i1⟩ : BufTy).Contents (Elt F)) (W42 m ρ c (Proc.devRef .tc main_v162)) (W42 m ρ c (Proc.devRef .tc main_v182)) :=
  fin_binary (W42 m ρ c) (W38 m ρ c) hostOps7 Ws_hostOps7 hW_hostOps7 WF39 (keep39 m ρ c) 2 (of_decide_eq_true rfl) main_v162 main_v182 main_v183 (cmpi .slt : (⟨S600000, .i32⟩ : BufTy).Contents (Elt F) → (⟨S600000, .i32⟩ : BufTy).Contents (Elt F) → (⟨S600000, .i1⟩ : BufTy).Contents (Elt F)) (by exact ⟨by decide, rfl⟩) (by exact ⟨by decide, rfl⟩) (by exact ⟨by decide, rfl⟩) rfl (by decide) (by decide) (by decide) (by decide) (by decide) (by decide)
theorem c_57 (c : Dev nD) : W42 m ρ c (Proc.devRef .tc main_c_57) = (constantI S_ 32 100000#32) :=
  fin_nullary (W42 m ρ c) (W38 m ρ c) hostOps7 Ws_hostOps7 hW_hostOps7 WF39 (keep39 m ρ c) 3 (of_decide_eq_true rfl) main_c_57 (constantI S_ 32 100000#32) (by exact ⟨by decide, rfl⟩) rfl (by decide) (by decide)
theorem v184 (c : Dev nD) : W42 m ρ c (Proc.devRef .tc main_v184) = (broadcastInDim S600000 ![] bcast_S_S600000 : (⟨S_, .i32⟩ : BufTy).Contents (Elt F) → (⟨S600000, .i32⟩ : BufTy).Contents (Elt F)) (W42 m ρ c (Proc.devRef .tc main_c_57)) :=
  fin_unary (W42 m ρ c) (W38 m ρ c) hostOps7 Ws_hostOps7 hW_hostOps7 WF39 (keep39 m ρ c) 4 (of_decide_eq_true rfl) main_c_57 main_v184 (broadcastInDim S600000 ![] bcast_S_S600000 : (⟨S_, .i32⟩ : BufTy).Contents (Elt F) → (⟨S600000, .i32⟩ : BufTy).Contents (Elt F)) (by exact ⟨by decide, rfl⟩) (by exact ⟨by decide, rfl⟩) rfl (by decide) (by decide) (by decide) (by decide)
theorem v185 (c : Dev nD) : W42 m ρ c (Proc.devRef .tc main_v185) = (addi : (⟨S600000, .i32⟩ : BufTy).Contents (Elt F) → (⟨S600000, .i32⟩ : BufTy).Contents (Elt F) → (⟨S600000, .i32⟩ : BufTy).Contents (Elt F)) (W42 m ρ c (Proc.devRef .tc main_v162)) (W42 m ρ c (Proc.devRef .tc main_v184)) :=
  fin_binary (W42 m ρ c) (W38 m ρ c) hostOps7 Ws_hostOps7 hW_hostOps7 WF39 (keep39 m ρ c) 5 (of_decide_eq_true rfl) main_v162 main_v184 main_v185 (addi : (⟨S600000, .i32⟩ : BufTy).Contents (Elt F) → (⟨S600000, .i32⟩ : BufTy).Contents (Elt F) → (⟨S600000, .i32⟩ : BufTy).Contents (Elt F)) (by exact ⟨by decide, rfl⟩) (by exact ⟨by decide, rfl⟩) (by exact ⟨by decide, rfl⟩) rfl (by decide) (by decide) (by decide) (by decide) (by decide) (by decide)
theorem v186 (c : Dev nD) : W42 m ρ c (Proc.devRef .tc main_v186) = (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) (W42 m ρ c (Proc.devRef .tc main_v183)) (W42 m ρ c (Proc.devRef .tc main_v185)) (W42 m ρ c (Proc.devRef .tc main_v162)) :=
  fin_ternary (W42 m ρ c) (W38 m ρ c) hostOps7 Ws_hostOps7 hW_hostOps7 WF39 (keep39 m ρ c) 6 (of_decide_eq_true rfl) main_v183 main_v185 main_v162 main_v186 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)) (by exact ⟨by decide, rfl⟩) (by exact ⟨by decide, rfl⟩) (by exact ⟨by decide, rfl⟩) (by exact ⟨by decide, rfl⟩) rfl (by decide) (by decide) (by decide) (by decide) (by decide) (by decide) (by decide) (by decide)
theorem v187 (c : Dev nD) : W42 m ρ c (Proc.devRef .tc main_v187) = (broadcastInDim S600000x1 ![0] bcast_S600000_S600000x1_0 : (⟨S600000, .i32⟩ : BufTy).Contents (Elt F) → (⟨S600000x1, .i32⟩ : BufTy).Contents (Elt F)) (W42 m ρ c (Proc.devRef .tc main_v186)) :=
  fin_unary (W42 m ρ c) (W38 m ρ c) hostOps7 Ws_hostOps7 hW_hostOps7 WF39 (keep39 m ρ c) 7 (of_decide_eq_true rfl) main_v186 main_v187 (broadcastInDim S600000x1 ![0] bcast_S600000_S600000x1_0 : (⟨S600000, .i32⟩ : BufTy).Contents (Elt F) → (⟨S600000x1, .i32⟩ : BufTy).Contents (Elt F)) (by exact ⟨by decide, rfl⟩) (by exact ⟨by decide, rfl⟩) rfl (by decide) (by decide) (by decide) (by decide)
theorem v188 (c : Dev nD) : W42 m ρ c (Proc.devRef .tc main_v188) = ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)) (W42 m ρ c (Proc.devRef .tc main_v181)) (W42 m ρ c (Proc.devRef .tc main_v187)) :=
  fin_binary (W42 m ρ c) (W38 m ρ c) hostOps7 Ws_hostOps7 hW_hostOps7 WF39 (keep39 m ρ c) 8 (of_decide_eq_true rfl) main_v181 main_v187 main_v188 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)) (by exact ⟨by decide, rfl⟩) (by exact ⟨by decide, rfl⟩) (by exact ⟨by decide, rfl⟩) rfl (by decide) (by decide) (by decide) (by decide) (by decide) (by decide)
theorem cst_58 (c : Dev nD) : W42 m ρ c (Proc.devRef .tc main_cst_58) = (constant S_ .f32 0x00000000#32) :=
  fin_nullary (W42 m ρ c) (W38 m ρ c) hostOps7 Ws_hostOps7 hW_hostOps7 WF39 (keep39 m ρ c) 9 (of_decide_eq_true rfl) main_cst_58 (constant S_ .f32 0x00000000#32) (by exact ⟨by decide, rfl⟩) rfl (by decide) (by decide)
theorem v189 (c : Dev nD) : W42 m ρ c (Proc.devRef .tc main_v189) = (broadcastInDim S100000x128 ![] bcast_S_S100000x128 : (⟨S_, .f32⟩ : BufTy).Contents (Elt F) → (⟨S100000x128, .f32⟩ : BufTy).Contents (Elt F)) (W42 m ρ c (Proc.devRef .tc main_cst_58)) :=
  fin_unary (W42 m ρ c) (W38 m ρ c) hostOps7 Ws_hostOps7 hW_hostOps7 WF39 (keep39 m ρ c) 10 (of_decide_eq_true rfl) main_cst_58 main_v189 (broadcastInDim S100000x128 ![] bcast_S_S100000x128 : (⟨S_, .f32⟩ : BufTy).Contents (Elt F) → (⟨S100000x128, .f32⟩ : BufTy).Contents (Elt F)) (by exact ⟨by decide, rfl⟩) (by exact ⟨by decide, rfl⟩) rfl (by decide) (by decide) (by decide) (by decide)
theorem v190 (c : Dev nD) : W42 m ρ c (Proc.devRef .tc main_v190) = (broadcastInDim S600000x1 ![0] bcast_S600000_S600000x1_0 : (⟨S600000, .i32⟩ : BufTy).Contents (Elt F) → (⟨S600000x1, .i32⟩ : BufTy).Contents (Elt F)) (W42 m ρ c (Proc.devRef .tc main_v164)) :=
  fin_unary (W42 m ρ c) (W38 m ρ c) hostOps7 Ws_hostOps7 hW_hostOps7 WF39 (keep39 m ρ c) 11 (of_decide_eq_true rfl) main_v164 main_v190 (broadcastInDim S600000x1 ![0] bcast_S600000_S600000x1_0 : (⟨S600000, .i32⟩ : BufTy).Contents (Elt F) → (⟨S600000x1, .i32⟩ : BufTy).Contents (Elt F)) (by exact ⟨by decide, rfl⟩) (by exact ⟨by decide, rfl⟩) rfl (by decide) (by decide) (by decide) (by decide)
theorem v191 (c : Dev nD) : W42 m ρ c (Proc.devRef .tc main_v191) = ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)) (W42 m ρ c (Proc.devRef .tc main_v189)) (W42 m ρ c (Proc.devRef .tc main_v190)) (W42 m ρ c (Proc.devRef .tc main_v188)) :=
  fin_ternary (W42 m ρ c) (W38 m ρ c) hostOps7 Ws_hostOps7 hW_hostOps7 WF39 (keep39 m ρ c) 12 (of_decide_eq_true rfl) main_v189 main_v190 main_v188 main_v191 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)) (by exact ⟨by decide, rfl⟩) (by exact ⟨by decide, rfl⟩) (by exact ⟨by decide, rfl⟩) (by exact ⟨by decide, rfl⟩) rfl (by decide) (by decide) (by decide) (by decide) (by decide) (by decide) (by decide) (by decide)
theorem cst_59 (c : Dev nD) : W42 m ρ c (Proc.devRef .tc main_cst_59) = (constant S_ .f32 0x00000000#32) :=
  fin_nullary (W42 m ρ c) (W38 m ρ c) hostOps7 Ws_hostOps7 hW_hostOps7 WF39 (keep39 m ρ c) 13 (of_decide_eq_true rfl) main_cst_59 (constant S_ .f32 0x00000000#32) (by exact ⟨by decide, rfl⟩) rfl (by decide) (by decide)
theorem v192 (c : Dev nD) : W42 m ρ c (Proc.devRef .tc main_v192) = ((fun x v => Host.reduceAdd x v reducesTo_S3x128_S128_d0 h_S_) : (⟨S3x128, .f32⟩ : BufTy).Contents (Elt F) → (⟨S_, .f32⟩ : BufTy).Contents (Elt F) → (⟨S128, .f32⟩ : BufTy).Contents (Elt F)) (W42 m ρ c (Proc.devRef .tc main_arg6)) (W42 m ρ c (Proc.devRef .tc main_cst_59)) :=
  fin_binary (W42 m ρ c) (W38 m ρ c) hostOps7 Ws_hostOps7 hW_hostOps7 WF39 (keep39 m ρ c) 14 (of_decide_eq_true rfl) main_arg6 main_cst_59 main_v192 ((fun x v => Host.reduceAdd x v reducesTo_S3x128_S128_d0 h_S_) : (⟨S3x128, .f32⟩ : BufTy).Contents (Elt F) → (⟨S_, .f32⟩ : BufTy).Contents (Elt F) → (⟨S128, .f32⟩ : BufTy).Contents (Elt F)) (by exact ⟨by decide, rfl⟩) (by exact ⟨by decide, rfl⟩) (by exact ⟨by decide, rfl⟩) rfl (by decide) (by decide) (by decide) (by decide) (by decide) (by decide)
theorem v193 (c : Dev nD) : W42 m ρ c (Proc.devRef .tc main_v193) = shapeCast _ (W42 m ρ c (Proc.devRef .tc main_v192)) shapeCasts_S128_S1x128 :=
  fin_reshape (W42 m ρ c) (W38 m ρ c) hostOps7 Ws_hostOps7 hW_hostOps7 WF39 (keep39 m ρ c) 15 (of_decide_eq_true rfl) main_v192 main_v193 rfl shapeCasts_S128_S1x128 (by exact ⟨by decide, rfl⟩) (by exact ⟨by decide, rfl⟩) rfl (by decide) (by decide) (by decide) (by decide)
theorem v194 (c : Dev nD) : W42 m ρ c (Proc.devRef .tc main_v194) = shapeCast _ (W42 m ρ c (Proc.devRef .tc main_v115)) shapeCasts_S100000_S100000x1 :=
  fin_reshape (W42 m ρ c) (W38 m ρ c) hostOps7 Ws_hostOps7 hW_hostOps7 WF39 (keep39 m ρ c) 16 (of_decide_eq_true rfl) main_v115 main_v194 rfl shapeCasts_S100000_S100000x1 (by exact ⟨by decide, rfl⟩) (by exact ⟨by decide, rfl⟩) rfl (by decide) (by decide) (by decide) (by decide)
theorem v195 (c : Dev nD) : W42 m ρ c (Proc.devRef .tc main_v195) = shapeCast _ (W42 m ρ c (Proc.devRef .tc main_v146)) shapeCasts_S100000_S100000x1 :=
  fin_reshape (W42 m ρ c) (W38 m ρ c) hostOps7 Ws_hostOps7 hW_hostOps7 WF39 (keep39 m ρ c) 17 (of_decide_eq_true rfl) main_v146 main_v195 rfl shapeCasts_S100000_S100000x1 (by exact ⟨by decide, rfl⟩) (by exact ⟨by decide, rfl⟩) rfl (by decide) (by decide) (by decide) (by decide)
theorem v196 (c : Dev nD) : W42 m ρ c (Proc.devRef .tc main_v196) = shapeCast _ (W42 m ρ c (Proc.devRef .tc main_v177)) shapeCasts_S100000_S100000x1 :=
  fin_reshape (W42 m ρ c) (W38 m ρ c) hostOps7 Ws_hostOps7 hW_hostOps7 WF39 (keep39 m ρ c) 18 (of_decide_eq_true rfl) main_v177 main_v196 rfl shapeCasts_S100000_S100000x1 (by exact ⟨by decide, rfl⟩) (by exact ⟨by decide, rfl⟩) rfl (by decide) (by decide) (by decide) (by decide)

end Cert.KernelIdeal.Rd

end
-- ==== Proof.KernelReads4.lean ====
/-
  The idealized kernel program's host operations read at the last boundary's contents Z: each operation's result buffer holds
  the operation's function of what its operand buffers hold there (every buffer is written once, operands before results).  Part 4.
-/
import proofs.«124848_j55800215109809_1_alg».proof.Proof.KernelChain
import proofs.«124848_j55800215109809_1_alg».proof.Proof.LibAfterLater

set_option maxRecDepth 16384

noncomputable section

namespace Cert.KernelIdeal.Rd

open Cert.KernelIdeal Cert.KernelIdeal.Gen Cert.KernelIdeal.Chain Cert.LibAfter
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

theorem v198 (c : Dev nD) : W42 m ρ c (Proc.devRef .tc main_v198) = shapeCast _ (W42 m ρ c (Proc.devRef .tc main_arg8)) shapeCasts_S16_S1x16 :=
  fin_reshape (W42 m ρ c) (W40 m ρ c) hostOps8 Ws_hostOps8 hW_hostOps8 WF41 (keep41 m ρ c) 0 (of_decide_eq_true rfl) main_arg8 main_v198 rfl shapeCasts_S16_S1x16 (by exact ⟨by decide, rfl⟩) (by exact ⟨by decide, rfl⟩) rfl (by decide) (by decide) (by decide) (by decide)

end Cert.KernelIdeal.Rd

end
-- ==== Proof.RefReads0.lean ====
/-
  The reference program in single-assignment form, read at the end of its run: the operations of window 0.
  Each equation says that a buffer's final contents are its operation's function of its operands' final contents.
-/
import proofs.«124848_j55800215109809_1_alg».proof.Proof.RefOps
import proofs.«124848_j55800215109809_1_alg».proof.Proof.LibAfterRead

noncomputable section

namespace Cert.ReferenceIdeal.Rd

open Cert.ReferenceIdeal Cert.ReferenceIdeal.Gen Idealize.ShloMosaic Idealize.ShloMosaic.TcCoe Idealize.SL.Sem Idealize.ShloMosaic.StableHlo

variable {F : FTy → Type} [FloatOps F]

theorem cst (V : Valuation τ sig (Elt F)) : Z V main_cst = constant S_ .f32 0x00000000#32 :=
  Cert.LibAfter.read_nullary Hand.ops Hand.Ws Hand.hWs 0 (Hand.lt_length (by decide)) V main_cst (constant S_ .f32 0x00000000#32) ⟨by decide, rfl⟩ rfl (by decide)

theorem v0 (V : Valuation τ sig (Elt F)) : Z V main_v0 = broadcastInDim S100000x128 ![] bcast_S_S100000x128 (Z V main_cst) :=
  Cert.LibAfter.read_unary Hand.ops Hand.Ws Hand.hWs 1 (Hand.lt_length (by decide)) V main_cst main_v0 (broadcastInDim S100000x128 ![] bcast_S_S100000x128) ⟨by decide, rfl⟩ ⟨by decide, rfl⟩ rfl (by decide) (by decide)

theorem v1 (V : Valuation τ sig (Elt F)) : Z V main_v1 = extractStridedSlice S1x600000 ![0, 0] (Z V main_arg1) slices_S3x600000_S1x600000_0_0 :=
  Cert.LibAfter.read_unary Hand.ops Hand.Ws Hand.hWs 2 (Hand.lt_length (by decide)) V main_arg1 main_v1 (fun u => extractStridedSlice S1x600000 ![0, 0] u slices_S3x600000_S1x600000_0_0) ⟨by decide, rfl⟩ ⟨by decide, rfl⟩ rfl (by decide) (by decide)

theorem v2 (V : Valuation τ sig (Elt F)) : Z V main_v2 = shapeCast S600000 (Z V main_v1) shapeCasts_S1x600000_S600000 :=
  Cert.LibAfter.read_reshape Hand.ops Hand.Ws Hand.hWs 3 (Hand.lt_length (by decide)) V main_v1 main_v2 rfl shapeCasts_S1x600000_S600000 ⟨by decide, rfl⟩ ⟨by decide, rfl⟩ rfl (by decide) (by decide)

theorem v3 (V : Valuation τ sig (Elt F)) : Z V main_v3 = extractStridedSlice S1x600000 ![0, 0] (Z V main_arg2) slices_S3x600000_S1x600000_0_0 :=
  Cert.LibAfter.read_unary Hand.ops Hand.Ws Hand.hWs 4 (Hand.lt_length (by decide)) V main_arg2 main_v3 (fun u => extractStridedSlice S1x600000 ![0, 0] u slices_S3x600000_S1x600000_0_0) ⟨by decide, rfl⟩ ⟨by decide, rfl⟩ rfl (by decide) (by decide)

theorem v4 (V : Valuation τ sig (Elt F)) : Z V main_v4 = shapeCast S600000 (Z V main_v3) shapeCasts_S1x600000_S600000 :=
  Cert.LibAfter.read_reshape Hand.ops Hand.Ws Hand.hWs 5 (Hand.lt_length (by decide)) V main_v3 main_v4 rfl shapeCasts_S1x600000_S600000 ⟨by decide, rfl⟩ ⟨by decide, rfl⟩ rfl (by decide) (by decide)

theorem cst_0 (V : Valuation τ sig (Elt F)) : Z V main_cst_0 = constant S_ .f32 0x3F800000#32 :=
  Cert.LibAfter.read_nullary Hand.ops Hand.Ws Hand.hWs 6 (Hand.lt_length (by decide)) V main_cst_0 (constant S_ .f32 0x3F800000#32) ⟨by decide, rfl⟩ rfl (by decide)

theorem v5 (V : Valuation τ sig (Elt F)) : Z V main_v5 = broadcastInDim S600000 ![] bcast_S_S600000 (Z V main_cst_0) :=
  Cert.LibAfter.read_unary Hand.ops Hand.Ws Hand.hWs 7 (Hand.lt_length (by decide)) V main_cst_0 main_v5 (broadcastInDim S600000 ![] bcast_S_S600000) ⟨by decide, rfl⟩ ⟨by decide, rfl⟩ rfl (by decide) (by decide)

theorem cst_1 (V : Valuation τ sig (Elt F)) : Z V main_cst_1 = constant S_ .f32 0x00000000#32 :=
  Cert.LibAfter.read_nullary Hand.ops Hand.Ws Hand.hWs 8 (Hand.lt_length (by decide)) V main_cst_1 (constant S_ .f32 0x00000000#32) ⟨by decide, rfl⟩ rfl (by decide)

theorem v6 (V : Valuation τ sig (Elt F)) : Z V main_v6 = broadcastInDim S100000 ![] bcast_S_S100000 (Z V main_cst_1) :=
  Cert.LibAfter.read_unary Hand.ops Hand.Ws Hand.hWs 9 (Hand.lt_length (by decide)) V main_cst_1 main_v6 (broadcastInDim S100000 ![] bcast_S_S100000) ⟨by decide, rfl⟩ ⟨by decide, rfl⟩ rfl (by decide) (by decide)

theorem v7 (V : Valuation τ sig (Elt F)) : Z V main_v7 = broadcastInDim S600000x1 ![0] bcast_S600000_S600000x1_0 (Z V main_v2) :=
  Cert.LibAfter.read_unary Hand.ops Hand.Ws Hand.hWs 10 (Hand.lt_length (by decide)) V main_v2 main_v7 (broadcastInDim S600000x1 ![0] bcast_S600000_S600000x1_0) ⟨by decide, rfl⟩ ⟨by decide, rfl⟩ rfl (by decide) (by decide)

theorem v8 (V : Valuation τ sig (Elt F)) : Z V main_v8 = Host.scatterAdd scatter_S100000_S600000x1_S600000_n_0_0_1 (Z V main_v6) (Z V main_v7) (Z V main_v5) :=
  Cert.LibAfter.read_ternary Hand.ops Hand.Ws Hand.hWs 11 (Hand.lt_length (by decide)) V main_v6 main_v7 main_v5 main_v8 (fun x i u => Host.scatterAdd scatter_S100000_S600000x1_S600000_n_0_0_1 x i u) ⟨by decide, rfl⟩ ⟨by decide, rfl⟩ ⟨by decide, rfl⟩ ⟨by decide, rfl⟩ rfl (by decide) (by decide) (by decide) (by decide)

theorem cst_2 (V : Valuation τ sig (Elt F)) : Z V main_cst_2 = constant S_ .f32 0x3F800000#32 :=
  Cert.LibAfter.read_nullary Hand.ops Hand.Ws Hand.hWs 12 (Hand.lt_length (by decide)) V main_cst_2 (constant S_ .f32 0x3F800000#32) ⟨by decide, rfl⟩ rfl (by decide)

theorem call0_v0 (V : Valuation τ sig (Elt F)) : Z V main_call0_v0 = Z V main_cst_2 :=
  Cert.LibAfter.read_unary Hand.ops Hand.Ws Hand.hWs 13 (Hand.lt_length (by decide)) V main_cst_2 main_call0_v0 (fun u => u) ⟨by decide, rfl⟩ ⟨by decide, rfl⟩ rfl (by decide) (by decide)

theorem call0_v1 (V : Valuation τ sig (Elt F)) : Z V main_call0_v1 = broadcastInDim S100000 ![] bcast_S_S100000 (Z V main_call0_v0) :=
  Cert.LibAfter.read_unary Hand.ops Hand.Ws Hand.hWs 14 (Hand.lt_length (by decide)) V main_call0_v0 main_call0_v1 (broadcastInDim S100000 ![] bcast_S_S100000) ⟨by decide, rfl⟩ ⟨by decide, rfl⟩ rfl (by decide) (by decide)

theorem v9 (V : Valuation τ sig (Elt F)) : Z V main_v9 = maximumf (Z V main_call0_v1) (Z V main_v8) :=
  Cert.LibAfter.read_binary Hand.ops Hand.Ws Hand.hWs 15 (Hand.lt_length (by decide)) V main_call0_v1 main_v8 main_v9 (maximumf) ⟨by decide, rfl⟩ ⟨by decide, rfl⟩ ⟨by decide, rfl⟩ rfl (by decide) (by decide) (by decide)

theorem cst_3 (V : Valuation τ sig (Elt F)) : Z V main_cst_3 = constant S_ .f32 0x00000000#32 :=
  Cert.LibAfter.read_nullary Hand.ops Hand.Ws Hand.hWs 16 (Hand.lt_length (by decide)) V main_cst_3 (constant S_ .f32 0x00000000#32) ⟨by decide, rfl⟩ rfl (by decide)

theorem v10 (V : Valuation τ sig (Elt F)) : Z V main_v10 = broadcastInDim S100000 ![] bcast_S_S100000 (Z V main_cst_3) :=
  Cert.LibAfter.read_unary Hand.ops Hand.Ws Hand.hWs 17 (Hand.lt_length (by decide)) V main_cst_3 main_v10 (broadcastInDim S100000 ![] bcast_S_S100000) ⟨by decide, rfl⟩ ⟨by decide, rfl⟩ rfl (by decide) (by decide)

theorem v11 (V : Valuation τ sig (Elt F)) : Z V main_v11 = broadcastInDim S600000x1 ![0] bcast_S600000_S600000x1_0 (Z V main_v4) :=
  Cert.LibAfter.read_unary Hand.ops Hand.Ws Hand.hWs 18 (Hand.lt_length (by decide)) V main_v4 main_v11 (broadcastInDim S600000x1 ![0] bcast_S600000_S600000x1_0) ⟨by decide, rfl⟩ ⟨by decide, rfl⟩ rfl (by decide) (by decide)

theorem v12 (V : Valuation τ sig (Elt F)) : Z V main_v12 = Host.scatterAdd scatter_S100000_S600000x1_S600000_n_0_0_1 (Z V main_v10) (Z V main_v11) (Z V main_v5) :=
  Cert.LibAfter.read_ternary Hand.ops Hand.Ws Hand.hWs 19 (Hand.lt_length (by decide)) V main_v10 main_v11 main_v5 main_v12 (fun x i u => Host.scatterAdd scatter_S100000_S600000x1_S600000_n_0_0_1 x i u) ⟨by decide, rfl⟩ ⟨by decide, rfl⟩ ⟨by decide, rfl⟩ ⟨by decide, rfl⟩ rfl (by decide) (by decide) (by decide) (by decide)

theorem cst_4 (V : Valuation τ sig (Elt F)) : Z V main_cst_4 = constant S_ .f32 0x3F800000#32 :=
  Cert.LibAfter.read_nullary Hand.ops Hand.Ws Hand.hWs 20 (Hand.lt_length (by decide)) V main_cst_4 (constant S_ .f32 0x3F800000#32) ⟨by decide, rfl⟩ rfl (by decide)

theorem call1_v0 (V : Valuation τ sig (Elt F)) : Z V main_call1_v0 = Z V main_cst_4 :=
  Cert.LibAfter.read_unary Hand.ops Hand.Ws Hand.hWs 21 (Hand.lt_length (by decide)) V main_cst_4 main_call1_v0 (fun u => u) ⟨by decide, rfl⟩ ⟨by decide, rfl⟩ rfl (by decide) (by decide)

theorem call1_v1 (V : Valuation τ sig (Elt F)) : Z V main_call1_v1 = broadcastInDim S100000 ![] bcast_S_S100000 (Z V main_call1_v0) :=
  Cert.LibAfter.read_unary Hand.ops Hand.Ws Hand.hWs 22 (Hand.lt_length (by decide)) V main_call1_v0 main_call1_v1 (broadcastInDim S100000 ![] bcast_S_S100000) ⟨by decide, rfl⟩ ⟨by decide, rfl⟩ rfl (by decide) (by decide)

theorem v13 (V : Valuation τ sig (Elt F)) : Z V main_v13 = maximumf (Z V main_call1_v1) (Z V main_v12) :=
  Cert.LibAfter.read_binary Hand.ops Hand.Ws Hand.hWs 23 (Hand.lt_length (by decide)) V main_call1_v1 main_v12 main_v13 (maximumf) ⟨by decide, rfl⟩ ⟨by decide, rfl⟩ ⟨by decide, rfl⟩ rfl (by decide) (by decide) (by decide)

theorem cst_5 (V : Valuation τ sig (Elt F)) : Z V main_cst_5 = constant S_ .f32 0xBF000000#32 :=
  Cert.LibAfter.read_nullary Hand.ops Hand.Ws Hand.hWs 24 (Hand.lt_length (by decide)) V main_cst_5 (constant S_ .f32 0xBF000000#32) ⟨by decide, rfl⟩ rfl (by decide)

theorem v14 (V : Valuation τ sig (Elt F)) : Z V main_v14 = broadcastInDim S100000 ![] bcast_S_S100000 (Z V main_cst_5) :=
  Cert.LibAfter.read_unary Hand.ops Hand.Ws Hand.hWs 25 (Hand.lt_length (by decide)) V main_cst_5 main_v14 (broadcastInDim S100000 ![] bcast_S_S100000) ⟨by decide, rfl⟩ ⟨by decide, rfl⟩ rfl (by decide) (by decide)

theorem v15 (V : Valuation τ sig (Elt F)) : Z V main_v15 = Host.powf (Z V main_v9) (Z V main_v14) :=
  Cert.LibAfter.read_binary Hand.ops Hand.Ws Hand.hWs 26 (Hand.lt_length (by decide)) V main_v9 main_v14 main_v15 (Host.powf) ⟨by decide, rfl⟩ ⟨by decide, rfl⟩ ⟨by decide, rfl⟩ rfl (by decide) (by decide) (by decide)

theorem v16 (V : Valuation τ sig (Elt F)) : Z V main_v16 = broadcastInDim S100000x1 ![0] bcast_S100000_S100000x1_0 (Z V main_v15) :=
  Cert.LibAfter.read_unary Hand.ops Hand.Ws Hand.hWs 27 (Hand.lt_length (by decide)) V main_v15 main_v16 (broadcastInDim S100000x1 ![0] bcast_S100000_S100000x1_0) ⟨by decide, rfl⟩ ⟨by decide, rfl⟩ rfl (by decide) (by decide)

theorem v17 (V : Valuation τ sig (Elt F)) : Z V main_v17 = broadcastInDim S100000x256 ![0, 1] bcast_S100000x1_S100000x256_0_1 (Z V main_v16) :=
  Cert.LibAfter.read_unary Hand.ops Hand.Ws Hand.hWs 28 (Hand.lt_length (by decide)) V main_v16 main_v17 (broadcastInDim S100000x256 ![0, 1] bcast_S100000x1_S100000x256_0_1) ⟨by decide, rfl⟩ ⟨by decide, rfl⟩ rfl (by decide) (by decide)

theorem v18 (V : Valuation τ sig (Elt F)) : Z V main_v18 = mulf (Z V main_arg0) (Z V main_v17) :=
  Cert.LibAfter.read_binary Hand.ops Hand.Ws Hand.hWs 29 (Hand.lt_length (by decide)) V main_arg0 main_v17 main_v18 (mulf) ⟨by decide, rfl⟩ ⟨by decide, rfl⟩ ⟨by decide, rfl⟩ rfl (by decide) (by decide) (by decide)

theorem v19 (V : Valuation τ sig (Elt F)) : Z V main_v19 = extractStridedSlice S1x256x128 ![0, 0, 0] (Z V main_arg3) slices_S3x256x128_S1x256x128_0_0_0 :=
  Cert.LibAfter.read_unary Hand.ops Hand.Ws Hand.hWs 30 (Hand.lt_length (by decide)) V main_arg3 main_v19 (fun u => extractStridedSlice S1x256x128 ![0, 0, 0] u slices_S3x256x128_S1x256x128_0_0_0) ⟨by decide, rfl⟩ ⟨by decide, rfl⟩ rfl (by decide) (by decide)

theorem v20 (V : Valuation τ sig (Elt F)) : Z V main_v20 = shapeCast S256x128 (Z V main_v19) shapeCasts_S1x256x128_S256x128 :=
  Cert.LibAfter.read_reshape Hand.ops Hand.Ws Hand.hWs 31 (Hand.lt_length (by decide)) V main_v19 main_v20 rfl shapeCasts_S1x256x128_S256x128 ⟨by decide, rfl⟩ ⟨by decide, rfl⟩ rfl (by decide) (by decide)

theorem v21 (V : Valuation τ sig (Elt F)) : Z V main_v21 = Host.dotGeneral dot_S100000x256_S256x128_S100000x128_1_0_0_1_n_n none (Z V main_v18) (Z V main_v20) :=
  Cert.LibAfter.read_binary Hand.ops Hand.Ws Hand.hWs 32 (Hand.lt_length (by decide)) V main_v18 main_v20 main_v21 (fun l r => Host.dotGeneral dot_S100000x256_S256x128_S100000x128_1_0_0_1_n_n none l r) ⟨by decide, rfl⟩ ⟨by decide, rfl⟩ ⟨by decide, rfl⟩ rfl (by decide) (by decide) (by decide)

theorem c (V : Valuation τ sig (Elt F)) : Z V main_c = constantI S_ 32 0#32 :=
  Cert.LibAfter.read_nullary Hand.ops Hand.Ws Hand.hWs 33 (Hand.lt_length (by decide)) V main_c (constantI S_ 32 0#32) ⟨by decide, rfl⟩ rfl (by decide)

theorem v22 (V : Valuation τ sig (Elt F)) : Z V main_v22 = broadcastInDim S600000 ![] bcast_S_S600000 (Z V main_c) :=
  Cert.LibAfter.read_unary Hand.ops Hand.Ws Hand.hWs 34 (Hand.lt_length (by decide)) V main_c main_v22 (broadcastInDim S600000 ![] bcast_S_S600000) ⟨by decide, rfl⟩ ⟨by decide, rfl⟩ rfl (by decide) (by decide)

theorem v23 (V : Valuation τ sig (Elt F)) : Z V main_v23 = cmpi .slt (Z V main_v2) (Z V main_v22) :=
  Cert.LibAfter.read_binary Hand.ops Hand.Ws Hand.hWs 35 (Hand.lt_length (by decide)) V main_v2 main_v22 main_v23 (cmpi .slt) ⟨by decide, rfl⟩ ⟨by decide, rfl⟩ ⟨by decide, rfl⟩ rfl (by decide) (by decide) (by decide)

theorem c_6 (V : Valuation τ sig (Elt F)) : Z V main_c_6 = constantI S_ 32 100000#32 :=
  Cert.LibAfter.read_nullary Hand.ops Hand.Ws Hand.hWs 36 (Hand.lt_length (by decide)) V main_c_6 (constantI S_ 32 100000#32) ⟨by decide, rfl⟩ rfl (by decide)

theorem v24 (V : Valuation τ sig (Elt F)) : Z V main_v24 = broadcastInDim S600000 ![] bcast_S_S600000 (Z V main_c_6) :=
  Cert.LibAfter.read_unary Hand.ops Hand.Ws Hand.hWs 37 (Hand.lt_length (by decide)) V main_c_6 main_v24 (broadcastInDim S600000 ![] bcast_S_S600000) ⟨by decide, rfl⟩ ⟨by decide, rfl⟩ rfl (by decide) (by decide)

theorem v25 (V : Valuation τ sig (Elt F)) : Z V main_v25 = addi (Z V main_v2) (Z V main_v24) :=
  Cert.LibAfter.read_binary Hand.ops Hand.Ws Hand.hWs 38 (Hand.lt_length (by decide)) V main_v2 main_v24 main_v25 (addi) ⟨by decide, rfl⟩ ⟨by decide, rfl⟩ ⟨by decide, rfl⟩ rfl (by decide) (by decide) (by decide)

theorem v26 (V : Valuation τ sig (Elt F)) : Z V main_v26 = select (Z V main_v23) (Z V main_v25) (Z V main_v2) :=
  Cert.LibAfter.read_ternary Hand.ops Hand.Ws Hand.hWs 39 (Hand.lt_length (by decide)) V main_v23 main_v25 main_v2 main_v26 (select) ⟨by decide, rfl⟩ ⟨by decide, rfl⟩ ⟨by decide, rfl⟩ ⟨by decide, rfl⟩ rfl (by decide) (by decide) (by decide) (by decide)

theorem v27 (V : Valuation τ sig (Elt F)) : Z V main_v27 = broadcastInDim S600000x1 ![0] bcast_S600000_S600000x1_0 (Z V main_v26) :=
  Cert.LibAfter.read_unary Hand.ops Hand.Ws Hand.hWs 40 (Hand.lt_length (by decide)) V main_v26 main_v27 (broadcastInDim S600000x1 ![0] bcast_S600000_S600000x1_0) ⟨by decide, rfl⟩ ⟨by decide, rfl⟩ rfl (by decide) (by decide)

theorem v28 (V : Valuation τ sig (Elt F)) : Z V main_v28 = Host.gather gather_S100000x128_S600000x1_S600000x128_1_0_n_n_0_1_1128 (Z V main_v21) (Z V main_v27) :=
  Cert.LibAfter.read_binary Hand.ops Hand.Ws Hand.hWs 41 (Hand.lt_length (by decide)) V main_v21 main_v27 main_v28 (fun x i => Host.gather gather_S100000x128_S600000x1_S600000x128_1_0_n_n_0_1_1128 x i) ⟨by decide, rfl⟩ ⟨by decide, rfl⟩ ⟨by decide, rfl⟩ rfl (by decide) (by decide) (by decide)

theorem cst_7 (V : Valuation τ sig (Elt F)) : Z V main_cst_7 = constant S_ .f32 0x00000000#32 :=
  Cert.LibAfter.read_nullary Hand.ops Hand.Ws Hand.hWs 42 (Hand.lt_length (by decide)) V main_cst_7 (constant S_ .f32 0x00000000#32) ⟨by decide, rfl⟩ rfl (by decide)

theorem v29 (V : Valuation τ sig (Elt F)) : Z V main_v29 = broadcastInDim S100000x128 ![] bcast_S_S100000x128 (Z V main_cst_7) :=
  Cert.LibAfter.read_unary Hand.ops Hand.Ws Hand.hWs 43 (Hand.lt_length (by decide)) V main_cst_7 main_v29 (broadcastInDim S100000x128 ![] bcast_S_S100000x128) ⟨by decide, rfl⟩ ⟨by decide, rfl⟩ rfl (by decide) (by decide)

theorem v30 (V : Valuation τ sig (Elt F)) : Z V main_v30 = broadcastInDim S600000x1 ![0] bcast_S600000_S600000x1_0 (Z V main_v4) :=
  Cert.LibAfter.read_unary Hand.ops Hand.Ws Hand.hWs 44 (Hand.lt_length (by decide)) V main_v4 main_v30 (broadcastInDim S600000x1 ![0] bcast_S600000_S600000x1_0) ⟨by decide, rfl⟩ ⟨by decide, rfl⟩ rfl (by decide) (by decide)

theorem v31 (V : Valuation τ sig (Elt F)) : Z V main_v31 = Host.scatterAdd scatter_S100000x128_S600000x1_S600000x128_1_0_0_1 (Z V main_v29) (Z V main_v30) (Z V main_v28) :=
  Cert.LibAfter.read_ternary Hand.ops Hand.Ws Hand.hWs 45 (Hand.lt_length (by decide)) V main_v29 main_v30 main_v28 main_v31 (fun x i u => Host.scatterAdd scatter_S100000x128_S600000x1_S600000x128_1_0_0_1 x i u) ⟨by decide, rfl⟩ ⟨by decide, rfl⟩ ⟨by decide, rfl⟩ ⟨by decide, rfl⟩ rfl (by decide) (by decide) (by decide) (by decide)

theorem cst_8 (V : Valuation τ sig (Elt F)) : Z V main_cst_8 = constant S_ .f32 0xBF000000#32 :=
  Cert.LibAfter.read_nullary Hand.ops Hand.Ws Hand.hWs 46 (Hand.lt_length (by decide)) V main_cst_8 (constant S_ .f32 0xBF000000#32) ⟨by decide, rfl⟩ rfl (by decide)

theorem v32 (V : Valuation τ sig (Elt F)) : Z V main_v32 = broadcastInDim S100000 ![] bcast_S_S100000 (Z V main_cst_8) :=
  Cert.LibAfter.read_unary Hand.ops Hand.Ws Hand.hWs 47 (Hand.lt_length (by decide)) V main_cst_8 main_v32 (broadcastInDim S100000 ![] bcast_S_S100000) ⟨by decide, rfl⟩ ⟨by decide, rfl⟩ rfl (by decide) (by decide)

theorem v33 (V : Valuation τ sig (Elt F)) : Z V main_v33 = Host.powf (Z V main_v13) (Z V main_v32) :=
  Cert.LibAfter.read_binary Hand.ops Hand.Ws Hand.hWs 48 (Hand.lt_length (by decide)) V main_v13 main_v32 main_v33 (Host.powf) ⟨by decide, rfl⟩ ⟨by decide, rfl⟩ ⟨by decide, rfl⟩ rfl (by decide) (by decide) (by decide)

theorem v34 (V : Valuation τ sig (Elt F)) : Z V main_v34 = broadcastInDim S100000x1 ![0] bcast_S100000_S100000x1_0 (Z V main_v33) :=
  Cert.LibAfter.read_unary Hand.ops Hand.Ws Hand.hWs 49 (Hand.lt_length (by decide)) V main_v33 main_v34 (broadcastInDim S100000x1 ![0] bcast_S100000_S100000x1_0) ⟨by decide, rfl⟩ ⟨by decide, rfl⟩ rfl (by decide) (by decide)

theorem v35 (V : Valuation τ sig (Elt F)) : Z V main_v35 = broadcastInDim S100000x128 ![0, 1] bcast_S100000x1_S100000x128_0_1 (Z V main_v34) :=
  Cert.LibAfter.read_unary Hand.ops Hand.Ws Hand.hWs 50 (Hand.lt_length (by decide)) V main_v34 main_v35 (broadcastInDim S100000x128 ![0, 1] bcast_S100000x1_S100000x128_0_1) ⟨by decide, rfl⟩ ⟨by decide, rfl⟩ rfl (by decide) (by decide)

theorem v36 (V : Valuation τ sig (Elt F)) : Z V main_v36 = mulf (Z V main_v31) (Z V main_v35) :=
  Cert.LibAfter.read_binary Hand.ops Hand.Ws Hand.hWs 51 (Hand.lt_length (by decide)) V main_v31 main_v35 main_v36 (mulf) ⟨by decide, rfl⟩ ⟨by decide, rfl⟩ ⟨by decide, rfl⟩ rfl (by decide) (by decide) (by decide)

theorem v37 (V : Valuation τ sig (Elt F)) : Z V main_v37 = addf (Z V main_v0) (Z V main_v36) :=
  Cert.LibAfter.read_binary Hand.ops Hand.Ws Hand.hWs 52 (Hand.lt_length (by decide)) V main_v0 main_v36 main_v37 (addf) ⟨by decide, rfl⟩ ⟨by decide, rfl⟩ ⟨by decide, rfl⟩ rfl (by decide) (by decide) (by decide)

theorem v38 (V : Valuation τ sig (Elt F)) : Z V main_v38 = extractStridedSlice S1x128 ![0, 0] (Z V main_arg4) slices_S3x128_S1x128_0_0 :=
  Cert.LibAfter.read_unary Hand.ops Hand.Ws Hand.hWs 53 (Hand.lt_length (by decide)) V main_arg4 main_v38 (fun u => extractStridedSlice S1x128 ![0, 0] u slices_S3x128_S1x128_0_0) ⟨by decide, rfl⟩ ⟨by decide, rfl⟩ rfl (by decide) (by decide)

theorem v39 (V : Valuation τ sig (Elt F)) : Z V main_v39 = shapeCast S128 (Z V main_v38) shapeCasts_S1x128_S128 :=
  Cert.LibAfter.read_reshape Hand.ops Hand.Ws Hand.hWs 54 (Hand.lt_length (by decide)) V main_v38 main_v39 rfl shapeCasts_S1x128_S128 ⟨by decide, rfl⟩ ⟨by decide, rfl⟩ rfl (by decide) (by decide)

theorem v40 (V : Valuation τ sig (Elt F)) : Z V main_v40 = broadcastInDim S1x128 ![1] bcast_S128_S1x128_1 (Z V main_v39) :=
  Cert.LibAfter.read_unary Hand.ops Hand.Ws Hand.hWs 55 (Hand.lt_length (by decide)) V main_v39 main_v40 (broadcastInDim S1x128 ![1] bcast_S128_S1x128_1) ⟨by decide, rfl⟩ ⟨by decide, rfl⟩ rfl (by decide) (by decide)

theorem v41 (V : Valuation τ sig (Elt F)) : Z V main_v41 = broadcastInDim S100000x128 ![0, 1] bcast_S1x128_S100000x128_0_1 (Z V main_v40) :=
  Cert.LibAfter.read_unary Hand.ops Hand.Ws Hand.hWs 56 (Hand.lt_length (by decide)) V main_v40 main_v41 (broadcastInDim S100000x128 ![0, 1] bcast_S1x128_S100000x128_0_1) ⟨by decide, rfl⟩ ⟨by decide, rfl⟩ rfl (by decide) (by decide)

theorem v42 (V : Valuation τ sig (Elt F)) : Z V main_v42 = addf (Z V main_v37) (Z V main_v41) :=
  Cert.LibAfter.read_binary Hand.ops Hand.Ws Hand.hWs 57 (Hand.lt_length (by decide)) V main_v37 main_v41 main_v42 (addf) ⟨by decide, rfl⟩ ⟨by decide, rfl⟩ ⟨by decide, rfl⟩ rfl (by decide) (by decide) (by decide)

theorem v43 (V : Valuation τ sig (Elt F)) : Z V main_v43 = extractStridedSlice S1x600000 ![1, 0] (Z V main_arg1) slices_S3x600000_S1x600000_1_0 :=
  Cert.LibAfter.read_unary Hand.ops Hand.Ws Hand.hWs 58 (Hand.lt_length (by decide)) V main_arg1 main_v43 (fun u => extractStridedSlice S1x600000 ![1, 0] u slices_S3x600000_S1x600000_1_0) ⟨by decide, rfl⟩ ⟨by decide, rfl⟩ rfl (by decide) (by decide)

theorem v44 (V : Valuation τ sig (Elt F)) : Z V main_v44 = shapeCast S600000 (Z V main_v43) shapeCasts_S1x600000_S600000 :=
  Cert.LibAfter.read_reshape Hand.ops Hand.Ws Hand.hWs 59 (Hand.lt_length (by decide)) V main_v43 main_v44 rfl shapeCasts_S1x600000_S600000 ⟨by decide, rfl⟩ ⟨by decide, rfl⟩ rfl (by decide) (by decide)

theorem v45 (V : Valuation τ sig (Elt F)) : Z V main_v45 = extractStridedSlice S1x600000 ![1, 0] (Z V main_arg2) slices_S3x600000_S1x600000_1_0 :=
  Cert.LibAfter.read_unary Hand.ops Hand.Ws Hand.hWs 60 (Hand.lt_length (by decide)) V main_arg2 main_v45 (fun u => extractStridedSlice S1x600000 ![1, 0] u slices_S3x600000_S1x600000_1_0) ⟨by decide, rfl⟩ ⟨by decide, rfl⟩ rfl (by decide) (by decide)

theorem v46 (V : Valuation τ sig (Elt F)) : Z V main_v46 = shapeCast S600000 (Z V main_v45) shapeCasts_S1x600000_S600000 :=
  Cert.LibAfter.read_reshape Hand.ops Hand.Ws Hand.hWs 61 (Hand.lt_length (by decide)) V main_v45 main_v46 rfl shapeCasts_S1x600000_S600000 ⟨by decide, rfl⟩ ⟨by decide, rfl⟩ rfl (by decide) (by decide)

theorem cst_9 (V : Valuation τ sig (Elt F)) : Z V main_cst_9 = constant S_ .f32 0x3F800000#32 :=
  Cert.LibAfter.read_nullary Hand.ops Hand.Ws Hand.hWs 62 (Hand.lt_length (by decide)) V main_cst_9 (constant S_ .f32 0x3F800000#32) ⟨by decide, rfl⟩ rfl (by decide)

theorem v47 (V : Valuation τ sig (Elt F)) : Z V main_v47 = broadcastInDim S600000 ![] bcast_S_S600000 (Z V main_cst_9) :=
  Cert.LibAfter.read_unary Hand.ops Hand.Ws Hand.hWs 63 (Hand.lt_length (by decide)) V main_cst_9 main_v47 (broadcastInDim S600000 ![] bcast_S_S600000) ⟨by decide, rfl⟩ ⟨by decide, rfl⟩ rfl (by decide) (by decide)

end Cert.ReferenceIdeal.Rd

end
-- ==== Proof.RefReads1.lean ====
/-
  The reference program in single-assignment form, read at the end of its run: the operations of window 1.
  Each equation says that a buffer's final contents are its operation's function of its operands' final contents.
-/
import proofs.«124848_j55800215109809_1_alg».proof.Proof.RefOps
import proofs.«124848_j55800215109809_1_alg».proof.Proof.LibAfterRead

noncomputable section

namespace Cert.ReferenceIdeal.Rd

open Cert.ReferenceIdeal Cert.ReferenceIdeal.Gen Idealize.ShloMosaic Idealize.ShloMosaic.TcCoe Idealize.SL.Sem Idealize.ShloMosaic.StableHlo

variable {F : FTy → Type} [FloatOps F]

theorem cst_10 (V : Valuation τ sig (Elt F)) : Z V main_cst_10 = constant S_ .f32 0x00000000#32 :=
  Cert.LibAfter.read_nullary Hand.ops Hand.Ws Hand.hWs 64 (Hand.lt_length (by decide)) V main_cst_10 (constant S_ .f32 0x00000000#32) ⟨by decide, rfl⟩ rfl (by decide)

theorem v48 (V : Valuation τ sig (Elt F)) : Z V main_v48 = broadcastInDim S100000 ![] bcast_S_S100000 (Z V main_cst_10) :=
  Cert.LibAfter.read_unary Hand.ops Hand.Ws Hand.hWs 65 (Hand.lt_length (by decide)) V main_cst_10 main_v48 (broadcastInDim S100000 ![] bcast_S_S100000) ⟨by decide, rfl⟩ ⟨by decide, rfl⟩ rfl (by decide) (by decide)

theorem v49 (V : Valuation τ sig (Elt F)) : Z V main_v49 = broadcastInDim S600000x1 ![0] bcast_S600000_S600000x1_0 (Z V main_v44) :=
  Cert.LibAfter.read_unary Hand.ops Hand.Ws Hand.hWs 66 (Hand.lt_length (by decide)) V main_v44 main_v49 (broadcastInDim S600000x1 ![0] bcast_S600000_S600000x1_0) ⟨by decide, rfl⟩ ⟨by decide, rfl⟩ rfl (by decide) (by decide)

theorem v50 (V : Valuation τ sig (Elt F)) : Z V main_v50 = Host.scatterAdd scatter_S100000_S600000x1_S600000_n_0_0_1 (Z V main_v48) (Z V main_v49) (Z V main_v47) :=
  Cert.LibAfter.read_ternary Hand.ops Hand.Ws Hand.hWs 67 (Hand.lt_length (by decide)) V main_v48 main_v49 main_v47 main_v50 (fun x i u => Host.scatterAdd scatter_S100000_S600000x1_S600000_n_0_0_1 x i u) ⟨by decide, rfl⟩ ⟨by decide, rfl⟩ ⟨by decide, rfl⟩ ⟨by decide, rfl⟩ rfl (by decide) (by decide) (by decide) (by decide)

theorem cst_11 (V : Valuation τ sig (Elt F)) : Z V main_cst_11 = constant S_ .f32 0x3F800000#32 :=
  Cert.LibAfter.read_nullary Hand.ops Hand.Ws Hand.hWs 68 (Hand.lt_length (by decide)) V main_cst_11 (constant S_ .f32 0x3F800000#32) ⟨by decide, rfl⟩ rfl (by decide)

theorem call2_v0 (V : Valuation τ sig (Elt F)) : Z V main_call2_v0 = Z V main_cst_11 :=
  Cert.LibAfter.read_unary Hand.ops Hand.Ws Hand.hWs 69 (Hand.lt_length (by decide)) V main_cst_11 main_call2_v0 (fun u => u) ⟨by decide, rfl⟩ ⟨by decide, rfl⟩ rfl (by decide) (by decide)

theorem call2_v1 (V : Valuation τ sig (Elt F)) : Z V main_call2_v1 = broadcastInDim S100000 ![] bcast_S_S100000 (Z V main_call2_v0) :=
  Cert.LibAfter.read_unary Hand.ops Hand.Ws Hand.hWs 70 (Hand.lt_length (by decide)) V main_call2_v0 main_call2_v1 (broadcastInDim S100000 ![] bcast_S_S100000) ⟨by decide, rfl⟩ ⟨by decide, rfl⟩ rfl (by decide) (by decide)

theorem v51 (V : Valuation τ sig (Elt F)) : Z V main_v51 = maximumf (Z V main_call2_v1) (Z V main_v50) :=
  Cert.LibAfter.read_binary Hand.ops Hand.Ws Hand.hWs 71 (Hand.lt_length (by decide)) V main_call2_v1 main_v50 main_v51 (maximumf) ⟨by decide, rfl⟩ ⟨by decide, rfl⟩ ⟨by decide, rfl⟩ rfl (by decide) (by decide) (by decide)

theorem cst_12 (V : Valuation τ sig (Elt F)) : Z V main_cst_12 = constant S_ .f32 0x00000000#32 :=
  Cert.LibAfter.read_nullary Hand.ops Hand.Ws Hand.hWs 72 (Hand.lt_length (by decide)) V main_cst_12 (constant S_ .f32 0x00000000#32) ⟨by decide, rfl⟩ rfl (by decide)

theorem v52 (V : Valuation τ sig (Elt F)) : Z V main_v52 = broadcastInDim S100000 ![] bcast_S_S100000 (Z V main_cst_12) :=
  Cert.LibAfter.read_unary Hand.ops Hand.Ws Hand.hWs 73 (Hand.lt_length (by decide)) V main_cst_12 main_v52 (broadcastInDim S100000 ![] bcast_S_S100000) ⟨by decide, rfl⟩ ⟨by decide, rfl⟩ rfl (by decide) (by decide)

theorem v53 (V : Valuation τ sig (Elt F)) : Z V main_v53 = broadcastInDim S600000x1 ![0] bcast_S600000_S600000x1_0 (Z V main_v46) :=
  Cert.LibAfter.read_unary Hand.ops Hand.Ws Hand.hWs 74 (Hand.lt_length (by decide)) V main_v46 main_v53 (broadcastInDim S600000x1 ![0] bcast_S600000_S600000x1_0) ⟨by decide, rfl⟩ ⟨by decide, rfl⟩ rfl (by decide) (by decide)

theorem v54 (V : Valuation τ sig (Elt F)) : Z V main_v54 = Host.scatterAdd scatter_S100000_S600000x1_S600000_n_0_0_1 (Z V main_v52) (Z V main_v53) (Z V main_v47) :=
  Cert.LibAfter.read_ternary Hand.ops Hand.Ws Hand.hWs 75 (Hand.lt_length (by decide)) V main_v52 main_v53 main_v47 main_v54 (fun x i u => Host.scatterAdd scatter_S100000_S600000x1_S600000_n_0_0_1 x i u) ⟨by decide, rfl⟩ ⟨by decide, rfl⟩ ⟨by decide, rfl⟩ ⟨by decide, rfl⟩ rfl (by decide) (by decide) (by decide) (by decide)

theorem cst_13 (V : Valuation τ sig (Elt F)) : Z V main_cst_13 = constant S_ .f32 0x3F800000#32 :=
  Cert.LibAfter.read_nullary Hand.ops Hand.Ws Hand.hWs 76 (Hand.lt_length (by decide)) V main_cst_13 (constant S_ .f32 0x3F800000#32) ⟨by decide, rfl⟩ rfl (by decide)

theorem call3_v0 (V : Valuation τ sig (Elt F)) : Z V main_call3_v0 = Z V main_cst_13 :=
  Cert.LibAfter.read_unary Hand.ops Hand.Ws Hand.hWs 77 (Hand.lt_length (by decide)) V main_cst_13 main_call3_v0 (fun u => u) ⟨by decide, rfl⟩ ⟨by decide, rfl⟩ rfl (by decide) (by decide)

theorem call3_v1 (V : Valuation τ sig (Elt F)) : Z V main_call3_v1 = broadcastInDim S100000 ![] bcast_S_S100000 (Z V main_call3_v0) :=
  Cert.LibAfter.read_unary Hand.ops Hand.Ws Hand.hWs 78 (Hand.lt_length (by decide)) V main_call3_v0 main_call3_v1 (broadcastInDim S100000 ![] bcast_S_S100000) ⟨by decide, rfl⟩ ⟨by decide, rfl⟩ rfl (by decide) (by decide)

theorem v55 (V : Valuation τ sig (Elt F)) : Z V main_v55 = maximumf (Z V main_call3_v1) (Z V main_v54) :=
  Cert.LibAfter.read_binary Hand.ops Hand.Ws Hand.hWs 79 (Hand.lt_length (by decide)) V main_call3_v1 main_v54 main_v55 (maximumf) ⟨by decide, rfl⟩ ⟨by decide, rfl⟩ ⟨by decide, rfl⟩ rfl (by decide) (by decide) (by decide)

theorem cst_14 (V : Valuation τ sig (Elt F)) : Z V main_cst_14 = constant S_ .f32 0xBF000000#32 :=
  Cert.LibAfter.read_nullary Hand.ops Hand.Ws Hand.hWs 80 (Hand.lt_length (by decide)) V main_cst_14 (constant S_ .f32 0xBF000000#32) ⟨by decide, rfl⟩ rfl (by decide)

theorem v56 (V : Valuation τ sig (Elt F)) : Z V main_v56 = broadcastInDim S100000 ![] bcast_S_S100000 (Z V main_cst_14) :=
  Cert.LibAfter.read_unary Hand.ops Hand.Ws Hand.hWs 81 (Hand.lt_length (by decide)) V main_cst_14 main_v56 (broadcastInDim S100000 ![] bcast_S_S100000) ⟨by decide, rfl⟩ ⟨by decide, rfl⟩ rfl (by decide) (by decide)

theorem v57 (V : Valuation τ sig (Elt F)) : Z V main_v57 = Host.powf (Z V main_v51) (Z V main_v56) :=
  Cert.LibAfter.read_binary Hand.ops Hand.Ws Hand.hWs 82 (Hand.lt_length (by decide)) V main_v51 main_v56 main_v57 (Host.powf) ⟨by decide, rfl⟩ ⟨by decide, rfl⟩ ⟨by decide, rfl⟩ rfl (by decide) (by decide) (by decide)

theorem v58 (V : Valuation τ sig (Elt F)) : Z V main_v58 = broadcastInDim S100000x1 ![0] bcast_S100000_S100000x1_0 (Z V main_v57) :=
  Cert.LibAfter.read_unary Hand.ops Hand.Ws Hand.hWs 83 (Hand.lt_length (by decide)) V main_v57 main_v58 (broadcastInDim S100000x1 ![0] bcast_S100000_S100000x1_0) ⟨by decide, rfl⟩ ⟨by decide, rfl⟩ rfl (by decide) (by decide)

theorem v59 (V : Valuation τ sig (Elt F)) : Z V main_v59 = broadcastInDim S100000x256 ![0, 1] bcast_S100000x1_S100000x256_0_1 (Z V main_v58) :=
  Cert.LibAfter.read_unary Hand.ops Hand.Ws Hand.hWs 84 (Hand.lt_length (by decide)) V main_v58 main_v59 (broadcastInDim S100000x256 ![0, 1] bcast_S100000x1_S100000x256_0_1) ⟨by decide, rfl⟩ ⟨by decide, rfl⟩ rfl (by decide) (by decide)

theorem v60 (V : Valuation τ sig (Elt F)) : Z V main_v60 = mulf (Z V main_arg0) (Z V main_v59) :=
  Cert.LibAfter.read_binary Hand.ops Hand.Ws Hand.hWs 85 (Hand.lt_length (by decide)) V main_arg0 main_v59 main_v60 (mulf) ⟨by decide, rfl⟩ ⟨by decide, rfl⟩ ⟨by decide, rfl⟩ rfl (by decide) (by decide) (by decide)

theorem v61 (V : Valuation τ sig (Elt F)) : Z V main_v61 = extractStridedSlice S1x256x128 ![1, 0, 0] (Z V main_arg3) slices_S3x256x128_S1x256x128_1_0_0 :=
  Cert.LibAfter.read_unary Hand.ops Hand.Ws Hand.hWs 86 (Hand.lt_length (by decide)) V main_arg3 main_v61 (fun u => extractStridedSlice S1x256x128 ![1, 0, 0] u slices_S3x256x128_S1x256x128_1_0_0) ⟨by decide, rfl⟩ ⟨by decide, rfl⟩ rfl (by decide) (by decide)

theorem v62 (V : Valuation τ sig (Elt F)) : Z V main_v62 = shapeCast S256x128 (Z V main_v61) shapeCasts_S1x256x128_S256x128 :=
  Cert.LibAfter.read_reshape Hand.ops Hand.Ws Hand.hWs 87 (Hand.lt_length (by decide)) V main_v61 main_v62 rfl shapeCasts_S1x256x128_S256x128 ⟨by decide, rfl⟩ ⟨by decide, rfl⟩ rfl (by decide) (by decide)

theorem v63 (V : Valuation τ sig (Elt F)) : Z V main_v63 = Host.dotGeneral dot_S100000x256_S256x128_S100000x128_1_0_0_1_n_n none (Z V main_v60) (Z V main_v62) :=
  Cert.LibAfter.read_binary Hand.ops Hand.Ws Hand.hWs 88 (Hand.lt_length (by decide)) V main_v60 main_v62 main_v63 (fun l r => Host.dotGeneral dot_S100000x256_S256x128_S100000x128_1_0_0_1_n_n none l r) ⟨by decide, rfl⟩ ⟨by decide, rfl⟩ ⟨by decide, rfl⟩ rfl (by decide) (by decide) (by decide)

theorem c_15 (V : Valuation τ sig (Elt F)) : Z V main_c_15 = constantI S_ 32 0#32 :=
  Cert.LibAfter.read_nullary Hand.ops Hand.Ws Hand.hWs 89 (Hand.lt_length (by decide)) V main_c_15 (constantI S_ 32 0#32) ⟨by decide, rfl⟩ rfl (by decide)

theorem v64 (V : Valuation τ sig (Elt F)) : Z V main_v64 = broadcastInDim S600000 ![] bcast_S_S600000 (Z V main_c_15) :=
  Cert.LibAfter.read_unary Hand.ops Hand.Ws Hand.hWs 90 (Hand.lt_length (by decide)) V main_c_15 main_v64 (broadcastInDim S600000 ![] bcast_S_S600000) ⟨by decide, rfl⟩ ⟨by decide, rfl⟩ rfl (by decide) (by decide)

theorem v65 (V : Valuation τ sig (Elt F)) : Z V main_v65 = cmpi .slt (Z V main_v44) (Z V main_v64) :=
  Cert.LibAfter.read_binary Hand.ops Hand.Ws Hand.hWs 91 (Hand.lt_length (by decide)) V main_v44 main_v64 main_v65 (cmpi .slt) ⟨by decide, rfl⟩ ⟨by decide, rfl⟩ ⟨by decide, rfl⟩ rfl (by decide) (by decide) (by decide)

theorem c_16 (V : Valuation τ sig (Elt F)) : Z V main_c_16 = constantI S_ 32 100000#32 :=
  Cert.LibAfter.read_nullary Hand.ops Hand.Ws Hand.hWs 92 (Hand.lt_length (by decide)) V main_c_16 (constantI S_ 32 100000#32) ⟨by decide, rfl⟩ rfl (by decide)

theorem v66 (V : Valuation τ sig (Elt F)) : Z V main_v66 = broadcastInDim S600000 ![] bcast_S_S600000 (Z V main_c_16) :=
  Cert.LibAfter.read_unary Hand.ops Hand.Ws Hand.hWs 93 (Hand.lt_length (by decide)) V main_c_16 main_v66 (broadcastInDim S600000 ![] bcast_S_S600000) ⟨by decide, rfl⟩ ⟨by decide, rfl⟩ rfl (by decide) (by decide)

theorem v67 (V : Valuation τ sig (Elt F)) : Z V main_v67 = addi (Z V main_v44) (Z V main_v66) :=
  Cert.LibAfter.read_binary Hand.ops Hand.Ws Hand.hWs 94 (Hand.lt_length (by decide)) V main_v44 main_v66 main_v67 (addi) ⟨by decide, rfl⟩ ⟨by decide, rfl⟩ ⟨by decide, rfl⟩ rfl (by decide) (by decide) (by decide)

theorem v68 (V : Valuation τ sig (Elt F)) : Z V main_v68 = select (Z V main_v65) (Z V main_v67) (Z V main_v44) :=
  Cert.LibAfter.read_ternary Hand.ops Hand.Ws Hand.hWs 95 (Hand.lt_length (by decide)) V main_v65 main_v67 main_v44 main_v68 (select) ⟨by decide, rfl⟩ ⟨by decide, rfl⟩ ⟨by decide, rfl⟩ ⟨by decide, rfl⟩ rfl (by decide) (by decide) (by decide) (by decide)

theorem v69 (V : Valuation τ sig (Elt F)) : Z V main_v69 = broadcastInDim S600000x1 ![0] bcast_S600000_S600000x1_0 (Z V main_v68) :=
  Cert.LibAfter.read_unary Hand.ops Hand.Ws Hand.hWs 96 (Hand.lt_length (by decide)) V main_v68 main_v69 (broadcastInDim S600000x1 ![0] bcast_S600000_S600000x1_0) ⟨by decide, rfl⟩ ⟨by decide, rfl⟩ rfl (by decide) (by decide)

theorem v70 (V : Valuation τ sig (Elt F)) : Z V main_v70 = Host.gather gather_S100000x128_S600000x1_S600000x128_1_0_n_n_0_1_1128 (Z V main_v63) (Z V main_v69) :=
  Cert.LibAfter.read_binary Hand.ops Hand.Ws Hand.hWs 97 (Hand.lt_length (by decide)) V main_v63 main_v69 main_v70 (fun x i => Host.gather gather_S100000x128_S600000x1_S600000x128_1_0_n_n_0_1_1128 x i) ⟨by decide, rfl⟩ ⟨by decide, rfl⟩ ⟨by decide, rfl⟩ rfl (by decide) (by decide) (by decide)

theorem cst_17 (V : Valuation τ sig (Elt F)) : Z V main_cst_17 = constant S_ .f32 0x00000000#32 :=
  Cert.LibAfter.read_nullary Hand.ops Hand.Ws Hand.hWs 98 (Hand.lt_length (by decide)) V main_cst_17 (constant S_ .f32 0x00000000#32) ⟨by decide, rfl⟩ rfl (by decide)

theorem v71 (V : Valuation τ sig (Elt F)) : Z V main_v71 = broadcastInDim S100000x128 ![] bcast_S_S100000x128 (Z V main_cst_17) :=
  Cert.LibAfter.read_unary Hand.ops Hand.Ws Hand.hWs 99 (Hand.lt_length (by decide)) V main_cst_17 main_v71 (broadcastInDim S100000x128 ![] bcast_S_S100000x128) ⟨by decide, rfl⟩ ⟨by decide, rfl⟩ rfl (by decide) (by decide)

theorem v72 (V : Valuation τ sig (Elt F)) : Z V main_v72 = broadcastInDim S600000x1 ![0] bcast_S600000_S600000x1_0 (Z V main_v46) :=
  Cert.LibAfter.read_unary Hand.ops Hand.Ws Hand.hWs 100 (Hand.lt_length (by decide)) V main_v46 main_v72 (broadcastInDim S600000x1 ![0] bcast_S600000_S600000x1_0) ⟨by decide, rfl⟩ ⟨by decide, rfl⟩ rfl (by decide) (by decide)

theorem v73 (V : Valuation τ sig (Elt F)) : Z V main_v73 = Host.scatterAdd scatter_S100000x128_S600000x1_S600000x128_1_0_0_1 (Z V main_v71) (Z V main_v72) (Z V main_v70) :=
  Cert.LibAfter.read_ternary Hand.ops Hand.Ws Hand.hWs 101 (Hand.lt_length (by decide)) V main_v71 main_v72 main_v70 main_v73 (fun x i u => Host.scatterAdd scatter_S100000x128_S600000x1_S600000x128_1_0_0_1 x i u) ⟨by decide, rfl⟩ ⟨by decide, rfl⟩ ⟨by decide, rfl⟩ ⟨by decide, rfl⟩ rfl (by decide) (by decide) (by decide) (by decide)

theorem cst_18 (V : Valuation τ sig (Elt F)) : Z V main_cst_18 = constant S_ .f32 0xBF000000#32 :=
  Cert.LibAfter.read_nullary Hand.ops Hand.Ws Hand.hWs 102 (Hand.lt_length (by decide)) V main_cst_18 (constant S_ .f32 0xBF000000#32) ⟨by decide, rfl⟩ rfl (by decide)

theorem v74 (V : Valuation τ sig (Elt F)) : Z V main_v74 = broadcastInDim S100000 ![] bcast_S_S100000 (Z V main_cst_18) :=
  Cert.LibAfter.read_unary Hand.ops Hand.Ws Hand.hWs 103 (Hand.lt_length (by decide)) V main_cst_18 main_v74 (broadcastInDim S100000 ![] bcast_S_S100000) ⟨by decide, rfl⟩ ⟨by decide, rfl⟩ rfl (by decide) (by decide)

theorem v75 (V : Valuation τ sig (Elt F)) : Z V main_v75 = Host.powf (Z V main_v55) (Z V main_v74) :=
  Cert.LibAfter.read_binary Hand.ops Hand.Ws Hand.hWs 104 (Hand.lt_length (by decide)) V main_v55 main_v74 main_v75 (Host.powf) ⟨by decide, rfl⟩ ⟨by decide, rfl⟩ ⟨by decide, rfl⟩ rfl (by decide) (by decide) (by decide)

theorem v76 (V : Valuation τ sig (Elt F)) : Z V main_v76 = broadcastInDim S100000x1 ![0] bcast_S100000_S100000x1_0 (Z V main_v75) :=
  Cert.LibAfter.read_unary Hand.ops Hand.Ws Hand.hWs 105 (Hand.lt_length (by decide)) V main_v75 main_v76 (broadcastInDim S100000x1 ![0] bcast_S100000_S100000x1_0) ⟨by decide, rfl⟩ ⟨by decide, rfl⟩ rfl (by decide) (by decide)

theorem v77 (V : Valuation τ sig (Elt F)) : Z V main_v77 = broadcastInDim S100000x128 ![0, 1] bcast_S100000x1_S100000x128_0_1 (Z V main_v76) :=
  Cert.LibAfter.read_unary Hand.ops Hand.Ws Hand.hWs 106 (Hand.lt_length (by decide)) V main_v76 main_v77 (broadcastInDim S100000x128 ![0, 1] bcast_S100000x1_S100000x128_0_1) ⟨by decide, rfl⟩ ⟨by decide, rfl⟩ rfl (by decide) (by decide)

theorem v78 (V : Valuation τ sig (Elt F)) : Z V main_v78 = mulf (Z V main_v73) (Z V main_v77) :=
  Cert.LibAfter.read_binary Hand.ops Hand.Ws Hand.hWs 107 (Hand.lt_length (by decide)) V main_v73 main_v77 main_v78 (mulf) ⟨by decide, rfl⟩ ⟨by decide, rfl⟩ ⟨by decide, rfl⟩ rfl (by decide) (by decide) (by decide)

theorem v79 (V : Valuation τ sig (Elt F)) : Z V main_v79 = addf (Z V main_v42) (Z V main_v78) :=
  Cert.LibAfter.read_binary Hand.ops Hand.Ws Hand.hWs 108 (Hand.lt_length (by decide)) V main_v42 main_v78 main_v79 (addf) ⟨by decide, rfl⟩ ⟨by decide, rfl⟩ ⟨by decide, rfl⟩ rfl (by decide) (by decide) (by decide)

theorem v80 (V : Valuation τ sig (Elt F)) : Z V main_v80 = extractStridedSlice S1x128 ![1, 0] (Z V main_arg4) slices_S3x128_S1x128_1_0 :=
  Cert.LibAfter.read_unary Hand.ops Hand.Ws Hand.hWs 109 (Hand.lt_length (by decide)) V main_arg4 main_v80 (fun u => extractStridedSlice S1x128 ![1, 0] u slices_S3x128_S1x128_1_0) ⟨by decide, rfl⟩ ⟨by decide, rfl⟩ rfl (by decide) (by decide)

theorem v81 (V : Valuation τ sig (Elt F)) : Z V main_v81 = shapeCast S128 (Z V main_v80) shapeCasts_S1x128_S128 :=
  Cert.LibAfter.read_reshape Hand.ops Hand.Ws Hand.hWs 110 (Hand.lt_length (by decide)) V main_v80 main_v81 rfl shapeCasts_S1x128_S128 ⟨by decide, rfl⟩ ⟨by decide, rfl⟩ rfl (by decide) (by decide)

theorem v82 (V : Valuation τ sig (Elt F)) : Z V main_v82 = broadcastInDim S1x128 ![1] bcast_S128_S1x128_1 (Z V main_v81) :=
  Cert.LibAfter.read_unary Hand.ops Hand.Ws Hand.hWs 111 (Hand.lt_length (by decide)) V main_v81 main_v82 (broadcastInDim S1x128 ![1] bcast_S128_S1x128_1) ⟨by decide, rfl⟩ ⟨by decide, rfl⟩ rfl (by decide) (by decide)

theorem v83 (V : Valuation τ sig (Elt F)) : Z V main_v83 = broadcastInDim S100000x128 ![0, 1] bcast_S1x128_S100000x128_0_1 (Z V main_v82) :=
  Cert.LibAfter.read_unary Hand.ops Hand.Ws Hand.hWs 112 (Hand.lt_length (by decide)) V main_v82 main_v83 (broadcastInDim S100000x128 ![0, 1] bcast_S1x128_S100000x128_0_1) ⟨by decide, rfl⟩ ⟨by decide, rfl⟩ rfl (by decide) (by decide)

theorem v84 (V : Valuation τ sig (Elt F)) : Z V main_v84 = addf (Z V main_v79) (Z V main_v83) :=
  Cert.LibAfter.read_binary Hand.ops Hand.Ws Hand.hWs 113 (Hand.lt_length (by decide)) V main_v79 main_v83 main_v84 (addf) ⟨by decide, rfl⟩ ⟨by decide, rfl⟩ ⟨by decide, rfl⟩ rfl (by decide) (by decide) (by decide)

theorem v85 (V : Valuation τ sig (Elt F)) : Z V main_v85 = extractStridedSlice S1x600000 ![2, 0] (Z V main_arg1) slices_S3x600000_S1x600000_2_0 :=
  Cert.LibAfter.read_unary Hand.ops Hand.Ws Hand.hWs 114 (Hand.lt_length (by decide)) V main_arg1 main_v85 (fun u => extractStridedSlice S1x600000 ![2, 0] u slices_S3x600000_S1x600000_2_0) ⟨by decide, rfl⟩ ⟨by decide, rfl⟩ rfl (by decide) (by decide)

theorem v86 (V : Valuation τ sig (Elt F)) : Z V main_v86 = shapeCast S600000 (Z V main_v85) shapeCasts_S1x600000_S600000 :=
  Cert.LibAfter.read_reshape Hand.ops Hand.Ws Hand.hWs 115 (Hand.lt_length (by decide)) V main_v85 main_v86 rfl shapeCasts_S1x600000_S600000 ⟨by decide, rfl⟩ ⟨by decide, rfl⟩ rfl (by decide) (by decide)

theorem v87 (V : Valuation τ sig (Elt F)) : Z V main_v87 = extractStridedSlice S1x600000 ![2, 0] (Z V main_arg2) slices_S3x600000_S1x600000_2_0 :=
  Cert.LibAfter.read_unary Hand.ops Hand.Ws Hand.hWs 116 (Hand.lt_length (by decide)) V main_arg2 main_v87 (fun u => extractStridedSlice S1x600000 ![2, 0] u slices_S3x600000_S1x600000_2_0) ⟨by decide, rfl⟩ ⟨by decide, rfl⟩ rfl (by decide) (by decide)

theorem v88 (V : Valuation τ sig (Elt F)) : Z V main_v88 = shapeCast S600000 (Z V main_v87) shapeCasts_S1x600000_S600000 :=
  Cert.LibAfter.read_reshape Hand.ops Hand.Ws Hand.hWs 117 (Hand.lt_length (by decide)) V main_v87 main_v88 rfl shapeCasts_S1x600000_S600000 ⟨by decide, rfl⟩ ⟨by decide, rfl⟩ rfl (by decide) (by decide)

theorem cst_19 (V : Valuation τ sig (Elt F)) : Z V main_cst_19 = constant S_ .f32 0x3F800000#32 :=
  Cert.LibAfter.read_nullary Hand.ops Hand.Ws Hand.hWs 118 (Hand.lt_length (by decide)) V main_cst_19 (constant S_ .f32 0x3F800000#32) ⟨by decide, rfl⟩ rfl (by decide)

theorem v89 (V : Valuation τ sig (Elt F)) : Z V main_v89 = broadcastInDim S600000 ![] bcast_S_S600000 (Z V main_cst_19) :=
  Cert.LibAfter.read_unary Hand.ops Hand.Ws Hand.hWs 119 (Hand.lt_length (by decide)) V main_cst_19 main_v89 (broadcastInDim S600000 ![] bcast_S_S600000) ⟨by decide, rfl⟩ ⟨by decide, rfl⟩ rfl (by decide) (by decide)

theorem cst_20 (V : Valuation τ sig (Elt F)) : Z V main_cst_20 = constant S_ .f32 0x00000000#32 :=
  Cert.LibAfter.read_nullary Hand.ops Hand.Ws Hand.hWs 120 (Hand.lt_length (by decide)) V main_cst_20 (constant S_ .f32 0x00000000#32) ⟨by decide, rfl⟩ rfl (by decide)

theorem v90 (V : Valuation τ sig (Elt F)) : Z V main_v90 = broadcastInDim S100000 ![] bcast_S_S100000 (Z V main_cst_20) :=
  Cert.LibAfter.read_unary Hand.ops Hand.Ws Hand.hWs 121 (Hand.lt_length (by decide)) V main_cst_20 main_v90 (broadcastInDim S100000 ![] bcast_S_S100000) ⟨by decide, rfl⟩ ⟨by decide, rfl⟩ rfl (by decide) (by decide)

theorem v91 (V : Valuation τ sig (Elt F)) : Z V main_v91 = broadcastInDim S600000x1 ![0] bcast_S600000_S600000x1_0 (Z V main_v86) :=
  Cert.LibAfter.read_unary Hand.ops Hand.Ws Hand.hWs 122 (Hand.lt_length (by decide)) V main_v86 main_v91 (broadcastInDim S600000x1 ![0] bcast_S600000_S600000x1_0) ⟨by decide, rfl⟩ ⟨by decide, rfl⟩ rfl (by decide) (by decide)

theorem v92 (V : Valuation τ sig (Elt F)) : Z V main_v92 = Host.scatterAdd scatter_S100000_S600000x1_S600000_n_0_0_1 (Z V main_v90) (Z V main_v91) (Z V main_v89) :=
  Cert.LibAfter.read_ternary Hand.ops Hand.Ws Hand.hWs 123 (Hand.lt_length (by decide)) V main_v90 main_v91 main_v89 main_v92 (fun x i u => Host.scatterAdd scatter_S100000_S600000x1_S600000_n_0_0_1 x i u) ⟨by decide, rfl⟩ ⟨by decide, rfl⟩ ⟨by decide, rfl⟩ ⟨by decide, rfl⟩ rfl (by decide) (by decide) (by decide) (by decide)

theorem cst_21 (V : Valuation τ sig (Elt F)) : Z V main_cst_21 = constant S_ .f32 0x3F800000#32 :=
  Cert.LibAfter.read_nullary Hand.ops Hand.Ws Hand.hWs 124 (Hand.lt_length (by decide)) V main_cst_21 (constant S_ .f32 0x3F800000#32) ⟨by decide, rfl⟩ rfl (by decide)

theorem call4_v0 (V : Valuation τ sig (Elt F)) : Z V main_call4_v0 = Z V main_cst_21 :=
  Cert.LibAfter.read_unary Hand.ops Hand.Ws Hand.hWs 125 (Hand.lt_length (by decide)) V main_cst_21 main_call4_v0 (fun u => u) ⟨by decide, rfl⟩ ⟨by decide, rfl⟩ rfl (by decide) (by decide)

theorem call4_v1 (V : Valuation τ sig (Elt F)) : Z V main_call4_v1 = broadcastInDim S100000 ![] bcast_S_S100000 (Z V main_call4_v0) :=
  Cert.LibAfter.read_unary Hand.ops Hand.Ws Hand.hWs 126 (Hand.lt_length (by decide)) V main_call4_v0 main_call4_v1 (broadcastInDim S100000 ![] bcast_S_S100000) ⟨by decide, rfl⟩ ⟨by decide, rfl⟩ rfl (by decide) (by decide)

theorem v93 (V : Valuation τ sig (Elt F)) : Z V main_v93 = maximumf (Z V main_call4_v1) (Z V main_v92) :=
  Cert.LibAfter.read_binary Hand.ops Hand.Ws Hand.hWs 127 (Hand.lt_length (by decide)) V main_call4_v1 main_v92 main_v93 (maximumf) ⟨by decide, rfl⟩ ⟨by decide, rfl⟩ ⟨by decide, rfl⟩ rfl (by decide) (by decide) (by decide)

theorem cst_22 (V : Valuation τ sig (Elt F)) : Z V main_cst_22 = constant S_ .f32 0x00000000#32 :=
  Cert.LibAfter.read_nullary Hand.ops Hand.Ws Hand.hWs 128 (Hand.lt_length (by decide)) V main_cst_22 (constant S_ .f32 0x00000000#32) ⟨by decide, rfl⟩ rfl (by decide)

theorem v94 (V : Valuation τ sig (Elt F)) : Z V main_v94 = broadcastInDim S100000 ![] bcast_S_S100000 (Z V main_cst_22) :=
  Cert.LibAfter.read_unary Hand.ops Hand.Ws Hand.hWs 129 (Hand.lt_length (by decide)) V main_cst_22 main_v94 (broadcastInDim S100000 ![] bcast_S_S100000) ⟨by decide, rfl⟩ ⟨by decide, rfl⟩ rfl (by decide) (by decide)

end Cert.ReferenceIdeal.Rd

end
-- ==== Proof.RefReads2.lean ====
/-
  The reference program in single-assignment form, read at the end of its run: the operations of window 2.
  Each equation says that a buffer's final contents are its operation's function of its operands' final contents.
-/
import proofs.«124848_j55800215109809_1_alg».proof.Proof.RefOps
import proofs.«124848_j55800215109809_1_alg».proof.Proof.LibAfterRead

noncomputable section

namespace Cert.ReferenceIdeal.Rd

open Cert.ReferenceIdeal Cert.ReferenceIdeal.Gen Idealize.ShloMosaic Idealize.ShloMosaic.TcCoe Idealize.SL.Sem Idealize.ShloMosaic.StableHlo

variable {F : FTy → Type} [FloatOps F]

theorem v95 (V : Valuation τ sig (Elt F)) : Z V main_v95 = broadcastInDim S600000x1 ![0] bcast_S600000_S600000x1_0 (Z V main_v88) :=
  Cert.LibAfter.read_unary Hand.ops Hand.Ws Hand.hWs 130 (Hand.lt_length (by decide)) V main_v88 main_v95 (broadcastInDim S600000x1 ![0] bcast_S600000_S600000x1_0) ⟨by decide, rfl⟩ ⟨by decide, rfl⟩ rfl (by decide) (by decide)

theorem v96 (V : Valuation τ sig (Elt F)) : Z V main_v96 = Host.scatterAdd scatter_S100000_S600000x1_S600000_n_0_0_1 (Z V main_v94) (Z V main_v95) (Z V main_v89) :=
  Cert.LibAfter.read_ternary Hand.ops Hand.Ws Hand.hWs 131 (Hand.lt_length (by decide)) V main_v94 main_v95 main_v89 main_v96 (fun x i u => Host.scatterAdd scatter_S100000_S600000x1_S600000_n_0_0_1 x i u) ⟨by decide, rfl⟩ ⟨by decide, rfl⟩ ⟨by decide, rfl⟩ ⟨by decide, rfl⟩ rfl (by decide) (by decide) (by decide) (by decide)

theorem cst_23 (V : Valuation τ sig (Elt F)) : Z V main_cst_23 = constant S_ .f32 0x3F800000#32 :=
  Cert.LibAfter.read_nullary Hand.ops Hand.Ws Hand.hWs 132 (Hand.lt_length (by decide)) V main_cst_23 (constant S_ .f32 0x3F800000#32) ⟨by decide, rfl⟩ rfl (by decide)

theorem call5_v0 (V : Valuation τ sig (Elt F)) : Z V main_call5_v0 = Z V main_cst_23 :=
  Cert.LibAfter.read_unary Hand.ops Hand.Ws Hand.hWs 133 (Hand.lt_length (by decide)) V main_cst_23 main_call5_v0 (fun u => u) ⟨by decide, rfl⟩ ⟨by decide, rfl⟩ rfl (by decide) (by decide)

theorem call5_v1 (V : Valuation τ sig (Elt F)) : Z V main_call5_v1 = broadcastInDim S100000 ![] bcast_S_S100000 (Z V main_call5_v0) :=
  Cert.LibAfter.read_unary Hand.ops Hand.Ws Hand.hWs 134 (Hand.lt_length (by decide)) V main_call5_v0 main_call5_v1 (broadcastInDim S100000 ![] bcast_S_S100000) ⟨by decide, rfl⟩ ⟨by decide, rfl⟩ rfl (by decide) (by decide)

theorem v97 (V : Valuation τ sig (Elt F)) : Z V main_v97 = maximumf (Z V main_call5_v1) (Z V main_v96) :=
  Cert.LibAfter.read_binary Hand.ops Hand.Ws Hand.hWs 135 (Hand.lt_length (by decide)) V main_call5_v1 main_v96 main_v97 (maximumf) ⟨by decide, rfl⟩ ⟨by decide, rfl⟩ ⟨by decide, rfl⟩ rfl (by decide) (by decide) (by decide)

theorem cst_24 (V : Valuation τ sig (Elt F)) : Z V main_cst_24 = constant S_ .f32 0xBF000000#32 :=
  Cert.LibAfter.read_nullary Hand.ops Hand.Ws Hand.hWs 136 (Hand.lt_length (by decide)) V main_cst_24 (constant S_ .f32 0xBF000000#32) ⟨by decide, rfl⟩ rfl (by decide)

theorem v98 (V : Valuation τ sig (Elt F)) : Z V main_v98 = broadcastInDim S100000 ![] bcast_S_S100000 (Z V main_cst_24) :=
  Cert.LibAfter.read_unary Hand.ops Hand.Ws Hand.hWs 137 (Hand.lt_length (by decide)) V main_cst_24 main_v98 (broadcastInDim S100000 ![] bcast_S_S100000) ⟨by decide, rfl⟩ ⟨by decide, rfl⟩ rfl (by decide) (by decide)

theorem v99 (V : Valuation τ sig (Elt F)) : Z V main_v99 = Host.powf (Z V main_v93) (Z V main_v98) :=
  Cert.LibAfter.read_binary Hand.ops Hand.Ws Hand.hWs 138 (Hand.lt_length (by decide)) V main_v93 main_v98 main_v99 (Host.powf) ⟨by decide, rfl⟩ ⟨by decide, rfl⟩ ⟨by decide, rfl⟩ rfl (by decide) (by decide) (by decide)

theorem v100 (V : Valuation τ sig (Elt F)) : Z V main_v100 = broadcastInDim S100000x1 ![0] bcast_S100000_S100000x1_0 (Z V main_v99) :=
  Cert.LibAfter.read_unary Hand.ops Hand.Ws Hand.hWs 139 (Hand.lt_length (by decide)) V main_v99 main_v100 (broadcastInDim S100000x1 ![0] bcast_S100000_S100000x1_0) ⟨by decide, rfl⟩ ⟨by decide, rfl⟩ rfl (by decide) (by decide)

theorem v101 (V : Valuation τ sig (Elt F)) : Z V main_v101 = broadcastInDim S100000x256 ![0, 1] bcast_S100000x1_S100000x256_0_1 (Z V main_v100) :=
  Cert.LibAfter.read_unary Hand.ops Hand.Ws Hand.hWs 140 (Hand.lt_length (by decide)) V main_v100 main_v101 (broadcastInDim S100000x256 ![0, 1] bcast_S100000x1_S100000x256_0_1) ⟨by decide, rfl⟩ ⟨by decide, rfl⟩ rfl (by decide) (by decide)

theorem v102 (V : Valuation τ sig (Elt F)) : Z V main_v102 = mulf (Z V main_arg0) (Z V main_v101) :=
  Cert.LibAfter.read_binary Hand.ops Hand.Ws Hand.hWs 141 (Hand.lt_length (by decide)) V main_arg0 main_v101 main_v102 (mulf) ⟨by decide, rfl⟩ ⟨by decide, rfl⟩ ⟨by decide, rfl⟩ rfl (by decide) (by decide) (by decide)

theorem v103 (V : Valuation τ sig (Elt F)) : Z V main_v103 = extractStridedSlice S1x256x128 ![2, 0, 0] (Z V main_arg3) slices_S3x256x128_S1x256x128_2_0_0 :=
  Cert.LibAfter.read_unary Hand.ops Hand.Ws Hand.hWs 142 (Hand.lt_length (by decide)) V main_arg3 main_v103 (fun u => extractStridedSlice S1x256x128 ![2, 0, 0] u slices_S3x256x128_S1x256x128_2_0_0) ⟨by decide, rfl⟩ ⟨by decide, rfl⟩ rfl (by decide) (by decide)

theorem v104 (V : Valuation τ sig (Elt F)) : Z V main_v104 = shapeCast S256x128 (Z V main_v103) shapeCasts_S1x256x128_S256x128 :=
  Cert.LibAfter.read_reshape Hand.ops Hand.Ws Hand.hWs 143 (Hand.lt_length (by decide)) V main_v103 main_v104 rfl shapeCasts_S1x256x128_S256x128 ⟨by decide, rfl⟩ ⟨by decide, rfl⟩ rfl (by decide) (by decide)

theorem v105 (V : Valuation τ sig (Elt F)) : Z V main_v105 = Host.dotGeneral dot_S100000x256_S256x128_S100000x128_1_0_0_1_n_n none (Z V main_v102) (Z V main_v104) :=
  Cert.LibAfter.read_binary Hand.ops Hand.Ws Hand.hWs 144 (Hand.lt_length (by decide)) V main_v102 main_v104 main_v105 (fun l r => Host.dotGeneral dot_S100000x256_S256x128_S100000x128_1_0_0_1_n_n none l r) ⟨by decide, rfl⟩ ⟨by decide, rfl⟩ ⟨by decide, rfl⟩ rfl (by decide) (by decide) (by decide)

theorem c_25 (V : Valuation τ sig (Elt F)) : Z V main_c_25 = constantI S_ 32 0#32 :=
  Cert.LibAfter.read_nullary Hand.ops Hand.Ws Hand.hWs 145 (Hand.lt_length (by decide)) V main_c_25 (constantI S_ 32 0#32) ⟨by decide, rfl⟩ rfl (by decide)

theorem v106 (V : Valuation τ sig (Elt F)) : Z V main_v106 = broadcastInDim S600000 ![] bcast_S_S600000 (Z V main_c_25) :=
  Cert.LibAfter.read_unary Hand.ops Hand.Ws Hand.hWs 146 (Hand.lt_length (by decide)) V main_c_25 main_v106 (broadcastInDim S600000 ![] bcast_S_S600000) ⟨by decide, rfl⟩ ⟨by decide, rfl⟩ rfl (by decide) (by decide)

theorem v107 (V : Valuation τ sig (Elt F)) : Z V main_v107 = cmpi .slt (Z V main_v86) (Z V main_v106) :=
  Cert.LibAfter.read_binary Hand.ops Hand.Ws Hand.hWs 147 (Hand.lt_length (by decide)) V main_v86 main_v106 main_v107 (cmpi .slt) ⟨by decide, rfl⟩ ⟨by decide, rfl⟩ ⟨by decide, rfl⟩ rfl (by decide) (by decide) (by decide)

theorem c_26 (V : Valuation τ sig (Elt F)) : Z V main_c_26 = constantI S_ 32 100000#32 :=
  Cert.LibAfter.read_nullary Hand.ops Hand.Ws Hand.hWs 148 (Hand.lt_length (by decide)) V main_c_26 (constantI S_ 32 100000#32) ⟨by decide, rfl⟩ rfl (by decide)

theorem v108 (V : Valuation τ sig (Elt F)) : Z V main_v108 = broadcastInDim S600000 ![] bcast_S_S600000 (Z V main_c_26) :=
  Cert.LibAfter.read_unary Hand.ops Hand.Ws Hand.hWs 149 (Hand.lt_length (by decide)) V main_c_26 main_v108 (broadcastInDim S600000 ![] bcast_S_S600000) ⟨by decide, rfl⟩ ⟨by decide, rfl⟩ rfl (by decide) (by decide)

theorem v109 (V : Valuation τ sig (Elt F)) : Z V main_v109 = addi (Z V main_v86) (Z V main_v108) :=
  Cert.LibAfter.read_binary Hand.ops Hand.Ws Hand.hWs 150 (Hand.lt_length (by decide)) V main_v86 main_v108 main_v109 (addi) ⟨by decide, rfl⟩ ⟨by decide, rfl⟩ ⟨by decide, rfl⟩ rfl (by decide) (by decide) (by decide)

theorem v110 (V : Valuation τ sig (Elt F)) : Z V main_v110 = select (Z V main_v107) (Z V main_v109) (Z V main_v86) :=
  Cert.LibAfter.read_ternary Hand.ops Hand.Ws Hand.hWs 151 (Hand.lt_length (by decide)) V main_v107 main_v109 main_v86 main_v110 (select) ⟨by decide, rfl⟩ ⟨by decide, rfl⟩ ⟨by decide, rfl⟩ ⟨by decide, rfl⟩ rfl (by decide) (by decide) (by decide) (by decide)

theorem v111 (V : Valuation τ sig (Elt F)) : Z V main_v111 = broadcastInDim S600000x1 ![0] bcast_S600000_S600000x1_0 (Z V main_v110) :=
  Cert.LibAfter.read_unary Hand.ops Hand.Ws Hand.hWs 152 (Hand.lt_length (by decide)) V main_v110 main_v111 (broadcastInDim S600000x1 ![0] bcast_S600000_S600000x1_0) ⟨by decide, rfl⟩ ⟨by decide, rfl⟩ rfl (by decide) (by decide)

theorem v112 (V : Valuation τ sig (Elt F)) : Z V main_v112 = Host.gather gather_S100000x128_S600000x1_S600000x128_1_0_n_n_0_1_1128 (Z V main_v105) (Z V main_v111) :=
  Cert.LibAfter.read_binary Hand.ops Hand.Ws Hand.hWs 153 (Hand.lt_length (by decide)) V main_v105 main_v111 main_v112 (fun x i => Host.gather gather_S100000x128_S600000x1_S600000x128_1_0_n_n_0_1_1128 x i) ⟨by decide, rfl⟩ ⟨by decide, rfl⟩ ⟨by decide, rfl⟩ rfl (by decide) (by decide) (by decide)

theorem cst_27 (V : Valuation τ sig (Elt F)) : Z V main_cst_27 = constant S_ .f32 0x00000000#32 :=
  Cert.LibAfter.read_nullary Hand.ops Hand.Ws Hand.hWs 154 (Hand.lt_length (by decide)) V main_cst_27 (constant S_ .f32 0x00000000#32) ⟨by decide, rfl⟩ rfl (by decide)

theorem v113 (V : Valuation τ sig (Elt F)) : Z V main_v113 = broadcastInDim S100000x128 ![] bcast_S_S100000x128 (Z V main_cst_27) :=
  Cert.LibAfter.read_unary Hand.ops Hand.Ws Hand.hWs 155 (Hand.lt_length (by decide)) V main_cst_27 main_v113 (broadcastInDim S100000x128 ![] bcast_S_S100000x128) ⟨by decide, rfl⟩ ⟨by decide, rfl⟩ rfl (by decide) (by decide)

theorem v114 (V : Valuation τ sig (Elt F)) : Z V main_v114 = broadcastInDim S600000x1 ![0] bcast_S600000_S600000x1_0 (Z V main_v88) :=
  Cert.LibAfter.read_unary Hand.ops Hand.Ws Hand.hWs 156 (Hand.lt_length (by decide)) V main_v88 main_v114 (broadcastInDim S600000x1 ![0] bcast_S600000_S600000x1_0) ⟨by decide, rfl⟩ ⟨by decide, rfl⟩ rfl (by decide) (by decide)

theorem v115 (V : Valuation τ sig (Elt F)) : Z V main_v115 = Host.scatterAdd scatter_S100000x128_S600000x1_S600000x128_1_0_0_1 (Z V main_v113) (Z V main_v114) (Z V main_v112) :=
  Cert.LibAfter.read_ternary Hand.ops Hand.Ws Hand.hWs 157 (Hand.lt_length (by decide)) V main_v113 main_v114 main_v112 main_v115 (fun x i u => Host.scatterAdd scatter_S100000x128_S600000x1_S600000x128_1_0_0_1 x i u) ⟨by decide, rfl⟩ ⟨by decide, rfl⟩ ⟨by decide, rfl⟩ ⟨by decide, rfl⟩ rfl (by decide) (by decide) (by decide) (by decide)

theorem cst_28 (V : Valuation τ sig (Elt F)) : Z V main_cst_28 = constant S_ .f32 0xBF000000#32 :=
  Cert.LibAfter.read_nullary Hand.ops Hand.Ws Hand.hWs 158 (Hand.lt_length (by decide)) V main_cst_28 (constant S_ .f32 0xBF000000#32) ⟨by decide, rfl⟩ rfl (by decide)

theorem v116 (V : Valuation τ sig (Elt F)) : Z V main_v116 = broadcastInDim S100000 ![] bcast_S_S100000 (Z V main_cst_28) :=
  Cert.LibAfter.read_unary Hand.ops Hand.Ws Hand.hWs 159 (Hand.lt_length (by decide)) V main_cst_28 main_v116 (broadcastInDim S100000 ![] bcast_S_S100000) ⟨by decide, rfl⟩ ⟨by decide, rfl⟩ rfl (by decide) (by decide)

theorem v117 (V : Valuation τ sig (Elt F)) : Z V main_v117 = Host.powf (Z V main_v97) (Z V main_v116) :=
  Cert.LibAfter.read_binary Hand.ops Hand.Ws Hand.hWs 160 (Hand.lt_length (by decide)) V main_v97 main_v116 main_v117 (Host.powf) ⟨by decide, rfl⟩ ⟨by decide, rfl⟩ ⟨by decide, rfl⟩ rfl (by decide) (by decide) (by decide)

theorem v118 (V : Valuation τ sig (Elt F)) : Z V main_v118 = broadcastInDim S100000x1 ![0] bcast_S100000_S100000x1_0 (Z V main_v117) :=
  Cert.LibAfter.read_unary Hand.ops Hand.Ws Hand.hWs 161 (Hand.lt_length (by decide)) V main_v117 main_v118 (broadcastInDim S100000x1 ![0] bcast_S100000_S100000x1_0) ⟨by decide, rfl⟩ ⟨by decide, rfl⟩ rfl (by decide) (by decide)

theorem v119 (V : Valuation τ sig (Elt F)) : Z V main_v119 = broadcastInDim S100000x128 ![0, 1] bcast_S100000x1_S100000x128_0_1 (Z V main_v118) :=
  Cert.LibAfter.read_unary Hand.ops Hand.Ws Hand.hWs 162 (Hand.lt_length (by decide)) V main_v118 main_v119 (broadcastInDim S100000x128 ![0, 1] bcast_S100000x1_S100000x128_0_1) ⟨by decide, rfl⟩ ⟨by decide, rfl⟩ rfl (by decide) (by decide)

theorem v120 (V : Valuation τ sig (Elt F)) : Z V main_v120 = mulf (Z V main_v115) (Z V main_v119) :=
  Cert.LibAfter.read_binary Hand.ops Hand.Ws Hand.hWs 163 (Hand.lt_length (by decide)) V main_v115 main_v119 main_v120 (mulf) ⟨by decide, rfl⟩ ⟨by decide, rfl⟩ ⟨by decide, rfl⟩ rfl (by decide) (by decide) (by decide)

theorem v121 (V : Valuation τ sig (Elt F)) : Z V main_v121 = addf (Z V main_v84) (Z V main_v120) :=
  Cert.LibAfter.read_binary Hand.ops Hand.Ws Hand.hWs 164 (Hand.lt_length (by decide)) V main_v84 main_v120 main_v121 (addf) ⟨by decide, rfl⟩ ⟨by decide, rfl⟩ ⟨by decide, rfl⟩ rfl (by decide) (by decide) (by decide)

theorem v122 (V : Valuation τ sig (Elt F)) : Z V main_v122 = extractStridedSlice S1x128 ![2, 0] (Z V main_arg4) slices_S3x128_S1x128_2_0 :=
  Cert.LibAfter.read_unary Hand.ops Hand.Ws Hand.hWs 165 (Hand.lt_length (by decide)) V main_arg4 main_v122 (fun u => extractStridedSlice S1x128 ![2, 0] u slices_S3x128_S1x128_2_0) ⟨by decide, rfl⟩ ⟨by decide, rfl⟩ rfl (by decide) (by decide)

theorem v123 (V : Valuation τ sig (Elt F)) : Z V main_v123 = shapeCast S128 (Z V main_v122) shapeCasts_S1x128_S128 :=
  Cert.LibAfter.read_reshape Hand.ops Hand.Ws Hand.hWs 166 (Hand.lt_length (by decide)) V main_v122 main_v123 rfl shapeCasts_S1x128_S128 ⟨by decide, rfl⟩ ⟨by decide, rfl⟩ rfl (by decide) (by decide)

theorem v124 (V : Valuation τ sig (Elt F)) : Z V main_v124 = broadcastInDim S1x128 ![1] bcast_S128_S1x128_1 (Z V main_v123) :=
  Cert.LibAfter.read_unary Hand.ops Hand.Ws Hand.hWs 167 (Hand.lt_length (by decide)) V main_v123 main_v124 (broadcastInDim S1x128 ![1] bcast_S128_S1x128_1) ⟨by decide, rfl⟩ ⟨by decide, rfl⟩ rfl (by decide) (by decide)

theorem v125 (V : Valuation τ sig (Elt F)) : Z V main_v125 = broadcastInDim S100000x128 ![0, 1] bcast_S1x128_S100000x128_0_1 (Z V main_v124) :=
  Cert.LibAfter.read_unary Hand.ops Hand.Ws Hand.hWs 168 (Hand.lt_length (by decide)) V main_v124 main_v125 (broadcastInDim S100000x128 ![0, 1] bcast_S1x128_S100000x128_0_1) ⟨by decide, rfl⟩ ⟨by decide, rfl⟩ rfl (by decide) (by decide)

theorem v126 (V : Valuation τ sig (Elt F)) : Z V main_v126 = addf (Z V main_v121) (Z V main_v125) :=
  Cert.LibAfter.read_binary Hand.ops Hand.Ws Hand.hWs 169 (Hand.lt_length (by decide)) V main_v121 main_v125 main_v126 (addf) ⟨by decide, rfl⟩ ⟨by decide, rfl⟩ ⟨by decide, rfl⟩ rfl (by decide) (by decide) (by decide)

theorem cst_29 (V : Valuation τ sig (Elt F)) : Z V main_cst_29 = constant S_ .f32 0x3C23D70A#32 :=
  Cert.LibAfter.read_nullary Hand.ops Hand.Ws Hand.hWs 170 (Hand.lt_length (by decide)) V main_cst_29 (constant S_ .f32 0x3C23D70A#32) ⟨by decide, rfl⟩ rfl (by decide)

theorem call6_cst (V : Valuation τ sig (Elt F)) : Z V main_call6_cst = constant S_ .f32 0x00000000#32 :=
  Cert.LibAfter.read_nullary Hand.ops Hand.Ws Hand.hWs 171 (Hand.lt_length (by decide)) V main_call6_cst (constant S_ .f32 0x00000000#32) ⟨by decide, rfl⟩ rfl (by decide)

theorem call6_v0 (V : Valuation τ sig (Elt F)) : Z V main_call6_v0 = broadcastInDim S100000x128 ![] bcast_S_S100000x128 (Z V main_call6_cst) :=
  Cert.LibAfter.read_unary Hand.ops Hand.Ws Hand.hWs 172 (Hand.lt_length (by decide)) V main_call6_cst main_call6_v0 (broadcastInDim S100000x128 ![] bcast_S_S100000x128) ⟨by decide, rfl⟩ ⟨by decide, rfl⟩ rfl (by decide) (by decide)

theorem call6_v1 (V : Valuation τ sig (Elt F)) : Z V main_call6_v1 = cmpf .oge (Z V main_v126) (Z V main_call6_v0) :=
  Cert.LibAfter.read_binary Hand.ops Hand.Ws Hand.hWs 173 (Hand.lt_length (by decide)) V main_v126 main_call6_v0 main_call6_v1 (cmpf .oge) ⟨by decide, rfl⟩ ⟨by decide, rfl⟩ ⟨by decide, rfl⟩ rfl (by decide) (by decide) (by decide)

theorem call6_v2 (V : Valuation τ sig (Elt F)) : Z V main_call6_v2 = Z V main_cst_29 :=
  Cert.LibAfter.read_unary Hand.ops Hand.Ws Hand.hWs 174 (Hand.lt_length (by decide)) V main_cst_29 main_call6_v2 (fun u => u) ⟨by decide, rfl⟩ ⟨by decide, rfl⟩ rfl (by decide) (by decide)

theorem call6_v3 (V : Valuation τ sig (Elt F)) : Z V main_call6_v3 = broadcastInDim S100000x128 ![] bcast_S_S100000x128 (Z V main_call6_v2) :=
  Cert.LibAfter.read_unary Hand.ops Hand.Ws Hand.hWs 175 (Hand.lt_length (by decide)) V main_call6_v2 main_call6_v3 (broadcastInDim S100000x128 ![] bcast_S_S100000x128) ⟨by decide, rfl⟩ ⟨by decide, rfl⟩ rfl (by decide) (by decide)

theorem call6_v4 (V : Valuation τ sig (Elt F)) : Z V main_call6_v4 = mulf (Z V main_call6_v3) (Z V main_v126) :=
  Cert.LibAfter.read_binary Hand.ops Hand.Ws Hand.hWs 176 (Hand.lt_length (by decide)) V main_call6_v3 main_v126 main_call6_v4 (mulf) ⟨by decide, rfl⟩ ⟨by decide, rfl⟩ ⟨by decide, rfl⟩ rfl (by decide) (by decide) (by decide)

theorem v127 (V : Valuation τ sig (Elt F)) : Z V main_v127 = select (Z V main_call6_v1) (Z V main_v126) (Z V main_call6_v4) :=
  Cert.LibAfter.read_ternary Hand.ops Hand.Ws Hand.hWs 177 (Hand.lt_length (by decide)) V main_call6_v1 main_v126 main_call6_v4 main_v127 (select) ⟨by decide, rfl⟩ ⟨by decide, rfl⟩ ⟨by decide, rfl⟩ ⟨by decide, rfl⟩ rfl (by decide) (by decide) (by decide) (by decide)

theorem cst_30 (V : Valuation τ sig (Elt F)) : Z V main_cst_30 = constant S_ .f32 0x00000000#32 :=
  Cert.LibAfter.read_nullary Hand.ops Hand.Ws Hand.hWs 178 (Hand.lt_length (by decide)) V main_cst_30 (constant S_ .f32 0x00000000#32) ⟨by decide, rfl⟩ rfl (by decide)

theorem v128 (V : Valuation τ sig (Elt F)) : Z V main_v128 = broadcastInDim S100000x128 ![] bcast_S_S100000x128 (Z V main_cst_30) :=
  Cert.LibAfter.read_unary Hand.ops Hand.Ws Hand.hWs 179 (Hand.lt_length (by decide)) V main_cst_30 main_v128 (broadcastInDim S100000x128 ![] bcast_S_S100000x128) ⟨by decide, rfl⟩ ⟨by decide, rfl⟩ rfl (by decide) (by decide)

theorem v129 (V : Valuation τ sig (Elt F)) : Z V main_v129 = extractStridedSlice S1x600000 ![0, 0] (Z V main_arg1) slices_S3x600000_S1x600000_0_0 :=
  Cert.LibAfter.read_unary Hand.ops Hand.Ws Hand.hWs 180 (Hand.lt_length (by decide)) V main_arg1 main_v129 (fun u => extractStridedSlice S1x600000 ![0, 0] u slices_S3x600000_S1x600000_0_0) ⟨by decide, rfl⟩ ⟨by decide, rfl⟩ rfl (by decide) (by decide)

theorem v130 (V : Valuation τ sig (Elt F)) : Z V main_v130 = shapeCast S600000 (Z V main_v129) shapeCasts_S1x600000_S600000 :=
  Cert.LibAfter.read_reshape Hand.ops Hand.Ws Hand.hWs 181 (Hand.lt_length (by decide)) V main_v129 main_v130 rfl shapeCasts_S1x600000_S600000 ⟨by decide, rfl⟩ ⟨by decide, rfl⟩ rfl (by decide) (by decide)

theorem v131 (V : Valuation τ sig (Elt F)) : Z V main_v131 = extractStridedSlice S1x600000 ![0, 0] (Z V main_arg2) slices_S3x600000_S1x600000_0_0 :=
  Cert.LibAfter.read_unary Hand.ops Hand.Ws Hand.hWs 182 (Hand.lt_length (by decide)) V main_arg2 main_v131 (fun u => extractStridedSlice S1x600000 ![0, 0] u slices_S3x600000_S1x600000_0_0) ⟨by decide, rfl⟩ ⟨by decide, rfl⟩ rfl (by decide) (by decide)

theorem v132 (V : Valuation τ sig (Elt F)) : Z V main_v132 = shapeCast S600000 (Z V main_v131) shapeCasts_S1x600000_S600000 :=
  Cert.LibAfter.read_reshape Hand.ops Hand.Ws Hand.hWs 183 (Hand.lt_length (by decide)) V main_v131 main_v132 rfl shapeCasts_S1x600000_S600000 ⟨by decide, rfl⟩ ⟨by decide, rfl⟩ rfl (by decide) (by decide)

theorem cst_31 (V : Valuation τ sig (Elt F)) : Z V main_cst_31 = constant S_ .f32 0x3F800000#32 :=
  Cert.LibAfter.read_nullary Hand.ops Hand.Ws Hand.hWs 184 (Hand.lt_length (by decide)) V main_cst_31 (constant S_ .f32 0x3F800000#32) ⟨by decide, rfl⟩ rfl (by decide)

theorem v133 (V : Valuation τ sig (Elt F)) : Z V main_v133 = broadcastInDim S600000 ![] bcast_S_S600000 (Z V main_cst_31) :=
  Cert.LibAfter.read_unary Hand.ops Hand.Ws Hand.hWs 185 (Hand.lt_length (by decide)) V main_cst_31 main_v133 (broadcastInDim S600000 ![] bcast_S_S600000) ⟨by decide, rfl⟩ ⟨by decide, rfl⟩ rfl (by decide) (by decide)

theorem cst_32 (V : Valuation τ sig (Elt F)) : Z V main_cst_32 = constant S_ .f32 0x00000000#32 :=
  Cert.LibAfter.read_nullary Hand.ops Hand.Ws Hand.hWs 186 (Hand.lt_length (by decide)) V main_cst_32 (constant S_ .f32 0x00000000#32) ⟨by decide, rfl⟩ rfl (by decide)

theorem v134 (V : Valuation τ sig (Elt F)) : Z V main_v134 = broadcastInDim S100000 ![] bcast_S_S100000 (Z V main_cst_32) :=
  Cert.LibAfter.read_unary Hand.ops Hand.Ws Hand.hWs 187 (Hand.lt_length (by decide)) V main_cst_32 main_v134 (broadcastInDim S100000 ![] bcast_S_S100000) ⟨by decide, rfl⟩ ⟨by decide, rfl⟩ rfl (by decide) (by decide)

theorem v135 (V : Valuation τ sig (Elt F)) : Z V main_v135 = broadcastInDim S600000x1 ![0] bcast_S600000_S600000x1_0 (Z V main_v130) :=
  Cert.LibAfter.read_unary Hand.ops Hand.Ws Hand.hWs 188 (Hand.lt_length (by decide)) V main_v130 main_v135 (broadcastInDim S600000x1 ![0] bcast_S600000_S600000x1_0) ⟨by decide, rfl⟩ ⟨by decide, rfl⟩ rfl (by decide) (by decide)

theorem v136 (V : Valuation τ sig (Elt F)) : Z V main_v136 = Host.scatterAdd scatter_S100000_S600000x1_S600000_n_0_0_1 (Z V main_v134) (Z V main_v135) (Z V main_v133) :=
  Cert.LibAfter.read_ternary Hand.ops Hand.Ws Hand.hWs 189 (Hand.lt_length (by decide)) V main_v134 main_v135 main_v133 main_v136 (fun x i u => Host.scatterAdd scatter_S100000_S600000x1_S600000_n_0_0_1 x i u) ⟨by decide, rfl⟩ ⟨by decide, rfl⟩ ⟨by decide, rfl⟩ ⟨by decide, rfl⟩ rfl (by decide) (by decide) (by decide) (by decide)

theorem cst_33 (V : Valuation τ sig (Elt F)) : Z V main_cst_33 = constant S_ .f32 0x3F800000#32 :=
  Cert.LibAfter.read_nullary Hand.ops Hand.Ws Hand.hWs 190 (Hand.lt_length (by decide)) V main_cst_33 (constant S_ .f32 0x3F800000#32) ⟨by decide, rfl⟩ rfl (by decide)

theorem call7_v0 (V : Valuation τ sig (Elt F)) : Z V main_call7_v0 = Z V main_cst_33 :=
  Cert.LibAfter.read_unary Hand.ops Hand.Ws Hand.hWs 191 (Hand.lt_length (by decide)) V main_cst_33 main_call7_v0 (fun u => u) ⟨by decide, rfl⟩ ⟨by decide, rfl⟩ rfl (by decide) (by decide)

theorem call7_v1 (V : Valuation τ sig (Elt F)) : Z V main_call7_v1 = broadcastInDim S100000 ![] bcast_S_S100000 (Z V main_call7_v0) :=
  Cert.LibAfter.read_unary Hand.ops Hand.Ws Hand.hWs 192 (Hand.lt_length (by decide)) V main_call7_v0 main_call7_v1 (broadcastInDim S100000 ![] bcast_S_S100000) ⟨by decide, rfl⟩ ⟨by decide, rfl⟩ rfl (by decide) (by decide)

theorem v137 (V : Valuation τ sig (Elt F)) : Z V main_v137 = maximumf (Z V main_call7_v1) (Z V main_v136) :=
  Cert.LibAfter.read_binary Hand.ops Hand.Ws Hand.hWs 193 (Hand.lt_length (by decide)) V main_call7_v1 main_v136 main_v137 (maximumf) ⟨by decide, rfl⟩ ⟨by decide, rfl⟩ ⟨by decide, rfl⟩ rfl (by decide) (by decide) (by decide)

theorem cst_34 (V : Valuation τ sig (Elt F)) : Z V main_cst_34 = constant S_ .f32 0x00000000#32 :=
  Cert.LibAfter.read_nullary Hand.ops Hand.Ws Hand.hWs 194 (Hand.lt_length (by decide)) V main_cst_34 (constant S_ .f32 0x00000000#32) ⟨by decide, rfl⟩ rfl (by decide)

theorem v138 (V : Valuation τ sig (Elt F)) : Z V main_v138 = broadcastInDim S100000 ![] bcast_S_S100000 (Z V main_cst_34) :=
  Cert.LibAfter.read_unary Hand.ops Hand.Ws Hand.hWs 195 (Hand.lt_length (by decide)) V main_cst_34 main_v138 (broadcastInDim S100000 ![] bcast_S_S100000) ⟨by decide, rfl⟩ ⟨by decide, rfl⟩ rfl (by decide) (by decide)

theorem v139 (V : Valuation τ sig (Elt F)) : Z V main_v139 = broadcastInDim S600000x1 ![0] bcast_S600000_S600000x1_0 (Z V main_v132) :=
  Cert.LibAfter.read_unary Hand.ops Hand.Ws Hand.hWs 196 (Hand.lt_length (by decide)) V main_v132 main_v139 (broadcastInDim S600000x1 ![0] bcast_S600000_S600000x1_0) ⟨by decide, rfl⟩ ⟨by decide, rfl⟩ rfl (by decide) (by decide)

theorem v140 (V : Valuation τ sig (Elt F)) : Z V main_v140 = Host.scatterAdd scatter_S100000_S600000x1_S600000_n_0_0_1 (Z V main_v138) (Z V main_v139) (Z V main_v133) :=
  Cert.LibAfter.read_ternary Hand.ops Hand.Ws Hand.hWs 197 (Hand.lt_length (by decide)) V main_v138 main_v139 main_v133 main_v140 (fun x i u => Host.scatterAdd scatter_S100000_S600000x1_S600000_n_0_0_1 x i u) ⟨by decide, rfl⟩ ⟨by decide, rfl⟩ ⟨by decide, rfl⟩ ⟨by decide, rfl⟩ rfl (by decide) (by decide) (by decide) (by decide)

theorem cst_35 (V : Valuation τ sig (Elt F)) : Z V main_cst_35 = constant S_ .f32 0x3F800000#32 :=
  Cert.LibAfter.read_nullary Hand.ops Hand.Ws Hand.hWs 198 (Hand.lt_length (by decide)) V main_cst_35 (constant S_ .f32 0x3F800000#32) ⟨by decide, rfl⟩ rfl (by decide)

theorem call8_v0 (V : Valuation τ sig (Elt F)) : Z V main_call8_v0 = Z V main_cst_35 :=
  Cert.LibAfter.read_unary Hand.ops Hand.Ws Hand.hWs 199 (Hand.lt_length (by decide)) V main_cst_35 main_call8_v0 (fun u => u) ⟨by decide, rfl⟩ ⟨by decide, rfl⟩ rfl (by decide) (by decide)

theorem call8_v1 (V : Valuation τ sig (Elt F)) : Z V main_call8_v1 = broadcastInDim S100000 ![] bcast_S_S100000 (Z V main_call8_v0) :=
  Cert.LibAfter.read_unary Hand.ops Hand.Ws Hand.hWs 200 (Hand.lt_length (by decide)) V main_call8_v0 main_call8_v1 (broadcastInDim S100000 ![] bcast_S_S100000) ⟨by decide, rfl⟩ ⟨by decide, rfl⟩ rfl (by decide) (by decide)

theorem v141 (V : Valuation τ sig (Elt F)) : Z V main_v141 = maximumf (Z V main_call8_v1) (Z V main_v140) :=
  Cert.LibAfter.read_binary Hand.ops Hand.Ws Hand.hWs 201 (Hand.lt_length (by decide)) V main_call8_v1 main_v140 main_v141 (maximumf) ⟨by decide, rfl⟩ ⟨by decide, rfl⟩ ⟨by decide, rfl⟩ rfl (by decide) (by decide) (by decide)

end Cert.ReferenceIdeal.Rd

end
-- ==== Proof.RefReads3.lean ====
/-
  The reference program in single-assignment form, read at the end of its run: the operations of window 3.
  Each equation says that a buffer's final contents are its operation's function of its operands' final contents.
-/
import proofs.«124848_j55800215109809_1_alg».proof.Proof.RefOps
import proofs.«124848_j55800215109809_1_alg».proof.Proof.LibAfterRead

noncomputable section

namespace Cert.ReferenceIdeal.Rd

open Cert.ReferenceIdeal Cert.ReferenceIdeal.Gen Idealize.ShloMosaic Idealize.ShloMosaic.TcCoe Idealize.SL.Sem Idealize.ShloMosaic.StableHlo

variable {F : FTy → Type} [FloatOps F]

theorem cst_36 (V : Valuation τ sig (Elt F)) : Z V main_cst_36 = constant S_ .f32 0xBF000000#32 :=
  Cert.LibAfter.read_nullary Hand.ops Hand.Ws Hand.hWs 202 (Hand.lt_length (by decide)) V main_cst_36 (constant S_ .f32 0xBF000000#32) ⟨by decide, rfl⟩ rfl (by decide)

theorem v142 (V : Valuation τ sig (Elt F)) : Z V main_v142 = broadcastInDim S100000 ![] bcast_S_S100000 (Z V main_cst_36) :=
  Cert.LibAfter.read_unary Hand.ops Hand.Ws Hand.hWs 203 (Hand.lt_length (by decide)) V main_cst_36 main_v142 (broadcastInDim S100000 ![] bcast_S_S100000) ⟨by decide, rfl⟩ ⟨by decide, rfl⟩ rfl (by decide) (by decide)

theorem v143 (V : Valuation τ sig (Elt F)) : Z V main_v143 = Host.powf (Z V main_v137) (Z V main_v142) :=
  Cert.LibAfter.read_binary Hand.ops Hand.Ws Hand.hWs 204 (Hand.lt_length (by decide)) V main_v137 main_v142 main_v143 (Host.powf) ⟨by decide, rfl⟩ ⟨by decide, rfl⟩ ⟨by decide, rfl⟩ rfl (by decide) (by decide) (by decide)

theorem v144 (V : Valuation τ sig (Elt F)) : Z V main_v144 = broadcastInDim S100000x1 ![0] bcast_S100000_S100000x1_0 (Z V main_v143) :=
  Cert.LibAfter.read_unary Hand.ops Hand.Ws Hand.hWs 205 (Hand.lt_length (by decide)) V main_v143 main_v144 (broadcastInDim S100000x1 ![0] bcast_S100000_S100000x1_0) ⟨by decide, rfl⟩ ⟨by decide, rfl⟩ rfl (by decide) (by decide)

theorem v145 (V : Valuation τ sig (Elt F)) : Z V main_v145 = broadcastInDim S100000x128 ![0, 1] bcast_S100000x1_S100000x128_0_1 (Z V main_v144) :=
  Cert.LibAfter.read_unary Hand.ops Hand.Ws Hand.hWs 206 (Hand.lt_length (by decide)) V main_v144 main_v145 (broadcastInDim S100000x128 ![0, 1] bcast_S100000x1_S100000x128_0_1) ⟨by decide, rfl⟩ ⟨by decide, rfl⟩ rfl (by decide) (by decide)

theorem v146 (V : Valuation τ sig (Elt F)) : Z V main_v146 = mulf (Z V main_v127) (Z V main_v145) :=
  Cert.LibAfter.read_binary Hand.ops Hand.Ws Hand.hWs 207 (Hand.lt_length (by decide)) V main_v127 main_v145 main_v146 (mulf) ⟨by decide, rfl⟩ ⟨by decide, rfl⟩ ⟨by decide, rfl⟩ rfl (by decide) (by decide) (by decide)

theorem v147 (V : Valuation τ sig (Elt F)) : Z V main_v147 = extractStridedSlice S1x128x128 ![0, 0, 0] (Z V main_arg5) slices_S3x128x128_S1x128x128_0_0_0 :=
  Cert.LibAfter.read_unary Hand.ops Hand.Ws Hand.hWs 208 (Hand.lt_length (by decide)) V main_arg5 main_v147 (fun u => extractStridedSlice S1x128x128 ![0, 0, 0] u slices_S3x128x128_S1x128x128_0_0_0) ⟨by decide, rfl⟩ ⟨by decide, rfl⟩ rfl (by decide) (by decide)

theorem v148 (V : Valuation τ sig (Elt F)) : Z V main_v148 = shapeCast S128x128 (Z V main_v147) shapeCasts_S1x128x128_S128x128 :=
  Cert.LibAfter.read_reshape Hand.ops Hand.Ws Hand.hWs 209 (Hand.lt_length (by decide)) V main_v147 main_v148 rfl shapeCasts_S1x128x128_S128x128 ⟨by decide, rfl⟩ ⟨by decide, rfl⟩ rfl (by decide) (by decide)

theorem v149 (V : Valuation τ sig (Elt F)) : Z V main_v149 = Host.dotGeneral dot_S100000x128_S128x128_S100000x128_1_0_0_1_n_n none (Z V main_v146) (Z V main_v148) :=
  Cert.LibAfter.read_binary Hand.ops Hand.Ws Hand.hWs 210 (Hand.lt_length (by decide)) V main_v146 main_v148 main_v149 (fun l r => Host.dotGeneral dot_S100000x128_S128x128_S100000x128_1_0_0_1_n_n none l r) ⟨by decide, rfl⟩ ⟨by decide, rfl⟩ ⟨by decide, rfl⟩ rfl (by decide) (by decide) (by decide)

theorem c_37 (V : Valuation τ sig (Elt F)) : Z V main_c_37 = constantI S_ 32 0#32 :=
  Cert.LibAfter.read_nullary Hand.ops Hand.Ws Hand.hWs 211 (Hand.lt_length (by decide)) V main_c_37 (constantI S_ 32 0#32) ⟨by decide, rfl⟩ rfl (by decide)

theorem v150 (V : Valuation τ sig (Elt F)) : Z V main_v150 = broadcastInDim S600000 ![] bcast_S_S600000 (Z V main_c_37) :=
  Cert.LibAfter.read_unary Hand.ops Hand.Ws Hand.hWs 212 (Hand.lt_length (by decide)) V main_c_37 main_v150 (broadcastInDim S600000 ![] bcast_S_S600000) ⟨by decide, rfl⟩ ⟨by decide, rfl⟩ rfl (by decide) (by decide)

theorem v151 (V : Valuation τ sig (Elt F)) : Z V main_v151 = cmpi .slt (Z V main_v130) (Z V main_v150) :=
  Cert.LibAfter.read_binary Hand.ops Hand.Ws Hand.hWs 213 (Hand.lt_length (by decide)) V main_v130 main_v150 main_v151 (cmpi .slt) ⟨by decide, rfl⟩ ⟨by decide, rfl⟩ ⟨by decide, rfl⟩ rfl (by decide) (by decide) (by decide)

theorem c_38 (V : Valuation τ sig (Elt F)) : Z V main_c_38 = constantI S_ 32 100000#32 :=
  Cert.LibAfter.read_nullary Hand.ops Hand.Ws Hand.hWs 214 (Hand.lt_length (by decide)) V main_c_38 (constantI S_ 32 100000#32) ⟨by decide, rfl⟩ rfl (by decide)

theorem v152 (V : Valuation τ sig (Elt F)) : Z V main_v152 = broadcastInDim S600000 ![] bcast_S_S600000 (Z V main_c_38) :=
  Cert.LibAfter.read_unary Hand.ops Hand.Ws Hand.hWs 215 (Hand.lt_length (by decide)) V main_c_38 main_v152 (broadcastInDim S600000 ![] bcast_S_S600000) ⟨by decide, rfl⟩ ⟨by decide, rfl⟩ rfl (by decide) (by decide)

theorem v153 (V : Valuation τ sig (Elt F)) : Z V main_v153 = addi (Z V main_v130) (Z V main_v152) :=
  Cert.LibAfter.read_binary Hand.ops Hand.Ws Hand.hWs 216 (Hand.lt_length (by decide)) V main_v130 main_v152 main_v153 (addi) ⟨by decide, rfl⟩ ⟨by decide, rfl⟩ ⟨by decide, rfl⟩ rfl (by decide) (by decide) (by decide)

theorem v154 (V : Valuation τ sig (Elt F)) : Z V main_v154 = select (Z V main_v151) (Z V main_v153) (Z V main_v130) :=
  Cert.LibAfter.read_ternary Hand.ops Hand.Ws Hand.hWs 217 (Hand.lt_length (by decide)) V main_v151 main_v153 main_v130 main_v154 (select) ⟨by decide, rfl⟩ ⟨by decide, rfl⟩ ⟨by decide, rfl⟩ ⟨by decide, rfl⟩ rfl (by decide) (by decide) (by decide) (by decide)

theorem v155 (V : Valuation τ sig (Elt F)) : Z V main_v155 = broadcastInDim S600000x1 ![0] bcast_S600000_S600000x1_0 (Z V main_v154) :=
  Cert.LibAfter.read_unary Hand.ops Hand.Ws Hand.hWs 218 (Hand.lt_length (by decide)) V main_v154 main_v155 (broadcastInDim S600000x1 ![0] bcast_S600000_S600000x1_0) ⟨by decide, rfl⟩ ⟨by decide, rfl⟩ rfl (by decide) (by decide)

theorem v156 (V : Valuation τ sig (Elt F)) : Z V main_v156 = Host.gather gather_S100000x128_S600000x1_S600000x128_1_0_n_n_0_1_1128 (Z V main_v149) (Z V main_v155) :=
  Cert.LibAfter.read_binary Hand.ops Hand.Ws Hand.hWs 219 (Hand.lt_length (by decide)) V main_v149 main_v155 main_v156 (fun x i => Host.gather gather_S100000x128_S600000x1_S600000x128_1_0_n_n_0_1_1128 x i) ⟨by decide, rfl⟩ ⟨by decide, rfl⟩ ⟨by decide, rfl⟩ rfl (by decide) (by decide) (by decide)

theorem cst_39 (V : Valuation τ sig (Elt F)) : Z V main_cst_39 = constant S_ .f32 0x00000000#32 :=
  Cert.LibAfter.read_nullary Hand.ops Hand.Ws Hand.hWs 220 (Hand.lt_length (by decide)) V main_cst_39 (constant S_ .f32 0x00000000#32) ⟨by decide, rfl⟩ rfl (by decide)

theorem v157 (V : Valuation τ sig (Elt F)) : Z V main_v157 = broadcastInDim S100000x128 ![] bcast_S_S100000x128 (Z V main_cst_39) :=
  Cert.LibAfter.read_unary Hand.ops Hand.Ws Hand.hWs 221 (Hand.lt_length (by decide)) V main_cst_39 main_v157 (broadcastInDim S100000x128 ![] bcast_S_S100000x128) ⟨by decide, rfl⟩ ⟨by decide, rfl⟩ rfl (by decide) (by decide)

theorem v158 (V : Valuation τ sig (Elt F)) : Z V main_v158 = broadcastInDim S600000x1 ![0] bcast_S600000_S600000x1_0 (Z V main_v132) :=
  Cert.LibAfter.read_unary Hand.ops Hand.Ws Hand.hWs 222 (Hand.lt_length (by decide)) V main_v132 main_v158 (broadcastInDim S600000x1 ![0] bcast_S600000_S600000x1_0) ⟨by decide, rfl⟩ ⟨by decide, rfl⟩ rfl (by decide) (by decide)

theorem v159 (V : Valuation τ sig (Elt F)) : Z V main_v159 = Host.scatterAdd scatter_S100000x128_S600000x1_S600000x128_1_0_0_1 (Z V main_v157) (Z V main_v158) (Z V main_v156) :=
  Cert.LibAfter.read_ternary Hand.ops Hand.Ws Hand.hWs 223 (Hand.lt_length (by decide)) V main_v157 main_v158 main_v156 main_v159 (fun x i u => Host.scatterAdd scatter_S100000x128_S600000x1_S600000x128_1_0_0_1 x i u) ⟨by decide, rfl⟩ ⟨by decide, rfl⟩ ⟨by decide, rfl⟩ ⟨by decide, rfl⟩ rfl (by decide) (by decide) (by decide) (by decide)

theorem cst_40 (V : Valuation τ sig (Elt F)) : Z V main_cst_40 = constant S_ .f32 0xBF000000#32 :=
  Cert.LibAfter.read_nullary Hand.ops Hand.Ws Hand.hWs 224 (Hand.lt_length (by decide)) V main_cst_40 (constant S_ .f32 0xBF000000#32) ⟨by decide, rfl⟩ rfl (by decide)

theorem v160 (V : Valuation τ sig (Elt F)) : Z V main_v160 = broadcastInDim S100000 ![] bcast_S_S100000 (Z V main_cst_40) :=
  Cert.LibAfter.read_unary Hand.ops Hand.Ws Hand.hWs 225 (Hand.lt_length (by decide)) V main_cst_40 main_v160 (broadcastInDim S100000 ![] bcast_S_S100000) ⟨by decide, rfl⟩ ⟨by decide, rfl⟩ rfl (by decide) (by decide)

theorem v161 (V : Valuation τ sig (Elt F)) : Z V main_v161 = Host.powf (Z V main_v141) (Z V main_v160) :=
  Cert.LibAfter.read_binary Hand.ops Hand.Ws Hand.hWs 226 (Hand.lt_length (by decide)) V main_v141 main_v160 main_v161 (Host.powf) ⟨by decide, rfl⟩ ⟨by decide, rfl⟩ ⟨by decide, rfl⟩ rfl (by decide) (by decide) (by decide)

theorem v162 (V : Valuation τ sig (Elt F)) : Z V main_v162 = broadcastInDim S100000x1 ![0] bcast_S100000_S100000x1_0 (Z V main_v161) :=
  Cert.LibAfter.read_unary Hand.ops Hand.Ws Hand.hWs 227 (Hand.lt_length (by decide)) V main_v161 main_v162 (broadcastInDim S100000x1 ![0] bcast_S100000_S100000x1_0) ⟨by decide, rfl⟩ ⟨by decide, rfl⟩ rfl (by decide) (by decide)

theorem v163 (V : Valuation τ sig (Elt F)) : Z V main_v163 = broadcastInDim S100000x128 ![0, 1] bcast_S100000x1_S100000x128_0_1 (Z V main_v162) :=
  Cert.LibAfter.read_unary Hand.ops Hand.Ws Hand.hWs 228 (Hand.lt_length (by decide)) V main_v162 main_v163 (broadcastInDim S100000x128 ![0, 1] bcast_S100000x1_S100000x128_0_1) ⟨by decide, rfl⟩ ⟨by decide, rfl⟩ rfl (by decide) (by decide)

theorem v164 (V : Valuation τ sig (Elt F)) : Z V main_v164 = mulf (Z V main_v159) (Z V main_v163) :=
  Cert.LibAfter.read_binary Hand.ops Hand.Ws Hand.hWs 229 (Hand.lt_length (by decide)) V main_v159 main_v163 main_v164 (mulf) ⟨by decide, rfl⟩ ⟨by decide, rfl⟩ ⟨by decide, rfl⟩ rfl (by decide) (by decide) (by decide)

theorem v165 (V : Valuation τ sig (Elt F)) : Z V main_v165 = addf (Z V main_v128) (Z V main_v164) :=
  Cert.LibAfter.read_binary Hand.ops Hand.Ws Hand.hWs 230 (Hand.lt_length (by decide)) V main_v128 main_v164 main_v165 (addf) ⟨by decide, rfl⟩ ⟨by decide, rfl⟩ ⟨by decide, rfl⟩ rfl (by decide) (by decide) (by decide)

theorem v166 (V : Valuation τ sig (Elt F)) : Z V main_v166 = extractStridedSlice S1x128 ![0, 0] (Z V main_arg6) slices_S3x128_S1x128_0_0 :=
  Cert.LibAfter.read_unary Hand.ops Hand.Ws Hand.hWs 231 (Hand.lt_length (by decide)) V main_arg6 main_v166 (fun u => extractStridedSlice S1x128 ![0, 0] u slices_S3x128_S1x128_0_0) ⟨by decide, rfl⟩ ⟨by decide, rfl⟩ rfl (by decide) (by decide)

theorem v167 (V : Valuation τ sig (Elt F)) : Z V main_v167 = shapeCast S128 (Z V main_v166) shapeCasts_S1x128_S128 :=
  Cert.LibAfter.read_reshape Hand.ops Hand.Ws Hand.hWs 232 (Hand.lt_length (by decide)) V main_v166 main_v167 rfl shapeCasts_S1x128_S128 ⟨by decide, rfl⟩ ⟨by decide, rfl⟩ rfl (by decide) (by decide)

theorem v168 (V : Valuation τ sig (Elt F)) : Z V main_v168 = broadcastInDim S1x128 ![1] bcast_S128_S1x128_1 (Z V main_v167) :=
  Cert.LibAfter.read_unary Hand.ops Hand.Ws Hand.hWs 233 (Hand.lt_length (by decide)) V main_v167 main_v168 (broadcastInDim S1x128 ![1] bcast_S128_S1x128_1) ⟨by decide, rfl⟩ ⟨by decide, rfl⟩ rfl (by decide) (by decide)

theorem v169 (V : Valuation τ sig (Elt F)) : Z V main_v169 = broadcastInDim S100000x128 ![0, 1] bcast_S1x128_S100000x128_0_1 (Z V main_v168) :=
  Cert.LibAfter.read_unary Hand.ops Hand.Ws Hand.hWs 234 (Hand.lt_length (by decide)) V main_v168 main_v169 (broadcastInDim S100000x128 ![0, 1] bcast_S1x128_S100000x128_0_1) ⟨by decide, rfl⟩ ⟨by decide, rfl⟩ rfl (by decide) (by decide)

theorem v170 (V : Valuation τ sig (Elt F)) : Z V main_v170 = addf (Z V main_v165) (Z V main_v169) :=
  Cert.LibAfter.read_binary Hand.ops Hand.Ws Hand.hWs 235 (Hand.lt_length (by decide)) V main_v165 main_v169 main_v170 (addf) ⟨by decide, rfl⟩ ⟨by decide, rfl⟩ ⟨by decide, rfl⟩ rfl (by decide) (by decide) (by decide)

theorem v171 (V : Valuation τ sig (Elt F)) : Z V main_v171 = extractStridedSlice S1x600000 ![1, 0] (Z V main_arg1) slices_S3x600000_S1x600000_1_0 :=
  Cert.LibAfter.read_unary Hand.ops Hand.Ws Hand.hWs 236 (Hand.lt_length (by decide)) V main_arg1 main_v171 (fun u => extractStridedSlice S1x600000 ![1, 0] u slices_S3x600000_S1x600000_1_0) ⟨by decide, rfl⟩ ⟨by decide, rfl⟩ rfl (by decide) (by decide)

theorem v172 (V : Valuation τ sig (Elt F)) : Z V main_v172 = shapeCast S600000 (Z V main_v171) shapeCasts_S1x600000_S600000 :=
  Cert.LibAfter.read_reshape Hand.ops Hand.Ws Hand.hWs 237 (Hand.lt_length (by decide)) V main_v171 main_v172 rfl shapeCasts_S1x600000_S600000 ⟨by decide, rfl⟩ ⟨by decide, rfl⟩ rfl (by decide) (by decide)

theorem v173 (V : Valuation τ sig (Elt F)) : Z V main_v173 = extractStridedSlice S1x600000 ![1, 0] (Z V main_arg2) slices_S3x600000_S1x600000_1_0 :=
  Cert.LibAfter.read_unary Hand.ops Hand.Ws Hand.hWs 238 (Hand.lt_length (by decide)) V main_arg2 main_v173 (fun u => extractStridedSlice S1x600000 ![1, 0] u slices_S3x600000_S1x600000_1_0) ⟨by decide, rfl⟩ ⟨by decide, rfl⟩ rfl (by decide) (by decide)

theorem v174 (V : Valuation τ sig (Elt F)) : Z V main_v174 = shapeCast S600000 (Z V main_v173) shapeCasts_S1x600000_S600000 :=
  Cert.LibAfter.read_reshape Hand.ops Hand.Ws Hand.hWs 239 (Hand.lt_length (by decide)) V main_v173 main_v174 rfl shapeCasts_S1x600000_S600000 ⟨by decide, rfl⟩ ⟨by decide, rfl⟩ rfl (by decide) (by decide)

theorem cst_41 (V : Valuation τ sig (Elt F)) : Z V main_cst_41 = constant S_ .f32 0x3F800000#32 :=
  Cert.LibAfter.read_nullary Hand.ops Hand.Ws Hand.hWs 240 (Hand.lt_length (by decide)) V main_cst_41 (constant S_ .f32 0x3F800000#32) ⟨by decide, rfl⟩ rfl (by decide)

theorem v175 (V : Valuation τ sig (Elt F)) : Z V main_v175 = broadcastInDim S600000 ![] bcast_S_S600000 (Z V main_cst_41) :=
  Cert.LibAfter.read_unary Hand.ops Hand.Ws Hand.hWs 241 (Hand.lt_length (by decide)) V main_cst_41 main_v175 (broadcastInDim S600000 ![] bcast_S_S600000) ⟨by decide, rfl⟩ ⟨by decide, rfl⟩ rfl (by decide) (by decide)

theorem cst_42 (V : Valuation τ sig (Elt F)) : Z V main_cst_42 = constant S_ .f32 0x00000000#32 :=
  Cert.LibAfter.read_nullary Hand.ops Hand.Ws Hand.hWs 242 (Hand.lt_length (by decide)) V main_cst_42 (constant S_ .f32 0x00000000#32) ⟨by decide, rfl⟩ rfl (by decide)

theorem v176 (V : Valuation τ sig (Elt F)) : Z V main_v176 = broadcastInDim S100000 ![] bcast_S_S100000 (Z V main_cst_42) :=
  Cert.LibAfter.read_unary Hand.ops Hand.Ws Hand.hWs 243 (Hand.lt_length (by decide)) V main_cst_42 main_v176 (broadcastInDim S100000 ![] bcast_S_S100000) ⟨by decide, rfl⟩ ⟨by decide, rfl⟩ rfl (by decide) (by decide)

theorem v177 (V : Valuation τ sig (Elt F)) : Z V main_v177 = broadcastInDim S600000x1 ![0] bcast_S600000_S600000x1_0 (Z V main_v172) :=
  Cert.LibAfter.read_unary Hand.ops Hand.Ws Hand.hWs 244 (Hand.lt_length (by decide)) V main_v172 main_v177 (broadcastInDim S600000x1 ![0] bcast_S600000_S600000x1_0) ⟨by decide, rfl⟩ ⟨by decide, rfl⟩ rfl (by decide) (by decide)

theorem v178 (V : Valuation τ sig (Elt F)) : Z V main_v178 = Host.scatterAdd scatter_S100000_S600000x1_S600000_n_0_0_1 (Z V main_v176) (Z V main_v177) (Z V main_v175) :=
  Cert.LibAfter.read_ternary Hand.ops Hand.Ws Hand.hWs 245 (Hand.lt_length (by decide)) V main_v176 main_v177 main_v175 main_v178 (fun x i u => Host.scatterAdd scatter_S100000_S600000x1_S600000_n_0_0_1 x i u) ⟨by decide, rfl⟩ ⟨by decide, rfl⟩ ⟨by decide, rfl⟩ ⟨by decide, rfl⟩ rfl (by decide) (by decide) (by decide) (by decide)

theorem cst_43 (V : Valuation τ sig (Elt F)) : Z V main_cst_43 = constant S_ .f32 0x3F800000#32 :=
  Cert.LibAfter.read_nullary Hand.ops Hand.Ws Hand.hWs 246 (Hand.lt_length (by decide)) V main_cst_43 (constant S_ .f32 0x3F800000#32) ⟨by decide, rfl⟩ rfl (by decide)

theorem call9_v0 (V : Valuation τ sig (Elt F)) : Z V main_call9_v0 = Z V main_cst_43 :=
  Cert.LibAfter.read_unary Hand.ops Hand.Ws Hand.hWs 247 (Hand.lt_length (by decide)) V main_cst_43 main_call9_v0 (fun u => u) ⟨by decide, rfl⟩ ⟨by decide, rfl⟩ rfl (by decide) (by decide)

theorem call9_v1 (V : Valuation τ sig (Elt F)) : Z V main_call9_v1 = broadcastInDim S100000 ![] bcast_S_S100000 (Z V main_call9_v0) :=
  Cert.LibAfter.read_unary Hand.ops Hand.Ws Hand.hWs 248 (Hand.lt_length (by decide)) V main_call9_v0 main_call9_v1 (broadcastInDim S100000 ![] bcast_S_S100000) ⟨by decide, rfl⟩ ⟨by decide, rfl⟩ rfl (by decide) (by decide)

theorem v179 (V : Valuation τ sig (Elt F)) : Z V main_v179 = maximumf (Z V main_call9_v1) (Z V main_v178) :=
  Cert.LibAfter.read_binary Hand.ops Hand.Ws Hand.hWs 249 (Hand.lt_length (by decide)) V main_call9_v1 main_v178 main_v179 (maximumf) ⟨by decide, rfl⟩ ⟨by decide, rfl⟩ ⟨by decide, rfl⟩ rfl (by decide) (by decide) (by decide)

theorem cst_44 (V : Valuation τ sig (Elt F)) : Z V main_cst_44 = constant S_ .f32 0x00000000#32 :=
  Cert.LibAfter.read_nullary Hand.ops Hand.Ws Hand.hWs 250 (Hand.lt_length (by decide)) V main_cst_44 (constant S_ .f32 0x00000000#32) ⟨by decide, rfl⟩ rfl (by decide)

theorem v180 (V : Valuation τ sig (Elt F)) : Z V main_v180 = broadcastInDim S100000 ![] bcast_S_S100000 (Z V main_cst_44) :=
  Cert.LibAfter.read_unary Hand.ops Hand.Ws Hand.hWs 251 (Hand.lt_length (by decide)) V main_cst_44 main_v180 (broadcastInDim S100000 ![] bcast_S_S100000) ⟨by decide, rfl⟩ ⟨by decide, rfl⟩ rfl (by decide) (by decide)

theorem v181 (V : Valuation τ sig (Elt F)) : Z V main_v181 = broadcastInDim S600000x1 ![0] bcast_S600000_S600000x1_0 (Z V main_v174) :=
  Cert.LibAfter.read_unary Hand.ops Hand.Ws Hand.hWs 252 (Hand.lt_length (by decide)) V main_v174 main_v181 (broadcastInDim S600000x1 ![0] bcast_S600000_S600000x1_0) ⟨by decide, rfl⟩ ⟨by decide, rfl⟩ rfl (by decide) (by decide)

theorem v182 (V : Valuation τ sig (Elt F)) : Z V main_v182 = Host.scatterAdd scatter_S100000_S600000x1_S600000_n_0_0_1 (Z V main_v180) (Z V main_v181) (Z V main_v175) :=
  Cert.LibAfter.read_ternary Hand.ops Hand.Ws Hand.hWs 253 (Hand.lt_length (by decide)) V main_v180 main_v181 main_v175 main_v182 (fun x i u => Host.scatterAdd scatter_S100000_S600000x1_S600000_n_0_0_1 x i u) ⟨by decide, rfl⟩ ⟨by decide, rfl⟩ ⟨by decide, rfl⟩ ⟨by decide, rfl⟩ rfl (by decide) (by decide) (by decide) (by decide)

theorem cst_45 (V : Valuation τ sig (Elt F)) : Z V main_cst_45 = constant S_ .f32 0x3F800000#32 :=
  Cert.LibAfter.read_nullary Hand.ops Hand.Ws Hand.hWs 254 (Hand.lt_length (by decide)) V main_cst_45 (constant S_ .f32 0x3F800000#32) ⟨by decide, rfl⟩ rfl (by decide)

theorem call10_v0 (V : Valuation τ sig (Elt F)) : Z V main_call10_v0 = Z V main_cst_45 :=
  Cert.LibAfter.read_unary Hand.ops Hand.Ws Hand.hWs 255 (Hand.lt_length (by decide)) V main_cst_45 main_call10_v0 (fun u => u) ⟨by decide, rfl⟩ ⟨by decide, rfl⟩ rfl (by decide) (by decide)

theorem call10_v1 (V : Valuation τ sig (Elt F)) : Z V main_call10_v1 = broadcastInDim S100000 ![] bcast_S_S100000 (Z V main_call10_v0) :=
  Cert.LibAfter.read_unary Hand.ops Hand.Ws Hand.hWs 256 (Hand.lt_length (by decide)) V main_call10_v0 main_call10_v1 (broadcastInDim S100000 ![] bcast_S_S100000) ⟨by decide, rfl⟩ ⟨by decide, rfl⟩ rfl (by decide) (by decide)

theorem v183 (V : Valuation τ sig (Elt F)) : Z V main_v183 = maximumf (Z V main_call10_v1) (Z V main_v182) :=
  Cert.LibAfter.read_binary Hand.ops Hand.Ws Hand.hWs 257 (Hand.lt_length (by decide)) V main_call10_v1 main_v182 main_v183 (maximumf) ⟨by decide, rfl⟩ ⟨by decide, rfl⟩ ⟨by decide, rfl⟩ rfl (by decide) (by decide) (by decide)

theorem cst_46 (V : Valuation τ sig (Elt F)) : Z V main_cst_46 = constant S_ .f32 0xBF000000#32 :=
  Cert.LibAfter.read_nullary Hand.ops Hand.Ws Hand.hWs 258 (Hand.lt_length (by decide)) V main_cst_46 (constant S_ .f32 0xBF000000#32) ⟨by decide, rfl⟩ rfl (by decide)

theorem v184 (V : Valuation τ sig (Elt F)) : Z V main_v184 = broadcastInDim S100000 ![] bcast_S_S100000 (Z V main_cst_46) :=
  Cert.LibAfter.read_unary Hand.ops Hand.Ws Hand.hWs 259 (Hand.lt_length (by decide)) V main_cst_46 main_v184 (broadcastInDim S100000 ![] bcast_S_S100000) ⟨by decide, rfl⟩ ⟨by decide, rfl⟩ rfl (by decide) (by decide)

theorem v185 (V : Valuation τ sig (Elt F)) : Z V main_v185 = Host.powf (Z V main_v179) (Z V main_v184) :=
  Cert.LibAfter.read_binary Hand.ops Hand.Ws Hand.hWs 260 (Hand.lt_length (by decide)) V main_v179 main_v184 main_v185 (Host.powf) ⟨by decide, rfl⟩ ⟨by decide, rfl⟩ ⟨by decide, rfl⟩ rfl (by decide) (by decide) (by decide)

theorem v186 (V : Valuation τ sig (Elt F)) : Z V main_v186 = broadcastInDim S100000x1 ![0] bcast_S100000_S100000x1_0 (Z V main_v185) :=
  Cert.LibAfter.read_unary Hand.ops Hand.Ws Hand.hWs 261 (Hand.lt_length (by decide)) V main_v185 main_v186 (broadcastInDim S100000x1 ![0] bcast_S100000_S100000x1_0) ⟨by decide, rfl⟩ ⟨by decide, rfl⟩ rfl (by decide) (by decide)

theorem v187 (V : Valuation τ sig (Elt F)) : Z V main_v187 = broadcastInDim S100000x128 ![0, 1] bcast_S100000x1_S100000x128_0_1 (Z V main_v186) :=
  Cert.LibAfter.read_unary Hand.ops Hand.Ws Hand.hWs 262 (Hand.lt_length (by decide)) V main_v186 main_v187 (broadcastInDim S100000x128 ![0, 1] bcast_S100000x1_S100000x128_0_1) ⟨by decide, rfl⟩ ⟨by decide, rfl⟩ rfl (by decide) (by decide)

theorem v188 (V : Valuation τ sig (Elt F)) : Z V main_v188 = mulf (Z V main_v127) (Z V main_v187) :=
  Cert.LibAfter.read_binary Hand.ops Hand.Ws Hand.hWs 263 (Hand.lt_length (by decide)) V main_v127 main_v187 main_v188 (mulf) ⟨by decide, rfl⟩ ⟨by decide, rfl⟩ ⟨by decide, rfl⟩ rfl (by decide) (by decide) (by decide)

theorem v189 (V : Valuation τ sig (Elt F)) : Z V main_v189 = extractStridedSlice S1x128x128 ![1, 0, 0] (Z V main_arg5) slices_S3x128x128_S1x128x128_1_0_0 :=
  Cert.LibAfter.read_unary Hand.ops Hand.Ws Hand.hWs 264 (Hand.lt_length (by decide)) V main_arg5 main_v189 (fun u => extractStridedSlice S1x128x128 ![1, 0, 0] u slices_S3x128x128_S1x128x128_1_0_0) ⟨by decide, rfl⟩ ⟨by decide, rfl⟩ rfl (by decide) (by decide)

theorem v190 (V : Valuation τ sig (Elt F)) : Z V main_v190 = shapeCast S128x128 (Z V main_v189) shapeCasts_S1x128x128_S128x128 :=
  Cert.LibAfter.read_reshape Hand.ops Hand.Ws Hand.hWs 265 (Hand.lt_length (by decide)) V main_v189 main_v190 rfl shapeCasts_S1x128x128_S128x128 ⟨by decide, rfl⟩ ⟨by decide, rfl⟩ rfl (by decide) (by decide)

end Cert.ReferenceIdeal.Rd

end
-- ==== Proof.RefReads4.lean ====
/-
  The reference program in single-assignment form, read at the end of its run: the operations of window 4.
  Each equation says that a buffer's final contents are its operation's function of its operands' final contents.
-/
import proofs.«124848_j55800215109809_1_alg».proof.Proof.RefOps
import proofs.«124848_j55800215109809_1_alg».proof.Proof.LibAfterRead

noncomputable section

namespace Cert.ReferenceIdeal.Rd

open Cert.ReferenceIdeal Cert.ReferenceIdeal.Gen Idealize.ShloMosaic Idealize.ShloMosaic.TcCoe Idealize.SL.Sem Idealize.ShloMosaic.StableHlo

variable {F : FTy → Type} [FloatOps F]

theorem v191 (V : Valuation τ sig (Elt F)) : Z V main_v191 = Host.dotGeneral dot_S100000x128_S128x128_S100000x128_1_0_0_1_n_n none (Z V main_v188) (Z V main_v190) :=
  Cert.LibAfter.read_binary Hand.ops Hand.Ws Hand.hWs 266 (Hand.lt_length (by decide)) V main_v188 main_v190 main_v191 (fun l r => Host.dotGeneral dot_S100000x128_S128x128_S100000x128_1_0_0_1_n_n none l r) ⟨by decide, rfl⟩ ⟨by decide, rfl⟩ ⟨by decide, rfl⟩ rfl (by decide) (by decide) (by decide)

theorem c_47 (V : Valuation τ sig (Elt F)) : Z V main_c_47 = constantI S_ 32 0#32 :=
  Cert.LibAfter.read_nullary Hand.ops Hand.Ws Hand.hWs 267 (Hand.lt_length (by decide)) V main_c_47 (constantI S_ 32 0#32) ⟨by decide, rfl⟩ rfl (by decide)

theorem v192 (V : Valuation τ sig (Elt F)) : Z V main_v192 = broadcastInDim S600000 ![] bcast_S_S600000 (Z V main_c_47) :=
  Cert.LibAfter.read_unary Hand.ops Hand.Ws Hand.hWs 268 (Hand.lt_length (by decide)) V main_c_47 main_v192 (broadcastInDim S600000 ![] bcast_S_S600000) ⟨by decide, rfl⟩ ⟨by decide, rfl⟩ rfl (by decide) (by decide)

theorem v193 (V : Valuation τ sig (Elt F)) : Z V main_v193 = cmpi .slt (Z V main_v172) (Z V main_v192) :=
  Cert.LibAfter.read_binary Hand.ops Hand.Ws Hand.hWs 269 (Hand.lt_length (by decide)) V main_v172 main_v192 main_v193 (cmpi .slt) ⟨by decide, rfl⟩ ⟨by decide, rfl⟩ ⟨by decide, rfl⟩ rfl (by decide) (by decide) (by decide)

theorem c_48 (V : Valuation τ sig (Elt F)) : Z V main_c_48 = constantI S_ 32 100000#32 :=
  Cert.LibAfter.read_nullary Hand.ops Hand.Ws Hand.hWs 270 (Hand.lt_length (by decide)) V main_c_48 (constantI S_ 32 100000#32) ⟨by decide, rfl⟩ rfl (by decide)

theorem v194 (V : Valuation τ sig (Elt F)) : Z V main_v194 = broadcastInDim S600000 ![] bcast_S_S600000 (Z V main_c_48) :=
  Cert.LibAfter.read_unary Hand.ops Hand.Ws Hand.hWs 271 (Hand.lt_length (by decide)) V main_c_48 main_v194 (broadcastInDim S600000 ![] bcast_S_S600000) ⟨by decide, rfl⟩ ⟨by decide, rfl⟩ rfl (by decide) (by decide)

theorem v195 (V : Valuation τ sig (Elt F)) : Z V main_v195 = addi (Z V main_v172) (Z V main_v194) :=
  Cert.LibAfter.read_binary Hand.ops Hand.Ws Hand.hWs 272 (Hand.lt_length (by decide)) V main_v172 main_v194 main_v195 (addi) ⟨by decide, rfl⟩ ⟨by decide, rfl⟩ ⟨by decide, rfl⟩ rfl (by decide) (by decide) (by decide)

theorem v196 (V : Valuation τ sig (Elt F)) : Z V main_v196 = select (Z V main_v193) (Z V main_v195) (Z V main_v172) :=
  Cert.LibAfter.read_ternary Hand.ops Hand.Ws Hand.hWs 273 (Hand.lt_length (by decide)) V main_v193 main_v195 main_v172 main_v196 (select) ⟨by decide, rfl⟩ ⟨by decide, rfl⟩ ⟨by decide, rfl⟩ ⟨by decide, rfl⟩ rfl (by decide) (by decide) (by decide) (by decide)

theorem v197 (V : Valuation τ sig (Elt F)) : Z V main_v197 = broadcastInDim S600000x1 ![0] bcast_S600000_S600000x1_0 (Z V main_v196) :=
  Cert.LibAfter.read_unary Hand.ops Hand.Ws Hand.hWs 274 (Hand.lt_length (by decide)) V main_v196 main_v197 (broadcastInDim S600000x1 ![0] bcast_S600000_S600000x1_0) ⟨by decide, rfl⟩ ⟨by decide, rfl⟩ rfl (by decide) (by decide)

theorem v198 (V : Valuation τ sig (Elt F)) : Z V main_v198 = Host.gather gather_S100000x128_S600000x1_S600000x128_1_0_n_n_0_1_1128 (Z V main_v191) (Z V main_v197) :=
  Cert.LibAfter.read_binary Hand.ops Hand.Ws Hand.hWs 275 (Hand.lt_length (by decide)) V main_v191 main_v197 main_v198 (fun x i => Host.gather gather_S100000x128_S600000x1_S600000x128_1_0_n_n_0_1_1128 x i) ⟨by decide, rfl⟩ ⟨by decide, rfl⟩ ⟨by decide, rfl⟩ rfl (by decide) (by decide) (by decide)

theorem cst_49 (V : Valuation τ sig (Elt F)) : Z V main_cst_49 = constant S_ .f32 0x00000000#32 :=
  Cert.LibAfter.read_nullary Hand.ops Hand.Ws Hand.hWs 276 (Hand.lt_length (by decide)) V main_cst_49 (constant S_ .f32 0x00000000#32) ⟨by decide, rfl⟩ rfl (by decide)

theorem v199 (V : Valuation τ sig (Elt F)) : Z V main_v199 = broadcastInDim S100000x128 ![] bcast_S_S100000x128 (Z V main_cst_49) :=
  Cert.LibAfter.read_unary Hand.ops Hand.Ws Hand.hWs 277 (Hand.lt_length (by decide)) V main_cst_49 main_v199 (broadcastInDim S100000x128 ![] bcast_S_S100000x128) ⟨by decide, rfl⟩ ⟨by decide, rfl⟩ rfl (by decide) (by decide)

theorem v200 (V : Valuation τ sig (Elt F)) : Z V main_v200 = broadcastInDim S600000x1 ![0] bcast_S600000_S600000x1_0 (Z V main_v174) :=
  Cert.LibAfter.read_unary Hand.ops Hand.Ws Hand.hWs 278 (Hand.lt_length (by decide)) V main_v174 main_v200 (broadcastInDim S600000x1 ![0] bcast_S600000_S600000x1_0) ⟨by decide, rfl⟩ ⟨by decide, rfl⟩ rfl (by decide) (by decide)

theorem v201 (V : Valuation τ sig (Elt F)) : Z V main_v201 = Host.scatterAdd scatter_S100000x128_S600000x1_S600000x128_1_0_0_1 (Z V main_v199) (Z V main_v200) (Z V main_v198) :=
  Cert.LibAfter.read_ternary Hand.ops Hand.Ws Hand.hWs 279 (Hand.lt_length (by decide)) V main_v199 main_v200 main_v198 main_v201 (fun x i u => Host.scatterAdd scatter_S100000x128_S600000x1_S600000x128_1_0_0_1 x i u) ⟨by decide, rfl⟩ ⟨by decide, rfl⟩ ⟨by decide, rfl⟩ ⟨by decide, rfl⟩ rfl (by decide) (by decide) (by decide) (by decide)

theorem cst_50 (V : Valuation τ sig (Elt F)) : Z V main_cst_50 = constant S_ .f32 0xBF000000#32 :=
  Cert.LibAfter.read_nullary Hand.ops Hand.Ws Hand.hWs 280 (Hand.lt_length (by decide)) V main_cst_50 (constant S_ .f32 0xBF000000#32) ⟨by decide, rfl⟩ rfl (by decide)

theorem v202 (V : Valuation τ sig (Elt F)) : Z V main_v202 = broadcastInDim S100000 ![] bcast_S_S100000 (Z V main_cst_50) :=
  Cert.LibAfter.read_unary Hand.ops Hand.Ws Hand.hWs 281 (Hand.lt_length (by decide)) V main_cst_50 main_v202 (broadcastInDim S100000 ![] bcast_S_S100000) ⟨by decide, rfl⟩ ⟨by decide, rfl⟩ rfl (by decide) (by decide)

theorem v203 (V : Valuation τ sig (Elt F)) : Z V main_v203 = Host.powf (Z V main_v183) (Z V main_v202) :=
  Cert.LibAfter.read_binary Hand.ops Hand.Ws Hand.hWs 282 (Hand.lt_length (by decide)) V main_v183 main_v202 main_v203 (Host.powf) ⟨by decide, rfl⟩ ⟨by decide, rfl⟩ ⟨by decide, rfl⟩ rfl (by decide) (by decide) (by decide)

theorem v204 (V : Valuation τ sig (Elt F)) : Z V main_v204 = broadcastInDim S100000x1 ![0] bcast_S100000_S100000x1_0 (Z V main_v203) :=
  Cert.LibAfter.read_unary Hand.ops Hand.Ws Hand.hWs 283 (Hand.lt_length (by decide)) V main_v203 main_v204 (broadcastInDim S100000x1 ![0] bcast_S100000_S100000x1_0) ⟨by decide, rfl⟩ ⟨by decide, rfl⟩ rfl (by decide) (by decide)

theorem v205 (V : Valuation τ sig (Elt F)) : Z V main_v205 = broadcastInDim S100000x128 ![0, 1] bcast_S100000x1_S100000x128_0_1 (Z V main_v204) :=
  Cert.LibAfter.read_unary Hand.ops Hand.Ws Hand.hWs 284 (Hand.lt_length (by decide)) V main_v204 main_v205 (broadcastInDim S100000x128 ![0, 1] bcast_S100000x1_S100000x128_0_1) ⟨by decide, rfl⟩ ⟨by decide, rfl⟩ rfl (by decide) (by decide)

theorem v206 (V : Valuation τ sig (Elt F)) : Z V main_v206 = mulf (Z V main_v201) (Z V main_v205) :=
  Cert.LibAfter.read_binary Hand.ops Hand.Ws Hand.hWs 285 (Hand.lt_length (by decide)) V main_v201 main_v205 main_v206 (mulf) ⟨by decide, rfl⟩ ⟨by decide, rfl⟩ ⟨by decide, rfl⟩ rfl (by decide) (by decide) (by decide)

theorem v207 (V : Valuation τ sig (Elt F)) : Z V main_v207 = addf (Z V main_v170) (Z V main_v206) :=
  Cert.LibAfter.read_binary Hand.ops Hand.Ws Hand.hWs 286 (Hand.lt_length (by decide)) V main_v170 main_v206 main_v207 (addf) ⟨by decide, rfl⟩ ⟨by decide, rfl⟩ ⟨by decide, rfl⟩ rfl (by decide) (by decide) (by decide)

theorem v208 (V : Valuation τ sig (Elt F)) : Z V main_v208 = extractStridedSlice S1x128 ![1, 0] (Z V main_arg6) slices_S3x128_S1x128_1_0 :=
  Cert.LibAfter.read_unary Hand.ops Hand.Ws Hand.hWs 287 (Hand.lt_length (by decide)) V main_arg6 main_v208 (fun u => extractStridedSlice S1x128 ![1, 0] u slices_S3x128_S1x128_1_0) ⟨by decide, rfl⟩ ⟨by decide, rfl⟩ rfl (by decide) (by decide)

theorem v209 (V : Valuation τ sig (Elt F)) : Z V main_v209 = shapeCast S128 (Z V main_v208) shapeCasts_S1x128_S128 :=
  Cert.LibAfter.read_reshape Hand.ops Hand.Ws Hand.hWs 288 (Hand.lt_length (by decide)) V main_v208 main_v209 rfl shapeCasts_S1x128_S128 ⟨by decide, rfl⟩ ⟨by decide, rfl⟩ rfl (by decide) (by decide)

theorem v210 (V : Valuation τ sig (Elt F)) : Z V main_v210 = broadcastInDim S1x128 ![1] bcast_S128_S1x128_1 (Z V main_v209) :=
  Cert.LibAfter.read_unary Hand.ops Hand.Ws Hand.hWs 289 (Hand.lt_length (by decide)) V main_v209 main_v210 (broadcastInDim S1x128 ![1] bcast_S128_S1x128_1) ⟨by decide, rfl⟩ ⟨by decide, rfl⟩ rfl (by decide) (by decide)

theorem v211 (V : Valuation τ sig (Elt F)) : Z V main_v211 = broadcastInDim S100000x128 ![0, 1] bcast_S1x128_S100000x128_0_1 (Z V main_v210) :=
  Cert.LibAfter.read_unary Hand.ops Hand.Ws Hand.hWs 290 (Hand.lt_length (by decide)) V main_v210 main_v211 (broadcastInDim S100000x128 ![0, 1] bcast_S1x128_S100000x128_0_1) ⟨by decide, rfl⟩ ⟨by decide, rfl⟩ rfl (by decide) (by decide)

theorem v212 (V : Valuation τ sig (Elt F)) : Z V main_v212 = addf (Z V main_v207) (Z V main_v211) :=
  Cert.LibAfter.read_binary Hand.ops Hand.Ws Hand.hWs 291 (Hand.lt_length (by decide)) V main_v207 main_v211 main_v212 (addf) ⟨by decide, rfl⟩ ⟨by decide, rfl⟩ ⟨by decide, rfl⟩ rfl (by decide) (by decide) (by decide)

theorem v213 (V : Valuation τ sig (Elt F)) : Z V main_v213 = extractStridedSlice S1x600000 ![2, 0] (Z V main_arg1) slices_S3x600000_S1x600000_2_0 :=
  Cert.LibAfter.read_unary Hand.ops Hand.Ws Hand.hWs 292 (Hand.lt_length (by decide)) V main_arg1 main_v213 (fun u => extractStridedSlice S1x600000 ![2, 0] u slices_S3x600000_S1x600000_2_0) ⟨by decide, rfl⟩ ⟨by decide, rfl⟩ rfl (by decide) (by decide)

theorem v214 (V : Valuation τ sig (Elt F)) : Z V main_v214 = shapeCast S600000 (Z V main_v213) shapeCasts_S1x600000_S600000 :=
  Cert.LibAfter.read_reshape Hand.ops Hand.Ws Hand.hWs 293 (Hand.lt_length (by decide)) V main_v213 main_v214 rfl shapeCasts_S1x600000_S600000 ⟨by decide, rfl⟩ ⟨by decide, rfl⟩ rfl (by decide) (by decide)

theorem v215 (V : Valuation τ sig (Elt F)) : Z V main_v215 = extractStridedSlice S1x600000 ![2, 0] (Z V main_arg2) slices_S3x600000_S1x600000_2_0 :=
  Cert.LibAfter.read_unary Hand.ops Hand.Ws Hand.hWs 294 (Hand.lt_length (by decide)) V main_arg2 main_v215 (fun u => extractStridedSlice S1x600000 ![2, 0] u slices_S3x600000_S1x600000_2_0) ⟨by decide, rfl⟩ ⟨by decide, rfl⟩ rfl (by decide) (by decide)

theorem v216 (V : Valuation τ sig (Elt F)) : Z V main_v216 = shapeCast S600000 (Z V main_v215) shapeCasts_S1x600000_S600000 :=
  Cert.LibAfter.read_reshape Hand.ops Hand.Ws Hand.hWs 295 (Hand.lt_length (by decide)) V main_v215 main_v216 rfl shapeCasts_S1x600000_S600000 ⟨by decide, rfl⟩ ⟨by decide, rfl⟩ rfl (by decide) (by decide)

theorem cst_51 (V : Valuation τ sig (Elt F)) : Z V main_cst_51 = constant S_ .f32 0x3F800000#32 :=
  Cert.LibAfter.read_nullary Hand.ops Hand.Ws Hand.hWs 296 (Hand.lt_length (by decide)) V main_cst_51 (constant S_ .f32 0x3F800000#32) ⟨by decide, rfl⟩ rfl (by decide)

theorem v217 (V : Valuation τ sig (Elt F)) : Z V main_v217 = broadcastInDim S600000 ![] bcast_S_S600000 (Z V main_cst_51) :=
  Cert.LibAfter.read_unary Hand.ops Hand.Ws Hand.hWs 297 (Hand.lt_length (by decide)) V main_cst_51 main_v217 (broadcastInDim S600000 ![] bcast_S_S600000) ⟨by decide, rfl⟩ ⟨by decide, rfl⟩ rfl (by decide) (by decide)

theorem cst_52 (V : Valuation τ sig (Elt F)) : Z V main_cst_52 = constant S_ .f32 0x00000000#32 :=
  Cert.LibAfter.read_nullary Hand.ops Hand.Ws Hand.hWs 298 (Hand.lt_length (by decide)) V main_cst_52 (constant S_ .f32 0x00000000#32) ⟨by decide, rfl⟩ rfl (by decide)

theorem v218 (V : Valuation τ sig (Elt F)) : Z V main_v218 = broadcastInDim S100000 ![] bcast_S_S100000 (Z V main_cst_52) :=
  Cert.LibAfter.read_unary Hand.ops Hand.Ws Hand.hWs 299 (Hand.lt_length (by decide)) V main_cst_52 main_v218 (broadcastInDim S100000 ![] bcast_S_S100000) ⟨by decide, rfl⟩ ⟨by decide, rfl⟩ rfl (by decide) (by decide)

theorem v219 (V : Valuation τ sig (Elt F)) : Z V main_v219 = broadcastInDim S600000x1 ![0] bcast_S600000_S600000x1_0 (Z V main_v214) :=
  Cert.LibAfter.read_unary Hand.ops Hand.Ws Hand.hWs 300 (Hand.lt_length (by decide)) V main_v214 main_v219 (broadcastInDim S600000x1 ![0] bcast_S600000_S600000x1_0) ⟨by decide, rfl⟩ ⟨by decide, rfl⟩ rfl (by decide) (by decide)

theorem v220 (V : Valuation τ sig (Elt F)) : Z V main_v220 = Host.scatterAdd scatter_S100000_S600000x1_S600000_n_0_0_1 (Z V main_v218) (Z V main_v219) (Z V main_v217) :=
  Cert.LibAfter.read_ternary Hand.ops Hand.Ws Hand.hWs 301 (Hand.lt_length (by decide)) V main_v218 main_v219 main_v217 main_v220 (fun x i u => Host.scatterAdd scatter_S100000_S600000x1_S600000_n_0_0_1 x i u) ⟨by decide, rfl⟩ ⟨by decide, rfl⟩ ⟨by decide, rfl⟩ ⟨by decide, rfl⟩ rfl (by decide) (by decide) (by decide) (by decide)

theorem cst_53 (V : Valuation τ sig (Elt F)) : Z V main_cst_53 = constant S_ .f32 0x3F800000#32 :=
  Cert.LibAfter.read_nullary Hand.ops Hand.Ws Hand.hWs 302 (Hand.lt_length (by decide)) V main_cst_53 (constant S_ .f32 0x3F800000#32) ⟨by decide, rfl⟩ rfl (by decide)

theorem call11_v0 (V : Valuation τ sig (Elt F)) : Z V main_call11_v0 = Z V main_cst_53 :=
  Cert.LibAfter.read_unary Hand.ops Hand.Ws Hand.hWs 303 (Hand.lt_length (by decide)) V main_cst_53 main_call11_v0 (fun u => u) ⟨by decide, rfl⟩ ⟨by decide, rfl⟩ rfl (by decide) (by decide)

theorem call11_v1 (V : Valuation τ sig (Elt F)) : Z V main_call11_v1 = broadcastInDim S100000 ![] bcast_S_S100000 (Z V main_call11_v0) :=
  Cert.LibAfter.read_unary Hand.ops Hand.Ws Hand.hWs 304 (Hand.lt_length (by decide)) V main_call11_v0 main_call11_v1 (broadcastInDim S100000 ![] bcast_S_S100000) ⟨by decide, rfl⟩ ⟨by decide, rfl⟩ rfl (by decide) (by decide)

theorem v221 (V : Valuation τ sig (Elt F)) : Z V main_v221 = maximumf (Z V main_call11_v1) (Z V main_v220) :=
  Cert.LibAfter.read_binary Hand.ops Hand.Ws Hand.hWs 305 (Hand.lt_length (by decide)) V main_call11_v1 main_v220 main_v221 (maximumf) ⟨by decide, rfl⟩ ⟨by decide, rfl⟩ ⟨by decide, rfl⟩ rfl (by decide) (by decide) (by decide)

theorem cst_54 (V : Valuation τ sig (Elt F)) : Z V main_cst_54 = constant S_ .f32 0x00000000#32 :=
  Cert.LibAfter.read_nullary Hand.ops Hand.Ws Hand.hWs 306 (Hand.lt_length (by decide)) V main_cst_54 (constant S_ .f32 0x00000000#32) ⟨by decide, rfl⟩ rfl (by decide)

theorem v222 (V : Valuation τ sig (Elt F)) : Z V main_v222 = broadcastInDim S100000 ![] bcast_S_S100000 (Z V main_cst_54) :=
  Cert.LibAfter.read_unary Hand.ops Hand.Ws Hand.hWs 307 (Hand.lt_length (by decide)) V main_cst_54 main_v222 (broadcastInDim S100000 ![] bcast_S_S100000) ⟨by decide, rfl⟩ ⟨by decide, rfl⟩ rfl (by decide) (by decide)

theorem v223 (V : Valuation τ sig (Elt F)) : Z V main_v223 = broadcastInDim S600000x1 ![0] bcast_S600000_S600000x1_0 (Z V main_v216) :=
  Cert.LibAfter.read_unary Hand.ops Hand.Ws Hand.hWs 308 (Hand.lt_length (by decide)) V main_v216 main_v223 (broadcastInDim S600000x1 ![0] bcast_S600000_S600000x1_0) ⟨by decide, rfl⟩ ⟨by decide, rfl⟩ rfl (by decide) (by decide)

theorem v224 (V : Valuation τ sig (Elt F)) : Z V main_v224 = Host.scatterAdd scatter_S100000_S600000x1_S600000_n_0_0_1 (Z V main_v222) (Z V main_v223) (Z V main_v217) :=
  Cert.LibAfter.read_ternary Hand.ops Hand.Ws Hand.hWs 309 (Hand.lt_length (by decide)) V main_v222 main_v223 main_v217 main_v224 (fun x i u => Host.scatterAdd scatter_S100000_S600000x1_S600000_n_0_0_1 x i u) ⟨by decide, rfl⟩ ⟨by decide, rfl⟩ ⟨by decide, rfl⟩ ⟨by decide, rfl⟩ rfl (by decide) (by decide) (by decide) (by decide)

theorem cst_55 (V : Valuation τ sig (Elt F)) : Z V main_cst_55 = constant S_ .f32 0x3F800000#32 :=
  Cert.LibAfter.read_nullary Hand.ops Hand.Ws Hand.hWs 310 (Hand.lt_length (by decide)) V main_cst_55 (constant S_ .f32 0x3F800000#32) ⟨by decide, rfl⟩ rfl (by decide)

theorem call12_v0 (V : Valuation τ sig (Elt F)) : Z V main_call12_v0 = Z V main_cst_55 :=
  Cert.LibAfter.read_unary Hand.ops Hand.Ws Hand.hWs 311 (Hand.lt_length (by decide)) V main_cst_55 main_call12_v0 (fun u => u) ⟨by decide, rfl⟩ ⟨by decide, rfl⟩ rfl (by decide) (by decide)

theorem call12_v1 (V : Valuation τ sig (Elt F)) : Z V main_call12_v1 = broadcastInDim S100000 ![] bcast_S_S100000 (Z V main_call12_v0) :=
  Cert.LibAfter.read_unary Hand.ops Hand.Ws Hand.hWs 312 (Hand.lt_length (by decide)) V main_call12_v0 main_call12_v1 (broadcastInDim S100000 ![] bcast_S_S100000) ⟨by decide, rfl⟩ ⟨by decide, rfl⟩ rfl (by decide) (by decide)

theorem v225 (V : Valuation τ sig (Elt F)) : Z V main_v225 = maximumf (Z V main_call12_v1) (Z V main_v224) :=
  Cert.LibAfter.read_binary Hand.ops Hand.Ws Hand.hWs 313 (Hand.lt_length (by decide)) V main_call12_v1 main_v224 main_v225 (maximumf) ⟨by decide, rfl⟩ ⟨by decide, rfl⟩ ⟨by decide, rfl⟩ rfl (by decide) (by decide) (by decide)

theorem cst_56 (V : Valuation τ sig (Elt F)) : Z V main_cst_56 = constant S_ .f32 0xBF000000#32 :=
  Cert.LibAfter.read_nullary Hand.ops Hand.Ws Hand.hWs 314 (Hand.lt_length (by decide)) V main_cst_56 (constant S_ .f32 0xBF000000#32) ⟨by decide, rfl⟩ rfl (by decide)

theorem v226 (V : Valuation τ sig (Elt F)) : Z V main_v226 = broadcastInDim S100000 ![] bcast_S_S100000 (Z V main_cst_56) :=
  Cert.LibAfter.read_unary Hand.ops Hand.Ws Hand.hWs 315 (Hand.lt_length (by decide)) V main_cst_56 main_v226 (broadcastInDim S100000 ![] bcast_S_S100000) ⟨by decide, rfl⟩ ⟨by decide, rfl⟩ rfl (by decide) (by decide)

theorem v227 (V : Valuation τ sig (Elt F)) : Z V main_v227 = Host.powf (Z V main_v221) (Z V main_v226) :=
  Cert.LibAfter.read_binary Hand.ops Hand.Ws Hand.hWs 316 (Hand.lt_length (by decide)) V main_v221 main_v226 main_v227 (Host.powf) ⟨by decide, rfl⟩ ⟨by decide, rfl⟩ ⟨by decide, rfl⟩ rfl (by decide) (by decide) (by decide)

theorem v228 (V : Valuation τ sig (Elt F)) : Z V main_v228 = broadcastInDim S100000x1 ![0] bcast_S100000_S100000x1_0 (Z V main_v227) :=
  Cert.LibAfter.read_unary Hand.ops Hand.Ws Hand.hWs 317 (Hand.lt_length (by decide)) V main_v227 main_v228 (broadcastInDim S100000x1 ![0] bcast_S100000_S100000x1_0) ⟨by decide, rfl⟩ ⟨by decide, rfl⟩ rfl (by decide) (by decide)

theorem v229 (V : Valuation τ sig (Elt F)) : Z V main_v229 = broadcastInDim S100000x128 ![0, 1] bcast_S100000x1_S100000x128_0_1 (Z V main_v228) :=
  Cert.LibAfter.read_unary Hand.ops Hand.Ws Hand.hWs 318 (Hand.lt_length (by decide)) V main_v228 main_v229 (broadcastInDim S100000x128 ![0, 1] bcast_S100000x1_S100000x128_0_1) ⟨by decide, rfl⟩ ⟨by decide, rfl⟩ rfl (by decide) (by decide)

theorem v230 (V : Valuation τ sig (Elt F)) : Z V main_v230 = mulf (Z V main_v127) (Z V main_v229) :=
  Cert.LibAfter.read_binary Hand.ops Hand.Ws Hand.hWs 319 (Hand.lt_length (by decide)) V main_v127 main_v229 main_v230 (mulf) ⟨by decide, rfl⟩ ⟨by decide, rfl⟩ ⟨by decide, rfl⟩ rfl (by decide) (by decide) (by decide)

theorem v231 (V : Valuation τ sig (Elt F)) : Z V main_v231 = extractStridedSlice S1x128x128 ![2, 0, 0] (Z V main_arg5) slices_S3x128x128_S1x128x128_2_0_0 :=
  Cert.LibAfter.read_unary Hand.ops Hand.Ws Hand.hWs 320 (Hand.lt_length (by decide)) V main_arg5 main_v231 (fun u => extractStridedSlice S1x128x128 ![2, 0, 0] u slices_S3x128x128_S1x128x128_2_0_0) ⟨by decide, rfl⟩ ⟨by decide, rfl⟩ rfl (by decide) (by decide)

theorem v232 (V : Valuation τ sig (Elt F)) : Z V main_v232 = shapeCast S128x128 (Z V main_v231) shapeCasts_S1x128x128_S128x128 :=
  Cert.LibAfter.read_reshape Hand.ops Hand.Ws Hand.hWs 321 (Hand.lt_length (by decide)) V main_v231 main_v232 rfl shapeCasts_S1x128x128_S128x128 ⟨by decide, rfl⟩ ⟨by decide, rfl⟩ rfl (by decide) (by decide)

theorem v233 (V : Valuation τ sig (Elt F)) : Z V main_v233 = Host.dotGeneral dot_S100000x128_S128x128_S100000x128_1_0_0_1_n_n none (Z V main_v230) (Z V main_v232) :=
  Cert.LibAfter.read_binary Hand.ops Hand.Ws Hand.hWs 322 (Hand.lt_length (by decide)) V main_v230 main_v232 main_v233 (fun l r => Host.dotGeneral dot_S100000x128_S128x128_S100000x128_1_0_0_1_n_n none l r) ⟨by decide, rfl⟩ ⟨by decide, rfl⟩ ⟨by decide, rfl⟩ rfl (by decide) (by decide) (by decide)

theorem c_57 (V : Valuation τ sig (Elt F)) : Z V main_c_57 = constantI S_ 32 0#32 :=
  Cert.LibAfter.read_nullary Hand.ops Hand.Ws Hand.hWs 323 (Hand.lt_length (by decide)) V main_c_57 (constantI S_ 32 0#32) ⟨by decide, rfl⟩ rfl (by decide)

theorem v234 (V : Valuation τ sig (Elt F)) : Z V main_v234 = broadcastInDim S600000 ![] bcast_S_S600000 (Z V main_c_57) :=
  Cert.LibAfter.read_unary Hand.ops Hand.Ws Hand.hWs 324 (Hand.lt_length (by decide)) V main_c_57 main_v234 (broadcastInDim S600000 ![] bcast_S_S600000) ⟨by decide, rfl⟩ ⟨by decide, rfl⟩ rfl (by decide) (by decide)

theorem v235 (V : Valuation τ sig (Elt F)) : Z V main_v235 = cmpi .slt (Z V main_v214) (Z V main_v234) :=
  Cert.LibAfter.read_binary Hand.ops Hand.Ws Hand.hWs 325 (Hand.lt_length (by decide)) V main_v214 main_v234 main_v235 (cmpi .slt) ⟨by decide, rfl⟩ ⟨by decide, rfl⟩ ⟨by decide, rfl⟩ rfl (by decide) (by decide) (by decide)

theorem c_58 (V : Valuation τ sig (Elt F)) : Z V main_c_58 = constantI S_ 32 100000#32 :=
  Cert.LibAfter.read_nullary Hand.ops Hand.Ws Hand.hWs 326 (Hand.lt_length (by decide)) V main_c_58 (constantI S_ 32 100000#32) ⟨by decide, rfl⟩ rfl (by decide)

theorem v236 (V : Valuation τ sig (Elt F)) : Z V main_v236 = broadcastInDim S600000 ![] bcast_S_S600000 (Z V main_c_58) :=
  Cert.LibAfter.read_unary Hand.ops Hand.Ws Hand.hWs 327 (Hand.lt_length (by decide)) V main_c_58 main_v236 (broadcastInDim S600000 ![] bcast_S_S600000) ⟨by decide, rfl⟩ ⟨by decide, rfl⟩ rfl (by decide) (by decide)

theorem v237 (V : Valuation τ sig (Elt F)) : Z V main_v237 = addi (Z V main_v214) (Z V main_v236) :=
  Cert.LibAfter.read_binary Hand.ops Hand.Ws Hand.hWs 328 (Hand.lt_length (by decide)) V main_v214 main_v236 main_v237 (addi) ⟨by decide, rfl⟩ ⟨by decide, rfl⟩ ⟨by decide, rfl⟩ rfl (by decide) (by decide) (by decide)

theorem v238 (V : Valuation τ sig (Elt F)) : Z V main_v238 = select (Z V main_v235) (Z V main_v237) (Z V main_v214) :=
  Cert.LibAfter.read_ternary Hand.ops Hand.Ws Hand.hWs 329 (Hand.lt_length (by decide)) V main_v235 main_v237 main_v214 main_v238 (select) ⟨by decide, rfl⟩ ⟨by decide, rfl⟩ ⟨by decide, rfl⟩ ⟨by decide, rfl⟩ rfl (by decide) (by decide) (by decide) (by decide)

end Cert.ReferenceIdeal.Rd

end
-- ==== Proof.RefReads5.lean ====
/-
  The reference program in single-assignment form, read at the end of its run: the operations of window 5.
  Each equation says that a buffer's final contents are its operation's function of its operands' final contents.
-/
import proofs.«124848_j55800215109809_1_alg».proof.Proof.RefOps
import proofs.«124848_j55800215109809_1_alg».proof.Proof.LibAfterRead

noncomputable section

namespace Cert.ReferenceIdeal.Rd

open Cert.ReferenceIdeal Cert.ReferenceIdeal.Gen Idealize.ShloMosaic Idealize.ShloMosaic.TcCoe Idealize.SL.Sem Idealize.ShloMosaic.StableHlo

variable {F : FTy → Type} [FloatOps F]

theorem v239 (V : Valuation τ sig (Elt F)) : Z V main_v239 = broadcastInDim S600000x1 ![0] bcast_S600000_S600000x1_0 (Z V main_v238) :=
  Cert.LibAfter.read_unary Hand.ops Hand.Ws Hand.hWs 330 (Hand.lt_length (by decide)) V main_v238 main_v239 (broadcastInDim S600000x1 ![0] bcast_S600000_S600000x1_0) ⟨by decide, rfl⟩ ⟨by decide, rfl⟩ rfl (by decide) (by decide)

theorem v240 (V : Valuation τ sig (Elt F)) : Z V main_v240 = Host.gather gather_S100000x128_S600000x1_S600000x128_1_0_n_n_0_1_1128 (Z V main_v233) (Z V main_v239) :=
  Cert.LibAfter.read_binary Hand.ops Hand.Ws Hand.hWs 331 (Hand.lt_length (by decide)) V main_v233 main_v239 main_v240 (fun x i => Host.gather gather_S100000x128_S600000x1_S600000x128_1_0_n_n_0_1_1128 x i) ⟨by decide, rfl⟩ ⟨by decide, rfl⟩ ⟨by decide, rfl⟩ rfl (by decide) (by decide) (by decide)

theorem cst_59 (V : Valuation τ sig (Elt F)) : Z V main_cst_59 = constant S_ .f32 0x00000000#32 :=
  Cert.LibAfter.read_nullary Hand.ops Hand.Ws Hand.hWs 332 (Hand.lt_length (by decide)) V main_cst_59 (constant S_ .f32 0x00000000#32) ⟨by decide, rfl⟩ rfl (by decide)

theorem v241 (V : Valuation τ sig (Elt F)) : Z V main_v241 = broadcastInDim S100000x128 ![] bcast_S_S100000x128 (Z V main_cst_59) :=
  Cert.LibAfter.read_unary Hand.ops Hand.Ws Hand.hWs 333 (Hand.lt_length (by decide)) V main_cst_59 main_v241 (broadcastInDim S100000x128 ![] bcast_S_S100000x128) ⟨by decide, rfl⟩ ⟨by decide, rfl⟩ rfl (by decide) (by decide)

theorem v242 (V : Valuation τ sig (Elt F)) : Z V main_v242 = broadcastInDim S600000x1 ![0] bcast_S600000_S600000x1_0 (Z V main_v216) :=
  Cert.LibAfter.read_unary Hand.ops Hand.Ws Hand.hWs 334 (Hand.lt_length (by decide)) V main_v216 main_v242 (broadcastInDim S600000x1 ![0] bcast_S600000_S600000x1_0) ⟨by decide, rfl⟩ ⟨by decide, rfl⟩ rfl (by decide) (by decide)

theorem v243 (V : Valuation τ sig (Elt F)) : Z V main_v243 = Host.scatterAdd scatter_S100000x128_S600000x1_S600000x128_1_0_0_1 (Z V main_v241) (Z V main_v242) (Z V main_v240) :=
  Cert.LibAfter.read_ternary Hand.ops Hand.Ws Hand.hWs 335 (Hand.lt_length (by decide)) V main_v241 main_v242 main_v240 main_v243 (fun x i u => Host.scatterAdd scatter_S100000x128_S600000x1_S600000x128_1_0_0_1 x i u) ⟨by decide, rfl⟩ ⟨by decide, rfl⟩ ⟨by decide, rfl⟩ ⟨by decide, rfl⟩ rfl (by decide) (by decide) (by decide) (by decide)

theorem cst_60 (V : Valuation τ sig (Elt F)) : Z V main_cst_60 = constant S_ .f32 0xBF000000#32 :=
  Cert.LibAfter.read_nullary Hand.ops Hand.Ws Hand.hWs 336 (Hand.lt_length (by decide)) V main_cst_60 (constant S_ .f32 0xBF000000#32) ⟨by decide, rfl⟩ rfl (by decide)

theorem v244 (V : Valuation τ sig (Elt F)) : Z V main_v244 = broadcastInDim S100000 ![] bcast_S_S100000 (Z V main_cst_60) :=
  Cert.LibAfter.read_unary Hand.ops Hand.Ws Hand.hWs 337 (Hand.lt_length (by decide)) V main_cst_60 main_v244 (broadcastInDim S100000 ![] bcast_S_S100000) ⟨by decide, rfl⟩ ⟨by decide, rfl⟩ rfl (by decide) (by decide)

theorem v245 (V : Valuation τ sig (Elt F)) : Z V main_v245 = Host.powf (Z V main_v225) (Z V main_v244) :=
  Cert.LibAfter.read_binary Hand.ops Hand.Ws Hand.hWs 338 (Hand.lt_length (by decide)) V main_v225 main_v244 main_v245 (Host.powf) ⟨by decide, rfl⟩ ⟨by decide, rfl⟩ ⟨by decide, rfl⟩ rfl (by decide) (by decide) (by decide)

theorem v246 (V : Valuation τ sig (Elt F)) : Z V main_v246 = broadcastInDim S100000x1 ![0] bcast_S100000_S100000x1_0 (Z V main_v245) :=
  Cert.LibAfter.read_unary Hand.ops Hand.Ws Hand.hWs 339 (Hand.lt_length (by decide)) V main_v245 main_v246 (broadcastInDim S100000x1 ![0] bcast_S100000_S100000x1_0) ⟨by decide, rfl⟩ ⟨by decide, rfl⟩ rfl (by decide) (by decide)

theorem v247 (V : Valuation τ sig (Elt F)) : Z V main_v247 = broadcastInDim S100000x128 ![0, 1] bcast_S100000x1_S100000x128_0_1 (Z V main_v246) :=
  Cert.LibAfter.read_unary Hand.ops Hand.Ws Hand.hWs 340 (Hand.lt_length (by decide)) V main_v246 main_v247 (broadcastInDim S100000x128 ![0, 1] bcast_S100000x1_S100000x128_0_1) ⟨by decide, rfl⟩ ⟨by decide, rfl⟩ rfl (by decide) (by decide)

theorem v248 (V : Valuation τ sig (Elt F)) : Z V main_v248 = mulf (Z V main_v243) (Z V main_v247) :=
  Cert.LibAfter.read_binary Hand.ops Hand.Ws Hand.hWs 341 (Hand.lt_length (by decide)) V main_v243 main_v247 main_v248 (mulf) ⟨by decide, rfl⟩ ⟨by decide, rfl⟩ ⟨by decide, rfl⟩ rfl (by decide) (by decide) (by decide)

theorem v249 (V : Valuation τ sig (Elt F)) : Z V main_v249 = addf (Z V main_v212) (Z V main_v248) :=
  Cert.LibAfter.read_binary Hand.ops Hand.Ws Hand.hWs 342 (Hand.lt_length (by decide)) V main_v212 main_v248 main_v249 (addf) ⟨by decide, rfl⟩ ⟨by decide, rfl⟩ ⟨by decide, rfl⟩ rfl (by decide) (by decide) (by decide)

theorem v250 (V : Valuation τ sig (Elt F)) : Z V main_v250 = extractStridedSlice S1x128 ![2, 0] (Z V main_arg6) slices_S3x128_S1x128_2_0 :=
  Cert.LibAfter.read_unary Hand.ops Hand.Ws Hand.hWs 343 (Hand.lt_length (by decide)) V main_arg6 main_v250 (fun u => extractStridedSlice S1x128 ![2, 0] u slices_S3x128_S1x128_2_0) ⟨by decide, rfl⟩ ⟨by decide, rfl⟩ rfl (by decide) (by decide)

theorem v251 (V : Valuation τ sig (Elt F)) : Z V main_v251 = shapeCast S128 (Z V main_v250) shapeCasts_S1x128_S128 :=
  Cert.LibAfter.read_reshape Hand.ops Hand.Ws Hand.hWs 344 (Hand.lt_length (by decide)) V main_v250 main_v251 rfl shapeCasts_S1x128_S128 ⟨by decide, rfl⟩ ⟨by decide, rfl⟩ rfl (by decide) (by decide)

theorem v252 (V : Valuation τ sig (Elt F)) : Z V main_v252 = broadcastInDim S1x128 ![1] bcast_S128_S1x128_1 (Z V main_v251) :=
  Cert.LibAfter.read_unary Hand.ops Hand.Ws Hand.hWs 345 (Hand.lt_length (by decide)) V main_v251 main_v252 (broadcastInDim S1x128 ![1] bcast_S128_S1x128_1) ⟨by decide, rfl⟩ ⟨by decide, rfl⟩ rfl (by decide) (by decide)

theorem v253 (V : Valuation τ sig (Elt F)) : Z V main_v253 = broadcastInDim S100000x128 ![0, 1] bcast_S1x128_S100000x128_0_1 (Z V main_v252) :=
  Cert.LibAfter.read_unary Hand.ops Hand.Ws Hand.hWs 346 (Hand.lt_length (by decide)) V main_v252 main_v253 (broadcastInDim S100000x128 ![0, 1] bcast_S1x128_S100000x128_0_1) ⟨by decide, rfl⟩ ⟨by decide, rfl⟩ rfl (by decide) (by decide)

theorem v254 (V : Valuation τ sig (Elt F)) : Z V main_v254 = addf (Z V main_v249) (Z V main_v253) :=
  Cert.LibAfter.read_binary Hand.ops Hand.Ws Hand.hWs 347 (Hand.lt_length (by decide)) V main_v249 main_v253 main_v254 (addf) ⟨by decide, rfl⟩ ⟨by decide, rfl⟩ ⟨by decide, rfl⟩ rfl (by decide) (by decide) (by decide)

theorem v255 (V : Valuation τ sig (Elt F)) : Z V main_v255 = Host.dotGeneral dot_S100000x128_S128x16_S100000x16_1_0_0_1_n_n none (Z V main_v254) (Z V main_arg7) :=
  Cert.LibAfter.read_binary Hand.ops Hand.Ws Hand.hWs 348 (Hand.lt_length (by decide)) V main_v254 main_arg7 main_v255 (fun l r => Host.dotGeneral dot_S100000x128_S128x16_S100000x16_1_0_0_1_n_n none l r) ⟨by decide, rfl⟩ ⟨by decide, rfl⟩ ⟨by decide, rfl⟩ rfl (by decide) (by decide) (by decide)

theorem v256 (V : Valuation τ sig (Elt F)) : Z V main_v256 = broadcastInDim S1x16 ![1] bcast_S16_S1x16_1 (Z V main_arg8) :=
  Cert.LibAfter.read_unary Hand.ops Hand.Ws Hand.hWs 349 (Hand.lt_length (by decide)) V main_arg8 main_v256 (broadcastInDim S1x16 ![1] bcast_S16_S1x16_1) ⟨by decide, rfl⟩ ⟨by decide, rfl⟩ rfl (by decide) (by decide)

theorem v257 (V : Valuation τ sig (Elt F)) : Z V main_v257 = broadcastInDim S100000x16 ![0, 1] bcast_S1x16_S100000x16_0_1 (Z V main_v256) :=
  Cert.LibAfter.read_unary Hand.ops Hand.Ws Hand.hWs 350 (Hand.lt_length (by decide)) V main_v256 main_v257 (broadcastInDim S100000x16 ![0, 1] bcast_S1x16_S100000x16_0_1) ⟨by decide, rfl⟩ ⟨by decide, rfl⟩ rfl (by decide) (by decide)

theorem v258 (V : Valuation τ sig (Elt F)) : Z V main_v258 = addf (Z V main_v255) (Z V main_v257) :=
  Cert.LibAfter.read_binary Hand.ops Hand.Ws Hand.hWs 351 (Hand.lt_length (by decide)) V main_v255 main_v257 main_v258 (addf) ⟨by decide, rfl⟩ ⟨by decide, rfl⟩ ⟨by decide, rfl⟩ rfl (by decide) (by decide) (by decide)

end Cert.ReferenceIdeal.Rd

end
-- ==== Proof.RefReadsArgs.lean ====
/-
  The reference program in single-assignment form, read at the end of its run: the arguments, which no operation writes.
  Each equation says that a buffer's final contents are its operation's function of its operands' final contents.
-/
import proofs.«124848_j55800215109809_1_alg».proof.Proof.RefOps
import proofs.«124848_j55800215109809_1_alg».proof.Proof.LibAfterRead

noncomputable section

namespace Cert.ReferenceIdeal.Rd

open Cert.ReferenceIdeal Cert.ReferenceIdeal.Gen Idealize.ShloMosaic Idealize.ShloMosaic.TcCoe Idealize.SL.Sem Idealize.ShloMosaic.StableHlo

variable {F : FTy → Type} [FloatOps F]

theorem arg0 (V : Valuation τ sig (Elt F)) : Z V main_arg0 = V (Proc.devRef .tc main_arg0) :=
  Cert.LibAfter.after_keep Hand.ops Hand.Ws Hand.hWs V main_arg0 (by decide)

theorem arg1 (V : Valuation τ sig (Elt F)) : Z V main_arg1 = V (Proc.devRef .tc main_arg1) :=
  Cert.LibAfter.after_keep Hand.ops Hand.Ws Hand.hWs V main_arg1 (by decide)

theorem arg2 (V : Valuation τ sig (Elt F)) : Z V main_arg2 = V (Proc.devRef .tc main_arg2) :=
  Cert.LibAfter.after_keep Hand.ops Hand.Ws Hand.hWs V main_arg2 (by decide)

theorem arg3 (V : Valuation τ sig (Elt F)) : Z V main_arg3 = V (Proc.devRef .tc main_arg3) :=
  Cert.LibAfter.after_keep Hand.ops Hand.Ws Hand.hWs V main_arg3 (by decide)

theorem arg4 (V : Valuation τ sig (Elt F)) : Z V main_arg4 = V (Proc.devRef .tc main_arg4) :=
  Cert.LibAfter.after_keep Hand.ops Hand.Ws Hand.hWs V main_arg4 (by decide)

theorem arg5 (V : Valuation τ sig (Elt F)) : Z V main_arg5 = V (Proc.devRef .tc main_arg5) :=
  Cert.LibAfter.after_keep Hand.ops Hand.Ws Hand.hWs V main_arg5 (by decide)

theorem arg6 (V : Valuation τ sig (Elt F)) : Z V main_arg6 = V (Proc.devRef .tc main_arg6) :=
  Cert.LibAfter.after_keep Hand.ops Hand.Ws Hand.hWs V main_arg6 (by decide)

theorem arg7 (V : Valuation τ sig (Elt F)) : Z V main_arg7 = V (Proc.devRef .tc main_arg7) :=
  Cert.LibAfter.after_keep Hand.ops Hand.Ws Hand.hWs V main_arg7 (by decide)

theorem arg8 (V : Valuation τ sig (Elt F)) : Z V main_arg8 = V (Proc.devRef .tc main_arg8) :=
  Cert.LibAfter.after_keep Hand.ops Hand.Ws Hand.hWs V main_arg8 (by decide)

end Cert.ReferenceIdeal.Rd

end
-- ==== Proof.RefReads.lean ====
/-
  The reference program read at the end of its run, whole: for each of its 352 operations the equation saying that the
  buffer it writes holds the operation's function of its operands' final contents (six modules, one per window of
  @main), and for each of the nine arguments that it holds what it held at the launch.
-/
import proofs.«124848_j55800215109809_1_alg».proof.Proof.RefReads0
import proofs.«124848_j55800215109809_1_alg».proof.Proof.RefReads1
import proofs.«124848_j55800215109809_1_alg».proof.Proof.RefReads2
import proofs.«124848_j55800215109809_1_alg».proof.Proof.RefReads3
import proofs.«124848_j55800215109809_1_alg».proof.Proof.RefReads4
import proofs.«124848_j55800215109809_1_alg».proof.Proof.RefReads5
import proofs.«124848_j55800215109809_1_alg».proof.Proof.RefReadsArgs
-- ==== Proof.PairBase.lean ====
/-
  What it means for the two idealized programs to start from agreeing arguments, stated on the contents their buffers
  END with (the kernel program's last boundary; the reference's contents after its last operation): argument i of one holds
  what argument i of the other holds.  And the dimension records of the host scatter-adds and of the row gather, which
  each program declares for itself: the two declarations are the same record.
-/
import proofs.«124848_j55800215109809_1_alg».proof.Proof.KernelReads0
import proofs.«124848_j55800215109809_1_alg».proof.Proof.KernelReads1
import proofs.«124848_j55800215109809_1_alg».proof.Proof.KernelReads2
import proofs.«124848_j55800215109809_1_alg».proof.Proof.KernelReads3
import proofs.«124848_j55800215109809_1_alg».proof.Proof.KernelReads4
import proofs.«124848_j55800215109809_1_alg».proof.Proof.RefReads
import Idealize.ShloMosaic.PureOps.Ideal

noncomputable section

namespace Cert.Bridge

open Idealize.ShloMosaic Idealize.ShloMosaic.TcCoe Idealize.SL.Sem Idealize.ShloMosaic.StableHlo Cert.KernelIdeal.Gen

/-- Argument i holds the same contents at the end of both runs. -/
structure Agree (m : (ℓ : Loc Cert.KernelIdeal.nD Cert.KernelIdeal.τ Cert.KernelIdeal.sig) → Buf (Elt Ideal) ℓ) (ρ : Dev Cert.KernelIdeal.nD → PrngReg)
    (c : Dev Cert.KernelIdeal.nD) (V : Valuation Cert.ReferenceIdeal.τ Cert.ReferenceIdeal.sig (Elt Ideal)) : Prop where
  a0 : W42 (F := Ideal) m ρ c (Proc.devRef .tc Cert.KernelIdeal.main_arg0) = Cert.ReferenceIdeal.Rd.Z (F := Ideal) V Cert.ReferenceIdeal.main_arg0
  a1 : W42 (F := Ideal) m ρ c (Proc.devRef .tc Cert.KernelIdeal.main_arg1) = Cert.ReferenceIdeal.Rd.Z (F := Ideal) V Cert.ReferenceIdeal.main_arg1
  a2 : W42 (F := Ideal) m ρ c (Proc.devRef .tc Cert.KernelIdeal.main_arg2) = Cert.ReferenceIdeal.Rd.Z (F := Ideal) V Cert.ReferenceIdeal.main_arg2
  a3 : W42 (F := Ideal) m ρ c (Proc.devRef .tc Cert.KernelIdeal.main_arg3) = Cert.ReferenceIdeal.Rd.Z (F := Ideal) V Cert.ReferenceIdeal.main_arg3
  a4 : W42 (F := Ideal) m ρ c (Proc.devRef .tc Cert.KernelIdeal.main_arg4) = Cert.ReferenceIdeal.Rd.Z (F := Ideal) V Cert.ReferenceIdeal.main_arg4
  a5 : W42 (F := Ideal) m ρ c (Proc.devRef .tc Cert.KernelIdeal.main_arg5) = Cert.ReferenceIdeal.Rd.Z (F := Ideal) V Cert.ReferenceIdeal.main_arg5
  a6 : W42 (F := Ideal) m ρ c (Proc.devRef .tc Cert.KernelIdeal.main_arg6) = Cert.ReferenceIdeal.Rd.Z (F := Ideal) V Cert.ReferenceIdeal.main_arg6
  a7 : W42 (F := Ideal) m ρ c (Proc.devRef .tc Cert.KernelIdeal.main_arg7) = Cert.ReferenceIdeal.Rd.Z (F := Ideal) V Cert.ReferenceIdeal.main_arg7
  a8 : W42 (F := Ideal) m ρ c (Proc.devRef .tc Cert.KernelIdeal.main_arg8) = Cert.ReferenceIdeal.Rd.Z (F := Ideal) V Cert.ReferenceIdeal.main_arg8

theorem scatter1_eq : Cert.KernelIdeal.scatter_S100000_S600000x1_S600000_n_0_0_1 = Cert.ReferenceIdeal.scatter_S100000_S600000x1_S600000_n_0_0_1 := rfl
theorem scatter2_eq : Cert.KernelIdeal.scatter_S100000x128_S600000x1_S600000x128_1_0_0_1 = Cert.ReferenceIdeal.scatter_S100000x128_S600000x1_S600000x128_1_0_0_1 := rfl
theorem gather_eq : Cert.KernelIdeal.gather_S100000x128_S600000x1_S600000x128_1_0_n_n_0_1_1128 = Cert.ReferenceIdeal.gather_S100000x128_S600000x1_S600000x128_1_0_n_n_0_1_1128 := rfl

end Cert.Bridge

end
-- ==== Proof.RefDup.lean ====
/-
  The reference repeats some computations (the index columns, the constant arrays): a buffer that repeats an earlier computation
  holds what the earlier buffer holds, operation by operation.
-/
import proofs.«124848_j55800215109809_1_alg».proof.Proof.RefReads
import Idealize.ShloMosaic.PureOps.Ideal

set_option maxRecDepth 16384

noncomputable section

namespace Cert.Bridge

open Idealize.ShloMosaic Idealize.ShloMosaic.TcCoe Idealize.SL.Sem Idealize.ShloMosaic.StableHlo

theorem q_cst_1 (V : Valuation Cert.ReferenceIdeal.τ Cert.ReferenceIdeal.sig (Elt Ideal)) : Cert.ReferenceIdeal.Rd.Z (F := Ideal) V Cert.ReferenceIdeal.main_cst_1 = Cert.ReferenceIdeal.Rd.Z (F := Ideal) V Cert.ReferenceIdeal.main_cst := by
  rw [Cert.ReferenceIdeal.Rd.cst_1 V, Cert.ReferenceIdeal.Rd.cst V]
theorem q_cst_2 (V : Valuation Cert.ReferenceIdeal.τ Cert.ReferenceIdeal.sig (Elt Ideal)) : Cert.ReferenceIdeal.Rd.Z (F := Ideal) V Cert.ReferenceIdeal.main_cst_2 = Cert.ReferenceIdeal.Rd.Z (F := Ideal) V Cert.ReferenceIdeal.main_cst_0 := by
  rw [Cert.ReferenceIdeal.Rd.cst_2 V, Cert.ReferenceIdeal.Rd.cst_0 V]
theorem q_call0_v0 (V : Valuation Cert.ReferenceIdeal.τ Cert.ReferenceIdeal.sig (Elt Ideal)) : Cert.ReferenceIdeal.Rd.Z (F := Ideal) V Cert.ReferenceIdeal.main_call0_v0 = Cert.ReferenceIdeal.Rd.Z (F := Ideal) V Cert.ReferenceIdeal.main_cst_0 := by
  rw [Cert.ReferenceIdeal.Rd.call0_v0 V]
  exact q_cst_2 V
theorem q_cst_3 (V : Valuation Cert.ReferenceIdeal.τ Cert.ReferenceIdeal.sig (Elt Ideal)) : Cert.ReferenceIdeal.Rd.Z (F := Ideal) V Cert.ReferenceIdeal.main_cst_3 = Cert.ReferenceIdeal.Rd.Z (F := Ideal) V Cert.ReferenceIdeal.main_cst := by
  rw [Cert.ReferenceIdeal.Rd.cst_3 V, Cert.ReferenceIdeal.Rd.cst V]
theorem q_v10 (V : Valuation Cert.ReferenceIdeal.τ Cert.ReferenceIdeal.sig (Elt Ideal)) : Cert.ReferenceIdeal.Rd.Z (F := Ideal) V Cert.ReferenceIdeal.main_v10 = Cert.ReferenceIdeal.Rd.Z (F := Ideal) V Cert.ReferenceIdeal.main_v6 := by
  rw [Cert.ReferenceIdeal.Rd.v10 V, Cert.ReferenceIdeal.Rd.v6 V, q_cst_3 V, q_cst_1 V]
theorem q_cst_4 (V : Valuation Cert.ReferenceIdeal.τ Cert.ReferenceIdeal.sig (Elt Ideal)) : Cert.ReferenceIdeal.Rd.Z (F := Ideal) V Cert.ReferenceIdeal.main_cst_4 = Cert.ReferenceIdeal.Rd.Z (F := Ideal) V Cert.ReferenceIdeal.main_cst_0 := by
  rw [Cert.ReferenceIdeal.Rd.cst_4 V, Cert.ReferenceIdeal.Rd.cst_0 V]
theorem q_call1_v0 (V : Valuation Cert.ReferenceIdeal.τ Cert.ReferenceIdeal.sig (Elt Ideal)) : Cert.ReferenceIdeal.Rd.Z (F := Ideal) V Cert.ReferenceIdeal.main_call1_v0 = Cert.ReferenceIdeal.Rd.Z (F := Ideal) V Cert.ReferenceIdeal.main_cst_0 := by
  rw [Cert.ReferenceIdeal.Rd.call1_v0 V]
  exact q_cst_4 V
theorem q_call1_v1 (V : Valuation Cert.ReferenceIdeal.τ Cert.ReferenceIdeal.sig (Elt Ideal)) : Cert.ReferenceIdeal.Rd.Z (F := Ideal) V Cert.ReferenceIdeal.main_call1_v1 = Cert.ReferenceIdeal.Rd.Z (F := Ideal) V Cert.ReferenceIdeal.main_call0_v1 := by
  rw [Cert.ReferenceIdeal.Rd.call1_v1 V, Cert.ReferenceIdeal.Rd.call0_v1 V, q_call1_v0 V, q_call0_v0 V]
theorem q_cst_7 (V : Valuation Cert.ReferenceIdeal.τ Cert.ReferenceIdeal.sig (Elt Ideal)) : Cert.ReferenceIdeal.Rd.Z (F := Ideal) V Cert.ReferenceIdeal.main_cst_7 = Cert.ReferenceIdeal.Rd.Z (F := Ideal) V Cert.ReferenceIdeal.main_cst := by
  rw [Cert.ReferenceIdeal.Rd.cst_7 V, Cert.ReferenceIdeal.Rd.cst V]
theorem q_v29 (V : Valuation Cert.ReferenceIdeal.τ Cert.ReferenceIdeal.sig (Elt Ideal)) : Cert.ReferenceIdeal.Rd.Z (F := Ideal) V Cert.ReferenceIdeal.main_v29 = Cert.ReferenceIdeal.Rd.Z (F := Ideal) V Cert.ReferenceIdeal.main_v0 := by
  rw [Cert.ReferenceIdeal.Rd.v29 V, Cert.ReferenceIdeal.Rd.v0 V, q_cst_7 V]
theorem q_v30 (V : Valuation Cert.ReferenceIdeal.τ Cert.ReferenceIdeal.sig (Elt Ideal)) : Cert.ReferenceIdeal.Rd.Z (F := Ideal) V Cert.ReferenceIdeal.main_v30 = Cert.ReferenceIdeal.Rd.Z (F := Ideal) V Cert.ReferenceIdeal.main_v11 := by
  rw [Cert.ReferenceIdeal.Rd.v30 V, Cert.ReferenceIdeal.Rd.v11 V]
theorem q_cst_8 (V : Valuation Cert.ReferenceIdeal.τ Cert.ReferenceIdeal.sig (Elt Ideal)) : Cert.ReferenceIdeal.Rd.Z (F := Ideal) V Cert.ReferenceIdeal.main_cst_8 = Cert.ReferenceIdeal.Rd.Z (F := Ideal) V Cert.ReferenceIdeal.main_cst_5 := by
  rw [Cert.ReferenceIdeal.Rd.cst_8 V, Cert.ReferenceIdeal.Rd.cst_5 V]
theorem q_v32 (V : Valuation Cert.ReferenceIdeal.τ Cert.ReferenceIdeal.sig (Elt Ideal)) : Cert.ReferenceIdeal.Rd.Z (F := Ideal) V Cert.ReferenceIdeal.main_v32 = Cert.ReferenceIdeal.Rd.Z (F := Ideal) V Cert.ReferenceIdeal.main_v14 := by
  rw [Cert.ReferenceIdeal.Rd.v32 V, Cert.ReferenceIdeal.Rd.v14 V, q_cst_8 V]
theorem q_cst_9 (V : Valuation Cert.ReferenceIdeal.τ Cert.ReferenceIdeal.sig (Elt Ideal)) : Cert.ReferenceIdeal.Rd.Z (F := Ideal) V Cert.ReferenceIdeal.main_cst_9 = Cert.ReferenceIdeal.Rd.Z (F := Ideal) V Cert.ReferenceIdeal.main_cst_0 := by
  rw [Cert.ReferenceIdeal.Rd.cst_9 V, Cert.ReferenceIdeal.Rd.cst_0 V]
theorem q_v47 (V : Valuation Cert.ReferenceIdeal.τ Cert.ReferenceIdeal.sig (Elt Ideal)) : Cert.ReferenceIdeal.Rd.Z (F := Ideal) V Cert.ReferenceIdeal.main_v47 = Cert.ReferenceIdeal.Rd.Z (F := Ideal) V Cert.ReferenceIdeal.main_v5 := by
  rw [Cert.ReferenceIdeal.Rd.v47 V, Cert.ReferenceIdeal.Rd.v5 V, q_cst_9 V]
theorem q_cst_10 (V : Valuation Cert.ReferenceIdeal.τ Cert.ReferenceIdeal.sig (Elt Ideal)) : Cert.ReferenceIdeal.Rd.Z (F := Ideal) V Cert.ReferenceIdeal.main_cst_10 = Cert.ReferenceIdeal.Rd.Z (F := Ideal) V Cert.ReferenceIdeal.main_cst := by
  rw [Cert.ReferenceIdeal.Rd.cst_10 V, Cert.ReferenceIdeal.Rd.cst V]
theorem q_v48 (V : Valuation Cert.ReferenceIdeal.τ Cert.ReferenceIdeal.sig (Elt Ideal)) : Cert.ReferenceIdeal.Rd.Z (F := Ideal) V Cert.ReferenceIdeal.main_v48 = Cert.ReferenceIdeal.Rd.Z (F := Ideal) V Cert.ReferenceIdeal.main_v6 := by
  rw [Cert.ReferenceIdeal.Rd.v48 V, Cert.ReferenceIdeal.Rd.v6 V, q_cst_10 V, q_cst_1 V]
theorem q_cst_11 (V : Valuation Cert.ReferenceIdeal.τ Cert.ReferenceIdeal.sig (Elt Ideal)) : Cert.ReferenceIdeal.Rd.Z (F := Ideal) V Cert.ReferenceIdeal.main_cst_11 = Cert.ReferenceIdeal.Rd.Z (F := Ideal) V Cert.ReferenceIdeal.main_cst_0 := by
  rw [Cert.ReferenceIdeal.Rd.cst_11 V, Cert.ReferenceIdeal.Rd.cst_0 V]
theorem q_call2_v0 (V : Valuation Cert.ReferenceIdeal.τ Cert.ReferenceIdeal.sig (Elt Ideal)) : Cert.ReferenceIdeal.Rd.Z (F := Ideal) V Cert.ReferenceIdeal.main_call2_v0 = Cert.ReferenceIdeal.Rd.Z (F := Ideal) V Cert.ReferenceIdeal.main_cst_0 := by
  rw [Cert.ReferenceIdeal.Rd.call2_v0 V]
  exact q_cst_11 V
theorem q_call2_v1 (V : Valuation Cert.ReferenceIdeal.τ Cert.ReferenceIdeal.sig (Elt Ideal)) : Cert.ReferenceIdeal.Rd.Z (F := Ideal) V Cert.ReferenceIdeal.main_call2_v1 = Cert.ReferenceIdeal.Rd.Z (F := Ideal) V Cert.ReferenceIdeal.main_call0_v1 := by
  rw [Cert.ReferenceIdeal.Rd.call2_v1 V, Cert.ReferenceIdeal.Rd.call0_v1 V, q_call2_v0 V, q_call0_v0 V]
theorem q_cst_12 (V : Valuation Cert.ReferenceIdeal.τ Cert.ReferenceIdeal.sig (Elt Ideal)) : Cert.ReferenceIdeal.Rd.Z (F := Ideal) V Cert.ReferenceIdeal.main_cst_12 = Cert.ReferenceIdeal.Rd.Z (F := Ideal) V Cert.ReferenceIdeal.main_cst := by
  rw [Cert.ReferenceIdeal.Rd.cst_12 V, Cert.ReferenceIdeal.Rd.cst V]
theorem q_v52 (V : Valuation Cert.ReferenceIdeal.τ Cert.ReferenceIdeal.sig (Elt Ideal)) : Cert.ReferenceIdeal.Rd.Z (F := Ideal) V Cert.ReferenceIdeal.main_v52 = Cert.ReferenceIdeal.Rd.Z (F := Ideal) V Cert.ReferenceIdeal.main_v6 := by
  rw [Cert.ReferenceIdeal.Rd.v52 V, Cert.ReferenceIdeal.Rd.v6 V, q_cst_12 V, q_cst_1 V]
theorem q_cst_13 (V : Valuation Cert.ReferenceIdeal.τ Cert.ReferenceIdeal.sig (Elt Ideal)) : Cert.ReferenceIdeal.Rd.Z (F := Ideal) V Cert.ReferenceIdeal.main_cst_13 = Cert.ReferenceIdeal.Rd.Z (F := Ideal) V Cert.ReferenceIdeal.main_cst_0 := by
  rw [Cert.ReferenceIdeal.Rd.cst_13 V, Cert.ReferenceIdeal.Rd.cst_0 V]
theorem q_call3_v0 (V : Valuation Cert.ReferenceIdeal.τ Cert.ReferenceIdeal.sig (Elt Ideal)) : Cert.ReferenceIdeal.Rd.Z (F := Ideal) V Cert.ReferenceIdeal.main_call3_v0 = Cert.ReferenceIdeal.Rd.Z (F := Ideal) V Cert.ReferenceIdeal.main_cst_0 := by
  rw [Cert.ReferenceIdeal.Rd.call3_v0 V]
  exact q_cst_13 V
theorem q_call3_v1 (V : Valuation Cert.ReferenceIdeal.τ Cert.ReferenceIdeal.sig (Elt Ideal)) : Cert.ReferenceIdeal.Rd.Z (F := Ideal) V Cert.ReferenceIdeal.main_call3_v1 = Cert.ReferenceIdeal.Rd.Z (F := Ideal) V Cert.ReferenceIdeal.main_call0_v1 := by
  rw [Cert.ReferenceIdeal.Rd.call3_v1 V, Cert.ReferenceIdeal.Rd.call0_v1 V, q_call3_v0 V, q_call0_v0 V]
theorem q_cst_14 (V : Valuation Cert.ReferenceIdeal.τ Cert.ReferenceIdeal.sig (Elt Ideal)) : Cert.ReferenceIdeal.Rd.Z (F := Ideal) V Cert.ReferenceIdeal.main_cst_14 = Cert.ReferenceIdeal.Rd.Z (F := Ideal) V Cert.ReferenceIdeal.main_cst_5 := by
  rw [Cert.ReferenceIdeal.Rd.cst_14 V, Cert.ReferenceIdeal.Rd.cst_5 V]
theorem q_v56 (V : Valuation Cert.ReferenceIdeal.τ Cert.ReferenceIdeal.sig (Elt Ideal)) : Cert.ReferenceIdeal.Rd.Z (F := Ideal) V Cert.ReferenceIdeal.main_v56 = Cert.ReferenceIdeal.Rd.Z (F := Ideal) V Cert.ReferenceIdeal.main_v14 := by
  rw [Cert.ReferenceIdeal.Rd.v56 V, Cert.ReferenceIdeal.Rd.v14 V, q_cst_14 V]
theorem q_c_15 (V : Valuation Cert.ReferenceIdeal.τ Cert.ReferenceIdeal.sig (Elt Ideal)) : Cert.ReferenceIdeal.Rd.Z (F := Ideal) V Cert.ReferenceIdeal.main_c_15 = Cert.ReferenceIdeal.Rd.Z (F := Ideal) V Cert.ReferenceIdeal.main_c := by
  rw [Cert.ReferenceIdeal.Rd.c_15 V, Cert.ReferenceIdeal.Rd.c V]
theorem q_v64 (V : Valuation Cert.ReferenceIdeal.τ Cert.ReferenceIdeal.sig (Elt Ideal)) : Cert.ReferenceIdeal.Rd.Z (F := Ideal) V Cert.ReferenceIdeal.main_v64 = Cert.ReferenceIdeal.Rd.Z (F := Ideal) V Cert.ReferenceIdeal.main_v22 := by
  rw [Cert.ReferenceIdeal.Rd.v64 V, Cert.ReferenceIdeal.Rd.v22 V, q_c_15 V]
theorem q_c_16 (V : Valuation Cert.ReferenceIdeal.τ Cert.ReferenceIdeal.sig (Elt Ideal)) : Cert.ReferenceIdeal.Rd.Z (F := Ideal) V Cert.ReferenceIdeal.main_c_16 = Cert.ReferenceIdeal.Rd.Z (F := Ideal) V Cert.ReferenceIdeal.main_c_6 := by
  rw [Cert.ReferenceIdeal.Rd.c_16 V, Cert.ReferenceIdeal.Rd.c_6 V]
theorem q_v66 (V : Valuation Cert.ReferenceIdeal.τ Cert.ReferenceIdeal.sig (Elt Ideal)) : Cert.ReferenceIdeal.Rd.Z (F := Ideal) V Cert.ReferenceIdeal.main_v66 = Cert.ReferenceIdeal.Rd.Z (F := Ideal) V Cert.ReferenceIdeal.main_v24 := by
  rw [Cert.ReferenceIdeal.Rd.v66 V, Cert.ReferenceIdeal.Rd.v24 V, q_c_16 V]
theorem q_cst_17 (V : Valuation Cert.ReferenceIdeal.τ Cert.ReferenceIdeal.sig (Elt Ideal)) : Cert.ReferenceIdeal.Rd.Z (F := Ideal) V Cert.ReferenceIdeal.main_cst_17 = Cert.ReferenceIdeal.Rd.Z (F := Ideal) V Cert.ReferenceIdeal.main_cst := by
  rw [Cert.ReferenceIdeal.Rd.cst_17 V, Cert.ReferenceIdeal.Rd.cst V]
theorem q_v71 (V : Valuation Cert.ReferenceIdeal.τ Cert.ReferenceIdeal.sig (Elt Ideal)) : Cert.ReferenceIdeal.Rd.Z (F := Ideal) V Cert.ReferenceIdeal.main_v71 = Cert.ReferenceIdeal.Rd.Z (F := Ideal) V Cert.ReferenceIdeal.main_v0 := by
  rw [Cert.ReferenceIdeal.Rd.v71 V, Cert.ReferenceIdeal.Rd.v0 V, q_cst_17 V]
theorem q_v72 (V : Valuation Cert.ReferenceIdeal.τ Cert.ReferenceIdeal.sig (Elt Ideal)) : Cert.ReferenceIdeal.Rd.Z (F := Ideal) V Cert.ReferenceIdeal.main_v72 = Cert.ReferenceIdeal.Rd.Z (F := Ideal) V Cert.ReferenceIdeal.main_v53 := by
  rw [Cert.ReferenceIdeal.Rd.v72 V, Cert.ReferenceIdeal.Rd.v53 V]
theorem q_cst_18 (V : Valuation Cert.ReferenceIdeal.τ Cert.ReferenceIdeal.sig (Elt Ideal)) : Cert.ReferenceIdeal.Rd.Z (F := Ideal) V Cert.ReferenceIdeal.main_cst_18 = Cert.ReferenceIdeal.Rd.Z (F := Ideal) V Cert.ReferenceIdeal.main_cst_5 := by
  rw [Cert.ReferenceIdeal.Rd.cst_18 V, Cert.ReferenceIdeal.Rd.cst_5 V]
theorem q_v74 (V : Valuation Cert.ReferenceIdeal.τ Cert.ReferenceIdeal.sig (Elt Ideal)) : Cert.ReferenceIdeal.Rd.Z (F := Ideal) V Cert.ReferenceIdeal.main_v74 = Cert.ReferenceIdeal.Rd.Z (F := Ideal) V Cert.ReferenceIdeal.main_v14 := by
  rw [Cert.ReferenceIdeal.Rd.v74 V, Cert.ReferenceIdeal.Rd.v14 V, q_cst_18 V]
theorem q_cst_19 (V : Valuation Cert.ReferenceIdeal.τ Cert.ReferenceIdeal.sig (Elt Ideal)) : Cert.ReferenceIdeal.Rd.Z (F := Ideal) V Cert.ReferenceIdeal.main_cst_19 = Cert.ReferenceIdeal.Rd.Z (F := Ideal) V Cert.ReferenceIdeal.main_cst_0 := by
  rw [Cert.ReferenceIdeal.Rd.cst_19 V, Cert.ReferenceIdeal.Rd.cst_0 V]
theorem q_v89 (V : Valuation Cert.ReferenceIdeal.τ Cert.ReferenceIdeal.sig (Elt Ideal)) : Cert.ReferenceIdeal.Rd.Z (F := Ideal) V Cert.ReferenceIdeal.main_v89 = Cert.ReferenceIdeal.Rd.Z (F := Ideal) V Cert.ReferenceIdeal.main_v5 := by
  rw [Cert.ReferenceIdeal.Rd.v89 V, Cert.ReferenceIdeal.Rd.v5 V, q_cst_19 V]
theorem q_cst_20 (V : Valuation Cert.ReferenceIdeal.τ Cert.ReferenceIdeal.sig (Elt Ideal)) : Cert.ReferenceIdeal.Rd.Z (F := Ideal) V Cert.ReferenceIdeal.main_cst_20 = Cert.ReferenceIdeal.Rd.Z (F := Ideal) V Cert.ReferenceIdeal.main_cst := by
  rw [Cert.ReferenceIdeal.Rd.cst_20 V, Cert.ReferenceIdeal.Rd.cst V]
theorem q_v90 (V : Valuation Cert.ReferenceIdeal.τ Cert.ReferenceIdeal.sig (Elt Ideal)) : Cert.ReferenceIdeal.Rd.Z (F := Ideal) V Cert.ReferenceIdeal.main_v90 = Cert.ReferenceIdeal.Rd.Z (F := Ideal) V Cert.ReferenceIdeal.main_v6 := by
  rw [Cert.ReferenceIdeal.Rd.v90 V, Cert.ReferenceIdeal.Rd.v6 V, q_cst_20 V, q_cst_1 V]
theorem q_cst_21 (V : Valuation Cert.ReferenceIdeal.τ Cert.ReferenceIdeal.sig (Elt Ideal)) : Cert.ReferenceIdeal.Rd.Z (F := Ideal) V Cert.ReferenceIdeal.main_cst_21 = Cert.ReferenceIdeal.Rd.Z (F := Ideal) V Cert.ReferenceIdeal.main_cst_0 := by
  rw [Cert.ReferenceIdeal.Rd.cst_21 V, Cert.ReferenceIdeal.Rd.cst_0 V]
theorem q_call4_v0 (V : Valuation Cert.ReferenceIdeal.τ Cert.ReferenceIdeal.sig (Elt Ideal)) : Cert.ReferenceIdeal.Rd.Z (F := Ideal) V Cert.ReferenceIdeal.main_call4_v0 = Cert.ReferenceIdeal.Rd.Z (F := Ideal) V Cert.ReferenceIdeal.main_cst_0 := by
  rw [Cert.ReferenceIdeal.Rd.call4_v0 V]
  exact q_cst_21 V
theorem q_call4_v1 (V : Valuation Cert.ReferenceIdeal.τ Cert.ReferenceIdeal.sig (Elt Ideal)) : Cert.ReferenceIdeal.Rd.Z (F := Ideal) V Cert.ReferenceIdeal.main_call4_v1 = Cert.ReferenceIdeal.Rd.Z (F := Ideal) V Cert.ReferenceIdeal.main_call0_v1 := by
  rw [Cert.ReferenceIdeal.Rd.call4_v1 V, Cert.ReferenceIdeal.Rd.call0_v1 V, q_call4_v0 V, q_call0_v0 V]
theorem q_cst_22 (V : Valuation Cert.ReferenceIdeal.τ Cert.ReferenceIdeal.sig (Elt Ideal)) : Cert.ReferenceIdeal.Rd.Z (F := Ideal) V Cert.ReferenceIdeal.main_cst_22 = Cert.ReferenceIdeal.Rd.Z (F := Ideal) V Cert.ReferenceIdeal.main_cst := by
  rw [Cert.ReferenceIdeal.Rd.cst_22 V, Cert.ReferenceIdeal.Rd.cst V]
theorem q_v94 (V : Valuation Cert.ReferenceIdeal.τ Cert.ReferenceIdeal.sig (Elt Ideal)) : Cert.ReferenceIdeal.Rd.Z (F := Ideal) V Cert.ReferenceIdeal.main_v94 = Cert.ReferenceIdeal.Rd.Z (F := Ideal) V Cert.ReferenceIdeal.main_v6 := by
  rw [Cert.ReferenceIdeal.Rd.v94 V, Cert.ReferenceIdeal.Rd.v6 V, q_cst_22 V, q_cst_1 V]
theorem q_cst_23 (V : Valuation Cert.ReferenceIdeal.τ Cert.ReferenceIdeal.sig (Elt Ideal)) : Cert.ReferenceIdeal.Rd.Z (F := Ideal) V Cert.ReferenceIdeal.main_cst_23 = Cert.ReferenceIdeal.Rd.Z (F := Ideal) V Cert.ReferenceIdeal.main_cst_0 := by
  rw [Cert.ReferenceIdeal.Rd.cst_23 V, Cert.ReferenceIdeal.Rd.cst_0 V]
theorem q_call5_v0 (V : Valuation Cert.ReferenceIdeal.τ Cert.ReferenceIdeal.sig (Elt Ideal)) : Cert.ReferenceIdeal.Rd.Z (F := Ideal) V Cert.ReferenceIdeal.main_call5_v0 = Cert.ReferenceIdeal.Rd.Z (F := Ideal) V Cert.ReferenceIdeal.main_cst_0 := by
  rw [Cert.ReferenceIdeal.Rd.call5_v0 V]
  exact q_cst_23 V
theorem q_call5_v1 (V : Valuation Cert.ReferenceIdeal.τ Cert.ReferenceIdeal.sig (Elt Ideal)) : Cert.ReferenceIdeal.Rd.Z (F := Ideal) V Cert.ReferenceIdeal.main_call5_v1 = Cert.ReferenceIdeal.Rd.Z (F := Ideal) V Cert.ReferenceIdeal.main_call0_v1 := by
  rw [Cert.ReferenceIdeal.Rd.call5_v1 V, Cert.ReferenceIdeal.Rd.call0_v1 V, q_call5_v0 V, q_call0_v0 V]
theorem q_cst_24 (V : Valuation Cert.ReferenceIdeal.τ Cert.ReferenceIdeal.sig (Elt Ideal)) : Cert.ReferenceIdeal.Rd.Z (F := Ideal) V Cert.ReferenceIdeal.main_cst_24 = Cert.ReferenceIdeal.Rd.Z (F := Ideal) V Cert.ReferenceIdeal.main_cst_5 := by
  rw [Cert.ReferenceIdeal.Rd.cst_24 V, Cert.ReferenceIdeal.Rd.cst_5 V]
theorem q_v98 (V : Valuation Cert.ReferenceIdeal.τ Cert.ReferenceIdeal.sig (Elt Ideal)) : Cert.ReferenceIdeal.Rd.Z (F := Ideal) V Cert.ReferenceIdeal.main_v98 = Cert.ReferenceIdeal.Rd.Z (F := Ideal) V Cert.ReferenceIdeal.main_v14 := by
  rw [Cert.ReferenceIdeal.Rd.v98 V, Cert.ReferenceIdeal.Rd.v14 V, q_cst_24 V]
theorem q_c_25 (V : Valuation Cert.ReferenceIdeal.τ Cert.ReferenceIdeal.sig (Elt Ideal)) : Cert.ReferenceIdeal.Rd.Z (F := Ideal) V Cert.ReferenceIdeal.main_c_25 = Cert.ReferenceIdeal.Rd.Z (F := Ideal) V Cert.ReferenceIdeal.main_c := by
  rw [Cert.ReferenceIdeal.Rd.c_25 V, Cert.ReferenceIdeal.Rd.c V]
theorem q_v106 (V : Valuation Cert.ReferenceIdeal.τ Cert.ReferenceIdeal.sig (Elt Ideal)) : Cert.ReferenceIdeal.Rd.Z (F := Ideal) V Cert.ReferenceIdeal.main_v106 = Cert.ReferenceIdeal.Rd.Z (F := Ideal) V Cert.ReferenceIdeal.main_v22 := by
  rw [Cert.ReferenceIdeal.Rd.v106 V, Cert.ReferenceIdeal.Rd.v22 V, q_c_25 V]
theorem q_c_26 (V : Valuation Cert.ReferenceIdeal.τ Cert.ReferenceIdeal.sig (Elt Ideal)) : Cert.ReferenceIdeal.Rd.Z (F := Ideal) V Cert.ReferenceIdeal.main_c_26 = Cert.ReferenceIdeal.Rd.Z (F := Ideal) V Cert.ReferenceIdeal.main_c_6 := by
  rw [Cert.ReferenceIdeal.Rd.c_26 V, Cert.ReferenceIdeal.Rd.c_6 V]
theorem q_v108 (V : Valuation Cert.ReferenceIdeal.τ Cert.ReferenceIdeal.sig (Elt Ideal)) : Cert.ReferenceIdeal.Rd.Z (F := Ideal) V Cert.ReferenceIdeal.main_v108 = Cert.ReferenceIdeal.Rd.Z (F := Ideal) V Cert.ReferenceIdeal.main_v24 := by
  rw [Cert.ReferenceIdeal.Rd.v108 V, Cert.ReferenceIdeal.Rd.v24 V, q_c_26 V]
theorem q_cst_27 (V : Valuation Cert.ReferenceIdeal.τ Cert.ReferenceIdeal.sig (Elt Ideal)) : Cert.ReferenceIdeal.Rd.Z (F := Ideal) V Cert.ReferenceIdeal.main_cst_27 = Cert.ReferenceIdeal.Rd.Z (F := Ideal) V Cert.ReferenceIdeal.main_cst := by
  rw [Cert.ReferenceIdeal.Rd.cst_27 V, Cert.ReferenceIdeal.Rd.cst V]
theorem q_v113 (V : Valuation Cert.ReferenceIdeal.τ Cert.ReferenceIdeal.sig (Elt Ideal)) : Cert.ReferenceIdeal.Rd.Z (F := Ideal) V Cert.ReferenceIdeal.main_v113 = Cert.ReferenceIdeal.Rd.Z (F := Ideal) V Cert.ReferenceIdeal.main_v0 := by
  rw [Cert.ReferenceIdeal.Rd.v113 V, Cert.ReferenceIdeal.Rd.v0 V, q_cst_27 V]
theorem q_v114 (V : Valuation Cert.ReferenceIdeal.τ Cert.ReferenceIdeal.sig (Elt Ideal)) : Cert.ReferenceIdeal.Rd.Z (F := Ideal) V Cert.ReferenceIdeal.main_v114 = Cert.ReferenceIdeal.Rd.Z (F := Ideal) V Cert.ReferenceIdeal.main_v95 := by
  rw [Cert.ReferenceIdeal.Rd.v114 V, Cert.ReferenceIdeal.Rd.v95 V]
theorem q_cst_28 (V : Valuation Cert.ReferenceIdeal.τ Cert.ReferenceIdeal.sig (Elt Ideal)) : Cert.ReferenceIdeal.Rd.Z (F := Ideal) V Cert.ReferenceIdeal.main_cst_28 = Cert.ReferenceIdeal.Rd.Z (F := Ideal) V Cert.ReferenceIdeal.main_cst_5 := by
  rw [Cert.ReferenceIdeal.Rd.cst_28 V, Cert.ReferenceIdeal.Rd.cst_5 V]
theorem q_v116 (V : Valuation Cert.ReferenceIdeal.τ Cert.ReferenceIdeal.sig (Elt Ideal)) : Cert.ReferenceIdeal.Rd.Z (F := Ideal) V Cert.ReferenceIdeal.main_v116 = Cert.ReferenceIdeal.Rd.Z (F := Ideal) V Cert.ReferenceIdeal.main_v14 := by
  rw [Cert.ReferenceIdeal.Rd.v116 V, Cert.ReferenceIdeal.Rd.v14 V, q_cst_28 V]
theorem q_call6_cst (V : Valuation Cert.ReferenceIdeal.τ Cert.ReferenceIdeal.sig (Elt Ideal)) : Cert.ReferenceIdeal.Rd.Z (F := Ideal) V Cert.ReferenceIdeal.main_call6_cst = Cert.ReferenceIdeal.Rd.Z (F := Ideal) V Cert.ReferenceIdeal.main_cst := by
  rw [Cert.ReferenceIdeal.Rd.call6_cst V, Cert.ReferenceIdeal.Rd.cst V]
theorem q_call6_v0 (V : Valuation Cert.ReferenceIdeal.τ Cert.ReferenceIdeal.sig (Elt Ideal)) : Cert.ReferenceIdeal.Rd.Z (F := Ideal) V Cert.ReferenceIdeal.main_call6_v0 = Cert.ReferenceIdeal.Rd.Z (F := Ideal) V Cert.ReferenceIdeal.main_v0 := by
  rw [Cert.ReferenceIdeal.Rd.call6_v0 V, Cert.ReferenceIdeal.Rd.v0 V, q_call6_cst V]
theorem q_call6_v2 (V : Valuation Cert.ReferenceIdeal.τ Cert.ReferenceIdeal.sig (Elt Ideal)) : Cert.ReferenceIdeal.Rd.Z (F := Ideal) V Cert.ReferenceIdeal.main_call6_v2 = Cert.ReferenceIdeal.Rd.Z (F := Ideal) V Cert.ReferenceIdeal.main_cst_29 := by
  rw [Cert.ReferenceIdeal.Rd.call6_v2 V]
theorem q_cst_30 (V : Valuation Cert.ReferenceIdeal.τ Cert.ReferenceIdeal.sig (Elt Ideal)) : Cert.ReferenceIdeal.Rd.Z (F := Ideal) V Cert.ReferenceIdeal.main_cst_30 = Cert.ReferenceIdeal.Rd.Z (F := Ideal) V Cert.ReferenceIdeal.main_cst := by
  rw [Cert.ReferenceIdeal.Rd.cst_30 V, Cert.ReferenceIdeal.Rd.cst V]
theorem q_v128 (V : Valuation Cert.ReferenceIdeal.τ Cert.ReferenceIdeal.sig (Elt Ideal)) : Cert.ReferenceIdeal.Rd.Z (F := Ideal) V Cert.ReferenceIdeal.main_v128 = Cert.ReferenceIdeal.Rd.Z (F := Ideal) V Cert.ReferenceIdeal.main_v0 := by
  rw [Cert.ReferenceIdeal.Rd.v128 V, Cert.ReferenceIdeal.Rd.v0 V, q_cst_30 V]
theorem q_v129 (V : Valuation Cert.ReferenceIdeal.τ Cert.ReferenceIdeal.sig (Elt Ideal)) : Cert.ReferenceIdeal.Rd.Z (F := Ideal) V Cert.ReferenceIdeal.main_v129 = Cert.ReferenceIdeal.Rd.Z (F := Ideal) V Cert.ReferenceIdeal.main_v1 := by
  rw [Cert.ReferenceIdeal.Rd.v129 V, Cert.ReferenceIdeal.Rd.v1 V]
theorem q_v130 (V : Valuation Cert.ReferenceIdeal.τ Cert.ReferenceIdeal.sig (Elt Ideal)) : Cert.ReferenceIdeal.Rd.Z (F := Ideal) V Cert.ReferenceIdeal.main_v130 = Cert.ReferenceIdeal.Rd.Z (F := Ideal) V Cert.ReferenceIdeal.main_v2 := by
  rw [Cert.ReferenceIdeal.Rd.v130 V, Cert.ReferenceIdeal.Rd.v2 V, q_v129 V]
theorem q_v131 (V : Valuation Cert.ReferenceIdeal.τ Cert.ReferenceIdeal.sig (Elt Ideal)) : Cert.ReferenceIdeal.Rd.Z (F := Ideal) V Cert.ReferenceIdeal.main_v131 = Cert.ReferenceIdeal.Rd.Z (F := Ideal) V Cert.ReferenceIdeal.main_v3 := by
  rw [Cert.ReferenceIdeal.Rd.v131 V, Cert.ReferenceIdeal.Rd.v3 V]
theorem q_v132 (V : Valuation Cert.ReferenceIdeal.τ Cert.ReferenceIdeal.sig (Elt Ideal)) : Cert.ReferenceIdeal.Rd.Z (F := Ideal) V Cert.ReferenceIdeal.main_v132 = Cert.ReferenceIdeal.Rd.Z (F := Ideal) V Cert.ReferenceIdeal.main_v4 := by
  rw [Cert.ReferenceIdeal.Rd.v132 V, Cert.ReferenceIdeal.Rd.v4 V, q_v131 V]
theorem q_cst_31 (V : Valuation Cert.ReferenceIdeal.τ Cert.ReferenceIdeal.sig (Elt Ideal)) : Cert.ReferenceIdeal.Rd.Z (F := Ideal) V Cert.ReferenceIdeal.main_cst_31 = Cert.ReferenceIdeal.Rd.Z (F := Ideal) V Cert.ReferenceIdeal.main_cst_0 := by
  rw [Cert.ReferenceIdeal.Rd.cst_31 V, Cert.ReferenceIdeal.Rd.cst_0 V]
theorem q_v133 (V : Valuation Cert.ReferenceIdeal.τ Cert.ReferenceIdeal.sig (Elt Ideal)) : Cert.ReferenceIdeal.Rd.Z (F := Ideal) V Cert.ReferenceIdeal.main_v133 = Cert.ReferenceIdeal.Rd.Z (F := Ideal) V Cert.ReferenceIdeal.main_v5 := by
  rw [Cert.ReferenceIdeal.Rd.v133 V, Cert.ReferenceIdeal.Rd.v5 V, q_cst_31 V]
theorem q_cst_32 (V : Valuation Cert.ReferenceIdeal.τ Cert.ReferenceIdeal.sig (Elt Ideal)) : Cert.ReferenceIdeal.Rd.Z (F := Ideal) V Cert.ReferenceIdeal.main_cst_32 = Cert.ReferenceIdeal.Rd.Z (F := Ideal) V Cert.ReferenceIdeal.main_cst := by
  rw [Cert.ReferenceIdeal.Rd.cst_32 V, Cert.ReferenceIdeal.Rd.cst V]
theorem q_v134 (V : Valuation Cert.ReferenceIdeal.τ Cert.ReferenceIdeal.sig (Elt Ideal)) : Cert.ReferenceIdeal.Rd.Z (F := Ideal) V Cert.ReferenceIdeal.main_v134 = Cert.ReferenceIdeal.Rd.Z (F := Ideal) V Cert.ReferenceIdeal.main_v6 := by
  rw [Cert.ReferenceIdeal.Rd.v134 V, Cert.ReferenceIdeal.Rd.v6 V, q_cst_32 V, q_cst_1 V]
theorem q_v135 (V : Valuation Cert.ReferenceIdeal.τ Cert.ReferenceIdeal.sig (Elt Ideal)) : Cert.ReferenceIdeal.Rd.Z (F := Ideal) V Cert.ReferenceIdeal.main_v135 = Cert.ReferenceIdeal.Rd.Z (F := Ideal) V Cert.ReferenceIdeal.main_v7 := by
  rw [Cert.ReferenceIdeal.Rd.v135 V, Cert.ReferenceIdeal.Rd.v7 V, q_v130 V]
theorem q_v136 (V : Valuation Cert.ReferenceIdeal.τ Cert.ReferenceIdeal.sig (Elt Ideal)) : Cert.ReferenceIdeal.Rd.Z (F := Ideal) V Cert.ReferenceIdeal.main_v136 = Cert.ReferenceIdeal.Rd.Z (F := Ideal) V Cert.ReferenceIdeal.main_v8 := by
  rw [Cert.ReferenceIdeal.Rd.v136 V, Cert.ReferenceIdeal.Rd.v8 V, q_v134 V, q_v135 V, q_v133 V]
theorem q_cst_33 (V : Valuation Cert.ReferenceIdeal.τ Cert.ReferenceIdeal.sig (Elt Ideal)) : Cert.ReferenceIdeal.Rd.Z (F := Ideal) V Cert.ReferenceIdeal.main_cst_33 = Cert.ReferenceIdeal.Rd.Z (F := Ideal) V Cert.ReferenceIdeal.main_cst_0 := by
  rw [Cert.ReferenceIdeal.Rd.cst_33 V, Cert.ReferenceIdeal.Rd.cst_0 V]
theorem q_call7_v0 (V : Valuation Cert.ReferenceIdeal.τ Cert.ReferenceIdeal.sig (Elt Ideal)) : Cert.ReferenceIdeal.Rd.Z (F := Ideal) V Cert.ReferenceIdeal.main_call7_v0 = Cert.ReferenceIdeal.Rd.Z (F := Ideal) V Cert.ReferenceIdeal.main_cst_0 := by
  rw [Cert.ReferenceIdeal.Rd.call7_v0 V]
  exact q_cst_33 V
theorem q_call7_v1 (V : Valuation Cert.ReferenceIdeal.τ Cert.ReferenceIdeal.sig (Elt Ideal)) : Cert.ReferenceIdeal.Rd.Z (F := Ideal) V Cert.ReferenceIdeal.main_call7_v1 = Cert.ReferenceIdeal.Rd.Z (F := Ideal) V Cert.ReferenceIdeal.main_call0_v1 := by
  rw [Cert.ReferenceIdeal.Rd.call7_v1 V, Cert.ReferenceIdeal.Rd.call0_v1 V, q_call7_v0 V, q_call0_v0 V]
theorem q_v137 (V : Valuation Cert.ReferenceIdeal.τ Cert.ReferenceIdeal.sig (Elt Ideal)) : Cert.ReferenceIdeal.Rd.Z (F := Ideal) V Cert.ReferenceIdeal.main_v137 = Cert.ReferenceIdeal.Rd.Z (F := Ideal) V Cert.ReferenceIdeal.main_v9 := by
  rw [Cert.ReferenceIdeal.Rd.v137 V, Cert.ReferenceIdeal.Rd.v9 V, q_call7_v1 V, q_v136 V]
theorem q_cst_34 (V : Valuation Cert.ReferenceIdeal.τ Cert.ReferenceIdeal.sig (Elt Ideal)) : Cert.ReferenceIdeal.Rd.Z (F := Ideal) V Cert.ReferenceIdeal.main_cst_34 = Cert.ReferenceIdeal.Rd.Z (F := Ideal) V Cert.ReferenceIdeal.main_cst := by
  rw [Cert.ReferenceIdeal.Rd.cst_34 V, Cert.ReferenceIdeal.Rd.cst V]
theorem q_v138 (V : Valuation Cert.ReferenceIdeal.τ Cert.ReferenceIdeal.sig (Elt Ideal)) : Cert.ReferenceIdeal.Rd.Z (F := Ideal) V Cert.ReferenceIdeal.main_v138 = Cert.ReferenceIdeal.Rd.Z (F := Ideal) V Cert.ReferenceIdeal.main_v6 := by
  rw [Cert.ReferenceIdeal.Rd.v138 V, Cert.ReferenceIdeal.Rd.v6 V, q_cst_34 V, q_cst_1 V]
theorem q_v139 (V : Valuation Cert.ReferenceIdeal.τ Cert.ReferenceIdeal.sig (Elt Ideal)) : Cert.ReferenceIdeal.Rd.Z (F := Ideal) V Cert.ReferenceIdeal.main_v139 = Cert.ReferenceIdeal.Rd.Z (F := Ideal) V Cert.ReferenceIdeal.main_v11 := by
  rw [Cert.ReferenceIdeal.Rd.v139 V, Cert.ReferenceIdeal.Rd.v11 V, q_v132 V]
theorem q_v140 (V : Valuation Cert.ReferenceIdeal.τ Cert.ReferenceIdeal.sig (Elt Ideal)) : Cert.ReferenceIdeal.Rd.Z (F := Ideal) V Cert.ReferenceIdeal.main_v140 = Cert.ReferenceIdeal.Rd.Z (F := Ideal) V Cert.ReferenceIdeal.main_v12 := by
  rw [Cert.ReferenceIdeal.Rd.v140 V, Cert.ReferenceIdeal.Rd.v12 V, q_v138 V, q_v139 V, q_v133 V, q_v10 V]
theorem q_cst_35 (V : Valuation Cert.ReferenceIdeal.τ Cert.ReferenceIdeal.sig (Elt Ideal)) : Cert.ReferenceIdeal.Rd.Z (F := Ideal) V Cert.ReferenceIdeal.main_cst_35 = Cert.ReferenceIdeal.Rd.Z (F := Ideal) V Cert.ReferenceIdeal.main_cst_0 := by
  rw [Cert.ReferenceIdeal.Rd.cst_35 V, Cert.ReferenceIdeal.Rd.cst_0 V]
theorem q_call8_v0 (V : Valuation Cert.ReferenceIdeal.τ Cert.ReferenceIdeal.sig (Elt Ideal)) : Cert.ReferenceIdeal.Rd.Z (F := Ideal) V Cert.ReferenceIdeal.main_call8_v0 = Cert.ReferenceIdeal.Rd.Z (F := Ideal) V Cert.ReferenceIdeal.main_cst_0 := by
  rw [Cert.ReferenceIdeal.Rd.call8_v0 V]
  exact q_cst_35 V
theorem q_call8_v1 (V : Valuation Cert.ReferenceIdeal.τ Cert.ReferenceIdeal.sig (Elt Ideal)) : Cert.ReferenceIdeal.Rd.Z (F := Ideal) V Cert.ReferenceIdeal.main_call8_v1 = Cert.ReferenceIdeal.Rd.Z (F := Ideal) V Cert.ReferenceIdeal.main_call0_v1 := by
  rw [Cert.ReferenceIdeal.Rd.call8_v1 V, Cert.ReferenceIdeal.Rd.call0_v1 V, q_call8_v0 V, q_call0_v0 V]
theorem q_v141 (V : Valuation Cert.ReferenceIdeal.τ Cert.ReferenceIdeal.sig (Elt Ideal)) : Cert.ReferenceIdeal.Rd.Z (F := Ideal) V Cert.ReferenceIdeal.main_v141 = Cert.ReferenceIdeal.Rd.Z (F := Ideal) V Cert.ReferenceIdeal.main_v13 := by
  rw [Cert.ReferenceIdeal.Rd.v141 V, Cert.ReferenceIdeal.Rd.v13 V, q_call8_v1 V, q_v140 V, q_call1_v1 V]
theorem q_cst_36 (V : Valuation Cert.ReferenceIdeal.τ Cert.ReferenceIdeal.sig (Elt Ideal)) : Cert.ReferenceIdeal.Rd.Z (F := Ideal) V Cert.ReferenceIdeal.main_cst_36 = Cert.ReferenceIdeal.Rd.Z (F := Ideal) V Cert.ReferenceIdeal.main_cst_5 := by
  rw [Cert.ReferenceIdeal.Rd.cst_36 V, Cert.ReferenceIdeal.Rd.cst_5 V]
theorem q_v142 (V : Valuation Cert.ReferenceIdeal.τ Cert.ReferenceIdeal.sig (Elt Ideal)) : Cert.ReferenceIdeal.Rd.Z (F := Ideal) V Cert.ReferenceIdeal.main_v142 = Cert.ReferenceIdeal.Rd.Z (F := Ideal) V Cert.ReferenceIdeal.main_v14 := by
  rw [Cert.ReferenceIdeal.Rd.v142 V, Cert.ReferenceIdeal.Rd.v14 V, q_cst_36 V]
theorem q_v143 (V : Valuation Cert.ReferenceIdeal.τ Cert.ReferenceIdeal.sig (Elt Ideal)) : Cert.ReferenceIdeal.Rd.Z (F := Ideal) V Cert.ReferenceIdeal.main_v143 = Cert.ReferenceIdeal.Rd.Z (F := Ideal) V Cert.ReferenceIdeal.main_v15 := by
  rw [Cert.ReferenceIdeal.Rd.v143 V, Cert.ReferenceIdeal.Rd.v15 V, q_v137 V, q_v142 V]
theorem q_v144 (V : Valuation Cert.ReferenceIdeal.τ Cert.ReferenceIdeal.sig (Elt Ideal)) : Cert.ReferenceIdeal.Rd.Z (F := Ideal) V Cert.ReferenceIdeal.main_v144 = Cert.ReferenceIdeal.Rd.Z (F := Ideal) V Cert.ReferenceIdeal.main_v16 := by
  rw [Cert.ReferenceIdeal.Rd.v144 V, Cert.ReferenceIdeal.Rd.v16 V, q_v143 V]
theorem q_c_37 (V : Valuation Cert.ReferenceIdeal.τ Cert.ReferenceIdeal.sig (Elt Ideal)) : Cert.ReferenceIdeal.Rd.Z (F := Ideal) V Cert.ReferenceIdeal.main_c_37 = Cert.ReferenceIdeal.Rd.Z (F := Ideal) V Cert.ReferenceIdeal.main_c := by
  rw [Cert.ReferenceIdeal.Rd.c_37 V, Cert.ReferenceIdeal.Rd.c V]
theorem q_v150 (V : Valuation Cert.ReferenceIdeal.τ Cert.ReferenceIdeal.sig (Elt Ideal)) : Cert.ReferenceIdeal.Rd.Z (F := Ideal) V Cert.ReferenceIdeal.main_v150 = Cert.ReferenceIdeal.Rd.Z (F := Ideal) V Cert.ReferenceIdeal.main_v22 := by
  rw [Cert.ReferenceIdeal.Rd.v150 V, Cert.ReferenceIdeal.Rd.v22 V, q_c_37 V]
theorem q_v151 (V : Valuation Cert.ReferenceIdeal.τ Cert.ReferenceIdeal.sig (Elt Ideal)) : Cert.ReferenceIdeal.Rd.Z (F := Ideal) V Cert.ReferenceIdeal.main_v151 = Cert.ReferenceIdeal.Rd.Z (F := Ideal) V Cert.ReferenceIdeal.main_v23 := by
  rw [Cert.ReferenceIdeal.Rd.v151 V, Cert.ReferenceIdeal.Rd.v23 V, q_v130 V, q_v150 V]
theorem q_c_38 (V : Valuation Cert.ReferenceIdeal.τ Cert.ReferenceIdeal.sig (Elt Ideal)) : Cert.ReferenceIdeal.Rd.Z (F := Ideal) V Cert.ReferenceIdeal.main_c_38 = Cert.ReferenceIdeal.Rd.Z (F := Ideal) V Cert.ReferenceIdeal.main_c_6 := by
  rw [Cert.ReferenceIdeal.Rd.c_38 V, Cert.ReferenceIdeal.Rd.c_6 V]
theorem q_v152 (V : Valuation Cert.ReferenceIdeal.τ Cert.ReferenceIdeal.sig (Elt Ideal)) : Cert.ReferenceIdeal.Rd.Z (F := Ideal) V Cert.ReferenceIdeal.main_v152 = Cert.ReferenceIdeal.Rd.Z (F := Ideal) V Cert.ReferenceIdeal.main_v24 := by
  rw [Cert.ReferenceIdeal.Rd.v152 V, Cert.ReferenceIdeal.Rd.v24 V, q_c_38 V]
theorem q_v153 (V : Valuation Cert.ReferenceIdeal.τ Cert.ReferenceIdeal.sig (Elt Ideal)) : Cert.ReferenceIdeal.Rd.Z (F := Ideal) V Cert.ReferenceIdeal.main_v153 = Cert.ReferenceIdeal.Rd.Z (F := Ideal) V Cert.ReferenceIdeal.main_v25 := by
  rw [Cert.ReferenceIdeal.Rd.v153 V, Cert.ReferenceIdeal.Rd.v25 V, q_v130 V, q_v152 V]
theorem q_v154 (V : Valuation Cert.ReferenceIdeal.τ Cert.ReferenceIdeal.sig (Elt Ideal)) : Cert.ReferenceIdeal.Rd.Z (F := Ideal) V Cert.ReferenceIdeal.main_v154 = Cert.ReferenceIdeal.Rd.Z (F := Ideal) V Cert.ReferenceIdeal.main_v26 := by
  rw [Cert.ReferenceIdeal.Rd.v154 V, Cert.ReferenceIdeal.Rd.v26 V, q_v151 V, q_v153 V, q_v130 V]
theorem q_v155 (V : Valuation Cert.ReferenceIdeal.τ Cert.ReferenceIdeal.sig (Elt Ideal)) : Cert.ReferenceIdeal.Rd.Z (F := Ideal) V Cert.ReferenceIdeal.main_v155 = Cert.ReferenceIdeal.Rd.Z (F := Ideal) V Cert.ReferenceIdeal.main_v27 := by
  rw [Cert.ReferenceIdeal.Rd.v155 V, Cert.ReferenceIdeal.Rd.v27 V, q_v154 V]
theorem q_cst_39 (V : Valuation Cert.ReferenceIdeal.τ Cert.ReferenceIdeal.sig (Elt Ideal)) : Cert.ReferenceIdeal.Rd.Z (F := Ideal) V Cert.ReferenceIdeal.main_cst_39 = Cert.ReferenceIdeal.Rd.Z (F := Ideal) V Cert.ReferenceIdeal.main_cst := by
  rw [Cert.ReferenceIdeal.Rd.cst_39 V, Cert.ReferenceIdeal.Rd.cst V]
theorem q_v157 (V : Valuation Cert.ReferenceIdeal.τ Cert.ReferenceIdeal.sig (Elt Ideal)) : Cert.ReferenceIdeal.Rd.Z (F := Ideal) V Cert.ReferenceIdeal.main_v157 = Cert.ReferenceIdeal.Rd.Z (F := Ideal) V Cert.ReferenceIdeal.main_v0 := by
  rw [Cert.ReferenceIdeal.Rd.v157 V, Cert.ReferenceIdeal.Rd.v0 V, q_cst_39 V]
theorem q_v158 (V : Valuation Cert.ReferenceIdeal.τ Cert.ReferenceIdeal.sig (Elt Ideal)) : Cert.ReferenceIdeal.Rd.Z (F := Ideal) V Cert.ReferenceIdeal.main_v158 = Cert.ReferenceIdeal.Rd.Z (F := Ideal) V Cert.ReferenceIdeal.main_v11 := by
  rw [Cert.ReferenceIdeal.Rd.v158 V, Cert.ReferenceIdeal.Rd.v11 V, q_v132 V]
theorem q_cst_40 (V : Valuation Cert.ReferenceIdeal.τ Cert.ReferenceIdeal.sig (Elt Ideal)) : Cert.ReferenceIdeal.Rd.Z (F := Ideal) V Cert.ReferenceIdeal.main_cst_40 = Cert.ReferenceIdeal.Rd.Z (F := Ideal) V Cert.ReferenceIdeal.main_cst_5 := by
  rw [Cert.ReferenceIdeal.Rd.cst_40 V, Cert.ReferenceIdeal.Rd.cst_5 V]
theorem q_v160 (V : Valuation Cert.ReferenceIdeal.τ Cert.ReferenceIdeal.sig (Elt Ideal)) : Cert.ReferenceIdeal.Rd.Z (F := Ideal) V Cert.ReferenceIdeal.main_v160 = Cert.ReferenceIdeal.Rd.Z (F := Ideal) V Cert.ReferenceIdeal.main_v14 := by
  rw [Cert.ReferenceIdeal.Rd.v160 V, Cert.ReferenceIdeal.Rd.v14 V, q_cst_40 V]
theorem q_v161 (V : Valuation Cert.ReferenceIdeal.τ Cert.ReferenceIdeal.sig (Elt Ideal)) : Cert.ReferenceIdeal.Rd.Z (F := Ideal) V Cert.ReferenceIdeal.main_v161 = Cert.ReferenceIdeal.Rd.Z (F := Ideal) V Cert.ReferenceIdeal.main_v33 := by
  rw [Cert.ReferenceIdeal.Rd.v161 V, Cert.ReferenceIdeal.Rd.v33 V, q_v141 V, q_v160 V, q_v32 V]
theorem q_v162 (V : Valuation Cert.ReferenceIdeal.τ Cert.ReferenceIdeal.sig (Elt Ideal)) : Cert.ReferenceIdeal.Rd.Z (F := Ideal) V Cert.ReferenceIdeal.main_v162 = Cert.ReferenceIdeal.Rd.Z (F := Ideal) V Cert.ReferenceIdeal.main_v34 := by
  rw [Cert.ReferenceIdeal.Rd.v162 V, Cert.ReferenceIdeal.Rd.v34 V, q_v161 V]
theorem q_v163 (V : Valuation Cert.ReferenceIdeal.τ Cert.ReferenceIdeal.sig (Elt Ideal)) : Cert.ReferenceIdeal.Rd.Z (F := Ideal) V Cert.ReferenceIdeal.main_v163 = Cert.ReferenceIdeal.Rd.Z (F := Ideal) V Cert.ReferenceIdeal.main_v35 := by
  rw [Cert.ReferenceIdeal.Rd.v163 V, Cert.ReferenceIdeal.Rd.v35 V, q_v162 V]
theorem q_v171 (V : Valuation Cert.ReferenceIdeal.τ Cert.ReferenceIdeal.sig (Elt Ideal)) : Cert.ReferenceIdeal.Rd.Z (F := Ideal) V Cert.ReferenceIdeal.main_v171 = Cert.ReferenceIdeal.Rd.Z (F := Ideal) V Cert.ReferenceIdeal.main_v43 := by
  rw [Cert.ReferenceIdeal.Rd.v171 V, Cert.ReferenceIdeal.Rd.v43 V]
theorem q_v172 (V : Valuation Cert.ReferenceIdeal.τ Cert.ReferenceIdeal.sig (Elt Ideal)) : Cert.ReferenceIdeal.Rd.Z (F := Ideal) V Cert.ReferenceIdeal.main_v172 = Cert.ReferenceIdeal.Rd.Z (F := Ideal) V Cert.ReferenceIdeal.main_v44 := by
  rw [Cert.ReferenceIdeal.Rd.v172 V, Cert.ReferenceIdeal.Rd.v44 V, q_v171 V]
theorem q_v173 (V : Valuation Cert.ReferenceIdeal.τ Cert.ReferenceIdeal.sig (Elt Ideal)) : Cert.ReferenceIdeal.Rd.Z (F := Ideal) V Cert.ReferenceIdeal.main_v173 = Cert.ReferenceIdeal.Rd.Z (F := Ideal) V Cert.ReferenceIdeal.main_v45 := by
  rw [Cert.ReferenceIdeal.Rd.v173 V, Cert.ReferenceIdeal.Rd.v45 V]
theorem q_v174 (V : Valuation Cert.ReferenceIdeal.τ Cert.ReferenceIdeal.sig (Elt Ideal)) : Cert.ReferenceIdeal.Rd.Z (F := Ideal) V Cert.ReferenceIdeal.main_v174 = Cert.ReferenceIdeal.Rd.Z (F := Ideal) V Cert.ReferenceIdeal.main_v46 := by
  rw [Cert.ReferenceIdeal.Rd.v174 V, Cert.ReferenceIdeal.Rd.v46 V, q_v173 V]
theorem q_cst_41 (V : Valuation Cert.ReferenceIdeal.τ Cert.ReferenceIdeal.sig (Elt Ideal)) : Cert.ReferenceIdeal.Rd.Z (F := Ideal) V Cert.ReferenceIdeal.main_cst_41 = Cert.ReferenceIdeal.Rd.Z (F := Ideal) V Cert.ReferenceIdeal.main_cst_0 := by
  rw [Cert.ReferenceIdeal.Rd.cst_41 V, Cert.ReferenceIdeal.Rd.cst_0 V]
theorem q_v175 (V : Valuation Cert.ReferenceIdeal.τ Cert.ReferenceIdeal.sig (Elt Ideal)) : Cert.ReferenceIdeal.Rd.Z (F := Ideal) V Cert.ReferenceIdeal.main_v175 = Cert.ReferenceIdeal.Rd.Z (F := Ideal) V Cert.ReferenceIdeal.main_v5 := by
  rw [Cert.ReferenceIdeal.Rd.v175 V, Cert.ReferenceIdeal.Rd.v5 V, q_cst_41 V]
theorem q_cst_42 (V : Valuation Cert.ReferenceIdeal.τ Cert.ReferenceIdeal.sig (Elt Ideal)) : Cert.ReferenceIdeal.Rd.Z (F := Ideal) V Cert.ReferenceIdeal.main_cst_42 = Cert.ReferenceIdeal.Rd.Z (F := Ideal) V Cert.ReferenceIdeal.main_cst := by
  rw [Cert.ReferenceIdeal.Rd.cst_42 V, Cert.ReferenceIdeal.Rd.cst V]
theorem q_v176 (V : Valuation Cert.ReferenceIdeal.τ Cert.ReferenceIdeal.sig (Elt Ideal)) : Cert.ReferenceIdeal.Rd.Z (F := Ideal) V Cert.ReferenceIdeal.main_v176 = Cert.ReferenceIdeal.Rd.Z (F := Ideal) V Cert.ReferenceIdeal.main_v6 := by
  rw [Cert.ReferenceIdeal.Rd.v176 V, Cert.ReferenceIdeal.Rd.v6 V, q_cst_42 V, q_cst_1 V]
theorem q_v177 (V : Valuation Cert.ReferenceIdeal.τ Cert.ReferenceIdeal.sig (Elt Ideal)) : Cert.ReferenceIdeal.Rd.Z (F := Ideal) V Cert.ReferenceIdeal.main_v177 = Cert.ReferenceIdeal.Rd.Z (F := Ideal) V Cert.ReferenceIdeal.main_v49 := by
  rw [Cert.ReferenceIdeal.Rd.v177 V, Cert.ReferenceIdeal.Rd.v49 V, q_v172 V]
theorem q_v178 (V : Valuation Cert.ReferenceIdeal.τ Cert.ReferenceIdeal.sig (Elt Ideal)) : Cert.ReferenceIdeal.Rd.Z (F := Ideal) V Cert.ReferenceIdeal.main_v178 = Cert.ReferenceIdeal.Rd.Z (F := Ideal) V Cert.ReferenceIdeal.main_v50 := by
  rw [Cert.ReferenceIdeal.Rd.v178 V, Cert.ReferenceIdeal.Rd.v50 V, q_v176 V, q_v177 V, q_v175 V, q_v48 V, q_v47 V]
theorem q_cst_43 (V : Valuation Cert.ReferenceIdeal.τ Cert.ReferenceIdeal.sig (Elt Ideal)) : Cert.ReferenceIdeal.Rd.Z (F := Ideal) V Cert.ReferenceIdeal.main_cst_43 = Cert.ReferenceIdeal.Rd.Z (F := Ideal) V Cert.ReferenceIdeal.main_cst_0 := by
  rw [Cert.ReferenceIdeal.Rd.cst_43 V, Cert.ReferenceIdeal.Rd.cst_0 V]
theorem q_call9_v0 (V : Valuation Cert.ReferenceIdeal.τ Cert.ReferenceIdeal.sig (Elt Ideal)) : Cert.ReferenceIdeal.Rd.Z (F := Ideal) V Cert.ReferenceIdeal.main_call9_v0 = Cert.ReferenceIdeal.Rd.Z (F := Ideal) V Cert.ReferenceIdeal.main_cst_0 := by
  rw [Cert.ReferenceIdeal.Rd.call9_v0 V]
  exact q_cst_43 V
theorem q_call9_v1 (V : Valuation Cert.ReferenceIdeal.τ Cert.ReferenceIdeal.sig (Elt Ideal)) : Cert.ReferenceIdeal.Rd.Z (F := Ideal) V Cert.ReferenceIdeal.main_call9_v1 = Cert.ReferenceIdeal.Rd.Z (F := Ideal) V Cert.ReferenceIdeal.main_call0_v1 := by
  rw [Cert.ReferenceIdeal.Rd.call9_v1 V, Cert.ReferenceIdeal.Rd.call0_v1 V, q_call9_v0 V, q_call0_v0 V]
theorem q_v179 (V : Valuation Cert.ReferenceIdeal.τ Cert.ReferenceIdeal.sig (Elt Ideal)) : Cert.ReferenceIdeal.Rd.Z (F := Ideal) V Cert.ReferenceIdeal.main_v179 = Cert.ReferenceIdeal.Rd.Z (F := Ideal) V Cert.ReferenceIdeal.main_v51 := by
  rw [Cert.ReferenceIdeal.Rd.v179 V, Cert.ReferenceIdeal.Rd.v51 V, q_call9_v1 V, q_v178 V, q_call2_v1 V]
theorem q_cst_44 (V : Valuation Cert.ReferenceIdeal.τ Cert.ReferenceIdeal.sig (Elt Ideal)) : Cert.ReferenceIdeal.Rd.Z (F := Ideal) V Cert.ReferenceIdeal.main_cst_44 = Cert.ReferenceIdeal.Rd.Z (F := Ideal) V Cert.ReferenceIdeal.main_cst := by
  rw [Cert.ReferenceIdeal.Rd.cst_44 V, Cert.ReferenceIdeal.Rd.cst V]
theorem q_v180 (V : Valuation Cert.ReferenceIdeal.τ Cert.ReferenceIdeal.sig (Elt Ideal)) : Cert.ReferenceIdeal.Rd.Z (F := Ideal) V Cert.ReferenceIdeal.main_v180 = Cert.ReferenceIdeal.Rd.Z (F := Ideal) V Cert.ReferenceIdeal.main_v6 := by
  rw [Cert.ReferenceIdeal.Rd.v180 V, Cert.ReferenceIdeal.Rd.v6 V, q_cst_44 V, q_cst_1 V]
theorem q_v181 (V : Valuation Cert.ReferenceIdeal.τ Cert.ReferenceIdeal.sig (Elt Ideal)) : Cert.ReferenceIdeal.Rd.Z (F := Ideal) V Cert.ReferenceIdeal.main_v181 = Cert.ReferenceIdeal.Rd.Z (F := Ideal) V Cert.ReferenceIdeal.main_v53 := by
  rw [Cert.ReferenceIdeal.Rd.v181 V, Cert.ReferenceIdeal.Rd.v53 V, q_v174 V]
theorem q_v182 (V : Valuation Cert.ReferenceIdeal.τ Cert.ReferenceIdeal.sig (Elt Ideal)) : Cert.ReferenceIdeal.Rd.Z (F := Ideal) V Cert.ReferenceIdeal.main_v182 = Cert.ReferenceIdeal.Rd.Z (F := Ideal) V Cert.ReferenceIdeal.main_v54 := by
  rw [Cert.ReferenceIdeal.Rd.v182 V, Cert.ReferenceIdeal.Rd.v54 V, q_v180 V, q_v181 V, q_v175 V, q_v52 V, q_v47 V]
theorem q_cst_45 (V : Valuation Cert.ReferenceIdeal.τ Cert.ReferenceIdeal.sig (Elt Ideal)) : Cert.ReferenceIdeal.Rd.Z (F := Ideal) V Cert.ReferenceIdeal.main_cst_45 = Cert.ReferenceIdeal.Rd.Z (F := Ideal) V Cert.ReferenceIdeal.main_cst_0 := by
  rw [Cert.ReferenceIdeal.Rd.cst_45 V, Cert.ReferenceIdeal.Rd.cst_0 V]
theorem q_call10_v0 (V : Valuation Cert.ReferenceIdeal.τ Cert.ReferenceIdeal.sig (Elt Ideal)) : Cert.ReferenceIdeal.Rd.Z (F := Ideal) V Cert.ReferenceIdeal.main_call10_v0 = Cert.ReferenceIdeal.Rd.Z (F := Ideal) V Cert.ReferenceIdeal.main_cst_0 := by
  rw [Cert.ReferenceIdeal.Rd.call10_v0 V]
  exact q_cst_45 V
theorem q_call10_v1 (V : Valuation Cert.ReferenceIdeal.τ Cert.ReferenceIdeal.sig (Elt Ideal)) : Cert.ReferenceIdeal.Rd.Z (F := Ideal) V Cert.ReferenceIdeal.main_call10_v1 = Cert.ReferenceIdeal.Rd.Z (F := Ideal) V Cert.ReferenceIdeal.main_call0_v1 := by
  rw [Cert.ReferenceIdeal.Rd.call10_v1 V, Cert.ReferenceIdeal.Rd.call0_v1 V, q_call10_v0 V, q_call0_v0 V]
theorem q_v183 (V : Valuation Cert.ReferenceIdeal.τ Cert.ReferenceIdeal.sig (Elt Ideal)) : Cert.ReferenceIdeal.Rd.Z (F := Ideal) V Cert.ReferenceIdeal.main_v183 = Cert.ReferenceIdeal.Rd.Z (F := Ideal) V Cert.ReferenceIdeal.main_v55 := by
  rw [Cert.ReferenceIdeal.Rd.v183 V, Cert.ReferenceIdeal.Rd.v55 V, q_call10_v1 V, q_v182 V, q_call3_v1 V]
theorem q_cst_46 (V : Valuation Cert.ReferenceIdeal.τ Cert.ReferenceIdeal.sig (Elt Ideal)) : Cert.ReferenceIdeal.Rd.Z (F := Ideal) V Cert.ReferenceIdeal.main_cst_46 = Cert.ReferenceIdeal.Rd.Z (F := Ideal) V Cert.ReferenceIdeal.main_cst_5 := by
  rw [Cert.ReferenceIdeal.Rd.cst_46 V, Cert.ReferenceIdeal.Rd.cst_5 V]
theorem q_v184 (V : Valuation Cert.ReferenceIdeal.τ Cert.ReferenceIdeal.sig (Elt Ideal)) : Cert.ReferenceIdeal.Rd.Z (F := Ideal) V Cert.ReferenceIdeal.main_v184 = Cert.ReferenceIdeal.Rd.Z (F := Ideal) V Cert.ReferenceIdeal.main_v14 := by
  rw [Cert.ReferenceIdeal.Rd.v184 V, Cert.ReferenceIdeal.Rd.v14 V, q_cst_46 V]
theorem q_v185 (V : Valuation Cert.ReferenceIdeal.τ Cert.ReferenceIdeal.sig (Elt Ideal)) : Cert.ReferenceIdeal.Rd.Z (F := Ideal) V Cert.ReferenceIdeal.main_v185 = Cert.ReferenceIdeal.Rd.Z (F := Ideal) V Cert.ReferenceIdeal.main_v57 := by
  rw [Cert.ReferenceIdeal.Rd.v185 V, Cert.ReferenceIdeal.Rd.v57 V, q_v179 V, q_v184 V, q_v56 V]
theorem q_v186 (V : Valuation Cert.ReferenceIdeal.τ Cert.ReferenceIdeal.sig (Elt Ideal)) : Cert.ReferenceIdeal.Rd.Z (F := Ideal) V Cert.ReferenceIdeal.main_v186 = Cert.ReferenceIdeal.Rd.Z (F := Ideal) V Cert.ReferenceIdeal.main_v58 := by
  rw [Cert.ReferenceIdeal.Rd.v186 V, Cert.ReferenceIdeal.Rd.v58 V, q_v185 V]
theorem q_c_47 (V : Valuation Cert.ReferenceIdeal.τ Cert.ReferenceIdeal.sig (Elt Ideal)) : Cert.ReferenceIdeal.Rd.Z (F := Ideal) V Cert.ReferenceIdeal.main_c_47 = Cert.ReferenceIdeal.Rd.Z (F := Ideal) V Cert.ReferenceIdeal.main_c := by
  rw [Cert.ReferenceIdeal.Rd.c_47 V, Cert.ReferenceIdeal.Rd.c V]
theorem q_v192 (V : Valuation Cert.ReferenceIdeal.τ Cert.ReferenceIdeal.sig (Elt Ideal)) : Cert.ReferenceIdeal.Rd.Z (F := Ideal) V Cert.ReferenceIdeal.main_v192 = Cert.ReferenceIdeal.Rd.Z (F := Ideal) V Cert.ReferenceIdeal.main_v22 := by
  rw [Cert.ReferenceIdeal.Rd.v192 V, Cert.ReferenceIdeal.Rd.v22 V, q_c_47 V]
theorem q_v193 (V : Valuation Cert.ReferenceIdeal.τ Cert.ReferenceIdeal.sig (Elt Ideal)) : Cert.ReferenceIdeal.Rd.Z (F := Ideal) V Cert.ReferenceIdeal.main_v193 = Cert.ReferenceIdeal.Rd.Z (F := Ideal) V Cert.ReferenceIdeal.main_v65 := by
  rw [Cert.ReferenceIdeal.Rd.v193 V, Cert.ReferenceIdeal.Rd.v65 V, q_v172 V, q_v192 V, q_v64 V]
theorem q_c_48 (V : Valuation Cert.ReferenceIdeal.τ Cert.ReferenceIdeal.sig (Elt Ideal)) : Cert.ReferenceIdeal.Rd.Z (F := Ideal) V Cert.ReferenceIdeal.main_c_48 = Cert.ReferenceIdeal.Rd.Z (F := Ideal) V Cert.ReferenceIdeal.main_c_6 := by
  rw [Cert.ReferenceIdeal.Rd.c_48 V, Cert.ReferenceIdeal.Rd.c_6 V]
theorem q_v194 (V : Valuation Cert.ReferenceIdeal.τ Cert.ReferenceIdeal.sig (Elt Ideal)) : Cert.ReferenceIdeal.Rd.Z (F := Ideal) V Cert.ReferenceIdeal.main_v194 = Cert.ReferenceIdeal.Rd.Z (F := Ideal) V Cert.ReferenceIdeal.main_v24 := by
  rw [Cert.ReferenceIdeal.Rd.v194 V, Cert.ReferenceIdeal.Rd.v24 V, q_c_48 V]
theorem q_v195 (V : Valuation Cert.ReferenceIdeal.τ Cert.ReferenceIdeal.sig (Elt Ideal)) : Cert.ReferenceIdeal.Rd.Z (F := Ideal) V Cert.ReferenceIdeal.main_v195 = Cert.ReferenceIdeal.Rd.Z (F := Ideal) V Cert.ReferenceIdeal.main_v67 := by
  rw [Cert.ReferenceIdeal.Rd.v195 V, Cert.ReferenceIdeal.Rd.v67 V, q_v172 V, q_v194 V, q_v66 V]
theorem q_v196 (V : Valuation Cert.ReferenceIdeal.τ Cert.ReferenceIdeal.sig (Elt Ideal)) : Cert.ReferenceIdeal.Rd.Z (F := Ideal) V Cert.ReferenceIdeal.main_v196 = Cert.ReferenceIdeal.Rd.Z (F := Ideal) V Cert.ReferenceIdeal.main_v68 := by
  rw [Cert.ReferenceIdeal.Rd.v196 V, Cert.ReferenceIdeal.Rd.v68 V, q_v193 V, q_v195 V, q_v172 V]
theorem q_v197 (V : Valuation Cert.ReferenceIdeal.τ Cert.ReferenceIdeal.sig (Elt Ideal)) : Cert.ReferenceIdeal.Rd.Z (F := Ideal) V Cert.ReferenceIdeal.main_v197 = Cert.ReferenceIdeal.Rd.Z (F := Ideal) V Cert.ReferenceIdeal.main_v69 := by
  rw [Cert.ReferenceIdeal.Rd.v197 V, Cert.ReferenceIdeal.Rd.v69 V, q_v196 V]
theorem q_cst_49 (V : Valuation Cert.ReferenceIdeal.τ Cert.ReferenceIdeal.sig (Elt Ideal)) : Cert.ReferenceIdeal.Rd.Z (F := Ideal) V Cert.ReferenceIdeal.main_cst_49 = Cert.ReferenceIdeal.Rd.Z (F := Ideal) V Cert.ReferenceIdeal.main_cst := by
  rw [Cert.ReferenceIdeal.Rd.cst_49 V, Cert.ReferenceIdeal.Rd.cst V]
theorem q_v199 (V : Valuation Cert.ReferenceIdeal.τ Cert.ReferenceIdeal.sig (Elt Ideal)) : Cert.ReferenceIdeal.Rd.Z (F := Ideal) V Cert.ReferenceIdeal.main_v199 = Cert.ReferenceIdeal.Rd.Z (F := Ideal) V Cert.ReferenceIdeal.main_v0 := by
  rw [Cert.ReferenceIdeal.Rd.v199 V, Cert.ReferenceIdeal.Rd.v0 V, q_cst_49 V]
theorem q_v200 (V : Valuation Cert.ReferenceIdeal.τ Cert.ReferenceIdeal.sig (Elt Ideal)) : Cert.ReferenceIdeal.Rd.Z (F := Ideal) V Cert.ReferenceIdeal.main_v200 = Cert.ReferenceIdeal.Rd.Z (F := Ideal) V Cert.ReferenceIdeal.main_v53 := by
  rw [Cert.ReferenceIdeal.Rd.v200 V, Cert.ReferenceIdeal.Rd.v53 V, q_v174 V]
theorem q_cst_50 (V : Valuation Cert.ReferenceIdeal.τ Cert.ReferenceIdeal.sig (Elt Ideal)) : Cert.ReferenceIdeal.Rd.Z (F := Ideal) V Cert.ReferenceIdeal.main_cst_50 = Cert.ReferenceIdeal.Rd.Z (F := Ideal) V Cert.ReferenceIdeal.main_cst_5 := by
  rw [Cert.ReferenceIdeal.Rd.cst_50 V, Cert.ReferenceIdeal.Rd.cst_5 V]
theorem q_v202 (V : Valuation Cert.ReferenceIdeal.τ Cert.ReferenceIdeal.sig (Elt Ideal)) : Cert.ReferenceIdeal.Rd.Z (F := Ideal) V Cert.ReferenceIdeal.main_v202 = Cert.ReferenceIdeal.Rd.Z (F := Ideal) V Cert.ReferenceIdeal.main_v14 := by
  rw [Cert.ReferenceIdeal.Rd.v202 V, Cert.ReferenceIdeal.Rd.v14 V, q_cst_50 V]
theorem q_v203 (V : Valuation Cert.ReferenceIdeal.τ Cert.ReferenceIdeal.sig (Elt Ideal)) : Cert.ReferenceIdeal.Rd.Z (F := Ideal) V Cert.ReferenceIdeal.main_v203 = Cert.ReferenceIdeal.Rd.Z (F := Ideal) V Cert.ReferenceIdeal.main_v75 := by
  rw [Cert.ReferenceIdeal.Rd.v203 V, Cert.ReferenceIdeal.Rd.v75 V, q_v183 V, q_v202 V, q_v74 V]
theorem q_v204 (V : Valuation Cert.ReferenceIdeal.τ Cert.ReferenceIdeal.sig (Elt Ideal)) : Cert.ReferenceIdeal.Rd.Z (F := Ideal) V Cert.ReferenceIdeal.main_v204 = Cert.ReferenceIdeal.Rd.Z (F := Ideal) V Cert.ReferenceIdeal.main_v76 := by
  rw [Cert.ReferenceIdeal.Rd.v204 V, Cert.ReferenceIdeal.Rd.v76 V, q_v203 V]
theorem q_v205 (V : Valuation Cert.ReferenceIdeal.τ Cert.ReferenceIdeal.sig (Elt Ideal)) : Cert.ReferenceIdeal.Rd.Z (F := Ideal) V Cert.ReferenceIdeal.main_v205 = Cert.ReferenceIdeal.Rd.Z (F := Ideal) V Cert.ReferenceIdeal.main_v77 := by
  rw [Cert.ReferenceIdeal.Rd.v205 V, Cert.ReferenceIdeal.Rd.v77 V, q_v204 V]
theorem q_v213 (V : Valuation Cert.ReferenceIdeal.τ Cert.ReferenceIdeal.sig (Elt Ideal)) : Cert.ReferenceIdeal.Rd.Z (F := Ideal) V Cert.ReferenceIdeal.main_v213 = Cert.ReferenceIdeal.Rd.Z (F := Ideal) V Cert.ReferenceIdeal.main_v85 := by
  rw [Cert.ReferenceIdeal.Rd.v213 V, Cert.ReferenceIdeal.Rd.v85 V]
theorem q_v214 (V : Valuation Cert.ReferenceIdeal.τ Cert.ReferenceIdeal.sig (Elt Ideal)) : Cert.ReferenceIdeal.Rd.Z (F := Ideal) V Cert.ReferenceIdeal.main_v214 = Cert.ReferenceIdeal.Rd.Z (F := Ideal) V Cert.ReferenceIdeal.main_v86 := by
  rw [Cert.ReferenceIdeal.Rd.v214 V, Cert.ReferenceIdeal.Rd.v86 V, q_v213 V]
theorem q_v215 (V : Valuation Cert.ReferenceIdeal.τ Cert.ReferenceIdeal.sig (Elt Ideal)) : Cert.ReferenceIdeal.Rd.Z (F := Ideal) V Cert.ReferenceIdeal.main_v215 = Cert.ReferenceIdeal.Rd.Z (F := Ideal) V Cert.ReferenceIdeal.main_v87 := by
  rw [Cert.ReferenceIdeal.Rd.v215 V, Cert.ReferenceIdeal.Rd.v87 V]
theorem q_v216 (V : Valuation Cert.ReferenceIdeal.τ Cert.ReferenceIdeal.sig (Elt Ideal)) : Cert.ReferenceIdeal.Rd.Z (F := Ideal) V Cert.ReferenceIdeal.main_v216 = Cert.ReferenceIdeal.Rd.Z (F := Ideal) V Cert.ReferenceIdeal.main_v88 := by
  rw [Cert.ReferenceIdeal.Rd.v216 V, Cert.ReferenceIdeal.Rd.v88 V, q_v215 V]
theorem q_cst_51 (V : Valuation Cert.ReferenceIdeal.τ Cert.ReferenceIdeal.sig (Elt Ideal)) : Cert.ReferenceIdeal.Rd.Z (F := Ideal) V Cert.ReferenceIdeal.main_cst_51 = Cert.ReferenceIdeal.Rd.Z (F := Ideal) V Cert.ReferenceIdeal.main_cst_0 := by
  rw [Cert.ReferenceIdeal.Rd.cst_51 V, Cert.ReferenceIdeal.Rd.cst_0 V]
theorem q_v217 (V : Valuation Cert.ReferenceIdeal.τ Cert.ReferenceIdeal.sig (Elt Ideal)) : Cert.ReferenceIdeal.Rd.Z (F := Ideal) V Cert.ReferenceIdeal.main_v217 = Cert.ReferenceIdeal.Rd.Z (F := Ideal) V Cert.ReferenceIdeal.main_v5 := by
  rw [Cert.ReferenceIdeal.Rd.v217 V, Cert.ReferenceIdeal.Rd.v5 V, q_cst_51 V]
theorem q_cst_52 (V : Valuation Cert.ReferenceIdeal.τ Cert.ReferenceIdeal.sig (Elt Ideal)) : Cert.ReferenceIdeal.Rd.Z (F := Ideal) V Cert.ReferenceIdeal.main_cst_52 = Cert.ReferenceIdeal.Rd.Z (F := Ideal) V Cert.ReferenceIdeal.main_cst := by
  rw [Cert.ReferenceIdeal.Rd.cst_52 V, Cert.ReferenceIdeal.Rd.cst V]
theorem q_v218 (V : Valuation Cert.ReferenceIdeal.τ Cert.ReferenceIdeal.sig (Elt Ideal)) : Cert.ReferenceIdeal.Rd.Z (F := Ideal) V Cert.ReferenceIdeal.main_v218 = Cert.ReferenceIdeal.Rd.Z (F := Ideal) V Cert.ReferenceIdeal.main_v6 := by
  rw [Cert.ReferenceIdeal.Rd.v218 V, Cert.ReferenceIdeal.Rd.v6 V, q_cst_52 V, q_cst_1 V]
theorem q_v219 (V : Valuation Cert.ReferenceIdeal.τ Cert.ReferenceIdeal.sig (Elt Ideal)) : Cert.ReferenceIdeal.Rd.Z (F := Ideal) V Cert.ReferenceIdeal.main_v219 = Cert.ReferenceIdeal.Rd.Z (F := Ideal) V Cert.ReferenceIdeal.main_v91 := by
  rw [Cert.ReferenceIdeal.Rd.v219 V, Cert.ReferenceIdeal.Rd.v91 V, q_v214 V]
theorem q_v220 (V : Valuation Cert.ReferenceIdeal.τ Cert.ReferenceIdeal.sig (Elt Ideal)) : Cert.ReferenceIdeal.Rd.Z (F := Ideal) V Cert.ReferenceIdeal.main_v220 = Cert.ReferenceIdeal.Rd.Z (F := Ideal) V Cert.ReferenceIdeal.main_v92 := by
  rw [Cert.ReferenceIdeal.Rd.v220 V, Cert.ReferenceIdeal.Rd.v92 V, q_v218 V, q_v219 V, q_v217 V, q_v90 V, q_v89 V]
theorem q_cst_53 (V : Valuation Cert.ReferenceIdeal.τ Cert.ReferenceIdeal.sig (Elt Ideal)) : Cert.ReferenceIdeal.Rd.Z (F := Ideal) V Cert.ReferenceIdeal.main_cst_53 = Cert.ReferenceIdeal.Rd.Z (F := Ideal) V Cert.ReferenceIdeal.main_cst_0 := by
  rw [Cert.ReferenceIdeal.Rd.cst_53 V, Cert.ReferenceIdeal.Rd.cst_0 V]
theorem q_call11_v0 (V : Valuation Cert.ReferenceIdeal.τ Cert.ReferenceIdeal.sig (Elt Ideal)) : Cert.ReferenceIdeal.Rd.Z (F := Ideal) V Cert.ReferenceIdeal.main_call11_v0 = Cert.ReferenceIdeal.Rd.Z (F := Ideal) V Cert.ReferenceIdeal.main_cst_0 := by
  rw [Cert.ReferenceIdeal.Rd.call11_v0 V]
  exact q_cst_53 V
theorem q_call11_v1 (V : Valuation Cert.ReferenceIdeal.τ Cert.ReferenceIdeal.sig (Elt Ideal)) : Cert.ReferenceIdeal.Rd.Z (F := Ideal) V Cert.ReferenceIdeal.main_call11_v1 = Cert.ReferenceIdeal.Rd.Z (F := Ideal) V Cert.ReferenceIdeal.main_call0_v1 := by
  rw [Cert.ReferenceIdeal.Rd.call11_v1 V, Cert.ReferenceIdeal.Rd.call0_v1 V, q_call11_v0 V, q_call0_v0 V]
theorem q_v221 (V : Valuation Cert.ReferenceIdeal.τ Cert.ReferenceIdeal.sig (Elt Ideal)) : Cert.ReferenceIdeal.Rd.Z (F := Ideal) V Cert.ReferenceIdeal.main_v221 = Cert.ReferenceIdeal.Rd.Z (F := Ideal) V Cert.ReferenceIdeal.main_v93 := by
  rw [Cert.ReferenceIdeal.Rd.v221 V, Cert.ReferenceIdeal.Rd.v93 V, q_call11_v1 V, q_v220 V, q_call4_v1 V]
theorem q_cst_54 (V : Valuation Cert.ReferenceIdeal.τ Cert.ReferenceIdeal.sig (Elt Ideal)) : Cert.ReferenceIdeal.Rd.Z (F := Ideal) V Cert.ReferenceIdeal.main_cst_54 = Cert.ReferenceIdeal.Rd.Z (F := Ideal) V Cert.ReferenceIdeal.main_cst := by
  rw [Cert.ReferenceIdeal.Rd.cst_54 V, Cert.ReferenceIdeal.Rd.cst V]
theorem q_v222 (V : Valuation Cert.ReferenceIdeal.τ Cert.ReferenceIdeal.sig (Elt Ideal)) : Cert.ReferenceIdeal.Rd.Z (F := Ideal) V Cert.ReferenceIdeal.main_v222 = Cert.ReferenceIdeal.Rd.Z (F := Ideal) V Cert.ReferenceIdeal.main_v6 := by
  rw [Cert.ReferenceIdeal.Rd.v222 V, Cert.ReferenceIdeal.Rd.v6 V, q_cst_54 V, q_cst_1 V]
theorem q_v223 (V : Valuation Cert.ReferenceIdeal.τ Cert.ReferenceIdeal.sig (Elt Ideal)) : Cert.ReferenceIdeal.Rd.Z (F := Ideal) V Cert.ReferenceIdeal.main_v223 = Cert.ReferenceIdeal.Rd.Z (F := Ideal) V Cert.ReferenceIdeal.main_v95 := by
  rw [Cert.ReferenceIdeal.Rd.v223 V, Cert.ReferenceIdeal.Rd.v95 V, q_v216 V]
theorem q_v224 (V : Valuation Cert.ReferenceIdeal.τ Cert.ReferenceIdeal.sig (Elt Ideal)) : Cert.ReferenceIdeal.Rd.Z (F := Ideal) V Cert.ReferenceIdeal.main_v224 = Cert.ReferenceIdeal.Rd.Z (F := Ideal) V Cert.ReferenceIdeal.main_v96 := by
  rw [Cert.ReferenceIdeal.Rd.v224 V, Cert.ReferenceIdeal.Rd.v96 V, q_v222 V, q_v223 V, q_v217 V, q_v94 V, q_v89 V]
theorem q_cst_55 (V : Valuation Cert.ReferenceIdeal.τ Cert.ReferenceIdeal.sig (Elt Ideal)) : Cert.ReferenceIdeal.Rd.Z (F := Ideal) V Cert.ReferenceIdeal.main_cst_55 = Cert.ReferenceIdeal.Rd.Z (F := Ideal) V Cert.ReferenceIdeal.main_cst_0 := by
  rw [Cert.ReferenceIdeal.Rd.cst_55 V, Cert.ReferenceIdeal.Rd.cst_0 V]
theorem q_call12_v0 (V : Valuation Cert.ReferenceIdeal.τ Cert.ReferenceIdeal.sig (Elt Ideal)) : Cert.ReferenceIdeal.Rd.Z (F := Ideal) V Cert.ReferenceIdeal.main_call12_v0 = Cert.ReferenceIdeal.Rd.Z (F := Ideal) V Cert.ReferenceIdeal.main_cst_0 := by
  rw [Cert.ReferenceIdeal.Rd.call12_v0 V]
  exact q_cst_55 V
theorem q_call12_v1 (V : Valuation Cert.ReferenceIdeal.τ Cert.ReferenceIdeal.sig (Elt Ideal)) : Cert.ReferenceIdeal.Rd.Z (F := Ideal) V Cert.ReferenceIdeal.main_call12_v1 = Cert.ReferenceIdeal.Rd.Z (F := Ideal) V Cert.ReferenceIdeal.main_call0_v1 := by
  rw [Cert.ReferenceIdeal.Rd.call12_v1 V, Cert.ReferenceIdeal.Rd.call0_v1 V, q_call12_v0 V, q_call0_v0 V]
theorem q_v225 (V : Valuation Cert.ReferenceIdeal.τ Cert.ReferenceIdeal.sig (Elt Ideal)) : Cert.ReferenceIdeal.Rd.Z (F := Ideal) V Cert.ReferenceIdeal.main_v225 = Cert.ReferenceIdeal.Rd.Z (F := Ideal) V Cert.ReferenceIdeal.main_v97 := by
  rw [Cert.ReferenceIdeal.Rd.v225 V, Cert.ReferenceIdeal.Rd.v97 V, q_call12_v1 V, q_v224 V, q_call5_v1 V]
theorem q_cst_56 (V : Valuation Cert.ReferenceIdeal.τ Cert.ReferenceIdeal.sig (Elt Ideal)) : Cert.ReferenceIdeal.Rd.Z (F := Ideal) V Cert.ReferenceIdeal.main_cst_56 = Cert.ReferenceIdeal.Rd.Z (F := Ideal) V Cert.ReferenceIdeal.main_cst_5 := by
  rw [Cert.ReferenceIdeal.Rd.cst_56 V, Cert.ReferenceIdeal.Rd.cst_5 V]
theorem q_v226 (V : Valuation Cert.ReferenceIdeal.τ Cert.ReferenceIdeal.sig (Elt Ideal)) : Cert.ReferenceIdeal.Rd.Z (F := Ideal) V Cert.ReferenceIdeal.main_v226 = Cert.ReferenceIdeal.Rd.Z (F := Ideal) V Cert.ReferenceIdeal.main_v14 := by
  rw [Cert.ReferenceIdeal.Rd.v226 V, Cert.ReferenceIdeal.Rd.v14 V, q_cst_56 V]
theorem q_v227 (V : Valuation Cert.ReferenceIdeal.τ Cert.ReferenceIdeal.sig (Elt Ideal)) : Cert.ReferenceIdeal.Rd.Z (F := Ideal) V Cert.ReferenceIdeal.main_v227 = Cert.ReferenceIdeal.Rd.Z (F := Ideal) V Cert.ReferenceIdeal.main_v99 := by
  rw [Cert.ReferenceIdeal.Rd.v227 V, Cert.ReferenceIdeal.Rd.v99 V, q_v221 V, q_v226 V, q_v98 V]
theorem q_v228 (V : Valuation Cert.ReferenceIdeal.τ Cert.ReferenceIdeal.sig (Elt Ideal)) : Cert.ReferenceIdeal.Rd.Z (F := Ideal) V Cert.ReferenceIdeal.main_v228 = Cert.ReferenceIdeal.Rd.Z (F := Ideal) V Cert.ReferenceIdeal.main_v100 := by
  rw [Cert.ReferenceIdeal.Rd.v228 V, Cert.ReferenceIdeal.Rd.v100 V, q_v227 V]
theorem q_c_57 (V : Valuation Cert.ReferenceIdeal.τ Cert.ReferenceIdeal.sig (Elt Ideal)) : Cert.ReferenceIdeal.Rd.Z (F := Ideal) V Cert.ReferenceIdeal.main_c_57 = Cert.ReferenceIdeal.Rd.Z (F := Ideal) V Cert.ReferenceIdeal.main_c := by
  rw [Cert.ReferenceIdeal.Rd.c_57 V, Cert.ReferenceIdeal.Rd.c V]
theorem q_v234 (V : Valuation Cert.ReferenceIdeal.τ Cert.ReferenceIdeal.sig (Elt Ideal)) : Cert.ReferenceIdeal.Rd.Z (F := Ideal) V Cert.ReferenceIdeal.main_v234 = Cert.ReferenceIdeal.Rd.Z (F := Ideal) V Cert.ReferenceIdeal.main_v22 := by
  rw [Cert.ReferenceIdeal.Rd.v234 V, Cert.ReferenceIdeal.Rd.v22 V, q_c_57 V]
theorem q_v235 (V : Valuation Cert.ReferenceIdeal.τ Cert.ReferenceIdeal.sig (Elt Ideal)) : Cert.ReferenceIdeal.Rd.Z (F := Ideal) V Cert.ReferenceIdeal.main_v235 = Cert.ReferenceIdeal.Rd.Z (F := Ideal) V Cert.ReferenceIdeal.main_v107 := by
  rw [Cert.ReferenceIdeal.Rd.v235 V, Cert.ReferenceIdeal.Rd.v107 V, q_v214 V, q_v234 V, q_v106 V]
theorem q_c_58 (V : Valuation Cert.ReferenceIdeal.τ Cert.ReferenceIdeal.sig (Elt Ideal)) : Cert.ReferenceIdeal.Rd.Z (F := Ideal) V Cert.ReferenceIdeal.main_c_58 = Cert.ReferenceIdeal.Rd.Z (F := Ideal) V Cert.ReferenceIdeal.main_c_6 := by
  rw [Cert.ReferenceIdeal.Rd.c_58 V, Cert.ReferenceIdeal.Rd.c_6 V]
theorem q_v236 (V : Valuation Cert.ReferenceIdeal.τ Cert.ReferenceIdeal.sig (Elt Ideal)) : Cert.ReferenceIdeal.Rd.Z (F := Ideal) V Cert.ReferenceIdeal.main_v236 = Cert.ReferenceIdeal.Rd.Z (F := Ideal) V Cert.ReferenceIdeal.main_v24 := by
  rw [Cert.ReferenceIdeal.Rd.v236 V, Cert.ReferenceIdeal.Rd.v24 V, q_c_58 V]
theorem q_v237 (V : Valuation Cert.ReferenceIdeal.τ Cert.ReferenceIdeal.sig (Elt Ideal)) : Cert.ReferenceIdeal.Rd.Z (F := Ideal) V Cert.ReferenceIdeal.main_v237 = Cert.ReferenceIdeal.Rd.Z (F := Ideal) V Cert.ReferenceIdeal.main_v109 := by
  rw [Cert.ReferenceIdeal.Rd.v237 V, Cert.ReferenceIdeal.Rd.v109 V, q_v214 V, q_v236 V, q_v108 V]
theorem q_v238 (V : Valuation Cert.ReferenceIdeal.τ Cert.ReferenceIdeal.sig (Elt Ideal)) : Cert.ReferenceIdeal.Rd.Z (F := Ideal) V Cert.ReferenceIdeal.main_v238 = Cert.ReferenceIdeal.Rd.Z (F := Ideal) V Cert.ReferenceIdeal.main_v110 := by
  rw [Cert.ReferenceIdeal.Rd.v238 V, Cert.ReferenceIdeal.Rd.v110 V, q_v235 V, q_v237 V, q_v214 V]
theorem q_v239 (V : Valuation Cert.ReferenceIdeal.τ Cert.ReferenceIdeal.sig (Elt Ideal)) : Cert.ReferenceIdeal.Rd.Z (F := Ideal) V Cert.ReferenceIdeal.main_v239 = Cert.ReferenceIdeal.Rd.Z (F := Ideal) V Cert.ReferenceIdeal.main_v111 := by
  rw [Cert.ReferenceIdeal.Rd.v239 V, Cert.ReferenceIdeal.Rd.v111 V, q_v238 V]
theorem q_cst_59 (V : Valuation Cert.ReferenceIdeal.τ Cert.ReferenceIdeal.sig (Elt Ideal)) : Cert.ReferenceIdeal.Rd.Z (F := Ideal) V Cert.ReferenceIdeal.main_cst_59 = Cert.ReferenceIdeal.Rd.Z (F := Ideal) V Cert.ReferenceIdeal.main_cst := by
  rw [Cert.ReferenceIdeal.Rd.cst_59 V, Cert.ReferenceIdeal.Rd.cst V]
theorem q_v241 (V : Valuation Cert.ReferenceIdeal.τ Cert.ReferenceIdeal.sig (Elt Ideal)) : Cert.ReferenceIdeal.Rd.Z (F := Ideal) V Cert.ReferenceIdeal.main_v241 = Cert.ReferenceIdeal.Rd.Z (F := Ideal) V Cert.ReferenceIdeal.main_v0 := by
  rw [Cert.ReferenceIdeal.Rd.v241 V, Cert.ReferenceIdeal.Rd.v0 V, q_cst_59 V]
theorem q_v242 (V : Valuation Cert.ReferenceIdeal.τ Cert.ReferenceIdeal.sig (Elt Ideal)) : Cert.ReferenceIdeal.Rd.Z (F := Ideal) V Cert.ReferenceIdeal.main_v242 = Cert.ReferenceIdeal.Rd.Z (F := Ideal) V Cert.ReferenceIdeal.main_v95 := by
  rw [Cert.ReferenceIdeal.Rd.v242 V, Cert.ReferenceIdeal.Rd.v95 V, q_v216 V]
theorem q_cst_60 (V : Valuation Cert.ReferenceIdeal.τ Cert.ReferenceIdeal.sig (Elt Ideal)) : Cert.ReferenceIdeal.Rd.Z (F := Ideal) V Cert.ReferenceIdeal.main_cst_60 = Cert.ReferenceIdeal.Rd.Z (F := Ideal) V Cert.ReferenceIdeal.main_cst_5 := by
  rw [Cert.ReferenceIdeal.Rd.cst_60 V, Cert.ReferenceIdeal.Rd.cst_5 V]
theorem q_v244 (V : Valuation Cert.ReferenceIdeal.τ Cert.ReferenceIdeal.sig (Elt Ideal)) : Cert.ReferenceIdeal.Rd.Z (F := Ideal) V Cert.ReferenceIdeal.main_v244 = Cert.ReferenceIdeal.Rd.Z (F := Ideal) V Cert.ReferenceIdeal.main_v14 := by
  rw [Cert.ReferenceIdeal.Rd.v244 V, Cert.ReferenceIdeal.Rd.v14 V, q_cst_60 V]
theorem q_v245 (V : Valuation Cert.ReferenceIdeal.τ Cert.ReferenceIdeal.sig (Elt Ideal)) : Cert.ReferenceIdeal.Rd.Z (F := Ideal) V Cert.ReferenceIdeal.main_v245 = Cert.ReferenceIdeal.Rd.Z (F := Ideal) V Cert.ReferenceIdeal.main_v117 := by
  rw [Cert.ReferenceIdeal.Rd.v245 V, Cert.ReferenceIdeal.Rd.v117 V, q_v225 V, q_v244 V, q_v116 V]
theorem q_v246 (V : Valuation Cert.ReferenceIdeal.τ Cert.ReferenceIdeal.sig (Elt Ideal)) : Cert.ReferenceIdeal.Rd.Z (F := Ideal) V Cert.ReferenceIdeal.main_v246 = Cert.ReferenceIdeal.Rd.Z (F := Ideal) V Cert.ReferenceIdeal.main_v118 := by
  rw [Cert.ReferenceIdeal.Rd.v246 V, Cert.ReferenceIdeal.Rd.v118 V, q_v245 V]
theorem q_v247 (V : Valuation Cert.ReferenceIdeal.τ Cert.ReferenceIdeal.sig (Elt Ideal)) : Cert.ReferenceIdeal.Rd.Z (F := Ideal) V Cert.ReferenceIdeal.main_v247 = Cert.ReferenceIdeal.Rd.Z (F := Ideal) V Cert.ReferenceIdeal.main_v119 := by
  rw [Cert.ReferenceIdeal.Rd.v247 V, Cert.ReferenceIdeal.Rd.v119 V, q_v246 V]

end Cert.Bridge

end
-- ==== Proof.Pairs0.lean ====
/-
  Buffers of the two idealized programs that hold the same values: a buffer of the kernel program's host stretches and the buffer of
  the reference computed by the same operation from operands already known to agree (the arguments agree by hypothesis; the regions'
  output arrays and their counterparts are hypotheses here and are proved separately).  Part 0.
-/
import proofs.«124848_j55800215109809_1_alg».proof.Proof.PairBase
import proofs.«124848_j55800215109809_1_alg».proof.Proof.RefDup

set_option maxRecDepth 16384

noncomputable section

namespace Cert.Bridge

open Idealize.ShloMosaic Idealize.ShloMosaic.TcCoe Idealize.SL.Sem Idealize.ShloMosaic.StableHlo Cert.KernelIdeal.Gen

variable (m : (ℓ : Loc Cert.KernelIdeal.nD Cert.KernelIdeal.τ Cert.KernelIdeal.sig) → Buf (Elt Ideal) ℓ) (ρ : Dev Cert.KernelIdeal.nD → PrngReg)

theorem p_v0 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v0) = Cert.ReferenceIdeal.Rd.Z (F := Ideal) V Cert.ReferenceIdeal.main_v1 := by
  rw [Cert.KernelIdeal.Rd.v0 m ρ c, Cert.ReferenceIdeal.Rd.v1 V, hA.a1]
theorem p_v1 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v1) = Cert.ReferenceIdeal.Rd.Z (F := Ideal) V Cert.ReferenceIdeal.main_v2 := by
  rw [Cert.KernelIdeal.Rd.v1 m ρ c, Cert.ReferenceIdeal.Rd.v2 V, p_v0 m ρ c V hA]
theorem p_v2 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v2) = Cert.ReferenceIdeal.Rd.Z (F := Ideal) V Cert.ReferenceIdeal.main_v3 := by
  rw [Cert.KernelIdeal.Rd.v2 m ρ c, Cert.ReferenceIdeal.Rd.v3 V, hA.a2]
theorem p_v3 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v3) = Cert.ReferenceIdeal.Rd.Z (F := Ideal) V Cert.ReferenceIdeal.main_v4 := by
  rw [Cert.KernelIdeal.Rd.v3 m ρ c, Cert.ReferenceIdeal.Rd.v4 V, p_v2 m ρ c V hA]
theorem p_cst (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_cst) = Cert.ReferenceIdeal.Rd.Z (F := Ideal) V Cert.ReferenceIdeal.main_cst_0 := by
  rw [Cert.KernelIdeal.Rd.cst m ρ c, Cert.ReferenceIdeal.Rd.cst_0 V]
theorem p_v4 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v4) = Cert.ReferenceIdeal.Rd.Z (F := Ideal) V Cert.ReferenceIdeal.main_v5 := by
  rw [Cert.KernelIdeal.Rd.v4 m ρ c, Cert.ReferenceIdeal.Rd.v5 V, p_cst m ρ c V hA]
theorem p_cst_0 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_cst_0) = Cert.ReferenceIdeal.Rd.Z (F := Ideal) V Cert.ReferenceIdeal.main_cst := by
  rw [Cert.KernelIdeal.Rd.cst_0 m ρ c, Cert.ReferenceIdeal.Rd.cst V]
theorem p_v5 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v5) = Cert.ReferenceIdeal.Rd.Z (F := Ideal) V Cert.ReferenceIdeal.main_v6 := by
  rw [Cert.KernelIdeal.Rd.v5 m ρ c, Cert.ReferenceIdeal.Rd.v6 V, p_cst_0 m ρ c V hA, q_cst_1 V]
theorem p_v6 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v6) = Cert.ReferenceIdeal.Rd.Z (F := Ideal) V Cert.ReferenceIdeal.main_v7 := by
  rw [Cert.KernelIdeal.Rd.v6 m ρ c, Cert.ReferenceIdeal.Rd.v7 V, p_v1 m ρ c V hA]
theorem p_v7 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v7) = Cert.ReferenceIdeal.Rd.Z (F := Ideal) V Cert.ReferenceIdeal.main_v8 := by
  rw [Cert.KernelIdeal.Rd.v7 m ρ c, Cert.ReferenceIdeal.Rd.v8 V, p_v5 m ρ c V hA, p_v6 m ρ c V hA, p_v4 m ρ c V hA, scatter1_eq]
theorem p_cst_1 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_cst_1) = Cert.ReferenceIdeal.Rd.Z (F := Ideal) V Cert.ReferenceIdeal.main_cst_0 := by
  rw [Cert.KernelIdeal.Rd.cst_1 m ρ c, Cert.ReferenceIdeal.Rd.cst_0 V]
theorem p_call0_v0 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_call0_v0) = Cert.ReferenceIdeal.Rd.Z (F := Ideal) V Cert.ReferenceIdeal.main_cst_0 := by
  rw [Cert.KernelIdeal.Rd.call0_v0 m ρ c]
  exact p_cst_1 m ρ c V hA
theorem p_call0_v1 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_call0_v1) = Cert.ReferenceIdeal.Rd.Z (F := Ideal) V Cert.ReferenceIdeal.main_call0_v1 := by
  rw [Cert.KernelIdeal.Rd.call0_v1 m ρ c, Cert.ReferenceIdeal.Rd.call0_v1 V, p_call0_v0 m ρ c V hA, q_call0_v0 V]
theorem p_v8 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v8) = Cert.ReferenceIdeal.Rd.Z (F := Ideal) V Cert.ReferenceIdeal.main_v9 := by
  rw [Cert.KernelIdeal.Rd.v8 m ρ c, Cert.ReferenceIdeal.Rd.v9 V, p_call0_v1 m ρ c V hA, p_v7 m ρ c V hA]
theorem p_cst_2 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_cst_2) = Cert.ReferenceIdeal.Rd.Z (F := Ideal) V Cert.ReferenceIdeal.main_cst := by
  rw [Cert.KernelIdeal.Rd.cst_2 m ρ c, Cert.ReferenceIdeal.Rd.cst V]
theorem p_v9 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v9) = Cert.ReferenceIdeal.Rd.Z (F := Ideal) V Cert.ReferenceIdeal.main_v6 := by
  rw [Cert.KernelIdeal.Rd.v9 m ρ c, Cert.ReferenceIdeal.Rd.v6 V, p_cst_2 m ρ c V hA, q_cst_1 V]
theorem p_v10 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v10) = Cert.ReferenceIdeal.Rd.Z (F := Ideal) V Cert.ReferenceIdeal.main_v11 := by
  rw [Cert.KernelIdeal.Rd.v10 m ρ c, Cert.ReferenceIdeal.Rd.v11 V, p_v3 m ρ c V hA]
theorem p_v11 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v11) = Cert.ReferenceIdeal.Rd.Z (F := Ideal) V Cert.ReferenceIdeal.main_v12 := by
  rw [Cert.KernelIdeal.Rd.v11 m ρ c, Cert.ReferenceIdeal.Rd.v12 V, p_v9 m ρ c V hA, p_v10 m ρ c V hA, p_v4 m ρ c V hA, q_v10 V, scatter1_eq]
theorem p_cst_3 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_cst_3) = Cert.ReferenceIdeal.Rd.Z (F := Ideal) V Cert.ReferenceIdeal.main_cst_0 := by
  rw [Cert.KernelIdeal.Rd.cst_3 m ρ c, Cert.ReferenceIdeal.Rd.cst_0 V]
theorem p_call1_v0 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_call1_v0) = Cert.ReferenceIdeal.Rd.Z (F := Ideal) V Cert.ReferenceIdeal.main_cst_0 := by
  rw [Cert.KernelIdeal.Rd.call1_v0 m ρ c]
  exact p_cst_3 m ρ c V hA
theorem p_call1_v1 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_call1_v1) = Cert.ReferenceIdeal.Rd.Z (F := Ideal) V Cert.ReferenceIdeal.main_call0_v1 := by
  rw [Cert.KernelIdeal.Rd.call1_v1 m ρ c, Cert.ReferenceIdeal.Rd.call0_v1 V, p_call1_v0 m ρ c V hA, q_call0_v0 V]
theorem p_v12 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v12) = Cert.ReferenceIdeal.Rd.Z (F := Ideal) V Cert.ReferenceIdeal.main_v13 := by
  rw [Cert.KernelIdeal.Rd.v12 m ρ c, Cert.ReferenceIdeal.Rd.v13 V, p_call1_v1 m ρ c V hA, p_v11 m ρ c V hA, q_call1_v1 V]
theorem p_cst_4 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_cst_4) = Cert.ReferenceIdeal.Rd.Z (F := Ideal) V Cert.ReferenceIdeal.main_cst_5 := by
  rw [Cert.KernelIdeal.Rd.cst_4 m ρ c, Cert.ReferenceIdeal.Rd.cst_5 V]
theorem p_v13 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v13) = Cert.ReferenceIdeal.Rd.Z (F := Ideal) V Cert.ReferenceIdeal.main_v14 := by
  rw [Cert.KernelIdeal.Rd.v13 m ρ c, Cert.ReferenceIdeal.Rd.v14 V, p_cst_4 m ρ c V hA]
theorem p_v14 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v14) = Cert.ReferenceIdeal.Rd.Z (F := Ideal) V Cert.ReferenceIdeal.main_v15 := by
  rw [Cert.KernelIdeal.Rd.v14 m ρ c, Cert.ReferenceIdeal.Rd.v15 V, p_v8 m ρ c V hA, p_v13 m ρ c V hA]
theorem p_cst_5 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_cst_5) = Cert.ReferenceIdeal.Rd.Z (F := Ideal) V Cert.ReferenceIdeal.main_cst_5 := by
  rw [Cert.KernelIdeal.Rd.cst_5 m ρ c, Cert.ReferenceIdeal.Rd.cst_5 V]
theorem p_v15 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v15) = Cert.ReferenceIdeal.Rd.Z (F := Ideal) V Cert.ReferenceIdeal.main_v14 := by
  rw [Cert.KernelIdeal.Rd.v15 m ρ c, Cert.ReferenceIdeal.Rd.v14 V, p_cst_5 m ρ c V hA]
theorem p_v16 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v16) = Cert.ReferenceIdeal.Rd.Z (F := Ideal) V Cert.ReferenceIdeal.main_v33 := by
  rw [Cert.KernelIdeal.Rd.v16 m ρ c, Cert.ReferenceIdeal.Rd.v33 V, p_v12 m ρ c V hA, p_v15 m ρ c V hA, q_v32 V]
theorem p_v17 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v17) = Cert.ReferenceIdeal.Rd.Z (F := Ideal) V Cert.ReferenceIdeal.main_v19 := by
  rw [Cert.KernelIdeal.Rd.v17 m ρ c, Cert.ReferenceIdeal.Rd.v19 V, hA.a3]
theorem p_v18 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v18) = Cert.ReferenceIdeal.Rd.Z (F := Ideal) V Cert.ReferenceIdeal.main_v20 := by
  rw [Cert.KernelIdeal.Rd.v18 m ρ c, Cert.ReferenceIdeal.Rd.v20 V, p_v17 m ρ c V hA]
theorem p_c (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_c) = Cert.ReferenceIdeal.Rd.Z (F := Ideal) V Cert.ReferenceIdeal.main_c := by
  rw [Cert.KernelIdeal.Rd.c m ρ c, Cert.ReferenceIdeal.Rd.c V]
theorem p_v21 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v21) = Cert.ReferenceIdeal.Rd.Z (F := Ideal) V Cert.ReferenceIdeal.main_v22 := by
  rw [Cert.KernelIdeal.Rd.v21 m ρ c, Cert.ReferenceIdeal.Rd.v22 V, p_c m ρ c V hA]
theorem p_v22 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v22) = Cert.ReferenceIdeal.Rd.Z (F := Ideal) V Cert.ReferenceIdeal.main_v23 := by
  rw [Cert.KernelIdeal.Rd.v22 m ρ c, Cert.ReferenceIdeal.Rd.v23 V, p_v1 m ρ c V hA, p_v21 m ρ c V hA]
theorem p_c_6 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_c_6) = Cert.ReferenceIdeal.Rd.Z (F := Ideal) V Cert.ReferenceIdeal.main_c_6 := by
  rw [Cert.KernelIdeal.Rd.c_6 m ρ c, Cert.ReferenceIdeal.Rd.c_6 V]
theorem p_v23 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v23) = Cert.ReferenceIdeal.Rd.Z (F := Ideal) V Cert.ReferenceIdeal.main_v24 := by
  rw [Cert.KernelIdeal.Rd.v23 m ρ c, Cert.ReferenceIdeal.Rd.v24 V, p_c_6 m ρ c V hA]
theorem p_v24 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v24) = Cert.ReferenceIdeal.Rd.Z (F := Ideal) V Cert.ReferenceIdeal.main_v25 := by
  rw [Cert.KernelIdeal.Rd.v24 m ρ c, Cert.ReferenceIdeal.Rd.v25 V, p_v1 m ρ c V hA, p_v23 m ρ c V hA]
theorem p_v25 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v25) = Cert.ReferenceIdeal.Rd.Z (F := Ideal) V Cert.ReferenceIdeal.main_v26 := by
  rw [Cert.KernelIdeal.Rd.v25 m ρ c, Cert.ReferenceIdeal.Rd.v26 V, p_v22 m ρ c V hA, p_v24 m ρ c V hA, p_v1 m ρ c V hA]
theorem p_v26 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v26) = Cert.ReferenceIdeal.Rd.Z (F := Ideal) V Cert.ReferenceIdeal.main_v27 := by
  rw [Cert.KernelIdeal.Rd.v26 m ρ c, Cert.ReferenceIdeal.Rd.v27 V, p_v25 m ρ c V hA]
theorem p_cst_7 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_cst_7) = Cert.ReferenceIdeal.Rd.Z (F := Ideal) V Cert.ReferenceIdeal.main_cst := by
  rw [Cert.KernelIdeal.Rd.cst_7 m ρ c, Cert.ReferenceIdeal.Rd.cst V]
theorem p_v28 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v28) = Cert.ReferenceIdeal.Rd.Z (F := Ideal) V Cert.ReferenceIdeal.main_v0 := by
  rw [Cert.KernelIdeal.Rd.v28 m ρ c, Cert.ReferenceIdeal.Rd.v0 V, p_cst_7 m ρ c V hA]
theorem p_v29 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v29) = Cert.ReferenceIdeal.Rd.Z (F := Ideal) V Cert.ReferenceIdeal.main_v11 := by
  rw [Cert.KernelIdeal.Rd.v29 m ρ c, Cert.ReferenceIdeal.Rd.v11 V, p_v3 m ρ c V hA]
theorem p_v31 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v31) = Cert.ReferenceIdeal.Rd.Z (F := Ideal) V Cert.ReferenceIdeal.main_v43 := by
  rw [Cert.KernelIdeal.Rd.v31 m ρ c, Cert.ReferenceIdeal.Rd.v43 V, hA.a1]
theorem p_v32 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v32) = Cert.ReferenceIdeal.Rd.Z (F := Ideal) V Cert.ReferenceIdeal.main_v44 := by
  rw [Cert.KernelIdeal.Rd.v32 m ρ c, Cert.ReferenceIdeal.Rd.v44 V, p_v31 m ρ c V hA]
theorem p_v33 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v33) = Cert.ReferenceIdeal.Rd.Z (F := Ideal) V Cert.ReferenceIdeal.main_v45 := by
  rw [Cert.KernelIdeal.Rd.v33 m ρ c, Cert.ReferenceIdeal.Rd.v45 V, hA.a2]
theorem p_v34 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v34) = Cert.ReferenceIdeal.Rd.Z (F := Ideal) V Cert.ReferenceIdeal.main_v46 := by
  rw [Cert.KernelIdeal.Rd.v34 m ρ c, Cert.ReferenceIdeal.Rd.v46 V, p_v33 m ρ c V hA]
theorem p_cst_8 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_cst_8) = Cert.ReferenceIdeal.Rd.Z (F := Ideal) V Cert.ReferenceIdeal.main_cst_0 := by
  rw [Cert.KernelIdeal.Rd.cst_8 m ρ c, Cert.ReferenceIdeal.Rd.cst_0 V]
theorem p_v35 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v35) = Cert.ReferenceIdeal.Rd.Z (F := Ideal) V Cert.ReferenceIdeal.main_v5 := by
  rw [Cert.KernelIdeal.Rd.v35 m ρ c, Cert.ReferenceIdeal.Rd.v5 V, p_cst_8 m ρ c V hA]
theorem p_cst_9 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_cst_9) = Cert.ReferenceIdeal.Rd.Z (F := Ideal) V Cert.ReferenceIdeal.main_cst := by
  rw [Cert.KernelIdeal.Rd.cst_9 m ρ c, Cert.ReferenceIdeal.Rd.cst V]
theorem p_v36 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v36) = Cert.ReferenceIdeal.Rd.Z (F := Ideal) V Cert.ReferenceIdeal.main_v6 := by
  rw [Cert.KernelIdeal.Rd.v36 m ρ c, Cert.ReferenceIdeal.Rd.v6 V, p_cst_9 m ρ c V hA, q_cst_1 V]
theorem p_v37 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v37) = Cert.ReferenceIdeal.Rd.Z (F := Ideal) V Cert.ReferenceIdeal.main_v49 := by
  rw [Cert.KernelIdeal.Rd.v37 m ρ c, Cert.ReferenceIdeal.Rd.v49 V, p_v32 m ρ c V hA]
theorem p_v38 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v38) = Cert.ReferenceIdeal.Rd.Z (F := Ideal) V Cert.ReferenceIdeal.main_v50 := by
  rw [Cert.KernelIdeal.Rd.v38 m ρ c, Cert.ReferenceIdeal.Rd.v50 V, p_v36 m ρ c V hA, p_v37 m ρ c V hA, p_v35 m ρ c V hA, q_v48 V, q_v47 V, scatter1_eq]
theorem p_cst_10 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_cst_10) = Cert.ReferenceIdeal.Rd.Z (F := Ideal) V Cert.ReferenceIdeal.main_cst_0 := by
  rw [Cert.KernelIdeal.Rd.cst_10 m ρ c, Cert.ReferenceIdeal.Rd.cst_0 V]
theorem p_call2_v0 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_call2_v0) = Cert.ReferenceIdeal.Rd.Z (F := Ideal) V Cert.ReferenceIdeal.main_cst_0 := by
  rw [Cert.KernelIdeal.Rd.call2_v0 m ρ c]
  exact p_cst_10 m ρ c V hA
theorem p_call2_v1 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_call2_v1) = Cert.ReferenceIdeal.Rd.Z (F := Ideal) V Cert.ReferenceIdeal.main_call0_v1 := by
  rw [Cert.KernelIdeal.Rd.call2_v1 m ρ c, Cert.ReferenceIdeal.Rd.call0_v1 V, p_call2_v0 m ρ c V hA, q_call0_v0 V]
theorem p_v39 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v39) = Cert.ReferenceIdeal.Rd.Z (F := Ideal) V Cert.ReferenceIdeal.main_v51 := by
  rw [Cert.KernelIdeal.Rd.v39 m ρ c, Cert.ReferenceIdeal.Rd.v51 V, p_call2_v1 m ρ c V hA, p_v38 m ρ c V hA, q_call2_v1 V]
theorem p_cst_11 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_cst_11) = Cert.ReferenceIdeal.Rd.Z (F := Ideal) V Cert.ReferenceIdeal.main_cst := by
  rw [Cert.KernelIdeal.Rd.cst_11 m ρ c, Cert.ReferenceIdeal.Rd.cst V]
theorem p_v40 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v40) = Cert.ReferenceIdeal.Rd.Z (F := Ideal) V Cert.ReferenceIdeal.main_v6 := by
  rw [Cert.KernelIdeal.Rd.v40 m ρ c, Cert.ReferenceIdeal.Rd.v6 V, p_cst_11 m ρ c V hA, q_cst_1 V]
theorem p_v41 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v41) = Cert.ReferenceIdeal.Rd.Z (F := Ideal) V Cert.ReferenceIdeal.main_v53 := by
  rw [Cert.KernelIdeal.Rd.v41 m ρ c, Cert.ReferenceIdeal.Rd.v53 V, p_v34 m ρ c V hA]
theorem p_v42 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v42) = Cert.ReferenceIdeal.Rd.Z (F := Ideal) V Cert.ReferenceIdeal.main_v54 := by
  rw [Cert.KernelIdeal.Rd.v42 m ρ c, Cert.ReferenceIdeal.Rd.v54 V, p_v40 m ρ c V hA, p_v41 m ρ c V hA, p_v35 m ρ c V hA, q_v52 V, q_v47 V, scatter1_eq]
theorem p_cst_12 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_cst_12) = Cert.ReferenceIdeal.Rd.Z (F := Ideal) V Cert.ReferenceIdeal.main_cst_0 := by
  rw [Cert.KernelIdeal.Rd.cst_12 m ρ c, Cert.ReferenceIdeal.Rd.cst_0 V]
theorem p_call3_v0 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_call3_v0) = Cert.ReferenceIdeal.Rd.Z (F := Ideal) V Cert.ReferenceIdeal.main_cst_0 := by
  rw [Cert.KernelIdeal.Rd.call3_v0 m ρ c]
  exact p_cst_12 m ρ c V hA
theorem p_call3_v1 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_call3_v1) = Cert.ReferenceIdeal.Rd.Z (F := Ideal) V Cert.ReferenceIdeal.main_call0_v1 := by
  rw [Cert.KernelIdeal.Rd.call3_v1 m ρ c, Cert.ReferenceIdeal.Rd.call0_v1 V, p_call3_v0 m ρ c V hA, q_call0_v0 V]
theorem p_v43 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v43) = Cert.ReferenceIdeal.Rd.Z (F := Ideal) V Cert.ReferenceIdeal.main_v55 := by
  rw [Cert.KernelIdeal.Rd.v43 m ρ c, Cert.ReferenceIdeal.Rd.v55 V, p_call3_v1 m ρ c V hA, p_v42 m ρ c V hA, q_call3_v1 V]
theorem p_cst_13 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_cst_13) = Cert.ReferenceIdeal.Rd.Z (F := Ideal) V Cert.ReferenceIdeal.main_cst_5 := by
  rw [Cert.KernelIdeal.Rd.cst_13 m ρ c, Cert.ReferenceIdeal.Rd.cst_5 V]
theorem p_v44 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v44) = Cert.ReferenceIdeal.Rd.Z (F := Ideal) V Cert.ReferenceIdeal.main_v14 := by
  rw [Cert.KernelIdeal.Rd.v44 m ρ c, Cert.ReferenceIdeal.Rd.v14 V, p_cst_13 m ρ c V hA]
theorem p_v45 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v45) = Cert.ReferenceIdeal.Rd.Z (F := Ideal) V Cert.ReferenceIdeal.main_v57 := by
  rw [Cert.KernelIdeal.Rd.v45 m ρ c, Cert.ReferenceIdeal.Rd.v57 V, p_v39 m ρ c V hA, p_v44 m ρ c V hA, q_v56 V]
theorem p_cst_14 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_cst_14) = Cert.ReferenceIdeal.Rd.Z (F := Ideal) V Cert.ReferenceIdeal.main_cst_5 := by
  rw [Cert.KernelIdeal.Rd.cst_14 m ρ c, Cert.ReferenceIdeal.Rd.cst_5 V]
theorem p_v46 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v46) = Cert.ReferenceIdeal.Rd.Z (F := Ideal) V Cert.ReferenceIdeal.main_v14 := by
  rw [Cert.KernelIdeal.Rd.v46 m ρ c, Cert.ReferenceIdeal.Rd.v14 V, p_cst_14 m ρ c V hA]
theorem p_v47 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v47) = Cert.ReferenceIdeal.Rd.Z (F := Ideal) V Cert.ReferenceIdeal.main_v75 := by
  rw [Cert.KernelIdeal.Rd.v47 m ρ c, Cert.ReferenceIdeal.Rd.v75 V, p_v43 m ρ c V hA, p_v46 m ρ c V hA, q_v74 V]
theorem p_v48 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v48) = Cert.ReferenceIdeal.Rd.Z (F := Ideal) V Cert.ReferenceIdeal.main_v61 := by
  rw [Cert.KernelIdeal.Rd.v48 m ρ c, Cert.ReferenceIdeal.Rd.v61 V, hA.a3]
theorem p_v49 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v49) = Cert.ReferenceIdeal.Rd.Z (F := Ideal) V Cert.ReferenceIdeal.main_v62 := by
  rw [Cert.KernelIdeal.Rd.v49 m ρ c, Cert.ReferenceIdeal.Rd.v62 V, p_v48 m ρ c V hA]
theorem p_c_15 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_c_15) = Cert.ReferenceIdeal.Rd.Z (F := Ideal) V Cert.ReferenceIdeal.main_c := by
  rw [Cert.KernelIdeal.Rd.c_15 m ρ c, Cert.ReferenceIdeal.Rd.c V]
theorem p_v52 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v52) = Cert.ReferenceIdeal.Rd.Z (F := Ideal) V Cert.ReferenceIdeal.main_v22 := by
  rw [Cert.KernelIdeal.Rd.v52 m ρ c, Cert.ReferenceIdeal.Rd.v22 V, p_c_15 m ρ c V hA]
theorem p_v53 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v53) = Cert.ReferenceIdeal.Rd.Z (F := Ideal) V Cert.ReferenceIdeal.main_v65 := by
  rw [Cert.KernelIdeal.Rd.v53 m ρ c, Cert.ReferenceIdeal.Rd.v65 V, p_v32 m ρ c V hA, p_v52 m ρ c V hA, q_v64 V]
theorem p_c_16 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_c_16) = Cert.ReferenceIdeal.Rd.Z (F := Ideal) V Cert.ReferenceIdeal.main_c_6 := by
  rw [Cert.KernelIdeal.Rd.c_16 m ρ c, Cert.ReferenceIdeal.Rd.c_6 V]
theorem p_v54 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v54) = Cert.ReferenceIdeal.Rd.Z (F := Ideal) V Cert.ReferenceIdeal.main_v24 := by
  rw [Cert.KernelIdeal.Rd.v54 m ρ c, Cert.ReferenceIdeal.Rd.v24 V, p_c_16 m ρ c V hA]
theorem p_v55 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v55) = Cert.ReferenceIdeal.Rd.Z (F := Ideal) V Cert.ReferenceIdeal.main_v67 := by
  rw [Cert.KernelIdeal.Rd.v55 m ρ c, Cert.ReferenceIdeal.Rd.v67 V, p_v32 m ρ c V hA, p_v54 m ρ c V hA, q_v66 V]
theorem p_v56 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v56) = Cert.ReferenceIdeal.Rd.Z (F := Ideal) V Cert.ReferenceIdeal.main_v68 := by
  rw [Cert.KernelIdeal.Rd.v56 m ρ c, Cert.ReferenceIdeal.Rd.v68 V, p_v53 m ρ c V hA, p_v55 m ρ c V hA, p_v32 m ρ c V hA]
theorem p_v57 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v57) = Cert.ReferenceIdeal.Rd.Z (F := Ideal) V Cert.ReferenceIdeal.main_v69 := by
  rw [Cert.KernelIdeal.Rd.v57 m ρ c, Cert.ReferenceIdeal.Rd.v69 V, p_v56 m ρ c V hA]
theorem p_cst_17 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_cst_17) = Cert.ReferenceIdeal.Rd.Z (F := Ideal) V Cert.ReferenceIdeal.main_cst := by
  rw [Cert.KernelIdeal.Rd.cst_17 m ρ c, Cert.ReferenceIdeal.Rd.cst V]
theorem p_v59 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v59) = Cert.ReferenceIdeal.Rd.Z (F := Ideal) V Cert.ReferenceIdeal.main_v0 := by
  rw [Cert.KernelIdeal.Rd.v59 m ρ c, Cert.ReferenceIdeal.Rd.v0 V, p_cst_17 m ρ c V hA]
theorem p_v60 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v60) = Cert.ReferenceIdeal.Rd.Z (F := Ideal) V Cert.ReferenceIdeal.main_v53 := by
  rw [Cert.KernelIdeal.Rd.v60 m ρ c, Cert.ReferenceIdeal.Rd.v53 V, p_v34 m ρ c V hA]
theorem p_v62 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v62) = Cert.ReferenceIdeal.Rd.Z (F := Ideal) V Cert.ReferenceIdeal.main_v85 := by
  rw [Cert.KernelIdeal.Rd.v62 m ρ c, Cert.ReferenceIdeal.Rd.v85 V, hA.a1]
theorem p_v63 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v63) = Cert.ReferenceIdeal.Rd.Z (F := Ideal) V Cert.ReferenceIdeal.main_v86 := by
  rw [Cert.KernelIdeal.Rd.v63 m ρ c, Cert.ReferenceIdeal.Rd.v86 V, p_v62 m ρ c V hA]
theorem p_v64 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v64) = Cert.ReferenceIdeal.Rd.Z (F := Ideal) V Cert.ReferenceIdeal.main_v87 := by
  rw [Cert.KernelIdeal.Rd.v64 m ρ c, Cert.ReferenceIdeal.Rd.v87 V, hA.a2]
theorem p_v65 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v65) = Cert.ReferenceIdeal.Rd.Z (F := Ideal) V Cert.ReferenceIdeal.main_v88 := by
  rw [Cert.KernelIdeal.Rd.v65 m ρ c, Cert.ReferenceIdeal.Rd.v88 V, p_v64 m ρ c V hA]
theorem p_cst_18 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_cst_18) = Cert.ReferenceIdeal.Rd.Z (F := Ideal) V Cert.ReferenceIdeal.main_cst_0 := by
  rw [Cert.KernelIdeal.Rd.cst_18 m ρ c, Cert.ReferenceIdeal.Rd.cst_0 V]
theorem p_v66 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v66) = Cert.ReferenceIdeal.Rd.Z (F := Ideal) V Cert.ReferenceIdeal.main_v5 := by
  rw [Cert.KernelIdeal.Rd.v66 m ρ c, Cert.ReferenceIdeal.Rd.v5 V, p_cst_18 m ρ c V hA]
theorem p_cst_19 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_cst_19) = Cert.ReferenceIdeal.Rd.Z (F := Ideal) V Cert.ReferenceIdeal.main_cst := by
  rw [Cert.KernelIdeal.Rd.cst_19 m ρ c, Cert.ReferenceIdeal.Rd.cst V]
theorem p_v67 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v67) = Cert.ReferenceIdeal.Rd.Z (F := Ideal) V Cert.ReferenceIdeal.main_v6 := by
  rw [Cert.KernelIdeal.Rd.v67 m ρ c, Cert.ReferenceIdeal.Rd.v6 V, p_cst_19 m ρ c V hA, q_cst_1 V]
theorem p_v68 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v68) = Cert.ReferenceIdeal.Rd.Z (F := Ideal) V Cert.ReferenceIdeal.main_v91 := by
  rw [Cert.KernelIdeal.Rd.v68 m ρ c, Cert.ReferenceIdeal.Rd.v91 V, p_v63 m ρ c V hA]
theorem p_v69 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v69) = Cert.ReferenceIdeal.Rd.Z (F := Ideal) V Cert.ReferenceIdeal.main_v92 := by
  rw [Cert.KernelIdeal.Rd.v69 m ρ c, Cert.ReferenceIdeal.Rd.v92 V, p_v67 m ρ c V hA, p_v68 m ρ c V hA, p_v66 m ρ c V hA, q_v90 V, q_v89 V, scatter1_eq]
theorem p_cst_20 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_cst_20) = Cert.ReferenceIdeal.Rd.Z (F := Ideal) V Cert.ReferenceIdeal.main_cst_0 := by
  rw [Cert.KernelIdeal.Rd.cst_20 m ρ c, Cert.ReferenceIdeal.Rd.cst_0 V]
theorem p_call4_v0 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_call4_v0) = Cert.ReferenceIdeal.Rd.Z (F := Ideal) V Cert.ReferenceIdeal.main_cst_0 := by
  rw [Cert.KernelIdeal.Rd.call4_v0 m ρ c]
  exact p_cst_20 m ρ c V hA
theorem p_call4_v1 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_call4_v1) = Cert.ReferenceIdeal.Rd.Z (F := Ideal) V Cert.ReferenceIdeal.main_call0_v1 := by
  rw [Cert.KernelIdeal.Rd.call4_v1 m ρ c, Cert.ReferenceIdeal.Rd.call0_v1 V, p_call4_v0 m ρ c V hA, q_call0_v0 V]
theorem p_v70 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v70) = Cert.ReferenceIdeal.Rd.Z (F := Ideal) V Cert.ReferenceIdeal.main_v93 := by
  rw [Cert.KernelIdeal.Rd.v70 m ρ c, Cert.ReferenceIdeal.Rd.v93 V, p_call4_v1 m ρ c V hA, p_v69 m ρ c V hA, q_call4_v1 V]
theorem p_cst_21 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_cst_21) = Cert.ReferenceIdeal.Rd.Z (F := Ideal) V Cert.ReferenceIdeal.main_cst := by
  rw [Cert.KernelIdeal.Rd.cst_21 m ρ c, Cert.ReferenceIdeal.Rd.cst V]
theorem p_v71 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v71) = Cert.ReferenceIdeal.Rd.Z (F := Ideal) V Cert.ReferenceIdeal.main_v6 := by
  rw [Cert.KernelIdeal.Rd.v71 m ρ c, Cert.ReferenceIdeal.Rd.v6 V, p_cst_21 m ρ c V hA, q_cst_1 V]
theorem p_v72 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v72) = Cert.ReferenceIdeal.Rd.Z (F := Ideal) V Cert.ReferenceIdeal.main_v95 := by
  rw [Cert.KernelIdeal.Rd.v72 m ρ c, Cert.ReferenceIdeal.Rd.v95 V, p_v65 m ρ c V hA]
theorem p_v73 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v73) = Cert.ReferenceIdeal.Rd.Z (F := Ideal) V Cert.ReferenceIdeal.main_v96 := by
  rw [Cert.KernelIdeal.Rd.v73 m ρ c, Cert.ReferenceIdeal.Rd.v96 V, p_v71 m ρ c V hA, p_v72 m ρ c V hA, p_v66 m ρ c V hA, q_v94 V, q_v89 V, scatter1_eq]
theorem p_cst_22 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_cst_22) = Cert.ReferenceIdeal.Rd.Z (F := Ideal) V Cert.ReferenceIdeal.main_cst_0 := by
  rw [Cert.KernelIdeal.Rd.cst_22 m ρ c, Cert.ReferenceIdeal.Rd.cst_0 V]
theorem p_call5_v0 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_call5_v0) = Cert.ReferenceIdeal.Rd.Z (F := Ideal) V Cert.ReferenceIdeal.main_cst_0 := by
  rw [Cert.KernelIdeal.Rd.call5_v0 m ρ c]
  exact p_cst_22 m ρ c V hA
theorem p_call5_v1 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_call5_v1) = Cert.ReferenceIdeal.Rd.Z (F := Ideal) V Cert.ReferenceIdeal.main_call0_v1 := by
  rw [Cert.KernelIdeal.Rd.call5_v1 m ρ c, Cert.ReferenceIdeal.Rd.call0_v1 V, p_call5_v0 m ρ c V hA, q_call0_v0 V]
theorem p_v74 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v74) = Cert.ReferenceIdeal.Rd.Z (F := Ideal) V Cert.ReferenceIdeal.main_v97 := by
  rw [Cert.KernelIdeal.Rd.v74 m ρ c, Cert.ReferenceIdeal.Rd.v97 V, p_call5_v1 m ρ c V hA, p_v73 m ρ c V hA, q_call5_v1 V]
theorem p_cst_23 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_cst_23) = Cert.ReferenceIdeal.Rd.Z (F := Ideal) V Cert.ReferenceIdeal.main_cst_5 := by
  rw [Cert.KernelIdeal.Rd.cst_23 m ρ c, Cert.ReferenceIdeal.Rd.cst_5 V]
theorem p_v75 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v75) = Cert.ReferenceIdeal.Rd.Z (F := Ideal) V Cert.ReferenceIdeal.main_v14 := by
  rw [Cert.KernelIdeal.Rd.v75 m ρ c, Cert.ReferenceIdeal.Rd.v14 V, p_cst_23 m ρ c V hA]
theorem p_v76 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v76) = Cert.ReferenceIdeal.Rd.Z (F := Ideal) V Cert.ReferenceIdeal.main_v99 := by
  rw [Cert.KernelIdeal.Rd.v76 m ρ c, Cert.ReferenceIdeal.Rd.v99 V, p_v70 m ρ c V hA, p_v75 m ρ c V hA, q_v98 V]
theorem p_cst_24 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_cst_24) = Cert.ReferenceIdeal.Rd.Z (F := Ideal) V Cert.ReferenceIdeal.main_cst_5 := by
  rw [Cert.KernelIdeal.Rd.cst_24 m ρ c, Cert.ReferenceIdeal.Rd.cst_5 V]
theorem p_v77 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v77) = Cert.ReferenceIdeal.Rd.Z (F := Ideal) V Cert.ReferenceIdeal.main_v14 := by
  rw [Cert.KernelIdeal.Rd.v77 m ρ c, Cert.ReferenceIdeal.Rd.v14 V, p_cst_24 m ρ c V hA]
theorem p_v78 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v78) = Cert.ReferenceIdeal.Rd.Z (F := Ideal) V Cert.ReferenceIdeal.main_v117 := by
  rw [Cert.KernelIdeal.Rd.v78 m ρ c, Cert.ReferenceIdeal.Rd.v117 V, p_v74 m ρ c V hA, p_v77 m ρ c V hA, q_v116 V]
theorem p_v79 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v79) = Cert.ReferenceIdeal.Rd.Z (F := Ideal) V Cert.ReferenceIdeal.main_v103 := by
  rw [Cert.KernelIdeal.Rd.v79 m ρ c, Cert.ReferenceIdeal.Rd.v103 V, hA.a3]
theorem p_v80 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v80) = Cert.ReferenceIdeal.Rd.Z (F := Ideal) V Cert.ReferenceIdeal.main_v104 := by
  rw [Cert.KernelIdeal.Rd.v80 m ρ c, Cert.ReferenceIdeal.Rd.v104 V, p_v79 m ρ c V hA]
theorem p_c_25 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_c_25) = Cert.ReferenceIdeal.Rd.Z (F := Ideal) V Cert.ReferenceIdeal.main_c := by
  rw [Cert.KernelIdeal.Rd.c_25 m ρ c, Cert.ReferenceIdeal.Rd.c V]
theorem p_v83 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v83) = Cert.ReferenceIdeal.Rd.Z (F := Ideal) V Cert.ReferenceIdeal.main_v22 := by
  rw [Cert.KernelIdeal.Rd.v83 m ρ c, Cert.ReferenceIdeal.Rd.v22 V, p_c_25 m ρ c V hA]
theorem p_v84 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v84) = Cert.ReferenceIdeal.Rd.Z (F := Ideal) V Cert.ReferenceIdeal.main_v107 := by
  rw [Cert.KernelIdeal.Rd.v84 m ρ c, Cert.ReferenceIdeal.Rd.v107 V, p_v63 m ρ c V hA, p_v83 m ρ c V hA, q_v106 V]
theorem p_c_26 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_c_26) = Cert.ReferenceIdeal.Rd.Z (F := Ideal) V Cert.ReferenceIdeal.main_c_6 := by
  rw [Cert.KernelIdeal.Rd.c_26 m ρ c, Cert.ReferenceIdeal.Rd.c_6 V]
theorem p_v85 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v85) = Cert.ReferenceIdeal.Rd.Z (F := Ideal) V Cert.ReferenceIdeal.main_v24 := by
  rw [Cert.KernelIdeal.Rd.v85 m ρ c, Cert.ReferenceIdeal.Rd.v24 V, p_c_26 m ρ c V hA]
theorem p_v86 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v86) = Cert.ReferenceIdeal.Rd.Z (F := Ideal) V Cert.ReferenceIdeal.main_v109 := by
  rw [Cert.KernelIdeal.Rd.v86 m ρ c, Cert.ReferenceIdeal.Rd.v109 V, p_v63 m ρ c V hA, p_v85 m ρ c V hA, q_v108 V]
theorem p_v87 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v87) = Cert.ReferenceIdeal.Rd.Z (F := Ideal) V Cert.ReferenceIdeal.main_v110 := by
  rw [Cert.KernelIdeal.Rd.v87 m ρ c, Cert.ReferenceIdeal.Rd.v110 V, p_v84 m ρ c V hA, p_v86 m ρ c V hA, p_v63 m ρ c V hA]
theorem p_v88 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v88) = Cert.ReferenceIdeal.Rd.Z (F := Ideal) V Cert.ReferenceIdeal.main_v111 := by
  rw [Cert.KernelIdeal.Rd.v88 m ρ c, Cert.ReferenceIdeal.Rd.v111 V, p_v87 m ρ c V hA]
theorem p_cst_27 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_cst_27) = Cert.ReferenceIdeal.Rd.Z (F := Ideal) V Cert.ReferenceIdeal.main_cst := by
  rw [Cert.KernelIdeal.Rd.cst_27 m ρ c, Cert.ReferenceIdeal.Rd.cst V]
theorem p_v90 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v90) = Cert.ReferenceIdeal.Rd.Z (F := Ideal) V Cert.ReferenceIdeal.main_v0 := by
  rw [Cert.KernelIdeal.Rd.v90 m ρ c, Cert.ReferenceIdeal.Rd.v0 V, p_cst_27 m ρ c V hA]
theorem p_v91 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v91) = Cert.ReferenceIdeal.Rd.Z (F := Ideal) V Cert.ReferenceIdeal.main_v95 := by
  rw [Cert.KernelIdeal.Rd.v91 m ρ c, Cert.ReferenceIdeal.Rd.v95 V, p_v65 m ρ c V hA]
theorem p_cst_28 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_cst_28) = Cert.ReferenceIdeal.Rd.Z (F := Ideal) V Cert.ReferenceIdeal.main_cst := by
  rw [Cert.KernelIdeal.Rd.cst_28 m ρ c, Cert.ReferenceIdeal.Rd.cst V]
theorem p_v99 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v99) = Cert.ReferenceIdeal.Rd.Z (F := Ideal) V Cert.ReferenceIdeal.main_v1 := by
  rw [Cert.KernelIdeal.Rd.v99 m ρ c, Cert.ReferenceIdeal.Rd.v1 V, hA.a1]
theorem p_v100 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v100) = Cert.ReferenceIdeal.Rd.Z (F := Ideal) V Cert.ReferenceIdeal.main_v2 := by
  rw [Cert.KernelIdeal.Rd.v100 m ρ c, Cert.ReferenceIdeal.Rd.v2 V, p_v99 m ρ c V hA]
theorem p_v101 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v101) = Cert.ReferenceIdeal.Rd.Z (F := Ideal) V Cert.ReferenceIdeal.main_v3 := by
  rw [Cert.KernelIdeal.Rd.v101 m ρ c, Cert.ReferenceIdeal.Rd.v3 V, hA.a2]
theorem p_v102 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v102) = Cert.ReferenceIdeal.Rd.Z (F := Ideal) V Cert.ReferenceIdeal.main_v4 := by
  rw [Cert.KernelIdeal.Rd.v102 m ρ c, Cert.ReferenceIdeal.Rd.v4 V, p_v101 m ρ c V hA]
theorem p_cst_29 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_cst_29) = Cert.ReferenceIdeal.Rd.Z (F := Ideal) V Cert.ReferenceIdeal.main_cst_0 := by
  rw [Cert.KernelIdeal.Rd.cst_29 m ρ c, Cert.ReferenceIdeal.Rd.cst_0 V]
theorem p_v103 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v103) = Cert.ReferenceIdeal.Rd.Z (F := Ideal) V Cert.ReferenceIdeal.main_v5 := by
  rw [Cert.KernelIdeal.Rd.v103 m ρ c, Cert.ReferenceIdeal.Rd.v5 V, p_cst_29 m ρ c V hA]
theorem p_cst_30 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_cst_30) = Cert.ReferenceIdeal.Rd.Z (F := Ideal) V Cert.ReferenceIdeal.main_cst := by
  rw [Cert.KernelIdeal.Rd.cst_30 m ρ c, Cert.ReferenceIdeal.Rd.cst V]
theorem p_v104 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v104) = Cert.ReferenceIdeal.Rd.Z (F := Ideal) V Cert.ReferenceIdeal.main_v6 := by
  rw [Cert.KernelIdeal.Rd.v104 m ρ c, Cert.ReferenceIdeal.Rd.v6 V, p_cst_30 m ρ c V hA, q_cst_1 V]
theorem p_v105 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v105) = Cert.ReferenceIdeal.Rd.Z (F := Ideal) V Cert.ReferenceIdeal.main_v7 := by
  rw [Cert.KernelIdeal.Rd.v105 m ρ c, Cert.ReferenceIdeal.Rd.v7 V, p_v100 m ρ c V hA]
theorem p_v106 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v106) = Cert.ReferenceIdeal.Rd.Z (F := Ideal) V Cert.ReferenceIdeal.main_v8 := by
  rw [Cert.KernelIdeal.Rd.v106 m ρ c, Cert.ReferenceIdeal.Rd.v8 V, p_v104 m ρ c V hA, p_v105 m ρ c V hA, p_v103 m ρ c V hA, scatter1_eq]
theorem p_cst_31 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_cst_31) = Cert.ReferenceIdeal.Rd.Z (F := Ideal) V Cert.ReferenceIdeal.main_cst_0 := by
  rw [Cert.KernelIdeal.Rd.cst_31 m ρ c, Cert.ReferenceIdeal.Rd.cst_0 V]
theorem p_call6_v0 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_call6_v0) = Cert.ReferenceIdeal.Rd.Z (F := Ideal) V Cert.ReferenceIdeal.main_cst_0 := by
  rw [Cert.KernelIdeal.Rd.call6_v0 m ρ c]
  exact p_cst_31 m ρ c V hA
theorem p_call6_v1 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_call6_v1) = Cert.ReferenceIdeal.Rd.Z (F := Ideal) V Cert.ReferenceIdeal.main_call0_v1 := by
  rw [Cert.KernelIdeal.Rd.call6_v1 m ρ c, Cert.ReferenceIdeal.Rd.call0_v1 V, p_call6_v0 m ρ c V hA, q_call0_v0 V]
theorem p_v107 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v107) = Cert.ReferenceIdeal.Rd.Z (F := Ideal) V Cert.ReferenceIdeal.main_v9 := by
  rw [Cert.KernelIdeal.Rd.v107 m ρ c, Cert.ReferenceIdeal.Rd.v9 V, p_call6_v1 m ρ c V hA, p_v106 m ρ c V hA]
theorem p_cst_32 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_cst_32) = Cert.ReferenceIdeal.Rd.Z (F := Ideal) V Cert.ReferenceIdeal.main_cst := by
  rw [Cert.KernelIdeal.Rd.cst_32 m ρ c, Cert.ReferenceIdeal.Rd.cst V]
theorem p_v108 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v108) = Cert.ReferenceIdeal.Rd.Z (F := Ideal) V Cert.ReferenceIdeal.main_v6 := by
  rw [Cert.KernelIdeal.Rd.v108 m ρ c, Cert.ReferenceIdeal.Rd.v6 V, p_cst_32 m ρ c V hA, q_cst_1 V]
theorem p_v109 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v109) = Cert.ReferenceIdeal.Rd.Z (F := Ideal) V Cert.ReferenceIdeal.main_v11 := by
  rw [Cert.KernelIdeal.Rd.v109 m ρ c, Cert.ReferenceIdeal.Rd.v11 V, p_v102 m ρ c V hA]
theorem p_v110 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v110) = Cert.ReferenceIdeal.Rd.Z (F := Ideal) V Cert.ReferenceIdeal.main_v12 := by
  rw [Cert.KernelIdeal.Rd.v110 m ρ c, Cert.ReferenceIdeal.Rd.v12 V, p_v108 m ρ c V hA, p_v109 m ρ c V hA, p_v103 m ρ c V hA, q_v10 V, scatter1_eq]
theorem p_cst_33 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_cst_33) = Cert.ReferenceIdeal.Rd.Z (F := Ideal) V Cert.ReferenceIdeal.main_cst_0 := by
  rw [Cert.KernelIdeal.Rd.cst_33 m ρ c, Cert.ReferenceIdeal.Rd.cst_0 V]
theorem p_call7_v0 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_call7_v0) = Cert.ReferenceIdeal.Rd.Z (F := Ideal) V Cert.ReferenceIdeal.main_cst_0 := by
  rw [Cert.KernelIdeal.Rd.call7_v0 m ρ c]
  exact p_cst_33 m ρ c V hA
theorem p_call7_v1 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_call7_v1) = Cert.ReferenceIdeal.Rd.Z (F := Ideal) V Cert.ReferenceIdeal.main_call0_v1 := by
  rw [Cert.KernelIdeal.Rd.call7_v1 m ρ c, Cert.ReferenceIdeal.Rd.call0_v1 V, p_call7_v0 m ρ c V hA, q_call0_v0 V]
theorem p_v111 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v111) = Cert.ReferenceIdeal.Rd.Z (F := Ideal) V Cert.ReferenceIdeal.main_v13 := by
  rw [Cert.KernelIdeal.Rd.v111 m ρ c, Cert.ReferenceIdeal.Rd.v13 V, p_call7_v1 m ρ c V hA, p_v110 m ρ c V hA, q_call1_v1 V]
theorem p_cst_34 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_cst_34) = Cert.ReferenceIdeal.Rd.Z (F := Ideal) V Cert.ReferenceIdeal.main_cst_5 := by
  rw [Cert.KernelIdeal.Rd.cst_34 m ρ c, Cert.ReferenceIdeal.Rd.cst_5 V]
theorem p_v112 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v112) = Cert.ReferenceIdeal.Rd.Z (F := Ideal) V Cert.ReferenceIdeal.main_v14 := by
  rw [Cert.KernelIdeal.Rd.v112 m ρ c, Cert.ReferenceIdeal.Rd.v14 V, p_cst_34 m ρ c V hA]
theorem p_v113 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v113) = Cert.ReferenceIdeal.Rd.Z (F := Ideal) V Cert.ReferenceIdeal.main_v15 := by
  rw [Cert.KernelIdeal.Rd.v113 m ρ c, Cert.ReferenceIdeal.Rd.v15 V, p_v107 m ρ c V hA, p_v112 m ρ c V hA]
theorem p_cst_35 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_cst_35) = Cert.ReferenceIdeal.Rd.Z (F := Ideal) V Cert.ReferenceIdeal.main_cst_5 := by
  rw [Cert.KernelIdeal.Rd.cst_35 m ρ c, Cert.ReferenceIdeal.Rd.cst_5 V]
theorem p_v114 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v114) = Cert.ReferenceIdeal.Rd.Z (F := Ideal) V Cert.ReferenceIdeal.main_v14 := by
  rw [Cert.KernelIdeal.Rd.v114 m ρ c, Cert.ReferenceIdeal.Rd.v14 V, p_cst_35 m ρ c V hA]
theorem p_v115 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v115) = Cert.ReferenceIdeal.Rd.Z (F := Ideal) V Cert.ReferenceIdeal.main_v33 := by
  rw [Cert.KernelIdeal.Rd.v115 m ρ c, Cert.ReferenceIdeal.Rd.v33 V, p_v111 m ρ c V hA, p_v114 m ρ c V hA, q_v32 V]
theorem p_v116 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v116) = Cert.ReferenceIdeal.Rd.Z (F := Ideal) V Cert.ReferenceIdeal.main_v147 := by
  rw [Cert.KernelIdeal.Rd.v116 m ρ c, Cert.ReferenceIdeal.Rd.v147 V, hA.a5]
theorem p_v117 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v117) = Cert.ReferenceIdeal.Rd.Z (F := Ideal) V Cert.ReferenceIdeal.main_v148 := by
  rw [Cert.KernelIdeal.Rd.v117 m ρ c, Cert.ReferenceIdeal.Rd.v148 V, p_v116 m ρ c V hA]
theorem p_c_36 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_c_36) = Cert.ReferenceIdeal.Rd.Z (F := Ideal) V Cert.ReferenceIdeal.main_c := by
  rw [Cert.KernelIdeal.Rd.c_36 m ρ c, Cert.ReferenceIdeal.Rd.c V]
theorem p_v120 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v120) = Cert.ReferenceIdeal.Rd.Z (F := Ideal) V Cert.ReferenceIdeal.main_v22 := by
  rw [Cert.KernelIdeal.Rd.v120 m ρ c, Cert.ReferenceIdeal.Rd.v22 V, p_c_36 m ρ c V hA]
theorem p_v121 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v121) = Cert.ReferenceIdeal.Rd.Z (F := Ideal) V Cert.ReferenceIdeal.main_v23 := by
  rw [Cert.KernelIdeal.Rd.v121 m ρ c, Cert.ReferenceIdeal.Rd.v23 V, p_v100 m ρ c V hA, p_v120 m ρ c V hA]
theorem p_c_37 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_c_37) = Cert.ReferenceIdeal.Rd.Z (F := Ideal) V Cert.ReferenceIdeal.main_c_6 := by
  rw [Cert.KernelIdeal.Rd.c_37 m ρ c, Cert.ReferenceIdeal.Rd.c_6 V]
theorem p_v122 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v122) = Cert.ReferenceIdeal.Rd.Z (F := Ideal) V Cert.ReferenceIdeal.main_v24 := by
  rw [Cert.KernelIdeal.Rd.v122 m ρ c, Cert.ReferenceIdeal.Rd.v24 V, p_c_37 m ρ c V hA]
theorem p_v123 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v123) = Cert.ReferenceIdeal.Rd.Z (F := Ideal) V Cert.ReferenceIdeal.main_v25 := by
  rw [Cert.KernelIdeal.Rd.v123 m ρ c, Cert.ReferenceIdeal.Rd.v25 V, p_v100 m ρ c V hA, p_v122 m ρ c V hA]
theorem p_v124 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v124) = Cert.ReferenceIdeal.Rd.Z (F := Ideal) V Cert.ReferenceIdeal.main_v26 := by
  rw [Cert.KernelIdeal.Rd.v124 m ρ c, Cert.ReferenceIdeal.Rd.v26 V, p_v121 m ρ c V hA, p_v123 m ρ c V hA, p_v100 m ρ c V hA]
theorem p_v125 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v125) = Cert.ReferenceIdeal.Rd.Z (F := Ideal) V Cert.ReferenceIdeal.main_v27 := by
  rw [Cert.KernelIdeal.Rd.v125 m ρ c, Cert.ReferenceIdeal.Rd.v27 V, p_v124 m ρ c V hA]
theorem p_cst_38 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_cst_38) = Cert.ReferenceIdeal.Rd.Z (F := Ideal) V Cert.ReferenceIdeal.main_cst := by
  rw [Cert.KernelIdeal.Rd.cst_38 m ρ c, Cert.ReferenceIdeal.Rd.cst V]
theorem p_v127 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v127) = Cert.ReferenceIdeal.Rd.Z (F := Ideal) V Cert.ReferenceIdeal.main_v0 := by
  rw [Cert.KernelIdeal.Rd.v127 m ρ c, Cert.ReferenceIdeal.Rd.v0 V, p_cst_38 m ρ c V hA]
theorem p_v128 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v128) = Cert.ReferenceIdeal.Rd.Z (F := Ideal) V Cert.ReferenceIdeal.main_v11 := by
  rw [Cert.KernelIdeal.Rd.v128 m ρ c, Cert.ReferenceIdeal.Rd.v11 V, p_v102 m ρ c V hA]
theorem p_v130 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v130) = Cert.ReferenceIdeal.Rd.Z (F := Ideal) V Cert.ReferenceIdeal.main_v43 := by
  rw [Cert.KernelIdeal.Rd.v130 m ρ c, Cert.ReferenceIdeal.Rd.v43 V, hA.a1]
theorem p_v131 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v131) = Cert.ReferenceIdeal.Rd.Z (F := Ideal) V Cert.ReferenceIdeal.main_v44 := by
  rw [Cert.KernelIdeal.Rd.v131 m ρ c, Cert.ReferenceIdeal.Rd.v44 V, p_v130 m ρ c V hA]
theorem p_v132 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v132) = Cert.ReferenceIdeal.Rd.Z (F := Ideal) V Cert.ReferenceIdeal.main_v45 := by
  rw [Cert.KernelIdeal.Rd.v132 m ρ c, Cert.ReferenceIdeal.Rd.v45 V, hA.a2]
theorem p_v133 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v133) = Cert.ReferenceIdeal.Rd.Z (F := Ideal) V Cert.ReferenceIdeal.main_v46 := by
  rw [Cert.KernelIdeal.Rd.v133 m ρ c, Cert.ReferenceIdeal.Rd.v46 V, p_v132 m ρ c V hA]
theorem p_cst_39 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_cst_39) = Cert.ReferenceIdeal.Rd.Z (F := Ideal) V Cert.ReferenceIdeal.main_cst_0 := by
  rw [Cert.KernelIdeal.Rd.cst_39 m ρ c, Cert.ReferenceIdeal.Rd.cst_0 V]
theorem p_v134 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v134) = Cert.ReferenceIdeal.Rd.Z (F := Ideal) V Cert.ReferenceIdeal.main_v5 := by
  rw [Cert.KernelIdeal.Rd.v134 m ρ c, Cert.ReferenceIdeal.Rd.v5 V, p_cst_39 m ρ c V hA]
theorem p_cst_40 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_cst_40) = Cert.ReferenceIdeal.Rd.Z (F := Ideal) V Cert.ReferenceIdeal.main_cst := by
  rw [Cert.KernelIdeal.Rd.cst_40 m ρ c, Cert.ReferenceIdeal.Rd.cst V]
theorem p_v135 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v135) = Cert.ReferenceIdeal.Rd.Z (F := Ideal) V Cert.ReferenceIdeal.main_v6 := by
  rw [Cert.KernelIdeal.Rd.v135 m ρ c, Cert.ReferenceIdeal.Rd.v6 V, p_cst_40 m ρ c V hA, q_cst_1 V]
theorem p_v136 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v136) = Cert.ReferenceIdeal.Rd.Z (F := Ideal) V Cert.ReferenceIdeal.main_v49 := by
  rw [Cert.KernelIdeal.Rd.v136 m ρ c, Cert.ReferenceIdeal.Rd.v49 V, p_v131 m ρ c V hA]
theorem p_v137 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v137) = Cert.ReferenceIdeal.Rd.Z (F := Ideal) V Cert.ReferenceIdeal.main_v50 := by
  rw [Cert.KernelIdeal.Rd.v137 m ρ c, Cert.ReferenceIdeal.Rd.v50 V, p_v135 m ρ c V hA, p_v136 m ρ c V hA, p_v134 m ρ c V hA, q_v48 V, q_v47 V, scatter1_eq]
theorem p_cst_41 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_cst_41) = Cert.ReferenceIdeal.Rd.Z (F := Ideal) V Cert.ReferenceIdeal.main_cst_0 := by
  rw [Cert.KernelIdeal.Rd.cst_41 m ρ c, Cert.ReferenceIdeal.Rd.cst_0 V]
theorem p_call8_v0 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_call8_v0) = Cert.ReferenceIdeal.Rd.Z (F := Ideal) V Cert.ReferenceIdeal.main_cst_0 := by
  rw [Cert.KernelIdeal.Rd.call8_v0 m ρ c]
  exact p_cst_41 m ρ c V hA
theorem p_call8_v1 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_call8_v1) = Cert.ReferenceIdeal.Rd.Z (F := Ideal) V Cert.ReferenceIdeal.main_call0_v1 := by
  rw [Cert.KernelIdeal.Rd.call8_v1 m ρ c, Cert.ReferenceIdeal.Rd.call0_v1 V, p_call8_v0 m ρ c V hA, q_call0_v0 V]
theorem p_v138 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v138) = Cert.ReferenceIdeal.Rd.Z (F := Ideal) V Cert.ReferenceIdeal.main_v51 := by
  rw [Cert.KernelIdeal.Rd.v138 m ρ c, Cert.ReferenceIdeal.Rd.v51 V, p_call8_v1 m ρ c V hA, p_v137 m ρ c V hA, q_call2_v1 V]
theorem p_cst_42 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_cst_42) = Cert.ReferenceIdeal.Rd.Z (F := Ideal) V Cert.ReferenceIdeal.main_cst := by
  rw [Cert.KernelIdeal.Rd.cst_42 m ρ c, Cert.ReferenceIdeal.Rd.cst V]
theorem p_v139 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v139) = Cert.ReferenceIdeal.Rd.Z (F := Ideal) V Cert.ReferenceIdeal.main_v6 := by
  rw [Cert.KernelIdeal.Rd.v139 m ρ c, Cert.ReferenceIdeal.Rd.v6 V, p_cst_42 m ρ c V hA, q_cst_1 V]
theorem p_v140 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v140) = Cert.ReferenceIdeal.Rd.Z (F := Ideal) V Cert.ReferenceIdeal.main_v53 := by
  rw [Cert.KernelIdeal.Rd.v140 m ρ c, Cert.ReferenceIdeal.Rd.v53 V, p_v133 m ρ c V hA]
theorem p_v141 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v141) = Cert.ReferenceIdeal.Rd.Z (F := Ideal) V Cert.ReferenceIdeal.main_v54 := by
  rw [Cert.KernelIdeal.Rd.v141 m ρ c, Cert.ReferenceIdeal.Rd.v54 V, p_v139 m ρ c V hA, p_v140 m ρ c V hA, p_v134 m ρ c V hA, q_v52 V, q_v47 V, scatter1_eq]
theorem p_cst_43 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_cst_43) = Cert.ReferenceIdeal.Rd.Z (F := Ideal) V Cert.ReferenceIdeal.main_cst_0 := by
  rw [Cert.KernelIdeal.Rd.cst_43 m ρ c, Cert.ReferenceIdeal.Rd.cst_0 V]
theorem p_call9_v0 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_call9_v0) = Cert.ReferenceIdeal.Rd.Z (F := Ideal) V Cert.ReferenceIdeal.main_cst_0 := by
  rw [Cert.KernelIdeal.Rd.call9_v0 m ρ c]
  exact p_cst_43 m ρ c V hA
theorem p_call9_v1 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_call9_v1) = Cert.ReferenceIdeal.Rd.Z (F := Ideal) V Cert.ReferenceIdeal.main_call0_v1 := by
  rw [Cert.KernelIdeal.Rd.call9_v1 m ρ c, Cert.ReferenceIdeal.Rd.call0_v1 V, p_call9_v0 m ρ c V hA, q_call0_v0 V]
theorem p_v142 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v142) = Cert.ReferenceIdeal.Rd.Z (F := Ideal) V Cert.ReferenceIdeal.main_v55 := by
  rw [Cert.KernelIdeal.Rd.v142 m ρ c, Cert.ReferenceIdeal.Rd.v55 V, p_call9_v1 m ρ c V hA, p_v141 m ρ c V hA, q_call3_v1 V]
theorem p_cst_44 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_cst_44) = Cert.ReferenceIdeal.Rd.Z (F := Ideal) V Cert.ReferenceIdeal.main_cst_5 := by
  rw [Cert.KernelIdeal.Rd.cst_44 m ρ c, Cert.ReferenceIdeal.Rd.cst_5 V]
theorem p_v143 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v143) = Cert.ReferenceIdeal.Rd.Z (F := Ideal) V Cert.ReferenceIdeal.main_v14 := by
  rw [Cert.KernelIdeal.Rd.v143 m ρ c, Cert.ReferenceIdeal.Rd.v14 V, p_cst_44 m ρ c V hA]
theorem p_v144 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v144) = Cert.ReferenceIdeal.Rd.Z (F := Ideal) V Cert.ReferenceIdeal.main_v57 := by
  rw [Cert.KernelIdeal.Rd.v144 m ρ c, Cert.ReferenceIdeal.Rd.v57 V, p_v138 m ρ c V hA, p_v143 m ρ c V hA, q_v56 V]
theorem p_cst_45 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_cst_45) = Cert.ReferenceIdeal.Rd.Z (F := Ideal) V Cert.ReferenceIdeal.main_cst_5 := by
  rw [Cert.KernelIdeal.Rd.cst_45 m ρ c, Cert.ReferenceIdeal.Rd.cst_5 V]
theorem p_v145 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v145) = Cert.ReferenceIdeal.Rd.Z (F := Ideal) V Cert.ReferenceIdeal.main_v14 := by
  rw [Cert.KernelIdeal.Rd.v145 m ρ c, Cert.ReferenceIdeal.Rd.v14 V, p_cst_45 m ρ c V hA]
theorem p_v146 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v146) = Cert.ReferenceIdeal.Rd.Z (F := Ideal) V Cert.ReferenceIdeal.main_v75 := by
  rw [Cert.KernelIdeal.Rd.v146 m ρ c, Cert.ReferenceIdeal.Rd.v75 V, p_v142 m ρ c V hA, p_v145 m ρ c V hA, q_v74 V]
theorem p_v147 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v147) = Cert.ReferenceIdeal.Rd.Z (F := Ideal) V Cert.ReferenceIdeal.main_v189 := by
  rw [Cert.KernelIdeal.Rd.v147 m ρ c, Cert.ReferenceIdeal.Rd.v189 V, hA.a5]
theorem p_v148 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v148) = Cert.ReferenceIdeal.Rd.Z (F := Ideal) V Cert.ReferenceIdeal.main_v190 := by
  rw [Cert.KernelIdeal.Rd.v148 m ρ c, Cert.ReferenceIdeal.Rd.v190 V, p_v147 m ρ c V hA]
theorem p_c_46 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_c_46) = Cert.ReferenceIdeal.Rd.Z (F := Ideal) V Cert.ReferenceIdeal.main_c := by
  rw [Cert.KernelIdeal.Rd.c_46 m ρ c, Cert.ReferenceIdeal.Rd.c V]
theorem p_v151 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v151) = Cert.ReferenceIdeal.Rd.Z (F := Ideal) V Cert.ReferenceIdeal.main_v22 := by
  rw [Cert.KernelIdeal.Rd.v151 m ρ c, Cert.ReferenceIdeal.Rd.v22 V, p_c_46 m ρ c V hA]
theorem p_v152 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v152) = Cert.ReferenceIdeal.Rd.Z (F := Ideal) V Cert.ReferenceIdeal.main_v65 := by
  rw [Cert.KernelIdeal.Rd.v152 m ρ c, Cert.ReferenceIdeal.Rd.v65 V, p_v131 m ρ c V hA, p_v151 m ρ c V hA, q_v64 V]
theorem p_c_47 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_c_47) = Cert.ReferenceIdeal.Rd.Z (F := Ideal) V Cert.ReferenceIdeal.main_c_6 := by
  rw [Cert.KernelIdeal.Rd.c_47 m ρ c, Cert.ReferenceIdeal.Rd.c_6 V]
theorem p_v153 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v153) = Cert.ReferenceIdeal.Rd.Z (F := Ideal) V Cert.ReferenceIdeal.main_v24 := by
  rw [Cert.KernelIdeal.Rd.v153 m ρ c, Cert.ReferenceIdeal.Rd.v24 V, p_c_47 m ρ c V hA]
theorem p_v154 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v154) = Cert.ReferenceIdeal.Rd.Z (F := Ideal) V Cert.ReferenceIdeal.main_v67 := by
  rw [Cert.KernelIdeal.Rd.v154 m ρ c, Cert.ReferenceIdeal.Rd.v67 V, p_v131 m ρ c V hA, p_v153 m ρ c V hA, q_v66 V]
theorem p_v155 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v155) = Cert.ReferenceIdeal.Rd.Z (F := Ideal) V Cert.ReferenceIdeal.main_v68 := by
  rw [Cert.KernelIdeal.Rd.v155 m ρ c, Cert.ReferenceIdeal.Rd.v68 V, p_v152 m ρ c V hA, p_v154 m ρ c V hA, p_v131 m ρ c V hA]
theorem p_v156 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v156) = Cert.ReferenceIdeal.Rd.Z (F := Ideal) V Cert.ReferenceIdeal.main_v69 := by
  rw [Cert.KernelIdeal.Rd.v156 m ρ c, Cert.ReferenceIdeal.Rd.v69 V, p_v155 m ρ c V hA]
theorem p_cst_48 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_cst_48) = Cert.ReferenceIdeal.Rd.Z (F := Ideal) V Cert.ReferenceIdeal.main_cst := by
  rw [Cert.KernelIdeal.Rd.cst_48 m ρ c, Cert.ReferenceIdeal.Rd.cst V]
theorem p_v158 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v158) = Cert.ReferenceIdeal.Rd.Z (F := Ideal) V Cert.ReferenceIdeal.main_v0 := by
  rw [Cert.KernelIdeal.Rd.v158 m ρ c, Cert.ReferenceIdeal.Rd.v0 V, p_cst_48 m ρ c V hA]
theorem p_v159 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v159) = Cert.ReferenceIdeal.Rd.Z (F := Ideal) V Cert.ReferenceIdeal.main_v53 := by
  rw [Cert.KernelIdeal.Rd.v159 m ρ c, Cert.ReferenceIdeal.Rd.v53 V, p_v133 m ρ c V hA]
theorem p_v161 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v161) = Cert.ReferenceIdeal.Rd.Z (F := Ideal) V Cert.ReferenceIdeal.main_v85 := by
  rw [Cert.KernelIdeal.Rd.v161 m ρ c, Cert.ReferenceIdeal.Rd.v85 V, hA.a1]
theorem p_v162 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v162) = Cert.ReferenceIdeal.Rd.Z (F := Ideal) V Cert.ReferenceIdeal.main_v86 := by
  rw [Cert.KernelIdeal.Rd.v162 m ρ c, Cert.ReferenceIdeal.Rd.v86 V, p_v161 m ρ c V hA]
theorem p_v163 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v163) = Cert.ReferenceIdeal.Rd.Z (F := Ideal) V Cert.ReferenceIdeal.main_v87 := by
  rw [Cert.KernelIdeal.Rd.v163 m ρ c, Cert.ReferenceIdeal.Rd.v87 V, hA.a2]
theorem p_v164 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v164) = Cert.ReferenceIdeal.Rd.Z (F := Ideal) V Cert.ReferenceIdeal.main_v88 := by
  rw [Cert.KernelIdeal.Rd.v164 m ρ c, Cert.ReferenceIdeal.Rd.v88 V, p_v163 m ρ c V hA]
theorem p_cst_49 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_cst_49) = Cert.ReferenceIdeal.Rd.Z (F := Ideal) V Cert.ReferenceIdeal.main_cst_0 := by
  rw [Cert.KernelIdeal.Rd.cst_49 m ρ c, Cert.ReferenceIdeal.Rd.cst_0 V]
theorem p_v165 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v165) = Cert.ReferenceIdeal.Rd.Z (F := Ideal) V Cert.ReferenceIdeal.main_v5 := by
  rw [Cert.KernelIdeal.Rd.v165 m ρ c, Cert.ReferenceIdeal.Rd.v5 V, p_cst_49 m ρ c V hA]
theorem p_cst_50 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_cst_50) = Cert.ReferenceIdeal.Rd.Z (F := Ideal) V Cert.ReferenceIdeal.main_cst := by
  rw [Cert.KernelIdeal.Rd.cst_50 m ρ c, Cert.ReferenceIdeal.Rd.cst V]
theorem p_v166 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v166) = Cert.ReferenceIdeal.Rd.Z (F := Ideal) V Cert.ReferenceIdeal.main_v6 := by
  rw [Cert.KernelIdeal.Rd.v166 m ρ c, Cert.ReferenceIdeal.Rd.v6 V, p_cst_50 m ρ c V hA, q_cst_1 V]
theorem p_v167 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v167) = Cert.ReferenceIdeal.Rd.Z (F := Ideal) V Cert.ReferenceIdeal.main_v91 := by
  rw [Cert.KernelIdeal.Rd.v167 m ρ c, Cert.ReferenceIdeal.Rd.v91 V, p_v162 m ρ c V hA]
theorem p_v168 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v168) = Cert.ReferenceIdeal.Rd.Z (F := Ideal) V Cert.ReferenceIdeal.main_v92 := by
  rw [Cert.KernelIdeal.Rd.v168 m ρ c, Cert.ReferenceIdeal.Rd.v92 V, p_v166 m ρ c V hA, p_v167 m ρ c V hA, p_v165 m ρ c V hA, q_v90 V, q_v89 V, scatter1_eq]
theorem p_cst_51 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_cst_51) = Cert.ReferenceIdeal.Rd.Z (F := Ideal) V Cert.ReferenceIdeal.main_cst_0 := by
  rw [Cert.KernelIdeal.Rd.cst_51 m ρ c, Cert.ReferenceIdeal.Rd.cst_0 V]
theorem p_call10_v0 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_call10_v0) = Cert.ReferenceIdeal.Rd.Z (F := Ideal) V Cert.ReferenceIdeal.main_cst_0 := by
  rw [Cert.KernelIdeal.Rd.call10_v0 m ρ c]
  exact p_cst_51 m ρ c V hA
theorem p_call10_v1 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_call10_v1) = Cert.ReferenceIdeal.Rd.Z (F := Ideal) V Cert.ReferenceIdeal.main_call0_v1 := by
  rw [Cert.KernelIdeal.Rd.call10_v1 m ρ c, Cert.ReferenceIdeal.Rd.call0_v1 V, p_call10_v0 m ρ c V hA, q_call0_v0 V]
theorem p_v169 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v169) = Cert.ReferenceIdeal.Rd.Z (F := Ideal) V Cert.ReferenceIdeal.main_v93 := by
  rw [Cert.KernelIdeal.Rd.v169 m ρ c, Cert.ReferenceIdeal.Rd.v93 V, p_call10_v1 m ρ c V hA, p_v168 m ρ c V hA, q_call4_v1 V]
theorem p_cst_52 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_cst_52) = Cert.ReferenceIdeal.Rd.Z (F := Ideal) V Cert.ReferenceIdeal.main_cst := by
  rw [Cert.KernelIdeal.Rd.cst_52 m ρ c, Cert.ReferenceIdeal.Rd.cst V]
theorem p_v170 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v170) = Cert.ReferenceIdeal.Rd.Z (F := Ideal) V Cert.ReferenceIdeal.main_v6 := by
  rw [Cert.KernelIdeal.Rd.v170 m ρ c, Cert.ReferenceIdeal.Rd.v6 V, p_cst_52 m ρ c V hA, q_cst_1 V]
theorem p_v171 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v171) = Cert.ReferenceIdeal.Rd.Z (F := Ideal) V Cert.ReferenceIdeal.main_v95 := by
  rw [Cert.KernelIdeal.Rd.v171 m ρ c, Cert.ReferenceIdeal.Rd.v95 V, p_v164 m ρ c V hA]
theorem p_v172 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v172) = Cert.ReferenceIdeal.Rd.Z (F := Ideal) V Cert.ReferenceIdeal.main_v96 := by
  rw [Cert.KernelIdeal.Rd.v172 m ρ c, Cert.ReferenceIdeal.Rd.v96 V, p_v170 m ρ c V hA, p_v171 m ρ c V hA, p_v165 m ρ c V hA, q_v94 V, q_v89 V, scatter1_eq]
theorem p_cst_53 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_cst_53) = Cert.ReferenceIdeal.Rd.Z (F := Ideal) V Cert.ReferenceIdeal.main_cst_0 := by
  rw [Cert.KernelIdeal.Rd.cst_53 m ρ c, Cert.ReferenceIdeal.Rd.cst_0 V]
theorem p_call11_v0 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_call11_v0) = Cert.ReferenceIdeal.Rd.Z (F := Ideal) V Cert.ReferenceIdeal.main_cst_0 := by
  rw [Cert.KernelIdeal.Rd.call11_v0 m ρ c]
  exact p_cst_53 m ρ c V hA
theorem p_call11_v1 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_call11_v1) = Cert.ReferenceIdeal.Rd.Z (F := Ideal) V Cert.ReferenceIdeal.main_call0_v1 := by
  rw [Cert.KernelIdeal.Rd.call11_v1 m ρ c, Cert.ReferenceIdeal.Rd.call0_v1 V, p_call11_v0 m ρ c V hA, q_call0_v0 V]
theorem p_v173 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v173) = Cert.ReferenceIdeal.Rd.Z (F := Ideal) V Cert.ReferenceIdeal.main_v97 := by
  rw [Cert.KernelIdeal.Rd.v173 m ρ c, Cert.ReferenceIdeal.Rd.v97 V, p_call11_v1 m ρ c V hA, p_v172 m ρ c V hA, q_call5_v1 V]
theorem p_cst_54 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_cst_54) = Cert.ReferenceIdeal.Rd.Z (F := Ideal) V Cert.ReferenceIdeal.main_cst_5 := by
  rw [Cert.KernelIdeal.Rd.cst_54 m ρ c, Cert.ReferenceIdeal.Rd.cst_5 V]
theorem p_v174 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v174) = Cert.ReferenceIdeal.Rd.Z (F := Ideal) V Cert.ReferenceIdeal.main_v14 := by
  rw [Cert.KernelIdeal.Rd.v174 m ρ c, Cert.ReferenceIdeal.Rd.v14 V, p_cst_54 m ρ c V hA]
theorem p_v175 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v175) = Cert.ReferenceIdeal.Rd.Z (F := Ideal) V Cert.ReferenceIdeal.main_v99 := by
  rw [Cert.KernelIdeal.Rd.v175 m ρ c, Cert.ReferenceIdeal.Rd.v99 V, p_v169 m ρ c V hA, p_v174 m ρ c V hA, q_v98 V]
theorem p_cst_55 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_cst_55) = Cert.ReferenceIdeal.Rd.Z (F := Ideal) V Cert.ReferenceIdeal.main_cst_5 := by
  rw [Cert.KernelIdeal.Rd.cst_55 m ρ c, Cert.ReferenceIdeal.Rd.cst_5 V]
theorem p_v176 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v176) = Cert.ReferenceIdeal.Rd.Z (F := Ideal) V Cert.ReferenceIdeal.main_v14 := by
  rw [Cert.KernelIdeal.Rd.v176 m ρ c, Cert.ReferenceIdeal.Rd.v14 V, p_cst_55 m ρ c V hA]
theorem p_v177 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v177) = Cert.ReferenceIdeal.Rd.Z (F := Ideal) V Cert.ReferenceIdeal.main_v117 := by
  rw [Cert.KernelIdeal.Rd.v177 m ρ c, Cert.ReferenceIdeal.Rd.v117 V, p_v173 m ρ c V hA, p_v176 m ρ c V hA, q_v116 V]
theorem p_v178 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v178) = Cert.ReferenceIdeal.Rd.Z (F := Ideal) V Cert.ReferenceIdeal.main_v231 := by
  rw [Cert.KernelIdeal.Rd.v178 m ρ c, Cert.ReferenceIdeal.Rd.v231 V, hA.a5]
theorem p_v179 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v179) = Cert.ReferenceIdeal.Rd.Z (F := Ideal) V Cert.ReferenceIdeal.main_v232 := by
  rw [Cert.KernelIdeal.Rd.v179 m ρ c, Cert.ReferenceIdeal.Rd.v232 V, p_v178 m ρ c V hA]
theorem p_c_56 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_c_56) = Cert.ReferenceIdeal.Rd.Z (F := Ideal) V Cert.ReferenceIdeal.main_c := by
  rw [Cert.KernelIdeal.Rd.c_56 m ρ c, Cert.ReferenceIdeal.Rd.c V]
theorem p_v182 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v182) = Cert.ReferenceIdeal.Rd.Z (F := Ideal) V Cert.ReferenceIdeal.main_v22 := by
  rw [Cert.KernelIdeal.Rd.v182 m ρ c, Cert.ReferenceIdeal.Rd.v22 V, p_c_56 m ρ c V hA]
theorem p_v183 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v183) = Cert.ReferenceIdeal.Rd.Z (F := Ideal) V Cert.ReferenceIdeal.main_v107 := by
  rw [Cert.KernelIdeal.Rd.v183 m ρ c, Cert.ReferenceIdeal.Rd.v107 V, p_v162 m ρ c V hA, p_v182 m ρ c V hA, q_v106 V]
theorem p_c_57 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_c_57) = Cert.ReferenceIdeal.Rd.Z (F := Ideal) V Cert.ReferenceIdeal.main_c_6 := by
  rw [Cert.KernelIdeal.Rd.c_57 m ρ c, Cert.ReferenceIdeal.Rd.c_6 V]
theorem p_v184 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v184) = Cert.ReferenceIdeal.Rd.Z (F := Ideal) V Cert.ReferenceIdeal.main_v24 := by
  rw [Cert.KernelIdeal.Rd.v184 m ρ c, Cert.ReferenceIdeal.Rd.v24 V, p_c_57 m ρ c V hA]
theorem p_v185 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v185) = Cert.ReferenceIdeal.Rd.Z (F := Ideal) V Cert.ReferenceIdeal.main_v109 := by
  rw [Cert.KernelIdeal.Rd.v185 m ρ c, Cert.ReferenceIdeal.Rd.v109 V, p_v162 m ρ c V hA, p_v184 m ρ c V hA, q_v108 V]
theorem p_v186 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v186) = Cert.ReferenceIdeal.Rd.Z (F := Ideal) V Cert.ReferenceIdeal.main_v110 := by
  rw [Cert.KernelIdeal.Rd.v186 m ρ c, Cert.ReferenceIdeal.Rd.v110 V, p_v183 m ρ c V hA, p_v185 m ρ c V hA, p_v162 m ρ c V hA]
theorem p_v187 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v187) = Cert.ReferenceIdeal.Rd.Z (F := Ideal) V Cert.ReferenceIdeal.main_v111 := by
  rw [Cert.KernelIdeal.Rd.v187 m ρ c, Cert.ReferenceIdeal.Rd.v111 V, p_v186 m ρ c V hA]
theorem p_cst_58 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_cst_58) = Cert.ReferenceIdeal.Rd.Z (F := Ideal) V Cert.ReferenceIdeal.main_cst := by
  rw [Cert.KernelIdeal.Rd.cst_58 m ρ c, Cert.ReferenceIdeal.Rd.cst V]
theorem p_v189 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v189) = Cert.ReferenceIdeal.Rd.Z (F := Ideal) V Cert.ReferenceIdeal.main_v0 := by
  rw [Cert.KernelIdeal.Rd.v189 m ρ c, Cert.ReferenceIdeal.Rd.v0 V, p_cst_58 m ρ c V hA]
theorem p_v190 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v190) = Cert.ReferenceIdeal.Rd.Z (F := Ideal) V Cert.ReferenceIdeal.main_v95 := by
  rw [Cert.KernelIdeal.Rd.v190 m ρ c, Cert.ReferenceIdeal.Rd.v95 V, p_v164 m ρ c V hA]
theorem p_cst_59 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_cst_59) = Cert.ReferenceIdeal.Rd.Z (F := Ideal) V Cert.ReferenceIdeal.main_cst := by
  rw [Cert.KernelIdeal.Rd.cst_59 m ρ c, Cert.ReferenceIdeal.Rd.cst V]

end Cert.Bridge

end
-- ==== Proof.Pairs1.lean ====
/-
  Buffers of the two idealized programs that hold the same values: a buffer of the kernel program's host stretches and the buffer of
  the reference computed by the same operation from operands already known to agree (the arguments agree by hypothesis; the regions'
  output arrays and their counterparts are hypotheses here and are proved separately).  Part 1.
-/
import proofs.«124848_j55800215109809_1_alg».proof.Proof.PairBase
import proofs.«124848_j55800215109809_1_alg».proof.Proof.RefDup
import proofs.«124848_j55800215109809_1_alg».proof.Proof.Pairs0

set_option maxRecDepth 16384

noncomputable section

namespace Cert.Bridge

open Idealize.ShloMosaic Idealize.ShloMosaic.TcCoe Idealize.SL.Sem Idealize.ShloMosaic.StableHlo Cert.KernelIdeal.Gen

variable (m : (ℓ : Loc Cert.KernelIdeal.nD Cert.KernelIdeal.τ Cert.KernelIdeal.sig) → Buf (Elt Ideal) ℓ) (ρ : Dev Cert.KernelIdeal.nD → PrngReg)

theorem p_v27 (c : Dev Cert.KernelIdeal.nD) (V : Valuation Cert.ReferenceIdeal.τ Cert.ReferenceIdeal.sig (Elt Ideal)) (hA : Agree m ρ c V) (hH0 : W42 (F := Ideal) m ρ c (Proc.devRef .tc Cert.KernelIdeal.main_v20) = Cert.ReferenceIdeal.Rd.Z (F := Ideal) V Cert.ReferenceIdeal.main_v21) (hH1 : W42 (F := Ideal) m ρ c (Proc.devRef .tc Cert.KernelIdeal.main_v51) = Cert.ReferenceIdeal.Rd.Z (F := Ideal) V Cert.ReferenceIdeal.main_v63) (hH2 : W42 (F := Ideal) m ρ c (Proc.devRef .tc Cert.KernelIdeal.main_v82) = Cert.ReferenceIdeal.Rd.Z (F := Ideal) V Cert.ReferenceIdeal.main_v105) :
    W42 (F := Ideal) m ρ c (Proc.devRef .tc Cert.KernelIdeal.main_v27) = Cert.ReferenceIdeal.Rd.Z (F := Ideal) V Cert.ReferenceIdeal.main_v28 := by
  rw [Cert.KernelIdeal.Rd.v27 m ρ c, Cert.ReferenceIdeal.Rd.v28 V, hH0, p_v26 m ρ c V hA, gather_eq]
theorem p_v30 (c : Dev Cert.KernelIdeal.nD) (V : Valuation Cert.ReferenceIdeal.τ Cert.ReferenceIdeal.sig (Elt Ideal)) (hA : Agree m ρ c V) (hH0 : W42 (F := Ideal) m ρ c (Proc.devRef .tc Cert.KernelIdeal.main_v20) = Cert.ReferenceIdeal.Rd.Z (F := Ideal) V Cert.ReferenceIdeal.main_v21) (hH1 : W42 (F := Ideal) m ρ c (Proc.devRef .tc Cert.KernelIdeal.main_v51) = Cert.ReferenceIdeal.Rd.Z (F := Ideal) V Cert.ReferenceIdeal.main_v63) (hH2 : W42 (F := Ideal) m ρ c (Proc.devRef .tc Cert.KernelIdeal.main_v82) = Cert.ReferenceIdeal.Rd.Z (F := Ideal) V Cert.ReferenceIdeal.main_v105) :
    W42 (F := Ideal) m ρ c (Proc.devRef .tc Cert.KernelIdeal.main_v30) = Cert.ReferenceIdeal.Rd.Z (F := Ideal) V Cert.ReferenceIdeal.main_v31 := by
  rw [Cert.KernelIdeal.Rd.v30 m ρ c, Cert.ReferenceIdeal.Rd.v31 V, p_v28 m ρ c V hA, p_v29 m ρ c V hA, p_v27 m ρ c V hA hH0 hH1 hH2, q_v29 V, q_v30 V, scatter2_eq]
theorem p_v58 (c : Dev Cert.KernelIdeal.nD) (V : Valuation Cert.ReferenceIdeal.τ Cert.ReferenceIdeal.sig (Elt Ideal)) (hA : Agree m ρ c V) (hH0 : W42 (F := Ideal) m ρ c (Proc.devRef .tc Cert.KernelIdeal.main_v20) = Cert.ReferenceIdeal.Rd.Z (F := Ideal) V Cert.ReferenceIdeal.main_v21) (hH1 : W42 (F := Ideal) m ρ c (Proc.devRef .tc Cert.KernelIdeal.main_v51) = Cert.ReferenceIdeal.Rd.Z (F := Ideal) V Cert.ReferenceIdeal.main_v63) (hH2 : W42 (F := Ideal) m ρ c (Proc.devRef .tc Cert.KernelIdeal.main_v82) = Cert.ReferenceIdeal.Rd.Z (F := Ideal) V Cert.ReferenceIdeal.main_v105) :
    W42 (F := Ideal) m ρ c (Proc.devRef .tc Cert.KernelIdeal.main_v58) = Cert.ReferenceIdeal.Rd.Z (F := Ideal) V Cert.ReferenceIdeal.main_v70 := by
  rw [Cert.KernelIdeal.Rd.v58 m ρ c, Cert.ReferenceIdeal.Rd.v70 V, hH1, p_v57 m ρ c V hA, gather_eq]
theorem p_v61 (c : Dev Cert.KernelIdeal.nD) (V : Valuation Cert.ReferenceIdeal.τ Cert.ReferenceIdeal.sig (Elt Ideal)) (hA : Agree m ρ c V) (hH0 : W42 (F := Ideal) m ρ c (Proc.devRef .tc Cert.KernelIdeal.main_v20) = Cert.ReferenceIdeal.Rd.Z (F := Ideal) V Cert.ReferenceIdeal.main_v21) (hH1 : W42 (F := Ideal) m ρ c (Proc.devRef .tc Cert.KernelIdeal.main_v51) = Cert.ReferenceIdeal.Rd.Z (F := Ideal) V Cert.ReferenceIdeal.main_v63) (hH2 : W42 (F := Ideal) m ρ c (Proc.devRef .tc Cert.KernelIdeal.main_v82) = Cert.ReferenceIdeal.Rd.Z (F := Ideal) V Cert.ReferenceIdeal.main_v105) :
    W42 (F := Ideal) m ρ c (Proc.devRef .tc Cert.KernelIdeal.main_v61) = Cert.ReferenceIdeal.Rd.Z (F := Ideal) V Cert.ReferenceIdeal.main_v73 := by
  rw [Cert.KernelIdeal.Rd.v61 m ρ c, Cert.ReferenceIdeal.Rd.v73 V, p_v59 m ρ c V hA, p_v60 m ρ c V hA, p_v58 m ρ c V hA hH0 hH1 hH2, q_v71 V, q_v72 V, scatter2_eq]
theorem p_v89 (c : Dev Cert.KernelIdeal.nD) (V : Valuation Cert.ReferenceIdeal.τ Cert.ReferenceIdeal.sig (Elt Ideal)) (hA : Agree m ρ c V) (hH0 : W42 (F := Ideal) m ρ c (Proc.devRef .tc Cert.KernelIdeal.main_v20) = Cert.ReferenceIdeal.Rd.Z (F := Ideal) V Cert.ReferenceIdeal.main_v21) (hH1 : W42 (F := Ideal) m ρ c (Proc.devRef .tc Cert.KernelIdeal.main_v51) = Cert.ReferenceIdeal.Rd.Z (F := Ideal) V Cert.ReferenceIdeal.main_v63) (hH2 : W42 (F := Ideal) m ρ c (Proc.devRef .tc Cert.KernelIdeal.main_v82) = Cert.ReferenceIdeal.Rd.Z (F := Ideal) V Cert.ReferenceIdeal.main_v105) :
    W42 (F := Ideal) m ρ c (Proc.devRef .tc Cert.KernelIdeal.main_v89) = Cert.ReferenceIdeal.Rd.Z (F := Ideal) V Cert.ReferenceIdeal.main_v112 := by
  rw [Cert.KernelIdeal.Rd.v89 m ρ c, Cert.ReferenceIdeal.Rd.v112 V, hH2, p_v88 m ρ c V hA, gather_eq]
theorem p_v92 (c : Dev Cert.KernelIdeal.nD) (V : Valuation Cert.ReferenceIdeal.τ Cert.ReferenceIdeal.sig (Elt Ideal)) (hA : Agree m ρ c V) (hH0 : W42 (F := Ideal) m ρ c (Proc.devRef .tc Cert.KernelIdeal.main_v20) = Cert.ReferenceIdeal.Rd.Z (F := Ideal) V Cert.ReferenceIdeal.main_v21) (hH1 : W42 (F := Ideal) m ρ c (Proc.devRef .tc Cert.KernelIdeal.main_v51) = Cert.ReferenceIdeal.Rd.Z (F := Ideal) V Cert.ReferenceIdeal.main_v63) (hH2 : W42 (F := Ideal) m ρ c (Proc.devRef .tc Cert.KernelIdeal.main_v82) = Cert.ReferenceIdeal.Rd.Z (F := Ideal) V Cert.ReferenceIdeal.main_v105) :
    W42 (F := Ideal) m ρ c (Proc.devRef .tc Cert.KernelIdeal.main_v92) = Cert.ReferenceIdeal.Rd.Z (F := Ideal) V Cert.ReferenceIdeal.main_v115 := by
  rw [Cert.KernelIdeal.Rd.v92 m ρ c, Cert.ReferenceIdeal.Rd.v115 V, p_v90 m ρ c V hA, p_v91 m ρ c V hA, p_v89 m ρ c V hA hH0 hH1 hH2, q_v113 V, q_v114 V, scatter2_eq]

end Cert.Bridge

end
-- ==== Proof.Pairs3.lean ====
/-
  Buffers of the two idealized programs that hold the same values: a buffer of the kernel program's host stretches and the buffer of
  the reference computed by the same operation from operands already known to agree (the arguments agree by hypothesis; the regions'
  output arrays and their counterparts are hypotheses here and are proved separately).  Part 3.
-/
import proofs.«124848_j55800215109809_1_alg».proof.Proof.PairBase
import proofs.«124848_j55800215109809_1_alg».proof.Proof.RefDup
import proofs.«124848_j55800215109809_1_alg».proof.Proof.Pairs1

set_option maxRecDepth 16384

noncomputable section

namespace Cert.Bridge

open Idealize.ShloMosaic Idealize.ShloMosaic.TcCoe Idealize.SL.Sem Idealize.ShloMosaic.StableHlo Cert.KernelIdeal.Gen

variable (m : (ℓ : Loc Cert.KernelIdeal.nD Cert.KernelIdeal.τ Cert.KernelIdeal.sig) → Buf (Elt Ideal) ℓ) (ρ : Dev Cert.KernelIdeal.nD → PrngReg)

theorem p_v126 (c : Dev Cert.KernelIdeal.nD) (V : Valuation Cert.ReferenceIdeal.τ Cert.ReferenceIdeal.sig (Elt Ideal)) (hA : Agree m ρ c V) (hH0 : W42 (F := Ideal) m ρ c (Proc.devRef .tc Cert.KernelIdeal.main_v20) = Cert.ReferenceIdeal.Rd.Z (F := Ideal) V Cert.ReferenceIdeal.main_v21) (hH1 : W42 (F := Ideal) m ρ c (Proc.devRef .tc Cert.KernelIdeal.main_v51) = Cert.ReferenceIdeal.Rd.Z (F := Ideal) V Cert.ReferenceIdeal.main_v63) (hH2 : W42 (F := Ideal) m ρ c (Proc.devRef .tc Cert.KernelIdeal.main_v82) = Cert.ReferenceIdeal.Rd.Z (F := Ideal) V Cert.ReferenceIdeal.main_v105) (hC1 : W42 (F := Ideal) m ρ c (Proc.devRef .tc Cert.KernelIdeal.main_v98) = Cert.ReferenceIdeal.Rd.Z (F := Ideal) V Cert.ReferenceIdeal.main_v127) (hH3 : W42 (F := Ideal) m ρ c (Proc.devRef .tc Cert.KernelIdeal.main_v119) = Cert.ReferenceIdeal.Rd.Z (F := Ideal) V Cert.ReferenceIdeal.main_v149) (hH4 : W42 (F := Ideal) m ρ c (Proc.devRef .tc Cert.KernelIdeal.main_v150) = Cert.ReferenceIdeal.Rd.Z (F := Ideal) V Cert.ReferenceIdeal.main_v191) (hH5 : W42 (F := Ideal) m ρ c (Proc.devRef .tc Cert.KernelIdeal.main_v181) = Cert.ReferenceIdeal.Rd.Z (F := Ideal) V Cert.ReferenceIdeal.main_v233) :
    W42 (F := Ideal) m ρ c (Proc.devRef .tc Cert.KernelIdeal.main_v126) = Cert.ReferenceIdeal.Rd.Z (F := Ideal) V Cert.ReferenceIdeal.main_v156 := by
  rw [Cert.KernelIdeal.Rd.v126 m ρ c, Cert.ReferenceIdeal.Rd.v156 V, hH3, p_v125 m ρ c V hA, q_v155 V, gather_eq]
theorem p_v129 (c : Dev Cert.KernelIdeal.nD) (V : Valuation Cert.ReferenceIdeal.τ Cert.ReferenceIdeal.sig (Elt Ideal)) (hA : Agree m ρ c V) (hH0 : W42 (F := Ideal) m ρ c (Proc.devRef .tc Cert.KernelIdeal.main_v20) = Cert.ReferenceIdeal.Rd.Z (F := Ideal) V Cert.ReferenceIdeal.main_v21) (hH1 : W42 (F := Ideal) m ρ c (Proc.devRef .tc Cert.KernelIdeal.main_v51) = Cert.ReferenceIdeal.Rd.Z (F := Ideal) V Cert.ReferenceIdeal.main_v63) (hH2 : W42 (F := Ideal) m ρ c (Proc.devRef .tc Cert.KernelIdeal.main_v82) = Cert.ReferenceIdeal.Rd.Z (F := Ideal) V Cert.ReferenceIdeal.main_v105) (hC1 : W42 (F := Ideal) m ρ c (Proc.devRef .tc Cert.KernelIdeal.main_v98) = Cert.ReferenceIdeal.Rd.Z (F := Ideal) V Cert.ReferenceIdeal.main_v127) (hH3 : W42 (F := Ideal) m ρ c (Proc.devRef .tc Cert.KernelIdeal.main_v119) = Cert.ReferenceIdeal.Rd.Z (F := Ideal) V Cert.ReferenceIdeal.main_v149) (hH4 : W42 (F := Ideal) m ρ c (Proc.devRef .tc Cert.KernelIdeal.main_v150) = Cert.ReferenceIdeal.Rd.Z (F := Ideal) V Cert.ReferenceIdeal.main_v191) (hH5 : W42 (F := Ideal) m ρ c (Proc.devRef .tc Cert.KernelIdeal.main_v181) = Cert.ReferenceIdeal.Rd.Z (F := Ideal) V Cert.ReferenceIdeal.main_v233) :
    W42 (F := Ideal) m ρ c (Proc.devRef .tc Cert.KernelIdeal.main_v129) = Cert.ReferenceIdeal.Rd.Z (F := Ideal) V Cert.ReferenceIdeal.main_v159 := by
  rw [Cert.KernelIdeal.Rd.v129 m ρ c, Cert.ReferenceIdeal.Rd.v159 V, p_v127 m ρ c V hA, p_v128 m ρ c V hA, p_v126 m ρ c V hA hH0 hH1 hH2 hC1 hH3 hH4 hH5, q_v157 V, q_v158 V, scatter2_eq]
theorem p_v157 (c : Dev Cert.KernelIdeal.nD) (V : Valuation Cert.ReferenceIdeal.τ Cert.ReferenceIdeal.sig (Elt Ideal)) (hA : Agree m ρ c V) (hH0 : W42 (F := Ideal) m ρ c (Proc.devRef .tc Cert.KernelIdeal.main_v20) = Cert.ReferenceIdeal.Rd.Z (F := Ideal) V Cert.ReferenceIdeal.main_v21) (hH1 : W42 (F := Ideal) m ρ c (Proc.devRef .tc Cert.KernelIdeal.main_v51) = Cert.ReferenceIdeal.Rd.Z (F := Ideal) V Cert.ReferenceIdeal.main_v63) (hH2 : W42 (F := Ideal) m ρ c (Proc.devRef .tc Cert.KernelIdeal.main_v82) = Cert.ReferenceIdeal.Rd.Z (F := Ideal) V Cert.ReferenceIdeal.main_v105) (hC1 : W42 (F := Ideal) m ρ c (Proc.devRef .tc Cert.KernelIdeal.main_v98) = Cert.ReferenceIdeal.Rd.Z (F := Ideal) V Cert.ReferenceIdeal.main_v127) (hH3 : W42 (F := Ideal) m ρ c (Proc.devRef .tc Cert.KernelIdeal.main_v119) = Cert.ReferenceIdeal.Rd.Z (F := Ideal) V Cert.ReferenceIdeal.main_v149) (hH4 : W42 (F := Ideal) m ρ c (Proc.devRef .tc Cert.KernelIdeal.main_v150) = Cert.ReferenceIdeal.Rd.Z (F := Ideal) V Cert.ReferenceIdeal.main_v191) (hH5 : W42 (F := Ideal) m ρ c (Proc.devRef .tc Cert.KernelIdeal.main_v181) = Cert.ReferenceIdeal.Rd.Z (F := Ideal) V Cert.ReferenceIdeal.main_v233) :
    W42 (F := Ideal) m ρ c (Proc.devRef .tc Cert.KernelIdeal.main_v157) = Cert.ReferenceIdeal.Rd.Z (F := Ideal) V Cert.ReferenceIdeal.main_v198 := by
  rw [Cert.KernelIdeal.Rd.v157 m ρ c, Cert.ReferenceIdeal.Rd.v198 V, hH4, p_v156 m ρ c V hA, q_v197 V, gather_eq]
theorem p_v160 (c : Dev Cert.KernelIdeal.nD) (V : Valuation Cert.ReferenceIdeal.τ Cert.ReferenceIdeal.sig (Elt Ideal)) (hA : Agree m ρ c V) (hH0 : W42 (F := Ideal) m ρ c (Proc.devRef .tc Cert.KernelIdeal.main_v20) = Cert.ReferenceIdeal.Rd.Z (F := Ideal) V Cert.ReferenceIdeal.main_v21) (hH1 : W42 (F := Ideal) m ρ c (Proc.devRef .tc Cert.KernelIdeal.main_v51) = Cert.ReferenceIdeal.Rd.Z (F := Ideal) V Cert.ReferenceIdeal.main_v63) (hH2 : W42 (F := Ideal) m ρ c (Proc.devRef .tc Cert.KernelIdeal.main_v82) = Cert.ReferenceIdeal.Rd.Z (F := Ideal) V Cert.ReferenceIdeal.main_v105) (hC1 : W42 (F := Ideal) m ρ c (Proc.devRef .tc Cert.KernelIdeal.main_v98) = Cert.ReferenceIdeal.Rd.Z (F := Ideal) V Cert.ReferenceIdeal.main_v127) (hH3 : W42 (F := Ideal) m ρ c (Proc.devRef .tc Cert.KernelIdeal.main_v119) = Cert.ReferenceIdeal.Rd.Z (F := Ideal) V Cert.ReferenceIdeal.main_v149) (hH4 : W42 (F := Ideal) m ρ c (Proc.devRef .tc Cert.KernelIdeal.main_v150) = Cert.ReferenceIdeal.Rd.Z (F := Ideal) V Cert.ReferenceIdeal.main_v191) (hH5 : W42 (F := Ideal) m ρ c (Proc.devRef .tc Cert.KernelIdeal.main_v181) = Cert.ReferenceIdeal.Rd.Z (F := Ideal) V Cert.ReferenceIdeal.main_v233) :
    W42 (F := Ideal) m ρ c (Proc.devRef .tc Cert.KernelIdeal.main_v160) = Cert.ReferenceIdeal.Rd.Z (F := Ideal) V Cert.ReferenceIdeal.main_v201 := by
  rw [Cert.KernelIdeal.Rd.v160 m ρ c, Cert.ReferenceIdeal.Rd.v201 V, p_v158 m ρ c V hA, p_v159 m ρ c V hA, p_v157 m ρ c V hA hH0 hH1 hH2 hC1 hH3 hH4 hH5, q_v199 V, q_v200 V, scatter2_eq]
theorem p_v188 (c : Dev Cert.KernelIdeal.nD) (V : Valuation Cert.ReferenceIdeal.τ Cert.ReferenceIdeal.sig (Elt Ideal)) (hA : Agree m ρ c V) (hH0 : W42 (F := Ideal) m ρ c (Proc.devRef .tc Cert.KernelIdeal.main_v20) = Cert.ReferenceIdeal.Rd.Z (F := Ideal) V Cert.ReferenceIdeal.main_v21) (hH1 : W42 (F := Ideal) m ρ c (Proc.devRef .tc Cert.KernelIdeal.main_v51) = Cert.ReferenceIdeal.Rd.Z (F := Ideal) V Cert.ReferenceIdeal.main_v63) (hH2 : W42 (F := Ideal) m ρ c (Proc.devRef .tc Cert.KernelIdeal.main_v82) = Cert.ReferenceIdeal.Rd.Z (F := Ideal) V Cert.ReferenceIdeal.main_v105) (hC1 : W42 (F := Ideal) m ρ c (Proc.devRef .tc Cert.KernelIdeal.main_v98) = Cert.ReferenceIdeal.Rd.Z (F := Ideal) V Cert.ReferenceIdeal.main_v127) (hH3 : W42 (F := Ideal) m ρ c (Proc.devRef .tc Cert.KernelIdeal.main_v119) = Cert.ReferenceIdeal.Rd.Z (F := Ideal) V Cert.ReferenceIdeal.main_v149) (hH4 : W42 (F := Ideal) m ρ c (Proc.devRef .tc Cert.KernelIdeal.main_v150) = Cert.ReferenceIdeal.Rd.Z (F := Ideal) V Cert.ReferenceIdeal.main_v191) (hH5 : W42 (F := Ideal) m ρ c (Proc.devRef .tc Cert.KernelIdeal.main_v181) = Cert.ReferenceIdeal.Rd.Z (F := Ideal) V Cert.ReferenceIdeal.main_v233) :
    W42 (F := Ideal) m ρ c (Proc.devRef .tc Cert.KernelIdeal.main_v188) = Cert.ReferenceIdeal.Rd.Z (F := Ideal) V Cert.ReferenceIdeal.main_v240 := by
  rw [Cert.KernelIdeal.Rd.v188 m ρ c, Cert.ReferenceIdeal.Rd.v240 V, hH5, p_v187 m ρ c V hA, q_v239 V, gather_eq]
theorem p_v191 (c : Dev Cert.KernelIdeal.nD) (V : Valuation Cert.ReferenceIdeal.τ Cert.ReferenceIdeal.sig (Elt Ideal)) (hA : Agree m ρ c V) (hH0 : W42 (F := Ideal) m ρ c (Proc.devRef .tc Cert.KernelIdeal.main_v20) = Cert.ReferenceIdeal.Rd.Z (F := Ideal) V Cert.ReferenceIdeal.main_v21) (hH1 : W42 (F := Ideal) m ρ c (Proc.devRef .tc Cert.KernelIdeal.main_v51) = Cert.ReferenceIdeal.Rd.Z (F := Ideal) V Cert.ReferenceIdeal.main_v63) (hH2 : W42 (F := Ideal) m ρ c (Proc.devRef .tc Cert.KernelIdeal.main_v82) = Cert.ReferenceIdeal.Rd.Z (F := Ideal) V Cert.ReferenceIdeal.main_v105) (hC1 : W42 (F := Ideal) m ρ c (Proc.devRef .tc Cert.KernelIdeal.main_v98) = Cert.ReferenceIdeal.Rd.Z (F := Ideal) V Cert.ReferenceIdeal.main_v127) (hH3 : W42 (F := Ideal) m ρ c (Proc.devRef .tc Cert.KernelIdeal.main_v119) = Cert.ReferenceIdeal.Rd.Z (F := Ideal) V Cert.ReferenceIdeal.main_v149) (hH4 : W42 (F := Ideal) m ρ c (Proc.devRef .tc Cert.KernelIdeal.main_v150) = Cert.ReferenceIdeal.Rd.Z (F := Ideal) V Cert.ReferenceIdeal.main_v191) (hH5 : W42 (F := Ideal) m ρ c (Proc.devRef .tc Cert.KernelIdeal.main_v181) = Cert.ReferenceIdeal.Rd.Z (F := Ideal) V Cert.ReferenceIdeal.main_v233) :
    W42 (F := Ideal) m ρ c (Proc.devRef .tc Cert.KernelIdeal.main_v191) = Cert.ReferenceIdeal.Rd.Z (F := Ideal) V Cert.ReferenceIdeal.main_v243 := by
  rw [Cert.KernelIdeal.Rd.v191 m ρ c, Cert.ReferenceIdeal.Rd.v243 V, p_v189 m ρ c V hA, p_v190 m ρ c V hA, p_v188 m ρ c V hA hH0 hH1 hH2 hC1 hH3 hH4 hH5, q_v241 V, q_v242 V, scatter2_eq]

end Cert.Bridge

end
-- ==== Proof.Spec.lean ====
/-
  The node-level functions of a two-layer heterogeneous graph convolution, as plain functions of whole arrays over the
  extended reals, index by index.  N = 100000 nodes; feature widths 256 → 128 → 128 → 16; three relations.

  * smm256 / smm128: every row i of x is scaled by t i and then multiplied by the matrix w:
      out (i, c) = ∑ k, (x (i, k) · t i) · w (k, c).
  * comb: the three aggregated relation messages, each row scaled by that relation's in-degree factor, summed, plus the
    sum over the three relations of the bias rows:
      out (i, c) = ((a0 (i,c) · t0 i + a1 (i,c) · t1 i) + a2 (i,c) · t2 i) + ∑ r, b (r, c).
  * fc: out (i, c) = (∑ k, h (i, k) · w (k, c)) + b c.
-/
import Idealize.ShloMosaic.PureOps.Ideal
import Idealize.ShloMosaic.Lib.ValueIdx

noncomputable section

namespace HGcn

open Idealize.ShloMosaic Idealize.ShloMosaic.ValueIdx

abbrev Sn : Shape := ⟨1, ![100000]⟩
abbrev SnA : Shape := ⟨2, ![100000, 256]⟩
abbrev SnB : Shape := ⟨2, ![100000, 128]⟩
abbrev SnC : Shape := ⟨2, ![100000, 16]⟩
abbrev SAB : Shape := ⟨2, ![256, 128]⟩
abbrev SBB : Shape := ⟨2, ![128, 128]⟩
abbrev SBC : Shape := ⟨2, ![128, 16]⟩
abbrev S3B : Shape := ⟨2, ![3, 128]⟩
abbrev SC : Shape := ⟨1, ![16]⟩

/-- Row i scaled by t i, times w, at (i, c); inner width 256. -/
def smmAt256 (x : SnA.Idx → EReal) (t : Sn.Idx → EReal) (w : SAB.Idx → EReal) (i : Fin 100000) (c : Fin 128) : EReal :=
  ∑ k : Fin 256, (x (ix2 i k) * t (ix1 i)) * w (ix2 k c)

def smm256 (x : SnA.Idx → EReal) (t : Sn.Idx → EReal) (w : SAB.Idx → EReal) : SnB.Idx → EReal :=
  fun j => smmAt256 x t w (j 0) (j 1)

theorem smm256_ix2 (x : SnA.Idx → EReal) (t : Sn.Idx → EReal) (w : SAB.Idx → EReal) (i : Fin 100000) (c : Fin 128) :
    smm256 x t w (ix2 i c) = smmAt256 x t w i c := rfl

/-- Row i scaled by t i, times w, at (i, c); inner width 128. -/
def smmAt128 (x : SnB.Idx → EReal) (t : Sn.Idx → EReal) (w : SBB.Idx → EReal) (i : Fin 100000) (c : Fin 128) : EReal :=
  ∑ k : Fin 128, (x (ix2 i k) * t (ix1 i)) * w (ix2 k c)

def smm128 (x : SnB.Idx → EReal) (t : Sn.Idx → EReal) (w : SBB.Idx → EReal) : SnB.Idx → EReal :=
  fun j => smmAt128 x t w (j 0) (j 1)

theorem smm128_ix2 (x : SnB.Idx → EReal) (t : Sn.Idx → EReal) (w : SBB.Idx → EReal) (i : Fin 100000) (c : Fin 128) :
    smm128 x t w (ix2 i c) = smmAt128 x t w i c := rfl

/-- The scaled sum of the three relation messages plus the summed bias rows, at (i, c). -/
def combAt (a0 a1 a2 : SnB.Idx → EReal) (t0 t1 t2 : Sn.Idx → EReal) (b : S3B.Idx → EReal) (i : Fin 100000) (c : Fin 128) : EReal :=
  ((a0 (ix2 i c) * t0 (ix1 i) + a1 (ix2 i c) * t1 (ix1 i)) + a2 (ix2 i c) * t2 (ix1 i)) + ∑ r : Fin 3, b (ix2 r c)

def comb (a0 a1 a2 : SnB.Idx → EReal) (t0 t1 t2 : Sn.Idx → EReal) (b : S3B.Idx → EReal) : SnB.Idx → EReal :=
  fun j => combAt a0 a1 a2 t0 t1 t2 b (j 0) (j 1)

theorem comb_ix2 (a0 a1 a2 : SnB.Idx → EReal) (t0 t1 t2 : Sn.Idx → EReal) (b : S3B.Idx → EReal) (i : Fin 100000) (c : Fin 128) :
    comb a0 a1 a2 t0 t1 t2 b (ix2 i c) = combAt a0 a1 a2 t0 t1 t2 b i c := rfl

/-- The final linear layer at (i, c). -/
def fcAt (h : SnB.Idx → EReal) (w : SBC.Idx → EReal) (b : SC.Idx → EReal) (i : Fin 100000) (c : Fin 16) : EReal :=
  (∑ k : Fin 128, h (ix2 i k) * w (ix2 k c)) + b (ix1 c)

def fc (h : SnB.Idx → EReal) (w : SBC.Idx → EReal) (b : SC.Idx → EReal) : SnC.Idx → EReal :=
  fun j => fcAt h w b (j 0) (j 1)

theorem fc_ix2 (h : SnB.Idx → EReal) (w : SBC.Idx → EReal) (b : SC.Idx → EReal) (i : Fin 100000) (c : Fin 16) :
    fc h w b (ix2 i c) = fcAt h w b i c := rfl

end HGcn

end
-- ==== Proof.SmmPay.lean ====
/-
  The body of a scaled-product region, read at one entry of its block.  The body takes a block x of 2000 rows, the
  column s of their 2000 scale factors and the whole matrix w, spreads s along each row, multiplies entrywise and
  contracts with w into a zero accumulator (the two changes of float format and the identity re-layouts in between do nothing on
  the extended reals).  At (p, q) of the block:
      ∑ k, (x (p, k) · s (p, 0)) · w (k, q).
  When the block holds rows b·2000 … b·2000 + 1999 of an array X, the column those rows of the scale vector t, and w
  the matrix W, this is the whole-array function  ∑ k, (X (i, k) · t i) · W (k, q)  at row i = b·2000 + p.
-/
import proofs.«124848_j55800215109809_1_alg».proof.Proof.Gen.KernelIdeal.Skeleton
import Idealize.ShloMosaic.PureOps.Ideal.Laws
import Idealize.ShloMosaic.Lib.ValueIdx
import Idealize.ShloMosaic.Lib.Pipeline.Value
import proofs.«124848_j55800215109809_1_alg».proof.Proof.Spec

noncomputable section

namespace Cert.KernelIdeal.RegionValue

open Idealize.ShloMosaic Idealize.ShloMosaic.ValueIdx Cert.KernelIdeal Cert.KernelIdeal.Gen

/-- The offsets of a rank-2 access at the origin, as the constant zero function. -/
theorem zero_offsets : (![0, 0] : Fin 2 → Nat) = fun _ => 0 := funext fun a => by fin_cases a <;> rfl

/-- A column [a, 1] spread along rows to [a, b] reads, at (p, c), the column at (p, 0). -/
theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] laid out as the column [a, 1] reads, at (i, 0), the vector at i. -/
theorem shapeCast_col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The product of a [2000, 256] block and a [256, 128] matrix into a zero accumulator, at (p, q). -/
theorem matmul256_apply (l : FVec Ideal S2000x256 .bf16) (r : FVec Ideal S256x128 .bf16) (p : Fin 2000) (q : Fin 128) :
    FloatOps.matmul dot_S2000x256_S256x128_S2000x128_1_0_0_1_n_n none l r
        (constant (F := Ideal) S2000x128 .f32 0x00000000#32) (ix2 p q)
      = ∑ k : Fin 256, l (ix2 p k) * r (ix2 k q) := by
  rw [Ideal.matmul_constant_zero_apply,
    ← Equiv.sum_comp (contrEquiv1 dot_S2000x256_S256x128_S2000x128_1_0_0_1_n_n 256 rfl rfl).symm]
  refine Finset.sum_congr rfl fun k _ => ?_
  have ck := contrEquiv1_symm_val dot_S2000x256_S256x128_S2000x128_1_0_0_1_n_n 256 rfl rfl k
  have el : dot_S2000x256_S256x128_S2000x128_1_0_0_1_n_n.lhsIdx (ix2 p q)
      ((contrEquiv1 dot_S2000x256_S256x128_S2000x128_1_0_0_1_n_n 256 rfl rfl).symm k) = ix2 p k := by
    funext ax; apply Fin.ext
    match ax with
    | ⟨0, _⟩ => simp [DotDims.lhsIdx, dot_S2000x256_S256x128_S2000x128_1_0_0_1_n_n]; rfl
    | ⟨1, _⟩ =>
      exact (DotDims.lhsIdx_val_of_single dot_S2000x256_S256x128_S2000x128_1_0_0_1_n_n (cl := 1) rfl _ _).trans ck
  have er : dot_S2000x256_S256x128_S2000x128_1_0_0_1_n_n.rhsIdx (ix2 p q)
      ((contrEquiv1 dot_S2000x256_S256x128_S2000x128_1_0_0_1_n_n 256 rfl rfl).symm k) = ix2 k q := by
    funext ax; apply Fin.ext
    match ax with
    | ⟨0, _⟩ =>
      exact (DotDims.rhsIdx_val_of_single dot_S2000x256_S256x128_S2000x128_1_0_0_1_n_n (cr := 0) rfl _ _).trans ck
    | ⟨1, _⟩ => simp [DotDims.rhsIdx, dot_S2000x256_S256x128_S2000x128_1_0_0_1_n_n]; rfl
  rw [el, er]

/-- The product of a [2000, 128] block and a [128, 128] matrix into a zero accumulator, at (p, q). -/
theorem matmul128_apply (l : FVec Ideal S2000x128 .bf16) (r : FVec Ideal S128x128 .bf16) (p : Fin 2000) (q : Fin 128) :
    FloatOps.matmul dot_S2000x128_S128x128_S2000x128_1_0_0_1_n_n none l r
        (constant (F := Ideal) S2000x128 .f32 0x00000000#32) (ix2 p q)
      = ∑ k : Fin 128, l (ix2 p k) * r (ix2 k q) := by
  rw [Ideal.matmul_constant_zero_apply,
    ← Equiv.sum_comp (contrEquiv1 dot_S2000x128_S128x128_S2000x128_1_0_0_1_n_n 128 rfl rfl).symm]
  refine Finset.sum_congr rfl fun k _ => ?_
  have ck := contrEquiv1_symm_val dot_S2000x128_S128x128_S2000x128_1_0_0_1_n_n 128 rfl rfl k
  have el : dot_S2000x128_S128x128_S2000x128_1_0_0_1_n_n.lhsIdx (ix2 p q)
      ((contrEquiv1 dot_S2000x128_S128x128_S2000x128_1_0_0_1_n_n 128 rfl rfl).symm k) = ix2 p k := by
    funext ax; apply Fin.ext
    match ax with
    | ⟨0, _⟩ => simp [DotDims.lhsIdx, dot_S2000x128_S128x128_S2000x128_1_0_0_1_n_n]; rfl
    | ⟨1, _⟩ =>
      exact (DotDims.lhsIdx_val_of_single dot_S2000x128_S128x128_S2000x128_1_0_0_1_n_n (cl := 1) rfl _ _).trans ck
  have er : dot_S2000x128_S128x128_S2000x128_1_0_0_1_n_n.rhsIdx (ix2 p q)
      ((contrEquiv1 dot_S2000x128_S128x128_S2000x128_1_0_0_1_n_n 128 rfl rfl).symm k) = ix2 k q := by
    funext ax; apply Fin.ext
    match ax with
    | ⟨0, _⟩ =>
      exact (DotDims.rhsIdx_val_of_single dot_S2000x128_S128x128_S2000x128_1_0_0_1_n_n (cr := 0) rfl _ _).trans ck
    | ⟨1, _⟩ => simp [DotDims.rhsIdx, dot_S2000x128_S128x128_S2000x128_1_0_0_1_n_n]; rfl
  rw [el, er]

/-- The width-256 body's arithmetic at (p, q) of its block. -/
theorem body256_apply (x0 : Vec Ideal S2000x256 .f32) (x1 : Vec Ideal S2000x1 .f32) (x2 : Vec Ideal S256x128 .f32)
    (h1 : S2000x1.ShapeCasts S2000x1) (h2 : S256x128.ShapeCasts S256x128) (hb : S2000x1.Broadcasts S2000x256)
    (hlt : FTy.bits .bf16 < FTy.bits .f32) (p : Fin 2000) (q : Fin 128) :
    matmul (F := Ideal) dot_S2000x256_S256x128_S2000x128_1_0_0_1_n_n none
        (truncf .bf16 (mulf x0 (broadcastTo S2000x256 (shapeCast S2000x1 x1 h1) hb)) hlt)
        (truncf .bf16 (shapeCast S256x128 x2 h2) hlt)
        (constant S2000x128 .f32 0x00000000#32) (ix2 p q)
      = ∑ k : Fin 256, (x0 (ix2 p k) * x1 (ix2 p (0 : Fin 1))) * x2 (ix2 k q) := by
  refine (matmul256_apply _ _ p q).trans ?_
  refine Finset.sum_congr rfl fun k _ => ?_
  show (x0 (ix2 p k) * broadcastTo S2000x256 (shapeCast S2000x1 x1 h1) hb (ix2 p k)) * shapeCast S256x128 x2 h2 (ix2 k q) = _
  rw [shapeCast_self, shapeCast_self, broadcastTo_col_apply]

/-- The width-128 body's arithmetic at (p, q) of its block. -/
theorem body128_apply (x0 : Vec Ideal S2000x128 .f32) (x1 : Vec Ideal S2000x1 .f32) (x2 : Vec Ideal S128x128 .f32)
    (h0 : S2000x128.ShapeCasts S2000x128) (h1 : S2000x1.ShapeCasts S2000x1) (h2 : S128x128.ShapeCasts S128x128)
    (hb : S2000x1.Broadcasts S2000x128)
    (hlt : FTy.bits .bf16 < FTy.bits .f32) (p : Fin 2000) (q : Fin 128) :
    matmul (F := Ideal) dot_S2000x128_S128x128_S2000x128_1_0_0_1_n_n none
        (truncf .bf16 (mulf (shapeCast S2000x128 x0 h0) (broadcastTo S2000x128 (shapeCast S2000x1 x1 h1) hb)) hlt)
        (truncf .bf16 (shapeCast S128x128 x2 h2) hlt)
        (constant S2000x128 .f32 0x00000000#32) (ix2 p q)
      = ∑ k : Fin 128, (x0 (ix2 p k) * x1 (ix2 p (0 : Fin 1))) * x2 (ix2 k q) := by
  refine (matmul128_apply _ _ p q).trans ?_
  refine Finset.sum_congr rfl fun k _ => ?_
  show (shapeCast S2000x128 x0 h0 (ix2 p k) * broadcastTo S2000x128 (shapeCast S2000x1 x1 h1) hb (ix2 p k))
      * shapeCast S128x128 x2 h2 (ix2 k q) = _
  rw [shapeCast_self, shapeCast_self, shapeCast_self, broadcastTo_col_apply]

/-- A block value S with the width-256 body's arithmetic, over a block holding rows b·2000 … of X, those rows of the
    scale vector t as a column, and the matrix W, is the whole-array scaled product at row b·2000 + (j 0). -/
theorem block256 (X : HGcn.SnA.Idx → EReal) (t : HGcn.Sn.Idx → EReal) (W : HGcn.SAB.Idx → EReal) (b : ℕ)
    (x0 : Vec Ideal S2000x256 .f32) (x1 : Vec Ideal S2000x1 .f32) (x2 : Vec Ideal S256x128 .f32)
    (S : Vec Ideal S2000x128 .f32)
    (hS : ∀ (p : Fin 2000) (q : Fin 128), S (ix2 p q) = ∑ k : Fin 256, (x0 (ix2 p k) * x1 (ix2 p (0 : Fin 1))) * x2 (ix2 k q))
    (h0 : ∀ (p : Fin 2000) (k : Fin 256) (hp : b * 2000 + p.val < 100000), x0 (ix2 p k) = X (ix2 ⟨b * 2000 + p.val, hp⟩ k))
    (h1 : ∀ (p : Fin 2000) (hp : b * 2000 + p.val < 100000), x1 (ix2 p (0 : Fin 1)) = t (ix1 ⟨b * 2000 + p.val, hp⟩))
    (h2 : ∀ (k : Fin 256) (q : Fin 128), x2 (ix2 k q) = W (ix2 k q))
    (p : Fin 2000) (q : Fin 128) (hp : b * 2000 + p.val < 100000) :
    S (ix2 p q) = HGcn.smm256 X t W (ix2 ⟨b * 2000 + p.val, hp⟩ q) := by
  rw [hS, HGcn.smm256_ix2]
  unfold HGcn.smmAt256
  refine Finset.sum_congr rfl fun k _ => ?_
  rw [h0 p k hp, h1 p hp, h2 k q]

/-- The same for the width-128 body. -/
theorem block128 (X : HGcn.SnB.Idx → EReal) (t : HGcn.Sn.Idx → EReal) (W : HGcn.SBB.Idx → EReal) (b : ℕ)
    (x0 : Vec Ideal S2000x128 .f32) (x1 : Vec Ideal S2000x1 .f32) (x2 : Vec Ideal S128x128 .f32)
    (S : Vec Ideal S2000x128 .f32)
    (hS : ∀ (p : Fin 2000) (q : Fin 128), S (ix2 p q) = ∑ k : Fin 128, (x0 (ix2 p k) * x1 (ix2 p (0 : Fin 1))) * x2 (ix2 k q))
    (h0 : ∀ (p : Fin 2000) (k : Fin 128) (hp : b * 2000 + p.val < 100000), x0 (ix2 p k) = X (ix2 ⟨b * 2000 + p.val, hp⟩ k))
    (h1 : ∀ (p : Fin 2000) (hp : b * 2000 + p.val < 100000), x1 (ix2 p (0 : Fin 1)) = t (ix1 ⟨b * 2000 + p.val, hp⟩))
    (h2 : ∀ (k : Fin 128) (q : Fin 128), x2 (ix2 k q) = W (ix2 k q))
    (p : Fin 2000) (q : Fin 128) (hp : b * 2000 + p.val < 100000) :
    S (ix2 p q) = HGcn.smm128 X t W (ix2 ⟨b * 2000 + p.val, hp⟩ q) := by
  rw [hS, HGcn.smm128_ix2]
  unfold HGcn.smmAt128
  refine Finset.sum_congr rfl fun k _ => ?_
  rw [h0 p k hp, h1 p hp, h2 k q]

/-- The same two facts at a block index j given whole (its row is j 0, its column j 1). -/
theorem block256_at (X : HGcn.SnA.Idx → EReal) (t : HGcn.Sn.Idx → EReal) (W : HGcn.SAB.Idx → EReal) (b : ℕ)
    (x0 : Vec Ideal S2000x256 .f32) (x1 : Vec Ideal S2000x1 .f32) (x2 : Vec Ideal S256x128 .f32)
    (S : Vec Ideal S2000x128 .f32)
    (hS : ∀ (p : Fin 2000) (q : Fin 128), S (ix2 p q) = ∑ k : Fin 256, (x0 (ix2 p k) * x1 (ix2 p (0 : Fin 1))) * x2 (ix2 k q))
    (h0 : ∀ (p : Fin 2000) (k : Fin 256) (hp : b * 2000 + p.val < 100000), x0 (ix2 p k) = X (ix2 ⟨b * 2000 + p.val, hp⟩ k))
    (h1 : ∀ (p : Fin 2000) (hp : b * 2000 + p.val < 100000), x1 (ix2 p (0 : Fin 1)) = t (ix1 ⟨b * 2000 + p.val, hp⟩))
    (h2 : ∀ (k : Fin 256) (q : Fin 128), x2 (ix2 k q) = W (ix2 k q))
    (j : S2000x128.Idx) (hp : b * 2000 + (j 0).val < 100000) :
    S j = HGcn.smm256 X t W (ix2 ⟨b * 2000 + (j 0).val, hp⟩ (j 1)) := by
  obtain ⟨p, q, rfl⟩ : ∃ (p : Fin 2000) (q : Fin 128), j = ix2 p q := ⟨j 0, j 1, eq_ix2 j⟩
  exact block256 X t W b x0 x1 x2 S hS h0 h1 h2 p q hp

theorem block128_at (X : HGcn.SnB.Idx → EReal) (t : HGcn.Sn.Idx → EReal) (W : HGcn.SBB.Idx → EReal) (b : ℕ)
    (x0 : Vec Ideal S2000x128 .f32) (x1 : Vec Ideal S2000x1 .f32) (x2 : Vec Ideal S128x128 .f32)
    (S : Vec Ideal S2000x128 .f32)
    (hS : ∀ (p : Fin 2000) (q : Fin 128), S (ix2 p q) = ∑ k : Fin 128, (x0 (ix2 p k) * x1 (ix2 p (0 : Fin 1))) * x2 (ix2 k q))
    (h0 : ∀ (p : Fin 2000) (k : Fin 128) (hp : b * 2000 + p.val < 100000), x0 (ix2 p k) = X (ix2 ⟨b * 2000 + p.val, hp⟩ k))
    (h1 : ∀ (p : Fin 2000) (hp : b * 2000 + p.val < 100000), x1 (ix2 p (0 : Fin 1)) = t (ix1 ⟨b * 2000 + p.val, hp⟩))
    (h2 : ∀ (k : Fin 128) (q : Fin 128), x2 (ix2 k q) = W (ix2 k q))
    (j : S2000x128.Idx) (hp : b * 2000 + (j 0).val < 100000) :
    S j = HGcn.smm128 X t W (ix2 ⟨b * 2000 + (j 0).val, hp⟩ (j 1)) := by
  obtain ⟨p, q, rfl⟩ : ∃ (p : Fin 2000) (q : Fin 128), j = ix2 p q := ⟨j 0, j 1, eq_ix2 j⟩
  exact block128 X t W b x0 x1 x2 S hS h0 h1 h2 p q hp

/-- The six bodies are that arithmetic. -/
theorem k0_pay1_apply (x0 : Vec Ideal S2000x256 .f32) (x1 : Vec Ideal S2000x1 .f32) (x2 : Vec Ideal S256x128 .f32)
    (p : Fin 2000) (q : Fin 128) :
    k0_pay1 x0 x1 x2 (ix2 p q) = ∑ k : Fin 256, (x0 (ix2 p k) * x1 (ix2 p (0 : Fin 1))) * x2 (ix2 k q) := by
  unfold k0_pay1
  exact body256_apply x0 x1 x2 _ _ _ _ p q

theorem k1_pay1_apply (x0 : Vec Ideal S2000x256 .f32) (x1 : Vec Ideal S2000x1 .f32) (x2 : Vec Ideal S256x128 .f32)
    (p : Fin 2000) (q : Fin 128) :
    k1_pay1 x0 x1 x2 (ix2 p q) = ∑ k : Fin 256, (x0 (ix2 p k) * x1 (ix2 p (0 : Fin 1))) * x2 (ix2 k q) := by
  unfold k1_pay1
  exact body256_apply x0 x1 x2 _ _ _ _ p q

theorem k2_pay1_apply (x0 : Vec Ideal S2000x256 .f32) (x1 : Vec Ideal S2000x1 .f32) (x2 : Vec Ideal S256x128 .f32)
    (p : Fin 2000) (q : Fin 128) :
    k2_pay1 x0 x1 x2 (ix2 p q) = ∑ k : Fin 256, (x0 (ix2 p k) * x1 (ix2 p (0 : Fin 1))) * x2 (ix2 k q) := by
  unfold k2_pay1
  exact body256_apply x0 x1 x2 _ _ _ _ p q

theorem k4_pay1_apply (x0 : Vec Ideal S2000x128 .f32) (x1 : Vec Ideal S2000x1 .f32) (x2 : Vec Ideal S128x128 .f32)
    (p : Fin 2000) (q : Fin 128) :
    k4_pay1 x0 x1 x2 (ix2 p q) = ∑ k : Fin 128, (x0 (ix2 p k) * x1 (ix2 p (0 : Fin 1))) * x2 (ix2 k q) := by
  unfold k4_pay1
  exact body128_apply x0 x1 x2 _ _ _ _ _ p q

theorem k5_pay1_apply (x0 : Vec Ideal S2000x128 .f32) (x1 : Vec Ideal S2000x1 .f32) (x2 : Vec Ideal S128x128 .f32)
    (p : Fin 2000) (q : Fin 128) :
    k5_pay1 x0 x1 x2 (ix2 p q) = ∑ k : Fin 128, (x0 (ix2 p k) * x1 (ix2 p (0 : Fin 1))) * x2 (ix2 k q) := by
  unfold k5_pay1
  exact body128_apply x0 x1 x2 _ _ _ _ _ p q

theorem k6_pay1_apply (x0 : Vec Ideal S2000x128 .f32) (x1 : Vec Ideal S2000x1 .f32) (x2 : Vec Ideal S128x128 .f32)
    (p : Fin 2000) (q : Fin 128) :
    k6_pay1 x0 x1 x2 (ix2 p q) = ∑ k : Fin 128, (x0 (ix2 p k) * x1 (ix2 p (0 : Fin 1))) * x2 (ix2 k q) := by
  unfold k6_pay1
  exact body128_apply x0 x1 x2 _ _ _ _ _ p q

end Cert.KernelIdeal.RegionValue

end
-- ==== Proof.SmmKernel0.lean ====
/-
  Region 0: a scaled product of inner width 256.  Grid point t handles rows t·2000 … t·2000 + 1999: it reads that
  row block of the input, the same rows of the scale column, the whole matrix, and writes that row block of the
  output.  Every output row r lies in the block of point r / 2000, so after the run the output array is the
  whole-array function  (i, c) ↦ ∑ k, (x (i, k) · t i) · w (k, c).
-/
import proofs.«124848_j55800215109809_1_alg».proof.Proof.Gen.KernelIdeal.Frame
import proofs.«124848_j55800215109809_1_alg».proof.Proof.SmmPay

noncomputable section

namespace Cert.KernelIdeal.RegionValue

open Idealize.ShloMosaic Idealize.ShloMosaic.ValueIdx Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The block indices of the four windows at grid point t: the row-blocked windows sit at block row t, the matrix at
    the origin. -/
theorem index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The input block at point t holds rows t·2000 … of the input array. -/
theorem blk0_0 (c : Dev nD) (t : Fin cfg0.N) (p : Fin 2000) (k : Fin 256) (hp : t.val * 2000 + p.val < 100000) :
    (iblk0 V c 0 t : Vec Ideal S2000x256 .f32) (ix2 p k)
      = (V c main_arg0 : S100000x256.Idx → EReal) (ix2 ⟨t.val * 2000 + p.val, hp⟩ k) := by
  obtain ⟨e0, e1, -⟩ := index0 t
  unfold iblk0
  rw [View.read_apply]
  show (V c main_arg0 : S100000x256.Idx → EReal) _ = (V c main_arg0 : S100000x256.Idx → EReal) _
  congr 1
  funext a
  apply Fin.ext
  match a with
  | ⟨0, _⟩ => show win0_0.index t (0 : Fin 2) * 2000 + 1 * p.val = t.val * 2000 + p.val; rw [e0]; omega
  | ⟨1, _⟩ => show win0_0.index t (1 : Fin 2) * 256 + 1 * k.val = k.val; rw [e1]; omega

/-- The scale block at point t holds rows t·2000 … of the scale column. -/
theorem blk0_1 (c : Dev nD) (t : Fin cfg0.N) (p : Fin 2000) (hp : t.val * 2000 + p.val < 100000) :
    (iblk0 V c 1 t : Vec Ideal S2000x1 .f32) (ix2 p (0 : Fin 1))
      = (V c main_v19 : S100000x1.Idx → EReal) (ix2 ⟨t.val * 2000 + p.val, hp⟩ (0 : Fin 1)) := by
  obtain ⟨-, -, e2, e3, -⟩ := index0 t
  unfold iblk0
  rw [View.read_apply]
  show (V c main_v19 : S100000x1.Idx → EReal) _ = (V c main_v19 : S100000x1.Idx → EReal) _
  congr 1
  funext a
  apply Fin.ext
  match a with
  | ⟨0, _⟩ => show win0_1.index t (0 : Fin 2) * 2000 + 1 * p.val = t.val * 2000 + p.val; rw [e2]; omega
  | ⟨1, _⟩ => show win0_1.index t (1 : Fin 2) * 1 + 1 * 0 = 0; rw [e3]

/-- The matrix block at every point is the whole matrix. -/
theorem blk0_2 (c : Dev nD) (t : Fin cfg0.N) (k : Fin 256) (q : Fin 128) :
    (iblk0 V c 2 t : Vec Ideal S256x128 .f32) (ix2 k q) = (V c main_v18 : S256x128.Idx → EReal) (ix2 k q) := by
  obtain ⟨-, -, -, -, e4, e5, -⟩ := index0 t
  unfold iblk0
  rw [View.read_apply]
  show (V c main_v18 : S256x128.Idx → EReal) _ = (V c main_v18 : S256x128.Idx → EReal) _
  congr 1
  funext a
  apply Fin.ext
  match a with
  | ⟨0, _⟩ => show win0_2.index t (0 : Fin 2) * 256 + 1 * k.val = k.val; rw [e4]; omega
  | ⟨1, _⟩ => show win0_2.index t (1 : Fin 2) * 128 + 1 * q.val = q.val; rw [e5]; omega

/-- What point t writes back is block t of the whole-array scaled product. -/
theorem flushed0 (c : Dev nD) (tv : FVec Ideal S100000 .f32)
    (hcol : ∀ i : Fin 100000, (V c main_v19 : S100000x1.Idx → EReal) (ix2 i (0 : Fin 1)) = tv (ix1 i))
    (t : Fin cfg0.N) :
    (dat0 V c).flushed 3 t
      = ((cfg0.win 3).blk t).view.read (Elt Ideal) (HGcn.smm256 (V c main_arg0) tv (V c main_v18)) := by
  show (cfg0.win 3).cut (grid0.coords t) ((dat0 V c).after 3 t) = _
  rw [after0_3]
  unfold out0_3
  rw [View.canon_unit_zero zero_offsets]
  simp only [View.ld_unit_zero (S := S2000x256) zero_offsets, View.ld_unit_zero (S := S2000x1) zero_offsets,
    View.ld_unit_zero (S := S256x128) zero_offsets]
  have hN : cfg0.N = 50 := N_0
  have ht : t.val < 50 := by have := t.isLt; omega
  obtain ⟨-, -, -, -, -, -, e6, e7⟩ := index0 t
  refine funext fun (j : S2000x128.Idx) => ?_
  have hj0 : (j 0).val < 2000 := (j 0).isLt
  have hp : t.val * 2000 + (j 0).val < 100000 := by omega
  have e3 : ((cfg0.win 3).blk t).view.emb j = (ix2 ⟨t.val * 2000 + (j 0).val, hp⟩ (j 1) : S100000x128.Idx) := by
    funext a
    apply Fin.ext
    match a with
    | ⟨0, _⟩ => show win0_3.index t (0 : Fin 2) * 2000 + 1 * (j 0).val = t.val * 2000 + (j 0).val; rw [e6]; omega
    | ⟨1, _⟩ => show win0_3.index t (1 : Fin 2) * 128 + 1 * (j 1).val = (j 1).val; rw [e7]; omega
  show k0_pay1 (iblk0 V c 0 t) (iblk0 V c 1 t) (iblk0 V c 2 t) j
    = HGcn.smm256 (V c main_arg0) tv (V c main_v18) (((cfg0.win 3).blk t).view.emb j)
  refine Eq.trans ?_ (congrArg (HGcn.smm256 (V c main_arg0) tv (V c main_v18)) e3.symm)
  exact block256_at (V c main_arg0) tv (V c main_v18) t.val (iblk0 V c 0 t) (iblk0 V c 1 t) (iblk0 V c 2 t)
    (k0_pay1 (iblk0 V c 0 t) (iblk0 V c 1 t) (iblk0 V c 2 t))
    (k0_pay1_apply (iblk0 V c 0 t) (iblk0 V c 1 t) (iblk0 V c 2 t))
    (blk0_0 V c t) (fun p hp' => (blk0_1 V c t p hp').trans (hcol _)) (blk0_2 V c t) j hp

/-- An index of the output array is in point t's block iff each coordinate is in the block's range on its axis. -/
theorem mem_blk0 (t : Fin cfg0.N) (i : S100000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v20).slice (win0_3.rect t)).set ↔ _
  rw [View.set_slice_whole, Rect.mem_set_unit]
  exact Iff.rfl

/-- Row r of the output lies in the block of point r / 2000. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 50 := N_0
  obtain ⟨t, ht⟩ : ∃ t : Fin cfg0.N, t.val = (i 0).val / 2000 := ⟨⟨(i 0).val / 2000, by omega⟩, rfl⟩
  obtain ⟨-, -, -, -, -, -, e6, e7⟩ := index0 t
  refine ⟨t, flush0_3 t, ?_⟩
  rw [mem_blk0]
  intro a
  match a with
  | ⟨0, _⟩ =>
    show win0_3.index t (0 : Fin 2) * 2000 ≤ (i 0).val ∧ (i 0).val < win0_3.index t (0 : Fin 2) * 2000 + 2000
    rw [e6, ht]; omega
  | ⟨1, _⟩ =>
    show win0_3.index t (1 : Fin 2) * 128 ≤ (i 1).val ∧ (i 1).val < win0_3.index t (1 : Fin 2) * 128 + 128
    rw [e7]; omega

/-- The output array of region 0 after its run, whatever the buffers held at entry, when the scale column reads the
    vector t row by row: the scaled product of the input array by the matrix. -/
theorem region0_of_col (c : Dev nD) (t : FVec Ideal S100000 .f32)
    (hcol : ∀ i : Fin 100000, (V c main_v19 : S100000x1.Idx → EReal) (ix2 i (0 : Fin 1)) = t (ix1 i)) :
    (Gen.dat0 V c).arrAt 3 cfg0.N = HGcn.smm256 (V c main_arg0) t (V c main_v18) :=
  (dat0 V c).arrAt_eq_of_cover 3 (HGcn.smm256 (V c main_arg0) t (V c main_v18)) (fun p _ => flushed0 V c t hcol p) cover0

/-- The same with the scale column given as the vector t laid out as a column. -/
theorem region0 (c : Dev nD) (t : FVec Ideal S100000 .f32)
    (ht : V c main_v19 = shapeCast S100000x1 t shapeCasts_S100000_S100000x1) :
    (Gen.dat0 V c).arrAt 3 cfg0.N = HGcn.smm256 (V c main_arg0) t (V c main_v18) :=
  region0_of_col V c t
    fun i => (congrFun ht (ix2 i (0 : Fin 1))).trans (shapeCast_col_apply t shapeCasts_S100000_S100000x1 i 0)

end Cert.KernelIdeal.RegionValue

end
-- ==== Proof.SmmKernel1.lean ====
/-
  Region 1: a scaled product of inner width 256.  Grid point t handles rows t·2000 … t·2000 + 1999: it reads that
  row block of the input, the same rows of the scale column, the whole matrix, and writes that row block of the
  output.  Every output row r lies in the block of point r / 2000, so after the run the output array is the
  whole-array function  (i, c) ↦ ∑ k, (x (i, k) · t i) · w (k, c).
-/
import proofs.«124848_j55800215109809_1_alg».proof.Proof.Gen.KernelIdeal.Frame
import proofs.«124848_j55800215109809_1_alg».proof.Proof.SmmPay

noncomputable section

namespace Cert.KernelIdeal.RegionValue

open Idealize.ShloMosaic Idealize.ShloMosaic.ValueIdx Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The block indices of the four windows at grid point t: the row-blocked windows sit at block row t, the matrix at
    the origin. -/
theorem index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The input block at point t holds rows t·2000 … of the input array. -/
theorem blk1_0 (c : Dev nD) (t : Fin cfg1.N) (p : Fin 2000) (k : Fin 256) (hp : t.val * 2000 + p.val < 100000) :
    (iblk1 V c 0 t : Vec Ideal S2000x256 .f32) (ix2 p k)
      = (V c main_arg0 : S100000x256.Idx → EReal) (ix2 ⟨t.val * 2000 + p.val, hp⟩ k) := by
  obtain ⟨e0, e1, -⟩ := index1 t
  unfold iblk1
  rw [View.read_apply]
  show (V c main_arg0 : S100000x256.Idx → EReal) _ = (V c main_arg0 : S100000x256.Idx → EReal) _
  congr 1
  funext a
  apply Fin.ext
  match a with
  | ⟨0, _⟩ => show win1_0.index t (0 : Fin 2) * 2000 + 1 * p.val = t.val * 2000 + p.val; rw [e0]; omega
  | ⟨1, _⟩ => show win1_0.index t (1 : Fin 2) * 256 + 1 * k.val = k.val; rw [e1]; omega

/-- The scale block at point t holds rows t·2000 … of the scale column. -/
theorem blk1_1 (c : Dev nD) (t : Fin cfg1.N) (p : Fin 2000) (hp : t.val * 2000 + p.val < 100000) :
    (iblk1 V c 1 t : Vec Ideal S2000x1 .f32) (ix2 p (0 : Fin 1))
      = (V c main_v50 : S100000x1.Idx → EReal) (ix2 ⟨t.val * 2000 + p.val, hp⟩ (0 : Fin 1)) := by
  obtain ⟨-, -, e2, e3, -⟩ := index1 t
  unfold iblk1
  rw [View.read_apply]
  show (V c main_v50 : S100000x1.Idx → EReal) _ = (V c main_v50 : S100000x1.Idx → EReal) _
  congr 1
  funext a
  apply Fin.ext
  match a with
  | ⟨0, _⟩ => show win1_1.index t (0 : Fin 2) * 2000 + 1 * p.val = t.val * 2000 + p.val; rw [e2]; omega
  | ⟨1, _⟩ => show win1_1.index t (1 : Fin 2) * 1 + 1 * 0 = 0; rw [e3]

/-- The matrix block at every point is the whole matrix. -/
theorem blk1_2 (c : Dev nD) (t : Fin cfg1.N) (k : Fin 256) (q : Fin 128) :
    (iblk1 V c 2 t : Vec Ideal S256x128 .f32) (ix2 k q) = (V c main_v49 : S256x128.Idx → EReal) (ix2 k q) := by
  obtain ⟨-, -, -, -, e4, e5, -⟩ := index1 t
  unfold iblk1
  rw [View.read_apply]
  show (V c main_v49 : S256x128.Idx → EReal) _ = (V c main_v49 : S256x128.Idx → EReal) _
  congr 1
  funext a
  apply Fin.ext
  match a with
  | ⟨0, _⟩ => show win1_2.index t (0 : Fin 2) * 256 + 1 * k.val = k.val; rw [e4]; omega
  | ⟨1, _⟩ => show win1_2.index t (1 : Fin 2) * 128 + 1 * q.val = q.val; rw [e5]; omega

/-- What point t writes back is block t of the whole-array scaled product. -/
theorem flushed1 (c : Dev nD) (tv : FVec Ideal S100000 .f32)
    (hcol : ∀ i : Fin 100000, (V c main_v50 : S100000x1.Idx → EReal) (ix2 i (0 : Fin 1)) = tv (ix1 i))
    (t : Fin cfg1.N) :
    (dat1 V c).flushed 3 t
      = ((cfg1.win 3).blk t).view.read (Elt Ideal) (HGcn.smm256 (V c main_arg0) tv (V c main_v49)) := by
  show (cfg1.win 3).cut (grid1.coords t) ((dat1 V c).after 3 t) = _
  rw [after1_3]
  unfold out1_3
  rw [View.canon_unit_zero zero_offsets]
  simp only [View.ld_unit_zero (S := S2000x256) zero_offsets, View.ld_unit_zero (S := S2000x1) zero_offsets,
    View.ld_unit_zero (S := S256x128) zero_offsets]
  have hN : cfg1.N = 50 := N_1
  have ht : t.val < 50 := by have := t.isLt; omega
  obtain ⟨-, -, -, -, -, -, e6, e7⟩ := index1 t
  refine funext fun (j : S2000x128.Idx) => ?_
  have hj0 : (j 0).val < 2000 := (j 0).isLt
  have hp : t.val * 2000 + (j 0).val < 100000 := by omega
  have e3 : ((cfg1.win 3).blk t).view.emb j = (ix2 ⟨t.val * 2000 + (j 0).val, hp⟩ (j 1) : S100000x128.Idx) := by
    funext a
    apply Fin.ext
    match a with
    | ⟨0, _⟩ => show win1_3.index t (0 : Fin 2) * 2000 + 1 * (j 0).val = t.val * 2000 + (j 0).val; rw [e6]; omega
    | ⟨1, _⟩ => show win1_3.index t (1 : Fin 2) * 128 + 1 * (j 1).val = (j 1).val; rw [e7]; omega
  show k1_pay1 (iblk1 V c 0 t) (iblk1 V c 1 t) (iblk1 V c 2 t) j
    = HGcn.smm256 (V c main_arg0) tv (V c main_v49) (((cfg1.win 3).blk t).view.emb j)
  refine Eq.trans ?_ (congrArg (HGcn.smm256 (V c main_arg0) tv (V c main_v49)) e3.symm)
  exact block256_at (V c main_arg0) tv (V c main_v49) t.val (iblk1 V c 0 t) (iblk1 V c 1 t) (iblk1 V c 2 t)
    (k1_pay1 (iblk1 V c 0 t) (iblk1 V c 1 t) (iblk1 V c 2 t))
    (k1_pay1_apply (iblk1 V c 0 t) (iblk1 V c 1 t) (iblk1 V c 2 t))
    (blk1_0 V c t) (fun p hp' => (blk1_1 V c t p hp').trans (hcol _)) (blk1_2 V c t) j hp

/-- An index of the output array is in point t's block iff each coordinate is in the block's range on its axis. -/
theorem mem_blk1 (t : Fin cfg1.N) (i : S100000x128.Idx) :
    i ∈ ((cfg1.win 3).blk t).view.set ↔ ∀ a : Fin 2, win1_3.index t a * S2000x128.size a ≤ (i a).val
      ∧ (i a).val < win1_3.index t a * S2000x128.size a + S2000x128.size a := by
  show i ∈ ((View.whole main_v51).slice (win1_3.rect t)).set ↔ _
  rw [View.set_slice_whole, Rect.mem_set_unit]
  exact Iff.rfl

/-- Row r of the output lies in the block of point r / 2000. -/
theorem cover1 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 50 := N_1
  obtain ⟨t, ht⟩ : ∃ t : Fin cfg1.N, t.val = (i 0).val / 2000 := ⟨⟨(i 0).val / 2000, by omega⟩, rfl⟩
  obtain ⟨-, -, -, -, -, -, e6, e7⟩ := index1 t
  refine ⟨t, flush1_3 t, ?_⟩
  rw [mem_blk1]
  intro a
  match a with
  | ⟨0, _⟩ =>
    show win1_3.index t (0 : Fin 2) * 2000 ≤ (i 0).val ∧ (i 0).val < win1_3.index t (0 : Fin 2) * 2000 + 2000
    rw [e6, ht]; omega
  | ⟨1, _⟩ =>
    show win1_3.index t (1 : Fin 2) * 128 ≤ (i 1).val ∧ (i 1).val < win1_3.index t (1 : Fin 2) * 128 + 128
    rw [e7]; omega

/-- The output array of region 1 after its run, whatever the buffers held at entry, when the scale column reads the
    vector t row by row: the scaled product of the input array by the matrix. -/
theorem region1_of_col (c : Dev nD) (t : FVec Ideal S100000 .f32)
    (hcol : ∀ i : Fin 100000, (V c main_v50 : S100000x1.Idx → EReal) (ix2 i (0 : Fin 1)) = t (ix1 i)) :
    (Gen.dat1 V c).arrAt 3 cfg1.N = HGcn.smm256 (V c main_arg0) t (V c main_v49) :=
  (dat1 V c).arrAt_eq_of_cover 3 (HGcn.smm256 (V c main_arg0) t (V c main_v49)) (fun p _ => flushed1 V c t hcol p) cover1

/-- The same with the scale column given as the vector t laid out as a column. -/
theorem region1 (c : Dev nD) (t : FVec Ideal S100000 .f32)
    (ht : V c main_v50 = shapeCast S100000x1 t shapeCasts_S100000_S100000x1) :
    (Gen.dat1 V c).arrAt 3 cfg1.N = HGcn.smm256 (V c main_arg0) t (V c main_v49) :=
  region1_of_col V c t
    fun i => (congrFun ht (ix2 i (0 : Fin 1))).trans (shapeCast_col_apply t shapeCasts_S100000_S100000x1 i 0)

end Cert.KernelIdeal.RegionValue

end
-- ==== Proof.SmmKernel2.lean ====
/-
  Region 2: a scaled product of inner width 256.  Grid point t handles rows t·2000 … t·2000 + 1999: it reads that
  row block of the input, the same rows of the scale column, the whole matrix, and writes that row block of the
  output.  Every output row r lies in the block of point r / 2000, so after the run the output array is the
  whole-array function  (i, c) ↦ ∑ k, (x (i, k) · t i) · w (k, c).
-/
import proofs.«124848_j55800215109809_1_alg».proof.Proof.Gen.KernelIdeal.Frame
import proofs.«124848_j55800215109809_1_alg».proof.Proof.SmmPay

noncomputable section

namespace Cert.KernelIdeal.RegionValue

open Idealize.ShloMosaic Idealize.ShloMosaic.ValueIdx Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The block indices of the four windows at grid point t: the row-blocked windows sit at block row t, the matrix at
    the origin. -/
theorem index2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The input block at point t holds rows t·2000 … of the input array. -/
theorem blk2_0 (c : Dev nD) (t : Fin cfg2.N) (p : Fin 2000) (k : Fin 256) (hp : t.val * 2000 + p.val < 100000) :
    (iblk2 V c 0 t : Vec Ideal S2000x256 .f32) (ix2 p k)
      = (V c main_arg0 : S100000x256.Idx → EReal) (ix2 ⟨t.val * 2000 + p.val, hp⟩ k) := by
  obtain ⟨e0, e1, -⟩ := index2 t
  unfold iblk2
  rw [View.read_apply]
  show (V c main_arg0 : S100000x256.Idx → EReal) _ = (V c main_arg0 : S100000x256.Idx → EReal) _
  congr 1
  funext a
  apply Fin.ext
  match a with
  | ⟨0, _⟩ => show win2_0.index t (0 : Fin 2) * 2000 + 1 * p.val = t.val * 2000 + p.val; rw [e0]; omega
  | ⟨1, _⟩ => show win2_0.index t (1 : Fin 2) * 256 + 1 * k.val = k.val; rw [e1]; omega

/-- The scale block at point t holds rows t·2000 … of the scale column. -/
theorem blk2_1 (c : Dev nD) (t : Fin cfg2.N) (p : Fin 2000) (hp : t.val * 2000 + p.val < 100000) :
    (iblk2 V c 1 t : Vec Ideal S2000x1 .f32) (ix2 p (0 : Fin 1))
      = (V c main_v81 : S100000x1.Idx → EReal) (ix2 ⟨t.val * 2000 + p.val, hp⟩ (0 : Fin 1)) := by
  obtain ⟨-, -, e2, e3, -⟩ := index2 t
  unfold iblk2
  rw [View.read_apply]
  show (V c main_v81 : S100000x1.Idx → EReal) _ = (V c main_v81 : S100000x1.Idx → EReal) _
  congr 1
  funext a
  apply Fin.ext
  match a with
  | ⟨0, _⟩ => show win2_1.index t (0 : Fin 2) * 2000 + 1 * p.val = t.val * 2000 + p.val; rw [e2]; omega
  | ⟨1, _⟩ => show win2_1.index t (1 : Fin 2) * 1 + 1 * 0 = 0; rw [e3]

/-- The matrix block at every point is the whole matrix. -/
theorem blk2_2 (c : Dev nD) (t : Fin cfg2.N) (k : Fin 256) (q : Fin 128) :
    (iblk2 V c 2 t : Vec Ideal S256x128 .f32) (ix2 k q) = (V c main_v80 : S256x128.Idx → EReal) (ix2 k q) := by
  obtain ⟨-, -, -, -, e4, e5, -⟩ := index2 t
  unfold iblk2
  rw [View.read_apply]
  show (V c main_v80 : S256x128.Idx → EReal) _ = (V c main_v80 : S256x128.Idx → EReal) _
  congr 1
  funext a
  apply Fin.ext
  match a with
  | ⟨0, _⟩ => show win2_2.index t (0 : Fin 2) * 256 + 1 * k.val = k.val; rw [e4]; omega
  | ⟨1, _⟩ => show win2_2.index t (1 : Fin 2) * 128 + 1 * q.val = q.val; rw [e5]; omega

/-- What point t writes back is block t of the whole-array scaled product. -/
theorem flushed2 (c : Dev nD) (tv : FVec Ideal S100000 .f32)
    (hcol : ∀ i : Fin 100000, (V c main_v81 : S100000x1.Idx → EReal) (ix2 i (0 : Fin 1)) = tv (ix1 i))
    (t : Fin cfg2.N) :
    (dat2 V c).flushed 3 t
      = ((cfg2.win 3).blk t).view.read (Elt Ideal) (HGcn.smm256 (V c main_arg0) tv (V c main_v80)) := by
  show (cfg2.win 3).cut (grid2.coords t) ((dat2 V c).after 3 t) = _
  rw [after2_3]
  unfold out2_3
  rw [View.canon_unit_zero zero_offsets]
  simp only [View.ld_unit_zero (S := S2000x256) zero_offsets, View.ld_unit_zero (S := S2000x1) zero_offsets,
    View.ld_unit_zero (S := S256x128) zero_offsets]
  have hN : cfg2.N = 50 := N_2
  have ht : t.val < 50 := by have := t.isLt; omega
  obtain ⟨-, -, -, -, -, -, e6, e7⟩ := index2 t
  refine funext fun (j : S2000x128.Idx) => ?_
  have hj0 : (j 0).val < 2000 := (j 0).isLt
  have hp : t.val * 2000 + (j 0).val < 100000 := by omega
  have e3 : ((cfg2.win 3).blk t).view.emb j = (ix2 ⟨t.val * 2000 + (j 0).val, hp⟩ (j 1) : S100000x128.Idx) := by
    funext a
    apply Fin.ext
    match a with
    | ⟨0, _⟩ => show win2_3.index t (0 : Fin 2) * 2000 + 1 * (j 0).val = t.val * 2000 + (j 0).val; rw [e6]; omega
    | ⟨1, _⟩ => show win2_3.index t (1 : Fin 2) * 128 + 1 * (j 1).val = (j 1).val; rw [e7]; omega
  show k2_pay1 (iblk2 V c 0 t) (iblk2 V c 1 t) (iblk2 V c 2 t) j
    = HGcn.smm256 (V c main_arg0) tv (V c main_v80) (((cfg2.win 3).blk t).view.emb j)
  refine Eq.trans ?_ (congrArg (HGcn.smm256 (V c main_arg0) tv (V c main_v80)) e3.symm)
  exact block256_at (V c main_arg0) tv (V c main_v80) t.val (iblk2 V c 0 t) (iblk2 V c 1 t) (iblk2 V c 2 t)
    (k2_pay1 (iblk2 V c 0 t) (iblk2 V c 1 t) (iblk2 V c 2 t))
    (k2_pay1_apply (iblk2 V c 0 t) (iblk2 V c 1 t) (iblk2 V c 2 t))
    (blk2_0 V c t) (fun p hp' => (blk2_1 V c t p hp').trans (hcol _)) (blk2_2 V c t) j hp

/-- An index of the output array is in point t's block iff each coordinate is in the block's range on its axis. -/
theorem mem_blk2 (t : Fin cfg2.N) (i : S100000x128.Idx) :
    i ∈ ((cfg2.win 3).blk t).view.set ↔ ∀ a : Fin 2, win2_3.index t a * S2000x128.size a ≤ (i a).val
      ∧ (i a).val < win2_3.index t a * S2000x128.size a + S2000x128.size a := by
  show i ∈ ((View.whole main_v82).slice (win2_3.rect t)).set ↔ _
  rw [View.set_slice_whole, Rect.mem_set_unit]
  exact Iff.rfl

/-- Row r of the output lies in the block of point r / 2000. -/
theorem cover2 (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  have hN : cfg2.N = 50 := N_2
  obtain ⟨t, ht⟩ : ∃ t : Fin cfg2.N, t.val = (i 0).val / 2000 := ⟨⟨(i 0).val / 2000, by omega⟩, rfl⟩
  obtain ⟨-, -, -, -, -, -, e6, e7⟩ := index2 t
  refine ⟨t, flush2_3 t, ?_⟩
  rw [mem_blk2]
  intro a
  match a with
  | ⟨0, _⟩ =>
    show win2_3.index t (0 : Fin 2) * 2000 ≤ (i 0).val ∧ (i 0).val < win2_3.index t (0 : Fin 2) * 2000 + 2000
    rw [e6, ht]; omega
  | ⟨1, _⟩ =>
    show win2_3.index t (1 : Fin 2) * 128 ≤ (i 1).val ∧ (i 1).val < win2_3.index t (1 : Fin 2) * 128 + 128
    rw [e7]; omega

/-- The output array of region 2 after its run, whatever the buffers held at entry, when the scale column reads the
    vector t row by row: the scaled product of the input array by the matrix. -/
theorem region2_of_col (c : Dev nD) (t : FVec Ideal S100000 .f32)
    (hcol : ∀ i : Fin 100000, (V c main_v81 : S100000x1.Idx → EReal) (ix2 i (0 : Fin 1)) = t (ix1 i)) :
    (Gen.dat2 V c).arrAt 3 cfg2.N = HGcn.smm256 (V c main_arg0) t (V c main_v80) :=
  (dat2 V c).arrAt_eq_of_cover 3 (HGcn.smm256 (V c main_arg0) t (V c main_v80)) (fun p _ => flushed2 V c t hcol p) cover2

/-- The same with the scale column given as the vector t laid out as a column. -/
theorem region2 (c : Dev nD) (t : FVec Ideal S100000 .f32)
    (ht : V c main_v81 = shapeCast S100000x1 t shapeCasts_S100000_S100000x1) :
    (Gen.dat2 V c).arrAt 3 cfg2.N = HGcn.smm256 (V c main_arg0) t (V c main_v80) :=
  region2_of_col V c t
    fun i => (congrFun ht (ix2 i (0 : Fin 1))).trans (shapeCast_col_apply t shapeCasts_S100000_S100000x1 i 0)

end Cert.KernelIdeal.RegionValue

end
-- ==== Proof.SmmKernel4.lean ====
/-
  Region 4: a scaled product of inner width 128.  Grid point t handles rows t·2000 … t·2000 + 1999: it reads that
  row block of the input, the same rows of the scale column, the whole matrix, and writes that row block of the
  output.  Every output row r lies in the block of point r / 2000, so after the run the output array is the
  whole-array function  (i, c) ↦ ∑ k, (x (i, k) · t i) · w (k, c).
-/
import proofs.«124848_j55800215109809_1_alg».proof.Proof.Gen.KernelIdeal.Frame
import proofs.«124848_j55800215109809_1_alg».proof.Proof.SmmPay

noncomputable section

namespace Cert.KernelIdeal.RegionValue

open Idealize.ShloMosaic Idealize.ShloMosaic.ValueIdx Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The block indices of the four windows at grid point t: the row-blocked windows sit at block row t, the matrix at
    the origin. -/
theorem index4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The input block at point t holds rows t·2000 … of the input array. -/
theorem blk4_0 (c : Dev nD) (t : Fin cfg4.N) (p : Fin 2000) (k : Fin 128) (hp : t.val * 2000 + p.val < 100000) :
    (iblk4 V c 0 t : Vec Ideal S2000x128 .f32) (ix2 p k)
      = (V c main_v98 : S100000x128.Idx → EReal) (ix2 ⟨t.val * 2000 + p.val, hp⟩ k) := by
  obtain ⟨e0, e1, -⟩ := index4 t
  unfold iblk4
  rw [View.read_apply]
  show (V c main_v98 : S100000x128.Idx → EReal) _ = (V c main_v98 : S100000x128.Idx → EReal) _
  congr 1
  funext a
  apply Fin.ext
  match a with
  | ⟨0, _⟩ => show win4_0.index t (0 : Fin 2) * 2000 + 1 * p.val = t.val * 2000 + p.val; rw [e0]; omega
  | ⟨1, _⟩ => show win4_0.index t (1 : Fin 2) * 128 + 1 * k.val = k.val; rw [e1]; omega

/-- The scale block at point t holds rows t·2000 … of the scale column. -/
theorem blk4_1 (c : Dev nD) (t : Fin cfg4.N) (p : Fin 2000) (hp : t.val * 2000 + p.val < 100000) :
    (iblk4 V c 1 t : Vec Ideal S2000x1 .f32) (ix2 p (0 : Fin 1))
      = (V c main_v118 : S100000x1.Idx → EReal) (ix2 ⟨t.val * 2000 + p.val, hp⟩ (0 : Fin 1)) := by
  obtain ⟨-, -, e2, e3, -⟩ := index4 t
  unfold iblk4
  rw [View.read_apply]
  show (V c main_v118 : S100000x1.Idx → EReal) _ = (V c main_v118 : S100000x1.Idx → EReal) _
  congr 1
  funext a
  apply Fin.ext
  match a with
  | ⟨0, _⟩ => show win4_1.index t (0 : Fin 2) * 2000 + 1 * p.val = t.val * 2000 + p.val; rw [e2]; omega
  | ⟨1, _⟩ => show win4_1.index t (1 : Fin 2) * 1 + 1 * 0 = 0; rw [e3]

/-- The matrix block at every point is the whole matrix. -/
theorem blk4_2 (c : Dev nD) (t : Fin cfg4.N) (k : Fin 128) (q : Fin 128) :
    (iblk4 V c 2 t : Vec Ideal S128x128 .f32) (ix2 k q) = (V c main_v117 : S128x128.Idx → EReal) (ix2 k q) := by
  obtain ⟨-, -, -, -, e4, e5, -⟩ := index4 t
  unfold iblk4
  rw [View.read_apply]
  show (V c main_v117 : S128x128.Idx → EReal) _ = (V c main_v117 : S128x128.Idx → EReal) _
  congr 1
  funext a
  apply Fin.ext
  match a with
  | ⟨0, _⟩ => show win4_2.index t (0 : Fin 2) * 128 + 1 * k.val = k.val; rw [e4]; omega
  | ⟨1, _⟩ => show win4_2.index t (1 : Fin 2) * 128 + 1 * q.val = q.val; rw [e5]; omega

/-- What point t writes back is block t of the whole-array scaled product. -/
theorem flushed4 (c : Dev nD) (tv : FVec Ideal S100000 .f32)
    (hcol : ∀ i : Fin 100000, (V c main_v118 : S100000x1.Idx → EReal) (ix2 i (0 : Fin 1)) = tv (ix1 i))
    (t : Fin cfg4.N) :
    (dat4 V c).flushed 3 t
      = ((cfg4.win 3).blk t).view.read (Elt Ideal) (HGcn.smm128 (V c main_v98) tv (V c main_v117)) := by
  show (cfg4.win 3).cut (grid4.coords t) ((dat4 V c).after 3 t) = _
  rw [after4_3]
  unfold out4_3
  rw [View.canon_unit_zero zero_offsets]
  simp only [View.ld_unit_zero (S := S2000x128) zero_offsets, View.ld_unit_zero (S := S2000x1) zero_offsets,
    View.ld_unit_zero (S := S128x128) zero_offsets]
  have hN : cfg4.N = 50 := N_4
  have ht : t.val < 50 := by have := t.isLt; omega
  obtain ⟨-, -, -, -, -, -, e6, e7⟩ := index4 t
  refine funext fun (j : S2000x128.Idx) => ?_
  have hj0 : (j 0).val < 2000 := (j 0).isLt
  have hp : t.val * 2000 + (j 0).val < 100000 := by omega
  have e3 : ((cfg4.win 3).blk t).view.emb j = (ix2 ⟨t.val * 2000 + (j 0).val, hp⟩ (j 1) : S100000x128.Idx) := by
    funext a
    apply Fin.ext
    match a with
    | ⟨0, _⟩ => show win4_3.index t (0 : Fin 2) * 2000 + 1 * (j 0).val = t.val * 2000 + (j 0).val; rw [e6]; omega
    | ⟨1, _⟩ => show win4_3.index t (1 : Fin 2) * 128 + 1 * (j 1).val = (j 1).val; rw [e7]; omega
  show k4_pay1 (iblk4 V c 0 t) (iblk4 V c 1 t) (iblk4 V c 2 t) j
    = HGcn.smm128 (V c main_v98) tv (V c main_v117) (((cfg4.win 3).blk t).view.emb j)
  refine Eq.trans ?_ (congrArg (HGcn.smm128 (V c main_v98) tv (V c main_v117)) e3.symm)
  exact block128_at (V c main_v98) tv (V c main_v117) t.val (iblk4 V c 0 t) (iblk4 V c 1 t) (iblk4 V c 2 t)
    (k4_pay1 (iblk4 V c 0 t) (iblk4 V c 1 t) (iblk4 V c 2 t))
    (k4_pay1_apply (iblk4 V c 0 t) (iblk4 V c 1 t) (iblk4 V c 2 t))
    (blk4_0 V c t) (fun p hp' => (blk4_1 V c t p hp').trans (hcol _)) (blk4_2 V c t) j hp

/-- An index of the output array is in point t's block iff each coordinate is in the block's range on its axis. -/
theorem mem_blk4 (t : Fin cfg4.N) (i : S100000x128.Idx) :
    i ∈ ((cfg4.win 3).blk t).view.set ↔ ∀ a : Fin 2, win4_3.index t a * S2000x128.size a ≤ (i a).val
      ∧ (i a).val < win4_3.index t a * S2000x128.size a + S2000x128.size a := by
  show i ∈ ((View.whole main_v119).slice (win4_3.rect t)).set ↔ _
  rw [View.set_slice_whole, Rect.mem_set_unit]
  exact Iff.rfl

/-- Row r of the output lies in the block of point r / 2000. -/
theorem cover4 (i : S100000x128.Idx) :
    ∃ t : Fin cfg4.N, (cfg4.win 3).flush t = true ∧ i ∈ ((cfg4.win 3).blk t).view.set := by
  have hi0 : (i 0).val < 100000 := (i 0).isLt
  have hi1 : (i 1).val < 128 := (i 1).isLt
  have hN : cfg4.N = 50 := N_4
  obtain ⟨t, ht⟩ : ∃ t : Fin cfg4.N, t.val = (i 0).val / 2000 := ⟨⟨(i 0).val / 2000, by omega⟩, rfl⟩
  obtain ⟨-, -, -, -, -, -, e6, e7⟩ := index4 t
  refine ⟨t, flush4_3 t, ?_⟩
  rw [mem_blk4]
  intro a
  match a with
  | ⟨0, _⟩ =>
    show win4_3.index t (0 : Fin 2) * 2000 ≤ (i 0).val ∧ (i 0).val < win4_3.index t (0 : Fin 2) * 2000 + 2000
    rw [e6, ht]; omega
  | ⟨1, _⟩ =>
    show win4_3.index t (1 : Fin 2) * 128 ≤ (i 1).val ∧ (i 1).val < win4_3.index t (1 : Fin 2) * 128 + 128
    rw [e7]; omega

/-- The output array of region 4 after its run, whatever the buffers held at entry, when the scale column reads the
    vector t row by row: the scaled product of the input array by the matrix. -/
theorem region4_of_col (c : Dev nD) (t : FVec Ideal S100000 .f32)
    (hcol : ∀ i : Fin 100000, (V c main_v118 : S100000x1.Idx → EReal) (ix2 i (0 : Fin 1)) = t (ix1 i)) :
    (Gen.dat4 V c).arrAt 3 cfg4.N = HGcn.smm128 (V c main_v98) t (V c main_v117) :=
  (dat4 V c).arrAt_eq_of_cover 3 (HGcn.smm128 (V c main_v98) t (V c main_v117)) (fun p _ => flushed4 V c t hcol p) cover4

/-- The same with the scale column given as the vector t laid out as a column. -/
theorem region4 (c : Dev nD) (t : FVec Ideal S100000 .f32)
    (ht : V c main_v118 = shapeCast S100000x1 t shapeCasts_S100000_S100000x1) :
    (Gen.dat4 V c).arrAt 3 cfg4.N = HGcn.smm128 (V c main_v98) t (V c main_v117) :=
  region4_of_col V c t
    fun i => (congrFun ht (ix2 i (0 : Fin 1))).trans (shapeCast_col_apply t shapeCasts_S100000_S100000x1 i 0)

end Cert.KernelIdeal.RegionValue

end
-- ==== Proof.SmmKernel5.lean ====
/-
  Region 5: a scaled product of inner width 128.  Grid point t handles rows t·2000 … t·2000 + 1999: it reads that
  row block of the input, the same rows of the scale column, the whole matrix, and writes that row block of the
  output.  Every output row r lies in the block of point r / 2000, so after the run the output array is the
  whole-array function  (i, c) ↦ ∑ k, (x (i, k) · t i) · w (k, c).
-/
import proofs.«124848_j55800215109809_1_alg».proof.Proof.Gen.KernelIdeal.Frame
import proofs.«124848_j55800215109809_1_alg».proof.Proof.SmmPay

noncomputable section

namespace Cert.KernelIdeal.RegionValue

open Idealize.ShloMosaic Idealize.ShloMosaic.ValueIdx Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The block indices of the four windows at grid point t: the row-blocked windows sit at block row t, the matrix at
    the origin. -/
theorem index5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- The input block at point t holds rows t·2000 … of the input array. -/
theorem blk5_0 (c : Dev nD) (t : Fin cfg5.N) (p : Fin 2000) (k : Fin 128) (hp : t.val * 2000 + p.val < 100000) :
    (iblk5 V c 0 t : Vec Ideal S2000x128 .f32) (ix2 p k)
      = (V c main_v98 : S100000x128.Idx → EReal) (ix2 ⟨t.val * 2000 + p.val, hp⟩ k) := by
  obtain ⟨e0, e1, -⟩ := index5 t
  unfold iblk5
  rw [View.read_apply]
  show (V c main_v98 : S100000x128.Idx → EReal) _ = (V c main_v98 : S100000x128.Idx → EReal) _
  congr 1
  funext a
  apply Fin.ext
  match a with
  | ⟨0, _⟩ => show win5_0.index t (0 : Fin 2) * 2000 + 1 * p.val = t.val * 2000 + p.val; rw [e0]; omega
  | ⟨1, _⟩ => show win5_0.index t (1 : Fin 2) * 128 + 1 * k.val = k.val; rw [e1]; omega

/-- The scale block at point t holds rows t·2000 … of the scale column. -/
theorem blk5_1 (c : Dev nD) (t : Fin cfg5.N) (p : Fin 2000) (hp : t.val * 2000 + p.val < 100000) :
    (iblk5 V c 1 t : Vec Ideal S2000x1 .f32) (ix2 p (0 : Fin 1))
      = (V c main_v149 : S100000x1.Idx → EReal) (ix2 ⟨t.val * 2000 + p.val, hp⟩ (0 : Fin 1)) := by
  obtain ⟨-, -, e2, e3, -⟩ := index5 t
  unfold iblk5
  rw [View.read_apply]
  show (V c main_v149 : S100000x1.Idx → EReal) _ = (V c main_v149 : S100000x1.Idx → EReal) _
  congr 1
  funext a
  apply Fin.ext
  match a with
  | ⟨0, _⟩ => show win5_1.index t (0 : Fin 2) * 2000 + 1 * p.val = t.val * 2000 + p.val; rw [e2]; omega
  | ⟨1, _⟩ => show win5_1.index t (1 : Fin 2) * 1 + 1 * 0 = 0; rw [e3]

/-- The matrix block at every point is the whole matrix. -/
theorem blk5_2 (c : Dev nD) (t : Fin cfg5.N) (k : Fin 128) (q : Fin 128) :
    (iblk5 V c 2 t : Vec Ideal S128x128 .f32) (ix2 k q) = (V c main_v148 : S128x128.Idx → EReal) (ix2 k q) := by
  obtain ⟨-, -, -, -, e4, e5, -⟩ := index5 t
  unfold iblk5
  rw [View.read_apply]
  show (V c main_v148 : S128x128.Idx → EReal) _ = (V c main_v148 : S128x128.Idx → EReal) _
  congr 1
  funext a
  apply Fin.ext
  match a with
  | ⟨0, _⟩ => show win5_2.index t (0 : Fin 2) * 128 + 1 * k.val = k.val; rw [e4]; omega
  | ⟨1, _⟩ => show win5_2.index t (1 : Fin 2) * 128 + 1 * q.val = q.val; rw [e5]; omega

/-- What point t writes back is block t of the whole-array scaled product. -/
theorem flushed5 (c : Dev nD) (tv : FVec Ideal S100000 .f32)
    (hcol : ∀ i : Fin 100000, (V c main_v149 : S100000x1.Idx → EReal) (ix2 i (0 : Fin 1)) = tv (ix1 i))
    (t : Fin cfg5.N) :
    (dat5 V c).flushed 3 t
      = ((cfg5.win 3).blk t).view.read (Elt Ideal) (HGcn.smm128 (V c main_v98) tv (V c main_v148)) := by
  show (cfg5.win 3).cut (grid5.coords t) ((dat5 V c).after 3 t) = _
  rw [after5_3]
  unfold out5_3
  rw [View.canon_unit_zero zero_offsets]
  simp only [View.ld_unit_zero (S := S2000x128) zero_offsets, View.ld_unit_zero (S := S2000x1) zero_offsets,
    View.ld_unit_zero (S := S128x128) zero_offsets]
  have hN : cfg5.N = 50 := N_5
  have ht : t.val < 50 := by have := t.isLt; omega
  obtain ⟨-, -, -, -, -, -, e6, e7⟩ := index5 t
  refine funext fun (j : S2000x128.Idx) => ?_
  have hj0 : (j 0).val < 2000 := (j 0).isLt
  have hp : t.val * 2000 + (j 0).val < 100000 := by omega
  have e3 : ((cfg5.win 3).blk t).view.emb j = (ix2 ⟨t.val * 2000 + (j 0).val, hp⟩ (j 1) : S100000x128.Idx) := by
    funext a
    apply Fin.ext
    match a with
    | ⟨0, _⟩ => show win5_3.index t (0 : Fin 2) * 2000 + 1 * (j 0).val = t.val * 2000 + (j 0).val; rw [e6]; omega
    | ⟨1, _⟩ => show win5_3.index t (1 : Fin 2) * 128 + 1 * (j 1).val = (j 1).val; rw [e7]; omega
  show k5_pay1 (iblk5 V c 0 t) (iblk5 V c 1 t) (iblk5 V c 2 t) j
    = HGcn.smm128 (V c main_v98) tv (V c main_v148) (((cfg5.win 3).blk t).view.emb j)
  refine Eq.trans ?_ (congrArg (HGcn.smm128 (V c main_v98) tv (V c main_v148)) e3.symm)
  exact block128_at (V c main_v98) tv (V c main_v148) t.val (iblk5 V c 0 t) (iblk5 V c 1 t) (iblk5 V c 2 t)
    (k5_pay1 (iblk5 V c 0 t) (iblk5 V c 1 t) (iblk5 V c 2 t))
    (k5_pay1_apply (iblk5 V c 0 t) (iblk5 V c 1 t) (iblk5 V c 2 t))
    (blk5_0 V c t) (fun p hp' => (blk5_1 V c t p hp').trans (hcol _)) (blk5_2 V c t) j hp

/-- An index of the output array is in point t's block iff each coordinate is in the block's range on its axis. -/
theorem mem_blk5 (t : Fin cfg5.N) (i : S100000x128.Idx) :
    i ∈ ((cfg5.win 3).blk t).view.set ↔ ∀ a : Fin 2, win5_3.index t a * S2000x128.size a ≤ (i a).val
      ∧ (i a).val < win5_3.index t a * S2000x128.size a + S2000x128.size a := by
  show i ∈ ((View.whole main_v150).slice (win5_3.rect t)).set ↔ _
  rw [View.set_slice_whole, Rect.mem_set_unit]
  exact Iff.rfl

/-- Row r of the output lies in the block of point r / 2000. -/
theorem cover5 (i : S100000x128.Idx) :
    ∃ t : Fin cfg5.N, (cfg5.win 3).flush t = true ∧ i ∈ ((cfg5.win 3).blk t).view.set := by
  have hi0 : (i 0).val < 100000 := (i 0).isLt
  have hi1 : (i 1).val < 128 := (i 1).isLt
  have hN : cfg5.N = 50 := N_5
  obtain ⟨t, ht⟩ : ∃ t : Fin cfg5.N, t.val = (i 0).val / 2000 := ⟨⟨(i 0).val / 2000, by omega⟩, rfl⟩
  obtain ⟨-, -, -, -, -, -, e6, e7⟩ := index5 t
  refine ⟨t, flush5_3 t, ?_⟩
  rw [mem_blk5]
  intro a
  match a with
  | ⟨0, _⟩ =>
    show win5_3.index t (0 : Fin 2) * 2000 ≤ (i 0).val ∧ (i 0).val < win5_3.index t (0 : Fin 2) * 2000 + 2000
    rw [e6, ht]; omega
  | ⟨1, _⟩ =>
    show win5_3.index t (1 : Fin 2) * 128 ≤ (i 1).val ∧ (i 1).val < win5_3.index t (1 : Fin 2) * 128 + 128
    rw [e7]; omega

/-- The output array of region 5 after its run, whatever the buffers held at entry, when the scale column reads the
    vector t row by row: the scaled product of the input array by the matrix. -/
theorem region5_of_col (c : Dev nD) (t : FVec Ideal S100000 .f32)
    (hcol : ∀ i : Fin 100000, (V c main_v149 : S100000x1.Idx → EReal) (ix2 i (0 : Fin 1)) = t (ix1 i)) :
    (Gen.dat5 V c).arrAt 3 cfg5.N = HGcn.smm128 (V c main_v98) t (V c main_v148) :=
  (dat5 V c).arrAt_eq_of_cover 3 (HGcn.smm128 (V c main_v98) t (V c main_v148)) (fun p _ => flushed5 V c t hcol p) cover5

/-- The same with the scale column given as the vector t laid out as a column. -/
theorem region5 (c : Dev nD) (t : FVec Ideal S100000 .f32)
    (ht : V c main_v149 = shapeCast S100000x1 t shapeCasts_S100000_S100000x1) :
    (Gen.dat5 V c).arrAt 3 cfg5.N = HGcn.smm128 (V c main_v98) t (V c main_v148) :=
  region5_of_col V c t
    fun i => (congrFun ht (ix2 i (0 : Fin 1))).trans (shapeCast_col_apply t shapeCasts_S100000_S100000x1 i 0)

end Cert.KernelIdeal.RegionValue

end
-- ==== Proof.SmmKernel6.lean ====
/-
  Region 6: a scaled product of inner width 128.  Grid point t handles rows t·2000 … t·2000 + 1999: it reads that
  row block of the input, the same rows of the scale column, the whole matrix, and writes that row block of the
  output.  Every output row r lies in the block of point r / 2000, so after the run the output array is the
  whole-array function  (i, c) ↦ ∑ k, (x (i, k) · t i) · w (k, c).
-/
import proofs.«124848_j55800215109809_1_alg».proof.Proof.Gen.KernelIdeal.Frame
import proofs.«124848_j55800215109809_1_alg».proof.Proof.SmmPay

noncomputable section

namespace Cert.KernelIdeal.RegionValue

open Idealize.ShloMosaic Idealize.ShloMosaic.ValueIdx Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The block indices of the four windows at grid point t: the row-blocked windows sit at block row t, the matrix at
    the origin. -/
theorem index6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- The input block at point t holds rows t·2000 … of the input array. -/
theorem blk6_0 (c : Dev nD) (t : Fin cfg6.N) (p : Fin 2000) (k : Fin 128) (hp : t.val * 2000 + p.val < 100000) :
    (iblk6 V c 0 t : Vec Ideal S2000x128 .f32) (ix2 p k)
      = (V c main_v98 : S100000x128.Idx → EReal) (ix2 ⟨t.val * 2000 + p.val, hp⟩ k) := by
  obtain ⟨e0, e1, -⟩ := index6 t
  unfold iblk6
  rw [View.read_apply]
  show (V c main_v98 : S100000x128.Idx → EReal) _ = (V c main_v98 : S100000x128.Idx → EReal) _
  congr 1
  funext a
  apply Fin.ext
  match a with
  | ⟨0, _⟩ => show win6_0.index t (0 : Fin 2) * 2000 + 1 * p.val = t.val * 2000 + p.val; rw [e0]; omega
  | ⟨1, _⟩ => show win6_0.index t (1 : Fin 2) * 128 + 1 * k.val = k.val; rw [e1]; omega

/-- The scale block at point t holds rows t·2000 … of the scale column. -/
theorem blk6_1 (c : Dev nD) (t : Fin cfg6.N) (p : Fin 2000) (hp : t.val * 2000 + p.val < 100000) :
    (iblk6 V c 1 t : Vec Ideal S2000x1 .f32) (ix2 p (0 : Fin 1))
      = (V c main_v180 : S100000x1.Idx → EReal) (ix2 ⟨t.val * 2000 + p.val, hp⟩ (0 : Fin 1)) := by
  obtain ⟨-, -, e2, e3, -⟩ := index6 t
  unfold iblk6
  rw [View.read_apply]
  show (V c main_v180 : S100000x1.Idx → EReal) _ = (V c main_v180 : S100000x1.Idx → EReal) _
  congr 1
  funext a
  apply Fin.ext
  match a with
  | ⟨0, _⟩ => show win6_1.index t (0 : Fin 2) * 2000 + 1 * p.val = t.val * 2000 + p.val; rw [e2]; omega
  | ⟨1, _⟩ => show win6_1.index t (1 : Fin 2) * 1 + 1 * 0 = 0; rw [e3]

/-- The matrix block at every point is the whole matrix. -/
theorem blk6_2 (c : Dev nD) (t : Fin cfg6.N) (k : Fin 128) (q : Fin 128) :
    (iblk6 V c 2 t : Vec Ideal S128x128 .f32) (ix2 k q) = (V c main_v179 : S128x128.Idx → EReal) (ix2 k q) := by
  obtain ⟨-, -, -, -, e4, e5, -⟩ := index6 t
  unfold iblk6
  rw [View.read_apply]
  show (V c main_v179 : S128x128.Idx → EReal) _ = (V c main_v179 : S128x128.Idx → EReal) _
  congr 1
  funext a
  apply Fin.ext
  match a with
  | ⟨0, _⟩ => show win6_2.index t (0 : Fin 2) * 128 + 1 * k.val = k.val; rw [e4]; omega
  | ⟨1, _⟩ => show win6_2.index t (1 : Fin 2) * 128 + 1 * q.val = q.val; rw [e5]; omega

/-- What point t writes back is block t of the whole-array scaled product. -/
theorem flushed6 (c : Dev nD) (tv : FVec Ideal S100000 .f32)
    (hcol : ∀ i : Fin 100000, (V c main_v180 : S100000x1.Idx → EReal) (ix2 i (0 : Fin 1)) = tv (ix1 i))
    (t : Fin cfg6.N) :
    (dat6 V c).flushed 3 t
      = ((cfg6.win 3).blk t).view.read (Elt Ideal) (HGcn.smm128 (V c main_v98) tv (V c main_v179)) := by
  show (cfg6.win 3).cut (grid6.coords t) ((dat6 V c).after 3 t) = _
  rw [after6_3]
  unfold out6_3
  rw [View.canon_unit_zero zero_offsets]
  simp only [View.ld_unit_zero (S := S2000x128) zero_offsets, View.ld_unit_zero (S := S2000x1) zero_offsets,
    View.ld_unit_zero (S := S128x128) zero_offsets]
  have hN : cfg6.N = 50 := N_6
  have ht : t.val < 50 := by have := t.isLt; omega
  obtain ⟨-, -, -, -, -, -, e6, e7⟩ := index6 t
  refine funext fun (j : S2000x128.Idx) => ?_
  have hj0 : (j 0).val < 2000 := (j 0).isLt
  have hp : t.val * 2000 + (j 0).val < 100000 := by omega
  have e3 : ((cfg6.win 3).blk t).view.emb j = (ix2 ⟨t.val * 2000 + (j 0).val, hp⟩ (j 1) : S100000x128.Idx) := by
    funext a
    apply Fin.ext
    match a with
    | ⟨0, _⟩ => show win6_3.index t (0 : Fin 2) * 2000 + 1 * (j 0).val = t.val * 2000 + (j 0).val; rw [e6]; omega
    | ⟨1, _⟩ => show win6_3.index t (1 : Fin 2) * 128 + 1 * (j 1).val = (j 1).val; rw [e7]; omega
  show k6_pay1 (iblk6 V c 0 t) (iblk6 V c 1 t) (iblk6 V c 2 t) j
    = HGcn.smm128 (V c main_v98) tv (V c main_v179) (((cfg6.win 3).blk t).view.emb j)
  refine Eq.trans ?_ (congrArg (HGcn.smm128 (V c main_v98) tv (V c main_v179)) e3.symm)
  exact block128_at (V c main_v98) tv (V c main_v179) t.val (iblk6 V c 0 t) (iblk6 V c 1 t) (iblk6 V c 2 t)
    (k6_pay1 (iblk6 V c 0 t) (iblk6 V c 1 t) (iblk6 V c 2 t))
    (k6_pay1_apply (iblk6 V c 0 t) (iblk6 V c 1 t) (iblk6 V c 2 t))
    (blk6_0 V c t) (fun p hp' => (blk6_1 V c t p hp').trans (hcol _)) (blk6_2 V c t) j hp

/-- An index of the output array is in point t's block iff each coordinate is in the block's range on its axis. -/
theorem mem_blk6 (t : Fin cfg6.N) (i : S100000x128.Idx) :
    i ∈ ((cfg6.win 3).blk t).view.set ↔ ∀ a : Fin 2, win6_3.index t a * S2000x128.size a ≤ (i a).val
      ∧ (i a).val < win6_3.index t a * S2000x128.size a + S2000x128.size a := by
  show i ∈ ((View.whole main_v181).slice (win6_3.rect t)).set ↔ _
  rw [View.set_slice_whole, Rect.mem_set_unit]
  exact Iff.rfl

/-- Row r of the output lies in the block of point r / 2000. -/
theorem cover6 (i : S100000x128.Idx) :
    ∃ t : Fin cfg6.N, (cfg6.win 3).flush t = true ∧ i ∈ ((cfg6.win 3).blk t).view.set := by
  have hi0 : (i 0).val < 100000 := (i 0).isLt
  have hi1 : (i 1).val < 128 := (i 1).isLt
  have hN : cfg6.N = 50 := N_6
  obtain ⟨t, ht⟩ : ∃ t : Fin cfg6.N, t.val = (i 0).val / 2000 := ⟨⟨(i 0).val / 2000, by omega⟩, rfl⟩
  obtain ⟨-, -, -, -, -, -, e6, e7⟩ := index6 t
  refine ⟨t, flush6_3 t, ?_⟩
  rw [mem_blk6]
  intro a
  match a with
  | ⟨0, _⟩ =>
    show win6_3.index t (0 : Fin 2) * 2000 ≤ (i 0).val ∧ (i 0).val < win6_3.index t (0 : Fin 2) * 2000 + 2000
    rw [e6, ht]; omega
  | ⟨1, _⟩ =>
    show win6_3.index t (1 : Fin 2) * 128 ≤ (i 1).val ∧ (i 1).val < win6_3.index t (1 : Fin 2) * 128 + 128
    rw [e7]; omega

/-- The output array of region 6 after its run, whatever the buffers held at entry, when the scale column reads the
    vector t row by row: the scaled product of the input array by the matrix. -/
theorem region6_of_col (c : Dev nD) (t : FVec Ideal S100000 .f32)
    (hcol : ∀ i : Fin 100000, (V c main_v180 : S100000x1.Idx → EReal) (ix2 i (0 : Fin 1)) = t (ix1 i)) :
    (Gen.dat6 V c).arrAt 3 cfg6.N = HGcn.smm128 (V c main_v98) t (V c main_v179) :=
  (dat6 V c).arrAt_eq_of_cover 3 (HGcn.smm128 (V c main_v98) t (V c main_v179)) (fun p _ => flushed6 V c t hcol p) cover6

/-- The same with the scale column given as the vector t laid out as a column. -/
theorem region6 (c : Dev nD) (t : FVec Ideal S100000 .f32)
    (ht : V c main_v180 = shapeCast S100000x1 t shapeCasts_S100000_S100000x1) :
    (Gen.dat6 V c).arrAt 3 cfg6.N = HGcn.smm128 (V c main_v98) t (V c main_v179) :=
  region6_of_col V c t
    fun i => (congrFun ht (ix2 i (0 : Fin 1))).trans (shapeCast_col_apply t shapeCasts_S100000_S100000x1 i 0)

end Cert.KernelIdeal.RegionValue

end
-- ==== Proof.SmmKernel.lean ====
/-
  The six scaled-product regions of the kernel program, each read as one whole-array function: regions 0, 1, 2 contract
  over 256 input features, regions 4, 5, 6 over 128 hidden features.  This module only gathers the six region modules.
-/
import proofs.«124848_j55800215109809_1_alg».proof.Proof.SmmKernel0
import proofs.«124848_j55800215109809_1_alg».proof.Proof.SmmKernel1
import proofs.«124848_j55800215109809_1_alg».proof.Proof.SmmKernel2
import proofs.«124848_j55800215109809_1_alg».proof.Proof.SmmKernel4
import proofs.«124848_j55800215109809_1_alg».proof.Proof.SmmKernel5
import proofs.«124848_j55800215109809_1_alg».proof.Proof.SmmKernel6
-- ==== Proof.LibColumnLayout.lean ====
/-
  Column forms of the layout operations, read at an index by coordinates: a vector [a] cast to the column [a, 1]
  and back, and a column [a, 1] broadcast along its unit axis to [a, b].  Each reads the operand at the same
  row; the unit axis carries coordinate 0.
-/
import Idealize.ShloMosaic.Lib.ValueLayout
import Idealize.ShloMosaic.Lib.Pipeline.Value

namespace PhysLoss

open Idealize.ShloMosaic Idealize.ShloMosaic.ValueIdx

variable {α : Type}

/-- A vector `[a]` cast to the column `[a, 1]` reads, at `(i, 0)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the vector `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end PhysLoss
-- ==== Proof.SpecAct.lean ====
/-
  The leaky rectifier of the graph convolution's hidden layer, entry by entry over the extended reals:
  an entry that is at least zero is kept, any other entry is multiplied by the slope, the real number the
  single-precision word 0x3C23D70A encodes (about one hundredth).
-/
import proofs.«124848_j55800215109809_1_alg».proof.Proof.Spec
import Idealize.ShloMosaic.PureOps.Ideal.Laws

noncomputable section

namespace HGcn

open Idealize.ShloMosaic Idealize.ShloMosaic.ValueIdx

/-- The leaky rectifier of one extended real: `x` when `0 ≤ x`, else the slope times `x`.  The comparison is
    the one-bit word of `0 ≤ x` and the choice is made on that bit. -/
def leakyAt (x : EReal) : EReal :=
  Scalar.select (Ideal.cmp .oge x (Ideal.ofBits .f32 0x00000000#32)) x (Ideal.ofBits .f32 0x3C23D70A#32 * x)

/-- The leaky rectifier applied to every entry of an array. -/
def leaky (z : SnB.Idx → EReal) : SnB.Idx → EReal := fun j => leakyAt (z j)

theorem leaky_apply (z : SnB.Idx → EReal) (j : SnB.Idx) : leaky z j = leakyAt (z j) := rfl

/-- The rectifier as a case distinction on the sign. -/
theorem leakyAt_eq_ite (x : EReal) :
    leakyAt x = if 0 ≤ x then x else Ideal.ofBits .f32 0x3C23D70A#32 * x := by
  unfold leakyAt Scalar.select Ideal.cmp
  rw [Ideal.ofBits_zero_f32]
  by_cases h : (0 : EReal) ≤ x
  · simp [h]
  · simp [h]

end HGcn

end
-- ==== Proof.CombKernel3.lean ====
/-
  The first combine region of the kernel program (with the rectifier): fifty points, each reading a block of 2000 rows of
  the three aggregated relation messages, the same rows of the three degree-factor columns, and the whole summed bias row,
  and writing back, entry by entry, the leaky rectifier of: the three messages each scaled by its column's entry of that
  row, summed, plus the bias.

  The body's value is the rectifier applied to the value of the same body without the rectifier.  Block t of an array
  blocked by rows is rows 2000·t … 2000·t + 1999; a degree-factor column is a vector over the nodes cast to one column;
  the bias row is the host sum of the bias table over its three rows, cast to one row.  So what point t writes back is
  block t of ONE function of whole arrays, the rectifier of `comb`, and since the fifty blocks tile the 100000 rows
  (row r lies in block r / 2000) the array after the run is that function.
-/
import proofs.«124848_j55800215109809_1_alg».proof.Proof.Gen.KernelIdeal.Frame
import Idealize.ShloMosaic.Lib.Pipeline.Value
import Idealize.ShloMosaic.Lib.ValueLayout
import Idealize.ShloMosaic.Lib.IdealHost
import Idealize.ShloMosaic.PureOps.Ideal.Laws
import proofs.«124848_j55800215109809_1_alg».proof.Proof.LibColumnLayout
import proofs.«124848_j55800215109809_1_alg».proof.Proof.Spec
import proofs.«124848_j55800215109809_1_alg».proof.Proof.SpecAct

noncomputable section

open Idealize.ShloMosaic Idealize.ShloMosaic.TcCoe Idealize.SL.Sem Idealize.ShloMosaic.ValueIdx
open Idealize.ShloMosaic.Pipeline (Dat)

namespace Cert.KernelIdeal.RegionValue.R3

open Cert.KernelIdeal Cert.KernelIdeal.Gen

theorem hzC : (![0, 0] : Fin 2 → Nat) = fun _ => 0 := funext fun a => by fin_cases a <;> rfl

/-- The combine body without the rectifier, at row `p`, feature `q` of its block: the three messages, each scaled by its
    column's entry at row `p`, summed, plus the bias row at `q`. -/
theorem comb_pay_apply (x0 : FVec Ideal S2000x128 .f32) (s0 : FVec Ideal S2000x1 .f32) (x1 : FVec Ideal S2000x128 .f32)
    (s1 : FVec Ideal S2000x1 .f32) (x2 : FVec Ideal S2000x128 .f32) (s2 : FVec Ideal S2000x1 .f32) (bb : FVec Ideal S1x128 .f32)
    (p : Fin 2000) (q : Fin 128) :
    k7_pay1 x0 s0 x1 s1 x2 s2 bb (ix2 p q)
      = ((x0 (ix2 p q) * s0 (ix2 p (0 : Fin 1)) + x1 (ix2 p q) * s1 (ix2 p (0 : Fin 1))) + x2 (ix2 p q) * s2 (ix2 p (0 : Fin 1)))
        + bb (ix2 (0 : Fin 1) q) := by
  unfold k7_pay1
  simp only [shapeCast_self]
  rw [addf_apply, addf_apply, addf_apply, mulf_apply, mulf_apply, mulf_apply,
    PhysLoss.broadcastTo_a1_ab_apply, PhysLoss.broadcastTo_a1_ab_apply, PhysLoss.broadcastTo_a1_ab_apply,
    broadcastTo_1b_ab_apply]

/-- The summed bias rows: the host sum of the bias table over its three rows, from zero, at feature `q`. -/
theorem biasSum_apply (b : FVec Ideal S3x128 .f32) (q : Fin 128) :
    Host.reduceAdd (F := Ideal) b (constant (F := Ideal) S_ .f32 0x00000000#32) reducesTo_S3x128_S128_d0 h_S_ (ix1 q)
      = ∑ r : Fin 3, b (ix2 r q) := by
  rw [hostReduceAdd_apply]
  refine (Ideal.hostReduceAdd_single reducesTo_S3x128_S128_d0 (by decide : S3x128.Reduces [0] S128) b _ (ix1 q)).trans ?_
  rw [constant_apply, Ideal.ofBits_zero_f32, zero_add]
  refine Finset.sum_congr rfl fun k _ => congrArg b ?_
  funext a
  match a with
  | ⟨0, _⟩ => rfl
  | ⟨1, _⟩ => rfl

/-- The combine body with the rectifier is the rectifier of the combine body without it, entry by entry: the same
    scaled sum, compared with zero, kept where it is at least zero and multiplied by the slope elsewhere. -/
theorem pay3_eq_leaky_pay7 (x0 : FVec Ideal S2000x128 .f32) (s0 : FVec Ideal S2000x1 .f32) (x1 : FVec Ideal S2000x128 .f32)
    (s1 : FVec Ideal S2000x1 .f32) (x2 : FVec Ideal S2000x128 .f32) (s2 : FVec Ideal S2000x1 .f32) (bb : FVec Ideal S1x128 .f32)
    (j : S2000x128.Idx) :
    k3_pay1 (F := Ideal) x0 s0 x1 s1 x2 s2 bb j = HGcn.leakyAt (k7_pay1 (F := Ideal) x0 s0 x1 s1 x2 s2 bb j) := rfl

/-- The combine body with the rectifier, at row `p`, feature `q` of its block. -/
theorem leakycomb_pay_apply (x0 : FVec Ideal S2000x128 .f32) (s0 : FVec Ideal S2000x1 .f32) (x1 : FVec Ideal S2000x128 .f32)
    (s1 : FVec Ideal S2000x1 .f32) (x2 : FVec Ideal S2000x128 .f32) (s2 : FVec Ideal S2000x1 .f32) (bb : FVec Ideal S1x128 .f32)
    (p : Fin 2000) (q : Fin 128) :
    k3_pay1 (F := Ideal) x0 s0 x1 s1 x2 s2 bb (ix2 p q)
      = HGcn.leakyAt (((x0 (ix2 p q) * s0 (ix2 p (0 : Fin 1)) + x1 (ix2 p q) * s1 (ix2 p (0 : Fin 1))) + x2 (ix2 p q) * s2 (ix2 p (0 : Fin 1)))
        + bb (ix2 (0 : Fin 1) q)) := by
  rw [pay3_eq_leaky_pay7, comb_pay_apply]

variable (V : (c : Dev nD) → (b : Ref sig .tc) → Buf (Elt Ideal) ((c : Thread nD τ).loc b))

/-! ## Region 3 -/

/-- The printed index maps of region 3 over the fifty points: every row-blocked window is at row block `t`, the bias row
    is whole. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0
    ∧ win3_5.index t (0 : Fin 2) = t.val ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

/-- What point `t` of region 3 writes back is block `t` of ONE function of the arrays the region was entered with. -/
theorem flushed3 (c : Dev nD) (t0 t1 t2 : FVec Ideal S100000 .f32) (b : FVec Ideal S3x128 .f32)
    (h0 : V c main_v95 = shapeCast S100000x1 t0 shapeCasts_S100000_S100000x1)
    (h1 : V c main_v96 = shapeCast S100000x1 t1 shapeCasts_S100000_S100000x1)
    (h2 : V c main_v97 = shapeCast S100000x1 t2 shapeCasts_S100000_S100000x1)
    (hb : V c main_v94 = shapeCast S1x128 (Host.reduceAdd (F := Ideal) b (constant (F := Ideal) S_ .f32 0x00000000#32) reducesTo_S3x128_S128_d0 h_S_) shapeCasts_S128_S1x128)
    (t : Fin cfg3.N) :
    (dat3 V c).flushed 7 t = ((cfg3.win 7).blk t).view.read (Elt Ideal) (HGcn.leaky (HGcn.comb (V c main_v30) (V c main_v61) (V c main_v92) t0 t1 t2 b)) := by
  show (cfg3.win 7).cut (grid3.coords t) ((dat3 V c).after 7 t) = _
  rw [after3_7]
  unfold out3_7
  rw [View.canon_unit_zero hzC]
  simp only [View.ld_unit_zero (S := S2000x128) hzC, View.ld_unit_zero (S := S2000x1) hzC, View.ld_unit_zero (S := S1x128) hzC]
  obtain ⟨e00, e01, e10, e11, e20, e21, e30, e31, e40, e41, e50, e51, e60, e61, e70, e71⟩ := idx3 t
  have ht : t.val < 50 := Nat.lt_of_lt_of_eq t.isLt N_3
  funext j
  obtain ⟨p, q, rfl⟩ : ∃ (p : Fin 2000) (q : Fin 128), j = ix2 p q := ⟨j 0, j 1, eq_ix2 j⟩
  have hp : p.val < 2000 := p.isLt
  have hr : t.val * 2000 + p.val < 100000 := by omega
  refine (leakycomb_pay_apply (iblk3 V c 0 t) (iblk3 V c 3 t) (iblk3 V c 1 t) (iblk3 V c 4 t) (iblk3 V c 2 t) (iblk3 V c 5 t)
    (iblk3 V c 6 t) p q).trans ?_
  have he7 : ((cfg3.win 7).blk t).view.emb (ix2 p q) = ix2 (⟨t.val * 2000 + p.val, hr⟩ : Fin 100000) q := by
    funext a; apply Fin.ext
    match a with
    | ⟨0, _⟩ => show win3_7.index t (0 : Fin 2) * 2000 + 1 * p.val = t.val * 2000 + p.val; rw [e70]; omega
    | ⟨1, _⟩ => show win3_7.index t (1 : Fin 2) * 128 + 1 * q.val = q.val; rw [e71]; omega
  show _ = (HGcn.leaky (HGcn.comb (V c main_v30) (V c main_v61) (V c main_v92) t0 t1 t2 b)) (((cfg3.win 7).blk t).view.emb (ix2 p q))
  rw [he7, HGcn.leaky_apply, HGcn.comb_ix2]
  unfold HGcn.combAt
  have ra0 : iblk3 V c 0 t (ix2 p q) = V c main_v30 (ix2 (⟨t.val * 2000 + p.val, hr⟩ : Fin 100000) q) := by
    show V c main_v30 (((cfg3.win 0).blk t).view.emb (ix2 p q)) = _
    refine congrArg (V c main_v30) ?_
    funext a; apply Fin.ext
    match a with
    | ⟨0, _⟩ => show win3_0.index t (0 : Fin 2) * 2000 + 1 * p.val = t.val * 2000 + p.val; rw [e00]; omega
    | ⟨1, _⟩ => show win3_0.index t (1 : Fin 2) * 128 + 1 * q.val = q.val; rw [e01]; omega
  have ra1 : iblk3 V c 1 t (ix2 p q) = V c main_v61 (ix2 (⟨t.val * 2000 + p.val, hr⟩ : Fin 100000) q) := by
    show V c main_v61 (((cfg3.win 1).blk t).view.emb (ix2 p q)) = _
    refine congrArg (V c main_v61) ?_
    funext a; apply Fin.ext
    match a with
    | ⟨0, _⟩ => show win3_1.index t (0 : Fin 2) * 2000 + 1 * p.val = t.val * 2000 + p.val; rw [e10]; omega
    | ⟨1, _⟩ => show win3_1.index t (1 : Fin 2) * 128 + 1 * q.val = q.val; rw [e11]; omega
  have ra2 : iblk3 V c 2 t (ix2 p q) = V c main_v92 (ix2 (⟨t.val * 2000 + p.val, hr⟩ : Fin 100000) q) := by
    show V c main_v92 (((cfg3.win 2).blk t).view.emb (ix2 p q)) = _
    refine congrArg (V c main_v92) ?_
    funext a; apply Fin.ext
    match a with
    | ⟨0, _⟩ => show win3_2.index t (0 : Fin 2) * 2000 + 1 * p.val = t.val * 2000 + p.val; rw [e20]; omega
    | ⟨1, _⟩ => show win3_2.index t (1 : Fin 2) * 128 + 1 * q.val = q.val; rw [e21]; omega
  have rs0 : iblk3 V c 3 t (ix2 p (0 : Fin 1)) = t0 (ix1 (⟨t.val * 2000 + p.val, hr⟩ : Fin 100000)) := by
    show V c main_v95 (((cfg3.win 3).blk t).view.emb (ix2 p (0 : Fin 1))) = _
    have he : ((cfg3.win 3).blk t).view.emb (ix2 p (0 : Fin 1)) = ix2 (⟨t.val * 2000 + p.val, hr⟩ : Fin 100000) (0 : Fin 1) := by
      funext a; apply Fin.ext
      match a with
      | ⟨0, _⟩ => show win3_3.index t (0 : Fin 2) * 2000 + 1 * p.val = t.val * 2000 + p.val; rw [e30]; omega
      | ⟨1, _⟩ => show win3_3.index t (1 : Fin 2) * 1 + 1 * 0 = 0; rw [e31]
    rw [he, h0]
    exact PhysLoss.shapeCast_a_a1_apply t0 shapeCasts_S100000_S100000x1 _ (0 : Fin 1)
  have rs1 : iblk3 V c 4 t (ix2 p (0 : Fin 1)) = t1 (ix1 (⟨t.val * 2000 + p.val, hr⟩ : Fin 100000)) := by
    show V c main_v96 (((cfg3.win 4).blk t).view.emb (ix2 p (0 : Fin 1))) = _
    have he : ((cfg3.win 4).blk t).view.emb (ix2 p (0 : Fin 1)) = ix2 (⟨t.val * 2000 + p.val, hr⟩ : Fin 100000) (0 : Fin 1) := by
      funext a; apply Fin.ext
      match a with
      | ⟨0, _⟩ => show win3_4.index t (0 : Fin 2) * 2000 + 1 * p.val = t.val * 2000 + p.val; rw [e40]; omega
      | ⟨1, _⟩ => show win3_4.index t (1 : Fin 2) * 1 + 1 * 0 = 0; rw [e41]
    rw [he, h1]
    exact PhysLoss.shapeCast_a_a1_apply t1 shapeCasts_S100000_S100000x1 _ (0 : Fin 1)
  have rs2 : iblk3 V c 5 t (ix2 p (0 : Fin 1)) = t2 (ix1 (⟨t.val * 2000 + p.val, hr⟩ : Fin 100000)) := by
    show V c main_v97 (((cfg3.win 5).blk t).view.emb (ix2 p (0 : Fin 1))) = _
    have he : ((cfg3.win 5).blk t).view.emb (ix2 p (0 : Fin 1)) = ix2 (⟨t.val * 2000 + p.val, hr⟩ : Fin 100000) (0 : Fin 1) := by
      funext a; apply Fin.ext
      match a with
      | ⟨0, _⟩ => show win3_5.index t (0 : Fin 2) * 2000 + 1 * p.val = t.val * 2000 + p.val; rw [e50]; omega
      | ⟨1, _⟩ => show win3_5.index t (1 : Fin 2) * 1 + 1 * 0 = 0; rw [e51]
    rw [he, h2]
    exact PhysLoss.shapeCast_a_a1_apply t2 shapeCasts_S100000_S100000x1 _ (0 : Fin 1)
  have rb : iblk3 V c 6 t (ix2 (0 : Fin 1) q) = ∑ r : Fin 3, b (ix2 r q) := by
    show V c main_v94 (((cfg3.win 6).blk t).view.emb (ix2 (0 : Fin 1) q)) = _
    have he : ((cfg3.win 6).blk t).view.emb (ix2 (0 : Fin 1) q) = ix2 (0 : Fin 1) q := by
      funext a; apply Fin.ext
      match a with
      | ⟨0, _⟩ => show win3_6.index t (0 : Fin 2) * 1 + 1 * 0 = 0; rw [e60]
      | ⟨1, _⟩ => show win3_6.index t (1 : Fin 2) * 128 + 1 * q.val = q.val; rw [e61]; omega
    rw [he, hb, shapeCast_a_1a_apply]
    exact biasSum_apply b q
  rw [ra0, ra1, ra2, rs0, rs1, rs2, rb]

/-- An entry of region 3's output array is in point `t`'s block iff each coordinate is in the block's range on its axis. -/
theorem mem_blk3 (t : Fin cfg3.N) (i : S100000x128.Idx) :
    i ∈ ((cfg3.win 7).blk t).view.set ↔ ∀ a : Fin 2, win3_7.index t a * S2000x128.size a ≤ (i a).val
      ∧ (i a).val < win3_7.index t a * S2000x128.size a + S2000x128.size a := by
  show i ∈ ((View.whole main_v98).slice (win3_7.rect t)).set ↔ _
  rw [View.set_slice_whole, Rect.mem_set_unit]
  exact Iff.rfl

/-- Every entry of region 3's output array is written back by some point: row `r` by point `r / 2000`. -/
theorem cover3 (i : S100000x128.Idx) :
    ∃ t : Fin cfg3.N, (cfg3.win 7).flush t = true ∧ i ∈ ((cfg3.win 7).blk t).view.set := by
  have hi0 : (i 0).val < 100000 := (i 0).isLt
  have hi1 : (i 1).val < 128 := (i 1).isLt
  have hlt : (i 0).val / 2000 < cfg3.N := Nat.lt_of_lt_of_eq (by omega : (i 0).val / 2000 < 50) N_3.symm
  refine ⟨⟨(i 0).val / 2000, hlt⟩, flush3_7 _, ?_⟩
  rw [mem_blk3]
  obtain ⟨-, -, -, -, -, -, -, -, -, -, -, -, -, -, e70, e71⟩ := idx3 ⟨(i 0).val / 2000, hlt⟩
  have e70' : win3_7.index ⟨(i 0).val / 2000, hlt⟩ (0 : Fin 2) = (i 0).val / 2000 := e70
  intro a
  match a with
  | ⟨0, _⟩ =>
    show win3_7.index ⟨(i 0).val / 2000, hlt⟩ (0 : Fin 2) * 2000 ≤ (i 0).val
      ∧ (i 0).val < win3_7.index ⟨(i 0).val / 2000, hlt⟩ (0 : Fin 2) * 2000 + 2000
    rw [e70']; omega
  | ⟨1, _⟩ =>
    show win3_7.index ⟨(i 0).val / 2000, hlt⟩ (1 : Fin 2) * 128 ≤ (i 1).val
      ∧ (i 1).val < win3_7.index ⟨(i 0).val / 2000, hlt⟩ (1 : Fin 2) * 128 + 128
    rw [e71]; omega

end Cert.KernelIdeal.RegionValue.R3

namespace Cert.KernelIdeal.RegionValue

open Cert.KernelIdeal Cert.KernelIdeal.Gen

variable (V : (c : Dev nD) → (b : Ref sig .tc) → Buf (Elt Ideal) ((c : Thread nD τ).loc b))

/-- The output array of the first combine region, after its fifty points, is the leaky rectifier of `comb` of the arrays
    the region was entered with. -/
theorem region3 (c : Dev nD) (t0 t1 t2 : FVec Ideal S100000 .f32) (b : FVec Ideal S3x128 .f32)
    (h0 : V c main_v95 = shapeCast S100000x1 t0 shapeCasts_S100000_S100000x1)
    (h1 : V c main_v96 = shapeCast S100000x1 t1 shapeCasts_S100000_S100000x1)
    (h2 : V c main_v97 = shapeCast S100000x1 t2 shapeCasts_S100000_S100000x1)
    (hb : V c main_v94 = shapeCast S1x128 (Host.reduceAdd (F := Ideal) b (constant (F := Ideal) S_ .f32 0x00000000#32) reducesTo_S3x128_S128_d0 h_S_) shapeCasts_S128_S1x128) :
    (Gen.dat3 V c).arrAt 7 cfg3.N = HGcn.leaky (HGcn.comb (V c main_v30) (V c main_v61) (V c main_v92) t0 t1 t2 b) :=
  (dat3 V c).arrAt_eq_of_cover 7 (HGcn.leaky (HGcn.comb (V c main_v30) (V c main_v61) (V c main_v92) t0 t1 t2 b))
    (fun t _ => R3.flushed3 V c t0 t1 t2 b h0 h1 h2 hb t) R3.cover3

end Cert.KernelIdeal.RegionValue

end
-- ==== Proof.CombKernel7.lean ====
/-
  The second combine region of the kernel program (no rectifier): fifty points, each reading a block of 2000 rows of the
  three aggregated relation messages, the same rows of the three degree-factor columns, and the whole summed bias row, and
  writing back, entry by entry, the three messages each scaled by its column's entry of that row, summed, plus the bias.

  Block t of an array blocked by rows is rows 2000·t … 2000·t + 1999 (an entry's coordinate in the array is the block
  index times the block size plus its coordinate in the block); a degree-factor column is a vector over the nodes cast to
  one column, so its entry at row r is the vector's entry at r; the bias row is the host sum of the bias table over its
  three rows, cast to one row.  So what point t writes back is block t of ONE function of whole arrays, `comb`, and since
  the fifty blocks tile the 100000 rows (row r lies in block r / 2000) the array after the run is that function.
-/
import proofs.«124848_j55800215109809_1_alg».proof.Proof.Gen.KernelIdeal.Frame
import Idealize.ShloMosaic.Lib.Pipeline.Value
import Idealize.ShloMosaic.Lib.ValueLayout
import Idealize.ShloMosaic.Lib.IdealHost
import Idealize.ShloMosaic.PureOps.Ideal.Laws
import proofs.«124848_j55800215109809_1_alg».proof.Proof.LibColumnLayout
import proofs.«124848_j55800215109809_1_alg».proof.Proof.Spec
import proofs.«124848_j55800215109809_1_alg».proof.Proof.SpecAct

noncomputable section

open Idealize.ShloMosaic Idealize.ShloMosaic.TcCoe Idealize.SL.Sem Idealize.ShloMosaic.ValueIdx
open Idealize.ShloMosaic.Pipeline (Dat)

namespace Cert.KernelIdeal.RegionValue.R7

open Cert.KernelIdeal Cert.KernelIdeal.Gen

theorem hzC : (![0, 0] : Fin 2 → Nat) = fun _ => 0 := funext fun a => by fin_cases a <;> rfl

/-- The combine body without the rectifier, at row `p`, feature `q` of its block: the three messages, each scaled by its
    column's entry at row `p`, summed, plus the bias row at `q`. -/
theorem comb_pay_apply (x0 : FVec Ideal S2000x128 .f32) (s0 : FVec Ideal S2000x1 .f32) (x1 : FVec Ideal S2000x128 .f32)
    (s1 : FVec Ideal S2000x1 .f32) (x2 : FVec Ideal S2000x128 .f32) (s2 : FVec Ideal S2000x1 .f32) (bb : FVec Ideal S1x128 .f32)
    (p : Fin 2000) (q : Fin 128) :
    k7_pay1 x0 s0 x1 s1 x2 s2 bb (ix2 p q)
      = ((x0 (ix2 p q) * s0 (ix2 p (0 : Fin 1)) + x1 (ix2 p q) * s1 (ix2 p (0 : Fin 1))) + x2 (ix2 p q) * s2 (ix2 p (0 : Fin 1)))
        + bb (ix2 (0 : Fin 1) q) := by
  unfold k7_pay1
  simp only [shapeCast_self]
  rw [addf_apply, addf_apply, addf_apply, mulf_apply, mulf_apply, mulf_apply,
    PhysLoss.broadcastTo_a1_ab_apply, PhysLoss.broadcastTo_a1_ab_apply, PhysLoss.broadcastTo_a1_ab_apply,
    broadcastTo_1b_ab_apply]

/-- The summed bias rows: the host sum of the bias table over its three rows, from zero, at feature `q`. -/
theorem biasSum_apply (b : FVec Ideal S3x128 .f32) (q : Fin 128) :
    Host.reduceAdd (F := Ideal) b (constant (F := Ideal) S_ .f32 0x00000000#32) reducesTo_S3x128_S128_d0 h_S_ (ix1 q)
      = ∑ r : Fin 3, b (ix2 r q) := by
  rw [hostReduceAdd_apply]
  refine (Ideal.hostReduceAdd_single reducesTo_S3x128_S128_d0 (by decide : S3x128.Reduces [0] S128) b _ (ix1 q)).trans ?_
  rw [constant_apply, Ideal.ofBits_zero_f32, zero_add]
  refine Finset.sum_congr rfl fun k _ => congrArg b ?_
  funext a
  match a with
  | ⟨0, _⟩ => rfl
  | ⟨1, _⟩ => rfl

variable (V : (c : Dev nD) → (b : Ref sig .tc) → Buf (Elt Ideal) ((c : Thread nD τ).loc b))

/-! ## Region 7 -/

/-- The printed index maps of region 7 over the fifty points: every row-blocked window is at row block `t`, the bias row
    is whole. -/
theorem idx7 : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = t.val ∧ win7_3.index t (1 : Fin 2) = 0
    ∧ win7_4.index t (0 : Fin 2) = t.val ∧ win7_4.index t (1 : Fin 2) = 0
    ∧ win7_5.index t (0 : Fin 2) = t.val ∧ win7_5.index t (1 : Fin 2) = 0
    ∧ win7_6.index t (0 : Fin 2) = 0 ∧ win7_6.index t (1 : Fin 2) = 0
    ∧ win7_7.index t (0 : Fin 2) = t.val ∧ win7_7.index t (1 : Fin 2) = 0 :=
  (by decide +kernel : ∀ t : Fin grid7.N, _)

/-- What point `t` of region 7 writes back is block `t` of ONE function of the arrays the region was entered with. -/
theorem flushed7 (c : Dev nD) (t0 t1 t2 : FVec Ideal S100000 .f32) (b : FVec Ideal S3x128 .f32)
    (h0 : V c main_v194 = shapeCast S100000x1 t0 shapeCasts_S100000_S100000x1)
    (h1 : V c main_v195 = shapeCast S100000x1 t1 shapeCasts_S100000_S100000x1)
    (h2 : V c main_v196 = shapeCast S100000x1 t2 shapeCasts_S100000_S100000x1)
    (hb : V c main_v193 = shapeCast S1x128 (Host.reduceAdd (F := Ideal) b (constant (F := Ideal) S_ .f32 0x00000000#32) reducesTo_S3x128_S128_d0 h_S_) shapeCasts_S128_S1x128)
    (t : Fin cfg7.N) :
    (dat7 V c).flushed 7 t = ((cfg7.win 7).blk t).view.read (Elt Ideal) (HGcn.comb (V c main_v129) (V c main_v160) (V c main_v191) t0 t1 t2 b) := by
  show (cfg7.win 7).cut (grid7.coords t) ((dat7 V c).after 7 t) = _
  rw [after7_7]
  unfold out7_7
  rw [View.canon_unit_zero hzC]
  simp only [View.ld_unit_zero (S := S2000x128) hzC, View.ld_unit_zero (S := S2000x1) hzC, View.ld_unit_zero (S := S1x128) hzC]
  obtain ⟨e00, e01, e10, e11, e20, e21, e30, e31, e40, e41, e50, e51, e60, e61, e70, e71⟩ := idx7 t
  have ht : t.val < 50 := Nat.lt_of_lt_of_eq t.isLt N_7
  funext j
  obtain ⟨p, q, rfl⟩ : ∃ (p : Fin 2000) (q : Fin 128), j = ix2 p q := ⟨j 0, j 1, eq_ix2 j⟩
  have hp : p.val < 2000 := p.isLt
  have hr : t.val * 2000 + p.val < 100000 := by omega
  refine (comb_pay_apply (iblk7 V c 0 t) (iblk7 V c 3 t) (iblk7 V c 1 t) (iblk7 V c 4 t) (iblk7 V c 2 t) (iblk7 V c 5 t)
    (iblk7 V c 6 t) p q).trans ?_
  have he7 : ((cfg7.win 7).blk t).view.emb (ix2 p q) = ix2 (⟨t.val * 2000 + p.val, hr⟩ : Fin 100000) q := by
    funext a; apply Fin.ext
    match a with
    | ⟨0, _⟩ => show win7_7.index t (0 : Fin 2) * 2000 + 1 * p.val = t.val * 2000 + p.val; rw [e70]; omega
    | ⟨1, _⟩ => show win7_7.index t (1 : Fin 2) * 128 + 1 * q.val = q.val; rw [e71]; omega
  show _ = (HGcn.comb (V c main_v129) (V c main_v160) (V c main_v191) t0 t1 t2 b) (((cfg7.win 7).blk t).view.emb (ix2 p q))
  rw [he7, HGcn.comb_ix2]
  unfold HGcn.combAt
  have ra0 : iblk7 V c 0 t (ix2 p q) = V c main_v129 (ix2 (⟨t.val * 2000 + p.val, hr⟩ : Fin 100000) q) := by
    show V c main_v129 (((cfg7.win 0).blk t).view.emb (ix2 p q)) = _
    refine congrArg (V c main_v129) ?_
    funext a; apply Fin.ext
    match a with
    | ⟨0, _⟩ => show win7_0.index t (0 : Fin 2) * 2000 + 1 * p.val = t.val * 2000 + p.val; rw [e00]; omega
    | ⟨1, _⟩ => show win7_0.index t (1 : Fin 2) * 128 + 1 * q.val = q.val; rw [e01]; omega
  have ra1 : iblk7 V c 1 t (ix2 p q) = V c main_v160 (ix2 (⟨t.val * 2000 + p.val, hr⟩ : Fin 100000) q) := by
    show V c main_v160 (((cfg7.win 1).blk t).view.emb (ix2 p q)) = _
    refine congrArg (V c main_v160) ?_
    funext a; apply Fin.ext
    match a with
    | ⟨0, _⟩ => show win7_1.index t (0 : Fin 2) * 2000 + 1 * p.val = t.val * 2000 + p.val; rw [e10]; omega
    | ⟨1, _⟩ => show win7_1.index t (1 : Fin 2) * 128 + 1 * q.val = q.val; rw [e11]; omega
  have ra2 : iblk7 V c 2 t (ix2 p q) = V c main_v191 (ix2 (⟨t.val * 2000 + p.val, hr⟩ : Fin 100000) q) := by
    show V c main_v191 (((cfg7.win 2).blk t).view.emb (ix2 p q)) = _
    refine congrArg (V c main_v191) ?_
    funext a; apply Fin.ext
    match a with
    | ⟨0, _⟩ => show win7_2.index t (0 : Fin 2) * 2000 + 1 * p.val = t.val * 2000 + p.val; rw [e20]; omega
    | ⟨1, _⟩ => show win7_2.index t (1 : Fin 2) * 128 + 1 * q.val = q.val; rw [e21]; omega
  have rs0 : iblk7 V c 3 t (ix2 p (0 : Fin 1)) = t0 (ix1 (⟨t.val * 2000 + p.val, hr⟩ : Fin 100000)) := by
    show V c main_v194 (((cfg7.win 3).blk t).view.emb (ix2 p (0 : Fin 1))) = _
    have he : ((cfg7.win 3).blk t).view.emb (ix2 p (0 : Fin 1)) = ix2 (⟨t.val * 2000 + p.val, hr⟩ : Fin 100000) (0 : Fin 1) := by
      funext a; apply Fin.ext
      match a with
      | ⟨0, _⟩ => show win7_3.index t (0 : Fin 2) * 2000 + 1 * p.val = t.val * 2000 + p.val; rw [e30]; omega
      | ⟨1, _⟩ => show win7_3.index t (1 : Fin 2) * 1 + 1 * 0 = 0; rw [e31]
    rw [he, h0]
    exact PhysLoss.shapeCast_a_a1_apply t0 shapeCasts_S100000_S100000x1 _ (0 : Fin 1)
  have rs1 : iblk7 V c 4 t (ix2 p (0 : Fin 1)) = t1 (ix1 (⟨t.val * 2000 + p.val, hr⟩ : Fin 100000)) := by
    show V c main_v195 (((cfg7.win 4).blk t).view.emb (ix2 p (0 : Fin 1))) = _
    have he : ((cfg7.win 4).blk t).view.emb (ix2 p (0 : Fin 1)) = ix2 (⟨t.val * 2000 + p.val, hr⟩ : Fin 100000) (0 : Fin 1) := by
      funext a; apply Fin.ext
      match a with
      | ⟨0, _⟩ => show win7_4.index t (0 : Fin 2) * 2000 + 1 * p.val = t.val * 2000 + p.val; rw [e40]; omega
      | ⟨1, _⟩ => show win7_4.index t (1 : Fin 2) * 1 + 1 * 0 = 0; rw [e41]
    rw [he, h1]
    exact PhysLoss.shapeCast_a_a1_apply t1 shapeCasts_S100000_S100000x1 _ (0 : Fin 1)
  have rs2 : iblk7 V c 5 t (ix2 p (0 : Fin 1)) = t2 (ix1 (⟨t.val * 2000 + p.val, hr⟩ : Fin 100000)) := by
    show V c main_v196 (((cfg7.win 5).blk t).view.emb (ix2 p (0 : Fin 1))) = _
    have he : ((cfg7.win 5).blk t).view.emb (ix2 p (0 : Fin 1)) = ix2 (⟨t.val * 2000 + p.val, hr⟩ : Fin 100000) (0 : Fin 1) := by
      funext a; apply Fin.ext
      match a with
      | ⟨0, _⟩ => show win7_5.index t (0 : Fin 2) * 2000 + 1 * p.val = t.val * 2000 + p.val; rw [e50]; omega
      | ⟨1, _⟩ => show win7_5.index t (1 : Fin 2) * 1 + 1 * 0 = 0; rw [e51]
    rw [he, h2]
    exact PhysLoss.shapeCast_a_a1_apply t2 shapeCasts_S100000_S100000x1 _ (0 : Fin 1)
  have rb : iblk7 V c 6 t (ix2 (0 : Fin 1) q) = ∑ r : Fin 3, b (ix2 r q) := by
    show V c main_v193 (((cfg7.win 6).blk t).view.emb (ix2 (0 : Fin 1) q)) = _
    have he : ((cfg7.win 6).blk t).view.emb (ix2 (0 : Fin 1) q) = ix2 (0 : Fin 1) q := by
      funext a; apply Fin.ext
      match a with
      | ⟨0, _⟩ => show win7_6.index t (0 : Fin 2) * 1 + 1 * 0 = 0; rw [e60]
      | ⟨1, _⟩ => show win7_6.index t (1 : Fin 2) * 128 + 1 * q.val = q.val; rw [e61]; omega
    rw [he, hb, shapeCast_a_1a_apply]
    exact biasSum_apply b q
  rw [ra0, ra1, ra2, rs0, rs1, rs2, rb]

/-- An entry of region 7's output array is in point `t`'s block iff each coordinate is in the block's range on its axis. -/
theorem mem_blk7 (t : Fin cfg7.N) (i : S100000x128.Idx) :
    i ∈ ((cfg7.win 7).blk t).view.set ↔ ∀ a : Fin 2, win7_7.index t a * S2000x128.size a ≤ (i a).val
      ∧ (i a).val < win7_7.index t a * S2000x128.size a + S2000x128.size a := by
  show i ∈ ((View.whole main_v197).slice (win7_7.rect t)).set ↔ _
  rw [View.set_slice_whole, Rect.mem_set_unit]
  exact Iff.rfl

/-- Every entry of region 7's output array is written back by some point: row `r` by point `r / 2000`. -/
theorem cover7 (i : S100000x128.Idx) :
    ∃ t : Fin cfg7.N, (cfg7.win 7).flush t = true ∧ i ∈ ((cfg7.win 7).blk t).view.set := by
  have hi0 : (i 0).val < 100000 := (i 0).isLt
  have hi1 : (i 1).val < 128 := (i 1).isLt
  have hlt : (i 0).val / 2000 < cfg7.N := Nat.lt_of_lt_of_eq (by omega : (i 0).val / 2000 < 50) N_7.symm
  refine ⟨⟨(i 0).val / 2000, hlt⟩, flush7_7 _, ?_⟩
  rw [mem_blk7]
  obtain ⟨-, -, -, -, -, -, -, -, -, -, -, -, -, -, e70, e71⟩ := idx7 ⟨(i 0).val / 2000, hlt⟩
  have e70' : win7_7.index ⟨(i 0).val / 2000, hlt⟩ (0 : Fin 2) = (i 0).val / 2000 := e70
  intro a
  match a with
  | ⟨0, _⟩ =>
    show win7_7.index ⟨(i 0).val / 2000, hlt⟩ (0 : Fin 2) * 2000 ≤ (i 0).val
      ∧ (i 0).val < win7_7.index ⟨(i 0).val / 2000, hlt⟩ (0 : Fin 2) * 2000 + 2000
    rw [e70']; omega
  | ⟨1, _⟩ =>
    show win7_7.index ⟨(i 0).val / 2000, hlt⟩ (1 : Fin 2) * 128 ≤ (i 1).val
      ∧ (i 1).val < win7_7.index ⟨(i 0).val / 2000, hlt⟩ (1 : Fin 2) * 128 + 128
    rw [e71]; omega

end Cert.KernelIdeal.RegionValue.R7

namespace Cert.KernelIdeal.RegionValue

open Cert.KernelIdeal Cert.KernelIdeal.Gen

variable (V : (c : Dev nD) → (b : Ref sig .tc) → Buf (Elt Ideal) ((c : Thread nD τ).loc b))

/-- The output array of the second combine region, after its fifty points, is `comb` of the arrays the region was
    entered with. -/
theorem region7 (c : Dev nD) (t0 t1 t2 : FVec Ideal S100000 .f32) (b : FVec Ideal S3x128 .f32)
    (h0 : V c main_v194 = shapeCast S100000x1 t0 shapeCasts_S100000_S100000x1)
    (h1 : V c main_v195 = shapeCast S100000x1 t1 shapeCasts_S100000_S100000x1)
    (h2 : V c main_v196 = shapeCast S100000x1 t2 shapeCasts_S100000_S100000x1)
    (hb : V c main_v193 = shapeCast S1x128 (Host.reduceAdd (F := Ideal) b (constant (F := Ideal) S_ .f32 0x00000000#32) reducesTo_S3x128_S128_d0 h_S_) shapeCasts_S128_S1x128) :
    (Gen.dat7 V c).arrAt 7 cfg7.N = HGcn.comb (V c main_v129) (V c main_v160) (V c main_v191) t0 t1 t2 b :=
  (dat7 V c).arrAt_eq_of_cover 7 (HGcn.comb (V c main_v129) (V c main_v160) (V c main_v191) t0 t1 t2 b)
    (fun t _ => R7.flushed7 V c t0 t1 t2 b h0 h1 h2 hb t) R7.cover7

end Cert.KernelIdeal.RegionValue

end
-- ==== Proof.CombKernel.lean ====
/-
  The two combine regions of the kernel program side by side: the first applies the leaky rectifier to the scaled sum
  of the three relation messages plus the summed bias rows (`region3`), the second leaves that sum as it is (`region7`).
-/
import proofs.«124848_j55800215109809_1_alg».proof.Proof.CombKernel3
import proofs.«124848_j55800215109809_1_alg».proof.Proof.CombKernel7
-- ==== Proof.FcKernel.lean ====
/-
  The last region of the kernel program: fifty points, each reading a block of 2000 rows of the hidden features, the
  whole 128 × 16 weight matrix and the whole bias row, and writing back the block's rows times the matrix plus the bias.

  At an entry (p, q) of a block the body's value is the sum over the 128 hidden features of the block's row p against
  column q of the matrix, plus the bias at q.  Block t of the hidden features is rows 2000·t … 2000·t + 1999 of the array
  (an entry's coordinate in the array is the block index times the block size plus its coordinate in the block), so what
  point t writes back is block t of ONE function of whole arrays, the last layer `fc`.  The fifty blocks tile the 100000
  rows — row r lies in block r / 2000 — so the array after the run is that function.
-/
import proofs.«124848_j55800215109809_1_alg».proof.Proof.Gen.KernelIdeal.Frame
import Idealize.ShloMosaic.Lib.Pipeline.Value
import Idealize.ShloMosaic.Lib.ValueLayout
import Idealize.ShloMosaic.PureOps.Ideal.Laws
import proofs.«124848_j55800215109809_1_alg».proof.Proof.Spec
import proofs.«124848_j55800215109809_1_alg».proof.Proof.SpecAct

noncomputable section

open Idealize.ShloMosaic Idealize.ShloMosaic.TcCoe Idealize.SL.Sem Idealize.ShloMosaic.ValueIdx
open Idealize.ShloMosaic.Pipeline (Dat)

namespace Cert.KernelIdeal.RegionValue

open Cert.KernelIdeal Cert.KernelIdeal.Gen

theorem hz2 : (![0, 0] : Fin 2 → Nat) = fun _ => 0 := funext fun a => by fin_cases a <;> rfl

/-! ## The contraction of the block product: operand indices by coordinates -/

theorem fcK_lhs0 (i : S2000x16.Idx) (q : dot_S2000x128_S128x16_S2000x16_1_0_0_1_n_n.contr.Idx) :
    (dot_S2000x128_S128x16_S2000x16_1_0_0_1_n_n.lhsIdx i q 0).val = (i 0).val := by
  unfold DotDims.lhsIdx
  rw [dif_neg (show ¬(0 : Fin S2000x128.rank) ∈ dot_S2000x128_S128x16_S2000x16_1_0_0_1_n_n.lhsBatch from List.not_mem_nil),
    dif_pos (show (0 : Fin S2000x128.rank) ∈ dot_S2000x128_S128x16_S2000x16_1_0_0_1_n_n.lhsNonContracting from List.mem_singleton.mpr rfl)]
  rfl

theorem fcK_lhs1 (i : S2000x16.Idx) (q : dot_S2000x128_S128x16_S2000x16_1_0_0_1_n_n.contr.Idx) :
    (dot_S2000x128_S128x16_S2000x16_1_0_0_1_n_n.lhsIdx i q 1).val
      = (q ⟨0, (Nat.one_pos : 0 < dot_S2000x128_S128x16_S2000x16_1_0_0_1_n_n.contr.rank)⟩).val :=
  dot_S2000x128_S128x16_S2000x16_1_0_0_1_n_n.lhsIdx_val_of_single rfl i q

theorem fcK_rhs0 (i : S2000x16.Idx) (q : dot_S2000x128_S128x16_S2000x16_1_0_0_1_n_n.contr.Idx) :
    (dot_S2000x128_S128x16_S2000x16_1_0_0_1_n_n.rhsIdx i q 0).val
      = (q ⟨0, (Nat.one_pos : 0 < dot_S2000x128_S128x16_S2000x16_1_0_0_1_n_n.contr.rank)⟩).val :=
  dot_S2000x128_S128x16_S2000x16_1_0_0_1_n_n.rhsIdx_val_of_single rfl i q

theorem fcK_rhs1 (i : S2000x16.Idx) (q : dot_S2000x128_S128x16_S2000x16_1_0_0_1_n_n.contr.Idx) :
    (dot_S2000x128_S128x16_S2000x16_1_0_0_1_n_n.rhsIdx i q 1).val = (i 1).val := by
  unfold DotDims.rhsIdx
  rw [dif_neg (show ¬(1 : Fin S128x16.rank) ∈ dot_S2000x128_S128x16_S2000x16_1_0_0_1_n_n.rhsBatch from List.not_mem_nil),
    dif_pos (show (1 : Fin S128x16.rank) ∈ dot_S2000x128_S128x16_S2000x16_1_0_0_1_n_n.rhsNonContracting from List.mem_singleton.mpr rfl)]
  rfl

/-- The body's value at row `p`, class `q` of its block: the row of the hidden block against column `q` of the weight
    matrix, summed over the 128 hidden features, plus the bias row at `q`.  (Rounding the operands to the narrow format
    is the identity on extended reals, and the accumulator starts at zero.) -/
theorem fc_pay_apply (x0 : FVec Ideal S2000x128 .f32) (x1 : FVec Ideal S128x16 .f32) (x2 : FVec Ideal S1x16 .f32) (p : Fin 2000) (q : Fin 16) :
    k8_pay1 x0 x1 x2 (ix2 p q) = (∑ k : Fin 128, x0 (ix2 p k) * x1 (ix2 k q)) + x2 (ix2 (0 : Fin 1) q) := by
  unfold k8_pay1
  simp only [shapeCast_self]
  rw [addf_apply, broadcastTo_1b_ab_apply]
  refine congrArg (· + x2 (ix2 (0 : Fin 1) q)) ?_
  refine (Ideal.matmul_constant_zero_apply dot_S2000x128_S128x16_S2000x16_1_0_0_1_n_n none _ _ (ix2 p q)).trans ?_
  rw [← Equiv.sum_comp (contrEquiv1 dot_S2000x128_S128x16_S2000x16_1_0_0_1_n_n 128 rfl rfl).symm]
  refine Finset.sum_congr rfl fun k _ => ?_
  have hk := contrEquiv1_symm_val dot_S2000x128_S128x16_S2000x16_1_0_0_1_n_n 128 rfl rfl k
  have el : dot_S2000x128_S128x16_S2000x16_1_0_0_1_n_n.lhsIdx (ix2 p q)
      ((contrEquiv1 dot_S2000x128_S128x16_S2000x16_1_0_0_1_n_n 128 rfl rfl).symm k) = ix2 p k :=
    funext fun a => Fin.ext (by
      match a with
      | ⟨0, _⟩ => exact fcK_lhs0 _ _
      | ⟨1, _⟩ => exact (fcK_lhs1 _ _).trans hk)
  have er : dot_S2000x128_S128x16_S2000x16_1_0_0_1_n_n.rhsIdx (ix2 p q)
      ((contrEquiv1 dot_S2000x128_S128x16_S2000x16_1_0_0_1_n_n 128 rfl rfl).symm k) = ix2 k q :=
    funext fun a => Fin.ext (by
      match a with
      | ⟨0, _⟩ => exact (fcK_rhs0 _ _).trans hk
      | ⟨1, _⟩ => exact fcK_rhs1 _ _)
  rw [el, er]
  rfl

variable (V : (c : Dev nD) → (b : Ref sig .tc) → Buf (Elt Ideal) ((c : Thread nD τ).loc b))

/-- The printed index maps over the fifty points: the hidden block and the output block are at row block `t`, the weight
    matrix and the bias row are whole. -/
theorem idx8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0 :=
  (by decide +kernel : ∀ t : Fin grid8.N, _)

/-- What point `t` writes back is block `t` of the last layer of the arrays as the region finds them. -/
theorem flushed8 (c : Dev nD) (b : FVec Ideal S16 .f32) (hb : V c main_v198 = shapeCast S1x16 b shapeCasts_S16_S1x16)
    (t : Fin cfg8.N) :
    (dat8 V c).flushed 3 t = ((cfg8.win 3).blk t).view.read (Elt Ideal) (HGcn.fc (V c main_v197) (V c main_arg7) b) := by
  show (cfg8.win 3).cut (grid8.coords t) ((dat8 V c).after 3 t) = _
  rw [after8_3]
  unfold out8_3
  rw [View.canon_unit_zero hz2]
  simp only [View.ld_unit_zero (S := S2000x128) hz2, View.ld_unit_zero (S := S128x16) hz2, View.ld_unit_zero (S := S1x16) hz2]
  obtain ⟨e00, e01, e10, e11, e20, e21, e30, e31⟩ := idx8 t
  have ht : t.val < 50 := Nat.lt_of_lt_of_eq t.isLt N_8
  funext j
  obtain ⟨p, q, rfl⟩ : ∃ (p : Fin 2000) (q : Fin 16), j = ix2 p q := ⟨j 0, j 1, eq_ix2 j⟩
  have hp : p.val < 2000 := p.isLt
  have hr : t.val * 2000 + p.val < 100000 := by omega
  refine (fc_pay_apply (iblk8 V c 0 t) (iblk8 V c 1 t) (iblk8 V c 2 t) p q).trans ?_
  have he3 : ((cfg8.win 3).blk t).view.emb (ix2 p q) = ix2 (⟨t.val * 2000 + p.val, hr⟩ : Fin 100000) q := by
    funext a; apply Fin.ext
    match a with
    | ⟨0, _⟩ => show win8_3.index t (0 : Fin 2) * 2000 + 1 * p.val = t.val * 2000 + p.val; rw [e30]; omega
    | ⟨1, _⟩ => show win8_3.index t (1 : Fin 2) * 16 + 1 * q.val = q.val; rw [e31]; omega
  show _ = HGcn.fc (V c main_v197) (V c main_arg7) b (((cfg8.win 3).blk t).view.emb (ix2 p q))
  rw [he3, HGcn.fc_ix2]
  unfold HGcn.fcAt
  have r0 : ∀ k : Fin 128, iblk8 V c 0 t (ix2 p k) = V c main_v197 (ix2 (⟨t.val * 2000 + p.val, hr⟩ : Fin 100000) k) := fun k => by
    show V c main_v197 (((cfg8.win 0).blk t).view.emb (ix2 p k)) = _
    refine congrArg (V c main_v197) ?_
    funext a; apply Fin.ext
    match a with
    | ⟨0, _⟩ => show win8_0.index t (0 : Fin 2) * 2000 + 1 * p.val = t.val * 2000 + p.val; rw [e00]; omega
    | ⟨1, _⟩ => show win8_0.index t (1 : Fin 2) * 128 + 1 * k.val = k.val; rw [e01]; omega
  have r1 : ∀ k : Fin 128, iblk8 V c 1 t (ix2 k q) = V c main_arg7 (ix2 k q) := fun k => by
    show V c main_arg7 (((cfg8.win 1).blk t).view.emb (ix2 k q)) = _
    refine congrArg (V c main_arg7) ?_
    funext a; apply Fin.ext
    match a with
    | ⟨0, _⟩ => show win8_1.index t (0 : Fin 2) * 128 + 1 * k.val = k.val; rw [e10]; omega
    | ⟨1, _⟩ => show win8_1.index t (1 : Fin 2) * 16 + 1 * q.val = q.val; rw [e11]; omega
  have r2 : iblk8 V c 2 t (ix2 (0 : Fin 1) q) = b (ix1 q) := by
    show V c main_v198 (((cfg8.win 2).blk t).view.emb (ix2 (0 : Fin 1) q)) = _
    have he2 : ((cfg8.win 2).blk t).view.emb (ix2 (0 : Fin 1) q) = ix2 (0 : Fin 1) q := by
      funext a; apply Fin.ext
      match a with
      | ⟨0, _⟩ => show win8_2.index t (0 : Fin 2) * 1 + 1 * 0 = 0; rw [e20]
      | ⟨1, _⟩ => show win8_2.index t (1 : Fin 2) * 16 + 1 * q.val = q.val; rw [e21]; omega
    rw [he2, hb]
    exact shapeCast_a_1a_apply b shapeCasts_S16_S1x16 (0 : Fin 1) q
  rw [r2]
  refine congrArg (· + b (ix1 q)) (Finset.sum_congr rfl fun k _ => ?_)
  rw [r0 k, r1 k]

/-- An entry of the output array is in point `t`'s block iff each coordinate is in the block's range on its axis. -/
theorem mem_blk8 (t : Fin cfg8.N) (i : S100000x16.Idx) :
    i ∈ ((cfg8.win 3).blk t).view.set ↔ ∀ a : Fin 2, win8_3.index t a * S2000x16.size a ≤ (i a).val
      ∧ (i a).val < win8_3.index t a * S2000x16.size a + S2000x16.size a := by
  show i ∈ ((View.whole main_v199).slice (win8_3.rect t)).set ↔ _
  rw [View.set_slice_whole, Rect.mem_set_unit]
  exact Iff.rfl

/-- Every entry of the output array is written back by some point: row `r` by point `r / 2000`. -/
theorem cover8 (i : S100000x16.Idx) :
    ∃ t : Fin cfg8.N, (cfg8.win 3).flush t = true ∧ i ∈ ((cfg8.win 3).blk t).view.set := by
  have hi0 : (i 0).val < 100000 := (i 0).isLt
  have hi1 : (i 1).val < 16 := (i 1).isLt
  have hlt : (i 0).val / 2000 < cfg8.N := Nat.lt_of_lt_of_eq (by omega : (i 0).val / 2000 < 50) N_8.symm
  refine ⟨⟨(i 0).val / 2000, hlt⟩, flush8_3 _, ?_⟩
  rw [mem_blk8]
  obtain ⟨-, -, -, -, -, -, e30, e31⟩ := idx8 ⟨(i 0).val / 2000, hlt⟩
  have e30' : win8_3.index ⟨(i 0).val / 2000, hlt⟩ (0 : Fin 2) = (i 0).val / 2000 := e30
  intro a
  match a with
  | ⟨0, _⟩ =>
    show win8_3.index ⟨(i 0).val / 2000, hlt⟩ (0 : Fin 2) * 2000 ≤ (i 0).val
      ∧ (i 0).val < win8_3.index ⟨(i 0).val / 2000, hlt⟩ (0 : Fin 2) * 2000 + 2000
    rw [e30']; omega
  | ⟨1, _⟩ =>
    show win8_3.index ⟨(i 0).val / 2000, hlt⟩ (1 : Fin 2) * 16 ≤ (i 1).val
      ∧ (i 1).val < win8_3.index ⟨(i 0).val / 2000, hlt⟩ (1 : Fin 2) * 16 + 16
    rw [e31]; omega

/-- The output array of the last region, after its fifty points, is the last layer of the arrays the region was entered
    with: the hidden features times the weight matrix plus the bias. -/
theorem region8 (c : Dev nD) (b : FVec Ideal S16 .f32) (hb : V c main_v198 = shapeCast S1x16 b shapeCasts_S16_S1x16) :
    (Gen.dat8 V c).arrAt 3 cfg8.N = HGcn.fc (V c main_v197) (V c main_arg7) b :=
  (dat8 V c).arrAt_eq_of_cover 3 (HGcn.fc (V c main_v197) (V c main_arg7) b) (fun t _ => flushed8 V c b hb t) cover8

end Cert.KernelIdeal.RegionValue
end
-- ==== Proof.KernelRegionReads.lean ====
/-
  The nine regions' output arrays read at the last boundary's contents: each is its region's whole-array function (the scaled
  matrix product, the scaled sum of the relation messages, the final linear layer) of what the region's input arrays hold at
  the last boundary — an input array is written before the region and never again, the output array never after it.
-/
import proofs.«124848_j55800215109809_1_alg».proof.Proof.KernelReads0
import proofs.«124848_j55800215109809_1_alg».proof.Proof.KernelReads1
import proofs.«124848_j55800215109809_1_alg».proof.Proof.KernelReads2
import proofs.«124848_j55800215109809_1_alg».proof.Proof.KernelReads3
import proofs.«124848_j55800215109809_1_alg».proof.Proof.KernelReads4
import Idealize.ShloMosaic.PureOps.Ideal
import proofs.«124848_j55800215109809_1_alg».proof.Proof.SmmKernel
import proofs.«124848_j55800215109809_1_alg».proof.Proof.CombKernel
import proofs.«124848_j55800215109809_1_alg».proof.Proof.FcKernel

set_option maxRecDepth 16384

noncomputable section

namespace Cert.KernelIdeal.Rd

open Cert.KernelIdeal Cert.KernelIdeal.Gen Cert.KernelIdeal.Chain Cert.LibAfter
open Idealize.ShloMosaic Idealize.ShloMosaic.TcCoe Idealize.SL.Sem Idealize.ShloMosaic.StableHlo

variable (m : (ℓ : Loc nD τ sig) → Buf (Elt Ideal) ℓ) (ρ : Dev nD → PrngReg)

/-- Region 0's output array at the last boundary: rows of main_arg0 scaled by the degree factor main_v14, times main_v18. -/
theorem v20 (c : Dev nD) :
    W42 (F := Ideal) m ρ c (Proc.devRef .tc main_v20) = HGcn.smm256 (W42 (F := Ideal) m ρ c (Proc.devRef .tc main_arg0)) (W42 (F := Ideal) m ρ c (Proc.devRef .tc main_v14)) (W42 (F := Ideal) m ρ c (Proc.devRef .tc main_v18)) := by
  rw [keep6 m ρ c main_v20 (by decide)]
  refine (W6_arr m ρ c 3).trans ?_
  have ht : V5 m ρ c main_v19 = shapeCast S100000x1 (W42 (F := Ideal) m ρ c (Proc.devRef .tc main_v14)) shapeCasts_S100000_S100000x1 :=
    (keep5 m ρ c main_v19 (by decide)).symm.trans (v19 m ρ c)
  rw [RegionValue.region0 (V5 m ρ) c _ ht,
    show V5 m ρ c main_arg0 = W42 (F := Ideal) m ρ c (Proc.devRef .tc main_arg0) from (keep5 m ρ c main_arg0 (by decide)).symm,
    show V5 m ρ c main_v18 = W42 (F := Ideal) m ρ c (Proc.devRef .tc main_v18) from (keep5 m ρ c main_v18 (by decide)).symm]

/-- Region 1's output array at the last boundary: rows of main_arg0 scaled by the degree factor main_v45, times main_v49. -/
theorem v51 (c : Dev nD) :
    W42 (F := Ideal) m ρ c (Proc.devRef .tc main_v51) = HGcn.smm256 (W42 (F := Ideal) m ρ c (Proc.devRef .tc main_arg0)) (W42 (F := Ideal) m ρ c (Proc.devRef .tc main_v45)) (W42 (F := Ideal) m ρ c (Proc.devRef .tc main_v49)) := by
  rw [keep12 m ρ c main_v51 (by decide)]
  refine (W12_arr m ρ c 3).trans ?_
  have ht : V11 m ρ c main_v50 = shapeCast S100000x1 (W42 (F := Ideal) m ρ c (Proc.devRef .tc main_v45)) shapeCasts_S100000_S100000x1 :=
    (keep11 m ρ c main_v50 (by decide)).symm.trans (v50 m ρ c)
  rw [RegionValue.region1 (V11 m ρ) c _ ht,
    show V11 m ρ c main_arg0 = W42 (F := Ideal) m ρ c (Proc.devRef .tc main_arg0) from (keep11 m ρ c main_arg0 (by decide)).symm,
    show V11 m ρ c main_v49 = W42 (F := Ideal) m ρ c (Proc.devRef .tc main_v49) from (keep11 m ρ c main_v49 (by decide)).symm]

/-- Region 2's output array at the last boundary: rows of main_arg0 scaled by the degree factor main_v76, times main_v80. -/
theorem v82 (c : Dev nD) :
    W42 (F := Ideal) m ρ c (Proc.devRef .tc main_v82) = HGcn.smm256 (W42 (F := Ideal) m ρ c (Proc.devRef .tc main_arg0)) (W42 (F := Ideal) m ρ c (Proc.devRef .tc main_v76)) (W42 (F := Ideal) m ρ c (Proc.devRef .tc main_v80)) := by
  rw [keep18 m ρ c main_v82 (by decide)]
  refine (W18_arr m ρ c 3).trans ?_
  have ht : V17 m ρ c main_v81 = shapeCast S100000x1 (W42 (F := Ideal) m ρ c (Proc.devRef .tc main_v76)) shapeCasts_S100000_S100000x1 :=
    (keep17 m ρ c main_v81 (by decide)).symm.trans (v81 m ρ c)
  rw [RegionValue.region2 (V17 m ρ) c _ ht,
    show V17 m ρ c main_arg0 = W42 (F := Ideal) m ρ c (Proc.devRef .tc main_arg0) from (keep17 m ρ c main_arg0 (by decide)).symm,
    show V17 m ρ c main_v80 = W42 (F := Ideal) m ρ c (Proc.devRef .tc main_v80) from (keep17 m ρ c main_v80 (by decide)).symm]

/-- Region 3's output array at the last boundary: the three relation messages, each row scaled by its in-degree factor,
    summed with the bias rows, then the leaky rectifier. -/
theorem v98 (c : Dev nD) :
    W42 (F := Ideal) m ρ c (Proc.devRef .tc main_v98) = HGcn.leaky (HGcn.comb (W42 (F := Ideal) m ρ c (Proc.devRef .tc main_v30)) (W42 (F := Ideal) m ρ c (Proc.devRef .tc main_v61)) (W42 (F := Ideal) m ρ c (Proc.devRef .tc main_v92)) (W42 (F := Ideal) m ρ c (Proc.devRef .tc main_v16)) (W42 (F := Ideal) m ρ c (Proc.devRef .tc main_v47)) (W42 (F := Ideal) m ρ c (Proc.devRef .tc main_v78)) (W42 (F := Ideal) m ρ c (Proc.devRef .tc main_arg4))) := by
  rw [keep20 m ρ c main_v98 (by decide)]
  refine (W20_arr m ρ c 7).trans ?_
  have h0 : V19 m ρ c main_v95 = shapeCast S100000x1 (W42 (F := Ideal) m ρ c (Proc.devRef .tc main_v16)) shapeCasts_S100000_S100000x1 :=
    (keep19 m ρ c main_v95 (by decide)).symm.trans (v95 m ρ c)
  have h1 : V19 m ρ c main_v96 = shapeCast S100000x1 (W42 (F := Ideal) m ρ c (Proc.devRef .tc main_v47)) shapeCasts_S100000_S100000x1 :=
    (keep19 m ρ c main_v96 (by decide)).symm.trans (v96 m ρ c)
  have h2 : V19 m ρ c main_v97 = shapeCast S100000x1 (W42 (F := Ideal) m ρ c (Proc.devRef .tc main_v78)) shapeCasts_S100000_S100000x1 :=
    (keep19 m ρ c main_v97 (by decide)).symm.trans (v97 m ρ c)
  have hb : V19 m ρ c main_v94 = shapeCast S1x128 (Host.reduceAdd (F := Ideal) (W42 (F := Ideal) m ρ c (Proc.devRef .tc main_arg4)) (constant (F := Ideal) S_ .f32 0x00000000#32) reducesTo_S3x128_S128_d0 h_S_) shapeCasts_S128_S1x128 := by
    refine (keep19 m ρ c main_v94 (by decide)).symm.trans ?_
    rw [v94 m ρ c, v93 m ρ c, cst_28 m ρ c]
  rw [RegionValue.region3 (V19 m ρ) c _ _ _ _ h0 h1 h2 hb,
    show V19 m ρ c main_v30 = W42 (F := Ideal) m ρ c (Proc.devRef .tc main_v30) from (keep19 m ρ c main_v30 (by decide)).symm,
    show V19 m ρ c main_v61 = W42 (F := Ideal) m ρ c (Proc.devRef .tc main_v61) from (keep19 m ρ c main_v61 (by decide)).symm,
    show V19 m ρ c main_v92 = W42 (F := Ideal) m ρ c (Proc.devRef .tc main_v92) from (keep19 m ρ c main_v92 (by decide)).symm]

/-- Region 4's output array at the last boundary: rows of main_v98 scaled by the degree factor main_v113, times main_v117. -/
theorem v119 (c : Dev nD) :
    W42 (F := Ideal) m ρ c (Proc.devRef .tc main_v119) = HGcn.smm128 (W42 (F := Ideal) m ρ c (Proc.devRef .tc main_v98)) (W42 (F := Ideal) m ρ c (Proc.devRef .tc main_v113)) (W42 (F := Ideal) m ρ c (Proc.devRef .tc main_v117)) := by
  rw [keep26 m ρ c main_v119 (by decide)]
  refine (W26_arr m ρ c 3).trans ?_
  have ht : V25 m ρ c main_v118 = shapeCast S100000x1 (W42 (F := Ideal) m ρ c (Proc.devRef .tc main_v113)) shapeCasts_S100000_S100000x1 :=
    (keep25 m ρ c main_v118 (by decide)).symm.trans (v118 m ρ c)
  rw [RegionValue.region4 (V25 m ρ) c _ ht,
    show V25 m ρ c main_v98 = W42 (F := Ideal) m ρ c (Proc.devRef .tc main_v98) from (keep25 m ρ c main_v98 (by decide)).symm,
    show V25 m ρ c main_v117 = W42 (F := Ideal) m ρ c (Proc.devRef .tc main_v117) from (keep25 m ρ c main_v117 (by decide)).symm]

/-- Region 5's output array at the last boundary: rows of main_v98 scaled by the degree factor main_v144, times main_v148. -/
theorem v150 (c : Dev nD) :
    W42 (F := Ideal) m ρ c (Proc.devRef .tc main_v150) = HGcn.smm128 (W42 (F := Ideal) m ρ c (Proc.devRef .tc main_v98)) (W42 (F := Ideal) m ρ c (Proc.devRef .tc main_v144)) (W42 (F := Ideal) m ρ c (Proc.devRef .tc main_v148)) := by
  rw [keep32 m ρ c main_v150 (by decide)]
  refine (W32_arr m ρ c 3).trans ?_
  have ht : V31 m ρ c main_v149 = shapeCast S100000x1 (W42 (F := Ideal) m ρ c (Proc.devRef .tc main_v144)) shapeCasts_S100000_S100000x1 :=
    (keep31 m ρ c main_v149 (by decide)).symm.trans (v149 m ρ c)
  rw [RegionValue.region5 (V31 m ρ) c _ ht,
    show V31 m ρ c main_v98 = W42 (F := Ideal) m ρ c (Proc.devRef .tc main_v98) from (keep31 m ρ c main_v98 (by decide)).symm,
    show V31 m ρ c main_v148 = W42 (F := Ideal) m ρ c (Proc.devRef .tc main_v148) from (keep31 m ρ c main_v148 (by decide)).symm]

/-- Region 6's output array at the last boundary: rows of main_v98 scaled by the degree factor main_v175, times main_v179. -/
theorem v181 (c : Dev nD) :
    W42 (F := Ideal) m ρ c (Proc.devRef .tc main_v181) = HGcn.smm128 (W42 (F := Ideal) m ρ c (Proc.devRef .tc main_v98)) (W42 (F := Ideal) m ρ c (Proc.devRef .tc main_v175)) (W42 (F := Ideal) m ρ c (Proc.devRef .tc main_v179)) := by
  rw [keep38 m ρ c main_v181 (by decide)]
  refine (W38_arr m ρ c 3).trans ?_
  have ht : V37 m ρ c main_v180 = shapeCast S100000x1 (W42 (F := Ideal) m ρ c (Proc.devRef .tc main_v175)) shapeCasts_S100000_S100000x1 :=
    (keep37 m ρ c main_v180 (by decide)).symm.trans (v180 m ρ c)
  rw [RegionValue.region6 (V37 m ρ) c _ ht,
    show V37 m ρ c main_v98 = W42 (F := Ideal) m ρ c (Proc.devRef .tc main_v98) from (keep37 m ρ c main_v98 (by decide)).symm,
    show V37 m ρ c main_v179 = W42 (F := Ideal) m ρ c (Proc.devRef .tc main_v179) from (keep37 m ρ c main_v179 (by decide)).symm]

/-- Region 7's output array at the last boundary: the three relation messages, each row scaled by its in-degree factor,
    summed with the bias rows. -/
theorem v197 (c : Dev nD) :
    W42 (F := Ideal) m ρ c (Proc.devRef .tc main_v197) = HGcn.comb (W42 (F := Ideal) m ρ c (Proc.devRef .tc main_v129)) (W42 (F := Ideal) m ρ c (Proc.devRef .tc main_v160)) (W42 (F := Ideal) m ρ c (Proc.devRef .tc main_v191)) (W42 (F := Ideal) m ρ c (Proc.devRef .tc main_v115)) (W42 (F := Ideal) m ρ c (Proc.devRef .tc main_v146)) (W42 (F := Ideal) m ρ c (Proc.devRef .tc main_v177)) (W42 (F := Ideal) m ρ c (Proc.devRef .tc main_arg6)) := by
  rw [keep40 m ρ c main_v197 (by decide)]
  refine (W40_arr m ρ c 7).trans ?_
  have h0 : V39 m ρ c main_v194 = shapeCast S100000x1 (W42 (F := Ideal) m ρ c (Proc.devRef .tc main_v115)) shapeCasts_S100000_S100000x1 :=
    (keep39 m ρ c main_v194 (by decide)).symm.trans (v194 m ρ c)
  have h1 : V39 m ρ c main_v195 = shapeCast S100000x1 (W42 (F := Ideal) m ρ c (Proc.devRef .tc main_v146)) shapeCasts_S100000_S100000x1 :=
    (keep39 m ρ c main_v195 (by decide)).symm.trans (v195 m ρ c)
  have h2 : V39 m ρ c main_v196 = shapeCast S100000x1 (W42 (F := Ideal) m ρ c (Proc.devRef .tc main_v177)) shapeCasts_S100000_S100000x1 :=
    (keep39 m ρ c main_v196 (by decide)).symm.trans (v196 m ρ c)
  have hb : V39 m ρ c main_v193 = shapeCast S1x128 (Host.reduceAdd (F := Ideal) (W42 (F := Ideal) m ρ c (Proc.devRef .tc main_arg6)) (constant (F := Ideal) S_ .f32 0x00000000#32) reducesTo_S3x128_S128_d0 h_S_) shapeCasts_S128_S1x128 := by
    refine (keep39 m ρ c main_v193 (by decide)).symm.trans ?_
    rw [v193 m ρ c, v192 m ρ c, cst_59 m ρ c]
  rw [RegionValue.region7 (V39 m ρ) c _ _ _ _ h0 h1 h2 hb,
    show V39 m ρ c main_v129 = W42 (F := Ideal) m ρ c (Proc.devRef .tc main_v129) from (keep39 m ρ c main_v129 (by decide)).symm,
    show V39 m ρ c main_v160 = W42 (F := Ideal) m ρ c (Proc.devRef .tc main_v160) from (keep39 m ρ c main_v160 (by decide)).symm,
    show V39 m ρ c main_v191 = W42 (F := Ideal) m ρ c (Proc.devRef .tc main_v191) from (keep39 m ρ c main_v191 (by decide)).symm]

/-- Region 8's output array at the last boundary: the final linear layer of the second layer's output. -/
theorem v199 (c : Dev nD) :
    W42 (F := Ideal) m ρ c (Proc.devRef .tc main_v199) = HGcn.fc (W42 (F := Ideal) m ρ c (Proc.devRef .tc main_v197)) (W42 (F := Ideal) m ρ c (Proc.devRef .tc main_arg7)) (W42 (F := Ideal) m ρ c (Proc.devRef .tc main_arg8)) := by
  refine (W42_arr m ρ c 3).trans ?_
  have hb : V41 m ρ c main_v198 = shapeCast S1x16 (W42 (F := Ideal) m ρ c (Proc.devRef .tc main_arg8)) shapeCasts_S16_S1x16 :=
    (keep41 m ρ c main_v198 (by decide)).symm.trans (v198 m ρ c)
  rw [RegionValue.region8 (V41 m ρ) c _ hb,
    show V41 m ρ c main_v197 = W42 (F := Ideal) m ρ c (Proc.devRef .tc main_v197) from (keep41 m ρ c main_v197 (by decide)).symm,
    show V41 m ρ c main_arg7 = W42 (F := Ideal) m ρ c (Proc.devRef .tc main_arg7) from (keep41 m ρ c main_arg7 (by decide)).symm]

end Cert.KernelIdeal.Rd

end
-- ==== Proof.SmmRef.lean ====
/-
  The scaled product as the host computes it.  The degree factor t (one entry per node) is spread first to a
  column [N, 1] and then along each row to [N, D]; x is multiplied entrywise by that array and one contraction over
  the D columns against w follows.  Read at (i, c):
      ∑ k, (x (i, k) · t i) · w (k, c),
  which is the specification's smm256 / smm128.
-/
import proofs.«124848_j55800215109809_1_alg».proof.ReferenceIdeal
import Idealize.ShloMosaic.PureOps.Ideal.Laws
import Idealize.ShloMosaic.Lib.ValueIdx
import Idealize.ShloMosaic.Lib.Pipeline.Value
import proofs.«124848_j55800215109809_1_alg».proof.Proof.Spec

noncomputable section

namespace Cert.ReferenceIdeal.HostValue

open Idealize.ShloMosaic Idealize.ShloMosaic.ValueIdx Cert.ReferenceIdeal

variable [Facts₀]
open Facts₀

/-- The vector t as a column: at (i, 0) it reads t i. -/
theorem column_apply (t : FVec Ideal S100000 .f32) (i : Fin 100000) (u : Fin 1) :
    broadcastInDim S100000x1 ![0] bcast_S100000_S100000x1_0 t (ix2 i u) = t (ix1 i) := by
  refine broadcastInDim_apply _ _ t (ix2 i u) (ix1 i) fun a => ?_
  match a with
  | ⟨0, _⟩ =>
    show i.val = if (100000 : ℕ) = 1 then 0 else i.val
    rw [if_neg (by decide)]

/-- The column spread along rows of width 256: at (i, k) it reads the column at (i, 0). -/
theorem spread256_apply (v : FVec Ideal S100000x1 .f32) (i : Fin 100000) (k : Fin 256) :
    broadcastInDim S100000x256 ![0, 1] bcast_S100000x1_S100000x256_0_1 v (ix2 i k) = v (ix2 i (0 : Fin 1)) := by
  refine broadcastInDim_apply _ _ v (ix2 i k) (ix2 i (0 : Fin 1)) fun a => ?_
  match a with
  | ⟨0, _⟩ =>
    show i.val = if (100000 : ℕ) = 1 then 0 else i.val
    rw [if_neg (by decide)]
  | ⟨1, _⟩ => rfl

/-- The column spread along rows of width 128. -/
theorem spread128_apply (v : FVec Ideal S100000x1 .f32) (i : Fin 100000) (k : Fin 128) :
    broadcastInDim S100000x128 ![0, 1] bcast_S100000x1_S100000x128_0_1 v (ix2 i k) = v (ix2 i (0 : Fin 1)) := by
  refine broadcastInDim_apply _ _ v (ix2 i k) (ix2 i (0 : Fin 1)) fun a => ?_
  match a with
  | ⟨0, _⟩ =>
    show i.val = if (100000 : ℕ) = 1 then 0 else i.val
    rw [if_neg (by decide)]
  | ⟨1, _⟩ => rfl

/-- One contraction of an [N, 256] array against a [256, 128] matrix, at (i, c): the sum over the 256 columns. -/
theorem dot256_apply (l : FVec Ideal S100000x256 .f32) (w : FVec Ideal S256x128 .f32) (i : Fin 100000) (c : Fin 128) :
    Host.dotGeneral (F := Ideal) dot_S100000x256_S256x128_S100000x128_1_0_0_1_n_n none l w (ix2 i c)
      = ∑ k : Fin 256, l (ix2 i k) * w (ix2 k c) := by
  show FloatOps.dotGeneral _ none _ l w (ix2 i c) = _
  rw [Ideal.dotGeneral_apply,
    ← Equiv.sum_comp (contrEquiv1 dot_S100000x256_S256x128_S100000x128_1_0_0_1_n_n 256 rfl rfl).symm]
  refine Finset.sum_congr rfl fun k _ => ?_
  have ck := contrEquiv1_symm_val dot_S100000x256_S256x128_S100000x128_1_0_0_1_n_n 256 rfl rfl k
  have el : dot_S100000x256_S256x128_S100000x128_1_0_0_1_n_n.lhsIdx (ix2 i c)
      ((contrEquiv1 dot_S100000x256_S256x128_S100000x128_1_0_0_1_n_n 256 rfl rfl).symm k) = ix2 i k := by
    funext ax; apply Fin.ext
    match ax with
    | ⟨0, _⟩ => simp [DotDims.lhsIdx, dot_S100000x256_S256x128_S100000x128_1_0_0_1_n_n]; rfl
    | ⟨1, _⟩ =>
      exact (DotDims.lhsIdx_val_of_single dot_S100000x256_S256x128_S100000x128_1_0_0_1_n_n (cl := 1) rfl _ _).trans ck
  have er : dot_S100000x256_S256x128_S100000x128_1_0_0_1_n_n.rhsIdx (ix2 i c)
      ((contrEquiv1 dot_S100000x256_S256x128_S100000x128_1_0_0_1_n_n 256 rfl rfl).symm k) = ix2 k c := by
    funext ax; apply Fin.ext
    match ax with
    | ⟨0, _⟩ =>
      exact (DotDims.rhsIdx_val_of_single dot_S100000x256_S256x128_S100000x128_1_0_0_1_n_n (cr := 0) rfl _ _).trans ck
    | ⟨1, _⟩ => simp [DotDims.rhsIdx, dot_S100000x256_S256x128_S100000x128_1_0_0_1_n_n]; rfl
  rw [el, er]

/-- One contraction of an [N, 128] array against a [128, 128] matrix, at (i, c). -/
theorem dot128_apply (l : FVec Ideal S100000x128 .f32) (w : FVec Ideal S128x128 .f32) (i : Fin 100000) (c : Fin 128) :
    Host.dotGeneral (F := Ideal) dot_S100000x128_S128x128_S100000x128_1_0_0_1_n_n none l w (ix2 i c)
      = ∑ k : Fin 128, l (ix2 i k) * w (ix2 k c) := by
  show FloatOps.dotGeneral _ none _ l w (ix2 i c) = _
  rw [Ideal.dotGeneral_apply,
    ← Equiv.sum_comp (contrEquiv1 dot_S100000x128_S128x128_S100000x128_1_0_0_1_n_n 128 rfl rfl).symm]
  refine Finset.sum_congr rfl fun k _ => ?_
  have ck := contrEquiv1_symm_val dot_S100000x128_S128x128_S100000x128_1_0_0_1_n_n 128 rfl rfl k
  have el : dot_S100000x128_S128x128_S100000x128_1_0_0_1_n_n.lhsIdx (ix2 i c)
      ((contrEquiv1 dot_S100000x128_S128x128_S100000x128_1_0_0_1_n_n 128 rfl rfl).symm k) = ix2 i k := by
    funext ax; apply Fin.ext
    match ax with
    | ⟨0, _⟩ => simp [DotDims.lhsIdx, dot_S100000x128_S128x128_S100000x128_1_0_0_1_n_n]; rfl
    | ⟨1, _⟩ =>
      exact (DotDims.lhsIdx_val_of_single dot_S100000x128_S128x128_S100000x128_1_0_0_1_n_n (cl := 1) rfl _ _).trans ck
  have er : dot_S100000x128_S128x128_S100000x128_1_0_0_1_n_n.rhsIdx (ix2 i c)
      ((contrEquiv1 dot_S100000x128_S128x128_S100000x128_1_0_0_1_n_n 128 rfl rfl).symm k) = ix2 k c := by
    funext ax; apply Fin.ext
    match ax with
    | ⟨0, _⟩ =>
      exact (DotDims.rhsIdx_val_of_single dot_S100000x128_S128x128_S100000x128_1_0_0_1_n_n (cr := 0) rfl _ _).trans ck
    | ⟨1, _⟩ => simp [DotDims.rhsIdx, dot_S100000x128_S128x128_S100000x128_1_0_0_1_n_n]; rfl
  rw [el, er]

/-- The host's scaled product of width 256 is the specification's. -/
theorem smm256_ref (x : FVec Ideal S100000x256 .f32) (t : FVec Ideal S100000 .f32) (w : FVec Ideal S256x128 .f32) :
    Host.dotGeneral (F := Ideal) dot_S100000x256_S256x128_S100000x128_1_0_0_1_n_n none
      (mulf x (broadcastInDim S100000x256 ![0, 1] bcast_S100000x1_S100000x256_0_1
        (broadcastInDim S100000x1 ![0] bcast_S100000_S100000x1_0 t))) w
      = HGcn.smm256 x t w := by
  funext j
  obtain ⟨i, c, rfl⟩ : ∃ (i : Fin 100000) (c : Fin 128), j = ix2 i c := ⟨j 0, j 1, eq_ix2 j⟩
  rw [dot256_apply, HGcn.smm256_ix2]
  unfold HGcn.smmAt256
  refine Finset.sum_congr rfl fun k _ => ?_
  rw [mulf_apply, spread256_apply, column_apply]

/-- The host's scaled product of width 128 is the specification's. -/
theorem smm128_ref (x : FVec Ideal S100000x128 .f32) (t : FVec Ideal S100000 .f32) (w : FVec Ideal S128x128 .f32) :
    Host.dotGeneral (F := Ideal) dot_S100000x128_S128x128_S100000x128_1_0_0_1_n_n none
      (mulf x (broadcastInDim S100000x128 ![0, 1] bcast_S100000x1_S100000x128_0_1
        (broadcastInDim S100000x1 ![0] bcast_S100000_S100000x1_0 t))) w
      = HGcn.smm128 x t w := by
  funext j
  obtain ⟨i, c, rfl⟩ : ∃ (i : Fin 100000) (c : Fin 128), j = ix2 i c := ⟨j 0, j 1, eq_ix2 j⟩
  rw [dot128_apply, HGcn.smm128_ix2]
  unfold HGcn.smmAt128
  refine Finset.sum_congr rfl fun k _ => ?_
  rw [mulf_apply, spread128_apply, column_apply]

end Cert.ReferenceIdeal.HostValue

end
-- ==== Proof.CombRef.lean ====
/-
  The node-level functions of the graph convolution as the reference's host operations compute them.

  The reference accumulates, relation by relation from a zero array, the aggregated message scaled row by row
  by that relation's degree factor, and after each relation adds that relation's bias row broadcast down the
  rows.  Read at an entry (i, c) every broadcast is the operand at the coordinates it keeps, every slice of the
  bias table is one of its three rows, and the accumulated sum is the sum of the three scaled messages plus the
  sum of the three bias rows: addition of extended reals is commutative and associative, which is all that is
  used.  The rectifier is the comparison with zero and the choice between the entry and the slope times the
  entry; the last layer is the contraction over the 128 hidden features plus the bias row.
-/
import proofs.«124848_j55800215109809_1_alg».proof.ReferenceIdeal
import Idealize.ShloMosaic.Lib.ValueLayout
import Idealize.ShloMosaic.Lib.IdealHost
import Idealize.ShloMosaic.Lib.Pipeline.Value
import proofs.«124848_j55800215109809_1_alg».proof.Proof.Spec
import proofs.«124848_j55800215109809_1_alg».proof.Proof.SpecAct

noncomputable section

namespace Cert.ReferenceIdeal.HostValue

open Idealize.ShloMosaic Idealize.ShloMosaic.ValueIdx
open Cert.ReferenceIdeal

variable [Facts]
open Facts₀ Facts

/-! ## The broadcasts and the bias rows read at an entry -/

/-- The zero scalar broadcast to the whole array reads zero. -/
theorem zeros_apply (j : S100000x128.Idx) :
    broadcastInDim S100000x128 ![] bcast_S_S100000x128 (constant (F := Ideal) S_ .f32 0x00000000#32) j = 0 := by
  rw [broadcastInDim_scalar_apply, constant_apply, Ideal.ofBits_zero_f32]

/-- A vector over the nodes, made a column and broadcast along the features, reads the node's entry. -/
theorem degreeColumn_apply (t : FVec Ideal S100000 .f32) (i : Fin 100000) (c : Fin 128) :
    broadcastInDim S100000x128 ![0, 1] bcast_S100000x1_S100000x128_0_1
      (broadcastInDim S100000x1 ![0] bcast_S100000_S100000x1_0 t) (ix2 i c) = t (ix1 i) := by
  refine (broadcastInDim_apply ![0, 1] bcast_S100000x1_S100000x128_0_1 _ (ix2 i c) (ix2 i (0 : Fin 1)) fun a => ?_).trans ?_
  · match a with
    | ⟨0, _⟩ => rfl
    | ⟨1, _⟩ => rfl
  · refine broadcastInDim_apply ![0] bcast_S100000_S100000x1_0 t (ix2 i (0 : Fin 1)) (ix1 i) fun a => ?_
    match a with
    | ⟨0, _⟩ => rfl

/-- A vector over the 128 features, made a row and broadcast down the nodes, reads the feature's entry. -/
theorem row128_apply (v : FVec Ideal S128 .f32) (i : Fin 100000) (c : Fin 128) :
    broadcastInDim S100000x128 ![0, 1] bcast_S1x128_S100000x128_0_1
      (broadcastInDim S1x128 ![1] bcast_S128_S1x128_1 v) (ix2 i c) = v (ix1 c) := by
  refine (broadcastInDim_apply ![0, 1] bcast_S1x128_S100000x128_0_1 _ (ix2 i c) (ix2 (0 : Fin 1) c) fun a => ?_).trans ?_
  · match a with
    | ⟨0, _⟩ => rfl
    | ⟨1, _⟩ => rfl
  · refine broadcastInDim_apply ![1] bcast_S128_S1x128_1 v (ix2 (0 : Fin 1) c) (ix1 c) fun a => ?_
    match a with
    | ⟨0, _⟩ => rfl

/-- A vector over the 16 classes, made a row and broadcast down the nodes, reads the class's entry. -/
theorem row16_apply (v : FVec Ideal S16 .f32) (i : Fin 100000) (c : Fin 16) :
    broadcastInDim S100000x16 ![0, 1] bcast_S1x16_S100000x16_0_1
      (broadcastInDim S1x16 ![1] bcast_S16_S1x16_1 v) (ix2 i c) = v (ix1 c) := by
  refine (broadcastInDim_apply ![0, 1] bcast_S1x16_S100000x16_0_1 _ (ix2 i c) (ix2 (0 : Fin 1) c) fun a => ?_).trans ?_
  · match a with
    | ⟨0, _⟩ => rfl
    | ⟨1, _⟩ => rfl
  · refine broadcastInDim_apply ![1] bcast_S16_S1x16_1 v (ix2 (0 : Fin 1) c) (ix1 c) fun a => ?_
    match a with
    | ⟨0, _⟩ => rfl

/-- Row `r` of the bias table, cut out as a one-row matrix and flattened, reads the table at `(r, c)`. -/
theorem biasRow_apply (b : FVec Ideal S3x128 .f32) (o : ℕ) (h : S3x128.Slices ![o, 0] S1x128) (r : Fin 3) (hr : r.val = o)
    (c : Fin 128) :
    shapeCast S128 (extractStridedSlice S1x128 ![o, 0] b h) shapeCasts_S1x128_S128 (ix1 c) = b (ix2 r c) := by
  rw [shapeCast_1a_a_apply]
  exact slice2_axis0_apply o b h (0 : Fin 1) c r (by rw [hr]; rfl)

/-! ## The three functions -/

/-- The reference's accumulation over the three relations is `comb`. -/
theorem comb_ref (a0 a1 a2 : FVec Ideal S100000x128 .f32) (t0 t1 t2 : FVec Ideal S100000 .f32) (b : FVec Ideal S3x128 .f32) :
    addf (addf (addf (addf (addf (addf
        (broadcastInDim S100000x128 ![] bcast_S_S100000x128 (constant (F := Ideal) S_ .f32 0x00000000#32))
        (mulf a0 (broadcastInDim S100000x128 ![0, 1] bcast_S100000x1_S100000x128_0_1 (broadcastInDim S100000x1 ![0] bcast_S100000_S100000x1_0 t0))))
        (broadcastInDim S100000x128 ![0, 1] bcast_S1x128_S100000x128_0_1 (broadcastInDim S1x128 ![1] bcast_S128_S1x128_1 (shapeCast S128 (extractStridedSlice S1x128 ![0, 0] b slices_S3x128_S1x128_0_0) shapeCasts_S1x128_S128))))
        (mulf a1 (broadcastInDim S100000x128 ![0, 1] bcast_S100000x1_S100000x128_0_1 (broadcastInDim S100000x1 ![0] bcast_S100000_S100000x1_0 t1))))
        (broadcastInDim S100000x128 ![0, 1] bcast_S1x128_S100000x128_0_1 (broadcastInDim S1x128 ![1] bcast_S128_S1x128_1 (shapeCast S128 (extractStridedSlice S1x128 ![1, 0] b slices_S3x128_S1x128_1_0) shapeCasts_S1x128_S128))))
        (mulf a2 (broadcastInDim S100000x128 ![0, 1] bcast_S100000x1_S100000x128_0_1 (broadcastInDim S100000x1 ![0] bcast_S100000_S100000x1_0 t2))))
        (broadcastInDim S100000x128 ![0, 1] bcast_S1x128_S100000x128_0_1 (broadcastInDim S1x128 ![1] bcast_S128_S1x128_1 (shapeCast S128 (extractStridedSlice S1x128 ![2, 0] b slices_S3x128_S1x128_2_0) shapeCasts_S1x128_S128)))
      = HGcn.comb a0 a1 a2 t0 t1 t2 b := by
  funext j
  obtain ⟨i, c, rfl⟩ : ∃ (i : Fin 100000) (c : Fin 128), j = ix2 i c := ⟨j 0, j 1, eq_ix2 j⟩
  rw [HGcn.comb_ix2]
  unfold HGcn.combAt
  simp only [addf_apply, mulf_apply]
  rw [zeros_apply, degreeColumn_apply, degreeColumn_apply, degreeColumn_apply, row128_apply, row128_apply, row128_apply,
    biasRow_apply b 0 slices_S3x128_S1x128_0_0 0 rfl, biasRow_apply b 1 slices_S3x128_S1x128_1_0 1 rfl,
    biasRow_apply b 2 slices_S3x128_S1x128_2_0 2 rfl, Fin.sum_univ_three, zero_add]
  abel

/-- The reference's rectifier is `leaky`. -/
theorem leaky_ref (z : FVec Ideal S100000x128 .f32) :
    select (cmpf .oge z (broadcastInDim S100000x128 ![] bcast_S_S100000x128 (constant (F := Ideal) S_ .f32 0x00000000#32))) z
      (mulf (broadcastInDim S100000x128 ![] bcast_S_S100000x128 (id (constant (F := Ideal) S_ .f32 0x3C23D70A#32))) z) = HGcn.leaky z := by
  funext j
  rw [select_apply, cmpf_apply, mulf_apply, id, broadcastInDim_scalar_apply, broadcastInDim_scalar_apply, constant_apply,
    constant_apply]
  rfl

/-! ## The last layer -/

theorem fc_lhs0 (i : S100000x16.Idx) (q : dot_S100000x128_S128x16_S100000x16_1_0_0_1_n_n.contr.Idx) :
    (dot_S100000x128_S128x16_S100000x16_1_0_0_1_n_n.lhsIdx i q 0).val = (i 0).val := by
  unfold DotDims.lhsIdx
  rw [dif_neg (show ¬(0 : Fin S100000x128.rank) ∈ dot_S100000x128_S128x16_S100000x16_1_0_0_1_n_n.lhsBatch from List.not_mem_nil),
    dif_pos (show (0 : Fin S100000x128.rank) ∈ dot_S100000x128_S128x16_S100000x16_1_0_0_1_n_n.lhsNonContracting from List.mem_singleton.mpr rfl)]
  rfl

theorem fc_lhs1 (i : S100000x16.Idx) (q : dot_S100000x128_S128x16_S100000x16_1_0_0_1_n_n.contr.Idx) :
    (dot_S100000x128_S128x16_S100000x16_1_0_0_1_n_n.lhsIdx i q 1).val = (q ⟨0, (Nat.one_pos : 0 < dot_S100000x128_S128x16_S100000x16_1_0_0_1_n_n.contr.rank)⟩).val :=
  dot_S100000x128_S128x16_S100000x16_1_0_0_1_n_n.lhsIdx_val_of_single rfl i q

theorem fc_rhs0 (i : S100000x16.Idx) (q : dot_S100000x128_S128x16_S100000x16_1_0_0_1_n_n.contr.Idx) :
    (dot_S100000x128_S128x16_S100000x16_1_0_0_1_n_n.rhsIdx i q 0).val = (q ⟨0, (Nat.one_pos : 0 < dot_S100000x128_S128x16_S100000x16_1_0_0_1_n_n.contr.rank)⟩).val :=
  dot_S100000x128_S128x16_S100000x16_1_0_0_1_n_n.rhsIdx_val_of_single rfl i q

theorem fc_rhs1 (i : S100000x16.Idx) (q : dot_S100000x128_S128x16_S100000x16_1_0_0_1_n_n.contr.Idx) :
    (dot_S100000x128_S128x16_S100000x16_1_0_0_1_n_n.rhsIdx i q 1).val = (i 1).val := by
  unfold DotDims.rhsIdx
  rw [dif_neg (show ¬(1 : Fin S128x16.rank) ∈ dot_S100000x128_S128x16_S100000x16_1_0_0_1_n_n.rhsBatch from List.not_mem_nil),
    dif_pos (show (1 : Fin S128x16.rank) ∈ dot_S100000x128_S128x16_S100000x16_1_0_0_1_n_n.rhsNonContracting from List.mem_singleton.mpr rfl)]
  rfl

/-- The host contraction of the hidden features against the last weight matrix, at `(i, c)`. -/
theorem fc_dot_apply (h : FVec Ideal S100000x128 .f32) (w : FVec Ideal S128x16 .f32) (i : Fin 100000) (c : Fin 16) :
    Host.dotGeneral dot_S100000x128_S128x16_S100000x16_1_0_0_1_n_n none h w (ix2 i c)
      = ∑ k : Fin 128, h (ix2 i k) * w (ix2 k c) := by
  simp only [Host.dotGeneral]
  rw [Ideal.dotGeneral_apply, ← Equiv.sum_comp (contrEquiv1 dot_S100000x128_S128x16_S100000x16_1_0_0_1_n_n 128 rfl rfl).symm]
  refine Finset.sum_congr rfl fun k _ => ?_
  have hk := contrEquiv1_symm_val dot_S100000x128_S128x16_S100000x16_1_0_0_1_n_n 128 rfl rfl k
  have el : dot_S100000x128_S128x16_S100000x16_1_0_0_1_n_n.lhsIdx (ix2 i c)
      ((contrEquiv1 dot_S100000x128_S128x16_S100000x16_1_0_0_1_n_n 128 rfl rfl).symm k) = ix2 i k :=
    funext fun a => Fin.ext (by
      match a with
      | ⟨0, _⟩ => exact fc_lhs0 _ _
      | ⟨1, _⟩ => exact (fc_lhs1 _ _).trans hk)
  have er : dot_S100000x128_S128x16_S100000x16_1_0_0_1_n_n.rhsIdx (ix2 i c)
      ((contrEquiv1 dot_S100000x128_S128x16_S100000x16_1_0_0_1_n_n 128 rfl rfl).symm k) = ix2 k c :=
    funext fun a => Fin.ext (by
      match a with
      | ⟨0, _⟩ => exact (fc_rhs0 _ _).trans hk
      | ⟨1, _⟩ => exact fc_rhs1 _ _)
  rw [el, er]

/-- The reference's last layer is `fc`. -/
theorem fc_ref (h : FVec Ideal S100000x128 .f32) (w : FVec Ideal S128x16 .f32) (b : FVec Ideal S16 .f32) :
    addf (Host.dotGeneral dot_S100000x128_S128x16_S100000x16_1_0_0_1_n_n none h w)
      (broadcastInDim S100000x16 ![0, 1] bcast_S1x16_S100000x16_0_1 (broadcastInDim S1x16 ![1] bcast_S16_S1x16_1 b)) = HGcn.fc h w b := by
  funext j
  obtain ⟨i, c, rfl⟩ : ∃ (i : Fin 100000) (c : Fin 16), j = ix2 i c := ⟨j 0, j 1, eq_ix2 j⟩
  rw [HGcn.fc_ix2, addf_apply, fc_dot_apply, row16_apply]
  rfl

end Cert.ReferenceIdeal.HostValue

end
-- ==== Proof.Bridge.lean ====
/-
  The nine places where the two idealized programs compute differently.  The kernel program forms (x · diag t) W, the scaled sum
  of the relation messages and the final linear layer inside regions, on blocks of rows; the reference forms them with host
  operations on whole arrays, the sum relation by relation from a zero array.  Each pair of buffers holds the same function
  (HGcn.smm256 / smm128 / comb / leaky / fc) of operands that agree: the region's array by the region's value, the reference's
  by reading its host operations.  Addition of extended reals is commutative and associative, which is all the regrouping of the
  sum needs.
-/
import proofs.«124848_j55800215109809_1_alg».proof.Proof.Pairs0
import proofs.«124848_j55800215109809_1_alg».proof.Proof.Pairs1
import proofs.«124848_j55800215109809_1_alg».proof.Proof.Pairs3
import proofs.«124848_j55800215109809_1_alg».proof.Proof.RefDup
import proofs.«124848_j55800215109809_1_alg».proof.Proof.KernelRegionReads
import proofs.«124848_j55800215109809_1_alg».proof.Proof.SmmRef
import proofs.«124848_j55800215109809_1_alg».proof.Proof.CombRef

set_option maxRecDepth 16384

noncomputable section

namespace Cert.Bridge

open Idealize.ShloMosaic Idealize.ShloMosaic.TcCoe Idealize.SL.Sem Idealize.ShloMosaic.StableHlo Cert.KernelIdeal.Gen

variable (m : (ℓ : Loc Cert.KernelIdeal.nD Cert.KernelIdeal.τ Cert.KernelIdeal.sig) → Buf (Elt Ideal) ℓ) (ρ : Dev Cert.KernelIdeal.nD → PrngReg)

/-- First layer, relation 0: the transformed features. -/
theorem sH0 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v20) = Cert.ReferenceIdeal.Rd.Z (F := Ideal) V Cert.ReferenceIdeal.main_v21 := by
  rw [Cert.KernelIdeal.Rd.v20 m ρ c, hA.a0, p_v14 m ρ c V hA, p_v18 m ρ c V hA,
    Cert.ReferenceIdeal.Rd.v21 V, Cert.ReferenceIdeal.Rd.v18 V, Cert.ReferenceIdeal.Rd.v17 V, Cert.ReferenceIdeal.Rd.v16 V]
  exact (Cert.ReferenceIdeal.HostValue.smm256_ref _ _ _).symm

/-- First layer, relation 1. -/
theorem sH1 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v51) = Cert.ReferenceIdeal.Rd.Z (F := Ideal) V Cert.ReferenceIdeal.main_v63 := by
  rw [Cert.KernelIdeal.Rd.v51 m ρ c, hA.a0, p_v45 m ρ c V hA, p_v49 m ρ c V hA,
    Cert.ReferenceIdeal.Rd.v63 V, Cert.ReferenceIdeal.Rd.v60 V, Cert.ReferenceIdeal.Rd.v59 V, Cert.ReferenceIdeal.Rd.v58 V]
  exact (Cert.ReferenceIdeal.HostValue.smm256_ref _ _ _).symm

/-- First layer, relation 2. -/
theorem sH2 (c : Dev Cert.KernelIdeal.nD) (V : Valuation Cert.ReferenceIdeal.τ Cert.ReferenceIdeal.sig (Elt Ideal)) (hA : Agree m ρ c V) :
    W42 (F := Ideal) m ρ c (Proc.devRef .tc Cert.KernelIdeal.main_v82) = Cert.ReferenceIdeal.Rd.Z (F := Ideal) V Cert.ReferenceIdeal.main_v105 := by
  rw [Cert.KernelIdeal.Rd.v82 m ρ c, hA.a0, p_v76 m ρ c V hA, p_v80 m ρ c V hA,
    Cert.ReferenceIdeal.Rd.v105 V, Cert.ReferenceIdeal.Rd.v102 V, Cert.ReferenceIdeal.Rd.v101 V, Cert.ReferenceIdeal.Rd.v100 V]
  exact (Cert.ReferenceIdeal.HostValue.smm256_ref _ _ _).symm

/-- The first layer's output: the scaled sum of the messages plus the biases, rectified. -/
theorem sC1 (c : Dev Cert.KernelIdeal.nD) (V : Valuation Cert.ReferenceIdeal.τ Cert.ReferenceIdeal.sig (Elt Ideal)) (hA : Agree m ρ c V) (hH0 : W42 (F := Ideal) m ρ c (Proc.devRef .tc Cert.KernelIdeal.main_v20) = Cert.ReferenceIdeal.Rd.Z (F := Ideal) V Cert.ReferenceIdeal.main_v21) (hH1 : W42 (F := Ideal) m ρ c (Proc.devRef .tc Cert.KernelIdeal.main_v51) = Cert.ReferenceIdeal.Rd.Z (F := Ideal) V Cert.ReferenceIdeal.main_v63) (hH2 : W42 (F := Ideal) m ρ c (Proc.devRef .tc Cert.KernelIdeal.main_v82) = Cert.ReferenceIdeal.Rd.Z (F := Ideal) V Cert.ReferenceIdeal.main_v105) :
    W42 (F := Ideal) m ρ c (Proc.devRef .tc Cert.KernelIdeal.main_v98) = Cert.ReferenceIdeal.Rd.Z (F := Ideal) V Cert.ReferenceIdeal.main_v127 := by
  rw [Cert.KernelIdeal.Rd.v98 m ρ c, hA.a4, p_v30 m ρ c V hA hH0 hH1 hH2, p_v61 m ρ c V hA hH0 hH1 hH2, p_v92 m ρ c V hA hH0 hH1 hH2,
    p_v16 m ρ c V hA, p_v47 m ρ c V hA, p_v78 m ρ c V hA,
    Cert.ReferenceIdeal.Rd.v127 V, Cert.ReferenceIdeal.Rd.call6_v1 V, Cert.ReferenceIdeal.Rd.call6_v0 V, Cert.ReferenceIdeal.Rd.call6_cst V, Cert.ReferenceIdeal.Rd.call6_v4 V, Cert.ReferenceIdeal.Rd.call6_v3 V, Cert.ReferenceIdeal.Rd.call6_v2 V, Cert.ReferenceIdeal.Rd.cst_29 V,
    Cert.ReferenceIdeal.Rd.v126 V, Cert.ReferenceIdeal.Rd.v125 V, Cert.ReferenceIdeal.Rd.v124 V, Cert.ReferenceIdeal.Rd.v123 V, Cert.ReferenceIdeal.Rd.v122 V, Cert.ReferenceIdeal.Rd.v121 V, Cert.ReferenceIdeal.Rd.v120 V, Cert.ReferenceIdeal.Rd.v119 V, Cert.ReferenceIdeal.Rd.v118 V, Cert.ReferenceIdeal.Rd.v84 V, Cert.ReferenceIdeal.Rd.v83 V, Cert.ReferenceIdeal.Rd.v82 V, Cert.ReferenceIdeal.Rd.v81 V, Cert.ReferenceIdeal.Rd.v80 V, Cert.ReferenceIdeal.Rd.v79 V, Cert.ReferenceIdeal.Rd.v78 V, Cert.ReferenceIdeal.Rd.v77 V, Cert.ReferenceIdeal.Rd.v76 V, Cert.ReferenceIdeal.Rd.v42 V, Cert.ReferenceIdeal.Rd.v41 V, Cert.ReferenceIdeal.Rd.v40 V, Cert.ReferenceIdeal.Rd.v39 V, Cert.ReferenceIdeal.Rd.v38 V, Cert.ReferenceIdeal.Rd.v37 V, Cert.ReferenceIdeal.Rd.v36 V, Cert.ReferenceIdeal.Rd.v35 V, Cert.ReferenceIdeal.Rd.v34 V, Cert.ReferenceIdeal.Rd.v0 V, Cert.ReferenceIdeal.Rd.cst V]
  exact (congrArg HGcn.leaky (Cert.ReferenceIdeal.HostValue.comb_ref _ _ _ _ _ _ _)).symm.trans (Cert.ReferenceIdeal.HostValue.leaky_ref _).symm

/-- Second layer, relation 0. -/
theorem sH3 (c : Dev Cert.KernelIdeal.nD) (V : Valuation Cert.ReferenceIdeal.τ Cert.ReferenceIdeal.sig (Elt Ideal)) (hA : Agree m ρ c V) (hH0 : W42 (F := Ideal) m ρ c (Proc.devRef .tc Cert.KernelIdeal.main_v20) = Cert.ReferenceIdeal.Rd.Z (F := Ideal) V Cert.ReferenceIdeal.main_v21) (hH1 : W42 (F := Ideal) m ρ c (Proc.devRef .tc Cert.KernelIdeal.main_v51) = Cert.ReferenceIdeal.Rd.Z (F := Ideal) V Cert.ReferenceIdeal.main_v63) (hH2 : W42 (F := Ideal) m ρ c (Proc.devRef .tc Cert.KernelIdeal.main_v82) = Cert.ReferenceIdeal.Rd.Z (F := Ideal) V Cert.ReferenceIdeal.main_v105) (hC1 : W42 (F := Ideal) m ρ c (Proc.devRef .tc Cert.KernelIdeal.main_v98) = Cert.ReferenceIdeal.Rd.Z (F := Ideal) V Cert.ReferenceIdeal.main_v127) :
    W42 (F := Ideal) m ρ c (Proc.devRef .tc Cert.KernelIdeal.main_v119) = Cert.ReferenceIdeal.Rd.Z (F := Ideal) V Cert.ReferenceIdeal.main_v149 := by
  rw [Cert.KernelIdeal.Rd.v119 m ρ c, hC1, p_v113 m ρ c V hA, p_v117 m ρ c V hA,
    Cert.ReferenceIdeal.Rd.v149 V, Cert.ReferenceIdeal.Rd.v146 V, Cert.ReferenceIdeal.Rd.v145 V, Cert.ReferenceIdeal.Rd.v144 V, q_v143 V]
  exact (Cert.ReferenceIdeal.HostValue.smm128_ref _ _ _).symm

/-- Second layer, relation 1. -/
theorem sH4 (c : Dev Cert.KernelIdeal.nD) (V : Valuation Cert.ReferenceIdeal.τ Cert.ReferenceIdeal.sig (Elt Ideal)) (hA : Agree m ρ c V) (hH0 : W42 (F := Ideal) m ρ c (Proc.devRef .tc Cert.KernelIdeal.main_v20) = Cert.ReferenceIdeal.Rd.Z (F := Ideal) V Cert.ReferenceIdeal.main_v21) (hH1 : W42 (F := Ideal) m ρ c (Proc.devRef .tc Cert.KernelIdeal.main_v51) = Cert.ReferenceIdeal.Rd.Z (F := Ideal) V Cert.ReferenceIdeal.main_v63) (hH2 : W42 (F := Ideal) m ρ c (Proc.devRef .tc Cert.KernelIdeal.main_v82) = Cert.ReferenceIdeal.Rd.Z (F := Ideal) V Cert.ReferenceIdeal.main_v105) (hC1 : W42 (F := Ideal) m ρ c (Proc.devRef .tc Cert.KernelIdeal.main_v98) = Cert.ReferenceIdeal.Rd.Z (F := Ideal) V Cert.ReferenceIdeal.main_v127) :
    W42 (F := Ideal) m ρ c (Proc.devRef .tc Cert.KernelIdeal.main_v150) = Cert.ReferenceIdeal.Rd.Z (F := Ideal) V Cert.ReferenceIdeal.main_v191 := by
  rw [Cert.KernelIdeal.Rd.v150 m ρ c, hC1, p_v144 m ρ c V hA, p_v148 m ρ c V hA,
    Cert.ReferenceIdeal.Rd.v191 V, Cert.ReferenceIdeal.Rd.v188 V, Cert.ReferenceIdeal.Rd.v187 V, Cert.ReferenceIdeal.Rd.v186 V, q_v185 V]
  exact (Cert.ReferenceIdeal.HostValue.smm128_ref _ _ _).symm

/-- Second layer, relation 2. -/
theorem sH5 (c : Dev Cert.KernelIdeal.nD) (V : Valuation Cert.ReferenceIdeal.τ Cert.ReferenceIdeal.sig (Elt Ideal)) (hA : Agree m ρ c V) (hH0 : W42 (F := Ideal) m ρ c (Proc.devRef .tc Cert.KernelIdeal.main_v20) = Cert.ReferenceIdeal.Rd.Z (F := Ideal) V Cert.ReferenceIdeal.main_v21) (hH1 : W42 (F := Ideal) m ρ c (Proc.devRef .tc Cert.KernelIdeal.main_v51) = Cert.ReferenceIdeal.Rd.Z (F := Ideal) V Cert.ReferenceIdeal.main_v63) (hH2 : W42 (F := Ideal) m ρ c (Proc.devRef .tc Cert.KernelIdeal.main_v82) = Cert.ReferenceIdeal.Rd.Z (F := Ideal) V Cert.ReferenceIdeal.main_v105) (hC1 : W42 (F := Ideal) m ρ c (Proc.devRef .tc Cert.KernelIdeal.main_v98) = Cert.ReferenceIdeal.Rd.Z (F := Ideal) V Cert.ReferenceIdeal.main_v127) :
    W42 (F := Ideal) m ρ c (Proc.devRef .tc Cert.KernelIdeal.main_v181) = Cert.ReferenceIdeal.Rd.Z (F := Ideal) V Cert.ReferenceIdeal.main_v233 := by
  rw [Cert.KernelIdeal.Rd.v181 m ρ c, hC1, p_v175 m ρ c V hA, p_v179 m ρ c V hA,
    Cert.ReferenceIdeal.Rd.v233 V, Cert.ReferenceIdeal.Rd.v230 V, Cert.ReferenceIdeal.Rd.v229 V, Cert.ReferenceIdeal.Rd.v228 V, q_v227 V]
  exact (Cert.ReferenceIdeal.HostValue.smm128_ref _ _ _).symm

/-- The second layer's output (the first result). -/
theorem sC2 (c : Dev Cert.KernelIdeal.nD) (V : Valuation Cert.ReferenceIdeal.τ Cert.ReferenceIdeal.sig (Elt Ideal)) (hA : Agree m ρ c V) (hH0 : W42 (F := Ideal) m ρ c (Proc.devRef .tc Cert.KernelIdeal.main_v20) = Cert.ReferenceIdeal.Rd.Z (F := Ideal) V Cert.ReferenceIdeal.main_v21) (hH1 : W42 (F := Ideal) m ρ c (Proc.devRef .tc Cert.KernelIdeal.main_v51) = Cert.ReferenceIdeal.Rd.Z (F := Ideal) V Cert.ReferenceIdeal.main_v63) (hH2 : W42 (F := Ideal) m ρ c (Proc.devRef .tc Cert.KernelIdeal.main_v82) = Cert.ReferenceIdeal.Rd.Z (F := Ideal) V Cert.ReferenceIdeal.main_v105) (hC1 : W42 (F := Ideal) m ρ c (Proc.devRef .tc Cert.KernelIdeal.main_v98) = Cert.ReferenceIdeal.Rd.Z (F := Ideal) V Cert.ReferenceIdeal.main_v127) (hH3 : W42 (F := Ideal) m ρ c (Proc.devRef .tc Cert.KernelIdeal.main_v119) = Cert.ReferenceIdeal.Rd.Z (F := Ideal) V Cert.ReferenceIdeal.main_v149) (hH4 : W42 (F := Ideal) m ρ c (Proc.devRef .tc Cert.KernelIdeal.main_v150) = Cert.ReferenceIdeal.Rd.Z (F := Ideal) V Cert.ReferenceIdeal.main_v191) (hH5 : W42 (F := Ideal) m ρ c (Proc.devRef .tc Cert.KernelIdeal.main_v181) = Cert.ReferenceIdeal.Rd.Z (F := Ideal) V Cert.ReferenceIdeal.main_v233) :
    W42 (F := Ideal) m ρ c (Proc.devRef .tc Cert.KernelIdeal.main_v197) = Cert.ReferenceIdeal.Rd.Z (F := Ideal) V Cert.ReferenceIdeal.main_v254 := by
  rw [Cert.KernelIdeal.Rd.v197 m ρ c, hA.a6, p_v129 m ρ c V hA hH0 hH1 hH2 hC1 hH3 hH4 hH5, p_v160 m ρ c V hA hH0 hH1 hH2 hC1 hH3 hH4 hH5, p_v191 m ρ c V hA hH0 hH1 hH2 hC1 hH3 hH4 hH5,
    p_v115 m ρ c V hA, p_v146 m ρ c V hA, p_v177 m ρ c V hA,
    Cert.ReferenceIdeal.Rd.v254 V, Cert.ReferenceIdeal.Rd.v253 V, Cert.ReferenceIdeal.Rd.v252 V, Cert.ReferenceIdeal.Rd.v251 V, Cert.ReferenceIdeal.Rd.v250 V, Cert.ReferenceIdeal.Rd.v249 V, Cert.ReferenceIdeal.Rd.v248 V, Cert.ReferenceIdeal.Rd.v247 V, Cert.ReferenceIdeal.Rd.v246 V, Cert.ReferenceIdeal.Rd.v212 V, Cert.ReferenceIdeal.Rd.v211 V, Cert.ReferenceIdeal.Rd.v210 V, Cert.ReferenceIdeal.Rd.v209 V, Cert.ReferenceIdeal.Rd.v208 V, Cert.ReferenceIdeal.Rd.v207 V, Cert.ReferenceIdeal.Rd.v206 V, Cert.ReferenceIdeal.Rd.v205 V, Cert.ReferenceIdeal.Rd.v204 V, Cert.ReferenceIdeal.Rd.v170 V, Cert.ReferenceIdeal.Rd.v169 V, Cert.ReferenceIdeal.Rd.v168 V, Cert.ReferenceIdeal.Rd.v167 V, Cert.ReferenceIdeal.Rd.v166 V, Cert.ReferenceIdeal.Rd.v165 V, Cert.ReferenceIdeal.Rd.v164 V, Cert.ReferenceIdeal.Rd.v163 V, Cert.ReferenceIdeal.Rd.v162 V,
    q_v245 V, q_v203 V, q_v161 V, q_v128 V, Cert.ReferenceIdeal.Rd.v0 V, Cert.ReferenceIdeal.Rd.cst V]
  exact (Cert.ReferenceIdeal.HostValue.comb_ref _ _ _ _ _ _ _).symm

/-- The logits (the second result). -/
theorem sFC (c : Dev Cert.KernelIdeal.nD) (V : Valuation Cert.ReferenceIdeal.τ Cert.ReferenceIdeal.sig (Elt Ideal)) (hA : Agree m ρ c V) (hH0 : W42 (F := Ideal) m ρ c (Proc.devRef .tc Cert.KernelIdeal.main_v20) = Cert.ReferenceIdeal.Rd.Z (F := Ideal) V Cert.ReferenceIdeal.main_v21) (hH1 : W42 (F := Ideal) m ρ c (Proc.devRef .tc Cert.KernelIdeal.main_v51) = Cert.ReferenceIdeal.Rd.Z (F := Ideal) V Cert.ReferenceIdeal.main_v63) (hH2 : W42 (F := Ideal) m ρ c (Proc.devRef .tc Cert.KernelIdeal.main_v82) = Cert.ReferenceIdeal.Rd.Z (F := Ideal) V Cert.ReferenceIdeal.main_v105) (hC1 : W42 (F := Ideal) m ρ c (Proc.devRef .tc Cert.KernelIdeal.main_v98) = Cert.ReferenceIdeal.Rd.Z (F := Ideal) V Cert.ReferenceIdeal.main_v127) (hH3 : W42 (F := Ideal) m ρ c (Proc.devRef .tc Cert.KernelIdeal.main_v119) = Cert.ReferenceIdeal.Rd.Z (F := Ideal) V Cert.ReferenceIdeal.main_v149) (hH4 : W42 (F := Ideal) m ρ c (Proc.devRef .tc Cert.KernelIdeal.main_v150) = Cert.ReferenceIdeal.Rd.Z (F := Ideal) V Cert.ReferenceIdeal.main_v191) (hH5 : W42 (F := Ideal) m ρ c (Proc.devRef .tc Cert.KernelIdeal.main_v181) = Cert.ReferenceIdeal.Rd.Z (F := Ideal) V Cert.ReferenceIdeal.main_v233) (hC2 : W42 (F := Ideal) m ρ c (Proc.devRef .tc Cert.KernelIdeal.main_v197) = Cert.ReferenceIdeal.Rd.Z (F := Ideal) V Cert.ReferenceIdeal.main_v254) :
    W42 (F := Ideal) m ρ c (Proc.devRef .tc Cert.KernelIdeal.main_v199) = Cert.ReferenceIdeal.Rd.Z (F := Ideal) V Cert.ReferenceIdeal.main_v258 := by
  rw [Cert.KernelIdeal.Rd.v199 m ρ c, hC2, hA.a7, hA.a8,
    Cert.ReferenceIdeal.Rd.v258 V, Cert.ReferenceIdeal.Rd.v257 V, Cert.ReferenceIdeal.Rd.v256 V, Cert.ReferenceIdeal.Rd.v255 V]
  exact (Cert.ReferenceIdeal.HostValue.fc_ref _ _ _).symm

end Cert.Bridge

end
-- ==== Proof.lean ====
/-
  A two-layer heterogeneous graph convolution (three relations, sum-aggregated, degree-normalised on both ends) followed by a
  linear layer, over 100000 nodes.  The kernel program forms the dense steps in nine regions on blocks of 2000 rows — per
  relation (x · diag d_out^(-1/2)) W, per layer the sum over relations of agg_r · diag d_in^(-1/2) plus the summed biases (with the
  leaky rectifier after the first layer), and the final h W + b — and leaves the edge gathers, the scatter-adds and the degree
  counts to host operations; the reference does everything with host operations, accumulating the relations one by one from zero.

  At the ideal instance (a float an extended real, every operation exact, a change of format the identity) both programs apply
  the SAME host operations to operands that agree, buffer by buffer, except at nine places; there the region's output array and
  the reference's buffer are the same whole-array function (HGcn.smm256 / smm128 / comb / leaky / fc of Proof/Spec.lean) of
  agreeing operands: a matrix product is the same sum over the inner index whether taken block by block or at once, and the
  sum of the three scaled messages and the three bias rows does not depend on the order of addition (extended reals under + are a
  commutative monoid; nothing here needs finiteness, so the precondition is not opened).  The two results — the second layer's
  output and the logits — are therefore equal entry by entry.

  The three frames: the kernel programs' are the generated frame certificates; the reference's is its run (every buffer at the fold
  of its operations over the launch memory) read at the arguments, which no operation writes.  The idealization rewrote nothing,
  so there is nothing to preserve.
-/
import proofs.«124848_j55800215109809_1_alg».proof.Defs
import proofs.«124848_j55800215109809_1_alg».proof.Proof.Gen.Kernel
import proofs.«124848_j55800215109809_1_alg».proof.Proof.Gen.Kernel.Frame
import proofs.«124848_j55800215109809_1_alg».proof.Proof.Gen.KernelIdeal
import proofs.«124848_j55800215109809_1_alg».proof.Proof.Gen.KernelIdeal.Frame
import proofs.«124848_j55800215109809_1_alg».proof.Proof.Gen.ReferenceIdeal
import proofs.«124848_j55800215109809_1_alg».proof.Proof.Gen.Pre_finite_inputs
import proofs.«124848_j55800215109809_1_alg».proof.Proof.KernelRun
import proofs.«124848_j55800215109809_1_alg».proof.Proof.RefOps
import proofs.«124848_j55800215109809_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

theorem frame_kernel : Cert.frame_Kernel := fun m ρ _ => Cert.Kernel.Gen.frame m ρ

theorem frame_kernelIdeal : Cert.frame_KernelIdeal := fun m ρ _ => Cert.KernelIdeal.Gen.frame m ρ

/-- The reference ends with its arguments as launched: no operation writes an argument. -/
theorem frame_referenceIdeal : Cert.frame_ReferenceIdeal := fun m ρ _ =>
  (θ_run Cert.ReferenceIdeal.defs _ _).mono (fun _ h c =>
    ⟨(h c Cert.ReferenceIdeal.main_arg0).trans (Cert.ReferenceIdeal.Rd.arg0 _),
     (h c Cert.ReferenceIdeal.main_arg1).trans (Cert.ReferenceIdeal.Rd.arg1 _),
     (h c Cert.ReferenceIdeal.main_arg2).trans (Cert.ReferenceIdeal.Rd.arg2 _),
     (h c Cert.ReferenceIdeal.main_arg3).trans (Cert.ReferenceIdeal.Rd.arg3 _),
     (h c Cert.ReferenceIdeal.main_arg4).trans (Cert.ReferenceIdeal.Rd.arg4 _),
     (h c Cert.ReferenceIdeal.main_arg5).trans (Cert.ReferenceIdeal.Rd.arg5 _),
     (h c Cert.ReferenceIdeal.main_arg6).trans (Cert.ReferenceIdeal.Rd.arg6 _),
     (h c Cert.ReferenceIdeal.main_arg7).trans (Cert.ReferenceIdeal.Rd.arg7 _),
     (h c Cert.ReferenceIdeal.main_arg8).trans (Cert.ReferenceIdeal.Rd.arg8 _)⟩)
    (Cert.ReferenceIdeal.Hand.run_main (F := Ideal) m ρ)

/-- The two idealized programs, run from memories that agree on the arguments, end with equal results. -/
theorem algebraic : Cert.algebraic_KernelIdeal_ReferenceIdeal := by
  intro m ρ m' ρ' _ hagree
  have hA : ∀ c, Cert.Bridge.Agree m ρ c (launchContents m' c) := fun c =>
    { a0 := (Cert.KernelIdeal.Gen.W42_main_arg0 m ρ c).trans ((hagree c).1.symm.trans (Cert.ReferenceIdeal.Rd.arg0 (launchContents m' c)).symm)
      a1 := (Cert.KernelIdeal.Gen.W42_main_arg1 m ρ c).trans ((hagree c).2.1.symm.trans (Cert.ReferenceIdeal.Rd.arg1 (launchContents m' c)).symm)
      a2 := (Cert.KernelIdeal.Gen.W42_main_arg2 m ρ c).trans ((hagree c).2.2.1.symm.trans (Cert.ReferenceIdeal.Rd.arg2 (launchContents m' c)).symm)
      a3 := (Cert.KernelIdeal.Gen.W42_main_arg3 m ρ c).trans ((hagree c).2.2.2.1.symm.trans (Cert.ReferenceIdeal.Rd.arg3 (launchContents m' c)).symm)
      a4 := (Cert.KernelIdeal.Gen.W42_main_arg4 m ρ c).trans ((hagree c).2.2.2.2.1.symm.trans (Cert.ReferenceIdeal.Rd.arg4 (launchContents m' c)).symm)
      a5 := (Cert.KernelIdeal.Gen.W42_main_arg5 m ρ c).trans ((hagree c).2.2.2.2.2.1.symm.trans (Cert.ReferenceIdeal.Rd.arg5 (launchContents m' c)).symm)
      a6 := (Cert.KernelIdeal.Gen.W42_main_arg6 m ρ c).trans ((hagree c).2.2.2.2.2.2.1.symm.trans (Cert.ReferenceIdeal.Rd.arg6 (launchContents m' c)).symm)
      a7 := (Cert.KernelIdeal.Gen.W42_main_arg7 m ρ c).trans ((hagree c).2.2.2.2.2.2.2.1.symm.trans (Cert.ReferenceIdeal.Rd.arg7 (launchContents m' c)).symm)
      a8 := (Cert.KernelIdeal.Gen.W42_main_arg8 m ρ c).trans ((hagree c).2.2.2.2.2.2.2.2.symm.trans (Cert.ReferenceIdeal.Rd.arg8 (launchContents m' c)).symm) }
  have h0 := fun c => Cert.Bridge.sH0 m ρ c _ (hA c)
  have h1 := fun c => Cert.Bridge.sH1 m ρ c _ (hA c)
  have h2 := fun c => Cert.Bridge.sH2 m ρ c _ (hA c)
  have hc1 := fun c => Cert.Bridge.sC1 m ρ c _ (hA c) (h0 c) (h1 c) (h2 c)
  have h3 := fun c => Cert.Bridge.sH3 m ρ c _ (hA c) (h0 c) (h1 c) (h2 c) (hc1 c)
  have h4 := fun c => Cert.Bridge.sH4 m ρ c _ (hA c) (h0 c) (h1 c) (h2 c) (hc1 c)
  have h5 := fun c => Cert.Bridge.sH5 m ρ c _ (hA c) (h0 c) (h1 c) (h2 c) (hc1 c)
  have hc2 := fun c => Cert.Bridge.sC2 m ρ c _ (hA c) (h0 c) (h1 c) (h2 c) (hc1 c) (h3 c) (h4 c) (h5 c)
  have hfc := fun c => Cert.Bridge.sFC m ρ c _ (hA c) (h0 c) (h1 c) (h2 c) (hc1 c) (h3 c) (h4 c) (h5 c) (hc2 c)
  refine ⟨fun c => Cert.KernelIdeal.Gen.W42 (F := Ideal) m ρ c (Proc.devRef .tc Cert.KernelIdeal.main_v197),
    fun c => Cert.KernelIdeal.Gen.W42 (F := Ideal) m ρ c (Proc.devRef .tc Cert.KernelIdeal.main_v199), ?_, ?_⟩
  · exact (θ_run Cert.KernelIdeal.defs _ _).mono (fun _ h c =>
      ⟨h c Cert.KernelIdeal.main_v197 (by decide), h c Cert.KernelIdeal.main_v199 (by decide),
       (h c Cert.KernelIdeal.main_arg0 (by decide)).trans (Cert.KernelIdeal.Gen.W42_main_arg0 m ρ c),
       (h c Cert.KernelIdeal.main_arg1 (by decide)).trans (Cert.KernelIdeal.Gen.W42_main_arg1 m ρ c),
       (h c Cert.KernelIdeal.main_arg2 (by decide)).trans (Cert.KernelIdeal.Gen.W42_main_arg2 m ρ c),
       (h c Cert.KernelIdeal.main_arg3 (by decide)).trans (Cert.KernelIdeal.Gen.W42_main_arg3 m ρ c),
       (h c Cert.KernelIdeal.main_arg4 (by decide)).trans (Cert.KernelIdeal.Gen.W42_main_arg4 m ρ c),
       (h c Cert.KernelIdeal.main_arg5 (by decide)).trans (Cert.KernelIdeal.Gen.W42_main_arg5 m ρ c),
       (h c Cert.KernelIdeal.main_arg6 (by decide)).trans (Cert.KernelIdeal.Gen.W42_main_arg6 m ρ c),
       (h c Cert.KernelIdeal.main_arg7 (by decide)).trans (Cert.KernelIdeal.Gen.W42_main_arg7 m ρ c),
       (h c Cert.KernelIdeal.main_arg8 (by decide)).trans (Cert.KernelIdeal.Gen.W42_main_arg8 m ρ c)⟩)
      (Cert.KernelIdeal.Run.run_all (F := Ideal) m ρ)
  · exact (θ_run Cert.ReferenceIdeal.defs _ _).mono (fun _ h c =>
      ⟨(h c Cert.ReferenceIdeal.main_v254).trans (hc2 c).symm, (h c Cert.ReferenceIdeal.main_v258).trans (hfc c).symm,
       (h c Cert.ReferenceIdeal.main_arg0).trans (Cert.ReferenceIdeal.Rd.arg0 _),
       (h c Cert.ReferenceIdeal.main_arg1).trans (Cert.ReferenceIdeal.Rd.arg1 _),
       (h c Cert.ReferenceIdeal.main_arg2).trans (Cert.ReferenceIdeal.Rd.arg2 _),
       (h c Cert.ReferenceIdeal.main_arg3).trans (Cert.ReferenceIdeal.Rd.arg3 _),
       (h c Cert.ReferenceIdeal.main_arg4).trans (Cert.ReferenceIdeal.Rd.arg4 _),
       (h c Cert.ReferenceIdeal.main_arg5).trans (Cert.ReferenceIdeal.Rd.arg5 _),
       (h c Cert.ReferenceIdeal.main_arg6).trans (Cert.ReferenceIdeal.Rd.arg6 _),
       (h c Cert.ReferenceIdeal.main_arg7).trans (Cert.ReferenceIdeal.Rd.arg7 _),
       (h c Cert.ReferenceIdeal.main_arg8).trans (Cert.ReferenceIdeal.Rd.arg8 _)⟩)
      (Cert.ReferenceIdeal.Hand.run_main (F := Ideal) m' ρ')

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
